-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000 : Shape := ⟨1, ![10000]⟩
abbrev S320000x16 : Shape := ⟨2, ![320000, 16]⟩
abbrev S320000 : Shape := ⟨1, ![320000]⟩
abbrev S93x128 : Shape := ⟨2, ![93, 128]⟩
abbrev S128x272 : Shape := ⟨2, ![128, 272]⟩
abbrev S128 : Shape := ⟨1, ![128]⟩
abbrev S_ : Shape := ⟨0, ![]⟩

class Facts : Prop where
  bcast_S_S320000x16 : S_.BroadcastsInDim S320000x16 (![] : Fin 0 → Fin S320000x16.rank)
  reducesTo_S320000x16_S_d0_1 : S320000x16.ReducesTo [0, 1] S_
  h_S_ : 0 < S_.numel
  bcast_S_S93x128 : S_.BroadcastsInDim S93x128 (![] : Fin 0 → Fin S93x128.rank)
  reducesTo_S93x128_S_d0_1 : S93x128.ReducesTo [0, 1] S_
  bcast_S_S128x272 : S_.BroadcastsInDim S128x272 (![] : Fin 0 → Fin S128x272.rank)
  reducesTo_S128x272_S_d0_1 : S128x272.ReducesTo [0, 1] S_
  bcast_S_S128 : S_.BroadcastsInDim S128 (![] : Fin 0 → Fin S128.rank)
  reducesTo_S128_S_d0 : S128.ReducesTo [0] S_
  bcast_S_S10000 : S_.BroadcastsInDim S10000 (![] : Fin 0 → Fin S10000.rank)
  reducesTo_S10000_S_d0 : S10000.ReducesTo [0] S_
  bcast_S_S320000 : S_.BroadcastsInDim S320000 (![] : Fin 0 → Fin S320000.rank)
  reducesTo_S320000_S_d0 : S320000.ReducesTo [0] S_

variable [Facts]

def fn_part2 {F : FTy → Type} [FloatOps F] (main_arg3 : IVec S320000 32) (main_v32 : IVec S_ 1) (main_c_12 : IVec S_ 32) : IVec S_ 1 :=
  let main_v33 : IVec S320000 32 := broadcastInDim S320000 ![] bcast_S_S320000 main_c_12
  let main_v34 : IVec S320000 1 := cmpi .sge main_arg3 main_v33
  let main_c_13 : IVec S_ 32 := constantI S_ 32 9999#32
  let main_v35 : IVec S320000 32 := broadcastInDim S320000 ![] bcast_S_S320000 main_c_13
  let main_v36 : IVec S320000 1 := cmpi .sle main_arg3 main_v35
  let main_v37 : IVec S320000 1 := andi main_v34 main_v36
  let main_c_14 : IVec S_ 1 := constantI S_ 1 1#1
  let main_v38 : IVec S_ 1 := (fun x v => Host.reduce IntOp.andi x v reducesTo_S320000_S_d0 h_S_) main_v37 main_c_14
  let main_v39 : IVec S_ 1 := andi main_v32 main_v38
  main_v39

def fn_part1 {F : FTy → Type} [FloatOps F] (main_arg0 : IVec S10000 32) (main_arg2 : IVec S320000 32) (main_arg3 : IVec S320000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 1#32
  let main_v19 : IVec S10000 32 := broadcastInDim S10000 ![] bcast_S_S10000 main_c_6
  let main_v20 : IVec S10000 1 := cmpi .sge main_arg0 main_v19
  let main_c_7 : IVec S_ 32 := constantI S_ 32 92#32
  let main_v21 : IVec S10000 32 := broadcastInDim S10000 ![] bcast_S_S10000 main_c_7
  let main_v22 : IVec S10000 1 := cmpi .sle main_arg0 main_v21
  let main_v23 : IVec S10000 1 := andi main_v20 main_v22
  let main_c_8 : IVec S_ 1 := constantI S_ 1 1#1
  let main_v24 : IVec S_ 1 := (fun x v => Host.reduce IntOp.andi x v reducesTo_S10000_S_d0 h_S_) main_v23 main_c_8
  let main_v25 : IVec S_ 1 := andi main_v18 main_v24
  let main_c_9 : IVec S_ 32 := constantI S_ 32 0#32
  let main_v26 : IVec S320000 32 := broadcastInDim S320000 ![] bcast_S_S320000 main_c_9
  let main_v27 : IVec S320000 1 := cmpi .sge main_arg2 main_v26
  let main_c_10 : IVec S_ 32 := constantI S_ 32 9999#32
  let main_v28 : IVec S320000 32 := broadcastInDim S320000 ![] bcast_S_S320000 main_c_10
  let main_v29 : IVec S320000 1 := cmpi .sle main_arg2 main_v28
  let main_v30 : IVec S320000 1 := andi main_v27 main_v29
  let main_c_11 : IVec S_ 1 := constantI S_ 1 1#1
  let main_v31 : IVec S_ 1 := (fun x v => Host.reduce IntOp.andi x v reducesTo_S320000_S_d0 h_S_) main_v30 main_c_11
  let main_v32 : IVec S_ 1 := andi main_v25 main_v31
  let main_c_12 : IVec S_ 32 := constantI S_ 32 0#32
  fn_part2 (F := F) main_arg3 main_v32 main_c_12

def fn {F : FTy → Type} [FloatOps F] (main_arg0 : IVec S10000 32) (main_arg1 : FVec F S320000x16 .f32) (main_arg2 : IVec S320000 32) (main_arg3 : IVec S320000 32) (main_arg4 : FVec F S93x128 .f32) (main_arg5 : FVec F S128x272 .f32) (main_arg6 : FVec F S128 .f32) : IVec S_ 1 :=
  let main_v0 : FVec F S320000x16 .f32 := Host.absf main_arg1
  let main_cst : FVec F S_ .f32 := constant S_ .f32 0x7F800000#32
  let main_v1 : FVec F S320000x16 .f32 := broadcastInDim S320000x16 ![] bcast_S_S320000x16 main_cst
  let main_v2 : IVec S320000x16 1 := cmpf .olt main_v0 main_v1
  let main_c : IVec S_ 1 := constantI S_ 1 1#1
  let main_v3 : IVec S_ 1 := (fun x v => Host.reduce IntOp.andi x v reducesTo_S320000x16_S_d0_1 h_S_) main_v2 main_c
  let main_v4 : FVec F S93x128 .f32 := Host.absf main_arg4
  let main_cst_0 : FVec F S_ .f32 := constant S_ .f32 0x7F800000#32
  let main_v5 : FVec F S93x128 .f32 := broadcastInDim S93x128 ![] bcast_S_S93x128 main_cst_0
  let main_v6 : IVec S93x128 1 := cmpf .olt main_v4 main_v5
  let main_c_1 : IVec S_ 1 := constantI S_ 1 1#1
  let main_v7 : IVec S_ 1 := (fun x v => Host.reduce IntOp.andi x v reducesTo_S93x128_S_d0_1 h_S_) main_v6 main_c_1
  let main_v8 : IVec S_ 1 := andi main_v3 main_v7
  let main_v9 : FVec F S128x272 .f32 := Host.absf main_arg5
  let main_cst_2 : FVec F S_ .f32 := constant S_ .f32 0x7F800000#32
  let main_v10 : FVec F S128x272 .f32 := broadcastInDim S128x272 ![] bcast_S_S128x272 main_cst_2
  let main_v11 : IVec S128x272 1 := cmpf .olt main_v9 main_v10
  let main_c_3 : IVec S_ 1 := constantI S_ 1 1#1
  let main_v12 : IVec S_ 1 := (fun x v => Host.reduce IntOp.andi x v reducesTo_S128x272_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg2 main_arg3 main_v13 main_v16
-- ==== Kernel.lean ====
abbrev S10000 : Shape := ⟨1, ![10000]⟩
abbrev S320000x16 : Shape := ⟨2, ![320000, 16]⟩
abbrev S320000 : Shape := ⟨1, ![320000]⟩
abbrev S93x128 : Shape := ⟨2, ![93, 128]⟩
abbrev S128x272 : Shape := ⟨2, ![128, 272]⟩
abbrev S128 : Shape := ⟨1, ![128]⟩
abbrev S10000x1 : Shape := ⟨2, ![10000, 1]⟩
abbrev S_ : Shape := ⟨0, ![]⟩
abbrev S128x128 : Shape := ⟨2, ![128, 128]⟩
abbrev S10000x128 : Shape := ⟨2, ![10000, 128]⟩
abbrev S1000x1 : Shape := ⟨2, ![1000, 1]⟩
abbrev S1000x128 : Shape := ⟨2, ![1000, 128]⟩
abbrev S128x16 : Shape := ⟨2, ![128, 16]⟩
abbrev S1x128 : Shape := ⟨2, ![1, 128]⟩
abbrev S108800x128 : Shape := ⟨2, ![108800, 128]⟩
abbrev S3400 : Shape := ⟨1, ![3400]⟩
abbrev S200x128 : Shape := ⟨2, ![200, 128]⟩
abbrev S200 : Shape := ⟨1, ![200]⟩
abbrev S1x16 : Shape := ⟨2, ![1, 16]⟩
abbrev S16 : Shape := ⟨1, ![16]⟩
abbrev S102400x128 : Shape := ⟨2, ![102400, 128]⟩
abbrev S3200 : Shape := ⟨1, ![3200]⟩
abbrev S320000x128 : Shape := ⟨2, ![320000, 128]⟩
abbrev S1600x128 : Shape := ⟨2, ![1600, 128]⟩
abbrev S1600x16 : Shape := ⟨2, ![1600, 16]⟩

abbrev nBuf : Table → Nat
  | .hbm => 22
  | .local .tc .vmem => 34
  | .local .scVector .vmem => 18
  | _ => 0

abbrev bufTy : (tb : Table) → Fin (nBuf tb) → BufTy
  | .hbm, ⟨0, _⟩ => ⟨S10000, .i32⟩
  | .hbm, ⟨1, _⟩ => ⟨S320000x16, .f32⟩
  | .hbm, ⟨2, _⟩ => ⟨S320000, .i32⟩
  | .hbm, ⟨3, _⟩ => ⟨S320000, .i32⟩
  | .hbm, ⟨4, _⟩ => ⟨S93x128, .f32⟩
  | .hbm, ⟨5, _⟩ => ⟨S128x272, .f32⟩
  | .hbm, ⟨6, _⟩ => ⟨S128, .f32⟩
  | .hbm, ⟨7, _⟩ => ⟨S10000x1, .i32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S128x16, .f32⟩
  | .hbm, ⟨15, _⟩ => ⟨S1x128, .f32⟩
  | .hbm, ⟨16, _⟩ => ⟨S108800x128, .f32⟩
  | .hbm, ⟨17, _⟩ => ⟨S108800x128, .f32⟩
  | .hbm, ⟨18, _⟩ => ⟨S102400x128, .f32⟩
  | .hbm, ⟨19, _⟩ => ⟨S320000x128, .f32⟩
  | .hbm, ⟨20, _⟩ => ⟨S320000x128, .f32⟩
  | .hbm, ⟨21, _⟩ => ⟨S320000x128, .f32⟩
  | .local .tc .vmem, ⟨0, _⟩ => ⟨S1000x1, .i32⟩
  | .local .tc .vmem, ⟨1, _⟩ => ⟨S1000x1, .i32⟩
  | .local .tc .vmem, ⟨2, _⟩ => ⟨S128x128, .f32⟩
  | .local .tc .vmem, ⟨3, _⟩ => ⟨S128x272, .f32⟩
  | .local .tc .vmem, ⟨4, _⟩ => ⟨S1000x128, .f32⟩
  | .local .tc .vmem, ⟨5, _⟩ => ⟨S1000x128, .f32⟩
  | .local .tc .vmem, ⟨6, _⟩ => ⟨S1000x128, .f32⟩
  | .local .tc .vmem, ⟨7, _⟩ => ⟨S1000x128, .f32⟩
  | .local .tc .vmem, ⟨8, _⟩ => ⟨S1000x128, .f32⟩
  | .local .tc .vmem, ⟨9, _⟩ => ⟨S1000x128, .f32⟩
  | .local .tc .vmem, ⟨10, _⟩ => ⟨S1600x128, .f32⟩
  | .local .tc .vmem, ⟨11, _⟩ => ⟨S1600x128, .f32⟩
  | .local .tc .vmem, ⟨12, _⟩ => ⟨S1600x16, .f32⟩
  | .local .tc .vmem, ⟨13, _⟩ => ⟨S1600x16, .f32⟩
  | .local .tc .vmem, ⟨14, _⟩ => ⟨S128x16, .f32⟩
  | .local .tc .vmem, ⟨15, _⟩ => ⟨S1x128, .f32⟩
  | .local .tc .vmem, ⟨16, _⟩ => ⟨S1600x128, .f32⟩
  | .local .tc .vmem, ⟨17, _⟩ => ⟨S1600x128, .f32⟩
  | .local .tc .vmem, ⟨18, _⟩ => ⟨S1600x128, .f32⟩
  | .local .tc .vmem, ⟨19, _⟩ => ⟨S1600x128, .f32⟩
  | .local .tc .vmem, ⟨20, _⟩ => ⟨S1600x16, .f32⟩
  | .local .tc .vmem, ⟨21, _⟩ => ⟨S1600x16, .f32⟩
  | .local .tc .vmem, ⟨22, _⟩ => ⟨S128x16, .f32⟩
  | .local .tc .vmem, ⟨23, _⟩ => ⟨S1x128, .f32⟩
  | .local .tc .vmem, ⟨24, _⟩ => ⟨S1600x128, .f32⟩
  | .local .tc .vmem, ⟨25, _⟩ => ⟨S1600x128, .f32⟩
  | .local .tc .vmem, ⟨26, _⟩ => ⟨S1600x128, .f32⟩
  | .local .tc .vmem, ⟨27, _⟩ => ⟨S1600x128, .f32⟩
  | .local .tc .vmem, ⟨28, _⟩ => ⟨S1600x16, .f32⟩
  | .local .tc .vmem, ⟨29, _⟩ => ⟨S1600x16, .f32⟩
  | .local .tc .vmem, ⟨30, _⟩ => ⟨S128x16, .f32⟩
  | .local .tc .vmem, ⟨31, _⟩ => ⟨S1x128, .f32⟩
  | .local .tc .vmem, ⟨32, _⟩ => ⟨S1600x128, .f32⟩
  | .local .tc .vmem, ⟨33, _⟩ => ⟨S1600x128, .f32⟩
  | .local .scVector .vmem, ⟨0, _⟩ => ⟨S3400, .i32⟩
  | .local .scVector .vmem, ⟨1, _⟩ => ⟨S3400, .i32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | .local .scVector .vmem, ⟨5, _⟩ => ⟨S200x128, .f32⟩
  | .local .scVector .vmem, ⟨6, _⟩ => ⟨S3400, .i32⟩
  | .local .scVector .vmem, ⟨7, _⟩ => ⟨S3400, .i32⟩
  | .local .scVector .vmem, ⟨8, _⟩ => ⟨S200x128, .f32⟩
  | .local .scVector .vmem, ⟨9, _⟩ => ⟨S200x128, .f32⟩
  | .local .scVector .vmem, ⟨10, _⟩ => ⟨S200x128, .f32⟩
  | .local .scVector .vmem, ⟨11, _⟩ => ⟨S200x128, .f32⟩
  | .local .scVector .vmem, ⟨12, _⟩ => ⟨S3200, .i32⟩
  | .local .scVector .vmem, ⟨13, _⟩ => ⟨S3200, .i32⟩
  | .local .scVector .vmem, ⟨14, _⟩ => ⟨S200x128, .f32⟩
  | .local .scVector .vmem, ⟨15, _⟩ => ⟨S200x128, .f32⟩
  | .local .scVector .vmem, ⟨16, _⟩ => ⟨S200x128, .f32⟩
  | .local .scVector .vmem, ⟨17, _⟩ => ⟨S200x128, .f32⟩
  | _, _ => ⟨S10000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTables nBuf rfl bufTy 4 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v2_1_scv : Ref sig .scVector := ⟨.hbm, 12, rfl⟩
abbrev main_v2_2_scv : Ref sig .scVector := ⟨.hbm, 13, rfl⟩
abbrev main_arg2_scv : Ref sig .scVector := ⟨.hbm, 2, rfl⟩
abbrev main_arg3_scv : Ref sig .scVector := ⟨.hbm, 3, rfl⟩
abbrev main_v5_scv : Ref sig .scVector := ⟨.hbm, 16, rfl⟩
abbrev main_v6_scv : Ref sig .scVector := ⟨.hbm, 17, rfl⟩
abbrev main_v7_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc4_stg0_0 : Ref sig .tc := ⟨.vmem, 10, rfl⟩
abbrev cc4_stg0_1 : Ref sig .tc := ⟨.vmem, 11, rfl⟩
abbrev cc4_stg1_0 : Ref sig .tc := ⟨.vmem, 12, rfl⟩
abbrev cc4_stg1_1 : Ref sig .tc := ⟨.vmem, 13, rfl⟩
abbrev cc4_stg2_0 : Ref sig .tc := ⟨.vmem, 14, rfl⟩
abbrev cc4_stg3_0 : Ref sig .tc := ⟨.vmem, 15, rfl⟩
abbrev cc4_stg4_0 : Ref sig .tc := ⟨.vmem, 16, rfl⟩
abbrev cc4_stg4_1 : Ref sig .tc := ⟨.vmem, 17, rfl⟩
abbrev cc5_stg0_0 : Ref sig .tc := ⟨.vmem, 18, rfl⟩
abbrev cc5_stg0_1 : Ref sig .tc := ⟨.vmem, 19, rfl⟩
abbrev cc5_stg1_0 : Ref sig .tc := ⟨.vmem, 20, rfl⟩
abbrev cc5_stg1_1 : Ref sig .tc := ⟨.vmem, 21, rfl⟩
abbrev cc5_stg2_0 : Ref sig .tc := ⟨.vmem, 22, rfl⟩
abbrev cc5_stg3_0 : Ref sig .tc := ⟨.vmem, 23, rfl⟩
abbrev cc5_stg4_0 : Ref sig .tc := ⟨.vmem, 24, rfl⟩
abbrev cc5_stg4_1 : Ref sig .tc := ⟨.vmem, 25, rfl⟩
abbrev cc6_stg0_0 : Ref sig .tc := ⟨.vmem, 26, rfl⟩
abbrev cc6_stg0_1 : Ref sig .tc := ⟨.vmem, 27, rfl⟩
abbrev cc6_stg1_0 : Ref sig .tc := ⟨.vmem, 28, rfl⟩
abbrev cc6_stg1_1 : Ref sig .tc := ⟨.vmem, 29, rfl⟩
abbrev cc6_stg2_0 : Ref sig .tc := ⟨.vmem, 30, rfl⟩
abbrev cc6_stg3_0 : Ref sig .tc := ⟨.vmem, 31, rfl⟩
abbrev cc6_stg4_0 : Ref sig .tc := ⟨.vmem, 32, rfl⟩
abbrev cc6_stg4_1 : Ref sig .tc := ⟨.vmem, 33, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc2_scratch3 : Ref sig .scVector := ⟨.vmem, 9, rfl⟩
abbrev cc2_scratch4 : Ref sig .scVector := ⟨.vmem, 10, rfl⟩
abbrev cc2_scratch5 : Ref sig .scVector := ⟨.vmem, 11, rfl⟩
abbrev cc3_scratch0 : Ref sig .scVector := ⟨.vmem, 12, rfl⟩
abbrev cc3_scratch1 : Ref sig .scVector := ⟨.vmem, 13, rfl⟩
abbrev cc3_scratch2 : Ref sig .scVector := ⟨.vmem, 14, rfl⟩
abbrev cc3_scratch3 : Ref sig .scVector := ⟨.vmem, 15, rfl⟩
abbrev cc3_scratch4 : Ref sig .scVector := ⟨.vmem, 16, rfl⟩
abbrev cc3_scratch5 : Ref sig .scVector := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem4_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let v3 : BitVec 32 := Scalar.addi c0_i32 v2
  ![v3.toNat]
@[reducible] def k1_t1_loop : Scf.Loop 32 :=
  let c0_i32_8 : BitVec 32 := 0#32
  let c8_i32 : BitVec 32 := 8#32
  let v9 : BitVec 32 := Scalar.addi c0_i32_8 c8_i32
  let c1_i32 : BitVec 32 := 1#32
  ⟨c0_i32_8, v9, c1_i32⟩
def k1_off2 (k1_t1 : Fin k1_t1_loop.trips) (c1_i32_21 : BitVec 32) : Fin 1 → Nat :=
  let c2_i32_20 : BitVec 32 := 2#32
  let c0_i32_8 : BitVec 32 := 0#32
  let c1_i32 : BitVec 32 := 1#32
  let arg17 : BitVec 32 := Scf.iv c0_i32_8 c1_i32 k1_t1
  let v16 : BitVec 32 := Scalar.muli c2_i32_20 arg17
  let v17 : BitVec 32 := Scalar.addi v16 c1_i32_21
  let c200_i32_22 : BitVec 32 := 200#32
  let v18 : BitVec 32 := Scalar.muli v17 c200_i32_22
  ![v18.toNat]
@[reducible] def k1_t2_loop : Scf.Loop 32 :=
  let c0_i32_34 : BitVec 32 := 0#32
  let c200_i32_35 : BitVec 32 := 200#32
  let v27 : BitVec 32 := Scalar.addi c0_i32_34 c200_i32_35
  let c1_i32_36 : BitVec 32 := 1#32
  ⟨c0_i32_34, v27, c1_i32_36⟩
def k1_off3 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v44 : Index := Scalar.indexCast arg18
  let c0 : Index := 0#32
  ![v44.toNat, 0]
def k1_off4 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v55 : Index := Scalar.indexCast arg18
  let c16 : Index := 16#32
  ![v55.toNat, 16]
def k1_off5 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v66 : Index := Scalar.indexCast arg18
  let c32 : Index := 32#32
  ![v66.toNat, 32]
def k1_off6 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v77 : Index := Scalar.indexCast arg18
  let c48 : Index := 48#32
  ![v77.toNat, 48]
def k1_off7 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v88 : Index := Scalar.indexCast arg18
  let c64 : Index := 64#32
  ![v88.toNat, 64]
def k1_off8 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v99 : Index := Scalar.indexCast arg18
  let c80 : Index := 80#32
  ![v99.toNat, 80]
def k1_off9 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v110 : Index := Scalar.indexCast arg18
  let c96 : Index := 96#32
  ![v110.toNat, 96]
def k1_off10 (k1_t2 : Fin k1_t2_loop.trips) : Fin 2 → Nat :=
  let c0_i32_34 : BitVec 32 := 0#32
  let c1_i32_36 : BitVec 32 := 1#32
  let arg18 : BitVec 32 := Scf.iv c0_i32_34 c1_i32_36 k1_t2
  let v121 : Index := Scalar.indexCast arg18
  let c112 : Index := 112#32
  ![v121.toNat, 112]
def k1_off11 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c2_i32_20 : BitVec 32 := 2#32
  let c0_i32_8 : BitVec 32 := 0#32
  let c1_i32 : BitVec 32 := 1#32
  let arg17 : BitVec 32 := Scf.iv c0_i32_8 c1_i32 k1_t1
  let v16 : BitVec 32 := Scalar.muli c2_i32_20 arg17
  let c200_i32_38 : BitVec 32 := 200#32
  let v28 : BitVec 32 := Scalar.muli v16 c200_i32_38
  let v29 : BitVec 32 := Scalar.addi v2 v28
  let c0_i32_58_r2 : BitVec 32 := 0#32
  ![v29.toNat, 0]
@[reducible] def k1_t3_loop : Scf.Loop 32 :=
  let c0_i32_53 : BitVec 32 := 0#32
  let c200_i32_54 : BitVec 32 := 200#32
  let v41 : BitVec 32 := Scalar.addi c0_i32_53 c200_i32_54
  let c1_i32_55 : BitVec 32 := 1#32
  ⟨c0_i32_53, v41, c1_i32_55⟩
def k1_off12 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v44 : Index := Scalar.indexCast arg18
  let c0 : Index := 0#32
  ![v44.toNat, 0]
def k1_off13 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v55 : Index := Scalar.indexCast arg18
  let c16 : Index := 16#32
  ![v55.toNat, 16]
def k1_off14 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v66 : Index := Scalar.indexCast arg18
  let c32 : Index := 32#32
  ![v66.toNat, 32]
def k1_off15 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v77 : Index := Scalar.indexCast arg18
  let c48 : Index := 48#32
  ![v77.toNat, 48]
def k1_off16 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v88 : Index := Scalar.indexCast arg18
  let c64 : Index := 64#32
  ![v88.toNat, 64]
def k1_off17 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v99 : Index := Scalar.indexCast arg18
  let c80 : Index := 80#32
  ![v99.toNat, 80]
def k1_off18 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v110 : Index := Scalar.indexCast arg18
  let c96 : Index := 96#32
  ![v110.toNat, 96]
def k1_off19 (k1_t3 : Fin k1_t3_loop.trips) : Fin 2 → Nat :=
  let c0_i32_53 : BitVec 32 := 0#32
  let c1_i32_55 : BitVec 32 := 1#32
  let arg18 : BitVec 32 := Scf.iv c0_i32_53 c1_i32_55 k1_t3
  let v121 : Index := Scalar.indexCast arg18
  let c112 : Index := 112#32
  ![v121.toNat, 112]
def k1_off20 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c2_i32_20 : BitVec 32 := 2#32
  let c0_i32_8 : BitVec 32 := 0#32
  let c1_i32 : BitVec 32 := 1#32
  let arg17 : BitVec 32 := Scf.iv c0_i32_8 c1_i32 k1_t1
  let v16 : BitVec 32 := Scalar.muli c2_i32_20 arg17
  let c1_i32_51 : BitVec 32 := 1#32
  let v40 : BitVec 32 := Scalar.addi v16 c1_i32_51
  let c200_i32_57 : BitVec 32 := 200#32
  let v42 : BitVec 32 := Scalar.muli v40 c200_i32_57
  let v43 : BitVec 32 := Scalar.addi v2 v42
  let c0_i32_58_r3 : BitVec 32 := 0#32
  ![v43.toNat, 0]
@[reducible] def k1_t4_loop : Scf.Loop 32 :=
  let c0_i32_17 : BitVec 32 := 0#32
  let c200_i32 : BitVec 32 := 200#32
  let v14 : BitVec 32 := Scalar.addi c0_i32_17 c200_i32
  let c1_i32_18 : BitVec 32 := 1#32
  ⟨c0_i32_17, v14, c1_i32_18⟩
def k1_off21 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v16 : Index := Scalar.indexCast arg17
  let c0 : Index := 0#32
  ![v16.toNat, 0]
def k1_off22 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v27 : Index := Scalar.indexCast arg17
  let c16 : Index := 16#32
  ![v27.toNat, 16]
def k1_off23 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v38 : Index := Scalar.indexCast arg17
  let c32 : Index := 32#32
  ![v38.toNat, 32]
def k1_off24 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v49 : Index := Scalar.indexCast arg17
  let c48 : Index := 48#32
  ![v49.toNat, 48]
def k1_off25 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v60 : Index := Scalar.indexCast arg17
  let c64 : Index := 64#32
  ![v60.toNat, 64]
def k1_off26 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v71 : Index := Scalar.indexCast arg17
  let c80 : Index := 80#32
  ![v71.toNat, 80]
def k1_off27 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v82 : Index := Scalar.indexCast arg17
  let c96 : Index := 96#32
  ![v82.toNat, 96]
def k1_off28 (k1_t4 : Fin k1_t4_loop.trips) : Fin 2 → Nat :=
  let c0_i32_17 : BitVec 32 := 0#32
  let c1_i32_18 : BitVec 32 := 1#32
  let arg17 : BitVec 32 := Scf.iv c0_i32_17 c1_i32_18 k1_t4
  let v93 : Index := Scalar.indexCast arg17
  let c112 : Index := 112#32
  ![v93.toNat, 112]
def k1_off29 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c3200_i32 : BitVec 32 := 3200#32
  let v15 : BitVec 32 := Scalar.addi v2 c3200_i32
  let c0_i32_20_r4 : BitVec 32 := 0#32
  ![v15.toNat, 0]
abbrev grid2 : Pipeline.Grid := ⟨2, ![2, 16], ![false, false]⟩

def k2_off1 (i : grid2.Coords) : Fin 1 → Nat :=
  let c108800_i32 : BitVec 32 := 108800#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let v3 : BitVec 32 := Scalar.addi c108800_i32 v2
  ![v3.toNat]
@[reducible] def k2_t1_loop : Scf.Loop 32 :=
  let c0_i32_7 : BitVec 32 := 0#32
  let c8_i32 : BitVec 32 := 8#32
  let v9 : BitVec 32 := Scalar.addi c0_i32_7 c8_i32
  let c1_i32 : BitVec 32 := 1#32
  ⟨c0_i32_7, v9, c1_i32⟩
def k2_off2 (k2_t1 : Fin k2_t1_loop.trips) (c1_i32_20 : BitVec 32) : Fin 1 → Nat :=
  let c2_i32_19 : BitVec 32 := 2#32
  let c0_i32_7 : BitVec 32 := 0#32
  let c1_i32 : BitVec 32 := 1#32
  let arg17 : BitVec 32 := Scf.iv c0_i32_7 c1_i32 k2_t1
  let v16 : BitVec 32 := Scalar.muli c2_i32_19 arg17
  let v17 : BitVec 32 := Scalar.addi v16 c1_i32_20
  let c200_i32_21 : BitVec 32 := 200#32
  let v18 : BitVec 32 := Scalar.muli v17 c200_i32_21
  ![v18.toNat]
@[reducible] def k2_t2_loop : Scf.Loop 32 :=
  let c0_i32_33 : BitVec 32 := 0#32
  let c200_i32_34 : BitVec 32 := 200#32
  let v27 : BitVec 32 := Scalar.addi c0_i32_33 c200_i32_34
  let c1_i32_35 : BitVec 32 := 1#32
  ⟨c0_i32_33, v27, c1_i32_35⟩
def k2_off3 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v44 : Index := Scalar.indexCast arg18
  let c0 : Index := 0#32
  ![v44.toNat, 0]
def k2_off4 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v55 : Index := Scalar.indexCast arg18
  let c16 : Index := 16#32
  ![v55.toNat, 16]
def k2_off5 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v66 : Index := Scalar.indexCast arg18
  let c32 : Index := 32#32
  ![v66.toNat, 32]
def k2_off6 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v77 : Index := Scalar.indexCast arg18
  let c48 : Index := 48#32
  ![v77.toNat, 48]
def k2_off7 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v88 : Index := Scalar.indexCast arg18
  let c64 : Index := 64#32
  ![v88.toNat, 64]
def k2_off8 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v99 : Index := Scalar.indexCast arg18
  let c80 : Index := 80#32
  ![v99.toNat, 80]
def k2_off9 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v110 : Index := Scalar.indexCast arg18
  let c96 : Index := 96#32
  ![v110.toNat, 96]
def k2_off10 (k2_t2 : Fin k2_t2_loop.trips) : Fin 2 → Nat :=
  let c0_i32_33 : BitVec 32 := 0#32
  let c1_i32_35 : BitVec 32 := 1#32
  let arg18 : BitVec 32 := Scf.iv c0_i32_33 c1_i32_35 k2_t2
  let v121 : Index := Scalar.indexCast arg18
  let c112 : Index := 112#32
  ![v121.toNat, 112]
def k2_off11 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c2_i32_19 : BitVec 32 := 2#32
  let c0_i32_7 : BitVec 32 := 0#32
  let c1_i32 : BitVec 32 := 1#32
  let arg17 : BitVec 32 := Scf.iv c0_i32_7 c1_i32 k2_t1
  let v16 : BitVec 32 := Scalar.muli c2_i32_19 arg17
  let c200_i32_37 : BitVec 32 := 200#32
  let v28 : BitVec 32 := Scalar.muli v16 c200_i32_37
  let v29 : BitVec 32 := Scalar.addi v2 v28
  let c0_i32_57_r2 : BitVec 32 := 0#32
  ![v29.toNat, 0]
@[reducible] def k2_t3_loop : Scf.Loop 32 :=
  let c0_i32_52 : BitVec 32 := 0#32
  let c200_i32_53 : BitVec 32 := 200#32
  let v41 : BitVec 32 := Scalar.addi c0_i32_52 c200_i32_53
  let c1_i32_54 : BitVec 32 := 1#32
  ⟨c0_i32_52, v41, c1_i32_54⟩
def k2_off12 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v44 : Index := Scalar.indexCast arg18
  let c0 : Index := 0#32
  ![v44.toNat, 0]
def k2_off13 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v55 : Index := Scalar.indexCast arg18
  let c16 : Index := 16#32
  ![v55.toNat, 16]
def k2_off14 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v66 : Index := Scalar.indexCast arg18
  let c32 : Index := 32#32
  ![v66.toNat, 32]
def k2_off15 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v77 : Index := Scalar.indexCast arg18
  let c48 : Index := 48#32
  ![v77.toNat, 48]
def k2_off16 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v88 : Index := Scalar.indexCast arg18
  let c64 : Index := 64#32
  ![v88.toNat, 64]
def k2_off17 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v99 : Index := Scalar.indexCast arg18
  let c80 : Index := 80#32
  ![v99.toNat, 80]
def k2_off18 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v110 : Index := Scalar.indexCast arg18
  let c96 : Index := 96#32
  ![v110.toNat, 96]
def k2_off19 (k2_t3 : Fin k2_t3_loop.trips) : Fin 2 → Nat :=
  let c0_i32_52 : BitVec 32 := 0#32
  let c1_i32_54 : BitVec 32 := 1#32
  let arg18 : BitVec 32 := Scf.iv c0_i32_52 c1_i32_54 k2_t3
  let v121 : Index := Scalar.indexCast arg18
  let c112 : Index := 112#32
  ![v121.toNat, 112]
def k2_off20 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c2_i32_19 : BitVec 32 := 2#32
  let c0_i32_7 : BitVec 32 := 0#32
  let c1_i32 : BitVec 32 := 1#32
  let arg17 : BitVec 32 := Scf.iv c0_i32_7 c1_i32 k2_t1
  let v16 : BitVec 32 := Scalar.muli c2_i32_19 arg17
  let c1_i32_50 : BitVec 32 := 1#32
  let v40 : BitVec 32 := Scalar.addi v16 c1_i32_50
  let c200_i32_56 : BitVec 32 := 200#32
  let v42 : BitVec 32 := Scalar.muli v40 c200_i32_56
  let v43 : BitVec 32 := Scalar.addi v2 v42
  let c0_i32_57_r3 : BitVec 32 := 0#32
  ![v43.toNat, 0]
@[reducible] def k2_t4_loop : Scf.Loop 32 :=
  let c0_i32_16 : BitVec 32 := 0#32
  let c200_i32 : BitVec 32 := 200#32
  let v14 : BitVec 32 := Scalar.addi c0_i32_16 c200_i32
  let c1_i32_17 : BitVec 32 := 1#32
  ⟨c0_i32_16, v14, c1_i32_17⟩
def k2_off21 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v16 : Index := Scalar.indexCast arg17
  let c0 : Index := 0#32
  ![v16.toNat, 0]
def k2_off22 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v27 : Index := Scalar.indexCast arg17
  let c16 : Index := 16#32
  ![v27.toNat, 16]
def k2_off23 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v38 : Index := Scalar.indexCast arg17
  let c32 : Index := 32#32
  ![v38.toNat, 32]
def k2_off24 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v49 : Index := Scalar.indexCast arg17
  let c48 : Index := 48#32
  ![v49.toNat, 48]
def k2_off25 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v60 : Index := Scalar.indexCast arg17
  let c64 : Index := 64#32
  ![v60.toNat, 64]
def k2_off26 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v71 : Index := Scalar.indexCast arg17
  let c80 : Index := 80#32
  ![v71.toNat, 80]
def k2_off27 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v82 : Index := Scalar.indexCast arg17
  let c96 : Index := 96#32
  ![v82.toNat, 96]
def k2_off28 (k2_t4 : Fin k2_t4_loop.trips) : Fin 2 → Nat :=
  let c0_i32_16 : BitVec 32 := 0#32
  let c1_i32_17 : BitVec 32 := 1#32
  let arg17 : BitVec 32 := Scf.iv c0_i32_16 c1_i32_17 k2_t4
  let v93 : Index := Scalar.indexCast arg17
  let c112 : Index := 112#32
  ![v93.toNat, 112]
def k2_off29 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3400_i32 : BitVec 32 := 3400#32
  let v2 : BitVec 32 := Scalar.muli v1 c3400_i32
  let c3200_i32 : BitVec 32 := 3200#32
  let v15 : BitVec 32 := Scalar.addi v2 c3200_i32
  let c0_i32_19_r4 : BitVec 32 := 0#32
  ![v15.toNat, 0]
abbrev grid3 : Pipeline.Grid := ⟨2, ![2, 16], ![false, false]⟩

def k3_off1 (i : grid3.Coords) : Fin 1 → Nat :=
  let c217600_i32 : BitVec 32 := 217600#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v3 : BitVec 32 := Scalar.addi c217600_i32 v2
  ![v3.toNat]
@[reducible] def k3_t1_loop : Scf.Loop 32 :=
  let c0_i32_7 : BitVec 32 := 0#32
  let c7_i32 : BitVec 32 := 7#32
  let v9 : BitVec 32 := Scalar.addi c0_i32_7 c7_i32
  let c1_i32 : BitVec 32 := 1#32
  ⟨c0_i32_7, v9, c1_i32⟩
def k3_off2 (k3_t1 : Fin k3_t1_loop.trips) (c1_i32_37 : BitVec 32) : Fin 1 → Nat :=
  let c2_i32_36 : BitVec 32 := 2#32
  let c0_i32_7 : BitVec 32 := 0#32
  let c1_i32 : BitVec 32 := 1#32
  let arg17 : BitVec 32 := Scf.iv c0_i32_7 c1_i32 k3_t1
  let v26 : BitVec 32 := Scalar.muli c2_i32_36 arg17
  let v27 : BitVec 32 := Scalar.addi v26 c1_i32_37
  let c200_i32_38 : BitVec 32 := 200#32
  let v28 : BitVec 32 := Scalar.muli v27 c200_i32_38
  ![v28.toNat]
@[reducible] def k3_t2_loop : Scf.Loop 32 :=
  let c0_i32_50 : BitVec 32 := 0#32
  let c200_i32_51 : BitVec 32 := 200#32
  let v37 : BitVec 32 := Scalar.addi c0_i32_50 c200_i32_51
  let c1_i32_52 : BitVec 32 := 1#32
  ⟨c0_i32_50, v37, c1_i32_52⟩
def k3_off3 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v54 : Index := Scalar.indexCast arg18
  let c0 : Index := 0#32
  ![v54.toNat, 0]
def k3_off4 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v65 : Index := Scalar.indexCast arg18
  let c16 : Index := 16#32
  ![v65.toNat, 16]
def k3_off5 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v76 : Index := Scalar.indexCast arg18
  let c32 : Index := 32#32
  ![v76.toNat, 32]
def k3_off6 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v87 : Index := Scalar.indexCast arg18
  let c48 : Index := 48#32
  ![v87.toNat, 48]
def k3_off7 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v98 : Index := Scalar.indexCast arg18
  let c64 : Index := 64#32
  ![v98.toNat, 64]
def k3_off8 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v109 : Index := Scalar.indexCast arg18
  let c80 : Index := 80#32
  ![v109.toNat, 80]
def k3_off9 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v120 : Index := Scalar.indexCast arg18
  let c96 : Index := 96#32
  ![v120.toNat, 96]
def k3_off10 (k3_t2 : Fin k3_t2_loop.trips) : Fin 2 → Nat :=
  let c0_i32_50 : BitVec 32 := 0#32
  let c1_i32_52 : BitVec 32 := 1#32
  let arg18 : BitVec 32 := Scf.iv c0_i32_50 c1_i32_52 k3_t2
  let v131 : Index := Scalar.indexCast arg18
  let c112 : Index := 112#32
  ![v131.toNat, 112]
def k3_off11 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_36 : BitVec 32 := 2#32
  let c0_i32_7 : BitVec 32 := 0#32
  let c1_i32 : BitVec 32 := 1#32
  let arg17 : BitVec 32 := Scf.iv c0_i32_7 c1_i32 k3_t1
  let v26 : BitVec 32 := Scalar.muli c2_i32_36 arg17
  let c200_i32_54 : BitVec 32 := 200#32
  let v38 : BitVec 32 := Scalar.muli v26 c200_i32_54
  let v39 : BitVec 32 := Scalar.addi v2 v38
  let c0_i32_74_r2 : BitVec 32 := 0#32
  ![v39.toNat, 0]
@[reducible] def k3_t3_loop : Scf.Loop 32 :=
  let c0_i32_69 : BitVec 32 := 0#32
  let c200_i32_70 : BitVec 32 := 200#32
  let v51 : BitVec 32 := Scalar.addi c0_i32_69 c200_i32_70
  let c1_i32_71 : BitVec 32 := 1#32
  ⟨c0_i32_69, v51, c1_i32_71⟩
def k3_off12 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v54 : Index := Scalar.indexCast arg18
  let c0 : Index := 0#32
  ![v54.toNat, 0]
def k3_off13 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v65 : Index := Scalar.indexCast arg18
  let c16 : Index := 16#32
  ![v65.toNat, 16]
def k3_off14 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v76 : Index := Scalar.indexCast arg18
  let c32 : Index := 32#32
  ![v76.toNat, 32]
def k3_off15 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v87 : Index := Scalar.indexCast arg18
  let c48 : Index := 48#32
  ![v87.toNat, 48]
def k3_off16 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v98 : Index := Scalar.indexCast arg18
  let c64 : Index := 64#32
  ![v98.toNat, 64]
def k3_off17 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v109 : Index := Scalar.indexCast arg18
  let c80 : Index := 80#32
  ![v109.toNat, 80]
def k3_off18 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v120 : Index := Scalar.indexCast arg18
  let c96 : Index := 96#32
  ![v120.toNat, 96]
def k3_off19 (k3_t3 : Fin k3_t3_loop.trips) : Fin 2 → Nat :=
  let c0_i32_69 : BitVec 32 := 0#32
  let c1_i32_71 : BitVec 32 := 1#32
  let arg18 : BitVec 32 := Scf.iv c0_i32_69 c1_i32_71 k3_t3
  let v131 : Index := Scalar.indexCast arg18
  let c112 : Index := 112#32
  ![v131.toNat, 112]
def k3_off20 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let c2_i32_36 : BitVec 32 := 2#32
  let c0_i32_7 : BitVec 32 := 0#32
  let c1_i32 : BitVec 32 := 1#32
  let arg17 : BitVec 32 := Scf.iv c0_i32_7 c1_i32 k3_t1
  let v26 : BitVec 32 := Scalar.muli c2_i32_36 arg17
  let c1_i32_67 : BitVec 32 := 1#32
  let v50 : BitVec 32 := Scalar.addi v26 c1_i32_67
  let c200_i32_73 : BitVec 32 := 200#32
  let v52 : BitVec 32 := Scalar.muli v50 c200_i32_73
  let v53 : BitVec 32 := Scalar.addi v2 v52
  let c0_i32_74_r3 : BitVec 32 := 0#32
  ![v53.toNat, 0]
@[reducible] def k3_t4_loop : Scf.Loop 32 :=
  let c0_i32_21 : BitVec 32 := 0#32
  let c200_i32 : BitVec 32 := 200#32
  let v18 : BitVec 32 := Scalar.addi c0_i32_21 c200_i32
  let c1_i32_22 : BitVec 32 := 1#32
  ⟨c0_i32_21, v18, c1_i32_22⟩
def k3_off21 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v26 : Index := Scalar.indexCast arg17
  let c0 : Index := 0#32
  ![v26.toNat, 0]
def k3_off22 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v37 : Index := Scalar.indexCast arg17
  let c16 : Index := 16#32
  ![v37.toNat, 16]
def k3_off23 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v48 : Index := Scalar.indexCast arg17
  let c32 : Index := 32#32
  ![v48.toNat, 32]
def k3_off24 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v59 : Index := Scalar.indexCast arg17
  let c48 : Index := 48#32
  ![v59.toNat, 48]
def k3_off25 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v70 : Index := Scalar.indexCast arg17
  let c64 : Index := 64#32
  ![v70.toNat, 64]
def k3_off26 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v81 : Index := Scalar.indexCast arg17
  let c80 : Index := 80#32
  ![v81.toNat, 80]
def k3_off27 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v92 : Index := Scalar.indexCast arg17
  let c96 : Index := 96#32
  ![v92.toNat, 96]
def k3_off28 (k3_t4 : Fin k3_t4_loop.trips) : Fin 2 → Nat :=
  let c0_i32_21 : BitVec 32 := 0#32
  let c1_i32_22 : BitVec 32 := 1#32
  let arg17 : BitVec 32 := Scf.iv c0_i32_21 c1_i32_22 k3_t4
  let v103 : Index := Scalar.indexCast arg17
  let c112 : Index := 112#32
  ![v103.toNat, 112]
def k3_off29 (i : grid3.Coords) (c2800_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let v2 : BitVec 32 := Scalar.muli v1 c3200_i32
  let v19 : BitVec 32 := Scalar.addi v2 c2800_i32
  let c0_i32_36_r4 : BitVec 32 := 0#32
  ![v19.toNat, 0]
@[reducible] def k3_t5_loop : Scf.Loop 32 :=
  let c0_i32_31 : BitVec 32 := 0#32
  let c200_i32_32 : BitVec 32 := 200#32
  let v24 : BitVec 32 := Scalar.addi c0_i32_31 c200_i32_32
  let c1_i32_33 : BitVec 32 := 1#32
  ⟨c0_i32_31, v24, c1_i32_33⟩
def k3_off30 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v26 : Index := Scalar.indexCast arg17
  let c0 : Index := 0#32
  ![v26.toNat, 0]
def k3_off31 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v37 : Index := Scalar.indexCast arg17
  let c16 : Index := 16#32
  ![v37.toNat, 16]
def k3_off32 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v48 : Index := Scalar.indexCast arg17
  let c32 : Index := 32#32
  ![v48.toNat, 32]
def k3_off33 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v59 : Index := Scalar.indexCast arg17
  let c48 : Index := 48#32
  ![v59.toNat, 48]
def k3_off34 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v70 : Index := Scalar.indexCast arg17
  let c64 : Index := 64#32
  ![v70.toNat, 64]
def k3_off35 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v81 : Index := Scalar.indexCast arg17
  let c80 : Index := 80#32
  ![v81.toNat, 80]
def k3_off36 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v92 : Index := Scalar.indexCast arg17
  let c96 : Index := 96#32
  ![v92.toNat, 96]
def k3_off37 (k3_t5 : Fin k3_t5_loop.trips) : Fin 2 → Nat :=
  let c0_i32_31 : BitVec 32 := 0#32
  let c1_i32_33 : BitVec 32 := 1#32
  let arg17 : BitVec 32 := Scf.iv c0_i32_31 c1_i32_33 k3_t5
  let v103 : Index := Scalar.indexCast arg17
  let c112 : Index := 112#32
  ![v103.toNat, 112]
abbrev grid4 : Pipeline.Grid := ⟨1, ![68], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 2 → Memref sig .tc .vmem S1600x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1600x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1600x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![68], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c68_i32 : BitVec 32 := 68#32
  let v0 : BitVec 32 := Scalar.addi arg0 c68_i32
  let c0_i32 : BitVec 32 := 0#32
  let c0_i32_0 : BitVec 32 := 0#32
  ![v0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c68_i32 : BitVec 32 := 68#32
  let v0 : BitVec 32 := Scalar.addi arg0 c68_i32
  let c0_i32 : BitVec 32 := 0#32
  let c0_i32_0 : BitVec 32 := 0#32
  ![v0.toNat, c0_i32.toNat]

abbrev stage5_0 : Fin 2 → Memref sig .tc .vmem S1600x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1600x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1600x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c136_i32 : BitVec 32 := 136#32
  let v0 : BitVec 32 := Scalar.addi arg0 c136_i32
  let c0_i32 : BitVec 32 := 0#32
  let c0_i32_0 : BitVec 32 := 0#32
  ![v0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c136_i32 : BitVec 32 := 136#32
  let v0 : BitVec 32 := Scalar.addi arg0 c136_i32
  let c0_i32 : BitVec 32 := 0#32
  let c0_i32_0 : BitVec 32 := 0#32
  ![v0.toNat, c0_i32.toNat]

abbrev stage6_0 : Fin 2 → Memref sig .tc .vmem S1600x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1600x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1600x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  shapeCasts_S10000_S10000x1 : S10000.ShapeCasts S10000x1
  pads_S93x128_S128x128_0350_000 : S93x128.Pads (![0, 0] : Fin 2 → Nat) ![35, 0] ![0, 0] S128x128
  h_S_ : 0 < S_.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x128_d1_w32 : S1000x128.Iotas .tc 32 [1]
  broadcasts_S1000x1_S1000x128 : S1000x1.Broadcasts S1000x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  inb_S128x272_S128x128_0_0 : ∀ a, (![0, 0] : Fin 2 → Nat) a + S128x128.size a ≤ S128x272.size a
  inb_S128x272_S128x128_0_128 : ∀ a, (![0, 128] : Fin 2 → Nat) a + S128x128.size a ≤ S128x272.size a
  slices_S128x272_S128x16_0_256 : S128x272.Slices ![0, 256] S128x16
  shapeCasts_S128_S1x128 : S128.ShapeCasts S1x128
  inb_S3400_S200_0 : ∀ a, (![0] : Fin 1 → Nat) a + S200.size a ≤ S3400.size a
  inb_S10000x128_S10000x128_0_0 : ∀ a, (![0, 0] : Fin 2 → Nat) a + S10000x128.size a ≤ S10000x128.size a
  gathers_S10000x128_S200x128 : S10000x128.Gathers 0 S200x128
  h_S1x16 : 0 < S1x16.numel
  shapeCasts_S1x16_S16 : S1x16.ShapeCasts S16
  shapeCasts_S16_S1x16 : S16.ShapeCasts S1x16
  inb_S3200_S200_0 : ∀ a, (![0] : Fin 1 → Nat) a + S200.size a ≤ S3200.size a
  inb_S3200_S200_3000 : ∀ a, (![3000] : Fin 1 → Nat) a + S200.size a ≤ S3200.size a
  inb_S1600x16_S1600x16_0_0 : ∀ a, (![0, 0] : Fin 2 → Nat) a + S1600x16.size a ≤ S1600x16.size a
  h_S1600x16 : 0 < S1600x16.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  dot_S1000x128_S128x128_S1000x128_1_0_0_1_n_n_wf : DotDims.WF S1000x128 S128x128 S1000x128 [1] [0] [0] [1] [] []
  dot_S1000x128_S128x128_S1000x128_1_1_0_0_n_n_wf : DotDims.WF S1000x128 S128x128 S1000x128 [1] [1] [0] [0] [] []
  dot_S1600x16_S128x16_S1600x128_1_1_0_0_n_n_wf : DotDims.WF S1600x16 S128x16 S1600x128 [1] [1] [0] [0] [] []
  hcc1_scratch6 : 10 + S_.numel ≤ 62
  hcc1_scratch7 : 11 + S_.numel ≤ 62
  hcc1_scratch8 : 12 + S_.numel ≤ 62
  hcc1_scratch9 : 13 + S_.numel ≤ 62
  hcc1_scoped0 : 14 + S_.numel ≤ 62
  hcc1_scoped1 : 15 + S_.numel ≤ 62
  hcc1_scoped2 : 16 + S_.numel ≤ 62
  hcc1_scoped3 : 17 + S_.numel ≤ 62
  hcc1_scoped4 : 18 + S_.numel ≤ 62
  hcc2_scratch6 : 19 + S_.numel ≤ 62
  hcc2_scratch7 : 20 + S_.numel ≤ 62
  hcc2_scratch8 : 21 + S_.numel ≤ 62
  hcc2_scratch9 : 22 + S_.numel ≤ 62
  hcc2_scoped0 : 23 + S_.numel ≤ 62
  hcc2_scoped1 : 24 + S_.numel ≤ 62
  hcc2_scoped2 : 25 + S_.numel ≤ 62
  hcc2_scoped3 : 26 + S_.numel ≤ 62
  hcc2_scoped4 : 27 + S_.numel ≤ 62
  hcc3_scratch6 : 28 + S_.numel ≤ 62
  hcc3_scratch7 : 29 + S_.numel ≤ 62
  hcc3_scratch8 : 30 + S_.numel ≤ 62
  hcc3_scratch9 : 31 + S_.numel ≤ 62
  hcc3_scoped0 : 32 + S_.numel ≤ 62
  hcc3_scoped1 : 33 + S_.numel ≤ 62
  hcc3_scoped2 : 34 + S_.numel ≤ 62
  hcc3_scoped3 : 35 + S_.numel ≤ 62
  hcc3_scoped4 : 36 + S_.numel ≤ 62
  hcc3_scoped5 : 37 + S_.numel ≤ 62
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S10000x1.size a
  hwx0_0 : ∀ i : grid0.Coords, EltTy.bits .i32 = 32 ∨ (Rect.block (s := S10000x1) S1000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x272.size a ≤ S128x272.size a
  hwx0_2 : ∀ i : grid0.Coords, EltTy.bits .f32 = 32 ∨ (Rect.block (s := S128x272) S128x272.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .f32 = 32 ∨ (Rect.block (s := S10000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S10000x128.size a
  hwx0_5 : ∀ i : grid0.Coords, EltTy.bits .f32 = 32 ∨ (Rect.block (s := S10000x128) S1000x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S3400.size a ≤ S320000.size a
  k1_t1_ok : k1_t1_loop.OK
  k1_off2_inb : ∀ k1_t1 : Fin k1_t1_loop.trips, ∀ (r : Fin 2), ∀ a, (k1_off2 k1_t1 (BitVec.ofNat 32 (1 + r.val))) a + S200.size a ≤ S3400.size a
  k1_t2_ok : k1_t2_loop.OK
  k1_off3_inb : ∀ k1_t2 : Fin k1_t2_loop.trips, ∀ a, (k1_off3 k1_t2) a + S1x16.size a ≤ S200x128.size a
  k1_off4_inb : ∀ k1_t2 : Fin k1_t2_loop.trips, ∀ a, (k1_off4 k1_t2) a + S1x16.size a ≤ S200x128.size a
  k1_off5_inb : ∀ k1_t2 : Fin k1_t2_loop.trips, ∀ a, (k1_off5 k1_t2) a + S1x16.size a ≤ S200x128.size a
  k1_off6_inb : ∀ k1_t2 : Fin k1_t2_loop.trips, ∀ a, (k1_off6 k1_t2) a + S1x16.size a ≤ S200x128.size a
  k1_off7_inb : ∀ k1_t2 : Fin k1_t2_loop.trips, ∀ a, (k1_off7 k1_t2) a + S1x16.size a ≤ S200x128.size a
  k1_off8_inb : ∀ k1_t2 : Fin k1_t2_loop.trips, ∀ a, (k1_off8 k1_t2) a + S1x16.size a ≤ S200x128.size a
  k1_off9_inb : ∀ k1_t2 : Fin k1_t2_loop.trips, ∀ a, (k1_off9 k1_t2) a + S1x16.size a ≤ S200x128.size a
  k1_off10_inb : ∀ k1_t2 : Fin k1_t2_loop.trips, ∀ a, (k1_off10 k1_t2) a + S1x16.size a ≤ S200x128.size a
  k1_off11_inb : ∀ (i : grid1.Coords) (k1_t1 : Fin k1_t1_loop.trips), ∀ a, (k1_off11 i k1_t1) a + S200x128.size a ≤ S108800x128.size a
  k1_t3_ok : k1_t3_loop.OK
  k1_off12_inb : ∀ k1_t3 : Fin k1_t3_loop.trips, ∀ a, (k1_off12 k1_t3) a + S1x16.size a ≤ S200x128.size a
  k1_off13_inb : ∀ k1_t3 : Fin k1_t3_loop.trips, ∀ a, (k1_off13 k1_t3) a + S1x16.size a ≤ S200x128.size a
  k1_off14_inb : ∀ k1_t3 : Fin k1_t3_loop.trips, ∀ a, (k1_off14 k1_t3) a + S1x16.size a ≤ S200x128.size a
  k1_off15_inb : ∀ k1_t3 : Fin k1_t3_loop.trips, ∀ a, (k1_off15 k1_t3) a + S1x16.size a ≤ S200x128.size a
  k1_off16_inb : ∀ k1_t3 : Fin k1_t3_loop.trips, ∀ a, (k1_off16 k1_t3) a + S1x16.size a ≤ S200x128.size a
  k1_off17_inb : ∀ k1_t3 : Fin k1_t3_loop.trips, ∀ a, (k1_off17 k1_t3) a + S1x16.size a ≤ S200x128.size a
  k1_off18_inb : ∀ k1_t3 : Fin k1_t3_loop.trips, ∀ a, (k1_off18 k1_t3) a + S1x16.size a ≤ S200x128.size a
  k1_off19_inb : ∀ k1_t3 : Fin k1_t3_loop.trips, ∀ a, (k1_off19 k1_t3) a + S1x16.size a ≤ S200x128.size a
  k1_off20_inb : ∀ (i : grid1.Coords) (k1_t1 : Fin k1_t1_loop.trips), ∀ a, (k1_off20 i k1_t1) a + S200x128.size a ≤ S108800x128.size a
  k1_t4_ok : k1_t4_loop.OK
  k1_off21_inb : ∀ k1_t4 : Fin k1_t4_loop.trips, ∀ a, (k1_off21 k1_t4) a + S1x16.size a ≤ S200x128.size a
  k1_off22_inb : ∀ k1_t4 : Fin k1_t4_loop.trips, ∀ a, (k1_off22 k1_t4) a + S1x16.size a ≤ S200x128.size a
  k1_off23_inb : ∀ k1_t4 : Fin k1_t4_loop.trips, ∀ a, (k1_off23 k1_t4) a + S1x16.size a ≤ S200x128.size a
  k1_off24_inb : ∀ k1_t4 : Fin k1_t4_loop.trips, ∀ a, (k1_off24 k1_t4) a + S1x16.size a ≤ S200x128.size a
  k1_off25_inb : ∀ k1_t4 : Fin k1_t4_loop.trips, ∀ a, (k1_off25 k1_t4) a + S1x16.size a ≤ S200x128.size a
  k1_off26_inb : ∀ k1_t4 : Fin k1_t4_loop.trips, ∀ a, (k1_off26 k1_t4) a + S1x16.size a ≤ S200x128.size a
  k1_off27_inb : ∀ k1_t4 : Fin k1_t4_loop.trips, ∀ a, (k1_off27 k1_t4) a + S1x16.size a ≤ S200x128.size a
  k1_off28_inb : ∀ k1_t4 : Fin k1_t4_loop.trips, ∀ a, (k1_off28 k1_t4) a + S1x16.size a ≤ S200x128.size a
  k1_off29_inb : ∀ i : grid1.Coords, ∀ a, (k1_off29 i) a + S200x128.size a ≤ S108800x128.size a
  hcore2 : grid2.bound 0 ≤ τ.nSC
  hsub2 : grid2.bound 1 ≤ τ.nSub
  k2_off1_inb : ∀ i : grid2.Coords, ∀ a, (k2_off1 i) a + S3400.size a ≤ S320000.size a
  k2_t1_ok : k2_t1_loop.OK
  k2_off2_inb : ∀ k2_t1 : Fin k2_t1_loop.trips, ∀ (r : Fin 2), ∀ a, (k2_off2 k2_t1 (BitVec.ofNat 32 (1 + r.val))) a + S200.size a ≤ S3400.size a
  k2_t2_ok : k2_t2_loop.OK
  k2_off3_inb : ∀ k2_t2 : Fin k2_t2_loop.trips, ∀ a, (k2_off3 k2_t2) a + S1x16.size a ≤ S200x128.size a
  k2_off4_inb : ∀ k2_t2 : Fin k2_t2_loop.trips, ∀ a, (k2_off4 k2_t2) a + S1x16.size a ≤ S200x128.size a
  k2_off5_inb : ∀ k2_t2 : Fin k2_t2_loop.trips, ∀ a, (k2_off5 k2_t2) a + S1x16.size a ≤ S200x128.size a
  k2_off6_inb : ∀ k2_t2 : Fin k2_t2_loop.trips, ∀ a, (k2_off6 k2_t2) a + S1x16.size a ≤ S200x128.size a
  k2_off7_inb : ∀ k2_t2 : Fin k2_t2_loop.trips, ∀ a, (k2_off7 k2_t2) a + S1x16.size a ≤ S200x128.size a
  k2_off8_inb : ∀ k2_t2 : Fin k2_t2_loop.trips, ∀ a, (k2_off8 k2_t2) a + S1x16.size a ≤ S200x128.size a
  k2_off9_inb : ∀ k2_t2 : Fin k2_t2_loop.trips, ∀ a, (k2_off9 k2_t2) a + S1x16.size a ≤ S200x128.size a
  k2_off10_inb : ∀ k2_t2 : Fin k2_t2_loop.trips, ∀ a, (k2_off10 k2_t2) a + S1x16.size a ≤ S200x128.size a
  k2_off11_inb : ∀ (i : grid2.Coords) (k2_t1 : Fin k2_t1_loop.trips), ∀ a, (k2_off11 i k2_t1) a + S200x128.size a ≤ S108800x128.size a
  k2_t3_ok : k2_t3_loop.OK
  k2_off12_inb : ∀ k2_t3 : Fin k2_t3_loop.trips, ∀ a, (k2_off12 k2_t3) a + S1x16.size a ≤ S200x128.size a
  k2_off13_inb : ∀ k2_t3 : Fin k2_t3_loop.trips, ∀ a, (k2_off13 k2_t3) a + S1x16.size a ≤ S200x128.size a
  k2_off14_inb : ∀ k2_t3 : Fin k2_t3_loop.trips, ∀ a, (k2_off14 k2_t3) a + S1x16.size a ≤ S200x128.size a
  k2_off15_inb : ∀ k2_t3 : Fin k2_t3_loop.trips, ∀ a, (k2_off15 k2_t3) a + S1x16.size a ≤ S200x128.size a
  k2_off16_inb : ∀ k2_t3 : Fin k2_t3_loop.trips, ∀ a, (k2_off16 k2_t3) a + S1x16.size a ≤ S200x128.size a
  k2_off17_inb : ∀ k2_t3 : Fin k2_t3_loop.trips, ∀ a, (k2_off17 k2_t3) a + S1x16.size a ≤ S200x128.size a
  k2_off18_inb : ∀ k2_t3 : Fin k2_t3_loop.trips, ∀ a, (k2_off18 k2_t3) a + S1x16.size a ≤ S200x128.size a
  k2_off19_inb : ∀ k2_t3 : Fin k2_t3_loop.trips, ∀ a, (k2_off19 k2_t3) a + S1x16.size a ≤ S200x128.size a
  k2_off20_inb : ∀ (i : grid2.Coords) (k2_t1 : Fin k2_t1_loop.trips), ∀ a, (k2_off20 i k2_t1) a + S200x128.size a ≤ S108800x128.size a
  k2_t4_ok : k2_t4_loop.OK
  k2_off21_inb : ∀ k2_t4 : Fin k2_t4_loop.trips, ∀ a, (k2_off21 k2_t4) a + S1x16.size a ≤ S200x128.size a
  k2_off22_inb : ∀ k2_t4 : Fin k2_t4_loop.trips, ∀ a, (k2_off22 k2_t4) a + S1x16.size a ≤ S200x128.size a
  k2_off23_inb : ∀ k2_t4 : Fin k2_t4_loop.trips, ∀ a, (k2_off23 k2_t4) a + S1x16.size a ≤ S200x128.size a
  k2_off24_inb : ∀ k2_t4 : Fin k2_t4_loop.trips, ∀ a, (k2_off24 k2_t4) a + S1x16.size a ≤ S200x128.size a
  k2_off25_inb : ∀ k2_t4 : Fin k2_t4_loop.trips, ∀ a, (k2_off25 k2_t4) a + S1x16.size a ≤ S200x128.size a
  k2_off26_inb : ∀ k2_t4 : Fin k2_t4_loop.trips, ∀ a, (k2_off26 k2_t4) a + S1x16.size a ≤ S200x128.size a
  k2_off27_inb : ∀ k2_t4 : Fin k2_t4_loop.trips, ∀ a, (k2_off27 k2_t4) a + S1x16.size a ≤ S200x128.size a
  k2_off28_inb : ∀ k2_t4 : Fin k2_t4_loop.trips, ∀ a, (k2_off28 k2_t4) a + S1x16.size a ≤ S200x128.size a
  k2_off29_inb : ∀ i : grid2.Coords, ∀ a, (k2_off29 i) a + S200x128.size a ≤ S108800x128.size a
  hcore3 : grid3.bound 0 ≤ τ.nSC
  hsub3 : grid3.bound 1 ≤ τ.nSub
  k3_off1_inb : ∀ i : grid3.Coords, ∀ a, (k3_off1 i) a + S3200.size a ≤ S320000.size a
  k3_t1_ok : k3_t1_loop.OK
  k3_off2_inb : ∀ k3_t1 : Fin k3_t1_loop.trips, ∀ (r : Fin 2), ∀ a, (k3_off2 k3_t1 (BitVec.ofNat 32 (1 + r.val))) a + S200.size a ≤ S3200.size a
  k3_t2_ok : k3_t2_loop.OK
  k3_off3_inb : ∀ k3_t2 : Fin k3_t2_loop.trips, ∀ a, (k3_off3 k3_t2) a + S1x16.size a ≤ S200x128.size a
  k3_off4_inb : ∀ k3_t2 : Fin k3_t2_loop.trips, ∀ a, (k3_off4 k3_t2) a + S1x16.size a ≤ S200x128.size a
  k3_off5_inb : ∀ k3_t2 : Fin k3_t2_loop.trips, ∀ a, (k3_off5 k3_t2) a + S1x16.size a ≤ S200x128.size a
  k3_off6_inb : ∀ k3_t2 : Fin k3_t2_loop.trips, ∀ a, (k3_off6 k3_t2) a + S1x16.size a ≤ S200x128.size a
  k3_off7_inb : ∀ k3_t2 : Fin k3_t2_loop.trips, ∀ a, (k3_off7 k3_t2) a + S1x16.size a ≤ S200x128.size a
  k3_off8_inb : ∀ k3_t2 : Fin k3_t2_loop.trips, ∀ a, (k3_off8 k3_t2) a + S1x16.size a ≤ S200x128.size a
  k3_off9_inb : ∀ k3_t2 : Fin k3_t2_loop.trips, ∀ a, (k3_off9 k3_t2) a + S1x16.size a ≤ S200x128.size a
  k3_off10_inb : ∀ k3_t2 : Fin k3_t2_loop.trips, ∀ a, (k3_off10 k3_t2) a + S1x16.size a ≤ S200x128.size a
  k3_off11_inb : ∀ (i : grid3.Coords) (k3_t1 : Fin k3_t1_loop.trips), ∀ a, (k3_off11 i k3_t1) a + S200x128.size a ≤ S102400x128.size a
  k3_t3_ok : k3_t3_loop.OK
  k3_off12_inb : ∀ k3_t3 : Fin k3_t3_loop.trips, ∀ a, (k3_off12 k3_t3) a + S1x16.size a ≤ S200x128.size a
  k3_off13_inb : ∀ k3_t3 : Fin k3_t3_loop.trips, ∀ a, (k3_off13 k3_t3) a + S1x16.size a ≤ S200x128.size a
  k3_off14_inb : ∀ k3_t3 : Fin k3_t3_loop.trips, ∀ a, (k3_off14 k3_t3) a + S1x16.size a ≤ S200x128.size a
  k3_off15_inb : ∀ k3_t3 : Fin k3_t3_loop.trips, ∀ a, (k3_off15 k3_t3) a + S1x16.size a ≤ S200x128.size a
  k3_off16_inb : ∀ k3_t3 : Fin k3_t3_loop.trips, ∀ a, (k3_off16 k3_t3) a + S1x16.size a ≤ S200x128.size a
  k3_off17_inb : ∀ k3_t3 : Fin k3_t3_loop.trips, ∀ a, (k3_off17 k3_t3) a + S1x16.size a ≤ S200x128.size a
  k3_off18_inb : ∀ k3_t3 : Fin k3_t3_loop.trips, ∀ a, (k3_off18 k3_t3) a + S1x16.size a ≤ S200x128.size a
  k3_off19_inb : ∀ k3_t3 : Fin k3_t3_loop.trips, ∀ a, (k3_off19 k3_t3) a + S1x16.size a ≤ S200x128.size a
  k3_off20_inb : ∀ (i : grid3.Coords) (k3_t1 : Fin k3_t1_loop.trips), ∀ a, (k3_off20 i k3_t1) a + S200x128.size a ≤ S102400x128.size a
  k3_t4_ok : k3_t4_loop.OK
  k3_off21_inb : ∀ k3_t4 : Fin k3_t4_loop.trips, ∀ a, (k3_off21 k3_t4) a + S1x16.size a ≤ S200x128.size a
  k3_off22_inb : ∀ k3_t4 : Fin k3_t4_loop.trips, ∀ a, (k3_off22 k3_t4) a + S1x16.size a ≤ S200x128.size a
  k3_off23_inb : ∀ k3_t4 : Fin k3_t4_loop.trips, ∀ a, (k3_off23 k3_t4) a + S1x16.size a ≤ S200x128.size a
  k3_off24_inb : ∀ k3_t4 : Fin k3_t4_loop.trips, ∀ a, (k3_off24 k3_t4) a + S1x16.size a ≤ S200x128.size a
  k3_off25_inb : ∀ k3_t4 : Fin k3_t4_loop.trips, ∀ a, (k3_off25 k3_t4) a + S1x16.size a ≤ S200x128.size a
  k3_off26_inb : ∀ k3_t4 : Fin k3_t4_loop.trips, ∀ a, (k3_off26 k3_t4) a + S1x16.size a ≤ S200x128.size a
  k3_off27_inb : ∀ k3_t4 : Fin k3_t4_loop.trips, ∀ a, (k3_off27 k3_t4) a + S1x16.size a ≤ S200x128.size a
  k3_off28_inb : ∀ k3_t4 : Fin k3_t4_loop.trips, ∀ a, (k3_off28 k3_t4) a + S1x16.size a ≤ S200x128.size a
  k3_off29_inb : ∀ i : grid3.Coords, ∀ (r : Fin 2), ∀ a, (k3_off29 i (BitVec.ofNat 32 (2800 + 200 * r.val))) a + S200x128.size a ≤ S102400x128.size a
  k3_t5_ok : k3_t5_loop.OK
  k3_off30_inb : ∀ k3_t5 : Fin k3_t5_loop.trips, ∀ a, (k3_off30 k3_t5) a + S1x16.size a ≤ S200x128.size a
  k3_off31_inb : ∀ k3_t5 : Fin k3_t5_loop.trips, ∀ a, (k3_off31 k3_t5) a + S1x16.size a ≤ S200x128.size a
  k3_off32_inb : ∀ k3_t5 : Fin k3_t5_loop.trips, ∀ a, (k3_off32 k3_t5) a + S1x16.size a ≤ S200x128.size a
  k3_off33_inb : ∀ k3_t5 : Fin k3_t5_loop.trips, ∀ a, (k3_off33 k3_t5) a + S1x16.size a ≤ S200x128.size a
  k3_off34_inb : ∀ k3_t5 : Fin k3_t5_loop.trips, ∀ a, (k3_off34 k3_t5) a + S1x16.size a ≤ S200x128.size a
  k3_off35_inb : ∀ k3_t5 : Fin k3_t5_loop.trips, ∀ a, (k3_off35 k3_t5) a + S1x16.size a ≤ S200x128.size a
  k3_off36_inb : ∀ k3_t5 : Fin k3_t5_loop.trips, ∀ a, (k3_off36 k3_t5) a + S1x16.size a ≤ S200x128.size a
  k3_off37_inb : ∀ k3_t5 : Fin k3_t5_loop.trips, ∀ a, (k3_off37 k3_t5) a + S1x16.size a ≤ S200x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1600x128.size a ≤ S108800x128.size a
  hwx4_0 : ∀ i : grid4.Coords, EltTy.bits .f32 = 32 ∨ (Rect.block (s := S108800x128) S1600x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1600x16.size a ≤ S320000x16.size a
  hwx4_1 : ∀ i : grid4.Coords, EltTy.bits .f32 = 32 ∨ (Rect.block (s := S320000x16) S1600x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1600x128.size a ≤ S320000x128.size a
  hwx4_4 : ∀ i : grid4.Coords, EltTy.bits .f32 = 32 ∨ (Rect.block (s := S320000x128) S1600x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1600x128.size a ≤ S108800x128.size a
  hwx5_0 : ∀ i : grid5.Coords, EltTy.bits .f32 = 32 ∨ (Rect.block (s := S108800x128) S1600x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1600x16.size a ≤ S320000x16.size a
  hwx5_1 : ∀ i : grid5.Coords, EltTy.bits .f32 = 32 ∨ (Rect.block (s := S320000x16) S1600x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x16.size a ≤ S128x16.size a
  hwx5_2 : ∀ i : grid5.Coords, EltTy.bits .f32 = 32 ∨ (Rect.block (s := S128x16) S128x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_5 i = cc5_transform_5 i'
  hinb5_4 : ∀ (i : grid5.Coords) a, (cc5_transform_5 i a + 1) * S1600x128.size a ≤ S320000x128.size a
  hwx5_4 : ∀ i : grid5.Coords, EltTy.bits .f32 = 32 ∨ (Rect.block (s := S320000x128) S1600x128.size (cc5_transform_5 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1600x128.size a ≤ S102400x128.size a
  hwx6_0 : ∀ i : grid6.Coords, EltTy.bits .f32 = 32 ∨ (Rect.block (s := S102400x128) S1600x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1600x16.size a ≤ S320000x16.size a
  hwx6_1 : ∀ i : grid6.Coords, EltTy.bits .f32 = 32 ∨ (Rect.block (s := S320000x16) S1600x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x16.size a ≤ S128x16.size a
  hwx6_2 : ∀ i : grid6.Coords, EltTy.bits .f32 = 32 ∨ (Rect.block (s := S128x16) S128x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_5 i = cc6_transform_5 i'
  hinb6_4 : ∀ (i : grid6.Coords) a, (cc6_transform_5 i a + 1) * S1600x128.size a ≤ S320000x128.size a
  hwx6_4 : ∀ i : grid6.Coords, EltTy.bits .f32 = 32 ∨ (Rect.block (s := S320000x128) S1600x128.size (cc6_transform_5 i) (hinb6_4 i)).WholeWords (EltTy.packing .f32)

variable [Facts₀]

abbrev cc1_scratch6 : DmaSems sig S_ := SemArray.consecutive 10 S_ hcc1_scratch6
abbrev cc1_scratch7 : DmaSems sig S_ := SemArray.consecutive 11 S_ hcc1_scratch7
abbrev cc1_scratch8 : DmaSems sig S_ := SemArray.consecutive 12 S_ hcc1_scratch8
abbrev cc1_scratch9 : DmaSems sig S_ := SemArray.consecutive 13 S_ hcc1_scratch9
abbrev cc1_scoped0 : DmaSems sig S_ := SemArray.consecutive 14 S_ hcc1_scoped0
abbrev cc1_scoped1 : DmaSems sig S_ := SemArray.consecutive 15 S_ hcc1_scoped1
abbrev cc1_scoped2 : DmaSems sig S_ := SemArray.consecutive 16 S_ hcc1_scoped2
abbrev cc1_scoped3 : DmaSems sig S_ := SemArray.consecutive 17 S_ hcc1_scoped3
abbrev cc1_scoped4 : DmaSems sig S_ := SemArray.consecutive 18 S_ hcc1_scoped4
abbrev cc2_scratch6 : DmaSems sig S_ := SemArray.consecutive 19 S_ hcc2_scratch6
abbrev cc2_scratch7 : DmaSems sig S_ := SemArray.consecutive 20 S_ hcc2_scratch7
abbrev cc2_scratch8 : DmaSems sig S_ := SemArray.consecutive 21 S_ hcc2_scratch8
abbrev cc2_scratch9 : DmaSems sig S_ := SemArray.consecutive 22 S_ hcc2_scratch9
abbrev cc2_scoped0 : DmaSems sig S_ := SemArray.consecutive 23 S_ hcc2_scoped0
abbrev cc2_scoped1 : DmaSems sig S_ := SemArray.consecutive 24 S_ hcc2_scoped1
abbrev cc2_scoped2 : DmaSems sig S_ := SemArray.consecutive 25 S_ hcc2_scoped2
abbrev cc2_scoped3 : DmaSems sig S_ := SemArray.consecutive 26 S_ hcc2_scoped3
abbrev cc2_scoped4 : DmaSems sig S_ := SemArray.consecutive 27 S_ hcc2_scoped4
abbrev cc3_scratch6 : DmaSems sig S_ := SemArray.consecutive 28 S_ hcc3_scratch6
abbrev cc3_scratch7 : DmaSems sig S_ := SemArray.consecutive 29 S_ hcc3_scratch7
abbrev cc3_scratch8 : DmaSems sig S_ := SemArray.consecutive 30 S_ hcc3_scratch8
abbrev cc3_scratch9 : DmaSems sig S_ := SemArray.consecutive 31 S_ hcc3_scratch9
abbrev cc3_scoped0 : DmaSems sig S_ := SemArray.consecutive 32 S_ hcc3_scoped0
abbrev cc3_scoped1 : DmaSems sig S_ := SemArray.consecutive 33 S_ hcc3_scoped1
abbrev cc3_scoped2 : DmaSems sig S_ := SemArray.consecutive 34 S_ hcc3_scoped2
abbrev cc3_scoped3 : DmaSems sig S_ := SemArray.consecutive 35 S_ hcc3_scoped3
abbrev cc3_scoped4 : DmaSems sig S_ := SemArray.consecutive 36 S_ hcc3_scoped4
abbrev cc3_scoped5 : DmaSems sig S_ := SemArray.consecutive 37 S_ hcc3_scoped5
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S1600x16_S128x16_S1600x128_1_1_0_0_n_n : DotDims S1600x16 S128x16 S1600x128 where
  lhsContracting := [1]
  rhsContracting := [1]
  lhsNonContracting := [0]
  rhsNonContracting := [0]
  lhsBatch := []
  rhsBatch := []
  wf := dot_S1600x16_S128x16_S1600x128_1_1_0_0_n_n_wf

abbrev win0_0 : Pipeline.Window sig grid0 :=
  Pipeline.Window.ofSpec (Memref.whole main_v0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x272.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win4_0 : Pipeline.Window sig grid4 :=
  Pipeline.Window.ofSpec (Memref.whole main_v5) S1600x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S1600x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S1600x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v6) S1600x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S1600x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v3) S128x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v9) S1600x128.size cc5_transform_5 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v7) S1600x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S1600x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S128x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v4) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v10) S1600x128.size cc6_transform_5 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S10000 : Shape := ⟨1, ![10000]⟩
abbrev S320000x16 : Shape := ⟨2, ![320000, 16]⟩
abbrev S320000 : Shape := ⟨1, ![320000]⟩
abbrev S93x128 : Shape := ⟨2, ![93, 128]⟩
abbrev S128x272 : Shape := ⟨2, ![128, 272]⟩
abbrev S128 : Shape := ⟨1, ![128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S320000x1 : Shape := ⟨2, ![320000, 1]⟩
abbrev S320000x128 : Shape := ⟨2, ![320000, 128]⟩
abbrev S320000x272 : Shape := ⟨2, ![320000, 272]⟩
abbrev S272x128 : Shape := ⟨2, ![272, 128]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S10000, .i32⟩
  | .hbm, ⟨1, _⟩ => ⟨S320000x16, .f32⟩
  | .hbm, ⟨2, _⟩ => ⟨S320000, .i32⟩
  | .hbm, ⟨3, _⟩ => ⟨S320000, .i32⟩
  | .hbm, ⟨4, _⟩ => ⟨S93x128, .f32⟩
  | .hbm, ⟨5, _⟩ => ⟨S128x272, .f32⟩
  | .hbm, ⟨6, _⟩ => ⟨S128, .f32⟩
  | .hbm, ⟨7, _⟩ => ⟨S_, .i32⟩
  | .hbm, ⟨8, _⟩ => ⟨S10000, .i32⟩
  | .hbm, ⟨9, _⟩ => ⟨S10000, .i32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S1, .i32⟩
  | .hbm, ⟨19, _⟩ => ⟨S_, .i32⟩
  | .hbm, ⟨20, _⟩ => ⟨S10000x1, .i32⟩
  | .hbm, ⟨21, _⟩ => ⟨S10000x1, .i1⟩
  | .hbm, ⟨22, _⟩ => ⟨S1x1, .i32⟩
  | .hbm, ⟨23, _⟩ => ⟨S10000x1, .i32⟩
  | .hbm, ⟨24, _⟩ => ⟨S10000x1, .i1⟩
  | .hbm, ⟨25, _⟩ => ⟨S10000x1, .i1⟩
  | .hbm, ⟨26, _⟩ => ⟨S_, .i1⟩
  | .hbm, ⟨27, _⟩ => ⟨S10000, .i1⟩
  | .hbm, ⟨28, _⟩ => ⟨S10000x128, .f32⟩
  | .hbm, ⟨29, _⟩ => ⟨S10000x128, .i1⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S1, .i32⟩
  | .hbm, ⟨42, _⟩ => ⟨S_, .i32⟩
  | .hbm, ⟨43, _⟩ => ⟨S320000x1, .i32⟩
  | .hbm, ⟨44, _⟩ => ⟨S320000x1, .i1⟩
  | .hbm, ⟨45, _⟩ => ⟨S1x1, .i32⟩
  | .hbm, ⟨46, _⟩ => ⟨S320000x1, .i32⟩
  | .hbm, ⟨47, _⟩ => ⟨S320000x1, .i1⟩
  | .hbm, ⟨48, _⟩ => ⟨S320000x1, .i1⟩
  | .hbm, ⟨49, _⟩ => ⟨S_, .i1⟩
  | .hbm, ⟨50, _⟩ => ⟨S320000, .i1⟩
  | .hbm, ⟨51, _⟩ => ⟨S320000x128, .f32⟩
  | .hbm, ⟨52, _⟩ => ⟨S320000x128, .i1⟩
  | .hbm, ⟨53, _⟩ => ⟨S_, .f32⟩
  | .hbm, ⟨54, _⟩ => ⟨S320000x128, .f32⟩
  | .hbm, ⟨55, _⟩ => ⟨S320000x128, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S320000x1, .i32⟩
  | .hbm, ⟨64, _⟩ => ⟨S1, .i32⟩
  | .hbm, ⟨65, _⟩ => ⟨S_, .i32⟩
  | .hbm, ⟨66, _⟩ => ⟨S320000x1, .i32⟩
  | .hbm, ⟨67, _⟩ => ⟨S320000x1, .i1⟩
  | .hbm, ⟨68, _⟩ => ⟨S1x1, .i32⟩
  | .hbm, ⟨69, _⟩ => ⟨S320000x1, .i32⟩
  | .hbm, ⟨70, _⟩ => ⟨S320000x1, .i1⟩
  | .hbm, ⟨71, _⟩ => ⟨S320000x1, .i1⟩
  | .hbm, ⟨72, _⟩ => ⟨S_, .i1⟩
  | .hbm, ⟨73, _⟩ => ⟨S320000, .i1⟩
  | .hbm, ⟨74, _⟩ => ⟨S320000x128, .f32⟩
  | .hbm, ⟨75, _⟩ => ⟨S320000x128, .i1⟩
  | .hbm, ⟨76, _⟩ => ⟨S_, .f32⟩
  | .hbm, ⟨77, _⟩ => ⟨S320000x128, .f32⟩
  | .hbm, ⟨78, _⟩ => ⟨S320000x128, .f32⟩
  | .hbm, ⟨79, _⟩ => ⟨S320000x272, .f32⟩
  | .hbm, ⟨80, _⟩ => ⟨S272x128, .f32⟩
  | .hbm, ⟨81, _⟩ => ⟨S320000x128, .f32⟩
  | .hbm, ⟨82, _⟩ => ⟨S1x128, .f32⟩
  | .hbm, ⟨83, _⟩ => ⟨S320000x128, .f32⟩
  | .hbm, ⟨84, _⟩ => ⟨S320000x128, .f32⟩
  | .hbm, ⟨85, _⟩ => ⟨S320000x128, .f32⟩
  | .hbm, ⟨86, _⟩ => ⟨S320000x128, .f32⟩
  | .hbm, ⟨87, _⟩ => ⟨S_, .f32⟩
  | .hbm, ⟨88, _⟩ => ⟨S320000x128, .f32⟩
  | .hbm, ⟨89, _⟩ => ⟨S320000x128, .f32⟩
  | .hbm, ⟨90, _⟩ => ⟨S_, .f32⟩
  | .hbm, ⟨91, _⟩ => ⟨S320000x128, .f32⟩
  | .hbm, ⟨92, _⟩ => ⟨S320000x128, .f32⟩
  | .hbm, ⟨93, _⟩ => ⟨S320000x128, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v3 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v4 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v11 : Ref sig .tc := ⟨.hbm, 93, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x16_S320000x272_d1 : Shape.Concatenates [S320000x128, S320000x128, S320000x16] S320000x272 1
  transposes_S128x272_S272x128_1_0 : S128x272.Transposes [1, 0] S272x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  gather_S93x128_S10000x1_S10000x128_1_0_n_n_0_1_1128_wf : GatherDims.WF S93x128 S10000x1 S10000x128 [1] [0] [] [0] [] 1 ![1, 128]
  gather_S10000x128_S320000x1_S320000x128_1_0_n_n_0_1_1128_wf : GatherDims.WF S10000x128 S320000x1 S320000x128 [1] [0] [] [0] [] 1 ![1, 128]
  dot_S320000x272_S272x128_S320000x128_1_0_0_1_n_n_wf : DotDims.WF S320000x272 S272x128 S320000x128 [1] [0] [0] [1] [] []

variable [Facts₀]

def gather_S93x128_S10000x1_S10000x128_1_0_n_n_0_1_1128 : GatherDims S93x128 S10000x1 S10000x128 where
  offsetDims := [1]
  collapsedSliceDims := [0]
  operandBatchingDims := []
  startIndicesBatchingDims := []
  startIndexMap := [0]
  indexVectorDim := 1
  sliceSizes := ![1, 128]
  wf := gather_S93x128_S10000x1_S10000x128_1_0_n_n_0_1_1128_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x272_S272x128_S320000x128_1_0_0_1_n_n : DotDims S320000x272 S272x128 S320000x128 where
  lhsContracting := [1]
  rhsContracting := [0]
  lhsNonContracting := [0]
  rhsNonContracting := [1]
  lhsBatch := []
  rhsBatch := []
  wf := dot_S320000x272_S272x128_S320000x128_1_0_0_1_n_n_wf

class Facts : Prop extends Facts₀ where

variable [Facts]
-- ==== Proof.Setup.lean ====
/-
  The kernel program as the launch theorem of a SparseCore program sees it, stated once for both float instances:
  the three vector-subcore calls' configuration over the four TensorCore pipelines' label set, the body table below
  it, the variants, the configuration's stated facts, and the ghost state — the handshakes' rounds, the pipelines'
  staging cells' rounds, and the transfers' counters — with the embeddings the rules are applied through.
-/
import proofs.«206539_g3985729650836_cont_8to1_b_247_13_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«206539_g3985729650836_cont_8to1_b_247_13_alg».proof.Proof.Gen.KernelIdeal
import proofs.«206539_g3985729650836_cont_8to1_b_247_13_alg».proof.Proof.Gen.KernelIdeal.Skeleton
import proofs.«206539_g3985729650836_cont_8to1_b_247_13_alg».proof.Proof.Gen.KernelIdeal.Launch
import proofs.«206539_g3985729650836_cont_8to1_b_247_13_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq (q : Fin 3) : (K (F := F)).nCore q = 2 := by fin_cases q <;> rfl
theorem nSub_eq (q : Fin 3) : (K (F := F)).nSub q = 16 := by fin_cases q <;> rfl

/-! ## The ghost state: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 3) (Elt F) ℕ UU ℕ

def EH : Emb UH (MT nD τ sig (HIx 3) (Elt F) ℕ UU ℕ) :=
  (Emb.inl : Emb UH UU).trans (uEmb (nD := nD) (sig := sig) (Ix := HIx 3) (Val := Elt F) (Name := ℕ) (U := UU) (Lvl := ℕ)).toEmb
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

example : CountersIn UU := inferInstance

/-! ## The arrays, as locations of device `d` -/

abbrev zLoc (d : Dev nD) : Loc nD τ sig := (SparseCore.T d).loc main_arg0
abbrev rbfLoc (d : Dev nD) : Loc nD τ sig := (SparseCore.T d).loc main_arg1
abbrev iiLoc (d : Dev nD) : Loc nD τ sig := (SparseCore.T d).loc main_arg2
abbrev jjLoc (d : Dev nD) : Loc nD τ sig := (SparseCore.T d).loc main_arg3
abbrev embLoc (d : Dev nD) : Loc nD τ sig := (SparseCore.T d).loc main_arg4
abbrev wLoc (d : Dev nD) : Loc nD τ sig := (SparseCore.T d).loc main_arg5
abbrev bLoc (d : Dev nD) : Loc nD τ sig := (SparseCore.T d).loc main_arg6
abbrev hLoc (d : Dev nD) : Loc nD τ sig := (SparseCore.T d).loc main_v2_0
abbrev giLoc (d : Dev nD) : Loc nD τ sig := (SparseCore.T d).loc main_v2_1
abbrev gjLoc (d : Dev nD) : Loc nD τ sig := (SparseCore.T d).loc main_v2_2
abbrev s1Loc (d : Dev nD) : Loc nD τ sig := (SparseCore.T d).loc main_v5
abbrev s2Loc (d : Dev nD) : Loc nD τ sig := (SparseCore.T d).loc main_v6
abbrev s3Loc (d : Dev nD) : Loc nD τ sig := (SparseCore.T d).loc main_v7
abbrev outLoc (d : Dev nD) : Loc nD τ sig := (SparseCore.T d).loc main_v10

end Cert.Proof.KI

end
-- ==== Proof.ScValue.lean ====
/-
  What a gather-and-add call leaves in its output array, as one whole-array function of the two node tables and the
  two index arrays, for any float instance: row `r` of the call's output is row `idx_i[ebase + r]` of the first table
  plus row `idx_j[ebase + r]` of the second, entry by entry. Index words are read as naturals and reduced into the
  tables' extent; under the precondition they are in range and the reduction changes nothing.
-/
import proofs.«206539_g3985729650836_cont_8to1_b_247_13_alg».proof.Proof.Setup
import Idealize.ShloMosaic.Lib.ValueIdx

noncomputable section

namespace Cert.Proof.KI

open Cert.KernelIdeal
open Idealize.ShloMosaic Idealize.ShloMosaic.ValueIdx

variable {F : FTy → Type} [FloatOps F]

/-- An index word as a row of an `N`-row table. -/
def rowOf (N : ℕ) [NeZero N] (v : BitVec 32) : Fin N := Fin.ofNat N v.toNat

/-- An edge position `ebase + r` as an index of the edge arrays. -/
def edgeIx (ebase r : ℕ) : S320000.Idx := ix1 (Fin.ofNat 320000 (ebase + r))

/-- The call's output: `R` rows starting at edge `ebase`. -/
def scOut (R ebase : ℕ) (gi gj : Vec F S10000x128 .f32) (ii jj : Vec F S320000 .i32) : Vec F ⟨2, ![R, 128]⟩ .f32 :=
  fun y => FloatOps.addf (gi (ix2 (rowOf 10000 (ii (edgeIx ebase (y 0).val))) (y 1)))
    (gj (ix2 (rowOf 10000 (jj (edgeIx ebase (y 0).val))) (y 1)))

/-- Rows per worker and first edge of each of the three calls. -/
def perW : Fin 3 → ℕ := ![3400, 3400, 3200]
def eBase : Fin 3 → ℕ := ![0, 108800, 217600]

end Cert.Proof.KI

end
-- ==== Proof.Pay.lean ====
/-
  What the handshakes of the three gather-and-add calls carry. The TensorCore hands each SparseCore a read share of the
  two node tables and of the two index arrays, and the rows of the call's output array its sixteen workers write; each
  worker (vector subcore `s` of SparseCore `c`, worker number `2 s + c`) is handed a share of the four read arrays and its
  own `perW` rows of the output, and hands back the same with its rows at the call's value.
-/
import proofs.«206539_g3985729650836_cont_8to1_b_247_13_alg».proof.Proof.ScValue

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 3) (Elt F) ℕ UU ℕ

variable (m : (ℓ : Loc nD τ sig) → Buf (Elt F) ℓ)

/-- The output array of call `q`, as a location of device `d`. -/
abbrev sLoc (q : Fin 3) (d : Dev nD) : Loc nD τ sig :=
  match q with | 0 => s1Loc d | 1 => s2Loc d | 2 => s3Loc d

/-- The share of a read array SparseCore `c` of the grid is handed, and the share worker `i` of it is. -/
abbrev coreShare (c : Fin 2) : PosShare TreeShare := shareTok fullShare 2 c
abbrev tileShare (c : Fin 2) (i : Fin 16) : PosShare TreeShare := shareTok (coreShare c) 16 i

/-- Worker number of vector subcore `i` of SparseCore `c`. -/
def wid (c : Fin 2) (i : Fin 16) : ℕ := i.val * 2 + c.val

variable [FloatOps F]

/-- The rows of a call's output array worker `(c, i)` writes: rows `[wid · perW, (wid + 1) · perW)`. -/
def rows1 (c : Fin 2) (i : Fin 16) (d : Dev nD) : Finset (Idx (s1Loc d)) := Finset.univ.filter fun y => (y 0).val / 3400 = wid c i
def rows2 (c : Fin 2) (i : Fin 16) (d : Dev nD) : Finset (Idx (s2Loc d)) := Finset.univ.filter fun y => (y 0).val / 3400 = wid c i
def rows3 (c : Fin 2) (i : Fin 16) (d : Dev nD) : Finset (Idx (s3Loc d)) := Finset.univ.filter fun y => (y 0).val / 3200 = wid c i
/-- The rows of a call's output array the workers of SparseCore `c` write. -/
def crows1 (c : Fin 2) (d : Dev nD) : Finset (Idx (s1Loc d)) := Finset.univ.filter fun y => ((y 0).val / 3400) % 2 = c.val
def crows2 (c : Fin 2) (d : Dev nD) : Finset (Idx (s2Loc d)) := Finset.univ.filter fun y => ((y 0).val / 3400) % 2 = c.val
def crows3 (c : Fin 2) (d : Dev nD) : Finset (Idx (s3Loc d)) := Finset.univ.filter fun y => ((y 0).val / 3200) % 2 = c.val

variable (GI : (d : Dev nD) → Buf (Elt F) (giLoc d)) (GJ : (d : Dev nD) → Buf (Elt F) (gjLoc d))

/-- The four read arrays at share `q`: the two node tables at their contents, the two index arrays at the launch's. -/
def reads (d : Dev nD) (q : PosShare TreeShare) : sProp 𝕄 :=
  iprop((giLoc d ↦{q} GI d) ∗ (gjLoc d ↦{q} GJ d) ∗ (iiLoc d ↦{q} m (iiLoc d)) ∗ (jjLoc d ↦{q} m (jjLoc d)))

/-- The three calls' values, as contents of their output arrays. -/
def S1v (d : Dev nD) : Buf (Elt F) (s1Loc d) := scOut 108800 0 (GI d) (GJ d) (m (iiLoc d)) (m (jjLoc d))
def S2v (d : Dev nD) : Buf (Elt F) (s2Loc d) := scOut 108800 108800 (GI d) (GJ d) (m (iiLoc d)) (m (jjLoc d))
def S3v (d : Dev nD) : Buf (Elt F) (s3Loc d) := scOut 102400 217600 (GI d) (GJ d) (m (iiLoc d)) (m (jjLoc d))

/-- What the frames ask of the launch memory: every index word names a row of the node tables. -/
def IdxOK : Prop := ∀ (d : Dev nD), (∀ e, (m (iiLoc d) e).toNat < 10000) ∧ (∀ e, (m (jjLoc d) e).toNat < 10000)

theorem nCore_cast (q : Fin 3) : (K (F := F)).nCore q = 2 := nCore_eq q
theorem nSub_cast (q : Fin 3) : (K (F := F)).nSub q = 16 := nSub_eq q

/-- What the handshakes carry (Lib/SparseCore/Cells.lean `Pay`). -/
def P : (K (F := F)).Pay (nD := nD) (Val := Elt F) (Name := ℕ) (U := UU) where
  st := fun q d c => match q with
    | 0 => iprop(reads m GI GJ d (coreShare (Fin.cast (nCore_cast 0) c)) ∗ ∃ f, s1Loc d ↦[crows1 (Fin.cast (nCore_cast 0) c) d]{fullShare} f)
    | 1 => iprop(reads m GI GJ d (coreShare (Fin.cast (nCore_cast 1) c)) ∗ ∃ f, s2Loc d ↦[crows2 (Fin.cast (nCore_cast 1) c) d]{fullShare} f)
    | 2 => iprop(reads m GI GJ d (coreShare (Fin.cast (nCore_cast 2) c)) ∗ ∃ f, s3Loc d ↦[crows3 (Fin.cast (nCore_cast 2) c) d]{fullShare} f)
  dn := fun q d c => match q with
    | 0 => iprop(reads m GI GJ d (coreShare (Fin.cast (nCore_cast 0) c)) ∗ s1Loc d ↦[crows1 (Fin.cast (nCore_cast 0) c) d]{fullShare} S1v m GI GJ d)
    | 1 => iprop(reads m GI GJ d (coreShare (Fin.cast (nCore_cast 1) c)) ∗ s2Loc d ↦[crows2 (Fin.cast (nCore_cast 1) c) d]{fullShare} S2v m GI GJ d)
    | 2 => iprop(reads m GI GJ d (coreShare (Fin.cast (nCore_cast 2) c)) ∗ s3Loc d ↦[crows3 (Fin.cast (nCore_cast 2) c) d]{fullShare} S3v m GI GJ d)
  go := fun q d c i => match q with
    | 0 => iprop(reads m GI GJ d (tileShare (Fin.cast (nCore_cast 0) c) (Fin.cast (nSub_cast 0) i))
        ∗ ∃ f, s1Loc d ↦[rows1 (Fin.cast (nCore_cast 0) c) (Fin.cast (nSub_cast 0) i) d]{fullShare} f)
    | 1 => iprop(reads m GI GJ d (tileShare (Fin.cast (nCore_cast 1) c) (Fin.cast (nSub_cast 1) i))
        ∗ ∃ f, s2Loc d ↦[rows2 (Fin.cast (nCore_cast 1) c) (Fin.cast (nSub_cast 1) i) d]{fullShare} f)
    | 2 => iprop(reads m GI GJ d (tileShare (Fin.cast (nCore_cast 2) c) (Fin.cast (nSub_cast 2) i))
        ∗ ∃ f, s3Loc d ↦[rows3 (Fin.cast (nCore_cast 2) c) (Fin.cast (nSub_cast 2) i) d]{fullShare} f)
  td := fun q d c i => match q with
    | 0 => iprop(reads m GI GJ d (tileShare (Fin.cast (nCore_cast 0) c) (Fin.cast (nSub_cast 0) i))
        ∗ s1Loc d ↦[rows1 (Fin.cast (nCore_cast 0) c) (Fin.cast (nSub_cast 0) i) d]{fullShare} S1v m GI GJ d)
    | 1 => iprop(reads m GI GJ d (tileShare (Fin.cast (nCore_cast 1) c) (Fin.cast (nSub_cast 1) i))
        ∗ s2Loc d ↦[rows2 (Fin.cast (nCore_cast 1) c) (Fin.cast (nSub_cast 1) i) d]{fullShare} S2v m GI GJ d)
    | 2 => iprop(reads m GI GJ d (tileShare (Fin.cast (nCore_cast 2) c) (Fin.cast (nSub_cast 2) i))
        ∗ s3Loc d ↦[rows3 (Fin.cast (nCore_cast 2) c) (Fin.cast (nSub_cast 2) i) d]{fullShare} S3v m GI GJ d)
  x := fun _ _ => iprop(emp)

instance P_storable : (P (F := F) m GI GJ).IsStorable where
  st q d c := by unfold P reads; match q with | 0 => infer_instance | 1 => infer_instance | 2 => infer_instance
  dn q d c := by unfold P reads; match q with | 0 => infer_instance | 1 => infer_instance | 2 => infer_instance
  go q d c i := by unfold P reads; match q with | 0 => infer_instance | 1 => infer_instance | 2 => infer_instance
  td q d c i := by unfold P reads; match q with | 0 => infer_instance | 1 => infer_instance | 2 => infer_instance

end Cert.Proof.KI

end
-- ==== Proof.VecSplit.lean ====
/-
  How a SparseCore's operands of a gather-and-add call split among its sixteen workers and how their results gather:
  the share of the four read arrays halves sixteen times, one token per worker, the remainder kept across the call; the
  rows of the output the SparseCore's workers write are the disjoint union of each worker's rows, so the rows at the
  call's value, worker by worker, are the SparseCore's rows at that value.
-/
import proofs.«206539_g3985729650836_cont_8to1_b_247_13_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-! ## The read arrays' share, sixteen ways -/

theorem reads_toks (d : Dev nD) (q : PosShare TreeShare) (n : ℕ) :
    (reads m GI GJ d q : sProp 𝕄)
      ⊣⊢ iprop(reads m GI GJ d (shareDrop q n) ∗ bigSep Finset.univ fun i : Fin n => reads m GI GJ d (shareTok q n i)) := by
  unfold reads
  rw [bigSep_sep', bigSep_sep', bigSep_sep']
  constructor
  · iintro ⟨H1, H2, H3, H4⟩
    ihave H1' := (pointsTo_toks_split (ℓ := giLoc d) (S := Finset.univ) (f := GI d) q n) $$ H1
    ihave H2' := (pointsTo_toks_split (ℓ := gjLoc d) (S := Finset.univ) (f := GJ d) q n) $$ H2
    ihave H3' := (pointsTo_toks_split (ℓ := iiLoc d) (S := Finset.univ) (f := m (iiLoc d)) q n) $$ H3
    ihave H4' := (pointsTo_toks_split (ℓ := jjLoc d) (S := Finset.univ) (f := m (jjLoc d)) q n) $$ H4
    icases H1' with ⟨A1, B1⟩
    icases H2' with ⟨A2, B2⟩
    icases H3' with ⟨A3, B3⟩
    icases H4' with ⟨A4, B4⟩
    isplitl [A1 A2 A3 A4]
    · isplitl [A1]; · iexact A1
      isplitl [A2]; · iexact A2
      isplitl [A3]; · iexact A3
      iexact A4
    · isplitl [B1]; · iexact B1
      isplitl [B2]; · iexact B2
      isplitl [B3]; · iexact B3
      iexact B4
  · iintro ⟨⟨A1, A2, A3, A4⟩, B1, B2, B3, B4⟩
    isplitl [A1 B1]
    · iapply (pointsTo_toks_join (ℓ := giLoc d) (S := Finset.univ) (f := GI d) q n); isplitl [A1] <;> iassumption
    isplitl [A2 B2]
    · iapply (pointsTo_toks_join (ℓ := gjLoc d) (S := Finset.univ) (f := GJ d) q n); isplitl [A2] <;> iassumption
    isplitl [A3 B3]
    · iapply (pointsTo_toks_join (ℓ := iiLoc d) (S := Finset.univ) (f := m (iiLoc d)) q n); isplitl [A3] <;> iassumption
    · iapply (pointsTo_toks_join (ℓ := jjLoc d) (S := Finset.univ) (f := m (jjLoc d)) q n); isplitl [A4] <;> iassumption

/-! ## One SparseCore's split, for any output array and any division of its rows -/

theorem split_core {n : ℕ} {ℓ : Loc nD τ sig} (R : Fin n → Finset (Idx ℓ)) (C : Finset (Idx ℓ))
    (hd : ∀ i ∈ (Finset.univ : Finset (Fin n)), ∀ j ∈ (Finset.univ : Finset (Fin n)), i ≠ j → Disjoint (R i) (R j))
    (hc : (Finset.univ : Finset (Fin n)).biUnion R = C) (d : Dev nD) (q : PosShare TreeShare) (v : Buf (Elt F) ℓ) :
    iprop(reads m GI GJ d q ∗ ∃ f, ℓ ↦[C]{fullShare} f) ⊢ |={Set.univ}=> iprop(
      (bigSep Finset.univ fun i : Fin n => iprop(reads m GI GJ d (shareTok q n i) ∗ ∃ f, ℓ ↦[R i]{fullShare} f))
      ∗ ((bigSep Finset.univ fun i : Fin n => iprop(reads m GI GJ d (shareTok q n i) ∗ ℓ ↦[R i]{fullShare} v))
          -∗ iprop(reads m GI GJ d q ∗ ℓ ↦[C]{fullShare} v))) := by
  subst hc
  rw [bigSep_sep', bigSep_sep', pointsTo_biUnion Finset.univ R hd (f := v)]
  iintro ⟨Hr, %f, Hf⟩
  ihave Hr' := (reads_toks m GI GJ d q n).1 $$ Hr
  icases Hr' with ⟨Hdrop, Htoks⟩
  ihave Hf' := (Entails.of_eq (pointsTo_biUnion Finset.univ R hd (f := f) (q := fullShare))) $$ Hf
  have hmono : (bigSep Finset.univ fun i : Fin n => (ℓ ↦[R i]{fullShare} f : sProp 𝕄))
      ⊢ bigSep Finset.univ fun i : Fin n => iprop(∃ f, ℓ ↦[R i]{fullShare} f) :=
    bigSep_mono fun i _ => exists_intro (Φ := fun f => (ℓ ↦[R i]{fullShare} f : sProp 𝕄)) f
  imodintro
  isplitl [Htoks Hf']
  · isplitl [Htoks]; · iexact Htoks
    iapply hmono; iexact Hf'
  · iintro ⟨Htoks, Hv⟩
    isplitl [Hdrop Htoks]
    · iapply (reads_toks m GI GJ d q n).2; isplitl [Hdrop] <;> iassumption
    · iexact Hv

/-! ## The rows -/

theorem rows1_disjoint (c : Fin 2) (d : Dev nD) :
    ∀ i ∈ (Finset.univ : Finset (Fin 16)), ∀ j ∈ (Finset.univ : Finset (Fin 16)), i ≠ j → Disjoint (rows1 c i d) (rows1 c j d) := by
  intro i _ j _ hij
  refine Finset.disjoint_left.mpr fun y h1 h2 => hij (Fin.ext ?_)
  have e1 : (y 0).val / 3400 = i.val * 2 + c.val := (Finset.mem_filter.mp h1).2
  have e2 : (y 0).val / 3400 = j.val * 2 + c.val := (Finset.mem_filter.mp h2).2
  omega
theorem rows2_disjoint (c : Fin 2) (d : Dev nD) :
    ∀ i ∈ (Finset.univ : Finset (Fin 16)), ∀ j ∈ (Finset.univ : Finset (Fin 16)), i ≠ j → Disjoint (rows2 c i d) (rows2 c j d) := by
  intro i _ j _ hij
  refine Finset.disjoint_left.mpr fun y h1 h2 => hij (Fin.ext ?_)
  have e1 : (y 0).val / 3400 = i.val * 2 + c.val := (Finset.mem_filter.mp h1).2
  have e2 : (y 0).val / 3400 = j.val * 2 + c.val := (Finset.mem_filter.mp h2).2
  omega
theorem rows3_disjoint (c : Fin 2) (d : Dev nD) :
    ∀ i ∈ (Finset.univ : Finset (Fin 16)), ∀ j ∈ (Finset.univ : Finset (Fin 16)), i ≠ j → Disjoint (rows3 c i d) (rows3 c j d) := by
  intro i _ j _ hij
  refine Finset.disjoint_left.mpr fun y h1 h2 => hij (Fin.ext ?_)
  have e1 := (Finset.mem_filter.mp h1).2
  have e2 := (Finset.mem_filter.mp h2).2
  unfold wid at e1 e2
  omega

theorem rows1_cover (c : Fin 2) (d : Dev nD) : (Finset.univ : Finset (Fin 16)).biUnion (fun i => rows1 c i d) = crows1 c d := by
  ext y
  have hy : (y 0).val < 108800 := (y 0).isLt
  have hc2 : c.val < 2 := c.isLt
  constructor
  · intro h
    obtain ⟨i, -, hi⟩ := Finset.mem_biUnion.mp h
    have e : (y 0).val / 3400 = i.val * 2 + c.val := (Finset.mem_filter.mp hi).2
    refine Finset.mem_filter.mpr ⟨Finset.mem_univ _, ?_⟩
    show ((y 0).val / 3400) % 2 = c.val
    omega
  · intro h
    have e : ((y 0).val / 3400) % 2 = c.val := (Finset.mem_filter.mp h).2
    refine Finset.mem_biUnion.mpr ⟨⟨(y 0).val / 3400 / 2, by omega⟩, Finset.mem_univ _, Finset.mem_filter.mpr ⟨Finset.mem_univ _, ?_⟩⟩
    show (y 0).val / 3400 = (y 0).val / 3400 / 2 * 2 + c.val
    omega
theorem rows2_cover (c : Fin 2) (d : Dev nD) : (Finset.univ : Finset (Fin 16)).biUnion (fun i => rows2 c i d) = crows2 c d := by
  ext y
  have hy : (y 0).val < 108800 := (y 0).isLt
  have hc2 : c.val < 2 := c.isLt
  constructor
  · intro h
    obtain ⟨i, -, hi⟩ := Finset.mem_biUnion.mp h
    have e : (y 0).val / 3400 = i.val * 2 + c.val := (Finset.mem_filter.mp hi).2
    refine Finset.mem_filter.mpr ⟨Finset.mem_univ _, ?_⟩
    show ((y 0).val / 3400) % 2 = c.val
    omega
  · intro h
    have e : ((y 0).val / 3400) % 2 = c.val := (Finset.mem_filter.mp h).2
    refine Finset.mem_biUnion.mpr ⟨⟨(y 0).val / 3400 / 2, by omega⟩, Finset.mem_univ _, Finset.mem_filter.mpr ⟨Finset.mem_univ _, ?_⟩⟩
    show (y 0).val / 3400 = (y 0).val / 3400 / 2 * 2 + c.val
    omega
theorem rows3_cover (c : Fin 2) (d : Dev nD) : (Finset.univ : Finset (Fin 16)).biUnion (fun i => rows3 c i d) = crows3 c d := by
  ext y
  have hy : (y 0).val < 102400 := (y 0).isLt
  have hc2 : c.val < 2 := c.isLt
  constructor
  · intro h
    obtain ⟨i, -, hi⟩ := Finset.mem_biUnion.mp h
    have e : (y 0).val / 3200 = i.val * 2 + c.val := (Finset.mem_filter.mp hi).2
    refine Finset.mem_filter.mpr ⟨Finset.mem_univ _, ?_⟩
    show ((y 0).val / 3200) % 2 = c.val
    omega
  · intro h
    have e : ((y 0).val / 3200) % 2 = c.val := (Finset.mem_filter.mp h).2
    refine Finset.mem_biUnion.mpr ⟨⟨(y 0).val / 3200 / 2, by omega⟩, Finset.mem_univ _, Finset.mem_filter.mpr ⟨Finset.mem_univ _, ?_⟩⟩
    show (y 0).val / 3200 = (y 0).val / 3200 / 2 * 2 + c.val
    omega

/-! ## The three calls' splits -/

theorem bigSep_tasks (q : Fin 3) (Φ : Fin 16 → sProp 𝕄) :
    (bigSep Finset.univ fun i : Fin ((K (F := F)).nSub q) => Φ (Fin.cast (nSub_cast q) i)) = bigSep Finset.univ Φ := by
  fin_cases q <;> exact bigSep_congr fun _ _ => congrArg Φ (Fin.ext rfl)

theorem P_st0 (d : Dev nD) (c : Fin ((K (F := F)).nCore 0)) :
    (P m GI GJ).st 0 d c = iprop(reads m GI GJ d (coreShare (Fin.cast (nCore_cast 0) c)) ∗ ∃ f, s1Loc d ↦[crows1 (Fin.cast (nCore_cast 0) c) d]{fullShare} f) := rfl
theorem P_dn0 (d : Dev nD) (c : Fin ((K (F := F)).nCore 0)) :
    (P m GI GJ).dn 0 d c = iprop(reads m GI GJ d (coreShare (Fin.cast (nCore_cast 0) c)) ∗ s1Loc d ↦[crows1 (Fin.cast (nCore_cast 0) c) d]{fullShare} S1v m GI GJ d) := rfl
theorem P_go0 (d : Dev nD) (c : Fin ((K (F := F)).nCore 0)) (i : Fin ((K (F := F)).nSub 0)) :
    (P m GI GJ).go 0 d c i = iprop(reads m GI GJ d (tileShare (Fin.cast (nCore_cast 0) c) (Fin.cast (nSub_cast 0) i))
      ∗ ∃ f, s1Loc d ↦[rows1 (Fin.cast (nCore_cast 0) c) (Fin.cast (nSub_cast 0) i) d]{fullShare} f) := rfl
theorem P_td0 (d : Dev nD) (c : Fin ((K (F := F)).nCore 0)) (i : Fin ((K (F := F)).nSub 0)) :
    (P m GI GJ).td 0 d c i = iprop(reads m GI GJ d (tileShare (Fin.cast (nCore_cast 0) c) (Fin.cast (nSub_cast 0) i))
      ∗ s1Loc d ↦[rows1 (Fin.cast (nCore_cast 0) c) (Fin.cast (nSub_cast 0) i) d]{fullShare} S1v m GI GJ d) := rfl

theorem vecSplit0 : (K (F := F)).VecSplit' (P m GI GJ) 0 := by
  intro d c
  simp only [P_st0, P_dn0, P_go0, P_td0]
  rw [bigSep_tasks (F := F) 0 (fun i => iprop(reads m GI GJ d (tileShare (Fin.cast (nCore_cast 0) c) i) ∗ ∃ f, s1Loc d ↦[rows1 (Fin.cast (nCore_cast 0) c) i d]{fullShare} f)),
    bigSep_tasks (F := F) 0 (fun i => iprop(reads m GI GJ d (tileShare (Fin.cast (nCore_cast 0) c) i) ∗ s1Loc d ↦[rows1 (Fin.cast (nCore_cast 0) c) i d]{fullShare} S1v m GI GJ d))]
  exact split_core m GI GJ (fun i => rows1 (Fin.cast (nCore_cast 0) c) i d) _ (rows1_disjoint _ d) (rows1_cover _ d) d _ _

theorem P_st1 (d : Dev nD) (c : Fin ((K (F := F)).nCore 1)) :
    (P m GI GJ).st 1 d c = iprop(reads m GI GJ d (coreShare (Fin.cast (nCore_cast 1) c)) ∗ ∃ f, s2Loc d ↦[crows2 (Fin.cast (nCore_cast 1) c) d]{fullShare} f) := rfl
theorem P_dn1 (d : Dev nD) (c : Fin ((K (F := F)).nCore 1)) :
    (P m GI GJ).dn 1 d c = iprop(reads m GI GJ d (coreShare (Fin.cast (nCore_cast 1) c)) ∗ s2Loc d ↦[crows2 (Fin.cast (nCore_cast 1) c) d]{fullShare} S2v m GI GJ d) := rfl
theorem P_go1 (d : Dev nD) (c : Fin ((K (F := F)).nCore 1)) (i : Fin ((K (F := F)).nSub 1)) :
    (P m GI GJ).go 1 d c i = iprop(reads m GI GJ d (tileShare (Fin.cast (nCore_cast 1) c) (Fin.cast (nSub_cast 1) i))
      ∗ ∃ f, s2Loc d ↦[rows2 (Fin.cast (nCore_cast 1) c) (Fin.cast (nSub_cast 1) i) d]{fullShare} f) := rfl
theorem P_td1 (d : Dev nD) (c : Fin ((K (F := F)).nCore 1)) (i : Fin ((K (F := F)).nSub 1)) :
    (P m GI GJ).td 1 d c i = iprop(reads m GI GJ d (tileShare (Fin.cast (nCore_cast 1) c) (Fin.cast (nSub_cast 1) i))
      ∗ s2Loc d ↦[rows2 (Fin.cast (nCore_cast 1) c) (Fin.cast (nSub_cast 1) i) d]{fullShare} S2v m GI GJ d) := rfl

theorem vecSplit1 : (K (F := F)).VecSplit' (P m GI GJ) 1 := by
  intro d c
  simp only [P_st1, P_dn1, P_go1, P_td1]
  rw [bigSep_tasks (F := F) 1 (fun i => iprop(reads m GI GJ d (tileShare (Fin.cast (nCore_cast 1) c) i) ∗ ∃ f, s2Loc d ↦[rows2 (Fin.cast (nCore_cast 1) c) i d]{fullShare} f)),
    bigSep_tasks (F := F) 1 (fun i => iprop(reads m GI GJ d (tileShare (Fin.cast (nCore_cast 1) c) i) ∗ s2Loc d ↦[rows2 (Fin.cast (nCore_cast 1) c) i d]{fullShare} S2v m GI GJ d))]
  exact split_core m GI GJ (fun i => rows2 (Fin.cast (nCore_cast 1) c) i d) _ (rows2_disjoint _ d) (rows2_cover _ d) d _ _

theorem P_st2 (d : Dev nD) (c : Fin ((K (F := F)).nCore 2)) :
    (P m GI GJ).st 2 d c = iprop(reads m GI GJ d (coreShare (Fin.cast (nCore_cast 2) c)) ∗ ∃ f, s3Loc d ↦[crows3 (Fin.cast (nCore_cast 2) c) d]{fullShare} f) := rfl
theorem P_dn2 (d : Dev nD) (c : Fin ((K (F := F)).nCore 2)) :
    (P m GI GJ).dn 2 d c = iprop(reads m GI GJ d (coreShare (Fin.cast (nCore_cast 2) c)) ∗ s3Loc d ↦[crows3 (Fin.cast (nCore_cast 2) c) d]{fullShare} S3v m GI GJ d) := rfl
theorem P_go2 (d : Dev nD) (c : Fin ((K (F := F)).nCore 2)) (i : Fin ((K (F := F)).nSub 2)) :
    (P m GI GJ).go 2 d c i = iprop(reads m GI GJ d (tileShare (Fin.cast (nCore_cast 2) c) (Fin.cast (nSub_cast 2) i))
      ∗ ∃ f, s3Loc d ↦[rows3 (Fin.cast (nCore_cast 2) c) (Fin.cast (nSub_cast 2) i) d]{fullShare} f) := rfl
theorem P_td2 (d : Dev nD) (c : Fin ((K (F := F)).nCore 2)) (i : Fin ((K (F := F)).nSub 2)) :
    (P m GI GJ).td 2 d c i = iprop(reads m GI GJ d (tileShare (Fin.cast (nCore_cast 2) c) (Fin.cast (nSub_cast 2) i))
      ∗ s3Loc d ↦[rows3 (Fin.cast (nCore_cast 2) c) (Fin.cast (nSub_cast 2) i) d]{fullShare} S3v m GI GJ d) := rfl

theorem vecSplit2 : (K (F := F)).VecSplit' (P m GI GJ) 2 := by
  intro d c
  simp only [P_st2, P_dn2, P_go2, P_td2]
  rw [bigSep_tasks (F := F) 2 (fun i => iprop(reads m GI GJ d (tileShare (Fin.cast (nCore_cast 2) c) i) ∗ ∃ f, s3Loc d ↦[rows3 (Fin.cast (nCore_cast 2) c) i d]{fullShare} f)),
    bigSep_tasks (F := F) 2 (fun i => iprop(reads m GI GJ d (tileShare (Fin.cast (nCore_cast 2) c) i) ∗ s3Loc d ↦[rows3 (Fin.cast (nCore_cast 2) c) i d]{fullShare} S3v m GI GJ d))]
  exact split_core m GI GJ (fun i => rows3 (Fin.cast (nCore_cast 2) c) i d) _ (rows3_disjoint _ d) (rows3_cover _ d) d _ _

/-! ## The two SparseCores' rows, and what a call takes and brings back -/

theorem crows1_disjoint (d : Dev nD) :
    ∀ c ∈ (Finset.univ : Finset (Fin 2)), ∀ c' ∈ (Finset.univ : Finset (Fin 2)), c ≠ c' → Disjoint (crows1 c d) (crows1 c' d) := by
  intro c _ c' _ hcc
  refine Finset.disjoint_left.mpr fun y h1 h2 => hcc (Fin.ext ?_)
  have e1 : ((y 0).val / 3400) % 2 = c.val := (Finset.mem_filter.mp h1).2
  have e2 : ((y 0).val / 3400) % 2 = c'.val := (Finset.mem_filter.mp h2).2
  omega
theorem crows1_cover (d : Dev nD) : (Finset.univ : Finset (Fin 2)).biUnion (fun c => crows1 c d) = Finset.univ := by
  ext y
  refine ⟨fun _ => Finset.mem_univ _, fun _ => ?_⟩
  refine Finset.mem_biUnion.mpr ⟨⟨((y 0).val / 3400) % 2, Nat.mod_lt _ (by decide)⟩, Finset.mem_univ _, Finset.mem_filter.mpr ⟨Finset.mem_univ _, ?_⟩⟩
  rfl
theorem crows2_disjoint (d : Dev nD) :
    ∀ c ∈ (Finset.univ : Finset (Fin 2)), ∀ c' ∈ (Finset.univ : Finset (Fin 2)), c ≠ c' → Disjoint (crows2 c d) (crows2 c' d) := by
  intro c _ c' _ hcc
  refine Finset.disjoint_left.mpr fun y h1 h2 => hcc (Fin.ext ?_)
  have e1 : ((y 0).val / 3400) % 2 = c.val := (Finset.mem_filter.mp h1).2
  have e2 : ((y 0).val / 3400) % 2 = c'.val := (Finset.mem_filter.mp h2).2
  omega
theorem crows2_cover (d : Dev nD) : (Finset.univ : Finset (Fin 2)).biUnion (fun c => crows2 c d) = Finset.univ := by
  ext y
  refine ⟨fun _ => Finset.mem_univ _, fun _ => ?_⟩
  refine Finset.mem_biUnion.mpr ⟨⟨((y 0).val / 3400) % 2, Nat.mod_lt _ (by decide)⟩, Finset.mem_univ _, Finset.mem_filter.mpr ⟨Finset.mem_univ _, ?_⟩⟩
  rfl
theorem crows3_disjoint (d : Dev nD) :
    ∀ c ∈ (Finset.univ : Finset (Fin 2)), ∀ c' ∈ (Finset.univ : Finset (Fin 2)), c ≠ c' → Disjoint (crows3 c d) (crows3 c' d) := by
  intro c _ c' _ hcc
  refine Finset.disjoint_left.mpr fun y h1 h2 => hcc (Fin.ext ?_)
  have e1 : ((y 0).val / 3200) % 2 = c.val := (Finset.mem_filter.mp h1).2
  have e2 : ((y 0).val / 3200) % 2 = c'.val := (Finset.mem_filter.mp h2).2
  omega
theorem crows3_cover (d : Dev nD) : (Finset.univ : Finset (Fin 2)).biUnion (fun c => crows3 c d) = Finset.univ := by
  ext y
  refine ⟨fun _ => Finset.mem_univ _, fun _ => ?_⟩
  refine Finset.mem_biUnion.mpr ⟨⟨((y 0).val / 3200) % 2, Nat.mod_lt _ (by decide)⟩, Finset.mem_univ _, Finset.mem_filter.mpr ⟨Finset.mem_univ _, ?_⟩⟩
  rfl

theorem bigSep_cores (q : Fin 3) (Φ : Fin 2 → sProp 𝕄) :
    (bigSep Finset.univ fun c : Fin ((K (F := F)).nCore q) => Φ (Fin.cast (nCore_cast q) c)) = bigSep Finset.univ Φ := by
  fin_cases q <;> exact bigSep_congr fun _ _ => congrArg Φ (Fin.ext rfl)

theorem st0_eq (d : Dev nD) : (bigSep Finset.univ fun c : Fin ((K (F := F)).nCore 0) => (P m GI GJ).st 0 d c)
    = bigSep Finset.univ fun c : Fin 2 => iprop(reads m GI GJ d (shareTok fullShare 2 c) ∗ ∃ f, s1Loc d ↦[crows1 c d]{fullShare} f) := by
  simp only [P_st0]
  exact bigSep_cores (F := F) 0 (fun c => iprop(reads m GI GJ d (shareTok fullShare 2 c) ∗ ∃ f, s1Loc d ↦[crows1 c d]{fullShare} f))
theorem dn0_eq (d : Dev nD) : (bigSep Finset.univ fun c : Fin ((K (F := F)).nCore 0) => (P m GI GJ).dn 0 d c)
    = bigSep Finset.univ fun c : Fin 2 => iprop(reads m GI GJ d (shareTok fullShare 2 c) ∗ s1Loc d ↦[crows1 c d]{fullShare} S1v m GI GJ d) := by
  simp only [P_dn0]
  exact bigSep_cores (F := F) 0 (fun c => iprop(reads m GI GJ d (shareTok fullShare 2 c) ∗ s1Loc d ↦[crows1 c d]{fullShare} S1v m GI GJ d))

theorem st1_eq (d : Dev nD) : (bigSep Finset.univ fun c : Fin ((K (F := F)).nCore 1) => (P m GI GJ).st 1 d c)
    = bigSep Finset.univ fun c : Fin 2 => iprop(reads m GI GJ d (shareTok fullShare 2 c) ∗ ∃ f, s2Loc d ↦[crows2 c d]{fullShare} f) := by
  simp only [P_st1]
  exact bigSep_cores (F := F) 1 (fun c => iprop(reads m GI GJ d (shareTok fullShare 2 c) ∗ ∃ f, s2Loc d ↦[crows2 c d]{fullShare} f))
theorem dn1_eq (d : Dev nD) : (bigSep Finset.univ fun c : Fin ((K (F := F)).nCore 1) => (P m GI GJ).dn 1 d c)
    = bigSep Finset.univ fun c : Fin 2 => iprop(reads m GI GJ d (shareTok fullShare 2 c) ∗ s2Loc d ↦[crows2 c d]{fullShare} S2v m GI GJ d) := by
  simp only [P_dn1]
  exact bigSep_cores (F := F) 1 (fun c => iprop(reads m GI GJ d (shareTok fullShare 2 c) ∗ s2Loc d ↦[crows2 c d]{fullShare} S2v m GI GJ d))

theorem st2_eq (d : Dev nD) : (bigSep Finset.univ fun c : Fin ((K (F := F)).nCore 2) => (P m GI GJ).st 2 d c)
    = bigSep Finset.univ fun c : Fin 2 => iprop(reads m GI GJ d (shareTok fullShare 2 c) ∗ ∃ f, s3Loc d ↦[crows3 c d]{fullShare} f) := by
  simp only [P_st2]
  exact bigSep_cores (F := F) 2 (fun c => iprop(reads m GI GJ d (shareTok fullShare 2 c) ∗ ∃ f, s3Loc d ↦[crows3 c d]{fullShare} f))
theorem dn2_eq (d : Dev nD) : (bigSep Finset.univ fun c : Fin ((K (F := F)).nCore 2) => (P m GI GJ).dn 2 d c)
    = bigSep Finset.univ fun c : Fin 2 => iprop(reads m GI GJ d (shareTok fullShare 2 c) ∗ s3Loc d ↦[crows3 c d]{fullShare} S3v m GI GJ d) := by
  simp only [P_dn2]
  exact bigSep_cores (F := F) 2 (fun c => iprop(reads m GI GJ d (shareTok fullShare 2 c) ∗ s3Loc d ↦[crows3 c d]{fullShare} S3v m GI GJ d))

end Cert.Proof.KI

end
-- ==== Proof.CallStep.lean ====
/-
  Each gather-and-add call as the TensorCore meets it in @main: the share of the four read arrays halves once per
  SparseCore of the grid, the output array is dealt by the rows each SparseCore's workers write, the call runs, and the
  shares and rows come back joined, the output array whole at the call's value.
-/
import proofs.«206539_g3985729650836_cont_8to1_b_247_13_alg».proof.Proof.VecSplit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-- Call 0 on the TensorCore: the four read arrays whole and the call's output array go in, the same come back with
    the output at the call's value. -/
theorem run_call0 (κ : GSem nD τ sig → ℕ) (d : Dev nD) {Φ : PUnit → sProp 𝕄} :
    iprop((K (F := F)).ctx EH (P m GI GJ) κ ∗ (K (F := F)).tcSt EH d 0 ∗ reads m GI GJ d fullShare ∗ (∃ f, s1Loc d ↦{fullShare} f)
        ∗ (((K (F := F)).tcSt EH d 1 ∗ reads m GI GJ d fullShare ∗ s1Loc d ↦{fullShare} S1v m GI GJ d) -∗ Φ ⟨⟩))
      ⊢ wp frame (wpE ((K (F := F)).defs (D (F := F))) 𝒱 (SparseCore.T d) none) Set.univ ((K (F := F)).run d 0) Φ := by
  iintro ⟨#Hctx, Hst, Hr, Hs, Hk⟩
  imod (split_core m GI GJ (fun c => crows1 c d) Finset.univ (crows1_disjoint d) (crows1_cover d) d fullShare (S1v m GI GJ d)) $$ [Hr Hs] with ⟨Hgo, Hback⟩
  · isplitl [Hr]; · iexact Hr
    iexact Hs
  iapply ((K (F := F)).wp_run (D (F := F)) 𝒱 (EH := EH) (P := P m GI GJ) κ d 0) $$ [Hst Hgo Hback Hk]
  isplitr; · iexact Hctx
  isplitl [Hst]; · iexact Hst
  isplitl [Hgo]
  · rw [st0_eq]; iexact Hgo
  iintro ⟨Hst, Hdn⟩
  ihave Hdn' := (Entails.of_eq (dn0_eq m GI GJ d)) $$ Hdn
  ihave Hb := Hback $$ Hdn'
  icases Hb with ⟨Hr, Hs⟩
  iapply Hk
  isplitl [Hst]; · iexact Hst
  isplitl [Hr]; · iexact Hr
  iexact Hs

/-- Call 1 on the TensorCore: the four read arrays whole and the call's output array go in, the same come back with
    the output at the call's value. -/
theorem run_call1 (κ : GSem nD τ sig → ℕ) (d : Dev nD) {Φ : PUnit → sProp 𝕄} :
    iprop((K (F := F)).ctx EH (P m GI GJ) κ ∗ (K (F := F)).tcSt EH d 1 ∗ reads m GI GJ d fullShare ∗ (∃ f, s2Loc d ↦{fullShare} f)
        ∗ (((K (F := F)).tcSt EH d 2 ∗ reads m GI GJ d fullShare ∗ s2Loc d ↦{fullShare} S2v m GI GJ d) -∗ Φ ⟨⟩))
      ⊢ wp frame (wpE ((K (F := F)).defs (D (F := F))) 𝒱 (SparseCore.T d) none) Set.univ ((K (F := F)).run d 1) Φ := by
  iintro ⟨#Hctx, Hst, Hr, Hs, Hk⟩
  imod (split_core m GI GJ (fun c => crows2 c d) Finset.univ (crows2_disjoint d) (crows2_cover d) d fullShare (S2v m GI GJ d)) $$ [Hr Hs] with ⟨Hgo, Hback⟩
  · isplitl [Hr]; · iexact Hr
    iexact Hs
  iapply ((K (F := F)).wp_run (D (F := F)) 𝒱 (EH := EH) (P := P m GI GJ) κ d 1) $$ [Hst Hgo Hback Hk]
  isplitr; · iexact Hctx
  isplitl [Hst]; · iexact Hst
  isplitl [Hgo]
  · rw [st1_eq]; iexact Hgo
  iintro ⟨Hst, Hdn⟩
  ihave Hdn' := (Entails.of_eq (dn1_eq m GI GJ d)) $$ Hdn
  ihave Hb := Hback $$ Hdn'
  icases Hb with ⟨Hr, Hs⟩
  iapply Hk
  isplitl [Hst]; · iexact Hst
  isplitl [Hr]; · iexact Hr
  iexact Hs

/-- Call 2 on the TensorCore: the four read arrays whole and the call's output array go in, the same come back with
    the output at the call's value. -/
theorem run_call2 (κ : GSem nD τ sig → ℕ) (d : Dev nD) {Φ : PUnit → sProp 𝕄} :
    iprop((K (F := F)).ctx EH (P m GI GJ) κ ∗ (K (F := F)).tcSt EH d 2 ∗ reads m GI GJ d fullShare ∗ (∃ f, s3Loc d ↦{fullShare} f)
        ∗ (((K (F := F)).tcSt EH d 3 ∗ reads m GI GJ d fullShare ∗ s3Loc d ↦{fullShare} S3v m GI GJ d) -∗ Φ ⟨⟩))
      ⊢ wp frame (wpE ((K (F := F)).defs (D (F := F))) 𝒱 (SparseCore.T d) none) Set.univ ((K (F := F)).run d 2) Φ := by
  iintro ⟨#Hctx, Hst, Hr, Hs, Hk⟩
  imod (split_core m GI GJ (fun c => crows3 c d) Finset.univ (crows3_disjoint d) (crows3_cover d) d fullShare (S3v m GI GJ d)) $$ [Hr Hs] with ⟨Hgo, Hback⟩
  · isplitl [Hr]; · iexact Hr
    iexact Hs
  iapply ((K (F := F)).wp_run (D (F := F)) 𝒱 (EH := EH) (P := P m GI GJ) κ d 2) $$ [Hst Hgo Hback Hk]
  isplitr; · iexact Hctx
  isplitl [Hst]; · iexact Hst
  isplitl [Hgo]
  · rw [st2_eq]; iexact Hgo
  iintro ⟨Hst, Hdn⟩
  ihave Hdn' := (Entails.of_eq (dn2_eq m GI GJ d)) $$ Hdn
  ihave Hb := Hback $$ Hdn'
  icases Hb with ⟨Hr, Hs⟩
  iapply Hk
  isplitl [Hst]; · iexact Hst
  isplitl [Hr]; · iexact Hr
  iexact Hs

end Cert.Proof.KI

end
-- ==== Proof.LaunchElem.lean ====
/-
  The launch element of the ghost state: the handshakes' rounds at their launch tokens, the four pipelines' staging
  cells' rounds at theirs, the transfers' counters at the unit. From it every device's TensorCore is dealt, per pipeline,
  its staging cells' ghost state and its duty tokens; the SparseCore kernels' proofs consume nothing of the launch's.
-/
import proofs.«206539_g3985729650836_cont_8to1_b_247_13_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-- What @main's proof on device `d` starts from, beside what the launch deals every TensorCore: per pipeline, its
    staging cells' ghost state and its duty tokens. -/
def GP (d : Dev nD) : sProp 𝕄 :=
  bigSep Finset.univ fun p : Fin 4 => iprop(Pipeline.cellsGhost cfgs (EP (F := F)) p d ∗ Pipeline.toksInit cfgs (EP (F := F)) p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem ownU_split (a : UH) (b : UP) (c : Counters) : (ownU (a, (b, c)) : sProp 𝕄) ⊢ iprop(BI.own (EH a) ∗ BI.own (EP b)) := by
  refine (ownU_pair a (b, c)).trans (BIClass.sep_mono ?_ ?_)
  · exact .rfl
  · exact (own_pair_emb (embR (A := UH) (B := UP × Counters)) b c).trans sep_elim_left

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 3 => (P m GI GJ).x q thr) := by
  unfold u₀
  iintro Hu
  ihave H := (ownU_split _ _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · simp only [GP, bigSep_sep']
    isplitl [Hg]; · iexact Hg
    iexact Ht
  · unfold P; dsimp only
    rw [show (bigSep Finset.univ fun _ : Thread nD τ => bigSep Finset.univ fun _ : Fin 3 => (iprop(emp) : sProp 𝕄)) = iprop(emp) from by
      rw [bigSep_congr fun _ _ => bigSep_emp' _, bigSep_emp']]
    iempintro

end Cert.Proof.KI

end
-- ==== Proof.MainVals.lean ====
/-
  The valuation of the TensorCore's arrays through @main: the launch memory, then each host operation's result, each
  kernel region's effect on its output arrays (a parameter here, with the fact that it touches nothing else), and each
  gather-and-add call's output array at its value. The argument arrays are never written.
-/
import proofs.«206539_g3985729650836_cont_8to1_b_247_13_alg».proof.Proof.CallStep
import proofs.«206539_g3985729650836_cont_8to1_b_247_13_alg».proof.Proof.LaunchElem
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-! ## The arrays as device references -/

abbrev z' : DevRef τ sig := Proc.devRef .tc (main_arg0 : Ref sig .tc)
abbrev rbf' : DevRef τ sig := Proc.devRef .tc (main_arg1 : Ref sig .tc)
abbrev ii' : DevRef τ sig := Proc.devRef .tc (main_arg2 : Ref sig .tc)
abbrev jj' : DevRef τ sig := Proc.devRef .tc (main_arg3 : Ref sig .tc)
abbrev emb' : DevRef τ sig := Proc.devRef .tc (main_arg4 : Ref sig .tc)
abbrev w' : DevRef τ sig := Proc.devRef .tc (main_arg5 : Ref sig .tc)
abbrev b' : DevRef τ sig := Proc.devRef .tc (main_arg6 : Ref sig .tc)
abbrev h' : DevRef τ sig := Proc.devRef .tc (main_v2_0 : Ref sig .tc)
abbrev gi' : DevRef τ sig := Proc.devRef .tc (main_v2_1 : Ref sig .tc)
abbrev gj' : DevRef τ sig := Proc.devRef .tc (main_v2_2 : Ref sig .tc)
abbrev s1' : DevRef τ sig := Proc.devRef .tc (main_v5 : Ref sig .tc)
abbrev s2' : DevRef τ sig := Proc.devRef .tc (main_v6 : Ref sig .tc)
abbrev s3' : DevRef τ sig := Proc.devRef .tc (main_v7 : Ref sig .tc)
abbrev m1' : DevRef τ sig := Proc.devRef .tc (main_v8 : Ref sig .tc)
abbrev m2' : DevRef τ sig := Proc.devRef .tc (main_v9 : Ref sig .tc)
abbrev out' : DevRef τ sig := Proc.devRef .tc (main_v10 : Ref sig .tc)

/-- The seven argument arrays. -/
abbrev argRefs : Finset (DevRef τ sig) := {z', rbf', ii', jj', emb', w', b'}

/-! ## @main's host operations -/

abbrev opReshZ : HloOp τ sig (Elt F) := StableHlo.reshape main_arg0 main_v0 rfl shapeCasts_S10000_S10000x1
abbrev opC : HloOp τ sig (Elt F) := StableHlo.nullary main_c (constantI S_ 32 0#32)
abbrev opCvt : HloOp τ sig (Elt F) :=
  StableHlo.TRef.unary (Tx := ⟨S_, .i32⟩) (Ty := ⟨S_, .f32⟩) (.of main_c) main_call0.v0 (sitofp .f32)
abbrev opPad : HloOp τ sig (Elt F) :=
  StableHlo.TRef.binary (Ta := ⟨S93x128, .f32⟩) (Tb := ⟨S_, .f32⟩) (Ty := ⟨S128x128, .f32⟩) (.of main_arg4) main_call0.v0 main_call0.v1
    (fun x v => pad S128x128 ![0, 0] ![35, 0] ![0, 0] x v pads_S93x128_S128x128_0350_000 h_S_)
abbrev opSlice : HloOp τ sig (Elt F) :=
  StableHlo.unary main_arg5 main_v3 ((extractStridedSlice S128x16 ![0, 256] · slices_S128x272_S128x16_0_256) : (⟨S128x272, .f32⟩ : BufTy).Contents (Elt F) → (⟨S128x16, .f32⟩ : BufTy).Contents (Elt F))
abbrev opReshB : HloOp τ sig (Elt F) := StableHlo.reshape main_arg6 main_v4 rfl shapeCasts_S128_S1x128
abbrev opCp1 : HloOp τ sig (Elt F) := StableHlo.unary main_v8 main_v9 id
abbrev opCp2 : HloOp τ sig (Elt F) := StableHlo.unary main_v9 main_v10 id

/-! ## The regions' effects, as parameters -/

-- What kernel region `p` does to the valuation of the TensorCore's arrays on device `d`; it rewrites only the
-- region's output arrays (`RegionFrame`).
variable (R0 R1 R2 R3 : Dev nD → Valuation τ sig (Elt F) → Valuation τ sig (Elt F))

def RegionFrame (R : Dev nD → Valuation τ sig (Elt F) → Valuation τ sig (Elt F)) (outs : Finset (DevRef τ sig)) : Prop :=
  ∀ (d : Dev nD) (W : Valuation τ sig (Elt F)) (b : DevRef τ sig), b ∉ outs → R d W b = W b

/-! ## The valuations -/

def W0 (d : Dev nD) : Valuation τ sig (Elt F) := fun b => m (d, b)
def W4 (d : Dev nD) : Valuation τ sig (Elt F) :=
  (opPad (F := F)).result ((opCvt (F := F)).result ((opC (F := F)).result ((opReshZ (F := F)).result (W0 m d))))
def W5 (d : Dev nD) : Valuation τ sig (Elt F) := R0 d (W4 m d)
def W7 (d : Dev nD) : Valuation τ sig (Elt F) := (opReshB (F := F)).result ((opSlice (F := F)).result (W5 m R0 d))

/-- The node tables as the gather-and-add calls find them. -/
def GIv (d : Dev nD) : Buf (Elt F) (giLoc d) := W7 m R0 d gi'
def GJv (d : Dev nD) : Buf (Elt F) (gjLoc d) := W7 m R0 d gj'

def W8 (d : Dev nD) : Valuation τ sig (Elt F) := Function.update (W7 m R0 d) s1' (S1v m (GIv m R0) (GJv m R0) d)
def W9 (d : Dev nD) : Valuation τ sig (Elt F) := Function.update (W8 m R0 d) s2' (S2v m (GIv m R0) (GJv m R0) d)
def W10 (d : Dev nD) : Valuation τ sig (Elt F) := Function.update (W9 m R0 d) s3' (S3v m (GIv m R0) (GJv m R0) d)
def W11 (d : Dev nD) : Valuation τ sig (Elt F) := R1 d (W10 m R0 d)
def W12 (d : Dev nD) : Valuation τ sig (Elt F) := (opCp1 (F := F)).result (W11 m R0 R1 d)
def W13 (d : Dev nD) : Valuation τ sig (Elt F) := R2 d (W12 m R0 R1 d)
def W14 (d : Dev nD) : Valuation τ sig (Elt F) := (opCp2 (F := F)).result (W13 m R0 R1 R2 d)
def W15 (d : Dev nD) : Valuation τ sig (Elt F) := R3 d (W14 m R0 R1 R2 d)

/-! ## The argument arrays are never written -/

section Kept

variable {R0 R1 R2 R3}
variable (h0 : RegionFrame R0 {h', gi', gj'}) (h1 : RegionFrame R1 {m1'}) (h2 : RegionFrame R2 {m2'}) (h3 : RegionFrame R3 {out'})

abbrev v0' : DevRef τ sig := Proc.devRef .tc (main_v0 : Ref sig .tc)
abbrev c' : DevRef τ sig := Proc.devRef .tc (main_c : Ref sig .tc)
abbrev cv0' : DevRef τ sig := Proc.devRef .tc (main_call0_v0 : Ref sig .tc)
abbrev v1' : DevRef τ sig := Proc.devRef .tc (main_v1 : Ref sig .tc)
abbrev v3' : DevRef τ sig := Proc.devRef .tc (main_v3 : Ref sig .tc)
abbrev v4' : DevRef τ sig := Proc.devRef .tc (main_v4 : Ref sig .tc)

omit [FloatOps F] in
theorem arg_ne : ∀ b ∈ (argRefs : Finset (DevRef τ sig)),
    b ≠ v0' ∧ b ≠ c' ∧ b ≠ cv0' ∧ b ≠ v1' ∧ b ≠ h' ∧ b ≠ gi' ∧ b ≠ gj' ∧ b ≠ v3' ∧ b ≠ v4' ∧ b ≠ s1' ∧ b ≠ s2' ∧ b ≠ s3' ∧ b ≠ m1' ∧ b ≠ m2' ∧ b ≠ out' := by
  decide

include h0 in
theorem W7_arg (d : Dev nD) {b : DevRef τ sig} (hb : b ∈ (argRefs : Finset (DevRef τ sig))) : W7 m R0 d b = m (d, b) := by
  obtain ⟨n1, n2, n3, n4, n5, n6, n7, n8, n9, -⟩ := arg_ne b hb
  unfold W7 W5 W4
  rw [(opReshB (F := F)).result_of_not_mem _ (b := b) (show b ∉ ({v4'} : Finset (DevRef τ sig)) from Finset.notMem_singleton.mpr n9),
    (opSlice (F := F)).result_of_not_mem _ (b := b) (show b ∉ ({v3'} : Finset (DevRef τ sig)) from Finset.notMem_singleton.mpr n8),
    h0 d _ b (by simp only [Finset.mem_insert, Finset.mem_singleton, not_or]; exact ⟨n5, n6, n7⟩),
    (opPad (F := F)).result_of_not_mem _ (b := b) (show b ∉ ({v1'} : Finset (DevRef τ sig)) from Finset.notMem_singleton.mpr n4),
    (opCvt (F := F)).result_of_not_mem _ (b := b) (show b ∉ ({cv0'} : Finset (DevRef τ sig)) from Finset.notMem_singleton.mpr n3),
    (opC (F := F)).result_of_not_mem _ (b := b) (show b ∉ ({c'} : Finset (DevRef τ sig)) from Finset.notMem_singleton.mpr n2),
    (opReshZ (F := F)).result_of_not_mem _ (b := b) (show b ∉ ({v0'} : Finset (DevRef τ sig)) from Finset.notMem_singleton.mpr n1)]
  rfl

include h0 h1 h2 h3 in
/-- Through the whole of @main an argument array holds what the launch memory did. -/
theorem W15_arg (d : Dev nD) {b : DevRef τ sig} (hb : b ∈ (argRefs : Finset (DevRef τ sig))) : W15 m R0 R1 R2 R3 d b = m (d, b) := by
  obtain ⟨-, -, -, -, -, -, -, -, -, n10, n11, n12, n13, n14, n15⟩ := arg_ne b hb
  unfold W15 W14 W13 W12 W11 W10 W9 W8
  rw [h3 d _ b (Finset.notMem_singleton.mpr n15),
    (opCp2 (F := F)).result_of_not_mem _ (b := b) (show b ∉ ({out'} : Finset (DevRef τ sig)) from Finset.notMem_singleton.mpr n15),
    h2 d _ b (Finset.notMem_singleton.mpr n14),
    (opCp1 (F := F)).result_of_not_mem _ (b := b) (show b ∉ ({m2'} : Finset (DevRef τ sig)) from Finset.notMem_singleton.mpr n14),
    h1 d _ b (Finset.notMem_singleton.mpr n13),
    Function.update_of_ne n12, Function.update_of_ne n11, Function.update_of_ne n10]
  exact W7_arg m h0 d hb

end Kept

end Cert.Proof.KI

end
-- ==== Proof.MainSteps.lean ====
/-
  The steps of @main on the TensorCore, each as a rule from the boundary and the arrays held at a valuation to the same
  at the step's valuation: a host operation, a gather-and-add call (its five arrays carved out of the held set and put
  back), (the kernel regions enter later, as hypotheses in the same continuation form).
-/
import proofs.«206539_g3985729650836_cont_8to1_b_247_13_alg».proof.Proof.MainVals

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (GI : (d : Dev nD) → Buf (Elt F) (giLoc d)) (GJ : (d : Dev nD) → Buf (Elt F) (gjLoc d))

/-! ## A host operation -/

theorem host_step (d : Dev nD) (op : HloOp τ sig (Elt F)) (hp : (SparseCore.T d : Thread nD τ).2.kind.runsHlo = true) (hS : op.bufs ⊆ ucRefs τ sig)
    (hf : op.fresh = ∅) (W : Valuation τ sig (Elt F)) (Q : PUnit → sProp 𝕄) :
    iprop(boundary (SparseCore.T d) ∗ held (SparseCore.T d) (ucRefs τ sig) W
        ∗ ((boundary (SparseCore.T d) ∗ held (SparseCore.T d) (ucRefs τ sig) (op.result W)) -∗ Q ⟨⟩))
      ⊢ wp frame (wpE ((K (F := F)).defs (D (F := F))) 𝒱 (SparseCore.T d) none) Set.univ (hlo hp op fun _ => Prog.ret PUnit.unit) Q := by
  iintro ⟨Hb, Hh, Hk⟩
  iapply (wp_hlo_within 𝒱 (SparseCore.T d) none Set.univ (op := op) (S := ucRefs τ sig) hS (V := W) hf) $$ [Hb Hh]
  · isplitl [Hb]; · iexact Hb
    iexact Hh
  iintro ⟨Hb, Hh⟩
  rw [wp_ret]; imodintro
  iapply Hk
  isplitl [Hb]; · iexact Hb
  iexact Hh

/-! ## A gather-and-add call -/

omit [FloatOps F] in
theorem held_T1 (d : Dev nD) (W : Valuation τ sig (Elt F)) :
    (held (SparseCore.T d) ({gi', gj', ii', jj', s1'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s1Loc d ↦{fullShare} W s1')) := by
  unfold held
  rw [SparseCore.bigSep_insert' (by decide), SparseCore.bigSep_insert' (by decide), SparseCore.bigSep_insert' (by decide), SparseCore.bigSep_insert' (by decide), bigSep_singleton]

omit [FloatOps F] in
theorem sub_T1 : ({gi', gj', ii', jj', s1'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 0 from the arrays held at `W`: afterwards they are held at `W` with the call's output array at its value. -/
theorem call_step0 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 0 ∗ held (SparseCore.T d) (ucRefs τ sig) W
        ∗ (((K (F := F)).tcSt EH d 1 ∗ held (SparseCore.T d) (ucRefs τ sig) (Function.update W s1' (S1v m GI GJ d))) -∗ Φ ⟨⟩))
      ⊢ wp frame (wpE ((K (F := F)).defs (D (F := F))) 𝒱 (SparseCore.T d) none) Set.univ ((K (F := F)).run d 0) Φ := by
  have hrest : (held (SparseCore.T d) (ucRefs τ sig \ {gi', gj', ii', jj', s1'}) (Function.update W s1' (S1v m GI GJ d)) : sProp 𝕄)
      = held (SparseCore.T d) (ucRefs τ sig \ {gi', gj', ii', jj', s1'}) W := by
    unfold held
    refine bigSep_congr fun b hb => ?_
    rw [Function.update_of_ne (fun e => (Finset.mem_sdiff.mp hb).2 (by rw [e]; simp))]
  rw [held_sub_split (SparseCore.T d) sub_T1 W, held_sub_split (SparseCore.T d) sub_T1 (Function.update W s1' (S1v m GI GJ d)), hrest, held_T1, held_T1,
    Function.update_of_ne (show gi' ≠ s1' by decide), Function.update_of_ne (show gj' ≠ s1' by decide), Function.update_of_ne (show ii' ≠ s1' by decide),
    Function.update_of_ne (show jj' ≠ s1' by decide), Function.update_self, hgi, hgj, hii, hjj]
  iintro ⟨#Hctx, Hst, ⟨⟨H1, H2, H3, H4, H5⟩, Hrest⟩, Hk⟩
  iapply (run_call0 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

omit [FloatOps F] in
theorem held_T2 (d : Dev nD) (W : Valuation τ sig (Elt F)) :
    (held (SparseCore.T d) ({gi', gj', ii', jj', s2'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s2Loc d ↦{fullShare} W s2')) := by
  unfold held
  rw [SparseCore.bigSep_insert' (by decide), SparseCore.bigSep_insert' (by decide), SparseCore.bigSep_insert' (by decide), SparseCore.bigSep_insert' (by decide), bigSep_singleton]

omit [FloatOps F] in
theorem sub_T2 : ({gi', gj', ii', jj', s2'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 1 from the arrays held at `W`: afterwards they are held at `W` with the call's output array at its value. -/
theorem call_step1 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 1 ∗ held (SparseCore.T d) (ucRefs τ sig) W
        ∗ (((K (F := F)).tcSt EH d 2 ∗ held (SparseCore.T d) (ucRefs τ sig) (Function.update W s2' (S2v m GI GJ d))) -∗ Φ ⟨⟩))
      ⊢ wp frame (wpE ((K (F := F)).defs (D (F := F))) 𝒱 (SparseCore.T d) none) Set.univ ((K (F := F)).run d 1) Φ := by
  have hrest : (held (SparseCore.T d) (ucRefs τ sig \ {gi', gj', ii', jj', s2'}) (Function.update W s2' (S2v m GI GJ d)) : sProp 𝕄)
      = held (SparseCore.T d) (ucRefs τ sig \ {gi', gj', ii', jj', s2'}) W := by
    unfold held
    refine bigSep_congr fun b hb => ?_
    rw [Function.update_of_ne (fun e => (Finset.mem_sdiff.mp hb).2 (by rw [e]; simp))]
  rw [held_sub_split (SparseCore.T d) sub_T2 W, held_sub_split (SparseCore.T d) sub_T2 (Function.update W s2' (S2v m GI GJ d)), hrest, held_T2, held_T2,
    Function.update_of_ne (show gi' ≠ s2' by decide), Function.update_of_ne (show gj' ≠ s2' by decide), Function.update_of_ne (show ii' ≠ s2' by decide),
    Function.update_of_ne (show jj' ≠ s2' by decide), Function.update_self, hgi, hgj, hii, hjj]
  iintro ⟨#Hctx, Hst, ⟨⟨H1, H2, H3, H4, H5⟩, Hrest⟩, Hk⟩
  iapply (run_call1 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

omit [FloatOps F] in
theorem held_T3 (d : Dev nD) (W : Valuation τ sig (Elt F)) :
    (held (SparseCore.T d) ({gi', gj', ii', jj', s3'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s3Loc d ↦{fullShare} W s3')) := by
  unfold held
  rw [SparseCore.bigSep_insert' (by decide), SparseCore.bigSep_insert' (by decide), SparseCore.bigSep_insert' (by decide), SparseCore.bigSep_insert' (by decide), bigSep_singleton]

omit [FloatOps F] in
theorem sub_T3 : ({gi', gj', ii', jj', s3'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 2 from the arrays held at `W`: afterwards they are held at `W` with the call's output array at its value. -/
theorem call_step2 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 2 ∗ held (SparseCore.T d) (ucRefs τ sig) W
        ∗ (((K (F := F)).tcSt EH d 3 ∗ held (SparseCore.T d) (ucRefs τ sig) (Function.update W s3' (S3v m GI GJ d))) -∗ Φ ⟨⟩))
      ⊢ wp frame (wpE ((K (F := F)).defs (D (F := F))) 𝒱 (SparseCore.T d) none) Set.univ ((K (F := F)).run d 2) Φ := by
  have hrest : (held (SparseCore.T d) (ucRefs τ sig \ {gi', gj', ii', jj', s3'}) (Function.update W s3' (S3v m GI GJ d)) : sProp 𝕄)
      = held (SparseCore.T d) (ucRefs τ sig \ {gi', gj', ii', jj', s3'}) W := by
    unfold held
    refine bigSep_congr fun b hb => ?_
    rw [Function.update_of_ne (fun e => (Finset.mem_sdiff.mp hb).2 (by rw [e]; simp))]
  rw [held_sub_split (SparseCore.T d) sub_T3 W, held_sub_split (SparseCore.T d) sub_T3 (Function.update W s3' (S3v m GI GJ d)), hrest, held_T3, held_T3,
    Function.update_of_ne (show gi' ≠ s3' by decide), Function.update_of_ne (show gj' ≠ s3' by decide), Function.update_of_ne (show ii' ≠ s3' by decide),
    Function.update_of_ne (show jj' ≠ s3' by decide), Function.update_self, hgi, hgj, hii, hjj]
  iintro ⟨#Hctx, Hst, ⟨⟨H1, H2, H3, H4, H5⟩, Hrest⟩, Hk⟩
  iapply (run_call2 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

end Cert.Proof.KI

end
-- ==== Proof.Main.lean ====
/-
  @main on the TensorCore of device `d`, as one run: four host operations, the first kernel region, two host
  operations, the three gather-and-add calls, then the three output regions with the two copies between them. The arrays
  are held at one valuation throughout; each step moves it on. The kernel regions enter as hypotheses: each is run from
  its pipeline's staging cells' ghost state and the arrays held, and leaves the arrays at the region's effect.
-/
import proofs.«206539_g3985729650836_cont_8to1_b_247_13_alg».proof.Proof.MainSteps

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (R0 R1 R2 R3 : Dev nD → Valuation τ sig (Elt F) → Valuation τ sig (Elt F))

/-- Kernel region `p`, entered after `n` SparseCore calls, as a step in continuation form. -/
def RegionStep (GI : (d : Dev nD) → Buf (Elt F) (giLoc d)) (GJ : (d : Dev nD) → Buf (Elt F) (gjLoc d)) (p : Fin 4) (n : ℕ)
    (R : Dev nD → Valuation τ sig (Elt F) → Valuation τ sig (Elt F)) : Prop :=
  ∀ (κ : GSem nD τ sig → ℕ) (d : Dev nD) (W : Valuation τ sig (Elt F)) (Φ : PUnit → sProp 𝕄),
    iprop((K (F := F)).ctx EH (P m GI GJ) κ ∗ (K (F := F)).tcSt EH d n
        ∗ Pipeline.cellsGhost cfgs (EP (F := F)) p d ∗ Pipeline.toksInit cfgs (EP (F := F)) p d
        ∗ boundary (SparseCore.T d) ∗ held (SparseCore.T d) (ucRefs τ sig) W
        ∗ (((K (F := F)).tcSt EH d n ∗ boundary (SparseCore.T d) ∗ held (SparseCore.T d) (ucRefs τ sig) (R d W)) -∗ Φ ⟨⟩))
      ⊢ wp frame (wpE ((K (F := F)).defs (D (F := F))) 𝒱 (SparseCore.T d) none) Set.univ
          (Prog.lift (.customCall (SparseCore.inner (Pipeline.entry p)) ())) Φ

/-- What @main leaves: the arrays held at the last valuation. -/
def FIN (d : Dev nD) : sProp 𝕄 := held (SparseCore.T d) (ucRefs τ sig) (W15 m R0 R1 R2 R3 d)

omit [FloatOps F] in
theorem GP_eq (d : Dev nD) : (GP (F := F) d : sProp 𝕄)
    = iprop((Pipeline.cellsGhost cfgs (EP (F := F)) 0 d ∗ Pipeline.toksInit cfgs (EP (F := F)) 0 d)
        ∗ (Pipeline.cellsGhost cfgs (EP (F := F)) 1 d ∗ Pipeline.toksInit cfgs (EP (F := F)) 1 d)
        ∗ (Pipeline.cellsGhost cfgs (EP (F := F)) 2 d ∗ Pipeline.toksInit cfgs (EP (F := F)) 2 d)
        ∗ (Pipeline.cellsGhost cfgs (EP (F := F)) 3 d ∗ Pipeline.toksInit cfgs (EP (F := F)) 3 d)) := by
  unfold GP
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem op_sub (op : HloOp τ sig (Elt F)) (h : op.bufs ⊆ StableHlo.tcRefs τ sig) : op.bufs ⊆ ucRefs τ sig := Pipeline.sub_ucRefs op h

theorem one_sub (y : Ref sig .tc) : ({(Proc.devRef .tc y : DevRef τ sig)} : Finset (DevRef τ sig)) ⊆ StableHlo.tcRefs τ sig := by
  intro b hb
  cases Finset.mem_singleton.mp hb
  exact StableHlo.devRef_mem_tcRefs _
theorem two_sub (x y : Ref sig .tc) : ({(Proc.devRef .tc x : DevRef τ sig), Proc.devRef .tc y} : Finset (DevRef τ sig)) ⊆ StableHlo.tcRefs τ sig := by
  intro b hb
  rcases Finset.mem_insert.mp hb with rfl | hb
  · exact StableHlo.devRef_mem_tcRefs _
  · exact one_sub y hb
theorem three_sub (x y z : Ref sig .tc) :
    ({(Proc.devRef .tc x : DevRef τ sig), Proc.devRef .tc y, Proc.devRef .tc z} : Finset (DevRef τ sig)) ⊆ StableHlo.tcRefs τ sig := by
  intro b hb
  rcases Finset.mem_insert.mp hb with rfl | hb
  · exact StableHlo.devRef_mem_tcRefs _
  · exact two_sub y z hb

variable {R0 R1 R2 R3}

theorem hmain (hf0 : RegionFrame R0 {h', gi', gj'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3)
    (κ : GSem nD τ sig → ℕ) (d : Dev nD) :
    iprop((K (F := F)).ctx EH (P m (GIv m R0) (GJv m R0)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 3 ∗ FIN m R0 R1 R2 R3 d) := by
  unfold SparseCore.Cfg.tcRes
  rw [show (unscopedBufs d (fun b => m ((SparseCore.T d).loc b)) : sProp 𝕄) = held (SparseCore.T d) (ucRefs τ sig) (W0 m d) from unscopedBufs_held d (W0 m d)]
  simp only [main, fn_pad.body, wp_bind, wp_pure]
  iintro ⟨#Hctx, Hst, ⟨Hb, Hh, -, -⟩, HG⟩
  ihave HG' := (Entails.of_eq (GP_eq (F := F) d)) $$ HG
  icases HG' with ⟨⟨Hg0, Ht0⟩, ⟨Hg1, Ht1⟩, ⟨Hg2, Ht2⟩, ⟨Hg3, Ht3⟩⟩
  -- the reshape of `z`, the pad's zero, its conversion, the padded table
  iapply (host_step d (opReshZ (F := F)) rfl (op_sub _ (two_sub main_arg0 main_v0)) rfl (W0 m d))
  isplitl [Hb]; · iexact Hb
  isplitl [Hh]; · iexact Hh
  iintro ⟨Hb, Hh⟩
  iapply (host_step d (opC (F := F)) rfl (op_sub _ (one_sub main_c)) rfl _)
  isplitl [Hb]; · iexact Hb
  isplitl [Hh]; · iexact Hh
  iintro ⟨Hb, Hh⟩
  iapply (host_step d (opCvt (F := F)) rfl (op_sub _ (two_sub main_c main_call0_v0)) rfl _)
  isplitl [Hb]; · iexact Hb
  isplitl [Hh]; · iexact Hh
  iintro ⟨Hb, Hh⟩
  iapply (host_step d (opPad (F := F)) rfl (op_sub _ (three_sub main_arg4 main_call0_v0 main_v1)) rfl _)
  isplitl [Hb]; · iexact Hb
  isplitl [Hh]; · iexact Hh
  iintro ⟨Hb, Hh⟩
  imodintro
  -- the first region: the node embedding and the two node tables
  iapply (hr0 κ d (W4 m d) _)
  isplitr; · iexact Hctx
  isplitl [Hst]; · iexact Hst
  isplitl [Hg0]; · iexact Hg0
  isplitl [Ht0]; · iexact Ht0
  isplitl [Hb]; · iexact Hb
  isplitl [Hh]; · iexact Hh
  iintro ⟨Hst, Hb, Hh⟩
  -- the slice of the weights, the bias as a row
  iapply (host_step d (opSlice (F := F)) rfl (op_sub _ (two_sub main_arg5 main_v3)) rfl (W5 m R0 d))
  isplitl [Hb]; · iexact Hb
  isplitl [Hh]; · iexact Hh
  iintro ⟨Hb, Hh⟩
  iapply (host_step d (opReshB (F := F)) rfl (op_sub _ (two_sub main_arg6 main_v4)) rfl _)
  isplitl [Hb]; · iexact Hb
  isplitl [Hh]; · iexact Hh
  iintro ⟨Hb, Hh⟩
  -- the three gather-and-add calls
  iapply (call_step0 m (GIv m R0) (GJv m R0) κ d (W7 m R0 d) rfl rfl (W7_arg m hf0 d (by decide)) (W7_arg m hf0 d (by decide)))
  isplitr; · iexact Hctx
  isplitl [Hst]; · iexact Hst
  isplitl [Hh]; · iexact Hh
  iintro ⟨Hst, Hh⟩
  iapply (call_step1 m (GIv m R0) (GJv m R0) κ d (W8 m R0 d)
    (Function.update_of_ne (show gi' ≠ s1' by decide) _ _) (Function.update_of_ne (show gj' ≠ s1' by decide) _ _)
    ((Function.update_of_ne (show ii' ≠ s1' by decide) _ _).trans (W7_arg m hf0 d (by decide)))
    ((Function.update_of_ne (show jj' ≠ s1' by decide) _ _).trans (W7_arg m hf0 d (by decide))))
  isplitr; · iexact Hctx
  isplitl [Hst]; · iexact Hst
  isplitl [Hh]; · iexact Hh
  iintro ⟨Hst, Hh⟩
  iapply (call_step2 m (GIv m R0) (GJv m R0) κ d (W9 m R0 d)
    ((Function.update_of_ne (show gi' ≠ s2' by decide) _ _).trans (Function.update_of_ne (show gi' ≠ s1' by decide) _ _))
    ((Function.update_of_ne (show gj' ≠ s2' by decide) _ _).trans (Function.update_of_ne (show gj' ≠ s1' by decide) _ _))
    ((Function.update_of_ne (show ii' ≠ s2' by decide) _ _).trans ((Function.update_of_ne (show ii' ≠ s1' by decide) _ _).trans (W7_arg m hf0 d (by decide))))
    ((Function.update_of_ne (show jj' ≠ s2' by decide) _ _).trans ((Function.update_of_ne (show jj' ≠ s1' by decide) _ _).trans (W7_arg m hf0 d (by decide)))))
  isplitr; · iexact Hctx
  isplitl [Hst]; · iexact Hst
  isplitl [Hh]; · iexact Hh
  iintro ⟨Hst, Hh⟩
  -- the three output regions, the result's buffer copied forward between them
  iapply (hr1 κ d (W10 m R0 d) _)
  isplitr; · iexact Hctx
  isplitl [Hst]; · iexact Hst
  isplitl [Hg1]; · iexact Hg1
  isplitl [Ht1]; · iexact Ht1
  isplitl [Hb]; · iexact Hb
  isplitl [Hh]; · iexact Hh
  iintro ⟨Hst, Hb, Hh⟩
  iapply (host_step d (opCp1 (F := F)) rfl (op_sub _ (two_sub main_v8 main_v9)) rfl (W11 m R0 R1 d))
  isplitl [Hb]; · iexact Hb
  isplitl [Hh]; · iexact Hh
  iintro ⟨Hb, Hh⟩
  iapply (hr2 κ d (W12 m R0 R1 d) _)
  isplitr; · iexact Hctx
  isplitl [Hst]; · iexact Hst
  isplitl [Hg2]; · iexact Hg2
  isplitl [Ht2]; · iexact Ht2
  isplitl [Hb]; · iexact Hb
  isplitl [Hh]; · iexact Hh
  iintro ⟨Hst, Hb, Hh⟩
  iapply (host_step d (opCp2 (F := F)) rfl (op_sub _ (two_sub main_v9 main_v10)) rfl (W13 m R0 R1 R2 d))
  isplitl [Hb]; · iexact Hb
  isplitl [Hh]; · iexact Hh
  iintro ⟨Hb, Hh⟩
  iapply (hr3 κ d (W14 m R0 R1 R2 d) _)
  isplitr; · iexact Hctx
  isplitl [Hst]; · iexact Hst
  isplitl [Hg3]; · iexact Hg3
  isplitl [Ht3]; · iexact Ht3
  isplitl [Hb]; · iexact Hb
  isplitl [Hh]; · iexact Hh
  iintro ⟨Hst, -, Hh⟩
  imodintro
  isplitl [Hst]; · iexact Hst
  unfold FIN W15
  iexact Hh

end Cert.Proof.KI

end
-- ==== Proof.Run.lean ====
/-
  The kernel program's run, from the launch theorem of a SparseCore program: the three calls' worker obligations and
  their operands' splits, @main on the TensorCore, the launch element, and the final memory read off the arrays the
  TensorCore ends holding. The workers' obligations and the kernel regions' steps enter as hypotheses.
-/
import proofs.«206539_g3985729650836_cont_8to1_b_247_13_alg».proof.Proof.Main

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (R0 R1 R2 R3 : Dev nD → Valuation τ sig (Elt F) → Valuation τ sig (Elt F))

/-! ## The arrays held beside a final state pin its memory -/

omit [FloatOps F] in
theorem held_agree (c : Thread nD τ) (S : Finset (DevRef τ sig)) (W : Valuation τ sig (Elt F)) (s' : Phys nD τ sig (Elt F)) :
    iprop(held c S W ∗ SI s') ⊢ (⌜∀ b ∈ S, s'.mem.mem (c.1, b) = W b⌝ : sProp 𝕄) := by
  classical
  induction S using Finset.induction_on with
  | empty =>
    iintro -
    ipureintro
    exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (c.1, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

/-- What a device's final state must satisfy: every array of the TensorCore at the last valuation. -/
def fq (d : Dev nD) (s' : Phys nD τ sig (Elt F)) : Prop :=
  ∀ b ∈ ucRefs τ sig, s'.mem.mem (d, b) = W15 m R0 R1 R2 R3 d b

theorem hfin (d : Dev nD) (s' : Phys nD τ sig (Elt F)) : iprop(FIN m R0 R1 R2 R3 d ∗ SI s') ⊢ (⌜fq m R0 R1 R2 R3 d s'⌝ : sProp 𝕄) :=
  held_agree (SparseCore.T d) (ucRefs τ sig) (W15 m R0 R1 R2 R3 d) s'

/-- The run's post: on every device every array of the TensorCore holds the last valuation's contents. -/
def QC : PUnit × MemSt nD τ sig (Elt F) → Prop := fun r => ∀ c : Dev nD, ∀ b ∈ ucRefs τ sig, r.2.mem (c, b) = W15 m R0 R1 R2 R3 c b

variable {R0 R1 R2 R3}

theorem run [∀ e, Nonempty (Elt F e)]
    (htile0 : (K (F := F)).TileObl (D (F := F)) 𝒱 (P m (GIv m R0) (GJv m R0)) v₀ 0)
    (htile1 : (K (F := F)).TileObl (D (F := F)) 𝒱 (P m (GIv m R0) (GJv m R0)) v₀ 1)
    (htile2 : (K (F := F)).TileObl (D (F := F)) 𝒱 (P m (GIv m R0) (GJv m R0)) v₀ 2)
    (hf0 : RegionFrame R0 {h', gi', gj'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3) :
    θ_run (Cert.KernelIdeal.defs (F := F)) (Cert.KernelIdeal.threads (F := F)) ⟨m, fun _ => 0, ρ⟩ (QC m R0 R1 R2 R3) :=
  SparseCore.Cfg.θ_run_sc (K := K (F := F)) (D := D (F := F)) (𝒱 := 𝒱) (EH := EH) (P := P m (GIv m R0) (GJv m R0)) facts v₀
    (fun q hq => match q with | 0 => nomatch hq | 1 => nomatch hq | 2 => nomatch hq)
    (fun q _ => match q with | 0 => htile0 | 1 => htile1 | 2 => htile2)
    (fun q _ => match q with
      | 0 => SparseCore.Cfg.VecSplit.of_plain (vecSplit0 m (GIv m R0) (GJv m R0))
      | 1 => SparseCore.Cfg.VecSplit.of_plain (vecSplit1 m (GIv m R0) (GJv m R0))
      | 2 => SparseCore.Cfg.VecSplit.of_plain (vecSplit2 m (GIv m R0) (GJv m R0)))
    m ρ main (fun d => GP (F := F) d) (FIN m R0 R1 R2 R3) (u₀ (F := F)) (sep_elim_left.trans (hu₀ m (GIv m R0) (GJv m R0)))
    (hmain m ρ hf0 hr0 hr1 hr2 hr3) (fq m R0 R1 R2 R3) (hfin m R0 R1 R2 R3) (QC m R0 R1 R2 R3) (fun _ h => h)

end Cert.Proof.KI

end
-- ==== Proof.Frames.lean ====
/-
  The kernel program's frame, read off its run: every weakly fair execution of all the device's threads terminates,
  nothing faulting, and each argument array ends holding what the launch memory did, because no step of @main writes one.
-/
import proofs.«206539_g3985729650836_cont_8to1_b_247_13_alg».proof.Proof.Run

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable {R0 R1 R2 R3 : Dev nD → Valuation τ sig (Elt F) → Valuation τ sig (Elt F)}

omit [FloatOps F] in
theorem mem_uc (b : Ref sig .tc) (h : (Proc.devRef .tc b : DevRef τ sig).isScoped = false := by decide) : (Proc.devRef .tc b : DevRef τ sig) ∈ ucRefs τ sig :=
  Finset.mem_filter.mpr ⟨StableHlo.devRef_mem_tcRefs b, by rw [h]; exact Bool.false_ne_true⟩

theorem run_frame [∀ e, Nonempty (Elt F e)]
    (htile0 : (K (F := F)).TileObl (D (F := F)) 𝒱 (P m (GIv m R0) (GJv m R0)) v₀ 0)
    (htile1 : (K (F := F)).TileObl (D (F := F)) 𝒱 (P m (GIv m R0) (GJv m R0)) v₀ 1)
    (htile2 : (K (F := F)).TileObl (D (F := F)) 𝒱 (P m (GIv m R0) (GJv m R0)) v₀ 2)
    (hf0 : RegionFrame R0 {h', gi', gj'}) (hf1 : RegionFrame R1 {m1'}) (hf2 : RegionFrame R2 {m2'}) (hf3 : RegionFrame R3 {out'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.KernelIdeal.defs (F := F)) _ _).mono (fun r h c =>
    ⟨(h c z' (mem_uc main_arg0)).trans (W15_arg m hf0 hf1 hf2 hf3 c (by decide)),
     (h c rbf' (mem_uc main_arg1)).trans (W15_arg m hf0 hf1 hf2 hf3 c (by decide)),
     (h c ii' (mem_uc main_arg2)).trans (W15_arg m hf0 hf1 hf2 hf3 c (by decide)),
     (h c jj' (mem_uc main_arg3)).trans (W15_arg m hf0 hf1 hf2 hf3 c (by decide)),
     (h c emb' (mem_uc main_arg4)).trans (W15_arg m hf0 hf1 hf2 hf3 c (by decide)),
     (h c w' (mem_uc main_arg5)).trans (W15_arg m hf0 hf1 hf2 hf3 c (by decide)),
     (h c b' (mem_uc main_arg6)).trans (W15_arg m hf0 hf1 hf2 hf3 c (by decide))⟩)
    (run m ρ htile0 htile1 htile2 hf0 hr0 hr1 hr2 hr3)

end Cert.Proof.KI

end
-- ==== Proof.TcData.lean ====
/-
  The four dense stages of the program, as data for the rule of a blocked, double-buffered loop over an array's row
  blocks: for each stage, what every array it touches holds on entry, what each block buffer holds after the stage's
  body has run at a grid point (an input block is left as read; an output block is the body's value on the input
  blocks of that point), what the loop keeps besides (the buffers no block of the stage passes through), and what the
  processor owes other processors meanwhile (a constant: the stages signal nobody). From these the rule computes what
  each output array holds when the stage ends; those contents are named here.

  Stage 0 (grid of 10 points, 1000 rows each): from the atoms' numbers z, the padded embedding table and the weight
  matrix W, the embeddings h [n, ·] = onehot (z n - 1) · table, and their two images g_i = h · W[:, 0:128]ᵀ,
  g_j = h · W[:, 128:256]ᵀ. Stages 1, 2, 3 (grids of 68, 68, 64 points, 1600 rows each; output blocks number t, t + 68,
  t + 136 of one array of 320000 rows): x = (s + rbf · W[:, 256:272]ᵀ) + b, out = x / (1 + exp (-x)), on the rows of
  the stage's own band; the other rows of the output array keep what they held on entry.
-/
import proofs.«206539_g3985729650836_cont_8to1_b_247_13_alg».proof.Proof.Setup
import Idealize.ShloMosaic.Lib.Pipeline.FrameBody
import Idealize.ShloMosaic.Lib.Pipeline.Value

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- No stage reads a table ahead of its loop: the one admissible choice of such tables' contents. -/
abbrev adm : (p : Fin 4) → (pcfgs (F := F) p).Adm := fun p => (cfgs p).toPCfg_adm

/-! ## The rectangles the bodies read and write: whole blocks, and the two column bands of the weight block -/

abbrev rZ : Rect S1000x1 := Rect.unit (s := S1000x1) ![0, 0] S1000x1.size inb_S1000x1_S1000x1_0_0
abbrev rE : Rect S128x128 := Rect.unit (s := S128x128) ![0, 0] S128x128.size inb_S128x128_S128x128_0_0
/-- Columns 0 … 127 of the 128 × 272 weight block. -/
abbrev rWi : Rect S128x272 := Rect.unit (s := S128x272) ![0, 0] S128x128.size inb_S128x272_S128x128_0_0
/-- Columns 128 … 255 of it. -/
abbrev rWj : Rect S128x272 := Rect.unit (s := S128x272) ![0, 128] S128x128.size inb_S128x272_S128x128_0_128
abbrev rN : Rect S1000x128 := Rect.unit (s := S1000x128) ![0, 0] S1000x128.size inb_S1000x128_S1000x128_0_0
abbrev rS : Rect S1600x128 := Rect.unit (s := S1600x128) ![0, 0] S1600x128.size inb_S1600x128_S1600x128_0_0
abbrev rR : Rect S1600x16 := Rect.unit (s := S1600x16) ![0, 0] S1600x16.size inb_S1600x16_S1600x16_0_0
abbrev rW3 : Rect S128x16 := Rect.unit (s := S128x16) ![0, 0] S128x16.size inb_S128x16_S128x16_0_0
abbrev rB : Rect S1x128 := Rect.unit (s := S1x128) ![0, 0] S1x128.size inb_S1x128_S1x128_0_0

/-! ## What a body leaves in each output block, from the input blocks of the point -/

/-- Stage 0, first output: the embeddings of the block's 1000 atoms. -/
def outH (z : Vec F S1000x1 .i32) (e : Vec F S128x128 .f32) : Vec F S1000x128 .f32 :=
  View.canon [⟨rN, k0_pay1 (View.ld z rZ) (View.ld e rE)⟩]
/-- Stage 0, second output: the embeddings times the first column band of W, transposed. -/
def outGi (z : Vec F S1000x1 .i32) (e : Vec F S128x128 .f32) (w : Vec F S128x272 .f32) : Vec F S1000x128 .f32 :=
  View.canon [⟨rN, k0_pay2 (View.ld z rZ) (View.ld e rE) (View.ld w rWi)⟩]
/-- Stage 0, third output: the embeddings times the second column band of W, transposed. -/
def outGj (z : Vec F S1000x1 .i32) (e : Vec F S128x128 .f32) (w : Vec F S128x272 .f32) : Vec F S1000x128 .f32 :=
  View.canon [⟨rN, k0_pay3 (View.ld z rZ) (View.ld e rE) (View.ld w rWj)⟩]
/-- Stages 1, 2, 3: the activation of the block's 1600 edges, from the gathered sums s, the radial features r, the
    last column band w of W and the bias row b. -/
def outM4 (s : Vec F S1600x128 .f32) (r : Vec F S1600x16 .f32) (w : Vec F S128x16 .f32) (b : Vec F S1x128 .f32) : Vec F S1600x128 .f32 :=
  View.canon [⟨rS, k4_pay1 (View.ld r rR) (View.ld w rW3) (View.ld s rS) (View.ld b rB)⟩]
def outM5 (s : Vec F S1600x128 .f32) (r : Vec F S1600x16 .f32) (w : Vec F S128x16 .f32) (b : Vec F S1x128 .f32) : Vec F S1600x128 .f32 :=
  View.canon [⟨rS, k5_pay1 (View.ld r rR) (View.ld w rW3) (View.ld s rS) (View.ld b rB)⟩]
def outM6 (s : Vec F S1600x128 .f32) (r : Vec F S1600x16 .f32) (w : Vec F S128x16 .f32) (b : Vec F S1x128 .f32) : Vec F S1600x128 .f32 :=
  View.canon [⟨rS, k6_pay1 (View.ld r rR) (View.ld w rW3) (View.ld s rS) (View.ld b rB)⟩]

section Data

-- What the processor's arrays hold when a stage is entered, what it owes other processors then (unchanged through
-- the stage), and a bound on the waits it has recorded.
variable (V : (d : Dev nD) → (b : Ref sig .tc) → Buf (Elt F) ((d.tc : Thread nD τ).loc b))
  (O : Dev nD → CellTallies nD τ sig (HIx 3)) (B : Set (SemLoc sig × HIx 3))

/-! ## The blocks of the arrays as a stage finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The stages' data -/

/-- Stage 0: inputs z (blocked by rows), the padded table and W (whole); outputs h, g_i, g_j (blocked by rows). -/
def dat0 (c : Dev nD) : Dat τ (Elt F) (HIx 3) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outH (iblk0 V c 0 t) (iblk0 V c 1 t)
    | ⟨4, _⟩ => outGi (iblk0 V c 0 t) (iblk0 V c 1 t) (iblk0 V c 2 t)
    | ⟨5, _⟩ => outGj (iblk0 V c 0 t) (iblk0 V c 1 t) (iblk0 V c 2 t)
  Φ _ := Pipeline.scopedRest spec0 c
  q _ := fullShare
  owed _ := O c
  recorded _ := B

/-- Stage 1: inputs the first gathered sums and rbf (blocked by rows), the last band of W and the bias row (whole);
    output the messages' array, blocks 0 … 67. -/
def dat4 (c : Dev nD) : Dat τ (Elt F) (HIx 3) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outM4 (iblk4 V c 0 t) (iblk4 V c 1 t) (iblk4 V c 2 t) (iblk4 V c 3 t)
  Φ _ := Pipeline.scopedRest spec4 c
  q _ := fullShare
  owed _ := O c
  recorded _ := B

/-- Stage 2: the same over the second gathered sums; output blocks 68 … 135 of its own copy of the messages' array. -/
def dat5 (c : Dev nD) : Dat τ (Elt F) (HIx 3) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outM5 (iblk5 V c 0 t) (iblk5 V c 1 t) (iblk5 V c 2 t) (iblk5 V c 3 t)
  Φ _ := Pipeline.scopedRest spec5 c
  q _ := fullShare
  owed _ := O c
  recorded _ := B

/-- Stage 3: the same over the third gathered sums; output blocks 136 … 199 of its own copy. -/
def dat6 (c : Dev nD) : Dat τ (Elt F) (HIx 3) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => outM6 (iblk6 V c 0 t) (iblk6 V c 1 t) (iblk6 V c 2 t) (iblk6 V c 3 t)
  Φ _ := Pipeline.scopedRest spec6 c
  q _ := fullShare
  owed _ := O c
  recorded _ := B

/-- The four stages' data, each at the one entry contents, tallies and bound (a stage's rule is applied at that
    stage's own). -/
def pdats : (p : Fin 4) → (c : Dev nD) → Dat τ (Elt F) (HIx 3) ℕ UU ℕ (Pipeline.pin (pcfgs (F := F)) adm p) c
  | ⟨0, _⟩ => fun c => dat0 V O B c
  | ⟨1, _⟩ => fun c => dat4 V O B c
  | ⟨2, _⟩ => fun c => dat5 V O B c
  | ⟨3, _⟩ => fun c => dat6 V O B c

end Data

/-! ## What an array holds after the blocks written back below a point depends on the entry contents and the bodies' values only -/

theorem arrAt_congr_data {cfg : Cfg sig Λ₀} {c : Dev nD} (dat dat' : Dat τ (Elt F) (HIx 3) ℕ UU ℕ cfg c)
    (hA : dat.A = dat'.A) (ha : dat.after = dat'.after) (w : Fin cfg.W) : ∀ n, dat.arrAt w n = dat'.arrAt w n
  | 0 => by show dat.A w = dat'.A w; rw [hA]
  | n + 1 => by
    funext i
    rw [Pipeline.Dat.arrAt_succ_apply, Pipeline.Dat.arrAt_succ_apply, arrAt_congr_data dat dat' hA ha w n]
    unfold Pipeline.Dat.flushed; rw [ha]

/-- The messages' array as stage 1 writes it, and the copy stage 2 writes. -/
abbrev m1Loc (d : Dev nD) : Loc nD τ sig := (SparseCore.T d).loc main_v8
abbrev m2Loc (d : Dev nD) : Loc nD τ sig := (SparseCore.T d).loc main_v9

section Values

variable (V : (d : Dev nD) → (b : Ref sig .tc) → Buf (Elt F) ((d.tc : Thread nD τ).loc b))

/-! ## The stages' values: what each output array holds when its stage ends, entered at contents V -/

/-- The embeddings h. -/
def H0 (d : Dev nD) : Buf (Elt F) (hLoc d) := (dat0 V (fun _ => 0) Set.univ d).arrAt 3 cfg0.N
/-- Their first image g_i. -/
def GI0 (d : Dev nD) : Buf (Elt F) (giLoc d) := (dat0 V (fun _ => 0) Set.univ d).arrAt 4 cfg0.N
/-- Their second image g_j. -/
def GJ0 (d : Dev nD) : Buf (Elt F) (gjLoc d) := (dat0 V (fun _ => 0) Set.univ d).arrAt 5 cfg0.N
/-- The messages' array after stage 1, after stage 2 (its own copy), after stage 3 (its own copy). -/
def M1 (d : Dev nD) : Buf (Elt F) (m1Loc d) := (dat4 V (fun _ => 0) Set.univ d).arrAt 4 cfg4.N
def M2 (d : Dev nD) : Buf (Elt F) (m2Loc d) := (dat5 V (fun _ => 0) Set.univ d).arrAt 4 cfg5.N
def M3 (d : Dev nD) : Buf (Elt F) (outLoc d) := (dat6 V (fun _ => 0) Set.univ d).arrAt 4 cfg6.N

variable (O : Dev nD → CellTallies nD τ sig (HIx 3)) (B : Set (SemLoc sig × HIx 3))

theorem arrAt0_eq (d : Dev nD) (w : Fin cfg0.W) (n : ℕ) : (dat0 V O B d).arrAt w n = (dat0 V (fun _ => 0) Set.univ d).arrAt w n :=
  arrAt_congr_data (dat0 V O B d) (dat0 V (fun _ => 0) Set.univ d) rfl rfl w n
theorem arrAt4_eq (d : Dev nD) (w : Fin cfg4.W) (n : ℕ) : (dat4 V O B d).arrAt w n = (dat4 V (fun _ => 0) Set.univ d).arrAt w n :=
  arrAt_congr_data (dat4 V O B d) (dat4 V (fun _ => 0) Set.univ d) rfl rfl w n
theorem arrAt5_eq (d : Dev nD) (w : Fin cfg5.W) (n : ℕ) : (dat5 V O B d).arrAt w n = (dat5 V (fun _ => 0) Set.univ d).arrAt w n :=
  arrAt_congr_data (dat5 V O B d) (dat5 V (fun _ => 0) Set.univ d) rfl rfl w n
theorem arrAt6_eq (d : Dev nD) (w : Fin cfg6.W) (n : ℕ) : (dat6 V O B d).arrAt w n = (dat6 V (fun _ => 0) Set.univ d).arrAt w n :=
  arrAt_congr_data (dat6 V O B d) (dat6 V (fun _ => 0) Set.univ d) rfl rfl w n

end Values

end Cert.Proof.KI

end
-- ==== Proof.Body0.lean ====
/-
  The body of the first dense stage at a symbolic grid point. On six whole block buffers — the atoms' numbers z of
  the point's 1000 rows, the padded table, the weight matrix, and the three output blocks at anything — it reads the
  three inputs (the weight block through its two column bands), and stores into each output block, whole, the value
  named in the stage's data: the rows' embeddings, and their two images. The inputs are left as read. The loop hands
  the body each input's buffer holding that input's block at the point, fetched there or kept from the point before.
-/
import proofs.«206539_g3985729650836_cont_8to1_b_247_13_alg».proof.Proof.TcData

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- One store of the whole block covers the block. -/
theorem coverN (p : Vec F S1000x128 .f32) (y : S1000x128.Idx) :
    ∃ pc ∈ ([⟨rN, p⟩] : List (View.Piece (Elt F) S1000x128 .f32)), y ∈ pc.1.set :=
  View.cover_of_tiled [⟨rN, p⟩] S1000x128.size (by rfl) y

set_option maxHeartbeats 1000000 in
/-- The body on whole buffers: the inputs at contents x0, x1, x2 and the outputs at anything, to the inputs as they
    were and the outputs at their values of x0, x1, x2. -/
theorem sound_kernel0 (c : Dev nD) (E : Set ℕ) (i : grid0.Coords)
    (a1 : Memref sig .tc .vmem S1000x1 .i32) (h1 : a1.IsWhole) (a2 : Memref sig .tc .vmem S128x128 .f32) (h2 : a2.IsWhole)
    (a3 : Memref sig .tc .vmem S128x272 .f32) (h3 : a3.IsWhole) (a4 : Memref sig .tc .vmem S1000x128 .f32) (h4 : a4.IsWhole)
    (a5 : Memref sig .tc .vmem S1000x128 .f32) (h5 : a5.IsWhole) (a6 : Memref sig .tc .vmem S1000x128 .f32) (h6 : a6.IsWhole)
    (x0 : Vec F S1000x1 .i32) (x1 : Vec F S128x128 .f32) (x2 : Vec F S128x272 .f32) (Kk : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (outH x0 x1) ∗ owns (c : Thread nD τ) a5 fullShare (outGi x0 x1 x2) ∗ owns (c : Thread nD τ) a6 fullShare (outGj x0 x1 x2)) -∗ Kk ⟨⟩))
      ⊢ wp frame (wpE (defs₀ (F := F)) Variants.none (c : Thread nD τ) none) E (cc0__node_body i a1 h1 a2 h2 a3 h3 a4 h4 a5 h5 a6 h6) Kk := by
  simp only [cc0__node_body_eq_skeleton]; unfold cc0__node_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverN _)
  isplitl [H4]
  · iexists _; isplitr
    swap; · iexact H4
    ipureintro
    exact View.read_writes_eq_canon _ _ _ (coverN _)
  iexists _; isplitr
  swap; · iexact H5
  ipureintro
  exact View.read_writes_eq_canon _ _ _ (coverN _)

section Point

variable (V : (d : Dev nD) → (b : Ref sig .tc) → Buf (Elt F) ((d.tc : Thread nD τ).loc b))
  (O : Dev nD → CellTallies nD τ sig (HIx 3)) (B : Set (SemLoc sig × HIx 3))

theorem A_eq0 (c : Dev nD) (w : Fin cfg0.W) : (dat0 V O B c).A w = V c (Pipeline.arrRef spec0 w) := by dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = outH (iblk0 V c 0 t) (iblk0 V c 1 t) := by dsimp only [dat0]
theorem after0_4 (c : Dev nD) (t : Fin cfg0.N) : (dat0 V O B c).after 4 t = outGi (iblk0 V c 0 t) (iblk0 V c 1 t) (iblk0 V c 2 t) := by dsimp only [dat0]
theorem after0_5 (c : Dev nD) (t : Fin cfg0.N) : (dat0 V O B c).after 5 t = outGj (iblk0 V c 0 t) (iblk0 V c 1 t) (iblk0 V c 2 t) := by dsimp only [dat0]

/-- An input's current buffer holds the input's block at every point: fetched there, or, the block index not having
    moved, kept from the point before. -/
theorem before0_0 (c : Dev nD) (t : Fin cfg0.N) (d) : (dat0 V O B c).before 0 t d = iblk0 V c 0 t :=
  ((dat0 V O B c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V O B c).before 1 t d = iblk0 V c 1 t :=
  ((dat0 V O B c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V O B c).before 2 t d = iblk0 V c 2 t :=
  ((dat0 V O B c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the loop hands the body at point t, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d)))

/-- and what it takes back. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t))

set_option maxHeartbeats 1000000 in
/-- The body at any point: the inputs' buffers hold their blocks, so the triple above applies; what the loop keeps and
    what the processor owes pass through unread. -/
theorem sound_body0 (c : Dev nD) (t : Fin cfg0.N) :
    bodyPre0 V O B c t ⊢ wp frame (wpE (defs₀ (F := F)) Variants.none (c : Thread nD τ) none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the loop's rule, at every point. -/
theorem body_obligation0 (c : Dev nD) : BodyObligation (dat0 (F := F) V O B c) (defs₀ (F := F)) Variants.none (none : HIx 3) Set.univ := fun t => by
  rw [bigSep_W0, bigSep_W0]
  exact sound_body0 V O B c t

end Point

end Cert.Proof.KI

end
-- ==== Proof.BodyE.lean ====
/-
  The body of the three last dense stages at a symbolic grid point (one text, three times: the stages differ in the
  arrays their blocks are cut from and in a whole array the second and third are passed and never touch). On five whole
  block buffers — the gathered sums s and the radial features of the point's 1600 edges, the last column band of the
  weight matrix, the bias row, and the output block at anything — it reads the four inputs and stores into the output
  block, whole, x / (1 + exp (-x)) at x = (s + rbf · wᵀ) + b, the value named in the stage's data. The inputs are
  left as read, and the loop hands the body each input's buffer holding that input's block at the point.
-/
import proofs.«206539_g3985729650836_cont_8to1_b_247_13_alg».proof.Proof.TcData

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- One store of the whole block covers the block. -/
theorem coverS (p : Vec F S1600x128 .f32) (y : S1600x128.Idx) :
    ∃ pc ∈ ([⟨rS, p⟩] : List (View.Piece (Elt F) S1600x128 .f32)), y ∈ pc.1.set :=
  View.cover_of_tiled [⟨rS, p⟩] S1600x128.size (by rfl) y

/-! ## The stage whose body is `cc4__edge_out_body` -/

set_option maxHeartbeats 1000000 in
/-- The body on whole buffers: the four inputs at contents x0 … x3 and the output at anything, to the inputs as they
    were and the output at its value of them. -/
theorem sound_kernel4 (c : Dev nD) (E : Set ℕ) (i : grid4.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM4 x0 x1 x2 x3)) -∗ Kk ⟨⟩))
      ⊢ wp frame (wpE (defs₀ (F := F)) Variants.none (c : Thread nD τ) none) E (cc4__edge_out_body i a1 h1 a2 h2 a3 h3 a4 h4 a5 h5) Kk := by
  simp only [cc4__edge_out_body_eq_skeleton]; unfold cc4__edge_out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point4

variable (V : (d : Dev nD) → (b : Ref sig .tc) → Buf (Elt F) ((d.tc : Thread nD τ).loc b))
  (O : Dev nD → CellTallies nD τ sig (HIx 3)) (B : Set (SemLoc sig × HIx 3))

theorem A_eq4 (c : Dev nD) (w : Fin cfg4.W) : (dat4 V O B c).A w = V c (Pipeline.arrRef spec4 w) := by dsimp only [dat4]
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = iblk4 V c 2 t := by dsimp only [dat4]
theorem after4_3 (c : Dev nD) (t : Fin cfg4.N) : (dat4 V O B c).after 3 t = iblk4 V c 3 t := by dsimp only [dat4]
theorem after4_4 (c : Dev nD) (t : Fin cfg4.N) :
    (dat4 V O B c).after 4 t = outM4 (iblk4 V c 0 t) (iblk4 V c 1 t) (iblk4 V c 2 t) (iblk4 V c 3 t) := by dsimp only [dat4]

/-- An input's current buffer holds the input's block at every point: fetched there, or, the block index not having
    moved, kept from the point before. -/
theorem before4_0 (c : Dev nD) (t : Fin cfg4.N) (d) : (dat4 V O B c).before 0 t d = iblk4 V c 0 t :=
  ((dat4 V O B c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V O B c).before 1 t d = iblk4 V c 1 t :=
  ((dat4 V O B c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V O B c).before 2 t d = iblk4 V c 2 t :=
  ((dat4 V O B c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V O B c).before 3 t d = iblk4 V c 3 t :=
  ((dat4 V O B c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- What the loop hands the body at point t, the windows one by one, -/
def bodyPre4 (c : Dev nD) (t : Fin cfg4.N) : sProp 𝕄 :=
  iprop((dat4 V O B c).Φ t.castSucc ∗ (dat4 V O B c).owesAt none t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d))
    ∗ (∃ d, owns (c : Thread nD τ) (st4_3 t) fullShare ((dat4 V O B c).before 3 t d))
    ∗ (∃ d, owns (c : Thread nD τ) (st4_4 t) fullShare ((dat4 V O B c).before 4 t d)))

/-- and what it takes back. -/
def bodyPost4 (c : Dev nD) (t : Fin cfg4.N) : sProp 𝕄 :=
  iprop((dat4 V O B c).Φ t.succ ∗ (dat4 V O B c).owesAt none t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t)
    ∗ owns (c : Thread nD τ) (st4_3 t) fullShare ((dat4 V O B c).after 3 t)
    ∗ owns (c : Thread nD τ) (st4_4 t) fullShare ((dat4 V O B c).after 4 t))

set_option maxHeartbeats 1000000 in
/-- The body at any point: the inputs' buffers hold their blocks, so the triple above applies; what the loop keeps and
    what the processor owes pass through unread. -/
theorem sound_body4 (c : Dev nD) (t : Fin cfg4.N) :
    bodyPre4 V O B c t ⊢ wp frame (wpE (defs₀ (F := F)) Variants.none (c : Thread nD τ) none) Set.univ (bodyAt4 t) (fun _ => bodyPost4 V O B c t) := by
  unfold bodyPre4 bodyPost4 bodyAt4
  simp only [before4_0, before4_1, before4_2, before4_3]
  rw [show (dat4 V O B c).Φ t.succ = (dat4 V O B c).Φ t.castSucc from rfl,
    show (dat4 V O B c).owesAt none t.succ = (dat4 V O B c).owesAt none t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation4 (c : Dev nD) : BodyObligation (dat4 (F := F) V O B c) (defs₀ (F := F)) Variants.none (none : HIx 3) Set.univ := fun t => by
  rw [bigSep_W4, bigSep_W4]
  exact sound_body4 V O B c t

end Point4

/-! ## The stage whose body is `cc5__edge_out_body_aliased` -/

set_option maxHeartbeats 1000000 in
/-- The body on whole buffers: the four inputs at contents x0 … x3 and the output at anything, to the inputs as they
    were and the output at its value of them. -/
theorem sound_kernel5 (c : Dev nD) (E : Set ℕ) (i : grid5.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole) (ax : Memref sig .tc .hbm S320000x128 .f32) (hx : ax.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM5 x0 x1 x2 x3)) -∗ Kk ⟨⟩))
      ⊢ wp frame (wpE (defs₀ (F := F)) Variants.none (c : Thread nD τ) none) E (cc5__edge_out_body_aliased i a1 h1 a2 h2 a3 h3 a4 h4 ax hx a5 h5) Kk := by
  simp only [cc5__edge_out_body_aliased_eq_skeleton]; unfold cc5__edge_out_body_aliased_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point5

variable (V : (d : Dev nD) → (b : Ref sig .tc) → Buf (Elt F) ((d.tc : Thread nD τ).loc b))
  (O : Dev nD → CellTallies nD τ sig (HIx 3)) (B : Set (SemLoc sig × HIx 3))

theorem A_eq5 (c : Dev nD) (w : Fin cfg5.W) : (dat5 V O B c).A w = V c (Pipeline.arrRef spec5 w) := by dsimp only [dat5]
theorem after5_0 (c : Dev nD) (t : Fin cfg5.N) : (dat5 V O B c).after 0 t = iblk5 V c 0 t := by dsimp only [dat5]
theorem after5_1 (c : Dev nD) (t : Fin cfg5.N) : (dat5 V O B c).after 1 t = iblk5 V c 1 t := by dsimp only [dat5]
theorem after5_2 (c : Dev nD) (t : Fin cfg5.N) : (dat5 V O B c).after 2 t = iblk5 V c 2 t := by dsimp only [dat5]
theorem after5_3 (c : Dev nD) (t : Fin cfg5.N) : (dat5 V O B c).after 3 t = iblk5 V c 3 t := by dsimp only [dat5]
theorem after5_4 (c : Dev nD) (t : Fin cfg5.N) :
    (dat5 V O B c).after 4 t = outM5 (iblk5 V c 0 t) (iblk5 V c 1 t) (iblk5 V c 2 t) (iblk5 V c 3 t) := by dsimp only [dat5]

/-- An input's current buffer holds the input's block at every point: fetched there, or, the block index not having
    moved, kept from the point before. -/
theorem before5_0 (c : Dev nD) (t : Fin cfg5.N) (d) : (dat5 V O B c).before 0 t d = iblk5 V c 0 t :=
  ((dat5 V O B c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V O B c).before 1 t d = iblk5 V c 1 t :=
  ((dat5 V O B c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V O B c).before 2 t d = iblk5 V c 2 t :=
  ((dat5 V O B c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V O B c).before 3 t d = iblk5 V c 3 t :=
  ((dat5 V O B c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- What the loop hands the body at point t, the windows one by one, -/
def bodyPre5 (c : Dev nD) (t : Fin cfg5.N) : sProp 𝕄 :=
  iprop((dat5 V O B c).Φ t.castSucc ∗ (dat5 V O B c).owesAt none t.castSucc
    ∗ (∃ d, owns (c : Thread nD τ) (st5_0 t) fullShare ((dat5 V O B c).before 0 t d))
    ∗ (∃ d, owns (c : Thread nD τ) (st5_1 t) fullShare ((dat5 V O B c).before 1 t d))
    ∗ (∃ d, owns (c : Thread nD τ) (st5_2 t) fullShare ((dat5 V O B c).before 2 t d))
    ∗ (∃ d, owns (c : Thread nD τ) (st5_3 t) fullShare ((dat5 V O B c).before 3 t d))
    ∗ (∃ d, owns (c : Thread nD τ) (st5_4 t) fullShare ((dat5 V O B c).before 4 t d)))

/-- and what it takes back. -/
def bodyPost5 (c : Dev nD) (t : Fin cfg5.N) : sProp 𝕄 :=
  iprop((dat5 V O B c).Φ t.succ ∗ (dat5 V O B c).owesAt none t.succ
    ∗ owns (c : Thread nD τ) (st5_0 t) fullShare ((dat5 V O B c).after 0 t)
    ∗ owns (c : Thread nD τ) (st5_1 t) fullShare ((dat5 V O B c).after 1 t)
    ∗ owns (c : Thread nD τ) (st5_2 t) fullShare ((dat5 V O B c).after 2 t)
    ∗ owns (c : Thread nD τ) (st5_3 t) fullShare ((dat5 V O B c).after 3 t)
    ∗ owns (c : Thread nD τ) (st5_4 t) fullShare ((dat5 V O B c).after 4 t))

set_option maxHeartbeats 1000000 in
/-- The body at any point: the inputs' buffers hold their blocks, so the triple above applies; what the loop keeps and
    what the processor owes pass through unread. -/
theorem sound_body5 (c : Dev nD) (t : Fin cfg5.N) :
    bodyPre5 V O B c t ⊢ wp frame (wpE (defs₀ (F := F)) Variants.none (c : Thread nD τ) none) Set.univ (bodyAt5 t) (fun _ => bodyPost5 V O B c t) := by
  unfold bodyPre5 bodyPost5 bodyAt5
  simp only [before5_0, before5_1, before5_2, before5_3]
  rw [show (dat5 V O B c).Φ t.succ = (dat5 V O B c).Φ t.castSucc from rfl,
    show (dat5 V O B c).owesAt none t.succ = (dat5 V O B c).owesAt none t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation5 (c : Dev nD) : BodyObligation (dat5 (F := F) V O B c) (defs₀ (F := F)) Variants.none (none : HIx 3) Set.univ := fun t => by
  rw [bigSep_W5, bigSep_W5]
  exact sound_body5 V O B c t

end Point5

/-! ## The stage whose body is `cc6__edge_out_body_aliased` -/

set_option maxHeartbeats 1000000 in
/-- The body on whole buffers: the four inputs at contents x0 … x3 and the output at anything, to the inputs as they
    were and the output at its value of them. -/
theorem sound_kernel6 (c : Dev nD) (E : Set ℕ) (i : grid6.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole) (ax : Memref sig .tc .hbm S320000x128 .f32) (hx : ax.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM6 x0 x1 x2 x3)) -∗ Kk ⟨⟩))
      ⊢ wp frame (wpE (defs₀ (F := F)) Variants.none (c : Thread nD τ) none) E (cc6__edge_out_body_aliased i a1 h1 a2 h2 a3 h3 a4 h4 ax hx a5 h5) Kk := by
  simp only [cc6__edge_out_body_aliased_eq_skeleton]; unfold cc6__edge_out_body_aliased_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point6

variable (V : (d : Dev nD) → (b : Ref sig .tc) → Buf (Elt F) ((d.tc : Thread nD τ).loc b))
  (O : Dev nD → CellTallies nD τ sig (HIx 3)) (B : Set (SemLoc sig × HIx 3))

theorem A_eq6 (c : Dev nD) (w : Fin cfg6.W) : (dat6 V O B c).A w = V c (Pipeline.arrRef spec6 w) := by dsimp only [dat6]
theorem after6_0 (c : Dev nD) (t : Fin cfg6.N) : (dat6 V O B c).after 0 t = iblk6 V c 0 t := by dsimp only [dat6]
theorem after6_1 (c : Dev nD) (t : Fin cfg6.N) : (dat6 V O B c).after 1 t = iblk6 V c 1 t := by dsimp only [dat6]
theorem after6_2 (c : Dev nD) (t : Fin cfg6.N) : (dat6 V O B c).after 2 t = iblk6 V c 2 t := by dsimp only [dat6]
theorem after6_3 (c : Dev nD) (t : Fin cfg6.N) : (dat6 V O B c).after 3 t = iblk6 V c 3 t := by dsimp only [dat6]
theorem after6_4 (c : Dev nD) (t : Fin cfg6.N) :
    (dat6 V O B c).after 4 t = outM6 (iblk6 V c 0 t) (iblk6 V c 1 t) (iblk6 V c 2 t) (iblk6 V c 3 t) := by dsimp only [dat6]

/-- An input's current buffer holds the input's block at every point: fetched there, or, the block index not having
    moved, kept from the point before. -/
theorem before6_0 (c : Dev nD) (t : Fin cfg6.N) (d) : (dat6 V O B c).before 0 t d = iblk6 V c 0 t :=
  ((dat6 V O B c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V O B c).before 1 t d = iblk6 V c 1 t :=
  ((dat6 V O B c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V O B c).before 2 t d = iblk6 V c 2 t :=
  ((dat6 V O B c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V O B c).before 3 t d = iblk6 V c 3 t :=
  ((dat6 V O B c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- What the loop hands the body at point t, the windows one by one, -/
def bodyPre6 (c : Dev nD) (t : Fin cfg6.N) : sProp 𝕄 :=
  iprop((dat6 V O B c).Φ t.castSucc ∗ (dat6 V O B c).owesAt none t.castSucc
    ∗ (∃ d, owns (c : Thread nD τ) (st6_0 t) fullShare ((dat6 V O B c).before 0 t d))
    ∗ (∃ d, owns (c : Thread nD τ) (st6_1 t) fullShare ((dat6 V O B c).before 1 t d))
    ∗ (∃ d, owns (c : Thread nD τ) (st6_2 t) fullShare ((dat6 V O B c).before 2 t d))
    ∗ (∃ d, owns (c : Thread nD τ) (st6_3 t) fullShare ((dat6 V O B c).before 3 t d))
    ∗ (∃ d, owns (c : Thread nD τ) (st6_4 t) fullShare ((dat6 V O B c).before 4 t d)))

/-- and what it takes back. -/
def bodyPost6 (c : Dev nD) (t : Fin cfg6.N) : sProp 𝕄 :=
  iprop((dat6 V O B c).Φ t.succ ∗ (dat6 V O B c).owesAt none t.succ
    ∗ owns (c : Thread nD τ) (st6_0 t) fullShare ((dat6 V O B c).after 0 t)
    ∗ owns (c : Thread nD τ) (st6_1 t) fullShare ((dat6 V O B c).after 1 t)
    ∗ owns (c : Thread nD τ) (st6_2 t) fullShare ((dat6 V O B c).after 2 t)
    ∗ owns (c : Thread nD τ) (st6_3 t) fullShare ((dat6 V O B c).after 3 t)
    ∗ owns (c : Thread nD τ) (st6_4 t) fullShare ((dat6 V O B c).after 4 t))

set_option maxHeartbeats 1000000 in
/-- The body at any point: the inputs' buffers hold their blocks, so the triple above applies; what the loop keeps and
    what the processor owes pass through unread. -/
theorem sound_body6 (c : Dev nD) (t : Fin cfg6.N) :
    bodyPre6 V O B c t ⊢ wp frame (wpE (defs₀ (F := F)) Variants.none (c : Thread nD τ) none) Set.univ (bodyAt6 t) (fun _ => bodyPost6 V O B c t) := by
  unfold bodyPre6 bodyPost6 bodyAt6
  simp only [before6_0, before6_1, before6_2, before6_3]
  rw [show (dat6 V O B c).Φ t.succ = (dat6 V O B c).Φ t.castSucc from rfl,
    show (dat6 V O B c).owesAt none t.succ = (dat6 V O B c).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation6 (c : Dev nD) : BodyObligation (dat6 (F := F) V O B c) (defs₀ (F := F)) Variants.none (none : HIx 3) Set.univ := fun t => by
  rw [bigSep_W6, bigSep_W6]
  exact sound_body6 V O B c t

end Point6

end Cert.Proof.KI

end
-- ==== Proof.Regions.lean ====
/-
  The four dense stages as steps of the main program. Each stage's call runs, by the rule of a blocked loop, from the
  processor holding all its arrays at some contents to holding them with the stage's output arrays at what the loop
  leaves (the values named with the stages' data) and every other array as it was. Around the call the processor may
  owe other processors signals — the starts of the gather calls still to come —, all at the index of some call; the
  loop's own waits are recorded at the index of no call, which sits below every such debt, so they may always be made;
  the debts pass through the stage unchanged. The call is proved under the stages' own table of bodies and then read
  under the table the whole program runs with, which adds the gather calls' dispatch.
-/
import proofs.«206539_g3985729650836_cont_8to1_b_247_13_alg».proof.Proof.Body0
import proofs.«206539_g3985729650836_cont_8to1_b_247_13_alg».proof.Proof.BodyE
import Idealize.ShloMosaic.Lib.Pipeline.RegionsLoop
import Idealize.ShloMosaic.Lib.Pipeline.FrameSuffix

noncomputable section

namespace Cert.Proof.KI

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 3) (Elt F) ℕ UU ℕ

/-- A call of a stage's region, read in the extended table's signature, is the call of the same label there. -/
theorem lift_entry (p : Fin 4) :
    SparseCore.liftProg (Q := 3) (Prog.lift (.customCall (Pipeline.entry p) ()) : Prog (TpuEff nD τ sig (Elt F) (ΛP (F := F)) .tc) PUnit)
      = Prog.lift (.customCall (SparseCore.inner (Pipeline.entry p)) ()) := rfl

variable (V V' : (d : Dev nD) → (b : Ref sig .tc) → Buf (Elt F) ((d.tc : Thread nD τ).loc b))
  (O : Dev nD → CellTallies nD τ sig (HIx 3)) (B : Set (SemLoc sig × HIx 3))
  (lv : GSem nD τ sig → HIx 3 → ℕ)

/-! ## The inputs' arrays are left as entered -/

/-- Stage 0 never writes an input's array: after any number of its points the array holds what it held on entry. -/
theorem arrAt_in_0 (d : Dev nD) (w : Fin cfg0.W) (hw : (cfg0.win w).isOut = false) (n : ℕ) :
    (dat0 V O B d).arrAt w n = V d (Pipeline.arrRef spec0 w) :=
  ((dat0 V O B d).arrAt_in w hw n).trans (A_eq0 V O B d w)

/-- Stage 1 never writes an input's array: after any number of its points the array holds what it held on entry. -/
theorem arrAt_in_1 (d : Dev nD) (w : Fin cfg4.W) (hw : (cfg4.win w).isOut = false) (n : ℕ) :
    (dat4 V O B d).arrAt w n = V d (Pipeline.arrRef spec4 w) :=
  ((dat4 V O B d).arrAt_in w hw n).trans (A_eq4 V O B d w)

/-- Stage 2 never writes an input's array: after any number of its points the array holds what it held on entry. -/
theorem arrAt_in_2 (d : Dev nD) (w : Fin cfg5.W) (hw : (cfg5.win w).isOut = false) (n : ℕ) :
    (dat5 V O B d).arrAt w n = V d (Pipeline.arrRef spec5 w) :=
  ((dat5 V O B d).arrAt_in w hw n).trans (A_eq5 V O B d w)

/-- Stage 3 never writes an input's array: after any number of its points the array holds what it held on entry. -/
theorem arrAt_in_3 (d : Dev nD) (w : Fin cfg6.W) (hw : (cfg6.win w).isOut = false) (n : ℕ) :
    (dat6 V O B d).arrAt w n = V d (Pipeline.arrRef spec6 w) :=
  ((dat6 V O B d).arrAt_in w hw n).trans (A_eq6 V O B d w)

/-! ## Stage 0 -/

set_option backward.isDefEq.respectTransparency.types false in
/-- Stage 0 as a region of the main program: entered holding every array of the processor at contents V and owing
    O with recorded waits within B, left holding them at V' — the stage's arrays at what its loop leaves, the others
    as entered — owing the same, the recorded waits within B and the loop's own. -/
def reg0 (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) :
    Pipeline.RegionSeg (pcfgs (F := F)) adm (pdats V O B) none defs₀ 𝒱₀ (K (F := F)).L lv 0 where
  win := launch0.win.to₀
  block_pos := launch0.block_pos
  stage_whole := launch0.stage_whole
  K := PEmpty
  osem k := k.elim
  ho := Pipeline.OwnSemFacts.none _
  hbody c := (body_obligation0 V O B c).loose
  hwaits c := Pipeline.cellsWaits_intro (Pipeline.pin (pcfgs (F := F)) adm) (pdats V O B) none 0 c fun w s t =>
    (K (F := F)).mayWait_none (thr := (c.tc : Thread nD τ)) (.dma (((Pipeline.pin (pcfgs (F := F)) adm 0).win w).sem s)) (hO c) lv hlv
  pre c := iprop(unscopedBufs c (V c) ∗ Pipeline.owesWithin c (O c) B)
  post c := iprop(unscopedBufs c (V' c) ∗ Pipeline.owesWithin c (O c) (B ∪ (cfgs 0).waitPairs none))
  X _ := iprop(emp)
  Y _ := iprop(emp)
  Z c := Pipeline.unscopedRest spec0 c (V c)
  hentry c := by
    rw [Pipeline.ownSems0_none]
    have hsplit := Pipeline.arrays_of_unscopedBufs (p := 0) (pcfgs (F := F)) adm (pdats V O B) launch0.win launch0.arr_whole c
      ((pdats V O B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 0 c).Φ 0 = Pipeline.scopedRest spec0 c from rfl]
    iintro ⟨-, -, Hr⟩
    iexact Hr
  hout c := by
    rw [Pipeline.ownSems0_none, show (pdats V O B 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch0.win launch0.arr_whole c (pdats V O B) ((pdats V O B 0 c).share_full fun _ => rfl)
      (V c) (V' c) ((pdats V O B 0 c).arrAt · cfg0.N) (fun w => (arrAt0_eq V O B c w cfg0.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_0_tc (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop(levAts (K (F := F)).L lv
        ∗ Pipeline.cellsGhost cfgs (EP (F := F)) 0 d ∗ Pipeline.toksInit cfgs (EP (F := F)) 0 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 0) ()))
          (fun _ => iprop(boundary (d.tc : Thread nD τ) ∗ unscopedBufs d (V' d)
             ∗ Pipeline.owesWithin d (O d) (B ∪ (cfgs 0).waitPairs none))) : sProp 𝕄) := by
  have h := Pipeline.RegionSeg.wp (pcfgs (F := F)) adm (pdats V O B) none cellOf_inj (EP (F := F)) defs₀ 𝒱₀ (K (F := F)).L lv
    (reg0 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 0).waitPairs none)))
  refine BIBase.Entails.trans ?_ h
  dsimp only [reg0]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_0 (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop(levAts (K (F := F)).L lv
        ∗ Pipeline.cellsGhost cfgs (EP (F := F)) 0 d ∗ Pipeline.toksInit cfgs (EP (F := F)) 0 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 0)) ()))
          (fun _ => iprop(boundary (d.tc : Thread nD τ) ∗ unscopedBufs d (V' d)
             ∗ Pipeline.owesWithin d (O d) (B ∪ (cfgs 0).waitPairs none))) : sProp 𝕄) := by
  rw [← lift_entry (F := F) 0]
  exact (region_0_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_0 (Pp : (K (F := F)).Pay (nD := nD) (Val := Elt F) (Name := ℕ) (U := UU))
    (κ : GSem nD τ sig → ℕ) (hlv : (K (F := F)).Refines lv) (n : ℕ)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop((K (F := F)).ctx (EH (F := F)) Pp κ lv ∗ (K (F := F)).tcSt (EH (F := F)) d n
        ∗ Pipeline.cellsGhost cfgs (EP (F := F)) 0 d ∗ Pipeline.toksInit cfgs (EP (F := F)) 0 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 0)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_0 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 1 -/

set_option backward.isDefEq.respectTransparency.types false in
/-- Stage 1 as a region of the main program: entered holding every array of the processor at contents V and owing
    O with recorded waits within B, left holding them at V' — the stage's arrays at what its loop leaves, the others
    as entered — owing the same, the recorded waits within B and the loop's own. -/
def reg4 (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) :
    Pipeline.RegionSeg (pcfgs (F := F)) adm (pdats V O B) none defs₀ 𝒱₀ (K (F := F)).L lv 1 where
  win := launch4.win.to₀
  block_pos := launch4.block_pos
  stage_whole := launch4.stage_whole
  K := PEmpty
  osem k := k.elim
  ho := Pipeline.OwnSemFacts.none _
  hbody c := (body_obligation4 V O B c).loose
  hwaits c := Pipeline.cellsWaits_intro (Pipeline.pin (pcfgs (F := F)) adm) (pdats V O B) none 1 c fun w s t =>
    (K (F := F)).mayWait_none (thr := (c.tc : Thread nD τ)) (.dma (((Pipeline.pin (pcfgs (F := F)) adm 1).win w).sem s)) (hO c) lv hlv
  pre c := iprop(unscopedBufs c (V c) ∗ Pipeline.owesWithin c (O c) B)
  post c := iprop(unscopedBufs c (V' c) ∗ Pipeline.owesWithin c (O c) (B ∪ (cfgs 1).waitPairs none))
  X _ := iprop(emp)
  Y _ := iprop(emp)
  Z c := Pipeline.unscopedRest spec4 c (V c)
  hentry c := by
    rw [Pipeline.ownSems0_none]
    have hsplit := Pipeline.arrays_of_unscopedBufs (p := 1) (pcfgs (F := F)) adm (pdats V O B) launch4.win launch4.arr_whole c
      ((pdats V O B 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 1 c).Φ 0 = Pipeline.scopedRest spec4 c from rfl]
    iintro ⟨-, -, Hr⟩
    iexact Hr
  hout c := by
    rw [Pipeline.ownSems0_none, show (pdats V O B 1 c).Φ (Fin.last _) = Pipeline.scopedRest spec4 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch4.win launch4.arr_whole c (pdats V O B) ((pdats V O B 1 c).share_full fun _ => rfl)
      (V c) (V' c) ((pdats V O B 1 c).arrAt · cfg4.N) (fun w => (arrAt4_eq V O B c w cfg4.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_1_tc (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop(levAts (K (F := F)).L lv
        ∗ Pipeline.cellsGhost cfgs (EP (F := F)) 1 d ∗ Pipeline.toksInit cfgs (EP (F := F)) 1 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 1) ()))
          (fun _ => iprop(boundary (d.tc : Thread nD τ) ∗ unscopedBufs d (V' d)
             ∗ Pipeline.owesWithin d (O d) (B ∪ (cfgs 1).waitPairs none))) : sProp 𝕄) := by
  have h := Pipeline.RegionSeg.wp (pcfgs (F := F)) adm (pdats V O B) none cellOf_inj (EP (F := F)) defs₀ 𝒱₀ (K (F := F)).L lv
    (reg4 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 1).waitPairs none)))
  refine BIBase.Entails.trans ?_ h
  dsimp only [reg4]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_1 (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop(levAts (K (F := F)).L lv
        ∗ Pipeline.cellsGhost cfgs (EP (F := F)) 1 d ∗ Pipeline.toksInit cfgs (EP (F := F)) 1 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 1)) ()))
          (fun _ => iprop(boundary (d.tc : Thread nD τ) ∗ unscopedBufs d (V' d)
             ∗ Pipeline.owesWithin d (O d) (B ∪ (cfgs 1).waitPairs none))) : sProp 𝕄) := by
  rw [← lift_entry (F := F) 1]
  exact (region_1_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_1 (Pp : (K (F := F)).Pay (nD := nD) (Val := Elt F) (Name := ℕ) (U := UU))
    (κ : GSem nD τ sig → ℕ) (hlv : (K (F := F)).Refines lv) (n : ℕ)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop((K (F := F)).ctx (EH (F := F)) Pp κ lv ∗ (K (F := F)).tcSt (EH (F := F)) d n
        ∗ Pipeline.cellsGhost cfgs (EP (F := F)) 1 d ∗ Pipeline.toksInit cfgs (EP (F := F)) 1 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 1)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_1 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 2 -/

set_option backward.isDefEq.respectTransparency.types false in
/-- Stage 2 as a region of the main program: entered holding every array of the processor at contents V and owing
    O with recorded waits within B, left holding them at V' — the stage's arrays at what its loop leaves, the others
    as entered — owing the same, the recorded waits within B and the loop's own. -/
def reg5 (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) :
    Pipeline.RegionSeg (pcfgs (F := F)) adm (pdats V O B) none defs₀ 𝒱₀ (K (F := F)).L lv 2 where
  win := launch5.win.to₀
  block_pos := launch5.block_pos
  stage_whole := launch5.stage_whole
  K := PEmpty
  osem k := k.elim
  ho := Pipeline.OwnSemFacts.none _
  hbody c := (body_obligation5 V O B c).loose
  hwaits c := Pipeline.cellsWaits_intro (Pipeline.pin (pcfgs (F := F)) adm) (pdats V O B) none 2 c fun w s t =>
    (K (F := F)).mayWait_none (thr := (c.tc : Thread nD τ)) (.dma (((Pipeline.pin (pcfgs (F := F)) adm 2).win w).sem s)) (hO c) lv hlv
  pre c := iprop(unscopedBufs c (V c) ∗ Pipeline.owesWithin c (O c) B)
  post c := iprop(unscopedBufs c (V' c) ∗ Pipeline.owesWithin c (O c) (B ∪ (cfgs 2).waitPairs none))
  X _ := iprop(emp)
  Y _ := iprop(emp)
  Z c := Pipeline.unscopedRest spec5 c (V c)
  hentry c := by
    rw [Pipeline.ownSems0_none]
    have hsplit := Pipeline.arrays_of_unscopedBufs (p := 2) (pcfgs (F := F)) adm (pdats V O B) launch5.win launch5.arr_whole c
      ((pdats V O B 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 2 c).Φ 0 = Pipeline.scopedRest spec5 c from rfl]
    iintro ⟨-, -, Hr⟩
    iexact Hr
  hout c := by
    rw [Pipeline.ownSems0_none, show (pdats V O B 2 c).Φ (Fin.last _) = Pipeline.scopedRest spec5 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch5.win launch5.arr_whole c (pdats V O B) ((pdats V O B 2 c).share_full fun _ => rfl)
      (V c) (V' c) ((pdats V O B 2 c).arrAt · cfg5.N) (fun w => (arrAt5_eq V O B c w cfg5.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_2_tc (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop(levAts (K (F := F)).L lv
        ∗ Pipeline.cellsGhost cfgs (EP (F := F)) 2 d ∗ Pipeline.toksInit cfgs (EP (F := F)) 2 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 2) ()))
          (fun _ => iprop(boundary (d.tc : Thread nD τ) ∗ unscopedBufs d (V' d)
             ∗ Pipeline.owesWithin d (O d) (B ∪ (cfgs 2).waitPairs none))) : sProp 𝕄) := by
  have h := Pipeline.RegionSeg.wp (pcfgs (F := F)) adm (pdats V O B) none cellOf_inj (EP (F := F)) defs₀ 𝒱₀ (K (F := F)).L lv
    (reg5 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 2).waitPairs none)))
  refine BIBase.Entails.trans ?_ h
  dsimp only [reg5]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_2 (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop(levAts (K (F := F)).L lv
        ∗ Pipeline.cellsGhost cfgs (EP (F := F)) 2 d ∗ Pipeline.toksInit cfgs (EP (F := F)) 2 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 2)) ()))
          (fun _ => iprop(boundary (d.tc : Thread nD τ) ∗ unscopedBufs d (V' d)
             ∗ Pipeline.owesWithin d (O d) (B ∪ (cfgs 2).waitPairs none))) : sProp 𝕄) := by
  rw [← lift_entry (F := F) 2]
  exact (region_2_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_2 (Pp : (K (F := F)).Pay (nD := nD) (Val := Elt F) (Name := ℕ) (U := UU))
    (κ : GSem nD τ sig → ℕ) (hlv : (K (F := F)).Refines lv) (n : ℕ)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop((K (F := F)).ctx (EH (F := F)) Pp κ lv ∗ (K (F := F)).tcSt (EH (F := F)) d n
        ∗ Pipeline.cellsGhost cfgs (EP (F := F)) 2 d ∗ Pipeline.toksInit cfgs (EP (F := F)) 2 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 2)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_2 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 3 -/

set_option backward.isDefEq.respectTransparency.types false in
/-- Stage 3 as a region of the main program: entered holding every array of the processor at contents V and owing
    O with recorded waits within B, left holding them at V' — the stage's arrays at what its loop leaves, the others
    as entered — owing the same, the recorded waits within B and the loop's own. -/
def reg6 (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) :
    Pipeline.RegionSeg (pcfgs (F := F)) adm (pdats V O B) none defs₀ 𝒱₀ (K (F := F)).L lv 3 where
  win := launch6.win.to₀
  block_pos := launch6.block_pos
  stage_whole := launch6.stage_whole
  K := PEmpty
  osem k := k.elim
  ho := Pipeline.OwnSemFacts.none _
  hbody c := (body_obligation6 V O B c).loose
  hwaits c := Pipeline.cellsWaits_intro (Pipeline.pin (pcfgs (F := F)) adm) (pdats V O B) none 3 c fun w s t =>
    (K (F := F)).mayWait_none (thr := (c.tc : Thread nD τ)) (.dma (((Pipeline.pin (pcfgs (F := F)) adm 3).win w).sem s)) (hO c) lv hlv
  pre c := iprop(unscopedBufs c (V c) ∗ Pipeline.owesWithin c (O c) B)
  post c := iprop(unscopedBufs c (V' c) ∗ Pipeline.owesWithin c (O c) (B ∪ (cfgs 3).waitPairs none))
  X _ := iprop(emp)
  Y _ := iprop(emp)
  Z c := Pipeline.unscopedRest spec6 c (V c)
  hentry c := by
    rw [Pipeline.ownSems0_none]
    have hsplit := Pipeline.arrays_of_unscopedBufs (p := 3) (pcfgs (F := F)) adm (pdats V O B) launch6.win launch6.arr_whole c
      ((pdats V O B 3 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 3 c).Φ 0 = Pipeline.scopedRest spec6 c from rfl]
    iintro ⟨-, -, Hr⟩
    iexact Hr
  hout c := by
    rw [Pipeline.ownSems0_none, show (pdats V O B 3 c).Φ (Fin.last _) = Pipeline.scopedRest spec6 c from rfl]
    iintro Hr
    isplitr; · iempintro
    isplitr; · iempintro
    iexact Hr
  hexit c := by
    have hjoin := Pipeline.unscopedBufs_of_arrays (p := 3) (pcfgs (F := F)) adm (Ix := HIx 3) (Name := ℕ) (U := UU) (Lvl := ℕ)
      launch6.win launch6.arr_whole c (pdats V O B) ((pdats V O B 3 c).share_full fun _ => rfl)
      (V c) (V' c) ((pdats V O B 3 c).arrAt · cfg6.N) (fun w => (arrAt6_eq V O B c w cfg6.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_3_tc (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop(levAts (K (F := F)).L lv
        ∗ Pipeline.cellsGhost cfgs (EP (F := F)) 3 d ∗ Pipeline.toksInit cfgs (EP (F := F)) 3 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 3) ()))
          (fun _ => iprop(boundary (d.tc : Thread nD τ) ∗ unscopedBufs d (V' d)
             ∗ Pipeline.owesWithin d (O d) (B ∪ (cfgs 3).waitPairs none))) : sProp 𝕄) := by
  have h := Pipeline.RegionSeg.wp (pcfgs (F := F)) adm (pdats V O B) none cellOf_inj (EP (F := F)) defs₀ 𝒱₀ (K (F := F)).L lv
    (reg6 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 3).waitPairs none)))
  refine BIBase.Entails.trans ?_ h
  dsimp only [reg6]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_3 (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop(levAts (K (F := F)).L lv
        ∗ Pipeline.cellsGhost cfgs (EP (F := F)) 3 d ∗ Pipeline.toksInit cfgs (EP (F := F)) 3 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 3)) ()))
          (fun _ => iprop(boundary (d.tc : Thread nD τ) ∗ unscopedBufs d (V' d)
             ∗ Pipeline.owesWithin d (O d) (B ∪ (cfgs 3).waitPairs none))) : sProp 𝕄) := by
  rw [← lift_entry (F := F) 3]
  exact (region_3_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_3 (Pp : (K (F := F)).Pay (nD := nD) (Val := Elt F) (Name := ℕ) (U := UU))
    (κ : GSem nD τ sig → ℕ) (hlv : (K (F := F)).Refines lv) (n : ℕ)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop((K (F := F)).ctx (EH (F := F)) Pp κ lv ∗ (K (F := F)).tcSt (EH (F := F)) d n
        ∗ Pipeline.cellsGhost cfgs (EP (F := F)) 3 d ∗ Pipeline.toksInit cfgs (EP (F := F)) 3 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 3)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_3 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

end Cert.Proof.KI

end
-- ==== Proof.RegionGlue.lean ====
/-
  The four dense stages as steps of @main at a valuation of the processor's arrays: each stage's effect on the valuation
  is its windows' arrays at what the blocked loop leaves; it touches nothing but the stage's output arrays, an input
  window's array ending as it was found.
-/
import proofs.«206539_g3985729650836_cont_8to1_b_247_13_alg».proof.Proof.Main
import proofs.«206539_g3985729650836_cont_8to1_b_247_13_alg».proof.Proof.Regions

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-- A valuation of one device's arrays as a region's entry contents (a region's data at a device reads that device's). -/
def toV (W : Valuation τ sig (Elt F)) : (d : Dev nD) → (b : Ref sig .tc) → Buf (Elt F) ((d.tc : Thread nD τ).loc b) :=
  fun _ b => W (Proc.devRef .tc b)

/-! ## Stage 0 -/

/-- What stage 0 does to the valuation of the processor's arrays: its windows' arrays at what the blocked loop leaves. -/
def Rg0 (d : Dev nD) (W : Valuation τ sig (Elt F)) : Valuation τ sig (Elt F) :=
  Pipeline.withArrays spec0 d W (fun w => (dat0 (toV W) (fun _ => 0) Set.univ d).arrAt w cfg0.N)

/-- An input window's array is as the stage found it: no point writes a block of it back. -/
theorem arrAt0_in (V : (d : Dev nD) → (b : Ref sig .tc) → Buf (Elt F) ((d.tc : Thread nD τ).loc b)) (d : Dev nD) (w : Fin 6)
    (hw : ∀ t, (cfg0.win w).flush t = false) : (dat0 V (fun _ => 0) Set.univ d).arrAt w cfg0.N = V d (Pipeline.arrRef spec0 w) := by
  funext i
  exact (dat0 V (fun _ => 0) Set.univ d).arrAt_apply_of_forall_not_mem w cfg0.N i (fun t _ hf => absurd hf (by rw [hw t]; exact Bool.false_ne_true))

theorem regionStep0 (GI : (d : Dev nD) → Buf (Elt F) (giLoc d)) (GJ : (d : Dev nD) → Buf (Elt F) (gjLoc d)) (n : ℕ) :
    RegionStep m GI GJ 0 n (Rg0 (F := F)) := by
  intro κ d W Φ
  have hstep := region_step_0 (toV W) (fun d' b => Rg0 d' W (Proc.devRef .tc b)) (K (F := F)).lev (P m GI GJ) κ (K (F := F)).refines_self n
    (fun d' w => by unfold Rg0; exact (Pipeline.withArrays_arr spec0 launch0.win.arr_inj d' W (fun w => (dat0 (toV W) (fun _ => 0) Set.univ d').arrAt w cfg0.N) w).symm)
    (fun d' b hb => by unfold Rg0; exact Pipeline.withArrays_of_ne spec0 d' W _ b (fun w e => hb (Finset.mem_image.mpr ⟨w, Finset.mem_univ _, e⟩))) d
  rw [← unscopedBufs_held d W, ← unscopedBufs_held d (Rg0 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame0 : RegionFrame (Rg0 (F := F)) {h', gi', gj'} := by
  intro d W b hb
  by_cases h : ∃ w, (Proc.devRef .tc (Pipeline.arrRef spec0 w) : DevRef τ sig) = b
  · obtain ⟨w, rfl⟩ := h
    unfold Rg0
    rw [Pipeline.withArrays_arr spec0 launch0.win.arr_inj d W _ w]
    match w with
    | ⟨0, _⟩ => exact arrAt0_in (toV W) d _ (fun _ => rfl)
    | ⟨1, _⟩ => exact arrAt0_in (toV W) d _ (fun _ => rfl)
    | ⟨2, _⟩ => exact arrAt0_in (toV W) d _ (fun _ => rfl)
    | ⟨3, _⟩ => exact absurd (show (Proc.devRef .tc (Pipeline.arrRef spec0 (3 : Fin 6)) : DevRef τ sig) ∈ ({h', gi', gj'} : Finset (DevRef τ sig)) by decide) hb
    | ⟨4, _⟩ => exact absurd (show (Proc.devRef .tc (Pipeline.arrRef spec0 (4 : Fin 6)) : DevRef τ sig) ∈ ({h', gi', gj'} : Finset (DevRef τ sig)) by decide) hb
    | ⟨5, _⟩ => exact absurd (show (Proc.devRef .tc (Pipeline.arrRef spec0 (5 : Fin 6)) : DevRef τ sig) ∈ ({h', gi', gj'} : Finset (DevRef τ sig)) by decide) hb
  · unfold Rg0 Pipeline.withArrays
    rw [dif_neg h]

/-! ## Stage 1 -/

/-- What stage 1 does to the valuation of the processor's arrays: its windows' arrays at what the blocked loop leaves. -/
def Rg1 (d : Dev nD) (W : Valuation τ sig (Elt F)) : Valuation τ sig (Elt F) :=
  Pipeline.withArrays spec4 d W (fun w => (dat4 (toV W) (fun _ => 0) Set.univ d).arrAt w cfg4.N)

/-- An input window's array is as the stage found it: no point writes a block of it back. -/
theorem arrAt1_in (V : (d : Dev nD) → (b : Ref sig .tc) → Buf (Elt F) ((d.tc : Thread nD τ).loc b)) (d : Dev nD) (w : Fin 5)
    (hw : ∀ t, (cfg4.win w).flush t = false) : (dat4 V (fun _ => 0) Set.univ d).arrAt w cfg4.N = V d (Pipeline.arrRef spec4 w) := by
  funext i
  exact (dat4 V (fun _ => 0) Set.univ d).arrAt_apply_of_forall_not_mem w cfg4.N i (fun t _ hf => absurd hf (by rw [hw t]; exact Bool.false_ne_true))

theorem regionStep1 (GI : (d : Dev nD) → Buf (Elt F) (giLoc d)) (GJ : (d : Dev nD) → Buf (Elt F) (gjLoc d)) (n : ℕ) :
    RegionStep m GI GJ 1 n (Rg1 (F := F)) := by
  intro κ d W Φ
  have hstep := region_step_1 (toV W) (fun d' b => Rg1 d' W (Proc.devRef .tc b)) (K (F := F)).lev (P m GI GJ) κ (K (F := F)).refines_self n
    (fun d' w => by unfold Rg1; exact (Pipeline.withArrays_arr spec4 launch4.win.arr_inj d' W (fun w => (dat4 (toV W) (fun _ => 0) Set.univ d').arrAt w cfg4.N) w).symm)
    (fun d' b hb => by unfold Rg1; exact Pipeline.withArrays_of_ne spec4 d' W _ b (fun w e => hb (Finset.mem_image.mpr ⟨w, Finset.mem_univ _, e⟩))) d
  rw [← unscopedBufs_held d W, ← unscopedBufs_held d (Rg1 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame1 : RegionFrame (Rg1 (F := F)) {m1'} := by
  intro d W b hb
  by_cases h : ∃ w, (Proc.devRef .tc (Pipeline.arrRef spec4 w) : DevRef τ sig) = b
  · obtain ⟨w, rfl⟩ := h
    unfold Rg1
    rw [Pipeline.withArrays_arr spec4 launch4.win.arr_inj d W _ w]
    match w with
    | ⟨0, _⟩ => exact arrAt1_in (toV W) d _ (fun _ => rfl)
    | ⟨1, _⟩ => exact arrAt1_in (toV W) d _ (fun _ => rfl)
    | ⟨2, _⟩ => exact arrAt1_in (toV W) d _ (fun _ => rfl)
    | ⟨3, _⟩ => exact arrAt1_in (toV W) d _ (fun _ => rfl)
    | ⟨4, _⟩ => exact absurd (show (Proc.devRef .tc (Pipeline.arrRef spec4 (4 : Fin 5)) : DevRef τ sig) ∈ ({m1'} : Finset (DevRef τ sig)) by decide) hb
  · unfold Rg1 Pipeline.withArrays
    rw [dif_neg h]

/-! ## Stage 2 -/

/-- What stage 2 does to the valuation of the processor's arrays: its windows' arrays at what the blocked loop leaves. -/
def Rg2 (d : Dev nD) (W : Valuation τ sig (Elt F)) : Valuation τ sig (Elt F) :=
  Pipeline.withArrays spec5 d W (fun w => (dat5 (toV W) (fun _ => 0) Set.univ d).arrAt w cfg5.N)

/-- An input window's array is as the stage found it: no point writes a block of it back. -/
theorem arrAt2_in (V : (d : Dev nD) → (b : Ref sig .tc) → Buf (Elt F) ((d.tc : Thread nD τ).loc b)) (d : Dev nD) (w : Fin 5)
    (hw : ∀ t, (cfg5.win w).flush t = false) : (dat5 V (fun _ => 0) Set.univ d).arrAt w cfg5.N = V d (Pipeline.arrRef spec5 w) := by
  funext i
  exact (dat5 V (fun _ => 0) Set.univ d).arrAt_apply_of_forall_not_mem w cfg5.N i (fun t _ hf => absurd hf (by rw [hw t]; exact Bool.false_ne_true))

theorem regionStep2 (GI : (d : Dev nD) → Buf (Elt F) (giLoc d)) (GJ : (d : Dev nD) → Buf (Elt F) (gjLoc d)) (n : ℕ) :
    RegionStep m GI GJ 2 n (Rg2 (F := F)) := by
  intro κ d W Φ
  have hstep := region_step_2 (toV W) (fun d' b => Rg2 d' W (Proc.devRef .tc b)) (K (F := F)).lev (P m GI GJ) κ (K (F := F)).refines_self n
    (fun d' w => by unfold Rg2; exact (Pipeline.withArrays_arr spec5 launch5.win.arr_inj d' W (fun w => (dat5 (toV W) (fun _ => 0) Set.univ d').arrAt w cfg5.N) w).symm)
    (fun d' b hb => by unfold Rg2; exact Pipeline.withArrays_of_ne spec5 d' W _ b (fun w e => hb (Finset.mem_image.mpr ⟨w, Finset.mem_univ _, e⟩))) d
  rw [← unscopedBufs_held d W, ← unscopedBufs_held d (Rg2 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame2 : RegionFrame (Rg2 (F := F)) {m2'} := by
  intro d W b hb
  by_cases h : ∃ w, (Proc.devRef .tc (Pipeline.arrRef spec5 w) : DevRef τ sig) = b
  · obtain ⟨w, rfl⟩ := h
    unfold Rg2
    rw [Pipeline.withArrays_arr spec5 launch5.win.arr_inj d W _ w]
    match w with
    | ⟨0, _⟩ => exact arrAt2_in (toV W) d _ (fun _ => rfl)
    | ⟨1, _⟩ => exact arrAt2_in (toV W) d _ (fun _ => rfl)
    | ⟨2, _⟩ => exact arrAt2_in (toV W) d _ (fun _ => rfl)
    | ⟨3, _⟩ => exact arrAt2_in (toV W) d _ (fun _ => rfl)
    | ⟨4, _⟩ => exact absurd (show (Proc.devRef .tc (Pipeline.arrRef spec5 (4 : Fin 5)) : DevRef τ sig) ∈ ({m2'} : Finset (DevRef τ sig)) by decide) hb
  · unfold Rg2 Pipeline.withArrays
    rw [dif_neg h]

/-! ## Stage 3 -/

/-- What stage 3 does to the valuation of the processor's arrays: its windows' arrays at what the blocked loop leaves. -/
def Rg3 (d : Dev nD) (W : Valuation τ sig (Elt F)) : Valuation τ sig (Elt F) :=
  Pipeline.withArrays spec6 d W (fun w => (dat6 (toV W) (fun _ => 0) Set.univ d).arrAt w cfg6.N)

/-- An input window's array is as the stage found it: no point writes a block of it back. -/
theorem arrAt3_in (V : (d : Dev nD) → (b : Ref sig .tc) → Buf (Elt F) ((d.tc : Thread nD τ).loc b)) (d : Dev nD) (w : Fin 5)
    (hw : ∀ t, (cfg6.win w).flush t = false) : (dat6 V (fun _ => 0) Set.univ d).arrAt w cfg6.N = V d (Pipeline.arrRef spec6 w) := by
  funext i
  exact (dat6 V (fun _ => 0) Set.univ d).arrAt_apply_of_forall_not_mem w cfg6.N i (fun t _ hf => absurd hf (by rw [hw t]; exact Bool.false_ne_true))

theorem regionStep3 (GI : (d : Dev nD) → Buf (Elt F) (giLoc d)) (GJ : (d : Dev nD) → Buf (Elt F) (gjLoc d)) (n : ℕ) :
    RegionStep m GI GJ 3 n (Rg3 (F := F)) := by
  intro κ d W Φ
  have hstep := region_step_3 (toV W) (fun d' b => Rg3 d' W (Proc.devRef .tc b)) (K (F := F)).lev (P m GI GJ) κ (K (F := F)).refines_self n
    (fun d' w => by unfold Rg3; exact (Pipeline.withArrays_arr spec6 launch6.win.arr_inj d' W (fun w => (dat6 (toV W) (fun _ => 0) Set.univ d').arrAt w cfg6.N) w).symm)
    (fun d' b hb => by unfold Rg3; exact Pipeline.withArrays_of_ne spec6 d' W _ b (fun w e => hb (Finset.mem_image.mpr ⟨w, Finset.mem_univ _, e⟩))) d
  rw [← unscopedBufs_held d W, ← unscopedBufs_held d (Rg3 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame3 : RegionFrame (Rg3 (F := F)) {out'} := by
  intro d W b hb
  by_cases h : ∃ w, (Proc.devRef .tc (Pipeline.arrRef spec6 w) : DevRef τ sig) = b
  · obtain ⟨w, rfl⟩ := h
    unfold Rg3
    rw [Pipeline.withArrays_arr spec6 launch6.win.arr_inj d W _ w]
    match w with
    | ⟨0, _⟩ => exact arrAt3_in (toV W) d _ (fun _ => rfl)
    | ⟨1, _⟩ => exact arrAt3_in (toV W) d _ (fun _ => rfl)
    | ⟨2, _⟩ => exact arrAt3_in (toV W) d _ (fun _ => rfl)
    | ⟨3, _⟩ => exact arrAt3_in (toV W) d _ (fun _ => rfl)
    | ⟨4, _⟩ => exact absurd (show (Proc.devRef .tc (Pipeline.arrRef spec6 (4 : Fin 5)) : DevRef τ sig) ∈ ({out'} : Finset (DevRef τ sig)) by decide) hb
  · unfold Rg3 Pipeline.withArrays
    rw [dif_neg h]

end Cert.Proof.KI

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.PreFacts.lean ====
import proofs.«206539_g3985729650836_cont_8to1_b_247_13_alg».proof.Proof.Gen.Pre_input_domain
import proofs.«206539_g3985729650836_cont_8to1_b_247_13_alg».proof.Proof.LibFiniteAll
import Idealize.ShloMosaic.Lib.ValueIdx
import Idealize.ShloMosaic.Lib.ReduceAll

/-!
The precondition decoded. The input-domain predicate is a conjunction of seven tests, each a reduction by "and" over a
whole array into one bit: that every entry of the four float arrays has magnitude below +∞; that every atomic number
lies in [1, 92]; that every edge endpoint lies in [0, 9999]. When the predicate is 1 each reduction is 1, hence each
entrywise test holds at every entry: the integer ranges for every float instance, and, at the ideal instance, every
float entry a real number.
-/

noncomputable section

namespace Cert.Proof.PreFacts

open Idealize.ShloMosaic Idealize.ShloMosaic.ValueIdx Cert.Pre_input_domain Cert.Pre_input_domain.Gen Cert.LibFiniteAll

variable {F : FTy → Type} [FloatOps F]

/-- A splat integer constant reads its word everywhere. -/
theorem splat_apply {s : Shape} (h : S_.BroadcastsInDim s (![] : Fin 0 → Fin s.rank)) (v : BitVec 32) (i : s.Idx) :
    broadcastInDim s ![] h (constantI S_ 32 v) i = v := rfl

/-- An entry that passes the two signed comparisons against splat bounds lies between the bounds. -/
theorem range_of_entry {s : Shape} (h : S_.BroadcastsInDim s (![] : Fin 0 → Fin s.rank)) (x : IVec s 32) (lo hi : BitVec 32) (i : s.Idx)
    (e : andi (cmpi .sge x (broadcastInDim s ![] h (constantI S_ 32 lo))) (cmpi .sle x (broadcastInDim s ![] h (constantI S_ 32 hi))) i = 1#1) :
    lo.toInt ≤ (x i).toInt ∧ (x i).toInt ≤ hi.toInt := by
  obtain ⟨h1, h2⟩ := (andi_apply_eq_one _ _ i).1 e
  exact ⟨IntOp.cmpi_sge.1 h1, IntOp.cmpi_sle.1 h2⟩

/-- THE SEVEN TESTS. When the predicate is all ones each of its seven reductions is 1. -/
theorem tests (z : IVec S10000 32) (rbf : FVec F S320000x16 .f32) (ii jj : IVec S320000 32) (emb : FVec F S93x128 .f32)
    (W : FVec F S128x272 .f32) (b : FVec F S128 .f32) (h : fn (F := F) z rbf ii jj emb W b = fun _ => 1#1) :
    (Host.reduce IntOp.andi (cmpf .olt (Host.absf rbf) (broadcastInDim S320000x16 ![] bcast_S_S320000x16 (constant S_ .f32 0x7F800000#32)))
        (constantI S_ 1 1#1) reducesTo_S320000x16_S_d0_1 h_S_ ix0 = 1#1)
    ∧ (Host.reduce IntOp.andi (cmpf .olt (Host.absf emb) (broadcastInDim S93x128 ![] bcast_S_S93x128 (constant S_ .f32 0x7F800000#32)))
        (constantI S_ 1 1#1) reducesTo_S93x128_S_d0_1 h_S_ ix0 = 1#1)
    ∧ (Host.reduce IntOp.andi (cmpf .olt (Host.absf W) (broadcastInDim S128x272 ![] bcast_S_S128x272 (constant S_ .f32 0x7F800000#32)))
        (constantI S_ 1 1#1) reducesTo_S128x272_S_d0_1 h_S_ ix0 = 1#1)
    ∧ (Host.reduce IntOp.andi (cmpf .olt (Host.absf b) (broadcastInDim S128 ![] bcast_S_S128 (constant S_ .f32 0x7F800000#32)))
        (constantI S_ 1 1#1) reducesTo_S128_S_d0 h_S_ ix0 = 1#1)
    ∧ (Host.reduce IntOp.andi (andi (cmpi .sge z (broadcastInDim S10000 ![] bcast_S_S10000 (constantI S_ 32 1#32)))
          (cmpi .sle z (broadcastInDim S10000 ![] bcast_S_S10000 (constantI S_ 32 92#32))))
        (constantI S_ 1 1#1) reducesTo_S10000_S_d0 h_S_ ix0 = 1#1)
    ∧ (Host.reduce IntOp.andi (andi (cmpi .sge ii (broadcastInDim S320000 ![] bcast_S_S320000 (constantI S_ 32 0#32)))
          (cmpi .sle ii (broadcastInDim S320000 ![] bcast_S_S320000 (constantI S_ 32 9999#32))))
        (constantI S_ 1 1#1) reducesTo_S320000_S_d0 h_S_ ix0 = 1#1)
    ∧ (Host.reduce IntOp.andi (andi (cmpi .sge jj (broadcastInDim S320000 ![] bcast_S_S320000 (constantI S_ 32 0#32)))
          (cmpi .sle jj (broadcastInDim S320000 ![] bcast_S_S320000 (constantI S_ 32 9999#32))))
        (constantI S_ 1 1#1) reducesTo_S320000_S_d0 h_S_ ix0 = 1#1) := by
  have h0 : fn (F := F) z rbf ii jj emb W b ix0 = 1#1 := congrFun h ix0
  obtain ⟨h32, hj⟩ := (andi_apply_eq_one _ _ ix0).1 h0
  obtain ⟨h25, hi⟩ := (andi_apply_eq_one _ _ ix0).1 h32
  obtain ⟨h18, hz⟩ := (andi_apply_eq_one _ _ ix0).1 h25
  obtain ⟨h13, hb⟩ := (andi_apply_eq_one _ _ ix0).1 h18
  obtain ⟨h8, hW⟩ := (andi_apply_eq_one _ _ ix0).1 h13
  obtain ⟨hr, he⟩ := (andi_apply_eq_one _ _ ix0).1 h8
  exact ⟨hr, he, hW, hb, hz, hi, hj⟩

section Ranges
variable (z : IVec S10000 32) (rbf : FVec F S320000x16 .f32) (ii jj : IVec S320000 32) (emb : FVec F S93x128 .f32)
  (W : FVec F S128x272 .f32) (b : FVec F S128 .f32) (h : fn (F := F) z rbf ii jj emb W b = fun _ => 1#1)
include h

/-- Every atomic number lies in [1, 92]. -/
theorem z_range (n : S10000.Idx) : 1 ≤ (z n).toInt ∧ (z n).toInt ≤ 92 :=
  range_of_entry bcast_S_S10000 z 1#32 92#32 n
    (Host.reduce_andi_all _ _ _ _ ix0 (tests z rbf ii jj emb W b h).2.2.2.2.1 n)

/-- Every first endpoint lies in [0, 9999]. -/
theorem ii_range (e : S320000.Idx) : 0 ≤ (ii e).toInt ∧ (ii e).toInt ≤ 9999 :=
  range_of_entry bcast_S_S320000 ii 0#32 9999#32 e
    (Host.reduce_andi_all _ _ _ _ ix0 (tests z rbf ii jj emb W b h).2.2.2.2.2.1 e)

/-- Every second endpoint lies in [0, 9999]. -/
theorem jj_range (e : S320000.Idx) : 0 ≤ (jj e).toInt ∧ (jj e).toInt ≤ 9999 :=
  range_of_entry bcast_S_S320000 jj 0#32 9999#32 e
    (Host.reduce_andi_all _ _ _ _ ix0 (tests z rbf ii jj emb W b h).2.2.2.2.2.2 e)

end Ranges

section Reals
variable (z : IVec S10000 32) (rbf : FVec Ideal S320000x16 .f32) (ii jj : IVec S320000 32) (emb : FVec Ideal S93x128 .f32)
  (W : FVec Ideal S128x272 .f32) (b : FVec Ideal S128 .f32) (h : fn (F := Ideal) z rbf ii jj emb W b = fun _ => 1#1)
include h

/-- At the ideal instance every radial feature is a real number. -/
theorem rbf_real (i : S320000x16.Idx) : ∃ r : ℝ, rbf i = (r : EReal) :=
  real_of_all bcast_S_S320000x16 rbf _ reducesTo_S320000x16_S_d0_1 h_S_ ix0 (tests z rbf ii jj emb W b h).1 i

/-- At the ideal instance every table entry is a real number. -/
theorem emb_real (i : S93x128.Idx) : ∃ r : ℝ, emb i = (r : EReal) :=
  real_of_all bcast_S_S93x128 emb _ reducesTo_S93x128_S_d0_1 h_S_ ix0 (tests z rbf ii jj emb W b h).2.1 i

/-- At the ideal instance every weight is a real number. -/
theorem W_real (i : S128x272.Idx) : ∃ r : ℝ, W i = (r : EReal) :=
  real_of_all bcast_S_S128x272 W _ reducesTo_S128x272_S_d0_1 h_S_ ix0 (tests z rbf ii jj emb W b h).2.2.1 i

/-- At the ideal instance every bias is a real number. -/
theorem b_real (i : S128.Idx) : ∃ r : ℝ, b i = (r : EReal) :=
  real_of_all bcast_S_S128 b _ reducesTo_S128_S_d0 h_S_ ix0 (tests z rbf ii jj emb W b h).2.2.2.1 i

end Reals

end Cert.Proof.PreFacts

end
-- ==== Proof.PreIdx.lean ====
/-
  From the precondition to what the kernel's frames ask of the launch memory: an index word whose signed value lies in
  [0, 9999] is, read as a natural, below 10000, so it names a row of the node tables.
-/
import proofs.«206539_g3985729650836_cont_8to1_b_247_13_alg».proof.Proof.Pay
import proofs.«206539_g3985729650836_cont_8to1_b_247_13_alg».proof.Proof.PreFacts
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

omit [FloatOps F] in
theorem toNat_lt_of_range (v : BitVec 32) (h0 : 0 ≤ v.toInt) (h1 : v.toInt ≤ 9999) : v.toNat < 10000 := by
  have e := BitVec.toInt_eq_toNat_cond v
  have hlt := v.isLt
  by_cases hc : 2 * v.toNat < 2 ^ 32
  · rw [if_pos hc] at e; omega
  · rw [if_neg hc] at e; omega

/-- The precondition, at every device, makes every index word a row of the node tables. -/
theorem idxOK_of_pre [hP : Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : IdxOK m := by
  intro d
  refine ⟨fun e => ?_, fun e => ?_⟩
  · have r := Cert.Proof.PreFacts.ii_range _ _ _ _ _ _ _ (h d) e
    exact toNat_lt_of_range _ r.1 r.2
  · have r := Cert.Proof.PreFacts.jj_range _ _ _ _ _ _ _ (h d) e
    exact toNat_lt_of_range _ r.1 r.2

end Cert.Proof.KI

end
-- ==== Proof.Claims.lean ====
/-
  The kernel program's claims from its run, with the four dense stages in place and only the three gather-and-add calls'
  worker obligations left as hypotheses: the frame under the precondition, and the run with both result arrays named at
  the last valuation.
-/
import proofs.«206539_g3985729650836_cont_8to1_b_247_13_alg».proof.Proof.Frames
import proofs.«206539_g3985729650836_cont_8to1_b_247_13_alg».proof.Proof.RegionGlue
import proofs.«206539_g3985729650836_cont_8to1_b_247_13_alg».proof.Proof.PreIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-- The three calls' worker obligations, for whatever the node tables hold. -/
def Tiles : Prop :=
  ∀ (GI : (d : Dev nD) → Buf (Elt F) (giLoc d)) (GJ : (d : Dev nD) → Buf (Elt F) (gjLoc d)), IdxOK m →
    (K (F := F)).TileObl (D (F := F)) 𝒱 (P m GI GJ) v₀ 0 ∧ (K (F := F)).TileObl (D (F := F)) 𝒱 (P m GI GJ) v₀ 1
      ∧ (K (F := F)).TileObl (D (F := F)) 𝒱 (P m GI GJ) v₀ 2

theorem frame_of_tiles [∀ e, Nonempty (Elt F e)] [hP : Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1)
    (ht : Tiles m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have h := ht (GIv m (Rg0 (F := F))) (GJv m (Rg0 (F := F))) (idxOK_of_pre m hpre)
  run_frame m ρ h.1 h.2.1 h.2.2 regionFrame0 regionFrame1 regionFrame2 regionFrame3
    (regionStep0 m _ _ 0) (regionStep1 m _ _ 3) (regionStep2 m _ _ 3) (regionStep3 m _ _ 3)

/-- The run with the two result arrays named: each at the last valuation, beside the arguments unchanged. -/
theorem run_values [∀ e, Nonempty (Elt F e)] [hP : Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1)
    (ht : Tiles m) :
    θ_run (Cert.KernelIdeal.defs (F := F)) (Cert.KernelIdeal.threads (F := F)) ⟨m, fun _ => 0, ρ⟩ (fun r => ∀ c : Dev nD,
      r.2.mem ((c.tc : Thread nD τ).loc main_v2_0) = W15 m (Rg0 (F := F)) (Rg1 (F := F)) (Rg2 (F := F)) (Rg3 (F := F)) c h'
      ∧ r.2.mem ((c.tc : Thread nD τ).loc main_v10) = W15 m (Rg0 (F := F)) (Rg1 (F := F)) (Rg2 (F := F)) (Rg3 (F := F)) c out'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have h := ht (GIv m (Rg0 (F := F))) (GJv m (Rg0 (F := F))) (idxOK_of_pre m hpre)
  (θ_run (Cert.KernelIdeal.defs (F := F)) _ _).mono (fun r hq c =>
    ⟨hq c h' (mem_uc main_v2_0), hq c out' (mem_uc main_v10),
     (hq c z' (mem_uc main_arg0)).trans (W15_arg m regionFrame0 regionFrame1 regionFrame2 regionFrame3 c (by decide)),
     (hq c rbf' (mem_uc main_arg1)).trans (W15_arg m regionFrame0 regionFrame1 regionFrame2 regionFrame3 c (by decide)),
     (hq c ii' (mem_uc main_arg2)).trans (W15_arg m regionFrame0 regionFrame1 regionFrame2 regionFrame3 c (by decide)),
     (hq c jj' (mem_uc main_arg3)).trans (W15_arg m regionFrame0 regionFrame1 regionFrame2 regionFrame3 c (by decide)),
     (hq c emb' (mem_uc main_arg4)).trans (W15_arg m regionFrame0 regionFrame1 regionFrame2 regionFrame3 c (by decide)),
     (hq c w' (mem_uc main_arg5)).trans (W15_arg m regionFrame0 regionFrame1 regionFrame2 regionFrame3 c (by decide)),
     (hq c b' (mem_uc main_arg6)).trans (W15_arg m regionFrame0 regionFrame1 regionFrame2 regionFrame3 c (by decide))⟩)
    (run m ρ h.1 h.2.1 h.2.2 regionFrame0 (regionStep0 m _ _ 0) (regionStep1 m _ _ 3) (regionStep2 m _ _ 3) (regionStep3 m _ _ 3))

end Cert.Proof.KI

end
-- ==== Proof.KSetup.lean ====
/-
  The kernel program as the launch theorem of a SparseCore program sees it, stated once for both float instances:
  the three vector-subcore calls' configuration over the four TensorCore pipelines' label set, the body table below
  it, the variants, the configuration's stated facts, and the ghost state — the handshakes' rounds, the pipelines'
  staging cells' rounds, and the transfers' counters — with the embeddings the rules are applied through.
-/
import proofs.«206539_g3985729650836_cont_8to1_b_247_13_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«206539_g3985729650836_cont_8to1_b_247_13_alg».proof.Proof.Gen.Kernel
import proofs.«206539_g3985729650836_cont_8to1_b_247_13_alg».proof.Proof.Gen.Kernel.Skeleton
import proofs.«206539_g3985729650836_cont_8to1_b_247_13_alg».proof.Proof.Gen.Kernel.Launch
import proofs.«206539_g3985729650836_cont_8to1_b_247_13_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq (q : Fin 3) : (K (F := F)).nCore q = 2 := by fin_cases q <;> rfl
theorem nSub_eq (q : Fin 3) : (K (F := F)).nSub q = 16 := by fin_cases q <;> rfl

/-! ## The ghost state: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 3) (Elt F) ℕ UU ℕ

def EH : Emb UH (MT nD τ sig (HIx 3) (Elt F) ℕ UU ℕ) :=
  (Emb.inl : Emb UH UU).trans (uEmb (nD := nD) (sig := sig) (Ix := HIx 3) (Val := Elt F) (Name := ℕ) (U := UU) (Lvl := ℕ)).toEmb
def EP : Emb UP (MT nD τ sig (HIx 3) (Elt F) ℕ UU ℕ) :=
  ((Emb.inl : Emb UP (UP × Counters)).trans (Emb.inr : Emb (UP × Counters) UU)).trans
    (uEmb (nD := nD) (sig := sig) (Ix := HIx 3) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

example : CountersIn UU := inferInstance

/-! ## The arrays, as locations of device `d` -/

abbrev zLoc (d : Dev nD) : Loc nD τ sig := (SparseCore.T d).loc main_arg0
abbrev rbfLoc (d : Dev nD) : Loc nD τ sig := (SparseCore.T d).loc main_arg1
abbrev iiLoc (d : Dev nD) : Loc nD τ sig := (SparseCore.T d).loc main_arg2
abbrev jjLoc (d : Dev nD) : Loc nD τ sig := (SparseCore.T d).loc main_arg3
abbrev embLoc (d : Dev nD) : Loc nD τ sig := (SparseCore.T d).loc main_arg4
abbrev wLoc (d : Dev nD) : Loc nD τ sig := (SparseCore.T d).loc main_arg5
abbrev bLoc (d : Dev nD) : Loc nD τ sig := (SparseCore.T d).loc main_arg6
abbrev hLoc (d : Dev nD) : Loc nD τ sig := (SparseCore.T d).loc main_v2_0
abbrev giLoc (d : Dev nD) : Loc nD τ sig := (SparseCore.T d).loc main_v2_1
abbrev gjLoc (d : Dev nD) : Loc nD τ sig := (SparseCore.T d).loc main_v2_2
abbrev s1Loc (d : Dev nD) : Loc nD τ sig := (SparseCore.T d).loc main_v5
abbrev s2Loc (d : Dev nD) : Loc nD τ sig := (SparseCore.T d).loc main_v6
abbrev s3Loc (d : Dev nD) : Loc nD τ sig := (SparseCore.T d).loc main_v7
abbrev outLoc (d : Dev nD) : Loc nD τ sig := (SparseCore.T d).loc main_v10

end Cert.Proof.KB

end
-- ==== Proof.KScValue.lean ====
/-
  What a gather-and-add call leaves in its output array, as one whole-array function of the two node tables and the
  two index arrays, for any float instance: row `r` of the call's output is row `idx_i[ebase + r]` of the first table
  plus row `idx_j[ebase + r]` of the second, entry by entry. Index words are read as naturals and reduced into the
  tables' extent; under the precondition they are in range and the reduction changes nothing.
-/
import proofs.«206539_g3985729650836_cont_8to1_b_247_13_alg».proof.Proof.KSetup
import Idealize.ShloMosaic.Lib.ValueIdx

noncomputable section

namespace Cert.Proof.KB

open Cert.Kernel
open Idealize.ShloMosaic Idealize.ShloMosaic.ValueIdx

variable {F : FTy → Type} [FloatOps F]

/-- An index word as a row of an `N`-row table. -/
def rowOf (N : ℕ) [NeZero N] (v : BitVec 32) : Fin N := Fin.ofNat N v.toNat

/-- An edge position `ebase + r` as an index of the edge arrays. -/
def edgeIx (ebase r : ℕ) : S320000.Idx := ix1 (Fin.ofNat 320000 (ebase + r))

/-- The call's output: `R` rows starting at edge `ebase`. -/
def scOut (R ebase : ℕ) (gi gj : Vec F S10000x128 .f32) (ii jj : Vec F S320000 .i32) : Vec F ⟨2, ![R, 128]⟩ .f32 :=
  fun y => FloatOps.addf (gi (ix2 (rowOf 10000 (ii (edgeIx ebase (y 0).val))) (y 1)))
    (gj (ix2 (rowOf 10000 (jj (edgeIx ebase (y 0).val))) (y 1)))

/-- Rows per worker and first edge of each of the three calls. -/
def perW : Fin 3 → ℕ := ![3400, 3400, 3200]
def eBase : Fin 3 → ℕ := ![0, 108800, 217600]

end Cert.Proof.KB

end
-- ==== Proof.KPay.lean ====
/-
  What the handshakes of the three gather-and-add calls carry. The TensorCore hands each SparseCore a read share of the
  two node tables and of the two index arrays, and the rows of the call's output array its sixteen workers write; each
  worker (vector subcore `s` of SparseCore `c`, worker number `2 s + c`) is handed a share of the four read arrays and its
  own `perW` rows of the output, and hands back the same with its rows at the call's value.
-/
import proofs.«206539_g3985729650836_cont_8to1_b_247_13_alg».proof.Proof.KScValue

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 3) (Elt F) ℕ UU ℕ

variable (m : (ℓ : Loc nD τ sig) → Buf (Elt F) ℓ)

/-- The output array of call `q`, as a location of device `d`. -/
abbrev sLoc (q : Fin 3) (d : Dev nD) : Loc nD τ sig :=
  match q with | 0 => s1Loc d | 1 => s2Loc d | 2 => s3Loc d

/-- The share of a read array SparseCore `c` of the grid is handed, and the share worker `i` of it is. -/
abbrev coreShare (c : Fin 2) : PosShare TreeShare := shareTok fullShare 2 c
abbrev tileShare (c : Fin 2) (i : Fin 16) : PosShare TreeShare := shareTok (coreShare c) 16 i

/-- Worker number of vector subcore `i` of SparseCore `c`. -/
def wid (c : Fin 2) (i : Fin 16) : ℕ := i.val * 2 + c.val

variable [FloatOps F]

/-- The rows of a call's output array worker `(c, i)` writes: rows `[wid · perW, (wid + 1) · perW)`. -/
def rows1 (c : Fin 2) (i : Fin 16) (d : Dev nD) : Finset (Idx (s1Loc d)) := Finset.univ.filter fun y => (y 0).val / 3400 = wid c i
def rows2 (c : Fin 2) (i : Fin 16) (d : Dev nD) : Finset (Idx (s2Loc d)) := Finset.univ.filter fun y => (y 0).val / 3400 = wid c i
def rows3 (c : Fin 2) (i : Fin 16) (d : Dev nD) : Finset (Idx (s3Loc d)) := Finset.univ.filter fun y => (y 0).val / 3200 = wid c i
/-- The rows of a call's output array the workers of SparseCore `c` write. -/
def crows1 (c : Fin 2) (d : Dev nD) : Finset (Idx (s1Loc d)) := Finset.univ.filter fun y => ((y 0).val / 3400) % 2 = c.val
def crows2 (c : Fin 2) (d : Dev nD) : Finset (Idx (s2Loc d)) := Finset.univ.filter fun y => ((y 0).val / 3400) % 2 = c.val
def crows3 (c : Fin 2) (d : Dev nD) : Finset (Idx (s3Loc d)) := Finset.univ.filter fun y => ((y 0).val / 3200) % 2 = c.val

variable (GI : (d : Dev nD) → Buf (Elt F) (giLoc d)) (GJ : (d : Dev nD) → Buf (Elt F) (gjLoc d))

/-- The four read arrays at share `q`: the two node tables at their contents, the two index arrays at the launch's. -/
def reads (d : Dev nD) (q : PosShare TreeShare) : sProp 𝕄 :=
  iprop((giLoc d ↦{q} GI d) ∗ (gjLoc d ↦{q} GJ d) ∗ (iiLoc d ↦{q} m (iiLoc d)) ∗ (jjLoc d ↦{q} m (jjLoc d)))

/-- The three calls' values, as contents of their output arrays. -/
def S1v (d : Dev nD) : Buf (Elt F) (s1Loc d) := scOut 108800 0 (GI d) (GJ d) (m (iiLoc d)) (m (jjLoc d))
def S2v (d : Dev nD) : Buf (Elt F) (s2Loc d) := scOut 108800 108800 (GI d) (GJ d) (m (iiLoc d)) (m (jjLoc d))
def S3v (d : Dev nD) : Buf (Elt F) (s3Loc d) := scOut 102400 217600 (GI d) (GJ d) (m (iiLoc d)) (m (jjLoc d))

/-- What the frames ask of the launch memory: every index word names a row of the node tables. -/
def IdxOK : Prop := ∀ (d : Dev nD), (∀ e, (m (iiLoc d) e).toNat < 10000) ∧ (∀ e, (m (jjLoc d) e).toNat < 10000)

theorem nCore_cast (q : Fin 3) : (K (F := F)).nCore q = 2 := nCore_eq q
theorem nSub_cast (q : Fin 3) : (K (F := F)).nSub q = 16 := nSub_eq q

/-- What the handshakes carry (Lib/SparseCore/Cells.lean `Pay`). -/
def P : (K (F := F)).Pay (nD := nD) (Val := Elt F) (Name := ℕ) (U := UU) where
  st := fun q d c => match q with
    | 0 => iprop(reads m GI GJ d (coreShare (Fin.cast (nCore_cast 0) c)) ∗ ∃ f, s1Loc d ↦[crows1 (Fin.cast (nCore_cast 0) c) d]{fullShare} f)
    | 1 => iprop(reads m GI GJ d (coreShare (Fin.cast (nCore_cast 1) c)) ∗ ∃ f, s2Loc d ↦[crows2 (Fin.cast (nCore_cast 1) c) d]{fullShare} f)
    | 2 => iprop(reads m GI GJ d (coreShare (Fin.cast (nCore_cast 2) c)) ∗ ∃ f, s3Loc d ↦[crows3 (Fin.cast (nCore_cast 2) c) d]{fullShare} f)
  dn := fun q d c => match q with
    | 0 => iprop(reads m GI GJ d (coreShare (Fin.cast (nCore_cast 0) c)) ∗ s1Loc d ↦[crows1 (Fin.cast (nCore_cast 0) c) d]{fullShare} S1v m GI GJ d)
    | 1 => iprop(reads m GI GJ d (coreShare (Fin.cast (nCore_cast 1) c)) ∗ s2Loc d ↦[crows2 (Fin.cast (nCore_cast 1) c) d]{fullShare} S2v m GI GJ d)
    | 2 => iprop(reads m GI GJ d (coreShare (Fin.cast (nCore_cast 2) c)) ∗ s3Loc d ↦[crows3 (Fin.cast (nCore_cast 2) c) d]{fullShare} S3v m GI GJ d)
  go := fun q d c i => match q with
    | 0 => iprop(reads m GI GJ d (tileShare (Fin.cast (nCore_cast 0) c) (Fin.cast (nSub_cast 0) i))
        ∗ ∃ f, s1Loc d ↦[rows1 (Fin.cast (nCore_cast 0) c) (Fin.cast (nSub_cast 0) i) d]{fullShare} f)
    | 1 => iprop(reads m GI GJ d (tileShare (Fin.cast (nCore_cast 1) c) (Fin.cast (nSub_cast 1) i))
        ∗ ∃ f, s2Loc d ↦[rows2 (Fin.cast (nCore_cast 1) c) (Fin.cast (nSub_cast 1) i) d]{fullShare} f)
    | 2 => iprop(reads m GI GJ d (tileShare (Fin.cast (nCore_cast 2) c) (Fin.cast (nSub_cast 2) i))
        ∗ ∃ f, s3Loc d ↦[rows3 (Fin.cast (nCore_cast 2) c) (Fin.cast (nSub_cast 2) i) d]{fullShare} f)
  td := fun q d c i => match q with
    | 0 => iprop(reads m GI GJ d (tileShare (Fin.cast (nCore_cast 0) c) (Fin.cast (nSub_cast 0) i))
        ∗ s1Loc d ↦[rows1 (Fin.cast (nCore_cast 0) c) (Fin.cast (nSub_cast 0) i) d]{fullShare} S1v m GI GJ d)
    | 1 => iprop(reads m GI GJ d (tileShare (Fin.cast (nCore_cast 1) c) (Fin.cast (nSub_cast 1) i))
        ∗ s2Loc d ↦[rows2 (Fin.cast (nCore_cast 1) c) (Fin.cast (nSub_cast 1) i) d]{fullShare} S2v m GI GJ d)
    | 2 => iprop(reads m GI GJ d (tileShare (Fin.cast (nCore_cast 2) c) (Fin.cast (nSub_cast 2) i))
        ∗ s3Loc d ↦[rows3 (Fin.cast (nCore_cast 2) c) (Fin.cast (nSub_cast 2) i) d]{fullShare} S3v m GI GJ d)
  x := fun _ _ => iprop(emp)

instance P_storable : (P (F := F) m GI GJ).IsStorable where
  st q d c := by unfold P reads; match q with | 0 => infer_instance | 1 => infer_instance | 2 => infer_instance
  dn q d c := by unfold P reads; match q with | 0 => infer_instance | 1 => infer_instance | 2 => infer_instance
  go q d c i := by unfold P reads; match q with | 0 => infer_instance | 1 => infer_instance | 2 => infer_instance
  td q d c i := by unfold P reads; match q with | 0 => infer_instance | 1 => infer_instance | 2 => infer_instance

end Cert.Proof.KB

end
-- ==== Proof.KVecSplit.lean ====
/-
  How a SparseCore's operands of a gather-and-add call split among its sixteen workers and how their results gather:
  the share of the four read arrays halves sixteen times, one token per worker, the remainder kept across the call; the
  rows of the output the SparseCore's workers write are the disjoint union of each worker's rows, so the rows at the
  call's value, worker by worker, are the SparseCore's rows at that value.
-/
import proofs.«206539_g3985729650836_cont_8to1_b_247_13_alg».proof.Proof.KPay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-! ## The read arrays' share, sixteen ways -/

theorem reads_toks (d : Dev nD) (q : PosShare TreeShare) (n : ℕ) :
    (reads m GI GJ d q : sProp 𝕄)
      ⊣⊢ iprop(reads m GI GJ d (shareDrop q n) ∗ bigSep Finset.univ fun i : Fin n => reads m GI GJ d (shareTok q n i)) := by
  unfold reads
  rw [bigSep_sep', bigSep_sep', bigSep_sep']
  constructor
  · iintro ⟨H1, H2, H3, H4⟩
    ihave H1' := (pointsTo_toks_split (ℓ := giLoc d) (S := Finset.univ) (f := GI d) q n) $$ H1
    ihave H2' := (pointsTo_toks_split (ℓ := gjLoc d) (S := Finset.univ) (f := GJ d) q n) $$ H2
    ihave H3' := (pointsTo_toks_split (ℓ := iiLoc d) (S := Finset.univ) (f := m (iiLoc d)) q n) $$ H3
    ihave H4' := (pointsTo_toks_split (ℓ := jjLoc d) (S := Finset.univ) (f := m (jjLoc d)) q n) $$ H4
    icases H1' with ⟨A1, B1⟩
    icases H2' with ⟨A2, B2⟩
    icases H3' with ⟨A3, B3⟩
    icases H4' with ⟨A4, B4⟩
    isplitl [A1 A2 A3 A4]
    · isplitl [A1]; · iexact A1
      isplitl [A2]; · iexact A2
      isplitl [A3]; · iexact A3
      iexact A4
    · isplitl [B1]; · iexact B1
      isplitl [B2]; · iexact B2
      isplitl [B3]; · iexact B3
      iexact B4
  · iintro ⟨⟨A1, A2, A3, A4⟩, B1, B2, B3, B4⟩
    isplitl [A1 B1]
    · iapply (pointsTo_toks_join (ℓ := giLoc d) (S := Finset.univ) (f := GI d) q n); isplitl [A1] <;> iassumption
    isplitl [A2 B2]
    · iapply (pointsTo_toks_join (ℓ := gjLoc d) (S := Finset.univ) (f := GJ d) q n); isplitl [A2] <;> iassumption
    isplitl [A3 B3]
    · iapply (pointsTo_toks_join (ℓ := iiLoc d) (S := Finset.univ) (f := m (iiLoc d)) q n); isplitl [A3] <;> iassumption
    · iapply (pointsTo_toks_join (ℓ := jjLoc d) (S := Finset.univ) (f := m (jjLoc d)) q n); isplitl [A4] <;> iassumption

/-! ## One SparseCore's split, for any output array and any division of its rows -/

theorem split_core {n : ℕ} {ℓ : Loc nD τ sig} (R : Fin n → Finset (Idx ℓ)) (C : Finset (Idx ℓ))
    (hd : ∀ i ∈ (Finset.univ : Finset (Fin n)), ∀ j ∈ (Finset.univ : Finset (Fin n)), i ≠ j → Disjoint (R i) (R j))
    (hc : (Finset.univ : Finset (Fin n)).biUnion R = C) (d : Dev nD) (q : PosShare TreeShare) (v : Buf (Elt F) ℓ) :
    iprop(reads m GI GJ d q ∗ ∃ f, ℓ ↦[C]{fullShare} f) ⊢ |={Set.univ}=> iprop(
      (bigSep Finset.univ fun i : Fin n => iprop(reads m GI GJ d (shareTok q n i) ∗ ∃ f, ℓ ↦[R i]{fullShare} f))
      ∗ ((bigSep Finset.univ fun i : Fin n => iprop(reads m GI GJ d (shareTok q n i) ∗ ℓ ↦[R i]{fullShare} v))
          -∗ iprop(reads m GI GJ d q ∗ ℓ ↦[C]{fullShare} v))) := by
  subst hc
  rw [bigSep_sep', bigSep_sep', pointsTo_biUnion Finset.univ R hd (f := v)]
  iintro ⟨Hr, %f, Hf⟩
  ihave Hr' := (reads_toks m GI GJ d q n).1 $$ Hr
  icases Hr' with ⟨Hdrop, Htoks⟩
  ihave Hf' := (Entails.of_eq (pointsTo_biUnion Finset.univ R hd (f := f) (q := fullShare))) $$ Hf
  have hmono : (bigSep Finset.univ fun i : Fin n => (ℓ ↦[R i]{fullShare} f : sProp 𝕄))
      ⊢ bigSep Finset.univ fun i : Fin n => iprop(∃ f, ℓ ↦[R i]{fullShare} f) :=
    bigSep_mono fun i _ => exists_intro (Φ := fun f => (ℓ ↦[R i]{fullShare} f : sProp 𝕄)) f
  imodintro
  isplitl [Htoks Hf']
  · isplitl [Htoks]; · iexact Htoks
    iapply hmono; iexact Hf'
  · iintro ⟨Htoks, Hv⟩
    isplitl [Hdrop Htoks]
    · iapply (reads_toks m GI GJ d q n).2; isplitl [Hdrop] <;> iassumption
    · iexact Hv

/-! ## The rows -/

theorem rows1_disjoint (c : Fin 2) (d : Dev nD) :
    ∀ i ∈ (Finset.univ : Finset (Fin 16)), ∀ j ∈ (Finset.univ : Finset (Fin 16)), i ≠ j → Disjoint (rows1 c i d) (rows1 c j d) := by
  intro i _ j _ hij
  refine Finset.disjoint_left.mpr fun y h1 h2 => hij (Fin.ext ?_)
  have e1 : (y 0).val / 3400 = i.val * 2 + c.val := (Finset.mem_filter.mp h1).2
  have e2 : (y 0).val / 3400 = j.val * 2 + c.val := (Finset.mem_filter.mp h2).2
  omega
theorem rows2_disjoint (c : Fin 2) (d : Dev nD) :
    ∀ i ∈ (Finset.univ : Finset (Fin 16)), ∀ j ∈ (Finset.univ : Finset (Fin 16)), i ≠ j → Disjoint (rows2 c i d) (rows2 c j d) := by
  intro i _ j _ hij
  refine Finset.disjoint_left.mpr fun y h1 h2 => hij (Fin.ext ?_)
  have e1 : (y 0).val / 3400 = i.val * 2 + c.val := (Finset.mem_filter.mp h1).2
  have e2 : (y 0).val / 3400 = j.val * 2 + c.val := (Finset.mem_filter.mp h2).2
  omega
theorem rows3_disjoint (c : Fin 2) (d : Dev nD) :
    ∀ i ∈ (Finset.univ : Finset (Fin 16)), ∀ j ∈ (Finset.univ : Finset (Fin 16)), i ≠ j → Disjoint (rows3 c i d) (rows3 c j d) := by
  intro i _ j _ hij
  refine Finset.disjoint_left.mpr fun y h1 h2 => hij (Fin.ext ?_)
  have e1 := (Finset.mem_filter.mp h1).2
  have e2 := (Finset.mem_filter.mp h2).2
  unfold wid at e1 e2
  omega

theorem rows1_cover (c : Fin 2) (d : Dev nD) : (Finset.univ : Finset (Fin 16)).biUnion (fun i => rows1 c i d) = crows1 c d := by
  ext y
  have hy : (y 0).val < 108800 := (y 0).isLt
  have hc2 : c.val < 2 := c.isLt
  constructor
  · intro h
    obtain ⟨i, -, hi⟩ := Finset.mem_biUnion.mp h
    have e : (y 0).val / 3400 = i.val * 2 + c.val := (Finset.mem_filter.mp hi).2
    refine Finset.mem_filter.mpr ⟨Finset.mem_univ _, ?_⟩
    show ((y 0).val / 3400) % 2 = c.val
    omega
  · intro h
    have e : ((y 0).val / 3400) % 2 = c.val := (Finset.mem_filter.mp h).2
    refine Finset.mem_biUnion.mpr ⟨⟨(y 0).val / 3400 / 2, by omega⟩, Finset.mem_univ _, Finset.mem_filter.mpr ⟨Finset.mem_univ _, ?_⟩⟩
    show (y 0).val / 3400 = (y 0).val / 3400 / 2 * 2 + c.val
    omega
theorem rows2_cover (c : Fin 2) (d : Dev nD) : (Finset.univ : Finset (Fin 16)).biUnion (fun i => rows2 c i d) = crows2 c d := by
  ext y
  have hy : (y 0).val < 108800 := (y 0).isLt
  have hc2 : c.val < 2 := c.isLt
  constructor
  · intro h
    obtain ⟨i, -, hi⟩ := Finset.mem_biUnion.mp h
    have e : (y 0).val / 3400 = i.val * 2 + c.val := (Finset.mem_filter.mp hi).2
    refine Finset.mem_filter.mpr ⟨Finset.mem_univ _, ?_⟩
    show ((y 0).val / 3400) % 2 = c.val
    omega
  · intro h
    have e : ((y 0).val / 3400) % 2 = c.val := (Finset.mem_filter.mp h).2
    refine Finset.mem_biUnion.mpr ⟨⟨(y 0).val / 3400 / 2, by omega⟩, Finset.mem_univ _, Finset.mem_filter.mpr ⟨Finset.mem_univ _, ?_⟩⟩
    show (y 0).val / 3400 = (y 0).val / 3400 / 2 * 2 + c.val
    omega
theorem rows3_cover (c : Fin 2) (d : Dev nD) : (Finset.univ : Finset (Fin 16)).biUnion (fun i => rows3 c i d) = crows3 c d := by
  ext y
  have hy : (y 0).val < 102400 := (y 0).isLt
  have hc2 : c.val < 2 := c.isLt
  constructor
  · intro h
    obtain ⟨i, -, hi⟩ := Finset.mem_biUnion.mp h
    have e : (y 0).val / 3200 = i.val * 2 + c.val := (Finset.mem_filter.mp hi).2
    refine Finset.mem_filter.mpr ⟨Finset.mem_univ _, ?_⟩
    show ((y 0).val / 3200) % 2 = c.val
    omega
  · intro h
    have e : ((y 0).val / 3200) % 2 = c.val := (Finset.mem_filter.mp h).2
    refine Finset.mem_biUnion.mpr ⟨⟨(y 0).val / 3200 / 2, by omega⟩, Finset.mem_univ _, Finset.mem_filter.mpr ⟨Finset.mem_univ _, ?_⟩⟩
    show (y 0).val / 3200 = (y 0).val / 3200 / 2 * 2 + c.val
    omega

/-! ## The three calls' splits -/

theorem bigSep_tasks (q : Fin 3) (Φ : Fin 16 → sProp 𝕄) :
    (bigSep Finset.univ fun i : Fin ((K (F := F)).nSub q) => Φ (Fin.cast (nSub_cast q) i)) = bigSep Finset.univ Φ := by
  fin_cases q <;> exact bigSep_congr fun _ _ => congrArg Φ (Fin.ext rfl)

theorem P_st0 (d : Dev nD) (c : Fin ((K (F := F)).nCore 0)) :
    (P m GI GJ).st 0 d c = iprop(reads m GI GJ d (coreShare (Fin.cast (nCore_cast 0) c)) ∗ ∃ f, s1Loc d ↦[crows1 (Fin.cast (nCore_cast 0) c) d]{fullShare} f) := rfl
theorem P_dn0 (d : Dev nD) (c : Fin ((K (F := F)).nCore 0)) :
    (P m GI GJ).dn 0 d c = iprop(reads m GI GJ d (coreShare (Fin.cast (nCore_cast 0) c)) ∗ s1Loc d ↦[crows1 (Fin.cast (nCore_cast 0) c) d]{fullShare} S1v m GI GJ d) := rfl
theorem P_go0 (d : Dev nD) (c : Fin ((K (F := F)).nCore 0)) (i : Fin ((K (F := F)).nSub 0)) :
    (P m GI GJ).go 0 d c i = iprop(reads m GI GJ d (tileShare (Fin.cast (nCore_cast 0) c) (Fin.cast (nSub_cast 0) i))
      ∗ ∃ f, s1Loc d ↦[rows1 (Fin.cast (nCore_cast 0) c) (Fin.cast (nSub_cast 0) i) d]{fullShare} f) := rfl
theorem P_td0 (d : Dev nD) (c : Fin ((K (F := F)).nCore 0)) (i : Fin ((K (F := F)).nSub 0)) :
    (P m GI GJ).td 0 d c i = iprop(reads m GI GJ d (tileShare (Fin.cast (nCore_cast 0) c) (Fin.cast (nSub_cast 0) i))
      ∗ s1Loc d ↦[rows1 (Fin.cast (nCore_cast 0) c) (Fin.cast (nSub_cast 0) i) d]{fullShare} S1v m GI GJ d) := rfl

theorem vecSplit0 : (K (F := F)).VecSplit' (P m GI GJ) 0 := by
  intro d c
  simp only [P_st0, P_dn0, P_go0, P_td0]
  rw [bigSep_tasks (F := F) 0 (fun i => iprop(reads m GI GJ d (tileShare (Fin.cast (nCore_cast 0) c) i) ∗ ∃ f, s1Loc d ↦[rows1 (Fin.cast (nCore_cast 0) c) i d]{fullShare} f)),
    bigSep_tasks (F := F) 0 (fun i => iprop(reads m GI GJ d (tileShare (Fin.cast (nCore_cast 0) c) i) ∗ s1Loc d ↦[rows1 (Fin.cast (nCore_cast 0) c) i d]{fullShare} S1v m GI GJ d))]
  exact split_core m GI GJ (fun i => rows1 (Fin.cast (nCore_cast 0) c) i d) _ (rows1_disjoint _ d) (rows1_cover _ d) d _ _

theorem P_st1 (d : Dev nD) (c : Fin ((K (F := F)).nCore 1)) :
    (P m GI GJ).st 1 d c = iprop(reads m GI GJ d (coreShare (Fin.cast (nCore_cast 1) c)) ∗ ∃ f, s2Loc d ↦[crows2 (Fin.cast (nCore_cast 1) c) d]{fullShare} f) := rfl
theorem P_dn1 (d : Dev nD) (c : Fin ((K (F := F)).nCore 1)) :
    (P m GI GJ).dn 1 d c = iprop(reads m GI GJ d (coreShare (Fin.cast (nCore_cast 1) c)) ∗ s2Loc d ↦[crows2 (Fin.cast (nCore_cast 1) c) d]{fullShare} S2v m GI GJ d) := rfl
theorem P_go1 (d : Dev nD) (c : Fin ((K (F := F)).nCore 1)) (i : Fin ((K (F := F)).nSub 1)) :
    (P m GI GJ).go 1 d c i = iprop(reads m GI GJ d (tileShare (Fin.cast (nCore_cast 1) c) (Fin.cast (nSub_cast 1) i))
      ∗ ∃ f, s2Loc d ↦[rows2 (Fin.cast (nCore_cast 1) c) (Fin.cast (nSub_cast 1) i) d]{fullShare} f) := rfl
theorem P_td1 (d : Dev nD) (c : Fin ((K (F := F)).nCore 1)) (i : Fin ((K (F := F)).nSub 1)) :
    (P m GI GJ).td 1 d c i = iprop(reads m GI GJ d (tileShare (Fin.cast (nCore_cast 1) c) (Fin.cast (nSub_cast 1) i))
      ∗ s2Loc d ↦[rows2 (Fin.cast (nCore_cast 1) c) (Fin.cast (nSub_cast 1) i) d]{fullShare} S2v m GI GJ d) := rfl

theorem vecSplit1 : (K (F := F)).VecSplit' (P m GI GJ) 1 := by
  intro d c
  simp only [P_st1, P_dn1, P_go1, P_td1]
  rw [bigSep_tasks (F := F) 1 (fun i => iprop(reads m GI GJ d (tileShare (Fin.cast (nCore_cast 1) c) i) ∗ ∃ f, s2Loc d ↦[rows2 (Fin.cast (nCore_cast 1) c) i d]{fullShare} f)),
    bigSep_tasks (F := F) 1 (fun i => iprop(reads m GI GJ d (tileShare (Fin.cast (nCore_cast 1) c) i) ∗ s2Loc d ↦[rows2 (Fin.cast (nCore_cast 1) c) i d]{fullShare} S2v m GI GJ d))]
  exact split_core m GI GJ (fun i => rows2 (Fin.cast (nCore_cast 1) c) i d) _ (rows2_disjoint _ d) (rows2_cover _ d) d _ _

theorem P_st2 (d : Dev nD) (c : Fin ((K (F := F)).nCore 2)) :
    (P m GI GJ).st 2 d c = iprop(reads m GI GJ d (coreShare (Fin.cast (nCore_cast 2) c)) ∗ ∃ f, s3Loc d ↦[crows3 (Fin.cast (nCore_cast 2) c) d]{fullShare} f) := rfl
theorem P_dn2 (d : Dev nD) (c : Fin ((K (F := F)).nCore 2)) :
    (P m GI GJ).dn 2 d c = iprop(reads m GI GJ d (coreShare (Fin.cast (nCore_cast 2) c)) ∗ s3Loc d ↦[crows3 (Fin.cast (nCore_cast 2) c) d]{fullShare} S3v m GI GJ d) := rfl
theorem P_go2 (d : Dev nD) (c : Fin ((K (F := F)).nCore 2)) (i : Fin ((K (F := F)).nSub 2)) :
    (P m GI GJ).go 2 d c i = iprop(reads m GI GJ d (tileShare (Fin.cast (nCore_cast 2) c) (Fin.cast (nSub_cast 2) i))
      ∗ ∃ f, s3Loc d ↦[rows3 (Fin.cast (nCore_cast 2) c) (Fin.cast (nSub_cast 2) i) d]{fullShare} f) := rfl
theorem P_td2 (d : Dev nD) (c : Fin ((K (F := F)).nCore 2)) (i : Fin ((K (F := F)).nSub 2)) :
    (P m GI GJ).td 2 d c i = iprop(reads m GI GJ d (tileShare (Fin.cast (nCore_cast 2) c) (Fin.cast (nSub_cast 2) i))
      ∗ s3Loc d ↦[rows3 (Fin.cast (nCore_cast 2) c) (Fin.cast (nSub_cast 2) i) d]{fullShare} S3v m GI GJ d) := rfl

theorem vecSplit2 : (K (F := F)).VecSplit' (P m GI GJ) 2 := by
  intro d c
  simp only [P_st2, P_dn2, P_go2, P_td2]
  rw [bigSep_tasks (F := F) 2 (fun i => iprop(reads m GI GJ d (tileShare (Fin.cast (nCore_cast 2) c) i) ∗ ∃ f, s3Loc d ↦[rows3 (Fin.cast (nCore_cast 2) c) i d]{fullShare} f)),
    bigSep_tasks (F := F) 2 (fun i => iprop(reads m GI GJ d (tileShare (Fin.cast (nCore_cast 2) c) i) ∗ s3Loc d ↦[rows3 (Fin.cast (nCore_cast 2) c) i d]{fullShare} S3v m GI GJ d))]
  exact split_core m GI GJ (fun i => rows3 (Fin.cast (nCore_cast 2) c) i d) _ (rows3_disjoint _ d) (rows3_cover _ d) d _ _

/-! ## The two SparseCores' rows, and what a call takes and brings back -/

theorem crows1_disjoint (d : Dev nD) :
    ∀ c ∈ (Finset.univ : Finset (Fin 2)), ∀ c' ∈ (Finset.univ : Finset (Fin 2)), c ≠ c' → Disjoint (crows1 c d) (crows1 c' d) := by
  intro c _ c' _ hcc
  refine Finset.disjoint_left.mpr fun y h1 h2 => hcc (Fin.ext ?_)
  have e1 : ((y 0).val / 3400) % 2 = c.val := (Finset.mem_filter.mp h1).2
  have e2 : ((y 0).val / 3400) % 2 = c'.val := (Finset.mem_filter.mp h2).2
  omega
theorem crows1_cover (d : Dev nD) : (Finset.univ : Finset (Fin 2)).biUnion (fun c => crows1 c d) = Finset.univ := by
  ext y
  refine ⟨fun _ => Finset.mem_univ _, fun _ => ?_⟩
  refine Finset.mem_biUnion.mpr ⟨⟨((y 0).val / 3400) % 2, Nat.mod_lt _ (by decide)⟩, Finset.mem_univ _, Finset.mem_filter.mpr ⟨Finset.mem_univ _, ?_⟩⟩
  rfl
theorem crows2_disjoint (d : Dev nD) :
    ∀ c ∈ (Finset.univ : Finset (Fin 2)), ∀ c' ∈ (Finset.univ : Finset (Fin 2)), c ≠ c' → Disjoint (crows2 c d) (crows2 c' d) := by
  intro c _ c' _ hcc
  refine Finset.disjoint_left.mpr fun y h1 h2 => hcc (Fin.ext ?_)
  have e1 : ((y 0).val / 3400) % 2 = c.val := (Finset.mem_filter.mp h1).2
  have e2 : ((y 0).val / 3400) % 2 = c'.val := (Finset.mem_filter.mp h2).2
  omega
theorem crows2_cover (d : Dev nD) : (Finset.univ : Finset (Fin 2)).biUnion (fun c => crows2 c d) = Finset.univ := by
  ext y
  refine ⟨fun _ => Finset.mem_univ _, fun _ => ?_⟩
  refine Finset.mem_biUnion.mpr ⟨⟨((y 0).val / 3400) % 2, Nat.mod_lt _ (by decide)⟩, Finset.mem_univ _, Finset.mem_filter.mpr ⟨Finset.mem_univ _, ?_⟩⟩
  rfl
theorem crows3_disjoint (d : Dev nD) :
    ∀ c ∈ (Finset.univ : Finset (Fin 2)), ∀ c' ∈ (Finset.univ : Finset (Fin 2)), c ≠ c' → Disjoint (crows3 c d) (crows3 c' d) := by
  intro c _ c' _ hcc
  refine Finset.disjoint_left.mpr fun y h1 h2 => hcc (Fin.ext ?_)
  have e1 : ((y 0).val / 3200) % 2 = c.val := (Finset.mem_filter.mp h1).2
  have e2 : ((y 0).val / 3200) % 2 = c'.val := (Finset.mem_filter.mp h2).2
  omega
theorem crows3_cover (d : Dev nD) : (Finset.univ : Finset (Fin 2)).biUnion (fun c => crows3 c d) = Finset.univ := by
  ext y
  refine ⟨fun _ => Finset.mem_univ _, fun _ => ?_⟩
  refine Finset.mem_biUnion.mpr ⟨⟨((y 0).val / 3200) % 2, Nat.mod_lt _ (by decide)⟩, Finset.mem_univ _, Finset.mem_filter.mpr ⟨Finset.mem_univ _, ?_⟩⟩
  rfl

theorem bigSep_cores (q : Fin 3) (Φ : Fin 2 → sProp 𝕄) :
    (bigSep Finset.univ fun c : Fin ((K (F := F)).nCore q) => Φ (Fin.cast (nCore_cast q) c)) = bigSep Finset.univ Φ := by
  fin_cases q <;> exact bigSep_congr fun _ _ => congrArg Φ (Fin.ext rfl)

theorem st0_eq (d : Dev nD) : (bigSep Finset.univ fun c : Fin ((K (F := F)).nCore 0) => (P m GI GJ).st 0 d c)
    = bigSep Finset.univ fun c : Fin 2 => iprop(reads m GI GJ d (shareTok fullShare 2 c) ∗ ∃ f, s1Loc d ↦[crows1 c d]{fullShare} f) := by
  simp only [P_st0]
  exact bigSep_cores (F := F) 0 (fun c => iprop(reads m GI GJ d (shareTok fullShare 2 c) ∗ ∃ f, s1Loc d ↦[crows1 c d]{fullShare} f))
theorem dn0_eq (d : Dev nD) : (bigSep Finset.univ fun c : Fin ((K (F := F)).nCore 0) => (P m GI GJ).dn 0 d c)
    = bigSep Finset.univ fun c : Fin 2 => iprop(reads m GI GJ d (shareTok fullShare 2 c) ∗ s1Loc d ↦[crows1 c d]{fullShare} S1v m GI GJ d) := by
  simp only [P_dn0]
  exact bigSep_cores (F := F) 0 (fun c => iprop(reads m GI GJ d (shareTok fullShare 2 c) ∗ s1Loc d ↦[crows1 c d]{fullShare} S1v m GI GJ d))

theorem st1_eq (d : Dev nD) : (bigSep Finset.univ fun c : Fin ((K (F := F)).nCore 1) => (P m GI GJ).st 1 d c)
    = bigSep Finset.univ fun c : Fin 2 => iprop(reads m GI GJ d (shareTok fullShare 2 c) ∗ ∃ f, s2Loc d ↦[crows2 c d]{fullShare} f) := by
  simp only [P_st1]
  exact bigSep_cores (F := F) 1 (fun c => iprop(reads m GI GJ d (shareTok fullShare 2 c) ∗ ∃ f, s2Loc d ↦[crows2 c d]{fullShare} f))
theorem dn1_eq (d : Dev nD) : (bigSep Finset.univ fun c : Fin ((K (F := F)).nCore 1) => (P m GI GJ).dn 1 d c)
    = bigSep Finset.univ fun c : Fin 2 => iprop(reads m GI GJ d (shareTok fullShare 2 c) ∗ s2Loc d ↦[crows2 c d]{fullShare} S2v m GI GJ d) := by
  simp only [P_dn1]
  exact bigSep_cores (F := F) 1 (fun c => iprop(reads m GI GJ d (shareTok fullShare 2 c) ∗ s2Loc d ↦[crows2 c d]{fullShare} S2v m GI GJ d))

theorem st2_eq (d : Dev nD) : (bigSep Finset.univ fun c : Fin ((K (F := F)).nCore 2) => (P m GI GJ).st 2 d c)
    = bigSep Finset.univ fun c : Fin 2 => iprop(reads m GI GJ d (shareTok fullShare 2 c) ∗ ∃ f, s3Loc d ↦[crows3 c d]{fullShare} f) := by
  simp only [P_st2]
  exact bigSep_cores (F := F) 2 (fun c => iprop(reads m GI GJ d (shareTok fullShare 2 c) ∗ ∃ f, s3Loc d ↦[crows3 c d]{fullShare} f))
theorem dn2_eq (d : Dev nD) : (bigSep Finset.univ fun c : Fin ((K (F := F)).nCore 2) => (P m GI GJ).dn 2 d c)
    = bigSep Finset.univ fun c : Fin 2 => iprop(reads m GI GJ d (shareTok fullShare 2 c) ∗ s3Loc d ↦[crows3 c d]{fullShare} S3v m GI GJ d) := by
  simp only [P_dn2]
  exact bigSep_cores (F := F) 2 (fun c => iprop(reads m GI GJ d (shareTok fullShare 2 c) ∗ s3Loc d ↦[crows3 c d]{fullShare} S3v m GI GJ d))

end Cert.Proof.KB

end
-- ==== Proof.KCallStep.lean ====
/-
  Each gather-and-add call as the TensorCore meets it in @main: the share of the four read arrays halves once per
  SparseCore of the grid, the output array is dealt by the rows each SparseCore's workers write, the call runs, and the
  shares and rows come back joined, the output array whole at the call's value.
-/
import proofs.«206539_g3985729650836_cont_8to1_b_247_13_alg».proof.Proof.KVecSplit

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-- Call 0 on the TensorCore: the four read arrays whole and the call's output array go in, the same come back with
    the output at the call's value. -/
theorem run_call0 (κ : GSem nD τ sig → ℕ) (d : Dev nD) {Φ : PUnit → sProp 𝕄} :
    iprop((K (F := F)).ctx EH (P m GI GJ) κ ∗ (K (F := F)).tcSt EH d 0 ∗ reads m GI GJ d fullShare ∗ (∃ f, s1Loc d ↦{fullShare} f)
        ∗ (((K (F := F)).tcSt EH d 1 ∗ reads m GI GJ d fullShare ∗ s1Loc d ↦{fullShare} S1v m GI GJ d) -∗ Φ ⟨⟩))
      ⊢ wp frame (wpE ((K (F := F)).defs (D (F := F))) 𝒱 (SparseCore.T d) none) Set.univ ((K (F := F)).run d 0) Φ := by
  iintro ⟨#Hctx, Hst, Hr, Hs, Hk⟩
  imod (split_core m GI GJ (fun c => crows1 c d) Finset.univ (crows1_disjoint d) (crows1_cover d) d fullShare (S1v m GI GJ d)) $$ [Hr Hs] with ⟨Hgo, Hback⟩
  · isplitl [Hr]; · iexact Hr
    iexact Hs
  iapply ((K (F := F)).wp_run (D (F := F)) 𝒱 (EH := EH) (P := P m GI GJ) κ d 0) $$ [Hst Hgo Hback Hk]
  isplitr; · iexact Hctx
  isplitl [Hst]; · iexact Hst
  isplitl [Hgo]
  · rw [st0_eq]; iexact Hgo
  iintro ⟨Hst, Hdn⟩
  ihave Hdn' := (Entails.of_eq (dn0_eq m GI GJ d)) $$ Hdn
  ihave Hb := Hback $$ Hdn'
  icases Hb with ⟨Hr, Hs⟩
  iapply Hk
  isplitl [Hst]; · iexact Hst
  isplitl [Hr]; · iexact Hr
  iexact Hs

/-- Call 1 on the TensorCore: the four read arrays whole and the call's output array go in, the same come back with
    the output at the call's value. -/
theorem run_call1 (κ : GSem nD τ sig → ℕ) (d : Dev nD) {Φ : PUnit → sProp 𝕄} :
    iprop((K (F := F)).ctx EH (P m GI GJ) κ ∗ (K (F := F)).tcSt EH d 1 ∗ reads m GI GJ d fullShare ∗ (∃ f, s2Loc d ↦{fullShare} f)
        ∗ (((K (F := F)).tcSt EH d 2 ∗ reads m GI GJ d fullShare ∗ s2Loc d ↦{fullShare} S2v m GI GJ d) -∗ Φ ⟨⟩))
      ⊢ wp frame (wpE ((K (F := F)).defs (D (F := F))) 𝒱 (SparseCore.T d) none) Set.univ ((K (F := F)).run d 1) Φ := by
  iintro ⟨#Hctx, Hst, Hr, Hs, Hk⟩
  imod (split_core m GI GJ (fun c => crows2 c d) Finset.univ (crows2_disjoint d) (crows2_cover d) d fullShare (S2v m GI GJ d)) $$ [Hr Hs] with ⟨Hgo, Hback⟩
  · isplitl [Hr]; · iexact Hr
    iexact Hs
  iapply ((K (F := F)).wp_run (D (F := F)) 𝒱 (EH := EH) (P := P m GI GJ) κ d 1) $$ [Hst Hgo Hback Hk]
  isplitr; · iexact Hctx
  isplitl [Hst]; · iexact Hst
  isplitl [Hgo]
  · rw [st1_eq]; iexact Hgo
  iintro ⟨Hst, Hdn⟩
  ihave Hdn' := (Entails.of_eq (dn1_eq m GI GJ d)) $$ Hdn
  ihave Hb := Hback $$ Hdn'
  icases Hb with ⟨Hr, Hs⟩
  iapply Hk
  isplitl [Hst]; · iexact Hst
  isplitl [Hr]; · iexact Hr
  iexact Hs

/-- Call 2 on the TensorCore: the four read arrays whole and the call's output array go in, the same come back with
    the output at the call's value. -/
theorem run_call2 (κ : GSem nD τ sig → ℕ) (d : Dev nD) {Φ : PUnit → sProp 𝕄} :
    iprop((K (F := F)).ctx EH (P m GI GJ) κ ∗ (K (F := F)).tcSt EH d 2 ∗ reads m GI GJ d fullShare ∗ (∃ f, s3Loc d ↦{fullShare} f)
        ∗ (((K (F := F)).tcSt EH d 3 ∗ reads m GI GJ d fullShare ∗ s3Loc d ↦{fullShare} S3v m GI GJ d) -∗ Φ ⟨⟩))
      ⊢ wp frame (wpE ((K (F := F)).defs (D (F := F))) 𝒱 (SparseCore.T d) none) Set.univ ((K (F := F)).run d 2) Φ := by
  iintro ⟨#Hctx, Hst, Hr, Hs, Hk⟩
  imod (split_core m GI GJ (fun c => crows3 c d) Finset.univ (crows3_disjoint d) (crows3_cover d) d fullShare (S3v m GI GJ d)) $$ [Hr Hs] with ⟨Hgo, Hback⟩
  · isplitl [Hr]; · iexact Hr
    iexact Hs
  iapply ((K (F := F)).wp_run (D (F := F)) 𝒱 (EH := EH) (P := P m GI GJ) κ d 2) $$ [Hst Hgo Hback Hk]
  isplitr; · iexact Hctx
  isplitl [Hst]; · iexact Hst
  isplitl [Hgo]
  · rw [st2_eq]; iexact Hgo
  iintro ⟨Hst, Hdn⟩
  ihave Hdn' := (Entails.of_eq (dn2_eq m GI GJ d)) $$ Hdn
  ihave Hb := Hback $$ Hdn'
  icases Hb with ⟨Hr, Hs⟩
  iapply Hk
  isplitl [Hst]; · iexact Hst
  isplitl [Hr]; · iexact Hr
  iexact Hs

end Cert.Proof.KB

end
-- ==== Proof.KLaunchElem.lean ====
/-
  The launch element of the ghost state: the handshakes' rounds at their launch tokens, the four pipelines' staging
  cells' rounds at theirs, the transfers' counters at the unit. From it every device's TensorCore is dealt, per pipeline,
  its staging cells' ghost state and its duty tokens; the SparseCore kernels' proofs consume nothing of the launch's.
-/
import proofs.«206539_g3985729650836_cont_8to1_b_247_13_alg».proof.Proof.KPay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

/-- What @main's proof on device `d` starts from, beside what the launch deals every TensorCore: per pipeline, its
    staging cells' ghost state and its duty tokens. -/
def GP (d : Dev nD) : sProp 𝕄 :=
  bigSep Finset.univ fun p : Fin 4 => iprop(Pipeline.cellsGhost cfgs (EP (F := F)) p d ∗ Pipeline.toksInit cfgs (EP (F := F)) p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem ownU_split (a : UH) (b : UP) (c : Counters) : (ownU (a, (b, c)) : sProp 𝕄) ⊢ iprop(BI.own (EH a) ∗ BI.own (EP b)) := by
  refine (ownU_pair a (b, c)).trans (BIClass.sep_mono ?_ ?_)
  · exact .rfl
  · exact (own_pair_emb (embR (A := UH) (B := UP × Counters)) b c).trans sep_elim_left

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 3 => (P m GI GJ).x q thr) := by
  unfold u₀
  iintro Hu
  ihave H := (ownU_split _ _ _) $$ Hu
  icases H with ⟨HH, HP⟩
  imod (Pipeline.fund_ghost cfgs (EP (F := F)) cellOf_inj) $$ HP with ⟨Hg, Ht⟩
  imodintro
  isplitl [HH]; · iexact HH
  isplitl [Hg Ht]
  · simp only [GP, bigSep_sep']
    isplitl [Hg]; · iexact Hg
    iexact Ht
  · unfold P; dsimp only
    rw [show (bigSep Finset.univ fun _ : Thread nD τ => bigSep Finset.univ fun _ : Fin 3 => (iprop(emp) : sProp 𝕄)) = iprop(emp) from by
      rw [bigSep_congr fun _ _ => bigSep_emp' _, bigSep_emp']]
    iempintro

end Cert.Proof.KB

end
-- ==== Proof.KMainVals.lean ====
/-
  The valuation of the TensorCore's arrays through @main: the launch memory, then each host operation's result, each
  kernel region's effect on its output arrays (a parameter here, with the fact that it touches nothing else), and each
  gather-and-add call's output array at its value. The argument arrays are never written.
-/
import proofs.«206539_g3985729650836_cont_8to1_b_247_13_alg».proof.Proof.KCallStep
import proofs.«206539_g3985729650836_cont_8to1_b_247_13_alg».proof.Proof.KLaunchElem
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-! ## The arrays as device references -/

abbrev z' : DevRef τ sig := Proc.devRef .tc (main_arg0 : Ref sig .tc)
abbrev rbf' : DevRef τ sig := Proc.devRef .tc (main_arg1 : Ref sig .tc)
abbrev ii' : DevRef τ sig := Proc.devRef .tc (main_arg2 : Ref sig .tc)
abbrev jj' : DevRef τ sig := Proc.devRef .tc (main_arg3 : Ref sig .tc)
abbrev emb' : DevRef τ sig := Proc.devRef .tc (main_arg4 : Ref sig .tc)
abbrev w' : DevRef τ sig := Proc.devRef .tc (main_arg5 : Ref sig .tc)
abbrev b' : DevRef τ sig := Proc.devRef .tc (main_arg6 : Ref sig .tc)
abbrev h' : DevRef τ sig := Proc.devRef .tc (main_v2_0 : Ref sig .tc)
abbrev gi' : DevRef τ sig := Proc.devRef .tc (main_v2_1 : Ref sig .tc)
abbrev gj' : DevRef τ sig := Proc.devRef .tc (main_v2_2 : Ref sig .tc)
abbrev s1' : DevRef τ sig := Proc.devRef .tc (main_v5 : Ref sig .tc)
abbrev s2' : DevRef τ sig := Proc.devRef .tc (main_v6 : Ref sig .tc)
abbrev s3' : DevRef τ sig := Proc.devRef .tc (main_v7 : Ref sig .tc)
abbrev m1' : DevRef τ sig := Proc.devRef .tc (main_v8 : Ref sig .tc)
abbrev m2' : DevRef τ sig := Proc.devRef .tc (main_v9 : Ref sig .tc)
abbrev out' : DevRef τ sig := Proc.devRef .tc (main_v10 : Ref sig .tc)

/-- The seven argument arrays. -/
abbrev argRefs : Finset (DevRef τ sig) := {z', rbf', ii', jj', emb', w', b'}

/-! ## @main's host operations -/

abbrev opReshZ : HloOp τ sig (Elt F) := StableHlo.reshape main_arg0 main_v0 rfl shapeCasts_S10000_S10000x1
abbrev opC : HloOp τ sig (Elt F) := StableHlo.nullary main_c (constantI S_ 32 0#32)
abbrev opCvt : HloOp τ sig (Elt F) :=
  StableHlo.TRef.unary (Tx := ⟨S_, .i32⟩) (Ty := ⟨S_, .f32⟩) (.of main_c) main_call0.v0 (sitofp .f32)
abbrev opPad : HloOp τ sig (Elt F) :=
  StableHlo.TRef.binary (Ta := ⟨S93x128, .f32⟩) (Tb := ⟨S_, .f32⟩) (Ty := ⟨S128x128, .f32⟩) (.of main_arg4) main_call0.v0 main_call0.v1
    (fun x v => pad S128x128 ![0, 0] ![35, 0] ![0, 0] x v pads_S93x128_S128x128_0350_000 h_S_)
abbrev opSlice : HloOp τ sig (Elt F) :=
  StableHlo.unary main_arg5 main_v3 ((extractStridedSlice S128x16 ![0, 256] · slices_S128x272_S128x16_0_256) : (⟨S128x272, .f32⟩ : BufTy).Contents (Elt F) → (⟨S128x16, .f32⟩ : BufTy).Contents (Elt F))
abbrev opReshB : HloOp τ sig (Elt F) := StableHlo.reshape main_arg6 main_v4 rfl shapeCasts_S128_S1x128
abbrev opCp1 : HloOp τ sig (Elt F) := StableHlo.unary main_v8 main_v9 id
abbrev opCp2 : HloOp τ sig (Elt F) := StableHlo.unary main_v9 main_v10 id

/-! ## The regions' effects, as parameters -/

-- What kernel region `p` does to the valuation of the TensorCore's arrays on device `d`; it rewrites only the
-- region's output arrays (`RegionFrame`).
variable (R0 R1 R2 R3 : Dev nD → Valuation τ sig (Elt F) → Valuation τ sig (Elt F))

def RegionFrame (R : Dev nD → Valuation τ sig (Elt F) → Valuation τ sig (Elt F)) (outs : Finset (DevRef τ sig)) : Prop :=
  ∀ (d : Dev nD) (W : Valuation τ sig (Elt F)) (b : DevRef τ sig), b ∉ outs → R d W b = W b

/-! ## The valuations -/

def W0 (d : Dev nD) : Valuation τ sig (Elt F) := fun b => m (d, b)
def W4 (d : Dev nD) : Valuation τ sig (Elt F) :=
  (opPad (F := F)).result ((opCvt (F := F)).result ((opC (F := F)).result ((opReshZ (F := F)).result (W0 m d))))
def W5 (d : Dev nD) : Valuation τ sig (Elt F) := R0 d (W4 m d)
def W7 (d : Dev nD) : Valuation τ sig (Elt F) := (opReshB (F := F)).result ((opSlice (F := F)).result (W5 m R0 d))

/-- The node tables as the gather-and-add calls find them. -/
def GIv (d : Dev nD) : Buf (Elt F) (giLoc d) := W7 m R0 d gi'
def GJv (d : Dev nD) : Buf (Elt F) (gjLoc d) := W7 m R0 d gj'

def W8 (d : Dev nD) : Valuation τ sig (Elt F) := Function.update (W7 m R0 d) s1' (S1v m (GIv m R0) (GJv m R0) d)
def W9 (d : Dev nD) : Valuation τ sig (Elt F) := Function.update (W8 m R0 d) s2' (S2v m (GIv m R0) (GJv m R0) d)
def W10 (d : Dev nD) : Valuation τ sig (Elt F) := Function.update (W9 m R0 d) s3' (S3v m (GIv m R0) (GJv m R0) d)
def W11 (d : Dev nD) : Valuation τ sig (Elt F) := R1 d (W10 m R0 d)
def W12 (d : Dev nD) : Valuation τ sig (Elt F) := (opCp1 (F := F)).result (W11 m R0 R1 d)
def W13 (d : Dev nD) : Valuation τ sig (Elt F) := R2 d (W12 m R0 R1 d)
def W14 (d : Dev nD) : Valuation τ sig (Elt F) := (opCp2 (F := F)).result (W13 m R0 R1 R2 d)
def W15 (d : Dev nD) : Valuation τ sig (Elt F) := R3 d (W14 m R0 R1 R2 d)

/-! ## The argument arrays are never written -/

section Kept

variable {R0 R1 R2 R3}
variable (h0 : RegionFrame R0 {h', gi', gj'}) (h1 : RegionFrame R1 {m1'}) (h2 : RegionFrame R2 {m2'}) (h3 : RegionFrame R3 {out'})

abbrev v0' : DevRef τ sig := Proc.devRef .tc (main_v0 : Ref sig .tc)
abbrev c' : DevRef τ sig := Proc.devRef .tc (main_c : Ref sig .tc)
abbrev cv0' : DevRef τ sig := Proc.devRef .tc (main_call0_v0 : Ref sig .tc)
abbrev v1' : DevRef τ sig := Proc.devRef .tc (main_v1 : Ref sig .tc)
abbrev v3' : DevRef τ sig := Proc.devRef .tc (main_v3 : Ref sig .tc)
abbrev v4' : DevRef τ sig := Proc.devRef .tc (main_v4 : Ref sig .tc)

omit [FloatOps F] in
theorem arg_ne : ∀ b ∈ (argRefs : Finset (DevRef τ sig)),
    b ≠ v0' ∧ b ≠ c' ∧ b ≠ cv0' ∧ b ≠ v1' ∧ b ≠ h' ∧ b ≠ gi' ∧ b ≠ gj' ∧ b ≠ v3' ∧ b ≠ v4' ∧ b ≠ s1' ∧ b ≠ s2' ∧ b ≠ s3' ∧ b ≠ m1' ∧ b ≠ m2' ∧ b ≠ out' := by
  decide

include h0 in
theorem W7_arg (d : Dev nD) {b : DevRef τ sig} (hb : b ∈ (argRefs : Finset (DevRef τ sig))) : W7 m R0 d b = m (d, b) := by
  obtain ⟨n1, n2, n3, n4, n5, n6, n7, n8, n9, -⟩ := arg_ne b hb
  unfold W7 W5 W4
  rw [(opReshB (F := F)).result_of_not_mem _ (b := b) (show b ∉ ({v4'} : Finset (DevRef τ sig)) from Finset.notMem_singleton.mpr n9),
    (opSlice (F := F)).result_of_not_mem _ (b := b) (show b ∉ ({v3'} : Finset (DevRef τ sig)) from Finset.notMem_singleton.mpr n8),
    h0 d _ b (by simp only [Finset.mem_insert, Finset.mem_singleton, not_or]; exact ⟨n5, n6, n7⟩),
    (opPad (F := F)).result_of_not_mem _ (b := b) (show b ∉ ({v1'} : Finset (DevRef τ sig)) from Finset.notMem_singleton.mpr n4),
    (opCvt (F := F)).result_of_not_mem _ (b := b) (show b ∉ ({cv0'} : Finset (DevRef τ sig)) from Finset.notMem_singleton.mpr n3),
    (opC (F := F)).result_of_not_mem _ (b := b) (show b ∉ ({c'} : Finset (DevRef τ sig)) from Finset.notMem_singleton.mpr n2),
    (opReshZ (F := F)).result_of_not_mem _ (b := b) (show b ∉ ({v0'} : Finset (DevRef τ sig)) from Finset.notMem_singleton.mpr n1)]
  rfl

include h0 h1 h2 h3 in
/-- Through the whole of @main an argument array holds what the launch memory did. -/
theorem W15_arg (d : Dev nD) {b : DevRef τ sig} (hb : b ∈ (argRefs : Finset (DevRef τ sig))) : W15 m R0 R1 R2 R3 d b = m (d, b) := by
  obtain ⟨-, -, -, -, -, -, -, -, -, n10, n11, n12, n13, n14, n15⟩ := arg_ne b hb
  unfold W15 W14 W13 W12 W11 W10 W9 W8
  rw [h3 d _ b (Finset.notMem_singleton.mpr n15),
    (opCp2 (F := F)).result_of_not_mem _ (b := b) (show b ∉ ({out'} : Finset (DevRef τ sig)) from Finset.notMem_singleton.mpr n15),
    h2 d _ b (Finset.notMem_singleton.mpr n14),
    (opCp1 (F := F)).result_of_not_mem _ (b := b) (show b ∉ ({m2'} : Finset (DevRef τ sig)) from Finset.notMem_singleton.mpr n14),
    h1 d _ b (Finset.notMem_singleton.mpr n13),
    Function.update_of_ne n12, Function.update_of_ne n11, Function.update_of_ne n10]
  exact W7_arg m h0 d hb

end Kept

end Cert.Proof.KB

end
-- ==== Proof.KMainSteps.lean ====
/-
  The steps of @main on the TensorCore, each as a rule from the boundary and the arrays held at a valuation to the same
  at the step's valuation: a host operation, a gather-and-add call (its five arrays carved out of the held set and put
  back), (the kernel regions enter later, as hypotheses in the same continuation form).
-/
import proofs.«206539_g3985729650836_cont_8to1_b_247_13_alg».proof.Proof.KMainVals

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (GI : (d : Dev nD) → Buf (Elt F) (giLoc d)) (GJ : (d : Dev nD) → Buf (Elt F) (gjLoc d))

/-! ## A host operation -/

theorem host_step (d : Dev nD) (op : HloOp τ sig (Elt F)) (hp : (SparseCore.T d : Thread nD τ).2.kind.runsHlo = true) (hS : op.bufs ⊆ ucRefs τ sig)
    (hf : op.fresh = ∅) (W : Valuation τ sig (Elt F)) (Q : PUnit → sProp 𝕄) :
    iprop(boundary (SparseCore.T d) ∗ held (SparseCore.T d) (ucRefs τ sig) W
        ∗ ((boundary (SparseCore.T d) ∗ held (SparseCore.T d) (ucRefs τ sig) (op.result W)) -∗ Q ⟨⟩))
      ⊢ wp frame (wpE ((K (F := F)).defs (D (F := F))) 𝒱 (SparseCore.T d) none) Set.univ (hlo hp op fun _ => Prog.ret PUnit.unit) Q := by
  iintro ⟨Hb, Hh, Hk⟩
  iapply (wp_hlo_within 𝒱 (SparseCore.T d) none Set.univ (op := op) (S := ucRefs τ sig) hS (V := W) hf) $$ [Hb Hh]
  · isplitl [Hb]; · iexact Hb
    iexact Hh
  iintro ⟨Hb, Hh⟩
  rw [wp_ret]; imodintro
  iapply Hk
  isplitl [Hb]; · iexact Hb
  iexact Hh

/-! ## A gather-and-add call -/

omit [FloatOps F] in
theorem held_T1 (d : Dev nD) (W : Valuation τ sig (Elt F)) :
    (held (SparseCore.T d) ({gi', gj', ii', jj', s1'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s1Loc d ↦{fullShare} W s1')) := by
  unfold held
  rw [SparseCore.bigSep_insert' (by decide), SparseCore.bigSep_insert' (by decide), SparseCore.bigSep_insert' (by decide), SparseCore.bigSep_insert' (by decide), bigSep_singleton]

omit [FloatOps F] in
theorem sub_T1 : ({gi', gj', ii', jj', s1'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 0 from the arrays held at `W`: afterwards they are held at `W` with the call's output array at its value. -/
theorem call_step0 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 0 ∗ held (SparseCore.T d) (ucRefs τ sig) W
        ∗ (((K (F := F)).tcSt EH d 1 ∗ held (SparseCore.T d) (ucRefs τ sig) (Function.update W s1' (S1v m GI GJ d))) -∗ Φ ⟨⟩))
      ⊢ wp frame (wpE ((K (F := F)).defs (D (F := F))) 𝒱 (SparseCore.T d) none) Set.univ ((K (F := F)).run d 0) Φ := by
  have hrest : (held (SparseCore.T d) (ucRefs τ sig \ {gi', gj', ii', jj', s1'}) (Function.update W s1' (S1v m GI GJ d)) : sProp 𝕄)
      = held (SparseCore.T d) (ucRefs τ sig \ {gi', gj', ii', jj', s1'}) W := by
    unfold held
    refine bigSep_congr fun b hb => ?_
    rw [Function.update_of_ne (fun e => (Finset.mem_sdiff.mp hb).2 (by rw [e]; simp))]
  rw [held_sub_split (SparseCore.T d) sub_T1 W, held_sub_split (SparseCore.T d) sub_T1 (Function.update W s1' (S1v m GI GJ d)), hrest, held_T1, held_T1,
    Function.update_of_ne (show gi' ≠ s1' by decide), Function.update_of_ne (show gj' ≠ s1' by decide), Function.update_of_ne (show ii' ≠ s1' by decide),
    Function.update_of_ne (show jj' ≠ s1' by decide), Function.update_self, hgi, hgj, hii, hjj]
  iintro ⟨#Hctx, Hst, ⟨⟨H1, H2, H3, H4, H5⟩, Hrest⟩, Hk⟩
  iapply (run_call0 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

omit [FloatOps F] in
theorem held_T2 (d : Dev nD) (W : Valuation τ sig (Elt F)) :
    (held (SparseCore.T d) ({gi', gj', ii', jj', s2'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s2Loc d ↦{fullShare} W s2')) := by
  unfold held
  rw [SparseCore.bigSep_insert' (by decide), SparseCore.bigSep_insert' (by decide), SparseCore.bigSep_insert' (by decide), SparseCore.bigSep_insert' (by decide), bigSep_singleton]

omit [FloatOps F] in
theorem sub_T2 : ({gi', gj', ii', jj', s2'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 1 from the arrays held at `W`: afterwards they are held at `W` with the call's output array at its value. -/
theorem call_step1 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 1 ∗ held (SparseCore.T d) (ucRefs τ sig) W
        ∗ (((K (F := F)).tcSt EH d 2 ∗ held (SparseCore.T d) (ucRefs τ sig) (Function.update W s2' (S2v m GI GJ d))) -∗ Φ ⟨⟩))
      ⊢ wp frame (wpE ((K (F := F)).defs (D (F := F))) 𝒱 (SparseCore.T d) none) Set.univ ((K (F := F)).run d 1) Φ := by
  have hrest : (held (SparseCore.T d) (ucRefs τ sig \ {gi', gj', ii', jj', s2'}) (Function.update W s2' (S2v m GI GJ d)) : sProp 𝕄)
      = held (SparseCore.T d) (ucRefs τ sig \ {gi', gj', ii', jj', s2'}) W := by
    unfold held
    refine bigSep_congr fun b hb => ?_
    rw [Function.update_of_ne (fun e => (Finset.mem_sdiff.mp hb).2 (by rw [e]; simp))]
  rw [held_sub_split (SparseCore.T d) sub_T2 W, held_sub_split (SparseCore.T d) sub_T2 (Function.update W s2' (S2v m GI GJ d)), hrest, held_T2, held_T2,
    Function.update_of_ne (show gi' ≠ s2' by decide), Function.update_of_ne (show gj' ≠ s2' by decide), Function.update_of_ne (show ii' ≠ s2' by decide),
    Function.update_of_ne (show jj' ≠ s2' by decide), Function.update_self, hgi, hgj, hii, hjj]
  iintro ⟨#Hctx, Hst, ⟨⟨H1, H2, H3, H4, H5⟩, Hrest⟩, Hk⟩
  iapply (run_call1 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

omit [FloatOps F] in
theorem held_T3 (d : Dev nD) (W : Valuation τ sig (Elt F)) :
    (held (SparseCore.T d) ({gi', gj', ii', jj', s3'} : Finset (DevRef τ sig)) W : sProp 𝕄)
      = iprop((giLoc d ↦{fullShare} W gi') ∗ (gjLoc d ↦{fullShare} W gj') ∗ (iiLoc d ↦{fullShare} W ii') ∗ (jjLoc d ↦{fullShare} W jj') ∗ (s3Loc d ↦{fullShare} W s3')) := by
  unfold held
  rw [SparseCore.bigSep_insert' (by decide), SparseCore.bigSep_insert' (by decide), SparseCore.bigSep_insert' (by decide), SparseCore.bigSep_insert' (by decide), bigSep_singleton]

omit [FloatOps F] in
theorem sub_T3 : ({gi', gj', ii', jj', s3'} : Finset (DevRef τ sig)) ⊆ ucRefs τ sig := by
  intro b hb
  simp only [Finset.mem_insert, Finset.mem_singleton] at hb
  rcases hb with rfl | rfl | rfl | rfl | rfl <;> exact Finset.mem_filter.mpr ⟨StableHlo.devRef_mem_tcRefs _, by decide⟩

/-- Call 2 from the arrays held at `W`: afterwards they are held at `W` with the call's output array at its value. -/
theorem call_step2 (κ : GSem nD τ sig → ℕ) (d : Dev nD) (W : Valuation τ sig (Elt F))
    (hgi : W gi' = GI d) (hgj : W gj' = GJ d) (hii : W ii' = m (iiLoc d)) (hjj : W jj' = m (jjLoc d)) {Φ : PUnit → sProp 𝕄} :
    iprop((K (F := F)).ctx EH (P m GI GJ) κ ∗ (K (F := F)).tcSt EH d 2 ∗ held (SparseCore.T d) (ucRefs τ sig) W
        ∗ (((K (F := F)).tcSt EH d 3 ∗ held (SparseCore.T d) (ucRefs τ sig) (Function.update W s3' (S3v m GI GJ d))) -∗ Φ ⟨⟩))
      ⊢ wp frame (wpE ((K (F := F)).defs (D (F := F))) 𝒱 (SparseCore.T d) none) Set.univ ((K (F := F)).run d 2) Φ := by
  have hrest : (held (SparseCore.T d) (ucRefs τ sig \ {gi', gj', ii', jj', s3'}) (Function.update W s3' (S3v m GI GJ d)) : sProp 𝕄)
      = held (SparseCore.T d) (ucRefs τ sig \ {gi', gj', ii', jj', s3'}) W := by
    unfold held
    refine bigSep_congr fun b hb => ?_
    rw [Function.update_of_ne (fun e => (Finset.mem_sdiff.mp hb).2 (by rw [e]; simp))]
  rw [held_sub_split (SparseCore.T d) sub_T3 W, held_sub_split (SparseCore.T d) sub_T3 (Function.update W s3' (S3v m GI GJ d)), hrest, held_T3, held_T3,
    Function.update_of_ne (show gi' ≠ s3' by decide), Function.update_of_ne (show gj' ≠ s3' by decide), Function.update_of_ne (show ii' ≠ s3' by decide),
    Function.update_of_ne (show jj' ≠ s3' by decide), Function.update_self, hgi, hgj, hii, hjj]
  iintro ⟨#Hctx, Hst, ⟨⟨H1, H2, H3, H4, H5⟩, Hrest⟩, Hk⟩
  iapply (run_call2 m GI GJ κ d)
  isplitr; · iexact Hctx
  isplitl [Hst]; · iexact Hst
  isplitl [H1 H2 H3 H4]
  · unfold reads
    isplitl [H1]; · iexact H1
    isplitl [H2]; · iexact H2
    isplitl [H3]; · iexact H3
    iexact H4
  isplitl [H5]; · iexists _; iexact H5
  iintro ⟨Hst, Hr, Hs⟩
  iapply Hk
  isplitl [Hst]; · iexact Hst
  unfold reads
  icases Hr with ⟨H1, H2, H3, H4⟩
  isplitl [H1 H2 H3 H4 Hs]
  · isplitl [H1]; · iexact H1
    isplitl [H2]; · iexact H2
    isplitl [H3]; · iexact H3
    isplitl [H4]; · iexact H4
    iexact Hs
  iexact Hrest

end Cert.Proof.KB

end
-- ==== Proof.KMain.lean ====
/-
  @main on the TensorCore of device `d`, as one run: four host operations, the first kernel region, two host
  operations, the three gather-and-add calls, then the three output regions with the two copies between them. The arrays
  are held at one valuation throughout; each step moves it on. The kernel regions enter as hypotheses: each is run from
  its pipeline's staging cells' ghost state and the arrays held, and leaves the arrays at the region's effect.
-/
import proofs.«206539_g3985729650836_cont_8to1_b_247_13_alg».proof.Proof.KMainSteps

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (R0 R1 R2 R3 : Dev nD → Valuation τ sig (Elt F) → Valuation τ sig (Elt F))

/-- Kernel region `p`, entered after `n` SparseCore calls, as a step in continuation form. -/
def RegionStep (GI : (d : Dev nD) → Buf (Elt F) (giLoc d)) (GJ : (d : Dev nD) → Buf (Elt F) (gjLoc d)) (p : Fin 4) (n : ℕ)
    (R : Dev nD → Valuation τ sig (Elt F) → Valuation τ sig (Elt F)) : Prop :=
  ∀ (κ : GSem nD τ sig → ℕ) (d : Dev nD) (W : Valuation τ sig (Elt F)) (Φ : PUnit → sProp 𝕄),
    iprop((K (F := F)).ctx EH (P m GI GJ) κ ∗ (K (F := F)).tcSt EH d n
        ∗ Pipeline.cellsGhost cfgs (EP (F := F)) p d ∗ Pipeline.toksInit cfgs (EP (F := F)) p d
        ∗ boundary (SparseCore.T d) ∗ held (SparseCore.T d) (ucRefs τ sig) W
        ∗ (((K (F := F)).tcSt EH d n ∗ boundary (SparseCore.T d) ∗ held (SparseCore.T d) (ucRefs τ sig) (R d W)) -∗ Φ ⟨⟩))
      ⊢ wp frame (wpE ((K (F := F)).defs (D (F := F))) 𝒱 (SparseCore.T d) none) Set.univ
          (Prog.lift (.customCall (SparseCore.inner (Pipeline.entry p)) ())) Φ

/-- What @main leaves: the arrays held at the last valuation. -/
def FIN (d : Dev nD) : sProp 𝕄 := held (SparseCore.T d) (ucRefs τ sig) (W15 m R0 R1 R2 R3 d)

omit [FloatOps F] in
theorem GP_eq (d : Dev nD) : (GP (F := F) d : sProp 𝕄)
    = iprop((Pipeline.cellsGhost cfgs (EP (F := F)) 0 d ∗ Pipeline.toksInit cfgs (EP (F := F)) 0 d)
        ∗ (Pipeline.cellsGhost cfgs (EP (F := F)) 1 d ∗ Pipeline.toksInit cfgs (EP (F := F)) 1 d)
        ∗ (Pipeline.cellsGhost cfgs (EP (F := F)) 2 d ∗ Pipeline.toksInit cfgs (EP (F := F)) 2 d)
        ∗ (Pipeline.cellsGhost cfgs (EP (F := F)) 3 d ∗ Pipeline.toksInit cfgs (EP (F := F)) 3 d)) := by
  unfold GP
  rw [show (Finset.univ : Finset (Fin 4)) = {0, 1, 2, 3} by decide, SparseCore.bigSep_insert' (by decide), SparseCore.bigSep_insert' (by decide),
    SparseCore.bigSep_insert' (by decide), bigSep_singleton]

omit [FloatOps F] in
theorem op_sub (op : HloOp τ sig (Elt F)) (h : op.bufs ⊆ StableHlo.tcRefs τ sig) : op.bufs ⊆ ucRefs τ sig := Pipeline.sub_ucRefs op h

theorem one_sub (y : Ref sig .tc) : ({(Proc.devRef .tc y : DevRef τ sig)} : Finset (DevRef τ sig)) ⊆ StableHlo.tcRefs τ sig := by
  intro b hb
  cases Finset.mem_singleton.mp hb
  exact StableHlo.devRef_mem_tcRefs _
theorem two_sub (x y : Ref sig .tc) : ({(Proc.devRef .tc x : DevRef τ sig), Proc.devRef .tc y} : Finset (DevRef τ sig)) ⊆ StableHlo.tcRefs τ sig := by
  intro b hb
  rcases Finset.mem_insert.mp hb with rfl | hb
  · exact StableHlo.devRef_mem_tcRefs _
  · exact one_sub y hb
theorem three_sub (x y z : Ref sig .tc) :
    ({(Proc.devRef .tc x : DevRef τ sig), Proc.devRef .tc y, Proc.devRef .tc z} : Finset (DevRef τ sig)) ⊆ StableHlo.tcRefs τ sig := by
  intro b hb
  rcases Finset.mem_insert.mp hb with rfl | hb
  · exact StableHlo.devRef_mem_tcRefs _
  · exact two_sub y z hb

variable {R0 R1 R2 R3}

theorem hmain (hf0 : RegionFrame R0 {h', gi', gj'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3)
    (κ : GSem nD τ sig → ℕ) (d : Dev nD) :
    iprop((K (F := F)).ctx EH (P m (GIv m R0) (GJv m R0)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 3 ∗ FIN m R0 R1 R2 R3 d) := by
  unfold SparseCore.Cfg.tcRes
  rw [show (unscopedBufs d (fun b => m ((SparseCore.T d).loc b)) : sProp 𝕄) = held (SparseCore.T d) (ucRefs τ sig) (W0 m d) from unscopedBufs_held d (W0 m d)]
  simp only [main, fn_pad.body, wp_bind, wp_pure]
  iintro ⟨#Hctx, Hst, ⟨Hb, Hh, -, -⟩, HG⟩
  ihave HG' := (Entails.of_eq (GP_eq (F := F) d)) $$ HG
  icases HG' with ⟨⟨Hg0, Ht0⟩, ⟨Hg1, Ht1⟩, ⟨Hg2, Ht2⟩, ⟨Hg3, Ht3⟩⟩
  -- the reshape of `z`, the pad's zero, its conversion, the padded table
  iapply (host_step d (opReshZ (F := F)) rfl (op_sub _ (two_sub main_arg0 main_v0)) rfl (W0 m d))
  isplitl [Hb]; · iexact Hb
  isplitl [Hh]; · iexact Hh
  iintro ⟨Hb, Hh⟩
  iapply (host_step d (opC (F := F)) rfl (op_sub _ (one_sub main_c)) rfl _)
  isplitl [Hb]; · iexact Hb
  isplitl [Hh]; · iexact Hh
  iintro ⟨Hb, Hh⟩
  iapply (host_step d (opCvt (F := F)) rfl (op_sub _ (two_sub main_c main_call0_v0)) rfl _)
  isplitl [Hb]; · iexact Hb
  isplitl [Hh]; · iexact Hh
  iintro ⟨Hb, Hh⟩
  iapply (host_step d (opPad (F := F)) rfl (op_sub _ (three_sub main_arg4 main_call0_v0 main_v1)) rfl _)
  isplitl [Hb]; · iexact Hb
  isplitl [Hh]; · iexact Hh
  iintro ⟨Hb, Hh⟩
  imodintro
  -- the first region: the node embedding and the two node tables
  iapply (hr0 κ d (W4 m d) _)
  isplitr; · iexact Hctx
  isplitl [Hst]; · iexact Hst
  isplitl [Hg0]; · iexact Hg0
  isplitl [Ht0]; · iexact Ht0
  isplitl [Hb]; · iexact Hb
  isplitl [Hh]; · iexact Hh
  iintro ⟨Hst, Hb, Hh⟩
  -- the slice of the weights, the bias as a row
  iapply (host_step d (opSlice (F := F)) rfl (op_sub _ (two_sub main_arg5 main_v3)) rfl (W5 m R0 d))
  isplitl [Hb]; · iexact Hb
  isplitl [Hh]; · iexact Hh
  iintro ⟨Hb, Hh⟩
  iapply (host_step d (opReshB (F := F)) rfl (op_sub _ (two_sub main_arg6 main_v4)) rfl _)
  isplitl [Hb]; · iexact Hb
  isplitl [Hh]; · iexact Hh
  iintro ⟨Hb, Hh⟩
  -- the three gather-and-add calls
  iapply (call_step0 m (GIv m R0) (GJv m R0) κ d (W7 m R0 d) rfl rfl (W7_arg m hf0 d (by decide)) (W7_arg m hf0 d (by decide)))
  isplitr; · iexact Hctx
  isplitl [Hst]; · iexact Hst
  isplitl [Hh]; · iexact Hh
  iintro ⟨Hst, Hh⟩
  iapply (call_step1 m (GIv m R0) (GJv m R0) κ d (W8 m R0 d)
    (Function.update_of_ne (show gi' ≠ s1' by decide) _ _) (Function.update_of_ne (show gj' ≠ s1' by decide) _ _)
    ((Function.update_of_ne (show ii' ≠ s1' by decide) _ _).trans (W7_arg m hf0 d (by decide)))
    ((Function.update_of_ne (show jj' ≠ s1' by decide) _ _).trans (W7_arg m hf0 d (by decide))))
  isplitr; · iexact Hctx
  isplitl [Hst]; · iexact Hst
  isplitl [Hh]; · iexact Hh
  iintro ⟨Hst, Hh⟩
  iapply (call_step2 m (GIv m R0) (GJv m R0) κ d (W9 m R0 d)
    ((Function.update_of_ne (show gi' ≠ s2' by decide) _ _).trans (Function.update_of_ne (show gi' ≠ s1' by decide) _ _))
    ((Function.update_of_ne (show gj' ≠ s2' by decide) _ _).trans (Function.update_of_ne (show gj' ≠ s1' by decide) _ _))
    ((Function.update_of_ne (show ii' ≠ s2' by decide) _ _).trans ((Function.update_of_ne (show ii' ≠ s1' by decide) _ _).trans (W7_arg m hf0 d (by decide))))
    ((Function.update_of_ne (show jj' ≠ s2' by decide) _ _).trans ((Function.update_of_ne (show jj' ≠ s1' by decide) _ _).trans (W7_arg m hf0 d (by decide)))))
  isplitr; · iexact Hctx
  isplitl [Hst]; · iexact Hst
  isplitl [Hh]; · iexact Hh
  iintro ⟨Hst, Hh⟩
  -- the three output regions, the result's buffer copied forward between them
  iapply (hr1 κ d (W10 m R0 d) _)
  isplitr; · iexact Hctx
  isplitl [Hst]; · iexact Hst
  isplitl [Hg1]; · iexact Hg1
  isplitl [Ht1]; · iexact Ht1
  isplitl [Hb]; · iexact Hb
  isplitl [Hh]; · iexact Hh
  iintro ⟨Hst, Hb, Hh⟩
  iapply (host_step d (opCp1 (F := F)) rfl (op_sub _ (two_sub main_v8 main_v9)) rfl (W11 m R0 R1 d))
  isplitl [Hb]; · iexact Hb
  isplitl [Hh]; · iexact Hh
  iintro ⟨Hb, Hh⟩
  iapply (hr2 κ d (W12 m R0 R1 d) _)
  isplitr; · iexact Hctx
  isplitl [Hst]; · iexact Hst
  isplitl [Hg2]; · iexact Hg2
  isplitl [Ht2]; · iexact Ht2
  isplitl [Hb]; · iexact Hb
  isplitl [Hh]; · iexact Hh
  iintro ⟨Hst, Hb, Hh⟩
  iapply (host_step d (opCp2 (F := F)) rfl (op_sub _ (two_sub main_v9 main_v10)) rfl (W13 m R0 R1 R2 d))
  isplitl [Hb]; · iexact Hb
  isplitl [Hh]; · iexact Hh
  iintro ⟨Hb, Hh⟩
  iapply (hr3 κ d (W14 m R0 R1 R2 d) _)
  isplitr; · iexact Hctx
  isplitl [Hst]; · iexact Hst
  isplitl [Hg3]; · iexact Hg3
  isplitl [Ht3]; · iexact Ht3
  isplitl [Hb]; · iexact Hb
  isplitl [Hh]; · iexact Hh
  iintro ⟨Hst, -, Hh⟩
  imodintro
  isplitl [Hst]; · iexact Hst
  unfold FIN W15
  iexact Hh

end Cert.Proof.KB

end
-- ==== Proof.KRun.lean ====
/-
  The kernel program's run, from the launch theorem of a SparseCore program: the three calls' worker obligations and
  their operands' splits, @main on the TensorCore, the launch element, and the final memory read off the arrays the
  TensorCore ends holding. The workers' obligations and the kernel regions' steps enter as hypotheses.
-/
import proofs.«206539_g3985729650836_cont_8to1_b_247_13_alg».proof.Proof.KMain

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable (R0 R1 R2 R3 : Dev nD → Valuation τ sig (Elt F) → Valuation τ sig (Elt F))

/-! ## The arrays held beside a final state pin its memory -/

omit [FloatOps F] in
theorem held_agree (c : Thread nD τ) (S : Finset (DevRef τ sig)) (W : Valuation τ sig (Elt F)) (s' : Phys nD τ sig (Elt F)) :
    iprop(held c S W ∗ SI s') ⊢ (⌜∀ b ∈ S, s'.mem.mem (c.1, b) = W b⌝ : sProp 𝕄) := by
  classical
  induction S using Finset.induction_on with
  | empty =>
    iintro -
    ipureintro
    exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (c.1, b)) (I := Finset.univ) (q := fullShare) (f := W b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | hb'
    · exact funext fun i => h1 i (Finset.mem_univ i)
    · exact h2 b' hb'

/-- What a device's final state must satisfy: every array of the TensorCore at the last valuation. -/
def fq (d : Dev nD) (s' : Phys nD τ sig (Elt F)) : Prop :=
  ∀ b ∈ ucRefs τ sig, s'.mem.mem (d, b) = W15 m R0 R1 R2 R3 d b

theorem hfin (d : Dev nD) (s' : Phys nD τ sig (Elt F)) : iprop(FIN m R0 R1 R2 R3 d ∗ SI s') ⊢ (⌜fq m R0 R1 R2 R3 d s'⌝ : sProp 𝕄) :=
  held_agree (SparseCore.T d) (ucRefs τ sig) (W15 m R0 R1 R2 R3 d) s'

/-- The run's post: on every device every array of the TensorCore holds the last valuation's contents. -/
def QC : PUnit × MemSt nD τ sig (Elt F) → Prop := fun r => ∀ c : Dev nD, ∀ b ∈ ucRefs τ sig, r.2.mem (c, b) = W15 m R0 R1 R2 R3 c b

variable {R0 R1 R2 R3}

theorem run [∀ e, Nonempty (Elt F e)]
    (htile0 : (K (F := F)).TileObl (D (F := F)) 𝒱 (P m (GIv m R0) (GJv m R0)) v₀ 0)
    (htile1 : (K (F := F)).TileObl (D (F := F)) 𝒱 (P m (GIv m R0) (GJv m R0)) v₀ 1)
    (htile2 : (K (F := F)).TileObl (D (F := F)) 𝒱 (P m (GIv m R0) (GJv m R0)) v₀ 2)
    (hf0 : RegionFrame R0 {h', gi', gj'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3) :
    θ_run (Cert.Kernel.defs (F := F)) (Cert.Kernel.threads (F := F)) ⟨m, fun _ => 0, ρ⟩ (QC m R0 R1 R2 R3) :=
  SparseCore.Cfg.θ_run_sc (K := K (F := F)) (D := D (F := F)) (𝒱 := 𝒱) (EH := EH) (P := P m (GIv m R0) (GJv m R0)) facts v₀
    (fun q hq => match q with | 0 => nomatch hq | 1 => nomatch hq | 2 => nomatch hq)
    (fun q _ => match q with | 0 => htile0 | 1 => htile1 | 2 => htile2)
    (fun q _ => match q with
      | 0 => SparseCore.Cfg.VecSplit.of_plain (vecSplit0 m (GIv m R0) (GJv m R0))
      | 1 => SparseCore.Cfg.VecSplit.of_plain (vecSplit1 m (GIv m R0) (GJv m R0))
      | 2 => SparseCore.Cfg.VecSplit.of_plain (vecSplit2 m (GIv m R0) (GJv m R0)))
    m ρ main (fun d => GP (F := F) d) (FIN m R0 R1 R2 R3) (u₀ (F := F)) (sep_elim_left.trans (hu₀ m (GIv m R0) (GJv m R0)))
    (hmain m ρ hf0 hr0 hr1 hr2 hr3) (fq m R0 R1 R2 R3) (hfin m R0 R1 R2 R3) (QC m R0 R1 R2 R3) (fun _ h => h)

end Cert.Proof.KB

end
-- ==== Proof.KFrames.lean ====
/-
  The kernel program's frame, read off its run: every weakly fair execution of all the device's threads terminates,
  nothing faulting, and each argument array ends holding what the launch memory did, because no step of @main writes one.
-/
import proofs.«206539_g3985729650836_cont_8to1_b_247_13_alg».proof.Proof.KRun

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

variable {R0 R1 R2 R3 : Dev nD → Valuation τ sig (Elt F) → Valuation τ sig (Elt F)}

omit [FloatOps F] in
theorem mem_uc (b : Ref sig .tc) (h : (Proc.devRef .tc b : DevRef τ sig).isScoped = false := by decide) : (Proc.devRef .tc b : DevRef τ sig) ∈ ucRefs τ sig :=
  Finset.mem_filter.mpr ⟨StableHlo.devRef_mem_tcRefs b, by rw [h]; exact Bool.false_ne_true⟩

theorem run_frame [∀ e, Nonempty (Elt F e)]
    (htile0 : (K (F := F)).TileObl (D (F := F)) 𝒱 (P m (GIv m R0) (GJv m R0)) v₀ 0)
    (htile1 : (K (F := F)).TileObl (D (F := F)) 𝒱 (P m (GIv m R0) (GJv m R0)) v₀ 1)
    (htile2 : (K (F := F)).TileObl (D (F := F)) 𝒱 (P m (GIv m R0) (GJv m R0)) v₀ 2)
    (hf0 : RegionFrame R0 {h', gi', gj'}) (hf1 : RegionFrame R1 {m1'}) (hf2 : RegionFrame R2 {m2'}) (hf3 : RegionFrame R3 {out'})
    (hr0 : RegionStep m (GIv m R0) (GJv m R0) 0 0 R0) (hr1 : RegionStep m (GIv m R0) (GJv m R0) 1 3 R1)
    (hr2 : RegionStep m (GIv m R0) (GJv m R0) 2 3 R2) (hr3 : RegionStep m (GIv m R0) (GJv m R0) 3 3 R3) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.Kernel.defs (F := F)) _ _).mono (fun r h c =>
    ⟨(h c z' (mem_uc main_arg0)).trans (W15_arg m hf0 hf1 hf2 hf3 c (by decide)),
     (h c rbf' (mem_uc main_arg1)).trans (W15_arg m hf0 hf1 hf2 hf3 c (by decide)),
     (h c ii' (mem_uc main_arg2)).trans (W15_arg m hf0 hf1 hf2 hf3 c (by decide)),
     (h c jj' (mem_uc main_arg3)).trans (W15_arg m hf0 hf1 hf2 hf3 c (by decide)),
     (h c emb' (mem_uc main_arg4)).trans (W15_arg m hf0 hf1 hf2 hf3 c (by decide)),
     (h c w' (mem_uc main_arg5)).trans (W15_arg m hf0 hf1 hf2 hf3 c (by decide)),
     (h c b' (mem_uc main_arg6)).trans (W15_arg m hf0 hf1 hf2 hf3 c (by decide))⟩)
    (run m ρ htile0 htile1 htile2 hf0 hr0 hr1 hr2 hr3)

end Cert.Proof.KB

end
-- ==== Proof.KTcData.lean ====
/-
  The four dense stages of the program, as data for the rule of a blocked, double-buffered loop over an array's row
  blocks: for each stage, what every array it touches holds on entry, what each block buffer holds after the stage's
  body has run at a grid point (an input block is left as read; an output block is the body's value on the input
  blocks of that point), what the loop keeps besides (the buffers no block of the stage passes through), and what the
  processor owes other processors meanwhile (a constant: the stages signal nobody). From these the rule computes what
  each output array holds when the stage ends; those contents are named here.

  Stage 0 (grid of 10 points, 1000 rows each): from the atoms' numbers z, the padded embedding table and the weight
  matrix W, the embeddings h [n, ·] = onehot (z n - 1) · table, and their two images g_i = h · W[:, 0:128]ᵀ,
  g_j = h · W[:, 128:256]ᵀ. Stages 1, 2, 3 (grids of 68, 68, 64 points, 1600 rows each; output blocks number t, t + 68,
  t + 136 of one array of 320000 rows): x = (s + rbf · W[:, 256:272]ᵀ) + b, out = x / (1 + exp (-x)), on the rows of
  the stage's own band; the other rows of the output array keep what they held on entry.
-/
import proofs.«206539_g3985729650836_cont_8to1_b_247_13_alg».proof.Proof.KSetup
import Idealize.ShloMosaic.Lib.Pipeline.FrameBody
import Idealize.ShloMosaic.Lib.Pipeline.Value

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- No stage reads a table ahead of its loop: the one admissible choice of such tables' contents. -/
abbrev adm : (p : Fin 4) → (pcfgs (F := F) p).Adm := fun p => (cfgs p).toPCfg_adm

/-! ## The rectangles the bodies read and write: whole blocks, and the two column bands of the weight block -/

abbrev rZ : Rect S1000x1 := Rect.unit (s := S1000x1) ![0, 0] S1000x1.size inb_S1000x1_S1000x1_0_0
abbrev rE : Rect S128x128 := Rect.unit (s := S128x128) ![0, 0] S128x128.size inb_S128x128_S128x128_0_0
/-- Columns 0 … 127 of the 128 × 272 weight block. -/
abbrev rWi : Rect S128x272 := Rect.unit (s := S128x272) ![0, 0] S128x128.size inb_S128x272_S128x128_0_0
/-- Columns 128 … 255 of it. -/
abbrev rWj : Rect S128x272 := Rect.unit (s := S128x272) ![0, 128] S128x128.size inb_S128x272_S128x128_0_128
abbrev rN : Rect S1000x128 := Rect.unit (s := S1000x128) ![0, 0] S1000x128.size inb_S1000x128_S1000x128_0_0
abbrev rS : Rect S1600x128 := Rect.unit (s := S1600x128) ![0, 0] S1600x128.size inb_S1600x128_S1600x128_0_0
abbrev rR : Rect S1600x16 := Rect.unit (s := S1600x16) ![0, 0] S1600x16.size inb_S1600x16_S1600x16_0_0
abbrev rW3 : Rect S128x16 := Rect.unit (s := S128x16) ![0, 0] S128x16.size inb_S128x16_S128x16_0_0
abbrev rB : Rect S1x128 := Rect.unit (s := S1x128) ![0, 0] S1x128.size inb_S1x128_S1x128_0_0

/-! ## What a body leaves in each output block, from the input blocks of the point -/

/-- Stage 0, first output: the embeddings of the block's 1000 atoms. -/
def outH (z : Vec F S1000x1 .i32) (e : Vec F S128x128 .f32) : Vec F S1000x128 .f32 :=
  View.canon [⟨rN, k0_pay1 (View.ld z rZ) (View.ld e rE)⟩]
/-- Stage 0, second output: the embeddings times the first column band of W, transposed. -/
def outGi (z : Vec F S1000x1 .i32) (e : Vec F S128x128 .f32) (w : Vec F S128x272 .f32) : Vec F S1000x128 .f32 :=
  View.canon [⟨rN, k0_pay2 (View.ld z rZ) (View.ld e rE) (View.ld w rWi)⟩]
/-- Stage 0, third output: the embeddings times the second column band of W, transposed. -/
def outGj (z : Vec F S1000x1 .i32) (e : Vec F S128x128 .f32) (w : Vec F S128x272 .f32) : Vec F S1000x128 .f32 :=
  View.canon [⟨rN, k0_pay3 (View.ld z rZ) (View.ld e rE) (View.ld w rWj)⟩]
/-- Stages 1, 2, 3: the activation of the block's 1600 edges, from the gathered sums s, the radial features r, the
    last column band w of W and the bias row b. -/
def outM4 (s : Vec F S1600x128 .f32) (r : Vec F S1600x16 .f32) (w : Vec F S128x16 .f32) (b : Vec F S1x128 .f32) : Vec F S1600x128 .f32 :=
  View.canon [⟨rS, k4_pay1 (View.ld r rR) (View.ld w rW3) (View.ld s rS) (View.ld b rB)⟩]
def outM5 (s : Vec F S1600x128 .f32) (r : Vec F S1600x16 .f32) (w : Vec F S128x16 .f32) (b : Vec F S1x128 .f32) : Vec F S1600x128 .f32 :=
  View.canon [⟨rS, k5_pay1 (View.ld r rR) (View.ld w rW3) (View.ld s rS) (View.ld b rB)⟩]
def outM6 (s : Vec F S1600x128 .f32) (r : Vec F S1600x16 .f32) (w : Vec F S128x16 .f32) (b : Vec F S1x128 .f32) : Vec F S1600x128 .f32 :=
  View.canon [⟨rS, k6_pay1 (View.ld r rR) (View.ld w rW3) (View.ld s rS) (View.ld b rB)⟩]

section Data

-- What the processor's arrays hold when a stage is entered, what it owes other processors then (unchanged through
-- the stage), and a bound on the waits it has recorded.
variable (V : (d : Dev nD) → (b : Ref sig .tc) → Buf (Elt F) ((d.tc : Thread nD τ).loc b))
  (O : Dev nD → CellTallies nD τ sig (HIx 3)) (B : Set (SemLoc sig × HIx 3))

/-! ## The blocks of the arrays as a stage finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The stages' data -/

/-- Stage 0: inputs z (blocked by rows), the padded table and W (whole); outputs h, g_i, g_j (blocked by rows). -/
def dat0 (c : Dev nD) : Dat τ (Elt F) (HIx 3) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outH (iblk0 V c 0 t) (iblk0 V c 1 t)
    | ⟨4, _⟩ => outGi (iblk0 V c 0 t) (iblk0 V c 1 t) (iblk0 V c 2 t)
    | ⟨5, _⟩ => outGj (iblk0 V c 0 t) (iblk0 V c 1 t) (iblk0 V c 2 t)
  Φ _ := Pipeline.scopedRest spec0 c
  q _ := fullShare
  owed _ := O c
  recorded _ := B

/-- Stage 1: inputs the first gathered sums and rbf (blocked by rows), the last band of W and the bias row (whole);
    output the messages' array, blocks 0 … 67. -/
def dat4 (c : Dev nD) : Dat τ (Elt F) (HIx 3) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outM4 (iblk4 V c 0 t) (iblk4 V c 1 t) (iblk4 V c 2 t) (iblk4 V c 3 t)
  Φ _ := Pipeline.scopedRest spec4 c
  q _ := fullShare
  owed _ := O c
  recorded _ := B

/-- Stage 2: the same over the second gathered sums; output blocks 68 … 135 of its own copy of the messages' array. -/
def dat5 (c : Dev nD) : Dat τ (Elt F) (HIx 3) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outM5 (iblk5 V c 0 t) (iblk5 V c 1 t) (iblk5 V c 2 t) (iblk5 V c 3 t)
  Φ _ := Pipeline.scopedRest spec5 c
  q _ := fullShare
  owed _ := O c
  recorded _ := B

/-- Stage 3: the same over the third gathered sums; output blocks 136 … 199 of its own copy. -/
def dat6 (c : Dev nD) : Dat τ (Elt F) (HIx 3) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => outM6 (iblk6 V c 0 t) (iblk6 V c 1 t) (iblk6 V c 2 t) (iblk6 V c 3 t)
  Φ _ := Pipeline.scopedRest spec6 c
  q _ := fullShare
  owed _ := O c
  recorded _ := B

/-- The four stages' data, each at the one entry contents, tallies and bound (a stage's rule is applied at that
    stage's own). -/
def pdats : (p : Fin 4) → (c : Dev nD) → Dat τ (Elt F) (HIx 3) ℕ UU ℕ (Pipeline.pin (pcfgs (F := F)) adm p) c
  | ⟨0, _⟩ => fun c => dat0 V O B c
  | ⟨1, _⟩ => fun c => dat4 V O B c
  | ⟨2, _⟩ => fun c => dat5 V O B c
  | ⟨3, _⟩ => fun c => dat6 V O B c

end Data

/-! ## What an array holds after the blocks written back below a point depends on the entry contents and the bodies' values only -/

theorem arrAt_congr_data {cfg : Cfg sig Λ₀} {c : Dev nD} (dat dat' : Dat τ (Elt F) (HIx 3) ℕ UU ℕ cfg c)
    (hA : dat.A = dat'.A) (ha : dat.after = dat'.after) (w : Fin cfg.W) : ∀ n, dat.arrAt w n = dat'.arrAt w n
  | 0 => by show dat.A w = dat'.A w; rw [hA]
  | n + 1 => by
    funext i
    rw [Pipeline.Dat.arrAt_succ_apply, Pipeline.Dat.arrAt_succ_apply, arrAt_congr_data dat dat' hA ha w n]
    unfold Pipeline.Dat.flushed; rw [ha]

/-- The messages' array as stage 1 writes it, and the copy stage 2 writes. -/
abbrev m1Loc (d : Dev nD) : Loc nD τ sig := (SparseCore.T d).loc main_v8
abbrev m2Loc (d : Dev nD) : Loc nD τ sig := (SparseCore.T d).loc main_v9

section Values

variable (V : (d : Dev nD) → (b : Ref sig .tc) → Buf (Elt F) ((d.tc : Thread nD τ).loc b))

/-! ## The stages' values: what each output array holds when its stage ends, entered at contents V -/

/-- The embeddings h. -/
def H0 (d : Dev nD) : Buf (Elt F) (hLoc d) := (dat0 V (fun _ => 0) Set.univ d).arrAt 3 cfg0.N
/-- Their first image g_i. -/
def GI0 (d : Dev nD) : Buf (Elt F) (giLoc d) := (dat0 V (fun _ => 0) Set.univ d).arrAt 4 cfg0.N
/-- Their second image g_j. -/
def GJ0 (d : Dev nD) : Buf (Elt F) (gjLoc d) := (dat0 V (fun _ => 0) Set.univ d).arrAt 5 cfg0.N
/-- The messages' array after stage 1, after stage 2 (its own copy), after stage 3 (its own copy). -/
def M1 (d : Dev nD) : Buf (Elt F) (m1Loc d) := (dat4 V (fun _ => 0) Set.univ d).arrAt 4 cfg4.N
def M2 (d : Dev nD) : Buf (Elt F) (m2Loc d) := (dat5 V (fun _ => 0) Set.univ d).arrAt 4 cfg5.N
def M3 (d : Dev nD) : Buf (Elt F) (outLoc d) := (dat6 V (fun _ => 0) Set.univ d).arrAt 4 cfg6.N

variable (O : Dev nD → CellTallies nD τ sig (HIx 3)) (B : Set (SemLoc sig × HIx 3))

theorem arrAt0_eq (d : Dev nD) (w : Fin cfg0.W) (n : ℕ) : (dat0 V O B d).arrAt w n = (dat0 V (fun _ => 0) Set.univ d).arrAt w n :=
  arrAt_congr_data (dat0 V O B d) (dat0 V (fun _ => 0) Set.univ d) rfl rfl w n
theorem arrAt4_eq (d : Dev nD) (w : Fin cfg4.W) (n : ℕ) : (dat4 V O B d).arrAt w n = (dat4 V (fun _ => 0) Set.univ d).arrAt w n :=
  arrAt_congr_data (dat4 V O B d) (dat4 V (fun _ => 0) Set.univ d) rfl rfl w n
theorem arrAt5_eq (d : Dev nD) (w : Fin cfg5.W) (n : ℕ) : (dat5 V O B d).arrAt w n = (dat5 V (fun _ => 0) Set.univ d).arrAt w n :=
  arrAt_congr_data (dat5 V O B d) (dat5 V (fun _ => 0) Set.univ d) rfl rfl w n
theorem arrAt6_eq (d : Dev nD) (w : Fin cfg6.W) (n : ℕ) : (dat6 V O B d).arrAt w n = (dat6 V (fun _ => 0) Set.univ d).arrAt w n :=
  arrAt_congr_data (dat6 V O B d) (dat6 V (fun _ => 0) Set.univ d) rfl rfl w n

end Values

end Cert.Proof.KB

end
-- ==== Proof.KBody0.lean ====
/-
  The body of the first dense stage at a symbolic grid point. On six whole block buffers — the atoms' numbers z of
  the point's 1000 rows, the padded table, the weight matrix, and the three output blocks at anything — it reads the
  three inputs (the weight block through its two column bands), and stores into each output block, whole, the value
  named in the stage's data: the rows' embeddings, and their two images. The inputs are left as read. The loop hands
  the body each input's buffer holding that input's block at the point, fetched there or kept from the point before.
-/
import proofs.«206539_g3985729650836_cont_8to1_b_247_13_alg».proof.Proof.KTcData

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- One store of the whole block covers the block. -/
theorem coverN (p : Vec F S1000x128 .f32) (y : S1000x128.Idx) :
    ∃ pc ∈ ([⟨rN, p⟩] : List (View.Piece (Elt F) S1000x128 .f32)), y ∈ pc.1.set :=
  View.cover_of_tiled [⟨rN, p⟩] S1000x128.size (by rfl) y

set_option maxHeartbeats 1000000 in
/-- The body on whole buffers: the inputs at contents x0, x1, x2 and the outputs at anything, to the inputs as they
    were and the outputs at their values of x0, x1, x2. -/
theorem sound_kernel0 (c : Dev nD) (E : Set ℕ) (i : grid0.Coords)
    (a1 : Memref sig .tc .vmem S1000x1 .i32) (h1 : a1.IsWhole) (a2 : Memref sig .tc .vmem S128x128 .f32) (h2 : a2.IsWhole)
    (a3 : Memref sig .tc .vmem S128x272 .f32) (h3 : a3.IsWhole) (a4 : Memref sig .tc .vmem S1000x128 .f32) (h4 : a4.IsWhole)
    (a5 : Memref sig .tc .vmem S1000x128 .f32) (h5 : a5.IsWhole) (a6 : Memref sig .tc .vmem S1000x128 .f32) (h6 : a6.IsWhole)
    (x0 : Vec F S1000x1 .i32) (x1 : Vec F S128x128 .f32) (x2 : Vec F S128x272 .f32) (Kk : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (outH x0 x1) ∗ owns (c : Thread nD τ) a5 fullShare (outGi x0 x1 x2) ∗ owns (c : Thread nD τ) a6 fullShare (outGj x0 x1 x2)) -∗ Kk ⟨⟩))
      ⊢ wp frame (wpE (defs₀ (F := F)) Variants.none (c : Thread nD τ) none) E (cc0__node_body i a1 h1 a2 h2 a3 h3 a4 h4 a5 h5 a6 h6) Kk := by
  simp only [cc0__node_body_eq_skeleton]; unfold cc0__node_body_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverN _)
  isplitl [H4]
  · iexists _; isplitr
    swap; · iexact H4
    ipureintro
    exact View.read_writes_eq_canon _ _ _ (coverN _)
  iexists _; isplitr
  swap; · iexact H5
  ipureintro
  exact View.read_writes_eq_canon _ _ _ (coverN _)

section Point

variable (V : (d : Dev nD) → (b : Ref sig .tc) → Buf (Elt F) ((d.tc : Thread nD τ).loc b))
  (O : Dev nD → CellTallies nD τ sig (HIx 3)) (B : Set (SemLoc sig × HIx 3))

theorem A_eq0 (c : Dev nD) (w : Fin cfg0.W) : (dat0 V O B c).A w = V c (Pipeline.arrRef spec0 w) := by dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = iblk0 V c 2 t := by dsimp only [dat0]
theorem after0_3 (c : Dev nD) (t : Fin cfg0.N) : (dat0 V O B c).after 3 t = outH (iblk0 V c 0 t) (iblk0 V c 1 t) := by dsimp only [dat0]
theorem after0_4 (c : Dev nD) (t : Fin cfg0.N) : (dat0 V O B c).after 4 t = outGi (iblk0 V c 0 t) (iblk0 V c 1 t) (iblk0 V c 2 t) := by dsimp only [dat0]
theorem after0_5 (c : Dev nD) (t : Fin cfg0.N) : (dat0 V O B c).after 5 t = outGj (iblk0 V c 0 t) (iblk0 V c 1 t) (iblk0 V c 2 t) := by dsimp only [dat0]

/-- An input's current buffer holds the input's block at every point: fetched there, or, the block index not having
    moved, kept from the point before. -/
theorem before0_0 (c : Dev nD) (t : Fin cfg0.N) (d) : (dat0 V O B c).before 0 t d = iblk0 V c 0 t :=
  ((dat0 V O B c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V O B c).before 1 t d = iblk0 V c 1 t :=
  ((dat0 V O B c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V O B c).before 2 t d = iblk0 V c 2 t :=
  ((dat0 V O B c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the loop hands the body at point t, the windows one by one, -/
def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d))
    ∗ (∃ d, owns (c : Thread nD τ) (st0_5 t) fullShare ((dat0 V O B c).before 5 t d)))

/-- and what it takes back. -/
def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t)
    ∗ owns (c : Thread nD τ) (st0_5 t) fullShare ((dat0 V O B c).after 5 t))

set_option maxHeartbeats 1000000 in
/-- The body at any point: the inputs' buffers hold their blocks, so the triple above applies; what the loop keeps and
    what the processor owes pass through unread. -/
theorem sound_body0 (c : Dev nD) (t : Fin cfg0.N) :
    bodyPre0 V O B c t ⊢ wp frame (wpE (defs₀ (F := F)) Variants.none (c : Thread nD τ) none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation of the loop's rule, at every point. -/
theorem body_obligation0 (c : Dev nD) : BodyObligation (dat0 (F := F) V O B c) (defs₀ (F := F)) Variants.none (none : HIx 3) Set.univ := fun t => by
  rw [bigSep_W0, bigSep_W0]
  exact sound_body0 V O B c t

end Point

end Cert.Proof.KB

end
-- ==== Proof.KBodyE.lean ====
/-
  The body of the three last dense stages at a symbolic grid point (one text, three times: the stages differ in the
  arrays their blocks are cut from and in a whole array the second and third are passed and never touch). On five whole
  block buffers — the gathered sums s and the radial features of the point's 1600 edges, the last column band of the
  weight matrix, the bias row, and the output block at anything — it reads the four inputs and stores into the output
  block, whole, x / (1 + exp (-x)) at x = (s + rbf · wᵀ) + b, the value named in the stage's data. The inputs are
  left as read, and the loop hands the body each input's buffer holding that input's block at the point.
-/
import proofs.«206539_g3985729650836_cont_8to1_b_247_13_alg».proof.Proof.KTcData

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-- One store of the whole block covers the block. -/
theorem coverS (p : Vec F S1600x128 .f32) (y : S1600x128.Idx) :
    ∃ pc ∈ ([⟨rS, p⟩] : List (View.Piece (Elt F) S1600x128 .f32)), y ∈ pc.1.set :=
  View.cover_of_tiled [⟨rS, p⟩] S1600x128.size (by rfl) y

/-! ## The stage whose body is `cc4__edge_out_body` -/

set_option maxHeartbeats 1000000 in
/-- The body on whole buffers: the four inputs at contents x0 … x3 and the output at anything, to the inputs as they
    were and the output at its value of them. -/
theorem sound_kernel4 (c : Dev nD) (E : Set ℕ) (i : grid4.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM4 x0 x1 x2 x3)) -∗ Kk ⟨⟩))
      ⊢ wp frame (wpE (defs₀ (F := F)) Variants.none (c : Thread nD τ) none) E (cc4__edge_out_body i a1 h1 a2 h2 a3 h3 a4 h4 a5 h5) Kk := by
  simp only [cc4__edge_out_body_eq_skeleton]; unfold cc4__edge_out_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point4

variable (V : (d : Dev nD) → (b : Ref sig .tc) → Buf (Elt F) ((d.tc : Thread nD τ).loc b))
  (O : Dev nD → CellTallies nD τ sig (HIx 3)) (B : Set (SemLoc sig × HIx 3))

theorem A_eq4 (c : Dev nD) (w : Fin cfg4.W) : (dat4 V O B c).A w = V c (Pipeline.arrRef spec4 w) := by dsimp only [dat4]
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = iblk4 V c 2 t := by dsimp only [dat4]
theorem after4_3 (c : Dev nD) (t : Fin cfg4.N) : (dat4 V O B c).after 3 t = iblk4 V c 3 t := by dsimp only [dat4]
theorem after4_4 (c : Dev nD) (t : Fin cfg4.N) :
    (dat4 V O B c).after 4 t = outM4 (iblk4 V c 0 t) (iblk4 V c 1 t) (iblk4 V c 2 t) (iblk4 V c 3 t) := by dsimp only [dat4]

/-- An input's current buffer holds the input's block at every point: fetched there, or, the block index not having
    moved, kept from the point before. -/
theorem before4_0 (c : Dev nD) (t : Fin cfg4.N) (d) : (dat4 V O B c).before 0 t d = iblk4 V c 0 t :=
  ((dat4 V O B c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V O B c).before 1 t d = iblk4 V c 1 t :=
  ((dat4 V O B c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V O B c).before 2 t d = iblk4 V c 2 t :=
  ((dat4 V O B c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V O B c).before 3 t d = iblk4 V c 3 t :=
  ((dat4 V O B c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-- What the loop hands the body at point t, the windows one by one, -/
def bodyPre4 (c : Dev nD) (t : Fin cfg4.N) : sProp 𝕄 :=
  iprop((dat4 V O B c).Φ t.castSucc ∗ (dat4 V O B c).owesAt none t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d))
    ∗ (∃ d, owns (c : Thread nD τ) (st4_3 t) fullShare ((dat4 V O B c).before 3 t d))
    ∗ (∃ d, owns (c : Thread nD τ) (st4_4 t) fullShare ((dat4 V O B c).before 4 t d)))

/-- and what it takes back. -/
def bodyPost4 (c : Dev nD) (t : Fin cfg4.N) : sProp 𝕄 :=
  iprop((dat4 V O B c).Φ t.succ ∗ (dat4 V O B c).owesAt none t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t)
    ∗ owns (c : Thread nD τ) (st4_3 t) fullShare ((dat4 V O B c).after 3 t)
    ∗ owns (c : Thread nD τ) (st4_4 t) fullShare ((dat4 V O B c).after 4 t))

set_option maxHeartbeats 1000000 in
/-- The body at any point: the inputs' buffers hold their blocks, so the triple above applies; what the loop keeps and
    what the processor owes pass through unread. -/
theorem sound_body4 (c : Dev nD) (t : Fin cfg4.N) :
    bodyPre4 V O B c t ⊢ wp frame (wpE (defs₀ (F := F)) Variants.none (c : Thread nD τ) none) Set.univ (bodyAt4 t) (fun _ => bodyPost4 V O B c t) := by
  unfold bodyPre4 bodyPost4 bodyAt4
  simp only [before4_0, before4_1, before4_2, before4_3]
  rw [show (dat4 V O B c).Φ t.succ = (dat4 V O B c).Φ t.castSucc from rfl,
    show (dat4 V O B c).owesAt none t.succ = (dat4 V O B c).owesAt none t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation4 (c : Dev nD) : BodyObligation (dat4 (F := F) V O B c) (defs₀ (F := F)) Variants.none (none : HIx 3) Set.univ := fun t => by
  rw [bigSep_W4, bigSep_W4]
  exact sound_body4 V O B c t

end Point4

/-! ## The stage whose body is `cc5__edge_out_body_aliased` -/

set_option maxHeartbeats 1000000 in
/-- The body on whole buffers: the four inputs at contents x0 … x3 and the output at anything, to the inputs as they
    were and the output at its value of them. -/
theorem sound_kernel5 (c : Dev nD) (E : Set ℕ) (i : grid5.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole) (ax : Memref sig .tc .hbm S320000x128 .f32) (hx : ax.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM5 x0 x1 x2 x3)) -∗ Kk ⟨⟩))
      ⊢ wp frame (wpE (defs₀ (F := F)) Variants.none (c : Thread nD τ) none) E (cc5__edge_out_body_aliased i a1 h1 a2 h2 a3 h3 a4 h4 ax hx a5 h5) Kk := by
  simp only [cc5__edge_out_body_aliased_eq_skeleton]; unfold cc5__edge_out_body_aliased_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point5

variable (V : (d : Dev nD) → (b : Ref sig .tc) → Buf (Elt F) ((d.tc : Thread nD τ).loc b))
  (O : Dev nD → CellTallies nD τ sig (HIx 3)) (B : Set (SemLoc sig × HIx 3))

theorem A_eq5 (c : Dev nD) (w : Fin cfg5.W) : (dat5 V O B c).A w = V c (Pipeline.arrRef spec5 w) := by dsimp only [dat5]
theorem after5_0 (c : Dev nD) (t : Fin cfg5.N) : (dat5 V O B c).after 0 t = iblk5 V c 0 t := by dsimp only [dat5]
theorem after5_1 (c : Dev nD) (t : Fin cfg5.N) : (dat5 V O B c).after 1 t = iblk5 V c 1 t := by dsimp only [dat5]
theorem after5_2 (c : Dev nD) (t : Fin cfg5.N) : (dat5 V O B c).after 2 t = iblk5 V c 2 t := by dsimp only [dat5]
theorem after5_3 (c : Dev nD) (t : Fin cfg5.N) : (dat5 V O B c).after 3 t = iblk5 V c 3 t := by dsimp only [dat5]
theorem after5_4 (c : Dev nD) (t : Fin cfg5.N) :
    (dat5 V O B c).after 4 t = outM5 (iblk5 V c 0 t) (iblk5 V c 1 t) (iblk5 V c 2 t) (iblk5 V c 3 t) := by dsimp only [dat5]

/-- An input's current buffer holds the input's block at every point: fetched there, or, the block index not having
    moved, kept from the point before. -/
theorem before5_0 (c : Dev nD) (t : Fin cfg5.N) (d) : (dat5 V O B c).before 0 t d = iblk5 V c 0 t :=
  ((dat5 V O B c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V O B c).before 1 t d = iblk5 V c 1 t :=
  ((dat5 V O B c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V O B c).before 2 t d = iblk5 V c 2 t :=
  ((dat5 V O B c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V O B c).before 3 t d = iblk5 V c 3 t :=
  ((dat5 V O B c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)

/-- What the loop hands the body at point t, the windows one by one, -/
def bodyPre5 (c : Dev nD) (t : Fin cfg5.N) : sProp 𝕄 :=
  iprop((dat5 V O B c).Φ t.castSucc ∗ (dat5 V O B c).owesAt none t.castSucc
    ∗ (∃ d, owns (c : Thread nD τ) (st5_0 t) fullShare ((dat5 V O B c).before 0 t d))
    ∗ (∃ d, owns (c : Thread nD τ) (st5_1 t) fullShare ((dat5 V O B c).before 1 t d))
    ∗ (∃ d, owns (c : Thread nD τ) (st5_2 t) fullShare ((dat5 V O B c).before 2 t d))
    ∗ (∃ d, owns (c : Thread nD τ) (st5_3 t) fullShare ((dat5 V O B c).before 3 t d))
    ∗ (∃ d, owns (c : Thread nD τ) (st5_4 t) fullShare ((dat5 V O B c).before 4 t d)))

/-- and what it takes back. -/
def bodyPost5 (c : Dev nD) (t : Fin cfg5.N) : sProp 𝕄 :=
  iprop((dat5 V O B c).Φ t.succ ∗ (dat5 V O B c).owesAt none t.succ
    ∗ owns (c : Thread nD τ) (st5_0 t) fullShare ((dat5 V O B c).after 0 t)
    ∗ owns (c : Thread nD τ) (st5_1 t) fullShare ((dat5 V O B c).after 1 t)
    ∗ owns (c : Thread nD τ) (st5_2 t) fullShare ((dat5 V O B c).after 2 t)
    ∗ owns (c : Thread nD τ) (st5_3 t) fullShare ((dat5 V O B c).after 3 t)
    ∗ owns (c : Thread nD τ) (st5_4 t) fullShare ((dat5 V O B c).after 4 t))

set_option maxHeartbeats 1000000 in
/-- The body at any point: the inputs' buffers hold their blocks, so the triple above applies; what the loop keeps and
    what the processor owes pass through unread. -/
theorem sound_body5 (c : Dev nD) (t : Fin cfg5.N) :
    bodyPre5 V O B c t ⊢ wp frame (wpE (defs₀ (F := F)) Variants.none (c : Thread nD τ) none) Set.univ (bodyAt5 t) (fun _ => bodyPost5 V O B c t) := by
  unfold bodyPre5 bodyPost5 bodyAt5
  simp only [before5_0, before5_1, before5_2, before5_3]
  rw [show (dat5 V O B c).Φ t.succ = (dat5 V O B c).Φ t.castSucc from rfl,
    show (dat5 V O B c).owesAt none t.succ = (dat5 V O B c).owesAt none t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation5 (c : Dev nD) : BodyObligation (dat5 (F := F) V O B c) (defs₀ (F := F)) Variants.none (none : HIx 3) Set.univ := fun t => by
  rw [bigSep_W5, bigSep_W5]
  exact sound_body5 V O B c t

end Point5

/-! ## The stage whose body is `cc6__edge_out_body_aliased` -/

set_option maxHeartbeats 1000000 in
/-- The body on whole buffers: the four inputs at contents x0 … x3 and the output at anything, to the inputs as they
    were and the output at its value of them. -/
theorem sound_kernel6 (c : Dev nD) (E : Set ℕ) (i : grid6.Coords)
    (a1 : Memref sig .tc .vmem S1600x128 .f32) (h1 : a1.IsWhole) (a2 : Memref sig .tc .vmem S1600x16 .f32) (h2 : a2.IsWhole)
    (a3 : Memref sig .tc .vmem S128x16 .f32) (h3 : a3.IsWhole) (a4 : Memref sig .tc .vmem S1x128 .f32) (h4 : a4.IsWhole) (ax : Memref sig .tc .hbm S320000x128 .f32) (hx : ax.IsWhole)
    (a5 : Memref sig .tc .vmem S1600x128 .f32) (h5 : a5.IsWhole)
    (x0 : Vec F S1600x128 .f32) (x1 : Vec F S1600x16 .f32) (x2 : Vec F S128x16 .f32) (x3 : Vec F S1x128 .f32) (Kk : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1 ∗ owns (c : Thread nD τ) a3 fullShare x2 ∗ owns (c : Thread nD τ) a4 fullShare x3
            ∗ owns (c : Thread nD τ) a5 fullShare (outM6 x0 x1 x2 x3)) -∗ Kk ⟨⟩))
      ⊢ wp frame (wpE (defs₀ (F := F)) Variants.none (c : Thread nD τ) none) E (cc6__edge_out_body_aliased i a1 h1 a2 h2 a3 h3 a4 h4 ax hx a5 h5) Kk := by
  simp only [cc6__edge_out_body_aliased_eq_skeleton]; unfold cc6__edge_out_body_aliased_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverS _)

section Point6

variable (V : (d : Dev nD) → (b : Ref sig .tc) → Buf (Elt F) ((d.tc : Thread nD τ).loc b))
  (O : Dev nD → CellTallies nD τ sig (HIx 3)) (B : Set (SemLoc sig × HIx 3))

theorem A_eq6 (c : Dev nD) (w : Fin cfg6.W) : (dat6 V O B c).A w = V c (Pipeline.arrRef spec6 w) := by dsimp only [dat6]
theorem after6_0 (c : Dev nD) (t : Fin cfg6.N) : (dat6 V O B c).after 0 t = iblk6 V c 0 t := by dsimp only [dat6]
theorem after6_1 (c : Dev nD) (t : Fin cfg6.N) : (dat6 V O B c).after 1 t = iblk6 V c 1 t := by dsimp only [dat6]
theorem after6_2 (c : Dev nD) (t : Fin cfg6.N) : (dat6 V O B c).after 2 t = iblk6 V c 2 t := by dsimp only [dat6]
theorem after6_3 (c : Dev nD) (t : Fin cfg6.N) : (dat6 V O B c).after 3 t = iblk6 V c 3 t := by dsimp only [dat6]
theorem after6_4 (c : Dev nD) (t : Fin cfg6.N) :
    (dat6 V O B c).after 4 t = outM6 (iblk6 V c 0 t) (iblk6 V c 1 t) (iblk6 V c 2 t) (iblk6 V c 3 t) := by dsimp only [dat6]

/-- An input's current buffer holds the input's block at every point: fetched there, or, the block index not having
    moved, kept from the point before. -/
theorem before6_0 (c : Dev nD) (t : Fin cfg6.N) (d) : (dat6 V O B c).before 0 t d = iblk6 V c 0 t :=
  ((dat6 V O B c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V O B c).before 1 t d = iblk6 V c 1 t :=
  ((dat6 V O B c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V O B c).before 2 t d = iblk6 V c 2 t :=
  ((dat6 V O B c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V O B c).before 3 t d = iblk6 V c 3 t :=
  ((dat6 V O B c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

/-- What the loop hands the body at point t, the windows one by one, -/
def bodyPre6 (c : Dev nD) (t : Fin cfg6.N) : sProp 𝕄 :=
  iprop((dat6 V O B c).Φ t.castSucc ∗ (dat6 V O B c).owesAt none t.castSucc
    ∗ (∃ d, owns (c : Thread nD τ) (st6_0 t) fullShare ((dat6 V O B c).before 0 t d))
    ∗ (∃ d, owns (c : Thread nD τ) (st6_1 t) fullShare ((dat6 V O B c).before 1 t d))
    ∗ (∃ d, owns (c : Thread nD τ) (st6_2 t) fullShare ((dat6 V O B c).before 2 t d))
    ∗ (∃ d, owns (c : Thread nD τ) (st6_3 t) fullShare ((dat6 V O B c).before 3 t d))
    ∗ (∃ d, owns (c : Thread nD τ) (st6_4 t) fullShare ((dat6 V O B c).before 4 t d)))

/-- and what it takes back. -/
def bodyPost6 (c : Dev nD) (t : Fin cfg6.N) : sProp 𝕄 :=
  iprop((dat6 V O B c).Φ t.succ ∗ (dat6 V O B c).owesAt none t.succ
    ∗ owns (c : Thread nD τ) (st6_0 t) fullShare ((dat6 V O B c).after 0 t)
    ∗ owns (c : Thread nD τ) (st6_1 t) fullShare ((dat6 V O B c).after 1 t)
    ∗ owns (c : Thread nD τ) (st6_2 t) fullShare ((dat6 V O B c).after 2 t)
    ∗ owns (c : Thread nD τ) (st6_3 t) fullShare ((dat6 V O B c).after 3 t)
    ∗ owns (c : Thread nD τ) (st6_4 t) fullShare ((dat6 V O B c).after 4 t))

set_option maxHeartbeats 1000000 in
/-- The body at any point: the inputs' buffers hold their blocks, so the triple above applies; what the loop keeps and
    what the processor owes pass through unread. -/
theorem sound_body6 (c : Dev nD) (t : Fin cfg6.N) :
    bodyPre6 V O B c t ⊢ wp frame (wpE (defs₀ (F := F)) Variants.none (c : Thread nD τ) none) Set.univ (bodyAt6 t) (fun _ => bodyPost6 V O B c t) := by
  unfold bodyPre6 bodyPost6 bodyAt6
  simp only [before6_0, before6_1, before6_2, before6_3]
  rw [show (dat6 V O B c).Φ t.succ = (dat6 V O B c).Φ t.castSucc from rfl,
    show (dat6 V O B c).owesAt none t.succ = (dat6 V O B c).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation of the loop's rule, at every point. -/
theorem body_obligation6 (c : Dev nD) : BodyObligation (dat6 (F := F) V O B c) (defs₀ (F := F)) Variants.none (none : HIx 3) Set.univ := fun t => by
  rw [bigSep_W6, bigSep_W6]
  exact sound_body6 V O B c t

end Point6

end Cert.Proof.KB

end
-- ==== Proof.KRegions.lean ====
/-
  The four dense stages as steps of the main program. Each stage's call runs, by the rule of a blocked loop, from the
  processor holding all its arrays at some contents to holding them with the stage's output arrays at what the loop
  leaves (the values named with the stages' data) and every other array as it was. Around the call the processor may
  owe other processors signals — the starts of the gather calls still to come —, all at the index of some call; the
  loop's own waits are recorded at the index of no call, which sits below every such debt, so they may always be made;
  the debts pass through the stage unchanged. The call is proved under the stages' own table of bodies and then read
  under the table the whole program runs with, which adds the gather calls' dispatch.
-/
import proofs.«206539_g3985729650836_cont_8to1_b_247_13_alg».proof.Proof.KBody0
import proofs.«206539_g3985729650836_cont_8to1_b_247_13_alg».proof.Proof.KBodyE
import Idealize.ShloMosaic.Lib.Pipeline.RegionsLoop
import Idealize.ShloMosaic.Lib.Pipeline.FrameSuffix

noncomputable section

namespace Cert.Proof.KB

open Cert.Kernel Cert.Kernel.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 3) (Elt F) ℕ UU ℕ

/-- A call of a stage's region, read in the extended table's signature, is the call of the same label there. -/
theorem lift_entry (p : Fin 4) :
    SparseCore.liftProg (Q := 3) (Prog.lift (.customCall (Pipeline.entry p) ()) : Prog (TpuEff nD τ sig (Elt F) (ΛP (F := F)) .tc) PUnit)
      = Prog.lift (.customCall (SparseCore.inner (Pipeline.entry p)) ()) := rfl

variable (V V' : (d : Dev nD) → (b : Ref sig .tc) → Buf (Elt F) ((d.tc : Thread nD τ).loc b))
  (O : Dev nD → CellTallies nD τ sig (HIx 3)) (B : Set (SemLoc sig × HIx 3))
  (lv : GSem nD τ sig → HIx 3 → ℕ)

/-! ## The inputs' arrays are left as entered -/

/-- Stage 0 never writes an input's array: after any number of its points the array holds what it held on entry. -/
theorem arrAt_in_0 (d : Dev nD) (w : Fin cfg0.W) (hw : (cfg0.win w).isOut = false) (n : ℕ) :
    (dat0 V O B d).arrAt w n = V d (Pipeline.arrRef spec0 w) :=
  ((dat0 V O B d).arrAt_in w hw n).trans (A_eq0 V O B d w)

/-- Stage 1 never writes an input's array: after any number of its points the array holds what it held on entry. -/
theorem arrAt_in_1 (d : Dev nD) (w : Fin cfg4.W) (hw : (cfg4.win w).isOut = false) (n : ℕ) :
    (dat4 V O B d).arrAt w n = V d (Pipeline.arrRef spec4 w) :=
  ((dat4 V O B d).arrAt_in w hw n).trans (A_eq4 V O B d w)

/-- Stage 2 never writes an input's array: after any number of its points the array holds what it held on entry. -/
theorem arrAt_in_2 (d : Dev nD) (w : Fin cfg5.W) (hw : (cfg5.win w).isOut = false) (n : ℕ) :
    (dat5 V O B d).arrAt w n = V d (Pipeline.arrRef spec5 w) :=
  ((dat5 V O B d).arrAt_in w hw n).trans (A_eq5 V O B d w)

/-- Stage 3 never writes an input's array: after any number of its points the array holds what it held on entry. -/
theorem arrAt_in_3 (d : Dev nD) (w : Fin cfg6.W) (hw : (cfg6.win w).isOut = false) (n : ℕ) :
    (dat6 V O B d).arrAt w n = V d (Pipeline.arrRef spec6 w) :=
  ((dat6 V O B d).arrAt_in w hw n).trans (A_eq6 V O B d w)

/-! ## Stage 0 -/

set_option backward.isDefEq.respectTransparency.types false in
/-- Stage 0 as a region of the main program: entered holding every array of the processor at contents V and owing
    O with recorded waits within B, left holding them at V' — the stage's arrays at what its loop leaves, the others
    as entered — owing the same, the recorded waits within B and the loop's own. -/
def reg0 (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) :
    Pipeline.RegionSeg (pcfgs (F := F)) adm (pdats V O B) none defs₀ 𝒱₀ (K (F := F)).L lv 0 where
  win := launch0.win.to₀
  block_pos := launch0.block_pos
  stage_whole := launch0.stage_whole
  K := PEmpty
  osem k := k.elim
  ho := Pipeline.OwnSemFacts.none _
  hbody c := (body_obligation0 V O B c).loose
  hwaits c := Pipeline.cellsWaits_intro (Pipeline.pin (pcfgs (F := F)) adm) (pdats V O B) none 0 c fun w s t =>
    (K (F := F)).mayWait_none (thr := (c.tc : Thread nD τ)) (.dma (((Pipeline.pin (pcfgs (F := F)) adm 0).win w).sem s)) (hO c) lv hlv
  pre c := iprop(unscopedBufs c (V c) ∗ Pipeline.owesWithin c (O c) B)
  post c := iprop(unscopedBufs c (V' c) ∗ Pipeline.owesWithin c (O c) (B ∪ (cfgs 0).waitPairs none))
  X _ := iprop(emp)
  Y _ := iprop(emp)
  Z c := Pipeline.unscopedRest spec0 c (V c)
  hentry c := by
    rw [Pipeline.ownSems0_none]
    have hsplit := Pipeline.arrays_of_unscopedBufs (p := 0) (pcfgs (F := F)) adm (pdats V O B) launch0.win launch0.arr_whole c
      ((pdats V O B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 0 c).Φ 0 = Pipeline.scopedRest spec0 c from rfl]
    iintro ⟨-, -, Hr⟩
    iexact Hr
  hout c := by
    rw [Pipeline.ownSems0_none, show (pdats V O B 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 3) (Name := ℕ) (U := UU) (Lvl := ℕ)
      launch0.win launch0.arr_whole c (pdats V O B) ((pdats V O B 0 c).share_full fun _ => rfl)
      (V c) (V' c) ((pdats V O B 0 c).arrAt · cfg0.N) (fun w => (arrAt0_eq V O B c w cfg0.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_0_tc (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop(levAts (K (F := F)).L lv
        ∗ Pipeline.cellsGhost cfgs (EP (F := F)) 0 d ∗ Pipeline.toksInit cfgs (EP (F := F)) 0 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 0) ()))
          (fun _ => iprop(boundary (d.tc : Thread nD τ) ∗ unscopedBufs d (V' d)
             ∗ Pipeline.owesWithin d (O d) (B ∪ (cfgs 0).waitPairs none))) : sProp 𝕄) := by
  have h := Pipeline.RegionSeg.wp (pcfgs (F := F)) adm (pdats V O B) none cellOf_inj (EP (F := F)) defs₀ 𝒱₀ (K (F := F)).L lv
    (reg0 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 0).waitPairs none)))
  refine BIBase.Entails.trans ?_ h
  dsimp only [reg0]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_0 (hlv : (K (F := F)).Refines lv) (hO : ∀ d g, O d g none = 0)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop(levAts (K (F := F)).L lv
        ∗ Pipeline.cellsGhost cfgs (EP (F := F)) 0 d ∗ Pipeline.toksInit cfgs (EP (F := F)) 0 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 0)) ()))
          (fun _ => iprop(boundary (d.tc : Thread nD τ) ∗ unscopedBufs d (V' d)
             ∗ Pipeline.owesWithin d (O d) (B ∪ (cfgs 0).waitPairs none))) : sProp 𝕄) := by
  rw [← lift_entry (F := F) 0]
  exact (region_0_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_0 (Pp : (K (F := F)).Pay (nD := nD) (Val := Elt F) (Name := ℕ) (U := UU))
    (κ : GSem nD τ sig → ℕ) (hlv : (K (F := F)).Refines lv) (n : ℕ)
    (hF : ∀ d w, (dat0 V (fun _ => 0) Set.univ d).arrAt w cfg0.N = V' d (Pipeline.arrRef spec0 w))
    (hrest : ∀ d b, b ∉ Finset.univ.image (Pipeline.arrRef spec0) → V' d b = V d b) (d : Dev nD) :
    iprop((K (F := F)).ctx (EH (F := F)) Pp κ lv ∗ (K (F := F)).tcSt (EH (F := F)) d n
        ∗ Pipeline.cellsGhost cfgs (EP (F := F)) 0 d ∗ Pipeline.toksInit cfgs (EP (F := F)) 0 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 0)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_0 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 1 -/

set_option backward.isDefEq.respectTransparency.types false in
/-- Stage 1 as a region of the main program: entered holding every array of the processor at contents V and owing
    O with recorded waits within B, left holding them at V' — the stage's arrays at what its loop leaves, the others
    as entered — owing the same, the recorded waits within B and the loop's own. -/
def reg4 (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) :
    Pipeline.RegionSeg (pcfgs (F := F)) adm (pdats V O B) none defs₀ 𝒱₀ (K (F := F)).L lv 1 where
  win := launch4.win.to₀
  block_pos := launch4.block_pos
  stage_whole := launch4.stage_whole
  K := PEmpty
  osem k := k.elim
  ho := Pipeline.OwnSemFacts.none _
  hbody c := (body_obligation4 V O B c).loose
  hwaits c := Pipeline.cellsWaits_intro (Pipeline.pin (pcfgs (F := F)) adm) (pdats V O B) none 1 c fun w s t =>
    (K (F := F)).mayWait_none (thr := (c.tc : Thread nD τ)) (.dma (((Pipeline.pin (pcfgs (F := F)) adm 1).win w).sem s)) (hO c) lv hlv
  pre c := iprop(unscopedBufs c (V c) ∗ Pipeline.owesWithin c (O c) B)
  post c := iprop(unscopedBufs c (V' c) ∗ Pipeline.owesWithin c (O c) (B ∪ (cfgs 1).waitPairs none))
  X _ := iprop(emp)
  Y _ := iprop(emp)
  Z c := Pipeline.unscopedRest spec4 c (V c)
  hentry c := by
    rw [Pipeline.ownSems0_none]
    have hsplit := Pipeline.arrays_of_unscopedBufs (p := 1) (pcfgs (F := F)) adm (pdats V O B) launch4.win launch4.arr_whole c
      ((pdats V O B 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 1 c).Φ 0 = Pipeline.scopedRest spec4 c from rfl]
    iintro ⟨-, -, Hr⟩
    iexact Hr
  hout c := by
    rw [Pipeline.ownSems0_none, show (pdats V O B 1 c).Φ (Fin.last _) = Pipeline.scopedRest spec4 c from rfl]
    iintro Hr
    isplitr; · iempintro
    isplitr; · iempintro
    iexact Hr
  hexit c := by
    have hjoin := Pipeline.unscopedBufs_of_arrays (p := 1) (pcfgs (F := F)) adm (Ix := HIx 3) (Name := ℕ) (U := UU) (Lvl := ℕ)
      launch4.win launch4.arr_whole c (pdats V O B) ((pdats V O B 1 c).share_full fun _ => rfl)
      (V c) (V' c) ((pdats V O B 1 c).arrAt · cfg4.N) (fun w => (arrAt4_eq V O B c w cfg4.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_1_tc (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop(levAts (K (F := F)).L lv
        ∗ Pipeline.cellsGhost cfgs (EP (F := F)) 1 d ∗ Pipeline.toksInit cfgs (EP (F := F)) 1 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 1) ()))
          (fun _ => iprop(boundary (d.tc : Thread nD τ) ∗ unscopedBufs d (V' d)
             ∗ Pipeline.owesWithin d (O d) (B ∪ (cfgs 1).waitPairs none))) : sProp 𝕄) := by
  have h := Pipeline.RegionSeg.wp (pcfgs (F := F)) adm (pdats V O B) none cellOf_inj (EP (F := F)) defs₀ 𝒱₀ (K (F := F)).L lv
    (reg4 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 1).waitPairs none)))
  refine BIBase.Entails.trans ?_ h
  dsimp only [reg4]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_1 (hlv : (K (F := F)).Refines lv) (hO : ∀ d g, O d g none = 0)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop(levAts (K (F := F)).L lv
        ∗ Pipeline.cellsGhost cfgs (EP (F := F)) 1 d ∗ Pipeline.toksInit cfgs (EP (F := F)) 1 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 1)) ()))
          (fun _ => iprop(boundary (d.tc : Thread nD τ) ∗ unscopedBufs d (V' d)
             ∗ Pipeline.owesWithin d (O d) (B ∪ (cfgs 1).waitPairs none))) : sProp 𝕄) := by
  rw [← lift_entry (F := F) 1]
  exact (region_1_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_1 (Pp : (K (F := F)).Pay (nD := nD) (Val := Elt F) (Name := ℕ) (U := UU))
    (κ : GSem nD τ sig → ℕ) (hlv : (K (F := F)).Refines lv) (n : ℕ)
    (hF : ∀ d w, (dat4 V (fun _ => 0) Set.univ d).arrAt w cfg4.N = V' d (Pipeline.arrRef spec4 w))
    (hrest : ∀ d b, b ∉ Finset.univ.image (Pipeline.arrRef spec4) → V' d b = V d b) (d : Dev nD) :
    iprop((K (F := F)).ctx (EH (F := F)) Pp κ lv ∗ (K (F := F)).tcSt (EH (F := F)) d n
        ∗ Pipeline.cellsGhost cfgs (EP (F := F)) 1 d ∗ Pipeline.toksInit cfgs (EP (F := F)) 1 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 1)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_1 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 2 -/

set_option backward.isDefEq.respectTransparency.types false in
/-- Stage 2 as a region of the main program: entered holding every array of the processor at contents V and owing
    O with recorded waits within B, left holding them at V' — the stage's arrays at what its loop leaves, the others
    as entered — owing the same, the recorded waits within B and the loop's own. -/
def reg5 (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) :
    Pipeline.RegionSeg (pcfgs (F := F)) adm (pdats V O B) none defs₀ 𝒱₀ (K (F := F)).L lv 2 where
  win := launch5.win.to₀
  block_pos := launch5.block_pos
  stage_whole := launch5.stage_whole
  K := PEmpty
  osem k := k.elim
  ho := Pipeline.OwnSemFacts.none _
  hbody c := (body_obligation5 V O B c).loose
  hwaits c := Pipeline.cellsWaits_intro (Pipeline.pin (pcfgs (F := F)) adm) (pdats V O B) none 2 c fun w s t =>
    (K (F := F)).mayWait_none (thr := (c.tc : Thread nD τ)) (.dma (((Pipeline.pin (pcfgs (F := F)) adm 2).win w).sem s)) (hO c) lv hlv
  pre c := iprop(unscopedBufs c (V c) ∗ Pipeline.owesWithin c (O c) B)
  post c := iprop(unscopedBufs c (V' c) ∗ Pipeline.owesWithin c (O c) (B ∪ (cfgs 2).waitPairs none))
  X _ := iprop(emp)
  Y _ := iprop(emp)
  Z c := Pipeline.unscopedRest spec5 c (V c)
  hentry c := by
    rw [Pipeline.ownSems0_none]
    have hsplit := Pipeline.arrays_of_unscopedBufs (p := 2) (pcfgs (F := F)) adm (pdats V O B) launch5.win launch5.arr_whole c
      ((pdats V O B 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 2 c).Φ 0 = Pipeline.scopedRest spec5 c from rfl]
    iintro ⟨-, -, Hr⟩
    iexact Hr
  hout c := by
    rw [Pipeline.ownSems0_none, show (pdats V O B 2 c).Φ (Fin.last _) = Pipeline.scopedRest spec5 c from rfl]
    iintro Hr
    isplitr; · iempintro
    isplitr; · iempintro
    iexact Hr
  hexit c := by
    have hjoin := Pipeline.unscopedBufs_of_arrays (p := 2) (pcfgs (F := F)) adm (Ix := HIx 3) (Name := ℕ) (U := UU) (Lvl := ℕ)
      launch5.win launch5.arr_whole c (pdats V O B) ((pdats V O B 2 c).share_full fun _ => rfl)
      (V c) (V' c) ((pdats V O B 2 c).arrAt · cfg5.N) (fun w => (arrAt5_eq V O B c w cfg5.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_2_tc (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop(levAts (K (F := F)).L lv
        ∗ Pipeline.cellsGhost cfgs (EP (F := F)) 2 d ∗ Pipeline.toksInit cfgs (EP (F := F)) 2 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 2) ()))
          (fun _ => iprop(boundary (d.tc : Thread nD τ) ∗ unscopedBufs d (V' d)
             ∗ Pipeline.owesWithin d (O d) (B ∪ (cfgs 2).waitPairs none))) : sProp 𝕄) := by
  have h := Pipeline.RegionSeg.wp (pcfgs (F := F)) adm (pdats V O B) none cellOf_inj (EP (F := F)) defs₀ 𝒱₀ (K (F := F)).L lv
    (reg5 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 2).waitPairs none)))
  refine BIBase.Entails.trans ?_ h
  dsimp only [reg5]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_2 (hlv : (K (F := F)).Refines lv) (hO : ∀ d g, O d g none = 0)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop(levAts (K (F := F)).L lv
        ∗ Pipeline.cellsGhost cfgs (EP (F := F)) 2 d ∗ Pipeline.toksInit cfgs (EP (F := F)) 2 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 2)) ()))
          (fun _ => iprop(boundary (d.tc : Thread nD τ) ∗ unscopedBufs d (V' d)
             ∗ Pipeline.owesWithin d (O d) (B ∪ (cfgs 2).waitPairs none))) : sProp 𝕄) := by
  rw [← lift_entry (F := F) 2]
  exact (region_2_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_2 (Pp : (K (F := F)).Pay (nD := nD) (Val := Elt F) (Name := ℕ) (U := UU))
    (κ : GSem nD τ sig → ℕ) (hlv : (K (F := F)).Refines lv) (n : ℕ)
    (hF : ∀ d w, (dat5 V (fun _ => 0) Set.univ d).arrAt w cfg5.N = V' d (Pipeline.arrRef spec5 w))
    (hrest : ∀ d b, b ∉ Finset.univ.image (Pipeline.arrRef spec5) → V' d b = V d b) (d : Dev nD) :
    iprop((K (F := F)).ctx (EH (F := F)) Pp κ lv ∗ (K (F := F)).tcSt (EH (F := F)) d n
        ∗ Pipeline.cellsGhost cfgs (EP (F := F)) 2 d ∗ Pipeline.toksInit cfgs (EP (F := F)) 2 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 2)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_2 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

/-! ## Stage 3 -/

set_option backward.isDefEq.respectTransparency.types false in
/-- Stage 3 as a region of the main program: entered holding every array of the processor at contents V and owing
    O with recorded waits within B, left holding them at V' — the stage's arrays at what its loop leaves, the others
    as entered — owing the same, the recorded waits within B and the loop's own. -/
def reg6 (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) :
    Pipeline.RegionSeg (pcfgs (F := F)) adm (pdats V O B) none defs₀ 𝒱₀ (K (F := F)).L lv 3 where
  win := launch6.win.to₀
  block_pos := launch6.block_pos
  stage_whole := launch6.stage_whole
  K := PEmpty
  osem k := k.elim
  ho := Pipeline.OwnSemFacts.none _
  hbody c := (body_obligation6 V O B c).loose
  hwaits c := Pipeline.cellsWaits_intro (Pipeline.pin (pcfgs (F := F)) adm) (pdats V O B) none 3 c fun w s t =>
    (K (F := F)).mayWait_none (thr := (c.tc : Thread nD τ)) (.dma (((Pipeline.pin (pcfgs (F := F)) adm 3).win w).sem s)) (hO c) lv hlv
  pre c := iprop(unscopedBufs c (V c) ∗ Pipeline.owesWithin c (O c) B)
  post c := iprop(unscopedBufs c (V' c) ∗ Pipeline.owesWithin c (O c) (B ∪ (cfgs 3).waitPairs none))
  X _ := iprop(emp)
  Y _ := iprop(emp)
  Z c := Pipeline.unscopedRest spec6 c (V c)
  hentry c := by
    rw [Pipeline.ownSems0_none]
    have hsplit := Pipeline.arrays_of_unscopedBufs (p := 3) (pcfgs (F := F)) adm (pdats V O B) launch6.win launch6.arr_whole c
      ((pdats V O B 3 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    iexact Hrest
  hin c := by
    rw [show (pdats V O B 3 c).Φ 0 = Pipeline.scopedRest spec6 c from rfl]
    iintro ⟨-, -, Hr⟩
    iexact Hr
  hout c := by
    rw [Pipeline.ownSems0_none, show (pdats V O B 3 c).Φ (Fin.last _) = Pipeline.scopedRest spec6 c from rfl]
    iintro Hr
    isplitr; · iempintro
    isplitr; · iempintro
    iexact Hr
  hexit c := by
    have hjoin := Pipeline.unscopedBufs_of_arrays (p := 3) (pcfgs (F := F)) adm (Ix := HIx 3) (Name := ℕ) (U := UU) (Lvl := ℕ)
      launch6.win launch6.arr_whole c (pdats V O B) ((pdats V O B 3 c).share_full fun _ => rfl)
      (V c) (V' c) ((pdats V O B 3 c).arrAt · cfg6.N) (fun w => (arrAt6_eq V O B c w cfg6.N).trans (hF c w)) (hrest c)
    iintro ⟨Ha, HO, -, Hrest⟩
    imodintro
    isplitl [Ha Hrest]
    · iapply hjoin; isplitl [Ha] <;> iassumption
    iexact HO

set_option maxHeartbeats 1000000 in
set_option backward.isDefEq.respectTransparency.types false in
/-- The region's call, under the stages' own table of bodies. -/
theorem region_3_tc (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop(levAts (K (F := F)).L lv
        ∗ Pipeline.cellsGhost cfgs (EP (F := F)) 3 d ∗ Pipeline.toksInit cfgs (EP (F := F)) 3 d
        ∗ boundary (d.tc : Thread nD τ) ∗ unscopedBufs d (V d)
        ∗ Pipeline.owesWithin d (O d) B)
      ⊢ (wp frame (wpE (D (F := F)) 𝒱 (d.tc : Thread nD τ) none) Set.univ
          (Prog.lift (.customCall (Pipeline.entry 3) ()))
          (fun _ => iprop(boundary (d.tc : Thread nD τ) ∗ unscopedBufs d (V' d)
             ∗ Pipeline.owesWithin d (O d) (B ∪ (cfgs 3).waitPairs none))) : sProp 𝕄) := by
  have h := Pipeline.RegionSeg.wp (pcfgs (F := F)) adm (pdats V O B) none cellOf_inj (EP (F := F)) defs₀ 𝒱₀ (K (F := F)).L lv
    (reg6 V V' O B lv hlv hO hF hrest) d none (fun u hu => nomatch hu) (α := PUnit) Prog.ret
    (fun _ => iprop(boundary (d.tc : Thread nD τ) ∗ unscopedBufs d (V' d)
             ∗ Pipeline.owesWithin d (O d) (B ∪ (cfgs 3).waitPairs none)))
  refine BIBase.Entails.trans ?_ h
  dsimp only [reg6]
  rw [wp_ret]
  iintro ⟨Hlev, Hg, Ht, Hb, Hu, Ho⟩
  isplitr
  · iintro ⟨Hb, Hp⟩
    imodintro
    isplitl [Hb]; · iexact Hb
    iexact Hp
  isplitl [Hb]; · iexact Hb
  isplitl [Hu Ho]; · isplitl [Hu] <;> iassumption
  isplitl [Hlev]; · iexact Hlev
  isplitl [Hg]; · iexact Hg
  iexact Ht

/-- The same call as the whole program makes it, under the table extended by the gather calls' dispatch. -/
theorem region_3 (hlv : (K (F := F)).Refines lv) (hO : ∀ d g, O d g none = 0)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop(levAts (K (F := F)).L lv
        ∗ Pipeline.cellsGhost cfgs (EP (F := F)) 3 d ∗ Pipeline.toksInit cfgs (EP (F := F)) 3 d
        ∗ boundary (d.tc : Thread nD τ) ∗ unscopedBufs d (V d)
        ∗ Pipeline.owesWithin d (O d) B)
      ⊢ (wp frame (wpE ((K (F := F)).defs D) 𝒱 (SparseCore.T d) none) Set.univ
          (Prog.lift (.customCall (SparseCore.inner (Pipeline.entry 3)) ()))
          (fun _ => iprop(boundary (d.tc : Thread nD τ) ∗ unscopedBufs d (V' d)
             ∗ Pipeline.owesWithin d (O d) (B ∪ (cfgs 3).waitPairs none))) : sProp 𝕄) := by
  rw [← lift_entry (F := F) 3]
  exact (region_3_tc V V' O B lv hlv hO hF hrest d).trans
    ((K (F := F)).wp_liftProg D 𝒱 (SparseCore.T d) Set.univ none _ _)

/-- The same around the processor's state in the gather calls' handshakes after n of them: what it owes is what those
    handshakes have it owe, every unit at a call's index, and the waits the loop records are at the index of no call, the
    lowest level. -/
theorem region_step_3 (Pp : (K (F := F)).Pay (nD := nD) (Val := Elt F) (Name := ℕ) (U := UU))
    (κ : GSem nD τ sig → ℕ) (hlv : (K (F := F)).Refines lv) (n : ℕ)
    (hF : ∀ d w, (dat6 V (fun _ => 0) Set.univ d).arrAt w cfg6.N = V' d (Pipeline.arrRef spec6 w))
    (hrest : ∀ d b, b ∉ Finset.univ.image (Pipeline.arrRef spec6) → V' d b = V d b) (d : Dev nD) :
    iprop((K (F := F)).ctx (EH (F := F)) Pp κ lv ∗ (K (F := F)).tcSt (EH (F := F)) d n
        ∗ Pipeline.cellsGhost cfgs (EP (F := F)) 3 d ∗ Pipeline.toksInit cfgs (EP (F := F)) 3 d
        ∗ boundary (d.tc : Thread nD τ) ∗ unscopedBufs d (V d))
      ⊢ (wp frame (wpE ((K (F := F)).defs D) 𝒱 (SparseCore.T d) none) Set.univ
          (Prog.lift (.customCall (SparseCore.inner (Pipeline.entry 3)) ()))
          (fun _ => iprop((K (F := F)).tcSt (EH (F := F)) d n ∗ boundary (d.tc : Thread nD τ) ∗ unscopedBufs d (V' d))) : sProp 𝕄) := by
  have hO : ∀ (d' : Dev nD) (g : GSem nD τ sig), (K (F := F)).Otc d' n g none = 0 := fun d' g => Nat.eq_zero_of_not_pos fun h => by
    have h' : 8 * n + 1 ≤ 0 :=
      SparseCore.Cfg.lev_of_Otc_pos (K := K (F := F)) (d := d') (n := n) (g := g) (ι := none) h
    omega
  unfold SparseCore.Cfg.tcSt
  iintro ⟨Hctx, ⟨⟨%W, %hW, HO⟩, Hrest⟩, Hg, Ht, Hb, Hu⟩
  ihave Hlev := (SparseCore.Cfg.ctx_levAts κ) $$ Hctx
  iapply (wp_wand_r frame _ Set.univ)
  isplitl [Hlev Hg Ht Hb Hu HO]
  · iapply (region_3 V V' (fun d' => (K (F := F)).Otc d' n) (↑W : Set (SemLoc sig × HIx 3)) lv hlv hO hF hrest d)
    isplitl [Hlev]; · iexact Hlev
    isplitl [Hg]; · iexact Hg
    isplitl [Ht]; · iexact Ht
    isplitl [Hb]; · iexact Hb
    isplitl [Hu]; · iexact Hu
    iexists W; isplitr; · ipureintro; exact subset_rfl
    iexact HO
  · iintro %_ ⟨Hb, Hu, ⟨%W', %hW', HO⟩⟩
    isplitl [HO Hrest]
    · isplitl [HO]
      · iexists W'; isplitr
        · ipureintro
          intro q hq
          rcases hW' (Finset.mem_coe.mpr hq) with hq' | ⟨w, s, rfl⟩
          · exact hW q (Finset.mem_coe.mp hq')
          · rw [SparseCore.Cfg.lev_none]; exact Nat.zero_le _
        iexact HO
      iexact Hrest
    isplitl [Hb]; · iexact Hb
    iexact Hu

end Cert.Proof.KB

end
-- ==== Proof.KRegionGlue.lean ====
/-
  The four dense stages as steps of @main at a valuation of the processor's arrays: each stage's effect on the valuation
  is its windows' arrays at what the blocked loop leaves; it touches nothing but the stage's output arrays, an input
  window's array ending as it was found.
-/
import proofs.«206539_g3985729650836_cont_8to1_b_247_13_alg».proof.Proof.KMain
import proofs.«206539_g3985729650836_cont_8to1_b_247_13_alg».proof.Proof.KRegions

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-- A valuation of one device's arrays as a region's entry contents (a region's data at a device reads that device's). -/
def toV (W : Valuation τ sig (Elt F)) : (d : Dev nD) → (b : Ref sig .tc) → Buf (Elt F) ((d.tc : Thread nD τ).loc b) :=
  fun _ b => W (Proc.devRef .tc b)

/-! ## Stage 0 -/

/-- What stage 0 does to the valuation of the processor's arrays: its windows' arrays at what the blocked loop leaves. -/
def Rg0 (d : Dev nD) (W : Valuation τ sig (Elt F)) : Valuation τ sig (Elt F) :=
  Pipeline.withArrays spec0 d W (fun w => (dat0 (toV W) (fun _ => 0) Set.univ d).arrAt w cfg0.N)

/-- An input window's array is as the stage found it: no point writes a block of it back. -/
theorem arrAt0_in (V : (d : Dev nD) → (b : Ref sig .tc) → Buf (Elt F) ((d.tc : Thread nD τ).loc b)) (d : Dev nD) (w : Fin 6)
    (hw : ∀ t, (cfg0.win w).flush t = false) : (dat0 V (fun _ => 0) Set.univ d).arrAt w cfg0.N = V d (Pipeline.arrRef spec0 w) := by
  funext i
  exact (dat0 V (fun _ => 0) Set.univ d).arrAt_apply_of_forall_not_mem w cfg0.N i (fun t _ hf => absurd hf (by rw [hw t]; exact Bool.false_ne_true))

theorem regionStep0 (GI : (d : Dev nD) → Buf (Elt F) (giLoc d)) (GJ : (d : Dev nD) → Buf (Elt F) (gjLoc d)) (n : ℕ) :
    RegionStep m GI GJ 0 n (Rg0 (F := F)) := by
  intro κ d W Φ
  have hstep := region_step_0 (toV W) (fun d' b => Rg0 d' W (Proc.devRef .tc b)) (K (F := F)).lev (P m GI GJ) κ (K (F := F)).refines_self n
    (fun d' w => by unfold Rg0; exact (Pipeline.withArrays_arr spec0 launch0.win.arr_inj d' W (fun w => (dat0 (toV W) (fun _ => 0) Set.univ d').arrAt w cfg0.N) w).symm)
    (fun d' b hb => by unfold Rg0; exact Pipeline.withArrays_of_ne spec0 d' W _ b (fun w e => hb (Finset.mem_image.mpr ⟨w, Finset.mem_univ _, e⟩))) d
  rw [← unscopedBufs_held d W, ← unscopedBufs_held d (Rg0 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame0 : RegionFrame (Rg0 (F := F)) {h', gi', gj'} := by
  intro d W b hb
  by_cases h : ∃ w, (Proc.devRef .tc (Pipeline.arrRef spec0 w) : DevRef τ sig) = b
  · obtain ⟨w, rfl⟩ := h
    unfold Rg0
    rw [Pipeline.withArrays_arr spec0 launch0.win.arr_inj d W _ w]
    match w with
    | ⟨0, _⟩ => exact arrAt0_in (toV W) d _ (fun _ => rfl)
    | ⟨1, _⟩ => exact arrAt0_in (toV W) d _ (fun _ => rfl)
    | ⟨2, _⟩ => exact arrAt0_in (toV W) d _ (fun _ => rfl)
    | ⟨3, _⟩ => exact absurd (show (Proc.devRef .tc (Pipeline.arrRef spec0 (3 : Fin 6)) : DevRef τ sig) ∈ ({h', gi', gj'} : Finset (DevRef τ sig)) by decide) hb
    | ⟨4, _⟩ => exact absurd (show (Proc.devRef .tc (Pipeline.arrRef spec0 (4 : Fin 6)) : DevRef τ sig) ∈ ({h', gi', gj'} : Finset (DevRef τ sig)) by decide) hb
    | ⟨5, _⟩ => exact absurd (show (Proc.devRef .tc (Pipeline.arrRef spec0 (5 : Fin 6)) : DevRef τ sig) ∈ ({h', gi', gj'} : Finset (DevRef τ sig)) by decide) hb
  · unfold Rg0 Pipeline.withArrays
    rw [dif_neg h]

/-! ## Stage 1 -/

/-- What stage 1 does to the valuation of the processor's arrays: its windows' arrays at what the blocked loop leaves. -/
def Rg1 (d : Dev nD) (W : Valuation τ sig (Elt F)) : Valuation τ sig (Elt F) :=
  Pipeline.withArrays spec4 d W (fun w => (dat4 (toV W) (fun _ => 0) Set.univ d).arrAt w cfg4.N)

/-- An input window's array is as the stage found it: no point writes a block of it back. -/
theorem arrAt1_in (V : (d : Dev nD) → (b : Ref sig .tc) → Buf (Elt F) ((d.tc : Thread nD τ).loc b)) (d : Dev nD) (w : Fin 5)
    (hw : ∀ t, (cfg4.win w).flush t = false) : (dat4 V (fun _ => 0) Set.univ d).arrAt w cfg4.N = V d (Pipeline.arrRef spec4 w) := by
  funext i
  exact (dat4 V (fun _ => 0) Set.univ d).arrAt_apply_of_forall_not_mem w cfg4.N i (fun t _ hf => absurd hf (by rw [hw t]; exact Bool.false_ne_true))

theorem regionStep1 (GI : (d : Dev nD) → Buf (Elt F) (giLoc d)) (GJ : (d : Dev nD) → Buf (Elt F) (gjLoc d)) (n : ℕ) :
    RegionStep m GI GJ 1 n (Rg1 (F := F)) := by
  intro κ d W Φ
  have hstep := region_step_1 (toV W) (fun d' b => Rg1 d' W (Proc.devRef .tc b)) (K (F := F)).lev (P m GI GJ) κ (K (F := F)).refines_self n
    (fun d' w => by unfold Rg1; exact (Pipeline.withArrays_arr spec4 launch4.win.arr_inj d' W (fun w => (dat4 (toV W) (fun _ => 0) Set.univ d').arrAt w cfg4.N) w).symm)
    (fun d' b hb => by unfold Rg1; exact Pipeline.withArrays_of_ne spec4 d' W _ b (fun w e => hb (Finset.mem_image.mpr ⟨w, Finset.mem_univ _, e⟩))) d
  rw [← unscopedBufs_held d W, ← unscopedBufs_held d (Rg1 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame1 : RegionFrame (Rg1 (F := F)) {m1'} := by
  intro d W b hb
  by_cases h : ∃ w, (Proc.devRef .tc (Pipeline.arrRef spec4 w) : DevRef τ sig) = b
  · obtain ⟨w, rfl⟩ := h
    unfold Rg1
    rw [Pipeline.withArrays_arr spec4 launch4.win.arr_inj d W _ w]
    match w with
    | ⟨0, _⟩ => exact arrAt1_in (toV W) d _ (fun _ => rfl)
    | ⟨1, _⟩ => exact arrAt1_in (toV W) d _ (fun _ => rfl)
    | ⟨2, _⟩ => exact arrAt1_in (toV W) d _ (fun _ => rfl)
    | ⟨3, _⟩ => exact arrAt1_in (toV W) d _ (fun _ => rfl)
    | ⟨4, _⟩ => exact absurd (show (Proc.devRef .tc (Pipeline.arrRef spec4 (4 : Fin 5)) : DevRef τ sig) ∈ ({m1'} : Finset (DevRef τ sig)) by decide) hb
  · unfold Rg1 Pipeline.withArrays
    rw [dif_neg h]

/-! ## Stage 2 -/

/-- What stage 2 does to the valuation of the processor's arrays: its windows' arrays at what the blocked loop leaves. -/
def Rg2 (d : Dev nD) (W : Valuation τ sig (Elt F)) : Valuation τ sig (Elt F) :=
  Pipeline.withArrays spec5 d W (fun w => (dat5 (toV W) (fun _ => 0) Set.univ d).arrAt w cfg5.N)

/-- An input window's array is as the stage found it: no point writes a block of it back. -/
theorem arrAt2_in (V : (d : Dev nD) → (b : Ref sig .tc) → Buf (Elt F) ((d.tc : Thread nD τ).loc b)) (d : Dev nD) (w : Fin 5)
    (hw : ∀ t, (cfg5.win w).flush t = false) : (dat5 V (fun _ => 0) Set.univ d).arrAt w cfg5.N = V d (Pipeline.arrRef spec5 w) := by
  funext i
  exact (dat5 V (fun _ => 0) Set.univ d).arrAt_apply_of_forall_not_mem w cfg5.N i (fun t _ hf => absurd hf (by rw [hw t]; exact Bool.false_ne_true))

theorem regionStep2 (GI : (d : Dev nD) → Buf (Elt F) (giLoc d)) (GJ : (d : Dev nD) → Buf (Elt F) (gjLoc d)) (n : ℕ) :
    RegionStep m GI GJ 2 n (Rg2 (F := F)) := by
  intro κ d W Φ
  have hstep := region_step_2 (toV W) (fun d' b => Rg2 d' W (Proc.devRef .tc b)) (K (F := F)).lev (P m GI GJ) κ (K (F := F)).refines_self n
    (fun d' w => by unfold Rg2; exact (Pipeline.withArrays_arr spec5 launch5.win.arr_inj d' W (fun w => (dat5 (toV W) (fun _ => 0) Set.univ d').arrAt w cfg5.N) w).symm)
    (fun d' b hb => by unfold Rg2; exact Pipeline.withArrays_of_ne spec5 d' W _ b (fun w e => hb (Finset.mem_image.mpr ⟨w, Finset.mem_univ _, e⟩))) d
  rw [← unscopedBufs_held d W, ← unscopedBufs_held d (Rg2 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame2 : RegionFrame (Rg2 (F := F)) {m2'} := by
  intro d W b hb
  by_cases h : ∃ w, (Proc.devRef .tc (Pipeline.arrRef spec5 w) : DevRef τ sig) = b
  · obtain ⟨w, rfl⟩ := h
    unfold Rg2
    rw [Pipeline.withArrays_arr spec5 launch5.win.arr_inj d W _ w]
    match w with
    | ⟨0, _⟩ => exact arrAt2_in (toV W) d _ (fun _ => rfl)
    | ⟨1, _⟩ => exact arrAt2_in (toV W) d _ (fun _ => rfl)
    | ⟨2, _⟩ => exact arrAt2_in (toV W) d _ (fun _ => rfl)
    | ⟨3, _⟩ => exact arrAt2_in (toV W) d _ (fun _ => rfl)
    | ⟨4, _⟩ => exact absurd (show (Proc.devRef .tc (Pipeline.arrRef spec5 (4 : Fin 5)) : DevRef τ sig) ∈ ({m2'} : Finset (DevRef τ sig)) by decide) hb
  · unfold Rg2 Pipeline.withArrays
    rw [dif_neg h]

/-! ## Stage 3 -/

/-- What stage 3 does to the valuation of the processor's arrays: its windows' arrays at what the blocked loop leaves. -/
def Rg3 (d : Dev nD) (W : Valuation τ sig (Elt F)) : Valuation τ sig (Elt F) :=
  Pipeline.withArrays spec6 d W (fun w => (dat6 (toV W) (fun _ => 0) Set.univ d).arrAt w cfg6.N)

/-- An input window's array is as the stage found it: no point writes a block of it back. -/
theorem arrAt3_in (V : (d : Dev nD) → (b : Ref sig .tc) → Buf (Elt F) ((d.tc : Thread nD τ).loc b)) (d : Dev nD) (w : Fin 5)
    (hw : ∀ t, (cfg6.win w).flush t = false) : (dat6 V (fun _ => 0) Set.univ d).arrAt w cfg6.N = V d (Pipeline.arrRef spec6 w) := by
  funext i
  exact (dat6 V (fun _ => 0) Set.univ d).arrAt_apply_of_forall_not_mem w cfg6.N i (fun t _ hf => absurd hf (by rw [hw t]; exact Bool.false_ne_true))

theorem regionStep3 (GI : (d : Dev nD) → Buf (Elt F) (giLoc d)) (GJ : (d : Dev nD) → Buf (Elt F) (gjLoc d)) (n : ℕ) :
    RegionStep m GI GJ 3 n (Rg3 (F := F)) := by
  intro κ d W Φ
  have hstep := region_step_3 (toV W) (fun d' b => Rg3 d' W (Proc.devRef .tc b)) (K (F := F)).lev (P m GI GJ) κ (K (F := F)).refines_self n
    (fun d' w => by unfold Rg3; exact (Pipeline.withArrays_arr spec6 launch6.win.arr_inj d' W (fun w => (dat6 (toV W) (fun _ => 0) Set.univ d').arrAt w cfg6.N) w).symm)
    (fun d' b hb => by unfold Rg3; exact Pipeline.withArrays_of_ne spec6 d' W _ b (fun w e => hb (Finset.mem_image.mpr ⟨w, Finset.mem_univ _, e⟩))) d
  rw [← unscopedBufs_held d W, ← unscopedBufs_held d (Rg3 d W)]
  iintro ⟨Hctx, Hst, Hg, Ht, Hb, Hu, Hk⟩
  iapply (wp_wand_r frame _ Set.univ)
  isplitl [Hctx Hst Hg Ht Hb Hu]
  · iapply hstep
    isplitl [Hctx]; · iexact Hctx
    isplitl [Hst]; · iexact Hst
    isplitl [Hg]; · iexact Hg
    isplitl [Ht]; · iexact Ht
    isplitl [Hb]; · iexact Hb
    iexact Hu
  · iintro %_ H
    iapply Hk
    iexact H

theorem regionFrame3 : RegionFrame (Rg3 (F := F)) {out'} := by
  intro d W b hb
  by_cases h : ∃ w, (Proc.devRef .tc (Pipeline.arrRef spec6 w) : DevRef τ sig) = b
  · obtain ⟨w, rfl⟩ := h
    unfold Rg3
    rw [Pipeline.withArrays_arr spec6 launch6.win.arr_inj d W _ w]
    match w with
    | ⟨0, _⟩ => exact arrAt3_in (toV W) d _ (fun _ => rfl)
    | ⟨1, _⟩ => exact arrAt3_in (toV W) d _ (fun _ => rfl)
    | ⟨2, _⟩ => exact arrAt3_in (toV W) d _ (fun _ => rfl)
    | ⟨3, _⟩ => exact arrAt3_in (toV W) d _ (fun _ => rfl)
    | ⟨4, _⟩ => exact absurd (show (Proc.devRef .tc (Pipeline.arrRef spec6 (4 : Fin 5)) : DevRef τ sig) ∈ ({out'} : Finset (DevRef τ sig)) by decide) hb
  · unfold Rg3 Pipeline.withArrays
    rw [dif_neg h]

end Cert.Proof.KB

end
-- ==== Proof.KPreIdx.lean ====
/-
  From the precondition to what the kernel's frames ask of the launch memory: an index word whose signed value lies in
  [0, 9999] is, read as a natural, below 10000, so it names a row of the node tables.
-/
import proofs.«206539_g3985729650836_cont_8to1_b_247_13_alg».proof.Proof.KPay
import proofs.«206539_g3985729650836_cont_8to1_b_247_13_alg».proof.Proof.PreFacts
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

omit [FloatOps F] in
theorem toNat_lt_of_range (v : BitVec 32) (h0 : 0 ≤ v.toInt) (h1 : v.toInt ≤ 9999) : v.toNat < 10000 := by
  have e := BitVec.toInt_eq_toNat_cond v
  have hlt := v.isLt
  by_cases hc : 2 * v.toNat < 2 ^ 32
  · rw [if_pos hc] at e; omega
  · rw [if_neg hc] at e; omega

/-- The precondition, at every device, makes every index word a row of the node tables. -/
theorem idxOK_of_pre [hP : Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : IdxOK m := by
  intro d
  refine ⟨fun e => ?_, fun e => ?_⟩
  · have r := Cert.Proof.PreFacts.ii_range _ _ _ _ _ _ _ (h d) e
    exact toNat_lt_of_range _ r.1 r.2
  · have r := Cert.Proof.PreFacts.jj_range _ _ _ _ _ _ _ (h d) e
    exact toNat_lt_of_range _ r.1 r.2

end Cert.Proof.KB

end
-- ==== Proof.KClaims.lean ====
/-
  The kernel program's claims from its run, with the four dense stages in place and only the three gather-and-add calls'
  worker obligations left as hypotheses: the frame under the precondition, and the run with both result arrays named at
  the last valuation.
-/
import proofs.«206539_g3985729650836_cont_8to1_b_247_13_alg».proof.Proof.KFrames
import proofs.«206539_g3985729650836_cont_8to1_b_247_13_alg».proof.Proof.KRegionGlue
import proofs.«206539_g3985729650836_cont_8to1_b_247_13_alg».proof.Proof.KPreIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-- The three calls' worker obligations, for whatever the node tables hold. -/
def Tiles : Prop :=
  ∀ (GI : (d : Dev nD) → Buf (Elt F) (giLoc d)) (GJ : (d : Dev nD) → Buf (Elt F) (gjLoc d)), IdxOK m →
    (K (F := F)).TileObl (D (F := F)) 𝒱 (P m GI GJ) v₀ 0 ∧ (K (F := F)).TileObl (D (F := F)) 𝒱 (P m GI GJ) v₀ 1
      ∧ (K (F := F)).TileObl (D (F := F)) 𝒱 (P m GI GJ) v₀ 2

theorem frame_of_tiles [∀ e, Nonempty (Elt F e)] [hP : Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1)
    (ht : Tiles m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have h := ht (GIv m (Rg0 (F := F))) (GJv m (Rg0 (F := F))) (idxOK_of_pre m hpre)
  run_frame m ρ h.1 h.2.1 h.2.2 regionFrame0 regionFrame1 regionFrame2 regionFrame3
    (regionStep0 m _ _ 0) (regionStep1 m _ _ 3) (regionStep2 m _ _ 3) (regionStep3 m _ _ 3)

/-- The run with the two result arrays named: each at the last valuation, beside the arguments unchanged. -/
theorem run_values [∀ e, Nonempty (Elt F e)] [hP : Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1)
    (ht : Tiles m) :
    θ_run (Cert.Kernel.defs (F := F)) (Cert.Kernel.threads (F := F)) ⟨m, fun _ => 0, ρ⟩ (fun r => ∀ c : Dev nD,
      r.2.mem ((c.tc : Thread nD τ).loc main_v2_0) = W15 m (Rg0 (F := F)) (Rg1 (F := F)) (Rg2 (F := F)) (Rg3 (F := F)) c h'
      ∧ r.2.mem ((c.tc : Thread nD τ).loc main_v10) = W15 m (Rg0 (F := F)) (Rg1 (F := F)) (Rg2 (F := F)) (Rg3 (F := F)) c out'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have h := ht (GIv m (Rg0 (F := F))) (GJv m (Rg0 (F := F))) (idxOK_of_pre m hpre)
  (θ_run (Cert.Kernel.defs (F := F)) _ _).mono (fun r hq c =>
    ⟨hq c h' (mem_uc main_v2_0), hq c out' (mem_uc main_v10),
     (hq c z' (mem_uc main_arg0)).trans (W15_arg m regionFrame0 regionFrame1 regionFrame2 regionFrame3 c (by decide)),
     (hq c rbf' (mem_uc main_arg1)).trans (W15_arg m regionFrame0 regionFrame1 regionFrame2 regionFrame3 c (by decide)),
     (hq c ii' (mem_uc main_arg2)).trans (W15_arg m regionFrame0 regionFrame1 regionFrame2 regionFrame3 c (by decide)),
     (hq c jj' (mem_uc main_arg3)).trans (W15_arg m regionFrame0 regionFrame1 regionFrame2 regionFrame3 c (by decide)),
     (hq c emb' (mem_uc main_arg4)).trans (W15_arg m regionFrame0 regionFrame1 regionFrame2 regionFrame3 c (by decide)),
     (hq c w' (mem_uc main_arg5)).trans (W15_arg m regionFrame0 regionFrame1 regionFrame2 regionFrame3 c (by decide)),
     (hq c b' (mem_uc main_arg6)).trans (W15_arg m regionFrame0 regionFrame1 regionFrame2 regionFrame3 c (by decide))⟩)
    (run m ρ h.1 h.2.1 h.2.2 regionFrame0 (regionStep0 m _ _ 0) (regionStep1 m _ _ 3) (regionStep2 m _ _ 3) (regionStep3 m _ _ 3))

end Cert.Proof.KB

end
-- ==== Proof.TilePure.lean ====
/-
  The arithmetic of one worker of the first gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[r] of the first table plus row idx_j[r] of the second.
-/
import proofs.«206539_g3985729650836_cont_8to1_b_247_13_alg».proof.Proof.Pay
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v5_scv : Memref Cert.KernelIdeal.sig Kind.scVector Space.hbm Cert.KernelIdeal.S108800x128 EltTy.f32)
local notation "iiS" => (Memref.whole Cert.KernelIdeal.cc1_scratch0 : Memref Cert.KernelIdeal.sig Kind.scVector Space.vmem Cert.KernelIdeal.S3400 EltTy.i32)
local notation "jjS" => (Memref.whole Cert.KernelIdeal.cc1_scratch1 : Memref Cert.KernelIdeal.sig Kind.scVector Space.vmem Cert.KernelIdeal.S3400 EltTy.i32)
local notation "ri0" => (Memref.whole Cert.KernelIdeal.cc1_scratch2 : Memref Cert.KernelIdeal.sig Kind.scVector Space.vmem Cert.KernelIdeal.S200x128 EltTy.f32)
local notation "ri1" => (Memref.whole Cert.KernelIdeal.cc1_scratch3 : Memref Cert.KernelIdeal.sig Kind.scVector Space.vmem Cert.KernelIdeal.S200x128 EltTy.f32)
local notation "rj0" => (Memref.whole Cert.KernelIdeal.cc1_scratch4 : Memref Cert.KernelIdeal.sig Kind.scVector Space.vmem Cert.KernelIdeal.S200x128 EltTy.f32)
local notation "rj1" => (Memref.whole Cert.KernelIdeal.cc1_scratch5 : Memref Cert.KernelIdeal.sig Kind.scVector Space.vmem Cert.KernelIdeal.S200x128 EltTy.f32)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound1_zero : grid1.bound 0 = 2 := rfl
omit [FloatOps F] in
theorem bound1_one : grid1.bound 1 = 16 := rfl
abbrev cL (L : grid1.Coords) : Fin 2 := Fin.cast bound1_zero (L 0)
abbrev iL (L : grid1.Coords) : Fin 16 := Fin.cast bound1_one (L 1)

/-- The first row of the output array written by worker `(L 0, L 1)`: `3400 · (2 · L 1 + L 0)`. -/
def wb1 (L : grid1.Coords) : ℕ := 6800 * (L 1).val + 3400 * (L 0).val

/-- The chunk whose rows travel to the first pair of row buffers before trip `t` of the main loop. -/
def ch0 (t : ℕ) : ℕ := min (2 * t) 16

omit [FloatOps F] in
theorem lr_inb (c : ℕ) : ∀ a, (![200 * min c 16] : Fin 1 → ℕ) a + S200.size a ≤ S3400.size a := by
  intro a; obtain rfl : a = 0 := Subsingleton.elim _ _
  show 200 * min c 16 + 200 ≤ 3400; omega

/-- The two hundred positions of chunk `c` in a worker's index slice. -/
abbrev LR (c : ℕ) : Rect S3400 := Rect.unit ![200 * min c 16] S200.size (lr_inb c)

/-- The rows of the output array below row `a` of the worker's, and from row `a` on. -/
def doneSet (a : ℕ) : Finset (Idx (s1Loc d)) := Finset.univ.filter fun y => wb1 L ≤ (y 0).val ∧ (y 0).val < wb1 L + a
def remSet (a : ℕ) : Finset (Idx (s1Loc d)) := Finset.univ.filter fun y => wb1 L + a ≤ (y 0).val ∧ (y 0).val < wb1 L + 3400

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3400 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3400 (200 * c + (y 0).val))))) (y 1))

/-- The two hundred rows of the chunk that starts at row `a` of the worker's. -/
def chunkSet (a : ℕ) : Finset (Idx (s1Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows1 (cL L) (iL L) d := by
  unfold remSet rows1
  refine Finset.filter_congr fun y _ => ?_
  show wb1 L + 0 ≤ (y 0).val ∧ (y 0).val < wb1 L + 3400 ↔ (y 0).val / 3400 = (L 1).val * 2 + (L 0).val
  unfold wb1
  omega
omit [FloatOps F] in
theorem remSet_end : remSet d L 3400 = ∅ := by
  ext y; simp only [remSet, Finset.mem_filter, Finset.mem_univ, true_and, Finset.notMem_empty, iff_false]; omega
omit [FloatOps F] in
theorem doneSet_end : doneSet d L 3400 = rows1 (cL L) (iL L) d := by
  unfold doneSet rows1
  refine Finset.filter_congr fun y _ => ?_
  show wb1 L ≤ (y 0).val ∧ (y 0).val < wb1 L + 3400 ↔ (y 0).val / 3400 = (L 1).val * 2 + (L 0).val
  unfold wb1
  omega
omit [FloatOps F] in
theorem remSet_split (a : ℕ) (ha : a + 200 ≤ 3400) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S108800x128.size a)
    (hs : ∀ a, (Rect.unit (s := S108800x128) off S200x128.size inb).stride a = 1) (a : ℕ) (h : off = ![wb1 L + a, 0]) :
    (Memref.slice outW (Rect.unit off S200x128.size inb) hs).view.set = chunkSet d L a := by
  subst h
  show ((View.whole (main_v5_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S108800x128.size a)
    (hs : ∀ a, (Rect.unit (s := S108800x128) off S200x128.size inb).stride a = 1) (a : ℕ) (h : off = ![wb1 L + a, 0]) (f : Buf (Elt F) (s1Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S108800x128.size a)
    (hs : ∀ a, (Rect.unit (s := S108800x128) off S200x128.size inb).stride a = 1) (c : ℕ) (hc : c ≤ 16) (h : off = ![wb1 L + 200 * c, 0])
    (fI : Buf (Elt F) ((iiS).view.loc 𝓽)) (fJ : Buf (Elt F) ((jjS).view.loc 𝓽))
    (hfI : ∀ x : S3400.Idx, (iiS).view.read (Elt F) fI x = m (iiLoc d) (edgeIx 0 (wb1 L + (x 0).val)))
    (hfJ : ∀ x : S3400.Idx, (jjS).view.read (Elt F) fJ x = m (jjLoc d) (edgeIx 0 (wb1 L + (x 0).val)))
    (w : S200x128.Idx → Elt F .f32) (hw : ∀ y, w y = FloatOps.addf (VI GI d L fI c y) (VJ GJ d L fJ c y))
    (jnk : Buf (Elt F) (s1Loc d)) :
    ∀ i ∈ chunkSet d L (200 * c),
      ((Memref.slice outW (Rect.unit off S200x128.size inb) hs).view.writes (Elt F) jnk [⟨Rect.whole _, w⟩]) i = S1v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S1v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S1v m GI GJ d ((Memref.slice outW (Rect.unit _ S200x128.size inb) hs).view.emb x)
  unfold S1v scOut VI VJ
  rw [hfI, hfJ]
  have hx0 : (x 0).val < 200 := (x 0).isLt
  have hmod : ((ix1 (Fin.ofNat 3400 (200 * c + (x 0).val)) : S3400.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `wb1 L + x`. -/
theorem fetchI_read (f0 : Buf (Elt F) ((iiS).view.loc 𝓽)) (x : S3400.Idx) :
    (iiS).view.read (Elt F)
        ((iiS).view.write (Elt F) f0
          (ReadAs.same.apply ((Memref.slice iiW (Rect.unit (k1_off1 L) S3400.size (k1_off1_inb L)) (fun _ => rfl)).view.read (Elt F) (m (iiLoc d))))
          Finset.univ) x
      = m (iiLoc d) (edgeIx 0 (wb1 L + (x 0).val)) := by
  rw [View.read_write_univ]
  show m (iiLoc d) ((Memref.slice iiW (Rect.unit (k1_off1 L) S3400.size (k1_off1_inb L)) (fun _ => rfl)).view.emb x)
      = m (iiLoc d) (edgeIx 0 (wb1 L + (x 0).val))
  refine congrArg (m (iiLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k1_off1 L) 0 + 1 * (x 0).val = (0 + (wb1 L + (x 0).val)) % 320000
  rw [k1_off1_eq L]
  show 6800 * (L 1).val + 3400 * (L 0).val + 1 * (x 0).val = (0 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3400.Idx, (iiS).view.read (Elt F) fI x = m (iiLoc d) (edgeIx 0 (wb1 L + (x 0).val)))
    (R : Rect S3400) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `wb1 L + x`. -/
theorem fetchJ_read (f0 : Buf (Elt F) ((jjS).view.loc 𝓽)) (x : S3400.Idx) :
    (jjS).view.read (Elt F)
        ((jjS).view.write (Elt F) f0
          (ReadAs.same.apply ((Memref.slice jjW (Rect.unit (k1_off1 L) S3400.size (k1_off1_inb L)) (fun _ => rfl)).view.read (Elt F) (m (jjLoc d))))
          Finset.univ) x
      = m (jjLoc d) (edgeIx 0 (wb1 L + (x 0).val)) := by
  rw [View.read_write_univ]
  show m (jjLoc d) ((Memref.slice jjW (Rect.unit (k1_off1 L) S3400.size (k1_off1_inb L)) (fun _ => rfl)).view.emb x)
      = m (jjLoc d) (edgeIx 0 (wb1 L + (x 0).val))
  refine congrArg (m (jjLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k1_off1 L) 0 + 1 * (x 0).val = (0 + (wb1 L + (x 0).val)) % 320000
  rw [k1_off1_eq L]
  show 6800 * (L 1).val + 3400 * (L 0).val + 1 * (x 0).val = (0 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3400.Idx, (jjS).view.read (Elt F) fJ x = m (jjLoc d) (edgeIx 0 (wb1 L + (x 0).val)))
    (R : Rect S3400) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3400.size a)
    (hR : ∀ a, (Rect.unit (s := S3400) off S200.size inb).stride a = 1) (c : ℕ) (hc : c ≤ 16) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3400) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((iiS).slice (Rect.unit (s := S3400) ![200 * c] S200.size inb) hR).view.read (Elt F) fI) hn hin
        (y gathers_S10000x128_S200x128.axis')).val
      = ((iiS).view.read (Elt F) fI (ix1 (Fin.ofNat 3400 (200 * c + (y 0).val)))).toNat := by
    show (((iiS).slice (Rect.unit (s := S3400) ![200 * c] S200.size inb) hR).view.read (Elt F) fI
        (S200.rowMajor.symm ((y gathers_S10000x128_S200x128.axis').cast hn.symm))).toNat = _
    rw [show ((iiS).slice (Rect.unit (s := S3400) ![200 * c] S200.size inb) hR).view.read (Elt F) fI
          (S200.rowMajor.symm ((y gathers_S10000x128_S200x128.axis').cast hn.symm))
        = (iiS).view.read (Elt F) fI ((Rect.unit (s := S3400) ![200 * c] S200.size inb).emb
          (S200.rowMajor.symm ((y gathers_S10000x128_S200x128.axis').cast hn.symm))) from rfl, hemb]
  have hlt : ((iiS).view.read (Elt F) fI (ix1 (Fin.ofNat 3400 (200 * c + (y 0).val)))).toNat < 10000 := by
    rw [← hrow]; exact (SparseCore.rows _ hn hin _).isLt
  show GI d ((giSl).view.emb (gathers_S10000x128_S200x128.idx
        (SparseCore.rows (((iiS).slice (Rect.unit (s := S3400) ![200 * c] S200.size inb) hR).view.read (Elt F) fI) hn hin) y))
      = GI d (ix2 (rowOf 10000 ((iiS).view.read (Elt F) fI (ix1 (Fin.ofNat 3400 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3400) ![200 * c] S200.size inb) hR).view.read (Elt F) fI) hn hin) y
          gathers_S10000x128_S200x128.axis).val
      = ((iiS).view.read (Elt F) fI (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3400) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3400.size a)
    (hR : ∀ a, (Rect.unit (s := S3400) off S200.size inb).stride a = 1) (c : ℕ) (hc : c ≤ 16) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3400) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((jjS).slice (Rect.unit (s := S3400) ![200 * c] S200.size inb) hR).view.read (Elt F) fJ) hn hin
        (y gathers_S10000x128_S200x128.axis')).val
      = ((jjS).view.read (Elt F) fJ (ix1 (Fin.ofNat 3400 (200 * c + (y 0).val)))).toNat := by
    show (((jjS).slice (Rect.unit (s := S3400) ![200 * c] S200.size inb) hR).view.read (Elt F) fJ
        (S200.rowMajor.symm ((y gathers_S10000x128_S200x128.axis').cast hn.symm))).toNat = _
    rw [show ((jjS).slice (Rect.unit (s := S3400) ![200 * c] S200.size inb) hR).view.read (Elt F) fJ
          (S200.rowMajor.symm ((y gathers_S10000x128_S200x128.axis').cast hn.symm))
        = (jjS).view.read (Elt F) fJ ((Rect.unit (s := S3400) ![200 * c] S200.size inb).emb
          (S200.rowMajor.symm ((y gathers_S10000x128_S200x128.axis').cast hn.symm))) from rfl, hemb]
  have hlt : ((jjS).view.read (Elt F) fJ (ix1 (Fin.ofNat 3400 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3400) ![200 * c] S200.size inb) hR).view.read (Elt F) fJ) hn hin) y))
      = GJ d (ix2 (rowOf 10000 ((jjS).view.read (Elt F) fJ (ix1 (Fin.ofNat 3400 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3400) ![200 * c] S200.size inb) hR).view.read (Elt F) fJ) hn hin) y
          gathers_S10000x128_S200x128.axis).val
      = ((jjS).view.read (Elt F) fJ (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3400) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KI

end
-- ==== Proof.Tile1.lean ====
/-
  The body of the first gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.TilePure
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v5_scv : Memref Cert.KernelIdeal.sig Kind.scVector Space.hbm Cert.KernelIdeal.S108800x128 EltTy.f32)
local notation "iiS" => (Memref.whole Cert.KernelIdeal.cc1_scratch0 : Memref Cert.KernelIdeal.sig Kind.scVector Space.vmem Cert.KernelIdeal.S3400 EltTy.i32)
local notation "jjS" => (Memref.whole Cert.KernelIdeal.cc1_scratch1 : Memref Cert.KernelIdeal.sig Kind.scVector Space.vmem Cert.KernelIdeal.S3400 EltTy.i32)
local notation "ri0" => (Memref.whole Cert.KernelIdeal.cc1_scratch2 : Memref Cert.KernelIdeal.sig Kind.scVector Space.vmem Cert.KernelIdeal.S200x128 EltTy.f32)
local notation "ri1" => (Memref.whole Cert.KernelIdeal.cc1_scratch3 : Memref Cert.KernelIdeal.sig Kind.scVector Space.vmem Cert.KernelIdeal.S200x128 EltTy.f32)
local notation "rj0" => (Memref.whole Cert.KernelIdeal.cc1_scratch4 : Memref Cert.KernelIdeal.sig Kind.scVector Space.vmem Cert.KernelIdeal.S200x128 EltTy.f32)
local notation "rj1" => (Memref.whole Cert.KernelIdeal.cc1_scratch5 : Memref Cert.KernelIdeal.sig Kind.scVector Space.vmem Cert.KernelIdeal.S200x128 EltTy.f32)

section Tile

variable (d : Dev nD) (L : grid1.Coords)

omit [FloatOps F] in
theorem ownSems0_V1 :
    (ownSems0 (V d (cV L) (jV L)) : sProp 𝕄)
      = iprop(semVal ((V d (cV L) (jV L), SemLoc.dma cc1_scratch6.sem) : GSem nD τ sig) 0 ∗ semVal ((V d (cV L) (jV L), SemLoc.dma cc1_scratch7.sem) : GSem nD τ sig) 0 ∗ semVal ((V d (cV L) (jV L), SemLoc.dma cc1_scratch8.sem) : GSem nD τ sig) 0 ∗ semVal ((V d (cV L) (jV L), SemLoc.dma cc1_scratch9.sem) : GSem nD τ sig) 0 ∗ semVal ((V d (cV L) (jV L), SemLoc.dma cc1_scoped0.sem) : GSem nD τ sig) 0 ∗ semVal ((V d (cV L) (jV L), SemLoc.dma cc1_scoped1.sem) : GSem nD τ sig) 0 ∗ semVal ((V d (cV L) (jV L), SemLoc.dma cc1_scoped2.sem) : GSem nD τ sig) 0 ∗ semVal ((V d (cV L) (jV L), SemLoc.dma cc1_scoped3.sem) : GSem nD τ sig) 0 ∗ semVal ((V d (cV L) (jV L), SemLoc.dma cc1_scoped4.sem) : GSem nD τ sig) 0
          ∗ bigSep ((((((((((ownCells (V d (cV L) (jV L))).erase ((V d (cV L) (jV L), SemLoc.dma cc1_scratch6.sem) : GSem nD τ sig)).erase ((V d (cV L) (jV L), SemLoc.dma cc1_scratch7.sem) : GSem nD τ sig)).erase ((V d (cV L) (jV L), SemLoc.dma cc1_scratch8.sem) : GSem nD τ sig)).erase ((V d (cV L) (jV L), SemLoc.dma cc1_scratch9.sem) : GSem nD τ sig)).erase ((V d (cV L) (jV L), SemLoc.dma cc1_scoped0.sem) : GSem nD τ sig)).erase ((V d (cV L) (jV L), SemLoc.dma cc1_scoped1.sem) : GSem nD τ sig)).erase ((V d (cV L) (jV L), SemLoc.dma cc1_scoped2.sem) : GSem nD τ sig)).erase ((V d (cV L) (jV L), SemLoc.dma cc1_scoped3.sem) : GSem nD τ sig)).erase ((V d (cV L) (jV L), SemLoc.dma cc1_scoped4.sem) : GSem nD τ sig)) fun g => semVal g 0) := by
  unfold SparseCore.Cfg.ownSems0
  rw [SparseCore.bigSep_erase' ((mem_ownCells (g := ((V d (cV L) (jV L), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped1.sem) : GSem nD τ sig))).mpr ⟨rfl, by show (SemLoc.dma cc1_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped2.sem) : GSem nD τ sig))).mpr ⟨rfl, by show (SemLoc.dma cc1_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped3.sem) : GSem nD τ sig))).mpr ⟨rfl, by show (SemLoc.dma cc1_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped4.sem) : GSem nD τ sig))).mpr ⟨rfl, by show (SemLoc.dma cc1_scoped4.sem : SemLoc sig).isScoped .scVector = true; decide⟩⟩⟩⟩⟩⟩⟩⟩⟩)]

omit [FloatOps F] in
theorem ownBufs_V1 :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s1Loc d))) (f : Buf (Elt F) (s1Loc d)) :
    ((outW).view.loc (V d (cV L) (jV L)) ↦[I]{fullShare} f : sProp 𝕄) = s1Loc d ↦[I]{fullShare} f := by
  simp only [Memref.view_whole, View.set_whole]
omit [FloatOps F] in
theorem pts_b0 (f : Buf (Elt F) ((V d (cV L) (jV L)).loc cc1_scratch0)) :
    ((iiS).view.loc (V d (cV L) (jV L)) ↦{fullShare} f : sProp 𝕄) = (V d (cV L) (jV L)).loc cc1_scratch0 ↦{fullShare} f := rfl
omit [FloatOps F] in
theorem pts_b1 (f : Buf (Elt F) ((V d (cV L) (jV L)).loc cc1_scratch1)) :
    ((jjS).view.loc (V d (cV L) (jV L)) ↦{fullShare} f : sProp 𝕄) = (V d (cV L) (jV L)).loc cc1_scratch1 ↦{fullShare} f := rfl
omit [FloatOps F] in
theorem pts_b2 (f : Buf (Elt F) ((V d (cV L) (jV L)).loc cc1_scratch2)) :
    ((ri0).view.loc (V d (cV L) (jV L)) ↦{fullShare} f : sProp 𝕄) = (V d (cV L) (jV L)).loc cc1_scratch2 ↦{fullShare} f := rfl
omit [FloatOps F] in
theorem pts_b3 (f : Buf (Elt F) ((V d (cV L) (jV L)).loc cc1_scratch3)) :
    ((ri1).view.loc (V d (cV L) (jV L)) ↦{fullShare} f : sProp 𝕄) = (V d (cV L) (jV L)).loc cc1_scratch3 ↦{fullShare} f := rfl
omit [FloatOps F] in
theorem pts_b4 (f : Buf (Elt F) ((V d (cV L) (jV L)).loc cc1_scratch4)) :
    ((rj0).view.loc (V d (cV L) (jV L)) ↦{fullShare} f : sProp 𝕄) = (V d (cV L) (jV L)).loc cc1_scratch4 ↦{fullShare} f := rfl
omit [FloatOps F] in
theorem pts_b5 (f : Buf (Elt F) ((V d (cV L) (jV L)).loc cc1_scratch5)) :
    ((rj1).view.loc (V d (cV L) (jV L)) ↦{fullShare} f : sProp 𝕄) = (V d (cV L) (jV L)).loc cc1_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s1Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc1_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc1_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc1_scratch7)) 0
    ∗ semVal (𝓽, SemLoc.dma (SemArray.sem cc1_scratch9)) 0
    ∗ semVal (𝓽, SemLoc.dma (SemArray.sem cc1_scoped2)) 0
    ∗ semVal (𝓽, SemLoc.dma (SemArray.sem cc1_scoped3)) 0
    ∗ ((outW).view.loc 𝓽 ↦[doneSet d L (400 * t)]{fullShare} S1v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body1 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s1Loc d ↦[rows1 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc1_scratch6 cc1_scratch7 cc1_scratch8 cc1_scratch9
            cc1_scoped0 cc1_scoped1 cc1_scoped2 cc1_scoped3 cc1_scoped4)
          fun _ => iprop((reads m GI GJ d (tileShare (cL L) (iL L)) ∗ s1Loc d ↦[rows1 (cL L) (iL L) d]{fullShare} S1v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__edge_gather_eq_skeleton]; unfold cc1__edge_gather_skel
  simp only [k1_part8_eq_skeleton]; unfold k1_part8_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body1.sl.dma0 m d L) Finset.univ = fI
  generalize hfJ : View.write (Elt F) (jjS).view f1 (tile_body1.sl.dma0_1 m d L) Finset.univ = fJ
  have hvI : ∀ x : S3400.Idx, (iiS).view.read (Elt F) fI x = m (iiLoc d) (edgeIx 0 (wb1 L + (x 0).val)) := by
    intro x; subst hfI; exact fetchI_read m d L f0 x
  have hvJ : ∀ x : S3400.Idx, (jjS).view.read (Elt F) fJ x = m (jjLoc d) (edgeIx 0 (wb1 L + (x 0).val)) := by
    intro x; subst hfJ; exact fetchJ_read m d L f1 x
  have hinI : ∀ (R : Rect S3400) (hR : ∀ a, R.stride a = 1) (x : R.shape.Idx), (((iiS).slice R hR).view.read (Elt F) fI x).toNat < 10000 :=
    fetchI_lt m d L hpre fI hvI
  have hinJ : ∀ (R : Rect S3400) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k1_off3_eq, k1_off4_eq, k1_off5_eq, k1_off6_eq, k1_off7_eq, k1_off8_eq, k1_off9_eq, k1_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k1_t2_loop.lb k1_t2_loop.ub k1_t2_loop.st = 200 := by decide
    have ht3 : Scf.trips k1_t3_loop.lb k1_t3_loop.ub k1_t3_loop.st = 200 := by decide
    have hk8 : k.val < 8 := lt_of_lt_of_le k.isLt k1_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k1_off11 L k) (k1_off11_inb L k) (fun _ => rfl) (400 * k.val) (by rw [k1_off11_eq, wb1]) fo).symm) $$ Hch
    sl_exec
    ihave Hch2 := (Entails.of_eq (pts_chunk (F := F) d L (k1_off11 L k) (k1_off11_inb L k) (fun _ => rfl) (400 * k.val) (by rw [k1_off11_eq, wb1]) _)) $$ Hch'
    ihave Hch2' := (pts_exists (F := F) _ fullShare _) $$ Hch2
    icases Hch2' with ⟨%C, %hC, Hch2⟩
    have hCv : ∀ i ∈ chunkSet d L (400 * k.val), C i = S1v m GI GJ d i := by
      subst hC
      have hset : chunkSet d L (400 * k.val) = chunkSet d L (200 * (2 * k.val)) := by congr 1 <;> omega
      rw [hset]
      exact out_val m GI GJ d L (k1_off11 L k) (k1_off11_inb L k) (fun _ => rfl) (2 * k.val) (by omega) (by rw [k1_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S1v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k1_off12_eq, k1_off13_eq, k1_off14_eq, k1_off15_eq, k1_off16_eq, k1_off17_eq, k1_off18_eq, k1_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k1_off2 k 1#32 = ![200 * (2 * k.val + 1)] := by
      rw [show (1#32 : BitVec 32) = BitVec.ofNat 32 (1 + (0 : Fin 2).val) from rfl, k1_off2_eq k 0]
      show ![400 * k.val + 200 * 0 + 200] = _
      congr 1; omega
    have hoff2 : k1_off2 k 2#32 = ![200 * min (ch0 (k.val + 1)) 16] := by
      rw [show (2#32 : BitVec 32) = BitVec.ofNat 32 (1 + (1 : Fin 2).val) from rfl, k1_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k1_off2 k 1#32) (k1_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k1_off2 k 1#32) (k1_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k1_off20 L k) (k1_off20_inb L k) (fun _ => rfl) (400 * k.val + 200) (by rw [k1_off20_eq, wb1, Nat.add_assoc]) fo).symm) $$ Hch
    sl_exec
    ihave Hch2 := (Entails.of_eq (pts_chunk (F := F) d L (k1_off20 L k) (k1_off20_inb L k) (fun _ => rfl) (400 * k.val + 200) (by rw [k1_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S1v m GI GJ d i := by
      subst hC
      have hset : chunkSet d L (400 * k.val + 200) = chunkSet d L (200 * (2 * k.val + 1)) := by congr 1 <;> omega
      rw [hset]
      exact out_val m GI GJ d L (k1_off20 L k) (k1_off20_inb L k) (fun _ => rfl) (2 * k.val + 1) (by omega) (by rw [k1_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S1v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k1_off2 k 2#32) S200.size (k1_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k1_off2 k 2#32) S200.size (k1_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k1_off2 k 2#32) (k1_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k1_off2 k 2#32) (k1_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3400_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3400_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3400_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3400_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k1_t1_loop.lb k1_t1_loop.ub k1_t1_loop.st = 8 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k1_off21_eq, k1_off22_eq, k1_off23_eq, k1_off24_eq, k1_off25_eq, k1_off26_eq, k1_off27_eq, k1_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k1_t4_loop.lb k1_t4_loop.ub k1_t4_loop.st = 200 := by decide
  have hch8 : ch0 8 = 16 := by decide
  have hsum16 : ∀ y, (ri0).view.read (Elt F) gS y = FloatOps.addf (VI GI d L fI 16 y) (VJ GJ d L fJ 16 y) := by
    intro y; rw [hgS y, ht4, if_pos (show (y 0).val < 200 from (y 0).isLt), hgA y, hgB y, hch8]
  ihave Hrem2 := (Entails.of_eq (congrArg (fun S => ((outW).view.loc 𝓽 ↦[S]{fullShare} fo : sProp 𝕄)) (remSet_split d L (400 * 8) (by omega)))) $$ Hrem
  ihave Hrem3 := ((pointsTo_union (chunk_rem_disj d L (400 * 8))).1) $$ Hrem2
  icases Hrem3 with ⟨Hch, Hrem⟩
  ihave Hch' := (Entails.of_eq (pts_chunk (F := F) d L (k1_off29 L) (k1_off29_inb L) (fun _ => rfl) (400 * 8) (by rw [k1_off29_eq, wb1]) fo).symm) $$ Hch
  sl_exec
  ihave Hch2 := (Entails.of_eq (pts_chunk (F := F) d L (k1_off29 L) (k1_off29_inb L) (fun _ => rfl) (400 * 8) (by rw [k1_off29_eq, wb1]) _)) $$ Hch'
  ihave Hch2' := (pts_exists (F := F) _ fullShare _) $$ Hch2
  icases Hch2' with ⟨%C, %hC, Hch2⟩
  have hCv : ∀ i ∈ chunkSet d L (400 * 8), C i = S1v m GI GJ d i := by
    subst hC
    have hset : chunkSet d L (400 * 8) = chunkSet d L (200 * (16)) := by congr 1 <;> omega
    rw [hset]
    exact out_val m GI GJ d L (k1_off29 L) (k1_off29_inb L) (fun _ => rfl) (16) (by omega) (by (rw [k1_off29_eq, wb1]) <;> (first | rfl | (congr 2; omega))) fI fJ hvI hvJ _ hsum16 _
  ihave Hch3 := (Entails.of_eq (pointsTo_congr hCv)) $$ Hch2
  ihave Hdone2 := ((pointsTo_union (done_chunk_disj d L (400 * 8))).2) $$ [Hdone Hch3]
  · isplitl [Hdone]; · iexact Hdone
    iexact Hch3
  ihave Hdone := (Entails.of_eq (congrArg (fun S => ((outW).view.loc 𝓽 ↦[S]{fullShare} S1v m GI GJ d : sProp 𝕄)) (doneSet_step d L (400 * 8)).symm)) $$ Hdone2
  sl_step
  ihave Hd := (Entails.of_eq (congrArg (fun S => ((outW).view.loc 𝓽 ↦[S]{fullShare} S1v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hb3 Hrj Hb5 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hb3]; · iexists _; iapply (Entails.of_eq (pts_b3 (F := F) d L _)); iexact Hb3
    isplitl [Hrj]; · iexists _; iapply (Entails.of_eq (pts_b4 (F := F) d L _)); iexact Hrj
    isplitl [Hb5]; · iexists _; iapply (Entails.of_eq (pts_b5 (F := F) d L _)); iexact Hb5
    iexact Hbufs
  isplitl [Hfl6 Hs7 Hfl8 Hs9 Hc0 Hc1 Hc2 Hc3 Hc4 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap
  · iexact HO
  · ipureintro
    repeat (first | exact hW' | apply W_insert)

end Tile

/-! ## The launch theorem's obligation -/

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc1_scratch6 cc1_scratch7 cc1_scratch8 cc1_scratch9
          cc1_scoped0 cc1_scoped1 cc1_scoped2 cc1_scoped3 cc1_scoped4) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_0 (hpre : IdxOK m) : (K (F := F)).TileObl (D (F := F)) 𝒱 (P m GI GJ) v₀ 0 := by
  intro d c i O W hO _ _
  simp only [show (P m GI GJ).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (tile_body1 m GI GJ d (coordsV1 ⟨_, hc.1⟩ ⟨_, hc.2⟩) hpre O W hO).trans (wp_mono frame _ _ fun _ => obl_post)

end Cert.Proof.KI

end
-- ==== Proof.TilePure2.lean ====
/-
  The arithmetic of one worker of the second gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[108800 + r] of the first table plus row idx_j[108800 + r] of the second.
-/
import proofs.«206539_g3985729650836_cont_8to1_b_247_13_alg».proof.Proof.Pay
import Idealize.ShloMosaic.Lib.Writes

noncomputable section

namespace Cert.Proof.KI.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v6_scv : Memref Cert.KernelIdeal.sig Kind.scVector Space.hbm Cert.KernelIdeal.S108800x128 EltTy.f32)
local notation "iiS" => (Memref.whole Cert.KernelIdeal.cc2_scratch0 : Memref Cert.KernelIdeal.sig Kind.scVector Space.vmem Cert.KernelIdeal.S3400 EltTy.i32)
local notation "jjS" => (Memref.whole Cert.KernelIdeal.cc2_scratch1 : Memref Cert.KernelIdeal.sig Kind.scVector Space.vmem Cert.KernelIdeal.S3400 EltTy.i32)
local notation "ri0" => (Memref.whole Cert.KernelIdeal.cc2_scratch2 : Memref Cert.KernelIdeal.sig Kind.scVector Space.vmem Cert.KernelIdeal.S200x128 EltTy.f32)
local notation "ri1" => (Memref.whole Cert.KernelIdeal.cc2_scratch3 : Memref Cert.KernelIdeal.sig Kind.scVector Space.vmem Cert.KernelIdeal.S200x128 EltTy.f32)
local notation "rj0" => (Memref.whole Cert.KernelIdeal.cc2_scratch4 : Memref Cert.KernelIdeal.sig Kind.scVector Space.vmem Cert.KernelIdeal.S200x128 EltTy.f32)
local notation "rj1" => (Memref.whole Cert.KernelIdeal.cc2_scratch5 : Memref Cert.KernelIdeal.sig Kind.scVector Space.vmem Cert.KernelIdeal.S200x128 EltTy.f32)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound1_zero : grid2.bound 0 = 2 := rfl
omit [FloatOps F] in
theorem bound1_one : grid2.bound 1 = 16 := rfl
abbrev cL (L : grid2.Coords) : Fin 2 := Fin.cast bound1_zero (L 0)
abbrev iL (L : grid2.Coords) : Fin 16 := Fin.cast bound1_one (L 1)

/-- The first row of the output array written by worker `(L 0, L 1)`: `3400 · (2 · L 1 + L 0)`. -/
def wb1 (L : grid2.Coords) : ℕ := 6800 * (L 1).val + 3400 * (L 0).val

/-- The chunk whose rows travel to the first pair of row buffers before trip `t` of the main loop. -/
def ch0 (t : ℕ) : ℕ := min (2 * t) 16

omit [FloatOps F] in
theorem lr_inb (c : ℕ) : ∀ a, (![200 * min c 16] : Fin 1 → ℕ) a + S200.size a ≤ S3400.size a := by
  intro a; obtain rfl : a = 0 := Subsingleton.elim _ _
  show 200 * min c 16 + 200 ≤ 3400; omega

/-- The two hundred positions of chunk `c` in a worker's index slice. -/
abbrev LR (c : ℕ) : Rect S3400 := Rect.unit ![200 * min c 16] S200.size (lr_inb c)

/-- The rows of the output array below row `a` of the worker's, and from row `a` on. -/
def doneSet (a : ℕ) : Finset (Idx (s2Loc d)) := Finset.univ.filter fun y => wb1 L ≤ (y 0).val ∧ (y 0).val < wb1 L + a
def remSet (a : ℕ) : Finset (Idx (s2Loc d)) := Finset.univ.filter fun y => wb1 L + a ≤ (y 0).val ∧ (y 0).val < wb1 L + 3400

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3400 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3400 (200 * c + (y 0).val))))) (y 1))

/-- The two hundred rows of the chunk that starts at row `a` of the worker's. -/
def chunkSet (a : ℕ) : Finset (Idx (s2Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows2 (cL L) (iL L) d := by
  unfold remSet rows2
  refine Finset.filter_congr fun y _ => ?_
  show wb1 L + 0 ≤ (y 0).val ∧ (y 0).val < wb1 L + 3400 ↔ (y 0).val / 3400 = (L 1).val * 2 + (L 0).val
  unfold wb1
  omega
omit [FloatOps F] in
theorem remSet_end : remSet d L 3400 = ∅ := by
  ext y; simp only [remSet, Finset.mem_filter, Finset.mem_univ, true_and, Finset.notMem_empty, iff_false]; omega
omit [FloatOps F] in
theorem doneSet_end : doneSet d L 3400 = rows2 (cL L) (iL L) d := by
  unfold doneSet rows2
  refine Finset.filter_congr fun y _ => ?_
  show wb1 L ≤ (y 0).val ∧ (y 0).val < wb1 L + 3400 ↔ (y 0).val / 3400 = (L 1).val * 2 + (L 0).val
  unfold wb1
  omega
omit [FloatOps F] in
theorem remSet_split (a : ℕ) (ha : a + 200 ≤ 3400) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S108800x128.size a)
    (hs : ∀ a, (Rect.unit (s := S108800x128) off S200x128.size inb).stride a = 1) (a : ℕ) (h : off = ![wb1 L + a, 0]) :
    (Memref.slice outW (Rect.unit off S200x128.size inb) hs).view.set = chunkSet d L a := by
  subst h
  show ((View.whole (main_v6_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S108800x128.size a)
    (hs : ∀ a, (Rect.unit (s := S108800x128) off S200x128.size inb).stride a = 1) (a : ℕ) (h : off = ![wb1 L + a, 0]) (f : Buf (Elt F) (s2Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S108800x128.size a)
    (hs : ∀ a, (Rect.unit (s := S108800x128) off S200x128.size inb).stride a = 1) (c : ℕ) (hc : c ≤ 16) (h : off = ![wb1 L + 200 * c, 0])
    (fI : Buf (Elt F) ((iiS).view.loc 𝓽)) (fJ : Buf (Elt F) ((jjS).view.loc 𝓽))
    (hfI : ∀ x : S3400.Idx, (iiS).view.read (Elt F) fI x = m (iiLoc d) (edgeIx 108800 (wb1 L + (x 0).val)))
    (hfJ : ∀ x : S3400.Idx, (jjS).view.read (Elt F) fJ x = m (jjLoc d) (edgeIx 108800 (wb1 L + (x 0).val)))
    (w : S200x128.Idx → Elt F .f32) (hw : ∀ y, w y = FloatOps.addf (VI GI d L fI c y) (VJ GJ d L fJ c y))
    (jnk : Buf (Elt F) (s2Loc d)) :
    ∀ i ∈ chunkSet d L (200 * c),
      ((Memref.slice outW (Rect.unit off S200x128.size inb) hs).view.writes (Elt F) jnk [⟨Rect.whole _, w⟩]) i = S2v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S2v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S2v m GI GJ d ((Memref.slice outW (Rect.unit _ S200x128.size inb) hs).view.emb x)
  unfold S2v scOut VI VJ
  rw [hfI, hfJ]
  have hx0 : (x 0).val < 200 := (x 0).isLt
  have hmod : ((ix1 (Fin.ofNat 3400 (200 * c + (x 0).val)) : S3400.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `108800 + wb1 L + x`. -/
theorem fetchI_read (f0 : Buf (Elt F) ((iiS).view.loc 𝓽)) (x : S3400.Idx) :
    (iiS).view.read (Elt F)
        ((iiS).view.write (Elt F) f0
          (ReadAs.same.apply ((Memref.slice iiW (Rect.unit (k2_off1 L) S3400.size (k2_off1_inb L)) (fun _ => rfl)).view.read (Elt F) (m (iiLoc d))))
          Finset.univ) x
      = m (iiLoc d) (edgeIx 108800 (wb1 L + (x 0).val)) := by
  rw [View.read_write_univ]
  show m (iiLoc d) ((Memref.slice iiW (Rect.unit (k2_off1 L) S3400.size (k2_off1_inb L)) (fun _ => rfl)).view.emb x)
      = m (iiLoc d) (edgeIx 108800 (wb1 L + (x 0).val))
  refine congrArg (m (iiLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k2_off1 L) 0 + 1 * (x 0).val = (108800 + (wb1 L + (x 0).val)) % 320000
  rw [k2_off1_eq L]
  show 6800 * (L 1).val + 3400 * (L 0).val + 108800 + 1 * (x 0).val = (108800 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3400.Idx, (iiS).view.read (Elt F) fI x = m (iiLoc d) (edgeIx 108800 (wb1 L + (x 0).val)))
    (R : Rect S3400) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `108800 + wb1 L + x`. -/
theorem fetchJ_read (f0 : Buf (Elt F) ((jjS).view.loc 𝓽)) (x : S3400.Idx) :
    (jjS).view.read (Elt F)
        ((jjS).view.write (Elt F) f0
          (ReadAs.same.apply ((Memref.slice jjW (Rect.unit (k2_off1 L) S3400.size (k2_off1_inb L)) (fun _ => rfl)).view.read (Elt F) (m (jjLoc d))))
          Finset.univ) x
      = m (jjLoc d) (edgeIx 108800 (wb1 L + (x 0).val)) := by
  rw [View.read_write_univ]
  show m (jjLoc d) ((Memref.slice jjW (Rect.unit (k2_off1 L) S3400.size (k2_off1_inb L)) (fun _ => rfl)).view.emb x)
      = m (jjLoc d) (edgeIx 108800 (wb1 L + (x 0).val))
  refine congrArg (m (jjLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k2_off1 L) 0 + 1 * (x 0).val = (108800 + (wb1 L + (x 0).val)) % 320000
  rw [k2_off1_eq L]
  show 6800 * (L 1).val + 3400 * (L 0).val + 108800 + 1 * (x 0).val = (108800 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3400.Idx, (jjS).view.read (Elt F) fJ x = m (jjLoc d) (edgeIx 108800 (wb1 L + (x 0).val)))
    (R : Rect S3400) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3400.size a)
    (hR : ∀ a, (Rect.unit (s := S3400) off S200.size inb).stride a = 1) (c : ℕ) (hc : c ≤ 16) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3400) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((iiS).slice (Rect.unit (s := S3400) ![200 * c] S200.size inb) hR).view.read (Elt F) fI) hn hin
        (y gathers_S10000x128_S200x128.axis')).val
      = ((iiS).view.read (Elt F) fI (ix1 (Fin.ofNat 3400 (200 * c + (y 0).val)))).toNat := by
    show (((iiS).slice (Rect.unit (s := S3400) ![200 * c] S200.size inb) hR).view.read (Elt F) fI
        (S200.rowMajor.symm ((y gathers_S10000x128_S200x128.axis').cast hn.symm))).toNat = _
    rw [show ((iiS).slice (Rect.unit (s := S3400) ![200 * c] S200.size inb) hR).view.read (Elt F) fI
          (S200.rowMajor.symm ((y gathers_S10000x128_S200x128.axis').cast hn.symm))
        = (iiS).view.read (Elt F) fI ((Rect.unit (s := S3400) ![200 * c] S200.size inb).emb
          (S200.rowMajor.symm ((y gathers_S10000x128_S200x128.axis').cast hn.symm))) from rfl, hemb]
  have hlt : ((iiS).view.read (Elt F) fI (ix1 (Fin.ofNat 3400 (200 * c + (y 0).val)))).toNat < 10000 := by
    rw [← hrow]; exact (SparseCore.rows _ hn hin _).isLt
  show GI d ((giSl).view.emb (gathers_S10000x128_S200x128.idx
        (SparseCore.rows (((iiS).slice (Rect.unit (s := S3400) ![200 * c] S200.size inb) hR).view.read (Elt F) fI) hn hin) y))
      = GI d (ix2 (rowOf 10000 ((iiS).view.read (Elt F) fI (ix1 (Fin.ofNat 3400 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3400) ![200 * c] S200.size inb) hR).view.read (Elt F) fI) hn hin) y
          gathers_S10000x128_S200x128.axis).val
      = ((iiS).view.read (Elt F) fI (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3400) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3400.size a)
    (hR : ∀ a, (Rect.unit (s := S3400) off S200.size inb).stride a = 1) (c : ℕ) (hc : c ≤ 16) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3400) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((jjS).slice (Rect.unit (s := S3400) ![200 * c] S200.size inb) hR).view.read (Elt F) fJ) hn hin
        (y gathers_S10000x128_S200x128.axis')).val
      = ((jjS).view.read (Elt F) fJ (ix1 (Fin.ofNat 3400 (200 * c + (y 0).val)))).toNat := by
    show (((jjS).slice (Rect.unit (s := S3400) ![200 * c] S200.size inb) hR).view.read (Elt F) fJ
        (S200.rowMajor.symm ((y gathers_S10000x128_S200x128.axis').cast hn.symm))).toNat = _
    rw [show ((jjS).slice (Rect.unit (s := S3400) ![200 * c] S200.size inb) hR).view.read (Elt F) fJ
          (S200.rowMajor.symm ((y gathers_S10000x128_S200x128.axis').cast hn.symm))
        = (jjS).view.read (Elt F) fJ ((Rect.unit (s := S3400) ![200 * c] S200.size inb).emb
          (S200.rowMajor.symm ((y gathers_S10000x128_S200x128.axis').cast hn.symm))) from rfl, hemb]
  have hlt : ((jjS).view.read (Elt F) fJ (ix1 (Fin.ofNat 3400 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3400) ![200 * c] S200.size inb) hR).view.read (Elt F) fJ) hn hin) y))
      = GJ d (ix2 (rowOf 10000 ((jjS).view.read (Elt F) fJ (ix1 (Fin.ofNat 3400 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3400) ![200 * c] S200.size inb) hR).view.read (Elt F) fJ) hn hin) y
          gathers_S10000x128_S200x128.axis).val
      = ((jjS).view.read (Elt F) fJ (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3400) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KI.T2

end
-- ==== Proof.Tile2.lean ====
/-
  The body of the second gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.TilePure2
import Idealize.ShloMosaic.Lib.Writes

noncomputable section

namespace Cert.Proof.KI.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v6_scv : Memref Cert.KernelIdeal.sig Kind.scVector Space.hbm Cert.KernelIdeal.S108800x128 EltTy.f32)
local notation "iiS" => (Memref.whole Cert.KernelIdeal.cc2_scratch0 : Memref Cert.KernelIdeal.sig Kind.scVector Space.vmem Cert.KernelIdeal.S3400 EltTy.i32)
local notation "jjS" => (Memref.whole Cert.KernelIdeal.cc2_scratch1 : Memref Cert.KernelIdeal.sig Kind.scVector Space.vmem Cert.KernelIdeal.S3400 EltTy.i32)
local notation "ri0" => (Memref.whole Cert.KernelIdeal.cc2_scratch2 : Memref Cert.KernelIdeal.sig Kind.scVector Space.vmem Cert.KernelIdeal.S200x128 EltTy.f32)
local notation "ri1" => (Memref.whole Cert.KernelIdeal.cc2_scratch3 : Memref Cert.KernelIdeal.sig Kind.scVector Space.vmem Cert.KernelIdeal.S200x128 EltTy.f32)
local notation "rj0" => (Memref.whole Cert.KernelIdeal.cc2_scratch4 : Memref Cert.KernelIdeal.sig Kind.scVector Space.vmem Cert.KernelIdeal.S200x128 EltTy.f32)
local notation "rj1" => (Memref.whole Cert.KernelIdeal.cc2_scratch5 : Memref Cert.KernelIdeal.sig Kind.scVector Space.vmem Cert.KernelIdeal.S200x128 EltTy.f32)

section Tile

variable (d : Dev nD) (L : grid2.Coords)

omit [FloatOps F] in
theorem ownSems0_V1 :
    (ownSems0 (V d (cV L) (jV L)) : sProp 𝕄)
      = iprop(semVal ((V d (cV L) (jV L), SemLoc.dma cc2_scratch6.sem) : GSem nD τ sig) 0 ∗ semVal ((V d (cV L) (jV L), SemLoc.dma cc2_scratch7.sem) : GSem nD τ sig) 0 ∗ semVal ((V d (cV L) (jV L), SemLoc.dma cc2_scratch8.sem) : GSem nD τ sig) 0 ∗ semVal ((V d (cV L) (jV L), SemLoc.dma cc2_scratch9.sem) : GSem nD τ sig) 0 ∗ semVal ((V d (cV L) (jV L), SemLoc.dma cc2_scoped0.sem) : GSem nD τ sig) 0 ∗ semVal ((V d (cV L) (jV L), SemLoc.dma cc2_scoped1.sem) : GSem nD τ sig) 0 ∗ semVal ((V d (cV L) (jV L), SemLoc.dma cc2_scoped2.sem) : GSem nD τ sig) 0 ∗ semVal ((V d (cV L) (jV L), SemLoc.dma cc2_scoped3.sem) : GSem nD τ sig) 0 ∗ semVal ((V d (cV L) (jV L), SemLoc.dma cc2_scoped4.sem) : GSem nD τ sig) 0
          ∗ bigSep ((((((((((ownCells (V d (cV L) (jV L))).erase ((V d (cV L) (jV L), SemLoc.dma cc2_scratch6.sem) : GSem nD τ sig)).erase ((V d (cV L) (jV L), SemLoc.dma cc2_scratch7.sem) : GSem nD τ sig)).erase ((V d (cV L) (jV L), SemLoc.dma cc2_scratch8.sem) : GSem nD τ sig)).erase ((V d (cV L) (jV L), SemLoc.dma cc2_scratch9.sem) : GSem nD τ sig)).erase ((V d (cV L) (jV L), SemLoc.dma cc2_scoped0.sem) : GSem nD τ sig)).erase ((V d (cV L) (jV L), SemLoc.dma cc2_scoped1.sem) : GSem nD τ sig)).erase ((V d (cV L) (jV L), SemLoc.dma cc2_scoped2.sem) : GSem nD τ sig)).erase ((V d (cV L) (jV L), SemLoc.dma cc2_scoped3.sem) : GSem nD τ sig)).erase ((V d (cV L) (jV L), SemLoc.dma cc2_scoped4.sem) : GSem nD τ sig)) fun g => semVal g 0) := by
  unfold SparseCore.Cfg.ownSems0
  rw [SparseCore.bigSep_erase' ((mem_ownCells (g := ((V d (cV L) (jV L), SemLoc.dma cc2_scratch6.sem) : GSem nD τ sig))).mpr ⟨rfl, by show (SemLoc.dma cc2_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc2_scratch7.sem) : GSem nD τ sig))).mpr ⟨rfl, by show (SemLoc.dma cc2_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scratch8.sem) : GSem nD τ sig))).mpr ⟨rfl, by show (SemLoc.dma cc2_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scratch9.sem) : GSem nD τ sig))).mpr ⟨rfl, by show (SemLoc.dma cc2_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped0.sem) : GSem nD τ sig))).mpr ⟨rfl, by show (SemLoc.dma cc2_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped1.sem) : GSem nD τ sig))).mpr ⟨rfl, by show (SemLoc.dma cc2_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped2.sem) : GSem nD τ sig))).mpr ⟨rfl, by show (SemLoc.dma cc2_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped3.sem) : GSem nD τ sig))).mpr ⟨rfl, by show (SemLoc.dma cc2_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped4.sem) : GSem nD τ sig))).mpr ⟨rfl, by show (SemLoc.dma cc2_scoped4.sem : SemLoc sig).isScoped .scVector = true; decide⟩⟩⟩⟩⟩⟩⟩⟩⟩)]

omit [FloatOps F] in
theorem ownBufs_V1 :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f) ∗ (∃ f, (V d (cV L) (jV L)).loc cc2_scratch5 ↦{fullShare} f)
          ∗ bigSep (((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc2_scratch0)) rfl)).trans ?_
  rw [SparseCore.bigSep_erase' (Finset.mem_erase.mpr ⟨(fun e => absurd (Proc.devRef_injective _ e) (show (cc2_scratch1 : Ref sig .scVector) ≠ cc2_scratch0 by decide)), SparseCore.Cfg.mem_ownRefs_of_owner (p := Proc.scVector (cV L) (jV L)) (b := ((Proc.scVector (cV L) (jV L)).devRef cc2_scratch1)) rfl⟩),
    SparseCore.bigSep_erase' (Finset.mem_erase.mpr ⟨(fun e => absurd (Proc.devRef_injective _ e) (show (cc2_scratch2 : Ref sig .scVector) ≠ cc2_scratch1 by decide)), Finset.mem_erase.mpr ⟨(fun e => absurd (Proc.devRef_injective _ e) (show (cc2_scratch2 : Ref sig .scVector) ≠ cc2_scratch0 by decide)), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨(fun e => absurd (Proc.devRef_injective _ e) (show (cc2_scratch3 : Ref sig .scVector) ≠ cc2_scratch2 by decide)), Finset.mem_erase.mpr ⟨(fun e => absurd (Proc.devRef_injective _ e) (show (cc2_scratch3 : Ref sig .scVector) ≠ cc2_scratch1 by decide)), Finset.mem_erase.mpr ⟨(fun e => absurd (Proc.devRef_injective _ e) (show (cc2_scratch3 : Ref sig .scVector) ≠ cc2_scratch0 by decide)), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨(fun e => absurd (Proc.devRef_injective _ e) (show (cc2_scratch4 : Ref sig .scVector) ≠ cc2_scratch3 by decide)), Finset.mem_erase.mpr ⟨(fun e => absurd (Proc.devRef_injective _ e) (show (cc2_scratch4 : Ref sig .scVector) ≠ cc2_scratch2 by decide)), Finset.mem_erase.mpr ⟨(fun e => absurd (Proc.devRef_injective _ e) (show (cc2_scratch4 : Ref sig .scVector) ≠ cc2_scratch1 by decide)), Finset.mem_erase.mpr ⟨(fun e => absurd (Proc.devRef_injective _ e) (show (cc2_scratch4 : Ref sig .scVector) ≠ cc2_scratch0 by decide)), SparseCore.Cfg.mem_ownRefs_of_owner (p := Proc.scVector (cV L) (jV L)) (b := ((Proc.scVector (cV L) (jV L)).devRef cc2_scratch4)) rfl⟩⟩⟩⟩),
    SparseCore.bigSep_erase' (Finset.mem_erase.mpr ⟨(fun e => absurd (Proc.devRef_injective _ e) (show (cc2_scratch5 : Ref sig .scVector) ≠ cc2_scratch4 by decide)), Finset.mem_erase.mpr ⟨(fun e => absurd (Proc.devRef_injective _ e) (show (cc2_scratch5 : Ref sig .scVector) ≠ cc2_scratch3 by decide)), Finset.mem_erase.mpr ⟨(fun e => absurd (Proc.devRef_injective _ e) (show (cc2_scratch5 : Ref sig .scVector) ≠ cc2_scratch2 by decide)), Finset.mem_erase.mpr ⟨(fun e => absurd (Proc.devRef_injective _ e) (show (cc2_scratch5 : Ref sig .scVector) ≠ cc2_scratch1 by decide)), Finset.mem_erase.mpr ⟨(fun e => absurd (Proc.devRef_injective _ e) (show (cc2_scratch5 : Ref sig .scVector) ≠ cc2_scratch0 by decide)), SparseCore.Cfg.mem_ownRefs_of_owner (p := Proc.scVector (cV L) (jV L)) (b := ((Proc.scVector (cV L) (jV L)).devRef cc2_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s2Loc d))) (f : Buf (Elt F) (s2Loc d)) :
    ((outW).view.loc (V d (cV L) (jV L)) ↦[I]{fullShare} f : sProp 𝕄) = s2Loc d ↦[I]{fullShare} f := by
  simp only [Memref.view_whole, View.set_whole]
omit [FloatOps F] in
theorem pts_b0 (f : Buf (Elt F) ((V d (cV L) (jV L)).loc cc2_scratch0)) :
    ((iiS).view.loc (V d (cV L) (jV L)) ↦{fullShare} f : sProp 𝕄) = (V d (cV L) (jV L)).loc cc2_scratch0 ↦{fullShare} f := rfl
omit [FloatOps F] in
theorem pts_b1 (f : Buf (Elt F) ((V d (cV L) (jV L)).loc cc2_scratch1)) :
    ((jjS).view.loc (V d (cV L) (jV L)) ↦{fullShare} f : sProp 𝕄) = (V d (cV L) (jV L)).loc cc2_scratch1 ↦{fullShare} f := rfl
omit [FloatOps F] in
theorem pts_b2 (f : Buf (Elt F) ((V d (cV L) (jV L)).loc cc2_scratch2)) :
    ((ri0).view.loc (V d (cV L) (jV L)) ↦{fullShare} f : sProp 𝕄) = (V d (cV L) (jV L)).loc cc2_scratch2 ↦{fullShare} f := rfl
omit [FloatOps F] in
theorem pts_b3 (f : Buf (Elt F) ((V d (cV L) (jV L)).loc cc2_scratch3)) :
    ((ri1).view.loc (V d (cV L) (jV L)) ↦{fullShare} f : sProp 𝕄) = (V d (cV L) (jV L)).loc cc2_scratch3 ↦{fullShare} f := rfl
omit [FloatOps F] in
theorem pts_b4 (f : Buf (Elt F) ((V d (cV L) (jV L)).loc cc2_scratch4)) :
    ((rj0).view.loc (V d (cV L) (jV L)) ↦{fullShare} f : sProp 𝕄) = (V d (cV L) (jV L)).loc cc2_scratch4 ↦{fullShare} f := rfl
omit [FloatOps F] in
theorem pts_b5 (f : Buf (Elt F) ((V d (cV L) (jV L)).loc cc2_scratch5)) :
    ((rj1).view.loc (V d (cV L) (jV L)) ↦{fullShare} f : sProp 𝕄) = (V d (cV L) (jV L)).loc cc2_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s2Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc2_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc2_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc2_scratch7)) 0
    ∗ semVal (𝓽, SemLoc.dma (SemArray.sem cc2_scratch9)) 0
    ∗ semVal (𝓽, SemLoc.dma (SemArray.sem cc2_scoped2)) 0
    ∗ semVal (𝓽, SemLoc.dma (SemArray.sem cc2_scoped3)) 0
    ∗ ((outW).view.loc 𝓽 ↦[doneSet d L (400 * t)]{fullShare} S2v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body2 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s2Loc d ↦[rows2 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc2_scratch6 cc2_scratch7 cc2_scratch8 cc2_scratch9
            cc2_scoped0 cc2_scoped1 cc2_scoped2 cc2_scoped3 cc2_scoped4)
          fun _ => iprop((reads m GI GJ d (tileShare (cL L) (iL L)) ∗ s2Loc d ↦[rows2 (cL L) (iL L) d]{fullShare} S2v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__edge_gather_eq_skeleton]; unfold cc2__edge_gather_skel
  simp only [k2_part8_eq_skeleton]; unfold k2_part8_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body2.sl.dma0 m d L) Finset.univ = fI
  generalize hfJ : View.write (Elt F) (jjS).view f1 (tile_body2.sl.dma0_1 m d L) Finset.univ = fJ
  have hvI : ∀ x : S3400.Idx, (iiS).view.read (Elt F) fI x = m (iiLoc d) (edgeIx 108800 (wb1 L + (x 0).val)) := by
    intro x; subst hfI; exact fetchI_read m d L f0 x
  have hvJ : ∀ x : S3400.Idx, (jjS).view.read (Elt F) fJ x = m (jjLoc d) (edgeIx 108800 (wb1 L + (x 0).val)) := by
    intro x; subst hfJ; exact fetchJ_read m d L f1 x
  have hinI : ∀ (R : Rect S3400) (hR : ∀ a, R.stride a = 1) (x : R.shape.Idx), (((iiS).slice R hR).view.read (Elt F) fI x).toNat < 10000 :=
    fetchI_lt m d L hpre fI hvI
  have hinJ : ∀ (R : Rect S3400) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k2_off3_eq, k2_off4_eq, k2_off5_eq, k2_off6_eq, k2_off7_eq, k2_off8_eq, k2_off9_eq, k2_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k2_t2_loop.lb k2_t2_loop.ub k2_t2_loop.st = 200 := by decide
    have ht3 : Scf.trips k2_t3_loop.lb k2_t3_loop.ub k2_t3_loop.st = 200 := by decide
    have hk8 : k.val < 8 := lt_of_lt_of_le k.isLt k2_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k2_off11 L k) (k2_off11_inb L k) (fun _ => rfl) (400 * k.val) (by rw [k2_off11_eq, wb1]) fo).symm) $$ Hch
    sl_exec
    ihave Hch2 := (Entails.of_eq (pts_chunk (F := F) d L (k2_off11 L k) (k2_off11_inb L k) (fun _ => rfl) (400 * k.val) (by rw [k2_off11_eq, wb1]) _)) $$ Hch'
    ihave Hch2' := (pts_exists (F := F) _ fullShare _) $$ Hch2
    icases Hch2' with ⟨%C, %hC, Hch2⟩
    have hCv : ∀ i ∈ chunkSet d L (400 * k.val), C i = S2v m GI GJ d i := by
      subst hC
      have hset : chunkSet d L (400 * k.val) = chunkSet d L (200 * (2 * k.val)) := by congr 1 <;> omega
      rw [hset]
      exact out_val m GI GJ d L (k2_off11 L k) (k2_off11_inb L k) (fun _ => rfl) (2 * k.val) (by omega) (by rw [k2_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S2v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k2_off12_eq, k2_off13_eq, k2_off14_eq, k2_off15_eq, k2_off16_eq, k2_off17_eq, k2_off18_eq, k2_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k2_off2 k 1#32 = ![200 * (2 * k.val + 1)] := by
      rw [show (1#32 : BitVec 32) = BitVec.ofNat 32 (1 + (0 : Fin 2).val) from rfl, k2_off2_eq k 0]
      show ![400 * k.val + 200 * 0 + 200] = _
      congr 1; omega
    have hoff2 : k2_off2 k 2#32 = ![200 * min (ch0 (k.val + 1)) 16] := by
      rw [show (2#32 : BitVec 32) = BitVec.ofNat 32 (1 + (1 : Fin 2).val) from rfl, k2_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k2_off2 k 1#32) (k2_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k2_off2 k 1#32) (k2_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k2_off20 L k) (k2_off20_inb L k) (fun _ => rfl) (400 * k.val + 200) (by rw [k2_off20_eq, wb1, Nat.add_assoc]) fo).symm) $$ Hch
    sl_exec
    ihave Hch2 := (Entails.of_eq (pts_chunk (F := F) d L (k2_off20 L k) (k2_off20_inb L k) (fun _ => rfl) (400 * k.val + 200) (by rw [k2_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S2v m GI GJ d i := by
      subst hC
      have hset : chunkSet d L (400 * k.val + 200) = chunkSet d L (200 * (2 * k.val + 1)) := by congr 1 <;> omega
      rw [hset]
      exact out_val m GI GJ d L (k2_off20 L k) (k2_off20_inb L k) (fun _ => rfl) (2 * k.val + 1) (by omega) (by rw [k2_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S2v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k2_off2 k 2#32) S200.size (k2_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k2_off2 k 2#32) S200.size (k2_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k2_off2 k 2#32) (k2_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k2_off2 k 2#32) (k2_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3400_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3400_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3400_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3400_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k2_t1_loop.lb k2_t1_loop.ub k2_t1_loop.st = 8 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k2_off21_eq, k2_off22_eq, k2_off23_eq, k2_off24_eq, k2_off25_eq, k2_off26_eq, k2_off27_eq, k2_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k2_t4_loop.lb k2_t4_loop.ub k2_t4_loop.st = 200 := by decide
  have hch8 : ch0 8 = 16 := by decide
  have hsum16 : ∀ y, (ri0).view.read (Elt F) gS y = FloatOps.addf (VI GI d L fI 16 y) (VJ GJ d L fJ 16 y) := by
    intro y; rw [hgS y, ht4, if_pos (show (y 0).val < 200 from (y 0).isLt), hgA y, hgB y, hch8]
  ihave Hrem2 := (Entails.of_eq (congrArg (fun S => ((outW).view.loc 𝓽 ↦[S]{fullShare} fo : sProp 𝕄)) (remSet_split d L (400 * 8) (by omega)))) $$ Hrem
  ihave Hrem3 := ((pointsTo_union (chunk_rem_disj d L (400 * 8))).1) $$ Hrem2
  icases Hrem3 with ⟨Hch, Hrem⟩
  ihave Hch' := (Entails.of_eq (pts_chunk (F := F) d L (k2_off29 L) (k2_off29_inb L) (fun _ => rfl) (400 * 8) (by rw [k2_off29_eq, wb1]) fo).symm) $$ Hch
  sl_exec
  ihave Hch2 := (Entails.of_eq (pts_chunk (F := F) d L (k2_off29 L) (k2_off29_inb L) (fun _ => rfl) (400 * 8) (by rw [k2_off29_eq, wb1]) _)) $$ Hch'
  ihave Hch2' := (pts_exists (F := F) _ fullShare _) $$ Hch2
  icases Hch2' with ⟨%C, %hC, Hch2⟩
  have hCv : ∀ i ∈ chunkSet d L (400 * 8), C i = S2v m GI GJ d i := by
    subst hC
    have hset : chunkSet d L (400 * 8) = chunkSet d L (200 * (16)) := by congr 1 <;> omega
    rw [hset]
    exact out_val m GI GJ d L (k2_off29 L) (k2_off29_inb L) (fun _ => rfl) (16) (by omega) (by (rw [k2_off29_eq, wb1]) <;> (first | rfl | (congr 2; omega))) fI fJ hvI hvJ _ hsum16 _
  ihave Hch3 := (Entails.of_eq (pointsTo_congr hCv)) $$ Hch2
  ihave Hdone2 := ((pointsTo_union (done_chunk_disj d L (400 * 8))).2) $$ [Hdone Hch3]
  · isplitl [Hdone]; · iexact Hdone
    iexact Hch3
  ihave Hdone := (Entails.of_eq (congrArg (fun S => ((outW).view.loc 𝓽 ↦[S]{fullShare} S2v m GI GJ d : sProp 𝕄)) (doneSet_step d L (400 * 8)).symm)) $$ Hdone2
  sl_step
  ihave Hd := (Entails.of_eq (congrArg (fun S => ((outW).view.loc 𝓽 ↦[S]{fullShare} S2v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hb3 Hrj Hb5 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hb3]; · iexists _; iapply (Entails.of_eq (pts_b3 (F := F) d L _)); iexact Hb3
    isplitl [Hrj]; · iexists _; iapply (Entails.of_eq (pts_b4 (F := F) d L _)); iexact Hrj
    isplitl [Hb5]; · iexists _; iapply (Entails.of_eq (pts_b5 (F := F) d L _)); iexact Hb5
    iexact Hbufs
  isplitl [Hfl6 Hs7 Hfl8 Hs9 Hc0 Hc1 Hc2 Hc3 Hc4 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap
  · iexact HO
  · ipureintro
    repeat (first | exact hW' | apply W_insert)

end Tile

/-! ## The launch theorem's obligation -/

def coordsV1 (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc2_scratch6 cc2_scratch7 cc2_scratch8 cc2_scratch9
          cc2_scoped0 cc2_scoped1 cc2_scoped2 cc2_scoped3 cc2_scoped4) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_1 (hpre : IdxOK m) : (K (F := F)).TileObl (D (F := F)) 𝒱 (P m GI GJ) v₀ 1 := by
  intro d c i O W hO _ _
  simp only [show (P m GI GJ).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body2 m GI GJ d (coordsV1 ⟨_, hc.1⟩ ⟨_, hc.2⟩) hpre O W hO).trans (wp_mono frame _ _ fun _ => obl_post)

end Cert.Proof.KI.T2

end
-- ==== Proof.TilePure3.lean ====
/-
  The arithmetic of one worker of the third gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[217600 + r] of the first table plus row idx_j[217600 + r] of the second.
-/
import proofs.«206539_g3985729650836_cont_8to1_b_247_13_alg».proof.Proof.Pay
import Idealize.ShloMosaic.Lib.Writes

noncomputable section

namespace Cert.Proof.KI.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v7_scv : Memref Cert.KernelIdeal.sig Kind.scVector Space.hbm Cert.KernelIdeal.S102400x128 EltTy.f32)
local notation "iiS" => (Memref.whole Cert.KernelIdeal.cc3_scratch0 : Memref Cert.KernelIdeal.sig Kind.scVector Space.vmem Cert.KernelIdeal.S3200 EltTy.i32)
local notation "jjS" => (Memref.whole Cert.KernelIdeal.cc3_scratch1 : Memref Cert.KernelIdeal.sig Kind.scVector Space.vmem Cert.KernelIdeal.S3200 EltTy.i32)
local notation "ri0" => (Memref.whole Cert.KernelIdeal.cc3_scratch2 : Memref Cert.KernelIdeal.sig Kind.scVector Space.vmem Cert.KernelIdeal.S200x128 EltTy.f32)
local notation "ri1" => (Memref.whole Cert.KernelIdeal.cc3_scratch3 : Memref Cert.KernelIdeal.sig Kind.scVector Space.vmem Cert.KernelIdeal.S200x128 EltTy.f32)
local notation "rj0" => (Memref.whole Cert.KernelIdeal.cc3_scratch4 : Memref Cert.KernelIdeal.sig Kind.scVector Space.vmem Cert.KernelIdeal.S200x128 EltTy.f32)
local notation "rj1" => (Memref.whole Cert.KernelIdeal.cc3_scratch5 : Memref Cert.KernelIdeal.sig Kind.scVector Space.vmem Cert.KernelIdeal.S200x128 EltTy.f32)

section Tile

variable (d : Dev nD) (L : grid3.Coords)

abbrev cV (L : grid3.Coords) : Fin τ.nSC := (L 0).castLE hcore3
abbrev jV (L : grid3.Coords) : Fin τ.nSub := (L 1).castLE hsub3
omit [FloatOps F] in
theorem bound1_zero : grid3.bound 0 = 2 := rfl
omit [FloatOps F] in
theorem bound1_one : grid3.bound 1 = 16 := rfl
abbrev cL (L : grid3.Coords) : Fin 2 := Fin.cast bound1_zero (L 0)
abbrev iL (L : grid3.Coords) : Fin 16 := Fin.cast bound1_one (L 1)

/-- The first row of the output array written by worker `(L 0, L 1)`: `3200 · (2 · L 1 + L 0)`. -/
def wb1 (L : grid3.Coords) : ℕ := 6400 * (L 1).val + 3200 * (L 0).val

/-- The chunk whose rows travel to the first pair of row buffers before trip `t` of the main loop. -/
def ch0 (t : ℕ) : ℕ := min (2 * t) 14

omit [FloatOps F] in
theorem lr_inb (c : ℕ) : ∀ a, (![200 * min c 15] : Fin 1 → ℕ) a + S200.size a ≤ S3200.size a := by
  intro a; obtain rfl : a = 0 := Subsingleton.elim _ _
  show 200 * min c 15 + 200 ≤ 3200; omega

/-- The two hundred positions of chunk `c` in a worker's index slice. -/
abbrev LR (c : ℕ) : Rect S3200 := Rect.unit ![200 * min c 15] S200.size (lr_inb c)

/-- The rows of the output array below row `a` of the worker's, and from row `a` on. -/
def doneSet (a : ℕ) : Finset (Idx (s3Loc d)) := Finset.univ.filter fun y => wb1 L ≤ (y 0).val ∧ (y 0).val < wb1 L + a
def remSet (a : ℕ) : Finset (Idx (s3Loc d)) := Finset.univ.filter fun y => wb1 L + a ≤ (y 0).val ∧ (y 0).val < wb1 L + 3200

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3200 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3200 (200 * c + (y 0).val))))) (y 1))

/-- The two hundred rows of the chunk that starts at row `a` of the worker's. -/
def chunkSet (a : ℕ) : Finset (Idx (s3Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows3 (cL L) (iL L) d := by
  unfold remSet rows3
  refine Finset.filter_congr fun y _ => ?_
  show wb1 L + 0 ≤ (y 0).val ∧ (y 0).val < wb1 L + 3200 ↔ (y 0).val / 3200 = (L 1).val * 2 + (L 0).val
  unfold wb1
  omega
omit [FloatOps F] in
theorem remSet_end : remSet d L 3200 = ∅ := by
  ext y; simp only [remSet, Finset.mem_filter, Finset.mem_univ, true_and, Finset.notMem_empty, iff_false]; omega
omit [FloatOps F] in
theorem doneSet_end : doneSet d L 3200 = rows3 (cL L) (iL L) d := by
  unfold doneSet rows3
  refine Finset.filter_congr fun y _ => ?_
  show wb1 L ≤ (y 0).val ∧ (y 0).val < wb1 L + 3200 ↔ (y 0).val / 3200 = (L 1).val * 2 + (L 0).val
  unfold wb1
  omega
omit [FloatOps F] in
theorem remSet_split (a : ℕ) (ha : a + 200 ≤ 3200) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S102400x128.size a)
    (hs : ∀ a, (Rect.unit (s := S102400x128) off S200x128.size inb).stride a = 1) (a : ℕ) (h : off = ![wb1 L + a, 0]) :
    (Memref.slice outW (Rect.unit off S200x128.size inb) hs).view.set = chunkSet d L a := by
  subst h
  show ((View.whole (main_v7_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S102400x128.size a)
    (hs : ∀ a, (Rect.unit (s := S102400x128) off S200x128.size inb).stride a = 1) (a : ℕ) (h : off = ![wb1 L + a, 0]) (f : Buf (Elt F) (s3Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S102400x128.size a)
    (hs : ∀ a, (Rect.unit (s := S102400x128) off S200x128.size inb).stride a = 1) (c : ℕ) (hc : c ≤ 15) (h : off = ![wb1 L + 200 * c, 0])
    (fI : Buf (Elt F) ((iiS).view.loc 𝓽)) (fJ : Buf (Elt F) ((jjS).view.loc 𝓽))
    (hfI : ∀ x : S3200.Idx, (iiS).view.read (Elt F) fI x = m (iiLoc d) (edgeIx 217600 (wb1 L + (x 0).val)))
    (hfJ : ∀ x : S3200.Idx, (jjS).view.read (Elt F) fJ x = m (jjLoc d) (edgeIx 217600 (wb1 L + (x 0).val)))
    (w : S200x128.Idx → Elt F .f32) (hw : ∀ y, w y = FloatOps.addf (VI GI d L fI c y) (VJ GJ d L fJ c y))
    (jnk : Buf (Elt F) (s3Loc d)) :
    ∀ i ∈ chunkSet d L (200 * c),
      ((Memref.slice outW (Rect.unit off S200x128.size inb) hs).view.writes (Elt F) jnk [⟨Rect.whole _, w⟩]) i = S3v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S3v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S3v m GI GJ d ((Memref.slice outW (Rect.unit _ S200x128.size inb) hs).view.emb x)
  unfold S3v scOut VI VJ
  rw [hfI, hfJ]
  have hx0 : (x 0).val < 200 := (x 0).isLt
  have hmod : ((ix1 (Fin.ofNat 3200 (200 * c + (x 0).val)) : S3200.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `217600 + wb1 L + x`. -/
theorem fetchI_read (f0 : Buf (Elt F) ((iiS).view.loc 𝓽)) (x : S3200.Idx) :
    (iiS).view.read (Elt F)
        ((iiS).view.write (Elt F) f0
          (ReadAs.same.apply ((Memref.slice iiW (Rect.unit (k3_off1 L) S3200.size (k3_off1_inb L)) (fun _ => rfl)).view.read (Elt F) (m (iiLoc d))))
          Finset.univ) x
      = m (iiLoc d) (edgeIx 217600 (wb1 L + (x 0).val)) := by
  rw [View.read_write_univ]
  show m (iiLoc d) ((Memref.slice iiW (Rect.unit (k3_off1 L) S3200.size (k3_off1_inb L)) (fun _ => rfl)).view.emb x)
      = m (iiLoc d) (edgeIx 217600 (wb1 L + (x 0).val))
  refine congrArg (m (iiLoc d)) ?_
  refine funext fun (a : Fin 1) => ?_
  obtain rfl : a = 0 := Subsingleton.elim _ _
  refine Fin.ext ?_
  have hx : (x 0).val < 3200 := (x 0).isLt
  have h0 : (L 0).val < 2 := (L 0).isLt
  have h1 : (L 1).val < 16 := (L 1).isLt
  show (k3_off1 L) 0 + 1 * (x 0).val = (217600 + (wb1 L + (x 0).val)) % 320000
  rw [k3_off1_eq L]
  show 6400 * (L 1).val + 3200 * (L 0).val + 217600 + 1 * (x 0).val = (217600 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3200.Idx, (iiS).view.read (Elt F) fI x = m (iiLoc d) (edgeIx 217600 (wb1 L + (x 0).val)))
    (R : Rect S3200) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `217600 + wb1 L + x`. -/
theorem fetchJ_read (f0 : Buf (Elt F) ((jjS).view.loc 𝓽)) (x : S3200.Idx) :
    (jjS).view.read (Elt F)
        ((jjS).view.write (Elt F) f0
          (ReadAs.same.apply ((Memref.slice jjW (Rect.unit (k3_off1 L) S3200.size (k3_off1_inb L)) (fun _ => rfl)).view.read (Elt F) (m (jjLoc d))))
          Finset.univ) x
      = m (jjLoc d) (edgeIx 217600 (wb1 L + (x 0).val)) := by
  rw [View.read_write_univ]
  show m (jjLoc d) ((Memref.slice jjW (Rect.unit (k3_off1 L) S3200.size (k3_off1_inb L)) (fun _ => rfl)).view.emb x)
      = m (jjLoc d) (edgeIx 217600 (wb1 L + (x 0).val))
  refine congrArg (m (jjLoc d)) ?_
  refine funext fun (a : Fin 1) => ?_
  obtain rfl : a = 0 := Subsingleton.elim _ _
  refine Fin.ext ?_
  have hx : (x 0).val < 3200 := (x 0).isLt
  have h0 : (L 0).val < 2 := (L 0).isLt
  have h1 : (L 1).val < 16 := (L 1).isLt
  show (k3_off1 L) 0 + 1 * (x 0).val = (217600 + (wb1 L + (x 0).val)) % 320000
  rw [k3_off1_eq L]
  show 6400 * (L 1).val + 3200 * (L 0).val + 217600 + 1 * (x 0).val = (217600 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3200.Idx, (jjS).view.read (Elt F) fJ x = m (jjLoc d) (edgeIx 217600 (wb1 L + (x 0).val)))
    (R : Rect S3200) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3200.size a)
    (hR : ∀ a, (Rect.unit (s := S3200) off S200.size inb).stride a = 1) (c : ℕ) (hc : c ≤ 15) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3200) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3200) ![200 * c] S200.size inb).emb (S200.rowMajor.symm ((y gathers_S10000x128_S200x128.axis').cast hn.symm))
      = (ix1 (Fin.ofNat 3200 (200 * c + (y 0).val)) : S3200.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3200
    rw [hz0, Nat.mod_eq_of_lt (by omega)]
    omega
  have hrow : (SparseCore.rows (((iiS).slice (Rect.unit (s := S3200) ![200 * c] S200.size inb) hR).view.read (Elt F) fI) hn hin
        (y gathers_S10000x128_S200x128.axis')).val
      = ((iiS).view.read (Elt F) fI (ix1 (Fin.ofNat 3200 (200 * c + (y 0).val)))).toNat := by
    show (((iiS).slice (Rect.unit (s := S3200) ![200 * c] S200.size inb) hR).view.read (Elt F) fI
        (S200.rowMajor.symm ((y gathers_S10000x128_S200x128.axis').cast hn.symm))).toNat = _
    rw [show ((iiS).slice (Rect.unit (s := S3200) ![200 * c] S200.size inb) hR).view.read (Elt F) fI
          (S200.rowMajor.symm ((y gathers_S10000x128_S200x128.axis').cast hn.symm))
        = (iiS).view.read (Elt F) fI ((Rect.unit (s := S3200) ![200 * c] S200.size inb).emb
          (S200.rowMajor.symm ((y gathers_S10000x128_S200x128.axis').cast hn.symm))) from rfl, hemb]
  have hlt : ((iiS).view.read (Elt F) fI (ix1 (Fin.ofNat 3200 (200 * c + (y 0).val)))).toNat < 10000 := by
    rw [← hrow]; exact (SparseCore.rows _ hn hin _).isLt
  show GI d ((giSl).view.emb (gathers_S10000x128_S200x128.idx
        (SparseCore.rows (((iiS).slice (Rect.unit (s := S3200) ![200 * c] S200.size inb) hR).view.read (Elt F) fI) hn hin) y))
      = GI d (ix2 (rowOf 10000 ((iiS).view.read (Elt F) fI (ix1 (Fin.ofNat 3200 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3200) ![200 * c] S200.size inb) hR).view.read (Elt F) fI) hn hin) y
          gathers_S10000x128_S200x128.axis).val
      = ((iiS).view.read (Elt F) fI (ix1 (Fin.ofNat 3200 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3200) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3200.size a)
    (hR : ∀ a, (Rect.unit (s := S3200) off S200.size inb).stride a = 1) (c : ℕ) (hc : c ≤ 15) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3200) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3200) ![200 * c] S200.size inb).emb (S200.rowMajor.symm ((y gathers_S10000x128_S200x128.axis').cast hn.symm))
      = (ix1 (Fin.ofNat 3200 (200 * c + (y 0).val)) : S3200.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3200
    rw [hz0, Nat.mod_eq_of_lt (by omega)]
    omega
  have hrow : (SparseCore.rows (((jjS).slice (Rect.unit (s := S3200) ![200 * c] S200.size inb) hR).view.read (Elt F) fJ) hn hin
        (y gathers_S10000x128_S200x128.axis')).val
      = ((jjS).view.read (Elt F) fJ (ix1 (Fin.ofNat 3200 (200 * c + (y 0).val)))).toNat := by
    show (((jjS).slice (Rect.unit (s := S3200) ![200 * c] S200.size inb) hR).view.read (Elt F) fJ
        (S200.rowMajor.symm ((y gathers_S10000x128_S200x128.axis').cast hn.symm))).toNat = _
    rw [show ((jjS).slice (Rect.unit (s := S3200) ![200 * c] S200.size inb) hR).view.read (Elt F) fJ
          (S200.rowMajor.symm ((y gathers_S10000x128_S200x128.axis').cast hn.symm))
        = (jjS).view.read (Elt F) fJ ((Rect.unit (s := S3200) ![200 * c] S200.size inb).emb
          (S200.rowMajor.symm ((y gathers_S10000x128_S200x128.axis').cast hn.symm))) from rfl, hemb]
  have hlt : ((jjS).view.read (Elt F) fJ (ix1 (Fin.ofNat 3200 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3200) ![200 * c] S200.size inb) hR).view.read (Elt F) fJ) hn hin) y))
      = GJ d (ix2 (rowOf 10000 ((jjS).view.read (Elt F) fJ (ix1 (Fin.ofNat 3200 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3200) ![200 * c] S200.size inb) hR).view.read (Elt F) fJ) hn hin) y
          gathers_S10000x128_S200x128.axis).val
      = ((jjS).view.read (Elt F) fJ (ix1 (Fin.ofNat 3200 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3200) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KI.T3

end
-- ==== Proof.Tile3.lean ====
/-
  The body of the third gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.TilePure3
import Idealize.ShloMosaic.Lib.Writes

noncomputable section

namespace Cert.Proof.KI.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.KernelIdeal.main_v2_1_scv : Memref Cert.KernelIdeal.sig Kind.scVector Space.hbm Cert.KernelIdeal.S10000x128 EltTy.f32)
local notation "gjW" => (Memref.whole Cert.KernelIdeal.main_v2_2_scv : Memref Cert.KernelIdeal.sig Kind.scVector Space.hbm Cert.KernelIdeal.S10000x128 EltTy.f32)
local notation "iiW" => (Memref.whole Cert.KernelIdeal.main_arg2_scv : Memref Cert.KernelIdeal.sig Kind.scVector Space.hbm Cert.KernelIdeal.S320000 EltTy.i32)
local notation "jjW" => (Memref.whole Cert.KernelIdeal.main_arg3_scv : Memref Cert.KernelIdeal.sig Kind.scVector Space.hbm Cert.KernelIdeal.S320000 EltTy.i32)
local notation "outW" => (Memref.whole Cert.KernelIdeal.main_v7_scv : Memref Cert.KernelIdeal.sig Kind.scVector Space.hbm Cert.KernelIdeal.S102400x128 EltTy.f32)
local notation "iiS" => (Memref.whole Cert.KernelIdeal.cc3_scratch0 : Memref Cert.KernelIdeal.sig Kind.scVector Space.vmem Cert.KernelIdeal.S3200 EltTy.i32)
local notation "jjS" => (Memref.whole Cert.KernelIdeal.cc3_scratch1 : Memref Cert.KernelIdeal.sig Kind.scVector Space.vmem Cert.KernelIdeal.S3200 EltTy.i32)
local notation "ri0" => (Memref.whole Cert.KernelIdeal.cc3_scratch2 : Memref Cert.KernelIdeal.sig Kind.scVector Space.vmem Cert.KernelIdeal.S200x128 EltTy.f32)
local notation "ri1" => (Memref.whole Cert.KernelIdeal.cc3_scratch3 : Memref Cert.KernelIdeal.sig Kind.scVector Space.vmem Cert.KernelIdeal.S200x128 EltTy.f32)
local notation "rj0" => (Memref.whole Cert.KernelIdeal.cc3_scratch4 : Memref Cert.KernelIdeal.sig Kind.scVector Space.vmem Cert.KernelIdeal.S200x128 EltTy.f32)
local notation "rj1" => (Memref.whole Cert.KernelIdeal.cc3_scratch5 : Memref Cert.KernelIdeal.sig Kind.scVector Space.vmem Cert.KernelIdeal.S200x128 EltTy.f32)

section Tile

variable (d : Dev nD) (L : grid3.Coords)

omit [FloatOps F] in
theorem ownSems0_V1 :
    (ownSems0 (V d (cV L) (jV L)) : sProp 𝕄)
      = iprop(semVal ((V d (cV L) (jV L), SemLoc.dma cc3_scratch6.sem) : GSem nD τ sig) 0 ∗ semVal ((V d (cV L) (jV L), SemLoc.dma cc3_scratch7.sem) : GSem nD τ sig) 0 ∗ semVal ((V d (cV L) (jV L), SemLoc.dma cc3_scratch8.sem) : GSem nD τ sig) 0 ∗ semVal ((V d (cV L) (jV L), SemLoc.dma cc3_scratch9.sem) : GSem nD τ sig) 0 ∗ semVal ((V d (cV L) (jV L), SemLoc.dma cc3_scoped0.sem) : GSem nD τ sig) 0 ∗ semVal ((V d (cV L) (jV L), SemLoc.dma cc3_scoped1.sem) : GSem nD τ sig) 0 ∗ semVal ((V d (cV L) (jV L), SemLoc.dma cc3_scoped2.sem) : GSem nD τ sig) 0 ∗ semVal ((V d (cV L) (jV L), SemLoc.dma cc3_scoped3.sem) : GSem nD τ sig) 0 ∗ semVal ((V d (cV L) (jV L), SemLoc.dma cc3_scoped4.sem) : GSem nD τ sig) 0 ∗ semVal ((V d (cV L) (jV L), SemLoc.dma cc3_scoped5.sem) : GSem nD τ sig) 0
          ∗ bigSep (((((((((((ownCells (V d (cV L) (jV L))).erase ((V d (cV L) (jV L), SemLoc.dma cc3_scratch6.sem) : GSem nD τ sig)).erase ((V d (cV L) (jV L), SemLoc.dma cc3_scratch7.sem) : GSem nD τ sig)).erase ((V d (cV L) (jV L), SemLoc.dma cc3_scratch8.sem) : GSem nD τ sig)).erase ((V d (cV L) (jV L), SemLoc.dma cc3_scratch9.sem) : GSem nD τ sig)).erase ((V d (cV L) (jV L), SemLoc.dma cc3_scoped0.sem) : GSem nD τ sig)).erase ((V d (cV L) (jV L), SemLoc.dma cc3_scoped1.sem) : GSem nD τ sig)).erase ((V d (cV L) (jV L), SemLoc.dma cc3_scoped2.sem) : GSem nD τ sig)).erase ((V d (cV L) (jV L), SemLoc.dma cc3_scoped3.sem) : GSem nD τ sig)).erase ((V d (cV L) (jV L), SemLoc.dma cc3_scoped4.sem) : GSem nD τ sig)).erase ((V d (cV L) (jV L), SemLoc.dma cc3_scoped5.sem) : GSem nD τ sig)) fun g => semVal g 0) := by
  unfold SparseCore.Cfg.ownSems0
  rw [SparseCore.bigSep_erase' ((mem_ownCells (g := ((V d (cV L) (jV L), SemLoc.dma cc3_scratch6.sem) : GSem nD τ sig))).mpr ⟨rfl, by show (SemLoc.dma cc3_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc3_scratch7.sem) : GSem nD τ sig))).mpr ⟨rfl, by show (SemLoc.dma cc3_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scratch8.sem) : GSem nD τ sig))).mpr ⟨rfl, by show (SemLoc.dma cc3_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scratch9.sem) : GSem nD τ sig))).mpr ⟨rfl, by show (SemLoc.dma cc3_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped0.sem) : GSem nD τ sig))).mpr ⟨rfl, by show (SemLoc.dma cc3_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped1.sem) : GSem nD τ sig))).mpr ⟨rfl, by show (SemLoc.dma cc3_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped2.sem) : GSem nD τ sig))).mpr ⟨rfl, by show (SemLoc.dma cc3_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped3.sem) : GSem nD τ sig))).mpr ⟨rfl, by show (SemLoc.dma cc3_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped4.sem) : GSem nD τ sig))).mpr ⟨rfl, by show (SemLoc.dma cc3_scoped4.sem : SemLoc sig).isScoped .scVector = true; decide⟩⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped5.sem) : GSem nD τ sig))).mpr ⟨rfl, by show (SemLoc.dma cc3_scoped5.sem : SemLoc sig).isScoped .scVector = true; decide⟩⟩⟩⟩⟩⟩⟩⟩⟩⟩)]

omit [FloatOps F] in
theorem ownBufs_V1 :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f) ∗ (∃ f, (V d (cV L) (jV L)).loc cc3_scratch5 ↦{fullShare} f)
          ∗ bigSep (((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc3_scratch0)) rfl)).trans ?_
  rw [SparseCore.bigSep_erase' (Finset.mem_erase.mpr ⟨(fun e => absurd (Proc.devRef_injective _ e) (show (cc3_scratch1 : Ref sig .scVector) ≠ cc3_scratch0 by decide)), SparseCore.Cfg.mem_ownRefs_of_owner (p := Proc.scVector (cV L) (jV L)) (b := ((Proc.scVector (cV L) (jV L)).devRef cc3_scratch1)) rfl⟩),
    SparseCore.bigSep_erase' (Finset.mem_erase.mpr ⟨(fun e => absurd (Proc.devRef_injective _ e) (show (cc3_scratch2 : Ref sig .scVector) ≠ cc3_scratch1 by decide)), Finset.mem_erase.mpr ⟨(fun e => absurd (Proc.devRef_injective _ e) (show (cc3_scratch2 : Ref sig .scVector) ≠ cc3_scratch0 by decide)), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨(fun e => absurd (Proc.devRef_injective _ e) (show (cc3_scratch3 : Ref sig .scVector) ≠ cc3_scratch2 by decide)), Finset.mem_erase.mpr ⟨(fun e => absurd (Proc.devRef_injective _ e) (show (cc3_scratch3 : Ref sig .scVector) ≠ cc3_scratch1 by decide)), Finset.mem_erase.mpr ⟨(fun e => absurd (Proc.devRef_injective _ e) (show (cc3_scratch3 : Ref sig .scVector) ≠ cc3_scratch0 by decide)), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨(fun e => absurd (Proc.devRef_injective _ e) (show (cc3_scratch4 : Ref sig .scVector) ≠ cc3_scratch3 by decide)), Finset.mem_erase.mpr ⟨(fun e => absurd (Proc.devRef_injective _ e) (show (cc3_scratch4 : Ref sig .scVector) ≠ cc3_scratch2 by decide)), Finset.mem_erase.mpr ⟨(fun e => absurd (Proc.devRef_injective _ e) (show (cc3_scratch4 : Ref sig .scVector) ≠ cc3_scratch1 by decide)), Finset.mem_erase.mpr ⟨(fun e => absurd (Proc.devRef_injective _ e) (show (cc3_scratch4 : Ref sig .scVector) ≠ cc3_scratch0 by decide)), SparseCore.Cfg.mem_ownRefs_of_owner (p := Proc.scVector (cV L) (jV L)) (b := ((Proc.scVector (cV L) (jV L)).devRef cc3_scratch4)) rfl⟩⟩⟩⟩),
    SparseCore.bigSep_erase' (Finset.mem_erase.mpr ⟨(fun e => absurd (Proc.devRef_injective _ e) (show (cc3_scratch5 : Ref sig .scVector) ≠ cc3_scratch4 by decide)), Finset.mem_erase.mpr ⟨(fun e => absurd (Proc.devRef_injective _ e) (show (cc3_scratch5 : Ref sig .scVector) ≠ cc3_scratch3 by decide)), Finset.mem_erase.mpr ⟨(fun e => absurd (Proc.devRef_injective _ e) (show (cc3_scratch5 : Ref sig .scVector) ≠ cc3_scratch2 by decide)), Finset.mem_erase.mpr ⟨(fun e => absurd (Proc.devRef_injective _ e) (show (cc3_scratch5 : Ref sig .scVector) ≠ cc3_scratch1 by decide)), Finset.mem_erase.mpr ⟨(fun e => absurd (Proc.devRef_injective _ e) (show (cc3_scratch5 : Ref sig .scVector) ≠ cc3_scratch0 by decide)), SparseCore.Cfg.mem_ownRefs_of_owner (p := Proc.scVector (cV L) (jV L)) (b := ((Proc.scVector (cV L) (jV L)).devRef cc3_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s3Loc d))) (f : Buf (Elt F) (s3Loc d)) :
    ((outW).view.loc (V d (cV L) (jV L)) ↦[I]{fullShare} f : sProp 𝕄) = s3Loc d ↦[I]{fullShare} f := by
  simp only [Memref.view_whole, View.set_whole]
omit [FloatOps F] in
theorem pts_b0 (f : Buf (Elt F) ((V d (cV L) (jV L)).loc cc3_scratch0)) :
    ((iiS).view.loc (V d (cV L) (jV L)) ↦{fullShare} f : sProp 𝕄) = (V d (cV L) (jV L)).loc cc3_scratch0 ↦{fullShare} f := rfl
omit [FloatOps F] in
theorem pts_b1 (f : Buf (Elt F) ((V d (cV L) (jV L)).loc cc3_scratch1)) :
    ((jjS).view.loc (V d (cV L) (jV L)) ↦{fullShare} f : sProp 𝕄) = (V d (cV L) (jV L)).loc cc3_scratch1 ↦{fullShare} f := rfl
omit [FloatOps F] in
theorem pts_b2 (f : Buf (Elt F) ((V d (cV L) (jV L)).loc cc3_scratch2)) :
    ((ri0).view.loc (V d (cV L) (jV L)) ↦{fullShare} f : sProp 𝕄) = (V d (cV L) (jV L)).loc cc3_scratch2 ↦{fullShare} f := rfl
omit [FloatOps F] in
theorem pts_b3 (f : Buf (Elt F) ((V d (cV L) (jV L)).loc cc3_scratch3)) :
    ((ri1).view.loc (V d (cV L) (jV L)) ↦{fullShare} f : sProp 𝕄) = (V d (cV L) (jV L)).loc cc3_scratch3 ↦{fullShare} f := rfl
omit [FloatOps F] in
theorem pts_b4 (f : Buf (Elt F) ((V d (cV L) (jV L)).loc cc3_scratch4)) :
    ((rj0).view.loc (V d (cV L) (jV L)) ↦{fullShare} f : sProp 𝕄) = (V d (cV L) (jV L)).loc cc3_scratch4 ↦{fullShare} f := rfl
omit [FloatOps F] in
theorem pts_b5 (f : Buf (Elt F) ((V d (cV L) (jV L)).loc cc3_scratch5)) :
    ((rj1).view.loc (V d (cV L) (jV L)) ↦{fullShare} f : sProp 𝕄) = (V d (cV L) (jV L)).loc cc3_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s3Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc3_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc3_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc3_scratch7)) 0
    ∗ semVal (𝓽, SemLoc.dma (SemArray.sem cc3_scratch9)) 0
    ∗ semVal (𝓽, SemLoc.dma (SemArray.sem cc3_scoped2)) 0
    ∗ semVal (𝓽, SemLoc.dma (SemArray.sem cc3_scoped3)) 0
    ∗ ((outW).view.loc 𝓽 ↦[doneSet d L (400 * t)]{fullShare} S3v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body3 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s3Loc d ↦[rows3 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc3_scratch6 cc3_scratch7 cc3_scratch8 cc3_scratch9
            cc3_scoped0 cc3_scoped1 cc3_scoped2 cc3_scoped3 cc3_scoped4 cc3_scoped5)
          fun _ => iprop((reads m GI GJ d (tileShare (cL L) (iL L)) ∗ s3Loc d ↦[rows3 (cL L) (iL L) d]{fullShare} S3v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__edge_gather_eq_skeleton]; unfold cc3__edge_gather_skel
  simp only [k3_part10_eq_skeleton]; unfold k3_part10_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hc5, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body3.sl.dma0 m d L) Finset.univ = fI
  generalize hfJ : View.write (Elt F) (jjS).view f1 (tile_body3.sl.dma0_1 m d L) Finset.univ = fJ
  have hvI : ∀ x : S3200.Idx, (iiS).view.read (Elt F) fI x = m (iiLoc d) (edgeIx 217600 (wb1 L + (x 0).val)) := by
    intro x; subst hfI; exact fetchI_read m d L f0 x
  have hvJ : ∀ x : S3200.Idx, (jjS).view.read (Elt F) fJ x = m (jjLoc d) (edgeIx 217600 (wb1 L + (x 0).val)) := by
    intro x; subst hfJ; exact fetchJ_read m d L f1 x
  have hinI : ∀ (R : Rect S3200) (hR : ∀ a, R.stride a = 1) (x : R.shape.Idx), (((iiS).slice R hR).view.read (Elt F) fI x).toNat < 10000 :=
    fetchI_lt m d L hpre fI hvI
  have hinJ : ∀ (R : Rect S3200) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k3_off3_eq, k3_off4_eq, k3_off5_eq, k3_off6_eq, k3_off7_eq, k3_off8_eq, k3_off9_eq, k3_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k3_t2_loop.lb k3_t2_loop.ub k3_t2_loop.st = 200 := by decide
    have ht3 : Scf.trips k3_t3_loop.lb k3_t3_loop.ub k3_t3_loop.st = 200 := by decide
    have hk8 : k.val < 7 := lt_of_lt_of_le k.isLt k3_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k3_off11 L k) (k3_off11_inb L k) (fun _ => rfl) (400 * k.val) (by rw [k3_off11_eq, wb1]) fo).symm) $$ Hch
    sl_exec
    ihave Hch2 := (Entails.of_eq (pts_chunk (F := F) d L (k3_off11 L k) (k3_off11_inb L k) (fun _ => rfl) (400 * k.val) (by rw [k3_off11_eq, wb1]) _)) $$ Hch'
    ihave Hch2' := (pts_exists (F := F) _ fullShare _) $$ Hch2
    icases Hch2' with ⟨%C, %hC, Hch2⟩
    have hCv : ∀ i ∈ chunkSet d L (400 * k.val), C i = S3v m GI GJ d i := by
      subst hC
      have hset : chunkSet d L (400 * k.val) = chunkSet d L (200 * (2 * k.val)) := by congr 1 <;> omega
      rw [hset]
      exact out_val m GI GJ d L (k3_off11 L k) (k3_off11_inb L k) (fun _ => rfl) (2 * k.val) (by omega) (by rw [k3_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S3v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k3_off12_eq, k3_off13_eq, k3_off14_eq, k3_off15_eq, k3_off16_eq, k3_off17_eq, k3_off18_eq, k3_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k3_off2 k 1#32 = ![200 * (2 * k.val + 1)] := by
      rw [show (1#32 : BitVec 32) = BitVec.ofNat 32 (1 + (0 : Fin 2).val) from rfl, k3_off2_eq k 0]
      show ![400 * k.val + 200 * 0 + 200] = _
      congr 1; omega
    have hoff2 : k3_off2 k 2#32 = ![200 * min (ch0 (k.val + 1)) 15] := by
      rw [show (2#32 : BitVec 32) = BitVec.ofNat 32 (1 + (1 : Fin 2).val) from rfl, k3_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k3_off2 k 1#32) (k3_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k3_off2 k 1#32) (k3_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k3_off20 L k) (k3_off20_inb L k) (fun _ => rfl) (400 * k.val + 200) (by rw [k3_off20_eq, wb1, Nat.add_assoc]) fo).symm) $$ Hch
    sl_exec
    ihave Hch2 := (Entails.of_eq (pts_chunk (F := F) d L (k3_off20 L k) (k3_off20_inb L k) (fun _ => rfl) (400 * k.val + 200) (by rw [k3_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S3v m GI GJ d i := by
      subst hC
      have hset : chunkSet d L (400 * k.val + 200) = chunkSet d L (200 * (2 * k.val + 1)) := by congr 1 <;> omega
      rw [hset]
      exact out_val m GI GJ d L (k3_off20 L k) (k3_off20_inb L k) (fun _ => rfl) (2 * k.val + 1) (by omega) (by rw [k3_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S3v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k3_off2 k 2#32) S200.size (k3_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k3_off2 k 2#32) S200.size (k3_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k3_off2 k 2#32) (k3_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k3_off2 k 2#32) (k3_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3200_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3200_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3200_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3200_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k3_t1_loop.lb k3_t1_loop.ub k3_t1_loop.st = 7 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k3_off21_eq, k3_off22_eq, k3_off23_eq, k3_off24_eq, k3_off25_eq, k3_off26_eq, k3_off27_eq, k3_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k3_t4_loop.lb k3_t4_loop.ub k3_t4_loop.st = 200 := by decide
  have ht5 : Scf.trips k3_t5_loop.lb k3_t5_loop.ub k3_t5_loop.st = 200 := by decide
  have hch7 : ch0 7 = 14 := by decide
  have hsum14 : ∀ y, (ri0).view.read (Elt F) gS y = FloatOps.addf (VI GI d L fI 14 y) (VJ GJ d L fJ 14 y) := by
    intro y; rw [hgS y, ht4, if_pos (show (y 0).val < 200 from (y 0).isLt), hgA y, hgB y, hch7]
  ihave Hrem2 := (Entails.of_eq (congrArg (fun S => ((outW).view.loc 𝓽 ↦[S]{fullShare} fo : sProp 𝕄)) (remSet_split d L (400 * 7) (by omega)))) $$ Hrem
  ihave Hrem3 := ((pointsTo_union (chunk_rem_disj d L (400 * 7))).1) $$ Hrem2
  icases Hrem3 with ⟨Hch, Hrem⟩
  ihave Hch' := (Entails.of_eq (pts_chunk (F := F) d L (k3_off29 L 2800#32) (k3_off29_inb L 0) (fun _ => rfl) (400 * 7) (by rw [show (2800#32 : BitVec 32) = BitVec.ofNat 32 (2800 + 200 * (0 : Fin 2).val) from rfl, k3_off29_eq L 0, wb1]; first | rfl | (congr 1; try simp only [Fin.val_one, Fin.val_zero]; omega)) fo).symm) $$ Hch
  sl_exec
  ihave Hch2 := (Entails.of_eq (pts_chunk (F := F) d L (k3_off29 L 2800#32) (k3_off29_inb L 0) (fun _ => rfl) (400 * 7) (by rw [show (2800#32 : BitVec 32) = BitVec.ofNat 32 (2800 + 200 * (0 : Fin 2).val) from rfl, k3_off29_eq L 0, wb1]; first | rfl | (congr 1; try simp only [Fin.val_one, Fin.val_zero]; omega)) _)) $$ Hch'
  ihave Hch2' := (pts_exists (F := F) _ fullShare _) $$ Hch2
  icases Hch2' with ⟨%C, %hC, Hch2⟩
  have hCv : ∀ i ∈ chunkSet d L (400 * 7), C i = S3v m GI GJ d i := by
    subst hC
    have hset : chunkSet d L (400 * 7) = chunkSet d L (200 * (14)) := by congr 1 <;> omega
    rw [hset]
    exact out_val m GI GJ d L (k3_off29 L 2800#32) (k3_off29_inb L 0) (fun _ => rfl) (14) (by omega) (by (rw [show (2800#32 : BitVec 32) = BitVec.ofNat 32 (2800 + 200 * (0 : Fin 2).val) from rfl, k3_off29_eq L 0, wb1]; first | rfl | (congr 1; try simp only [Fin.val_one, Fin.val_zero]; omega)) <;> (first | rfl | (congr 2; omega))) fI fJ hvI hvJ _ hsum14 _
  ihave Hch3 := (Entails.of_eq (pointsTo_congr hCv)) $$ Hch2
  ihave Hdone2 := ((pointsTo_union (done_chunk_disj d L (400 * 7))).2) $$ [Hdone Hch3]
  · isplitl [Hdone]; · iexact Hdone
    iexact Hch3
  ihave Hdone := (Entails.of_eq (congrArg (fun S => ((outW).view.loc 𝓽 ↦[S]{fullShare} S3v m GI GJ d : sProp 𝕄)) (doneSet_step d L (400 * 7)).symm)) $$ Hdone2
  ihave HA1 := (pts_exists (F := F) _ fullShare _) $$ Hb3
  icases HA1 with ⟨%gA1, %hA1, Hb3⟩
  ihave HB1 := (pts_exists (F := F) _ fullShare _) $$ Hb5
  icases HB1 with ⟨%gB1, %hB1, Hb5⟩
  sl_for (invRow d L (ri1) (rj1) gA1 gB1) $$ [Hb3 Hb5]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri1).view g (fun y => (ri1).view.read (Elt F) gA1 y) (fun y => (rj1).view.read (Elt F) gB1 y) r.val hg _ ?hcov ?hpay
        case hcov =>
          intro y
          simp only [List.mem_cons, List.not_mem_nil, _root_.or_false, exists_eq_or_imp, exists_eq_left, Rect.mem_set_unit,
            k3_off30_eq, k3_off31_eq, k3_off32_eq, k3_off33_eq, k3_off34_eq, k3_off35_eq, k3_off36_eq, k3_off37_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hb3]
    · iexists _
      isplitr
      swap
      · iexact Hb3
      · ipureintro; intro y; rw [if_neg (Nat.not_lt_zero _)]
    · iexact Hb5
  iintro %_ HI
  unfold invRow
  icases HI with ⟨⟨%gS1, %hgS1, Hri1⟩, Hrj1⟩
  have hgA1 : ∀ y, (ri1).view.read (Elt F) gA1 y = VI GI d L fI 15 y := by
    subst hA1
    intro y
    exact gath_valI GI d L (![3000]) inb_S3200_S200_3000 (fun _ => rfl) 15 (by omega) rfl fI (hinI _ _) rfl (ri1).view _ y
  have hgB1 : ∀ y, (rj1).view.read (Elt F) gB1 y = VJ GJ d L fJ 15 y := by
    subst hB1
    intro y
    exact gath_valJ GJ d L (![3000]) inb_S3200_S200_3000 (fun _ => rfl) 15 (by omega) rfl fJ (hinJ _ _) rfl (rj1).view _ y
  have hsum15 : ∀ y, (ri1).view.read (Elt F) gS1 y = FloatOps.addf (VI GI d L fI 15 y) (VJ GJ d L fJ 15 y) := by
    intro y; rw [hgS1 y, ht5, if_pos (show (y 0).val < 200 from (y 0).isLt), hgA1 y, hgB1 y]
  ihave Hrem2 := (Entails.of_eq (congrArg (fun S => ((outW).view.loc 𝓽 ↦[S]{fullShare} fo : sProp 𝕄)) (remSet_split d L (400 * 7 + 200) (by omega)))) $$ Hrem
  ihave Hrem3 := ((pointsTo_union (chunk_rem_disj d L (400 * 7 + 200))).1) $$ Hrem2
  icases Hrem3 with ⟨Hch, Hrem⟩
  ihave Hch' := (Entails.of_eq (pts_chunk (F := F) d L (k3_off29 L 3000#32) (k3_off29_inb L 1) (fun _ => rfl) (400 * 7 + 200) (by rw [show (3000#32 : BitVec 32) = BitVec.ofNat 32 (2800 + 200 * (1 : Fin 2).val) from rfl, k3_off29_eq L 1, wb1]; first | rfl | (congr 1; try simp only [Fin.val_one, Fin.val_zero]; omega)) fo).symm) $$ Hch
  sl_exec
  ihave Hch2 := (Entails.of_eq (pts_chunk (F := F) d L (k3_off29 L 3000#32) (k3_off29_inb L 1) (fun _ => rfl) (400 * 7 + 200) (by rw [show (3000#32 : BitVec 32) = BitVec.ofNat 32 (2800 + 200 * (1 : Fin 2).val) from rfl, k3_off29_eq L 1, wb1]; first | rfl | (congr 1; try simp only [Fin.val_one, Fin.val_zero]; omega)) _)) $$ Hch'
  ihave Hch2' := (pts_exists (F := F) _ fullShare _) $$ Hch2
  icases Hch2' with ⟨%C, %hC, Hch2⟩
  have hCv : ∀ i ∈ chunkSet d L (400 * 7 + 200), C i = S3v m GI GJ d i := by
    subst hC
    have hset : chunkSet d L (400 * 7 + 200) = chunkSet d L (200 * (15)) := by congr 1 <;> omega
    rw [hset]
    exact out_val m GI GJ d L (k3_off29 L 3000#32) (k3_off29_inb L 1) (fun _ => rfl) (15) (by omega) (by (rw [show (3000#32 : BitVec 32) = BitVec.ofNat 32 (2800 + 200 * (1 : Fin 2).val) from rfl, k3_off29_eq L 1, wb1]; first | rfl | (congr 1; try simp only [Fin.val_one, Fin.val_zero]; omega)) <;> (first | rfl | (congr 2; omega))) fI fJ hvI hvJ _ hsum15 _
  ihave Hch3 := (Entails.of_eq (pointsTo_congr hCv)) $$ Hch2
  ihave Hdone2 := ((pointsTo_union (done_chunk_disj d L (400 * 7 + 200))).2) $$ [Hdone Hch3]
  · isplitl [Hdone]; · iexact Hdone
    iexact Hch3
  ihave Hdone := (Entails.of_eq (congrArg (fun S => ((outW).view.loc 𝓽 ↦[S]{fullShare} S3v m GI GJ d : sProp 𝕄)) (doneSet_step d L (400 * 7 + 200)).symm)) $$ Hdone2
  sl_step
  ihave Hd := (Entails.of_eq (congrArg (fun S => ((outW).view.loc 𝓽 ↦[S]{fullShare} S3v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hri1 Hrj Hrj1 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hri1]; · iexists _; iapply (Entails.of_eq (pts_b3 (F := F) d L _)); iexact Hri1
    isplitl [Hrj]; · iexists _; iapply (Entails.of_eq (pts_b4 (F := F) d L _)); iexact Hrj
    isplitl [Hrj1]; · iexists _; iapply (Entails.of_eq (pts_b5 (F := F) d L _)); iexact Hrj1
    iexact Hbufs
  isplitl [Hfl6 Hs7 Hfl8 Hs9 Hc0 Hc1 Hc2 Hc3 Hc4 Hc5 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  · ipureintro
    repeat (first | exact hW' | apply W_insert)

end Tile

/-! ## The launch theorem's obligation -/

def coordsV1 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 3 ()
      = SparseCore.onTile hcore3 hsub3 (fun c s => cc3__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc3_scratch6 cc3_scratch7 cc3_scratch8 cc3_scratch9
          cc3_scoped0 cc3_scoped1 cc3_scoped2 cc3_scoped3 cc3_scoped4 cc3_scoped5) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_2 (hpre : IdxOK m) : (K (F := F)).TileObl (D (F := F)) 𝒱 (P m GI GJ) v₀ 2 := by
  intro d c i O W hO _ _
  simp only [show (P m GI GJ).ox = fun _ _ => 0 from rfl, add_zero]
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  have hc : ((K (F := F)).core 2 c).val < grid3.bound 0 ∧ ((K (F := F)).sub 2 i).val < grid3.bound 1 := ⟨c.isLt, i.isLt⟩
  rw [defs₀_vector1]; simp only [SparseCore.onTile, hc, and_self, ↓reduceDIte]
  exact (tile_body3 m GI GJ d (coordsV1 ⟨_, hc.1⟩ ⟨_, hc.2⟩) hpre O W hO).trans (wp_mono frame _ _ fun _ => obl_post)

end Cert.Proof.KI.T3

end
-- ==== Proof.KTilePure.lean ====
/-
  The arithmetic of one worker of the first gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[r] of the first table plus row idx_j[r] of the second.
-/
import proofs.«206539_g3985729650836_cont_8to1_b_247_13_alg».proof.Proof.KPay
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v5_scv : Memref Cert.Kernel.sig Kind.scVector Space.hbm Cert.Kernel.S108800x128 EltTy.f32)
local notation "iiS" => (Memref.whole Cert.Kernel.cc1_scratch0 : Memref Cert.Kernel.sig Kind.scVector Space.vmem Cert.Kernel.S3400 EltTy.i32)
local notation "jjS" => (Memref.whole Cert.Kernel.cc1_scratch1 : Memref Cert.Kernel.sig Kind.scVector Space.vmem Cert.Kernel.S3400 EltTy.i32)
local notation "ri0" => (Memref.whole Cert.Kernel.cc1_scratch2 : Memref Cert.Kernel.sig Kind.scVector Space.vmem Cert.Kernel.S200x128 EltTy.f32)
local notation "ri1" => (Memref.whole Cert.Kernel.cc1_scratch3 : Memref Cert.Kernel.sig Kind.scVector Space.vmem Cert.Kernel.S200x128 EltTy.f32)
local notation "rj0" => (Memref.whole Cert.Kernel.cc1_scratch4 : Memref Cert.Kernel.sig Kind.scVector Space.vmem Cert.Kernel.S200x128 EltTy.f32)
local notation "rj1" => (Memref.whole Cert.Kernel.cc1_scratch5 : Memref Cert.Kernel.sig Kind.scVector Space.vmem Cert.Kernel.S200x128 EltTy.f32)

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound1_zero : grid1.bound 0 = 2 := rfl
omit [FloatOps F] in
theorem bound1_one : grid1.bound 1 = 16 := rfl
abbrev cL (L : grid1.Coords) : Fin 2 := Fin.cast bound1_zero (L 0)
abbrev iL (L : grid1.Coords) : Fin 16 := Fin.cast bound1_one (L 1)

/-- The first row of the output array written by worker `(L 0, L 1)`: `3400 · (2 · L 1 + L 0)`. -/
def wb1 (L : grid1.Coords) : ℕ := 6800 * (L 1).val + 3400 * (L 0).val

/-- The chunk whose rows travel to the first pair of row buffers before trip `t` of the main loop. -/
def ch0 (t : ℕ) : ℕ := min (2 * t) 16

omit [FloatOps F] in
theorem lr_inb (c : ℕ) : ∀ a, (![200 * min c 16] : Fin 1 → ℕ) a + S200.size a ≤ S3400.size a := by
  intro a; obtain rfl : a = 0 := Subsingleton.elim _ _
  show 200 * min c 16 + 200 ≤ 3400; omega

/-- The two hundred positions of chunk `c` in a worker's index slice. -/
abbrev LR (c : ℕ) : Rect S3400 := Rect.unit ![200 * min c 16] S200.size (lr_inb c)

/-- The rows of the output array below row `a` of the worker's, and from row `a` on. -/
def doneSet (a : ℕ) : Finset (Idx (s1Loc d)) := Finset.univ.filter fun y => wb1 L ≤ (y 0).val ∧ (y 0).val < wb1 L + a
def remSet (a : ℕ) : Finset (Idx (s1Loc d)) := Finset.univ.filter fun y => wb1 L + a ≤ (y 0).val ∧ (y 0).val < wb1 L + 3400

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3400 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3400 (200 * c + (y 0).val))))) (y 1))

/-- The two hundred rows of the chunk that starts at row `a` of the worker's. -/
def chunkSet (a : ℕ) : Finset (Idx (s1Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows1 (cL L) (iL L) d := by
  unfold remSet rows1
  refine Finset.filter_congr fun y _ => ?_
  show wb1 L + 0 ≤ (y 0).val ∧ (y 0).val < wb1 L + 3400 ↔ (y 0).val / 3400 = (L 1).val * 2 + (L 0).val
  unfold wb1
  omega
omit [FloatOps F] in
theorem remSet_end : remSet d L 3400 = ∅ := by
  ext y; simp only [remSet, Finset.mem_filter, Finset.mem_univ, true_and, Finset.notMem_empty, iff_false]; omega
omit [FloatOps F] in
theorem doneSet_end : doneSet d L 3400 = rows1 (cL L) (iL L) d := by
  unfold doneSet rows1
  refine Finset.filter_congr fun y _ => ?_
  show wb1 L ≤ (y 0).val ∧ (y 0).val < wb1 L + 3400 ↔ (y 0).val / 3400 = (L 1).val * 2 + (L 0).val
  unfold wb1
  omega
omit [FloatOps F] in
theorem remSet_split (a : ℕ) (ha : a + 200 ≤ 3400) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S108800x128.size a)
    (hs : ∀ a, (Rect.unit (s := S108800x128) off S200x128.size inb).stride a = 1) (a : ℕ) (h : off = ![wb1 L + a, 0]) :
    (Memref.slice outW (Rect.unit off S200x128.size inb) hs).view.set = chunkSet d L a := by
  subst h
  show ((View.whole (main_v5_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S108800x128.size a)
    (hs : ∀ a, (Rect.unit (s := S108800x128) off S200x128.size inb).stride a = 1) (a : ℕ) (h : off = ![wb1 L + a, 0]) (f : Buf (Elt F) (s1Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S108800x128.size a)
    (hs : ∀ a, (Rect.unit (s := S108800x128) off S200x128.size inb).stride a = 1) (c : ℕ) (hc : c ≤ 16) (h : off = ![wb1 L + 200 * c, 0])
    (fI : Buf (Elt F) ((iiS).view.loc 𝓽)) (fJ : Buf (Elt F) ((jjS).view.loc 𝓽))
    (hfI : ∀ x : S3400.Idx, (iiS).view.read (Elt F) fI x = m (iiLoc d) (edgeIx 0 (wb1 L + (x 0).val)))
    (hfJ : ∀ x : S3400.Idx, (jjS).view.read (Elt F) fJ x = m (jjLoc d) (edgeIx 0 (wb1 L + (x 0).val)))
    (w : S200x128.Idx → Elt F .f32) (hw : ∀ y, w y = FloatOps.addf (VI GI d L fI c y) (VJ GJ d L fJ c y))
    (jnk : Buf (Elt F) (s1Loc d)) :
    ∀ i ∈ chunkSet d L (200 * c),
      ((Memref.slice outW (Rect.unit off S200x128.size inb) hs).view.writes (Elt F) jnk [⟨Rect.whole _, w⟩]) i = S1v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S1v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S1v m GI GJ d ((Memref.slice outW (Rect.unit _ S200x128.size inb) hs).view.emb x)
  unfold S1v scOut VI VJ
  rw [hfI, hfJ]
  have hx0 : (x 0).val < 200 := (x 0).isLt
  have hmod : ((ix1 (Fin.ofNat 3400 (200 * c + (x 0).val)) : S3400.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `wb1 L + x`. -/
theorem fetchI_read (f0 : Buf (Elt F) ((iiS).view.loc 𝓽)) (x : S3400.Idx) :
    (iiS).view.read (Elt F)
        ((iiS).view.write (Elt F) f0
          (ReadAs.same.apply ((Memref.slice iiW (Rect.unit (k1_off1 L) S3400.size (k1_off1_inb L)) (fun _ => rfl)).view.read (Elt F) (m (iiLoc d))))
          Finset.univ) x
      = m (iiLoc d) (edgeIx 0 (wb1 L + (x 0).val)) := by
  rw [View.read_write_univ]
  show m (iiLoc d) ((Memref.slice iiW (Rect.unit (k1_off1 L) S3400.size (k1_off1_inb L)) (fun _ => rfl)).view.emb x)
      = m (iiLoc d) (edgeIx 0 (wb1 L + (x 0).val))
  refine congrArg (m (iiLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k1_off1 L) 0 + 1 * (x 0).val = (0 + (wb1 L + (x 0).val)) % 320000
  rw [k1_off1_eq L]
  show 6800 * (L 1).val + 3400 * (L 0).val + 1 * (x 0).val = (0 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3400.Idx, (iiS).view.read (Elt F) fI x = m (iiLoc d) (edgeIx 0 (wb1 L + (x 0).val)))
    (R : Rect S3400) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `wb1 L + x`. -/
theorem fetchJ_read (f0 : Buf (Elt F) ((jjS).view.loc 𝓽)) (x : S3400.Idx) :
    (jjS).view.read (Elt F)
        ((jjS).view.write (Elt F) f0
          (ReadAs.same.apply ((Memref.slice jjW (Rect.unit (k1_off1 L) S3400.size (k1_off1_inb L)) (fun _ => rfl)).view.read (Elt F) (m (jjLoc d))))
          Finset.univ) x
      = m (jjLoc d) (edgeIx 0 (wb1 L + (x 0).val)) := by
  rw [View.read_write_univ]
  show m (jjLoc d) ((Memref.slice jjW (Rect.unit (k1_off1 L) S3400.size (k1_off1_inb L)) (fun _ => rfl)).view.emb x)
      = m (jjLoc d) (edgeIx 0 (wb1 L + (x 0).val))
  refine congrArg (m (jjLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k1_off1 L) 0 + 1 * (x 0).val = (0 + (wb1 L + (x 0).val)) % 320000
  rw [k1_off1_eq L]
  show 6800 * (L 1).val + 3400 * (L 0).val + 1 * (x 0).val = (0 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3400.Idx, (jjS).view.read (Elt F) fJ x = m (jjLoc d) (edgeIx 0 (wb1 L + (x 0).val)))
    (R : Rect S3400) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3400.size a)
    (hR : ∀ a, (Rect.unit (s := S3400) off S200.size inb).stride a = 1) (c : ℕ) (hc : c ≤ 16) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3400) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((iiS).slice (Rect.unit (s := S3400) ![200 * c] S200.size inb) hR).view.read (Elt F) fI) hn hin
        (y gathers_S10000x128_S200x128.axis')).val
      = ((iiS).view.read (Elt F) fI (ix1 (Fin.ofNat 3400 (200 * c + (y 0).val)))).toNat := by
    show (((iiS).slice (Rect.unit (s := S3400) ![200 * c] S200.size inb) hR).view.read (Elt F) fI
        (S200.rowMajor.symm ((y gathers_S10000x128_S200x128.axis').cast hn.symm))).toNat = _
    rw [show ((iiS).slice (Rect.unit (s := S3400) ![200 * c] S200.size inb) hR).view.read (Elt F) fI
          (S200.rowMajor.symm ((y gathers_S10000x128_S200x128.axis').cast hn.symm))
        = (iiS).view.read (Elt F) fI ((Rect.unit (s := S3400) ![200 * c] S200.size inb).emb
          (S200.rowMajor.symm ((y gathers_S10000x128_S200x128.axis').cast hn.symm))) from rfl, hemb]
  have hlt : ((iiS).view.read (Elt F) fI (ix1 (Fin.ofNat 3400 (200 * c + (y 0).val)))).toNat < 10000 := by
    rw [← hrow]; exact (SparseCore.rows _ hn hin _).isLt
  show GI d ((giSl).view.emb (gathers_S10000x128_S200x128.idx
        (SparseCore.rows (((iiS).slice (Rect.unit (s := S3400) ![200 * c] S200.size inb) hR).view.read (Elt F) fI) hn hin) y))
      = GI d (ix2 (rowOf 10000 ((iiS).view.read (Elt F) fI (ix1 (Fin.ofNat 3400 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3400) ![200 * c] S200.size inb) hR).view.read (Elt F) fI) hn hin) y
          gathers_S10000x128_S200x128.axis).val
      = ((iiS).view.read (Elt F) fI (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3400) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3400.size a)
    (hR : ∀ a, (Rect.unit (s := S3400) off S200.size inb).stride a = 1) (c : ℕ) (hc : c ≤ 16) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3400) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((jjS).slice (Rect.unit (s := S3400) ![200 * c] S200.size inb) hR).view.read (Elt F) fJ) hn hin
        (y gathers_S10000x128_S200x128.axis')).val
      = ((jjS).view.read (Elt F) fJ (ix1 (Fin.ofNat 3400 (200 * c + (y 0).val)))).toNat := by
    show (((jjS).slice (Rect.unit (s := S3400) ![200 * c] S200.size inb) hR).view.read (Elt F) fJ
        (S200.rowMajor.symm ((y gathers_S10000x128_S200x128.axis').cast hn.symm))).toNat = _
    rw [show ((jjS).slice (Rect.unit (s := S3400) ![200 * c] S200.size inb) hR).view.read (Elt F) fJ
          (S200.rowMajor.symm ((y gathers_S10000x128_S200x128.axis').cast hn.symm))
        = (jjS).view.read (Elt F) fJ ((Rect.unit (s := S3400) ![200 * c] S200.size inb).emb
          (S200.rowMajor.symm ((y gathers_S10000x128_S200x128.axis').cast hn.symm))) from rfl, hemb]
  have hlt : ((jjS).view.read (Elt F) fJ (ix1 (Fin.ofNat 3400 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3400) ![200 * c] S200.size inb) hR).view.read (Elt F) fJ) hn hin) y))
      = GJ d (ix2 (rowOf 10000 ((jjS).view.read (Elt F) fJ (ix1 (Fin.ofNat 3400 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3400) ![200 * c] S200.size inb) hR).view.read (Elt F) fJ) hn hin) y
          gathers_S10000x128_S200x128.axis).val
      = ((jjS).view.read (Elt F) fJ (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3400) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KB

end
-- ==== Proof.KTile1.lean ====
/-
  The body of the first gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.KTilePure
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v5_scv : Memref Cert.Kernel.sig Kind.scVector Space.hbm Cert.Kernel.S108800x128 EltTy.f32)
local notation "iiS" => (Memref.whole Cert.Kernel.cc1_scratch0 : Memref Cert.Kernel.sig Kind.scVector Space.vmem Cert.Kernel.S3400 EltTy.i32)
local notation "jjS" => (Memref.whole Cert.Kernel.cc1_scratch1 : Memref Cert.Kernel.sig Kind.scVector Space.vmem Cert.Kernel.S3400 EltTy.i32)
local notation "ri0" => (Memref.whole Cert.Kernel.cc1_scratch2 : Memref Cert.Kernel.sig Kind.scVector Space.vmem Cert.Kernel.S200x128 EltTy.f32)
local notation "ri1" => (Memref.whole Cert.Kernel.cc1_scratch3 : Memref Cert.Kernel.sig Kind.scVector Space.vmem Cert.Kernel.S200x128 EltTy.f32)
local notation "rj0" => (Memref.whole Cert.Kernel.cc1_scratch4 : Memref Cert.Kernel.sig Kind.scVector Space.vmem Cert.Kernel.S200x128 EltTy.f32)
local notation "rj1" => (Memref.whole Cert.Kernel.cc1_scratch5 : Memref Cert.Kernel.sig Kind.scVector Space.vmem Cert.Kernel.S200x128 EltTy.f32)

section Tile

variable (d : Dev nD) (L : grid1.Coords)

omit [FloatOps F] in
theorem ownSems0_V1 :
    (ownSems0 (V d (cV L) (jV L)) : sProp 𝕄)
      = iprop(semVal ((V d (cV L) (jV L), SemLoc.dma cc1_scratch6.sem) : GSem nD τ sig) 0 ∗ semVal ((V d (cV L) (jV L), SemLoc.dma cc1_scratch7.sem) : GSem nD τ sig) 0 ∗ semVal ((V d (cV L) (jV L), SemLoc.dma cc1_scratch8.sem) : GSem nD τ sig) 0 ∗ semVal ((V d (cV L) (jV L), SemLoc.dma cc1_scratch9.sem) : GSem nD τ sig) 0 ∗ semVal ((V d (cV L) (jV L), SemLoc.dma cc1_scoped0.sem) : GSem nD τ sig) 0 ∗ semVal ((V d (cV L) (jV L), SemLoc.dma cc1_scoped1.sem) : GSem nD τ sig) 0 ∗ semVal ((V d (cV L) (jV L), SemLoc.dma cc1_scoped2.sem) : GSem nD τ sig) 0 ∗ semVal ((V d (cV L) (jV L), SemLoc.dma cc1_scoped3.sem) : GSem nD τ sig) 0 ∗ semVal ((V d (cV L) (jV L), SemLoc.dma cc1_scoped4.sem) : GSem nD τ sig) 0
          ∗ bigSep ((((((((((ownCells (V d (cV L) (jV L))).erase ((V d (cV L) (jV L), SemLoc.dma cc1_scratch6.sem) : GSem nD τ sig)).erase ((V d (cV L) (jV L), SemLoc.dma cc1_scratch7.sem) : GSem nD τ sig)).erase ((V d (cV L) (jV L), SemLoc.dma cc1_scratch8.sem) : GSem nD τ sig)).erase ((V d (cV L) (jV L), SemLoc.dma cc1_scratch9.sem) : GSem nD τ sig)).erase ((V d (cV L) (jV L), SemLoc.dma cc1_scoped0.sem) : GSem nD τ sig)).erase ((V d (cV L) (jV L), SemLoc.dma cc1_scoped1.sem) : GSem nD τ sig)).erase ((V d (cV L) (jV L), SemLoc.dma cc1_scoped2.sem) : GSem nD τ sig)).erase ((V d (cV L) (jV L), SemLoc.dma cc1_scoped3.sem) : GSem nD τ sig)).erase ((V d (cV L) (jV L), SemLoc.dma cc1_scoped4.sem) : GSem nD τ sig)) fun g => semVal g 0) := by
  unfold SparseCore.Cfg.ownSems0
  rw [SparseCore.bigSep_erase' ((mem_ownCells (g := ((V d (cV L) (jV L), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc1_scratch7.sem) : GSem nD τ sig))).mpr ⟨rfl, by show (SemLoc.dma cc1_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scratch8.sem) : GSem nD τ sig))).mpr ⟨rfl, by show (SemLoc.dma cc1_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scratch9.sem) : GSem nD τ sig))).mpr ⟨rfl, by show (SemLoc.dma cc1_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped0.sem) : GSem nD τ sig))).mpr ⟨rfl, by show (SemLoc.dma cc1_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped1.sem) : GSem nD τ sig))).mpr ⟨rfl, by show (SemLoc.dma cc1_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped2.sem) : GSem nD τ sig))).mpr ⟨rfl, by show (SemLoc.dma cc1_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped3.sem) : GSem nD τ sig))).mpr ⟨rfl, by show (SemLoc.dma cc1_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc1_scoped4.sem) : GSem nD τ sig))).mpr ⟨rfl, by show (SemLoc.dma cc1_scoped4.sem : SemLoc sig).isScoped .scVector = true; decide⟩⟩⟩⟩⟩⟩⟩⟩⟩)]

omit [FloatOps F] in
theorem ownBufs_V1 :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s1Loc d))) (f : Buf (Elt F) (s1Loc d)) :
    ((outW).view.loc (V d (cV L) (jV L)) ↦[I]{fullShare} f : sProp 𝕄) = s1Loc d ↦[I]{fullShare} f := by
  simp only [Memref.view_whole, View.set_whole]
omit [FloatOps F] in
theorem pts_b0 (f : Buf (Elt F) ((V d (cV L) (jV L)).loc cc1_scratch0)) :
    ((iiS).view.loc (V d (cV L) (jV L)) ↦{fullShare} f : sProp 𝕄) = (V d (cV L) (jV L)).loc cc1_scratch0 ↦{fullShare} f := rfl
omit [FloatOps F] in
theorem pts_b1 (f : Buf (Elt F) ((V d (cV L) (jV L)).loc cc1_scratch1)) :
    ((jjS).view.loc (V d (cV L) (jV L)) ↦{fullShare} f : sProp 𝕄) = (V d (cV L) (jV L)).loc cc1_scratch1 ↦{fullShare} f := rfl
omit [FloatOps F] in
theorem pts_b2 (f : Buf (Elt F) ((V d (cV L) (jV L)).loc cc1_scratch2)) :
    ((ri0).view.loc (V d (cV L) (jV L)) ↦{fullShare} f : sProp 𝕄) = (V d (cV L) (jV L)).loc cc1_scratch2 ↦{fullShare} f := rfl
omit [FloatOps F] in
theorem pts_b3 (f : Buf (Elt F) ((V d (cV L) (jV L)).loc cc1_scratch3)) :
    ((ri1).view.loc (V d (cV L) (jV L)) ↦{fullShare} f : sProp 𝕄) = (V d (cV L) (jV L)).loc cc1_scratch3 ↦{fullShare} f := rfl
omit [FloatOps F] in
theorem pts_b4 (f : Buf (Elt F) ((V d (cV L) (jV L)).loc cc1_scratch4)) :
    ((rj0).view.loc (V d (cV L) (jV L)) ↦{fullShare} f : sProp 𝕄) = (V d (cV L) (jV L)).loc cc1_scratch4 ↦{fullShare} f := rfl
omit [FloatOps F] in
theorem pts_b5 (f : Buf (Elt F) ((V d (cV L) (jV L)).loc cc1_scratch5)) :
    ((rj1).view.loc (V d (cV L) (jV L)) ↦{fullShare} f : sProp 𝕄) = (V d (cV L) (jV L)).loc cc1_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s1Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc1_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc1_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc1_scratch7)) 0
    ∗ semVal (𝓽, SemLoc.dma (SemArray.sem cc1_scratch9)) 0
    ∗ semVal (𝓽, SemLoc.dma (SemArray.sem cc1_scoped2)) 0
    ∗ semVal (𝓽, SemLoc.dma (SemArray.sem cc1_scoped3)) 0
    ∗ ((outW).view.loc 𝓽 ↦[doneSet d L (400 * t)]{fullShare} S1v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body1 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s1Loc d ↦[rows1 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc1_scratch6 cc1_scratch7 cc1_scratch8 cc1_scratch9
            cc1_scoped0 cc1_scoped1 cc1_scoped2 cc1_scoped3 cc1_scoped4)
          fun _ => iprop((reads m GI GJ d (tileShare (cL L) (iL L)) ∗ s1Loc d ↦[rows1 (cL L) (iL L) d]{fullShare} S1v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__edge_gather_eq_skeleton]; unfold cc1__edge_gather_skel
  simp only [k1_part8_eq_skeleton]; unfold k1_part8_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body1.sl.dma0 m d L) Finset.univ = fI
  generalize hfJ : View.write (Elt F) (jjS).view f1 (tile_body1.sl.dma0_1 m d L) Finset.univ = fJ
  have hvI : ∀ x : S3400.Idx, (iiS).view.read (Elt F) fI x = m (iiLoc d) (edgeIx 0 (wb1 L + (x 0).val)) := by
    intro x; subst hfI; exact fetchI_read m d L f0 x
  have hvJ : ∀ x : S3400.Idx, (jjS).view.read (Elt F) fJ x = m (jjLoc d) (edgeIx 0 (wb1 L + (x 0).val)) := by
    intro x; subst hfJ; exact fetchJ_read m d L f1 x
  have hinI : ∀ (R : Rect S3400) (hR : ∀ a, R.stride a = 1) (x : R.shape.Idx), (((iiS).slice R hR).view.read (Elt F) fI x).toNat < 10000 :=
    fetchI_lt m d L hpre fI hvI
  have hinJ : ∀ (R : Rect S3400) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k1_off3_eq, k1_off4_eq, k1_off5_eq, k1_off6_eq, k1_off7_eq, k1_off8_eq, k1_off9_eq, k1_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k1_t2_loop.lb k1_t2_loop.ub k1_t2_loop.st = 200 := by decide
    have ht3 : Scf.trips k1_t3_loop.lb k1_t3_loop.ub k1_t3_loop.st = 200 := by decide
    have hk8 : k.val < 8 := lt_of_lt_of_le k.isLt k1_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k1_off11 L k) (k1_off11_inb L k) (fun _ => rfl) (400 * k.val) (by rw [k1_off11_eq, wb1]) fo).symm) $$ Hch
    sl_exec
    ihave Hch2 := (Entails.of_eq (pts_chunk (F := F) d L (k1_off11 L k) (k1_off11_inb L k) (fun _ => rfl) (400 * k.val) (by rw [k1_off11_eq, wb1]) _)) $$ Hch'
    ihave Hch2' := (pts_exists (F := F) _ fullShare _) $$ Hch2
    icases Hch2' with ⟨%C, %hC, Hch2⟩
    have hCv : ∀ i ∈ chunkSet d L (400 * k.val), C i = S1v m GI GJ d i := by
      subst hC
      have hset : chunkSet d L (400 * k.val) = chunkSet d L (200 * (2 * k.val)) := by congr 1 <;> omega
      rw [hset]
      exact out_val m GI GJ d L (k1_off11 L k) (k1_off11_inb L k) (fun _ => rfl) (2 * k.val) (by omega) (by rw [k1_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S1v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k1_off12_eq, k1_off13_eq, k1_off14_eq, k1_off15_eq, k1_off16_eq, k1_off17_eq, k1_off18_eq, k1_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k1_off2 k 1#32 = ![200 * (2 * k.val + 1)] := by
      rw [show (1#32 : BitVec 32) = BitVec.ofNat 32 (1 + (0 : Fin 2).val) from rfl, k1_off2_eq k 0]
      show ![400 * k.val + 200 * 0 + 200] = _
      congr 1; omega
    have hoff2 : k1_off2 k 2#32 = ![200 * min (ch0 (k.val + 1)) 16] := by
      rw [show (2#32 : BitVec 32) = BitVec.ofNat 32 (1 + (1 : Fin 2).val) from rfl, k1_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k1_off2 k 1#32) (k1_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k1_off2 k 1#32) (k1_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k1_off20 L k) (k1_off20_inb L k) (fun _ => rfl) (400 * k.val + 200) (by rw [k1_off20_eq, wb1, Nat.add_assoc]) fo).symm) $$ Hch
    sl_exec
    ihave Hch2 := (Entails.of_eq (pts_chunk (F := F) d L (k1_off20 L k) (k1_off20_inb L k) (fun _ => rfl) (400 * k.val + 200) (by rw [k1_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S1v m GI GJ d i := by
      subst hC
      have hset : chunkSet d L (400 * k.val + 200) = chunkSet d L (200 * (2 * k.val + 1)) := by congr 1 <;> omega
      rw [hset]
      exact out_val m GI GJ d L (k1_off20 L k) (k1_off20_inb L k) (fun _ => rfl) (2 * k.val + 1) (by omega) (by rw [k1_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S1v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k1_off2 k 2#32) S200.size (k1_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k1_off2 k 2#32) S200.size (k1_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k1_off2 k 2#32) (k1_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k1_off2 k 2#32) (k1_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3400_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3400_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3400_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3400_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k1_t1_loop.lb k1_t1_loop.ub k1_t1_loop.st = 8 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k1_off21_eq, k1_off22_eq, k1_off23_eq, k1_off24_eq, k1_off25_eq, k1_off26_eq, k1_off27_eq, k1_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k1_t4_loop.lb k1_t4_loop.ub k1_t4_loop.st = 200 := by decide
  have hch8 : ch0 8 = 16 := by decide
  have hsum16 : ∀ y, (ri0).view.read (Elt F) gS y = FloatOps.addf (VI GI d L fI 16 y) (VJ GJ d L fJ 16 y) := by
    intro y; rw [hgS y, ht4, if_pos (show (y 0).val < 200 from (y 0).isLt), hgA y, hgB y, hch8]
  ihave Hrem2 := (Entails.of_eq (congrArg (fun S => ((outW).view.loc 𝓽 ↦[S]{fullShare} fo : sProp 𝕄)) (remSet_split d L (400 * 8) (by omega)))) $$ Hrem
  ihave Hrem3 := ((pointsTo_union (chunk_rem_disj d L (400 * 8))).1) $$ Hrem2
  icases Hrem3 with ⟨Hch, Hrem⟩
  ihave Hch' := (Entails.of_eq (pts_chunk (F := F) d L (k1_off29 L) (k1_off29_inb L) (fun _ => rfl) (400 * 8) (by rw [k1_off29_eq, wb1]) fo).symm) $$ Hch
  sl_exec
  ihave Hch2 := (Entails.of_eq (pts_chunk (F := F) d L (k1_off29 L) (k1_off29_inb L) (fun _ => rfl) (400 * 8) (by rw [k1_off29_eq, wb1]) _)) $$ Hch'
  ihave Hch2' := (pts_exists (F := F) _ fullShare _) $$ Hch2
  icases Hch2' with ⟨%C, %hC, Hch2⟩
  have hCv : ∀ i ∈ chunkSet d L (400 * 8), C i = S1v m GI GJ d i := by
    subst hC
    have hset : chunkSet d L (400 * 8) = chunkSet d L (200 * (16)) := by congr 1 <;> omega
    rw [hset]
    exact out_val m GI GJ d L (k1_off29 L) (k1_off29_inb L) (fun _ => rfl) (16) (by omega) (by (rw [k1_off29_eq, wb1]) <;> (first | rfl | (congr 2; omega))) fI fJ hvI hvJ _ hsum16 _
  ihave Hch3 := (Entails.of_eq (pointsTo_congr hCv)) $$ Hch2
  ihave Hdone2 := ((pointsTo_union (done_chunk_disj d L (400 * 8))).2) $$ [Hdone Hch3]
  · isplitl [Hdone]; · iexact Hdone
    iexact Hch3
  ihave Hdone := (Entails.of_eq (congrArg (fun S => ((outW).view.loc 𝓽 ↦[S]{fullShare} S1v m GI GJ d : sProp 𝕄)) (doneSet_step d L (400 * 8)).symm)) $$ Hdone2
  sl_step
  ihave Hd := (Entails.of_eq (congrArg (fun S => ((outW).view.loc 𝓽 ↦[S]{fullShare} S1v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hb3 Hrj Hb5 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hb3]; · iexists _; iapply (Entails.of_eq (pts_b3 (F := F) d L _)); iexact Hb3
    isplitl [Hrj]; · iexists _; iapply (Entails.of_eq (pts_b4 (F := F) d L _)); iexact Hrj
    isplitl [Hb5]; · iexists _; iapply (Entails.of_eq (pts_b5 (F := F) d L _)); iexact Hb5
    iexact Hbufs
  isplitl [Hfl6 Hs7 Hfl8 Hs9 Hc0 Hc1 Hc2 Hc3 Hc4 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap
  · iexact HO
  · ipureintro
    repeat (first | exact hW' | apply W_insert)

end Tile

/-! ## The launch theorem's obligation -/

def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc1_scratch6 cc1_scratch7 cc1_scratch8 cc1_scratch9
          cc1_scoped0 cc1_scoped1 cc1_scoped2 cc1_scoped3 cc1_scoped4) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_0 (hpre : IdxOK m) : (K (F := F)).TileObl (D (F := F)) 𝒱 (P m GI GJ) v₀ 0 := by
  intro d c i O W hO _ _
  simp only [show (P m GI GJ).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (tile_body1 m GI GJ d (coordsV1 ⟨_, hc.1⟩ ⟨_, hc.2⟩) hpre O W hO).trans (wp_mono frame _ _ fun _ => obl_post)

end Cert.Proof.KB

end
-- ==== Proof.KTilePure2.lean ====
/-
  The arithmetic of one worker of the second gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[108800 + r] of the first table plus row idx_j[108800 + r] of the second.
-/
import proofs.«206539_g3985729650836_cont_8to1_b_247_13_alg».proof.Proof.KPay
import Idealize.ShloMosaic.Lib.Writes

noncomputable section

namespace Cert.Proof.KB.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v6_scv : Memref Cert.Kernel.sig Kind.scVector Space.hbm Cert.Kernel.S108800x128 EltTy.f32)
local notation "iiS" => (Memref.whole Cert.Kernel.cc2_scratch0 : Memref Cert.Kernel.sig Kind.scVector Space.vmem Cert.Kernel.S3400 EltTy.i32)
local notation "jjS" => (Memref.whole Cert.Kernel.cc2_scratch1 : Memref Cert.Kernel.sig Kind.scVector Space.vmem Cert.Kernel.S3400 EltTy.i32)
local notation "ri0" => (Memref.whole Cert.Kernel.cc2_scratch2 : Memref Cert.Kernel.sig Kind.scVector Space.vmem Cert.Kernel.S200x128 EltTy.f32)
local notation "ri1" => (Memref.whole Cert.Kernel.cc2_scratch3 : Memref Cert.Kernel.sig Kind.scVector Space.vmem Cert.Kernel.S200x128 EltTy.f32)
local notation "rj0" => (Memref.whole Cert.Kernel.cc2_scratch4 : Memref Cert.Kernel.sig Kind.scVector Space.vmem Cert.Kernel.S200x128 EltTy.f32)
local notation "rj1" => (Memref.whole Cert.Kernel.cc2_scratch5 : Memref Cert.Kernel.sig Kind.scVector Space.vmem Cert.Kernel.S200x128 EltTy.f32)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound1_zero : grid2.bound 0 = 2 := rfl
omit [FloatOps F] in
theorem bound1_one : grid2.bound 1 = 16 := rfl
abbrev cL (L : grid2.Coords) : Fin 2 := Fin.cast bound1_zero (L 0)
abbrev iL (L : grid2.Coords) : Fin 16 := Fin.cast bound1_one (L 1)

/-- The first row of the output array written by worker `(L 0, L 1)`: `3400 · (2 · L 1 + L 0)`. -/
def wb1 (L : grid2.Coords) : ℕ := 6800 * (L 1).val + 3400 * (L 0).val

/-- The chunk whose rows travel to the first pair of row buffers before trip `t` of the main loop. -/
def ch0 (t : ℕ) : ℕ := min (2 * t) 16

omit [FloatOps F] in
theorem lr_inb (c : ℕ) : ∀ a, (![200 * min c 16] : Fin 1 → ℕ) a + S200.size a ≤ S3400.size a := by
  intro a; obtain rfl : a = 0 := Subsingleton.elim _ _
  show 200 * min c 16 + 200 ≤ 3400; omega

/-- The two hundred positions of chunk `c` in a worker's index slice. -/
abbrev LR (c : ℕ) : Rect S3400 := Rect.unit ![200 * min c 16] S200.size (lr_inb c)

/-- The rows of the output array below row `a` of the worker's, and from row `a` on. -/
def doneSet (a : ℕ) : Finset (Idx (s2Loc d)) := Finset.univ.filter fun y => wb1 L ≤ (y 0).val ∧ (y 0).val < wb1 L + a
def remSet (a : ℕ) : Finset (Idx (s2Loc d)) := Finset.univ.filter fun y => wb1 L + a ≤ (y 0).val ∧ (y 0).val < wb1 L + 3400

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3400 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3400 (200 * c + (y 0).val))))) (y 1))

/-- The two hundred rows of the chunk that starts at row `a` of the worker's. -/
def chunkSet (a : ℕ) : Finset (Idx (s2Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows2 (cL L) (iL L) d := by
  unfold remSet rows2
  refine Finset.filter_congr fun y _ => ?_
  show wb1 L + 0 ≤ (y 0).val ∧ (y 0).val < wb1 L + 3400 ↔ (y 0).val / 3400 = (L 1).val * 2 + (L 0).val
  unfold wb1
  omega
omit [FloatOps F] in
theorem remSet_end : remSet d L 3400 = ∅ := by
  ext y; simp only [remSet, Finset.mem_filter, Finset.mem_univ, true_and, Finset.notMem_empty, iff_false]; omega
omit [FloatOps F] in
theorem doneSet_end : doneSet d L 3400 = rows2 (cL L) (iL L) d := by
  unfold doneSet rows2
  refine Finset.filter_congr fun y _ => ?_
  show wb1 L ≤ (y 0).val ∧ (y 0).val < wb1 L + 3400 ↔ (y 0).val / 3400 = (L 1).val * 2 + (L 0).val
  unfold wb1
  omega
omit [FloatOps F] in
theorem remSet_split (a : ℕ) (ha : a + 200 ≤ 3400) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S108800x128.size a)
    (hs : ∀ a, (Rect.unit (s := S108800x128) off S200x128.size inb).stride a = 1) (a : ℕ) (h : off = ![wb1 L + a, 0]) :
    (Memref.slice outW (Rect.unit off S200x128.size inb) hs).view.set = chunkSet d L a := by
  subst h
  show ((View.whole (main_v6_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S108800x128.size a)
    (hs : ∀ a, (Rect.unit (s := S108800x128) off S200x128.size inb).stride a = 1) (a : ℕ) (h : off = ![wb1 L + a, 0]) (f : Buf (Elt F) (s2Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S108800x128.size a)
    (hs : ∀ a, (Rect.unit (s := S108800x128) off S200x128.size inb).stride a = 1) (c : ℕ) (hc : c ≤ 16) (h : off = ![wb1 L + 200 * c, 0])
    (fI : Buf (Elt F) ((iiS).view.loc 𝓽)) (fJ : Buf (Elt F) ((jjS).view.loc 𝓽))
    (hfI : ∀ x : S3400.Idx, (iiS).view.read (Elt F) fI x = m (iiLoc d) (edgeIx 108800 (wb1 L + (x 0).val)))
    (hfJ : ∀ x : S3400.Idx, (jjS).view.read (Elt F) fJ x = m (jjLoc d) (edgeIx 108800 (wb1 L + (x 0).val)))
    (w : S200x128.Idx → Elt F .f32) (hw : ∀ y, w y = FloatOps.addf (VI GI d L fI c y) (VJ GJ d L fJ c y))
    (jnk : Buf (Elt F) (s2Loc d)) :
    ∀ i ∈ chunkSet d L (200 * c),
      ((Memref.slice outW (Rect.unit off S200x128.size inb) hs).view.writes (Elt F) jnk [⟨Rect.whole _, w⟩]) i = S2v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S2v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S2v m GI GJ d ((Memref.slice outW (Rect.unit _ S200x128.size inb) hs).view.emb x)
  unfold S2v scOut VI VJ
  rw [hfI, hfJ]
  have hx0 : (x 0).val < 200 := (x 0).isLt
  have hmod : ((ix1 (Fin.ofNat 3400 (200 * c + (x 0).val)) : S3400.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `108800 + wb1 L + x`. -/
theorem fetchI_read (f0 : Buf (Elt F) ((iiS).view.loc 𝓽)) (x : S3400.Idx) :
    (iiS).view.read (Elt F)
        ((iiS).view.write (Elt F) f0
          (ReadAs.same.apply ((Memref.slice iiW (Rect.unit (k2_off1 L) S3400.size (k2_off1_inb L)) (fun _ => rfl)).view.read (Elt F) (m (iiLoc d))))
          Finset.univ) x
      = m (iiLoc d) (edgeIx 108800 (wb1 L + (x 0).val)) := by
  rw [View.read_write_univ]
  show m (iiLoc d) ((Memref.slice iiW (Rect.unit (k2_off1 L) S3400.size (k2_off1_inb L)) (fun _ => rfl)).view.emb x)
      = m (iiLoc d) (edgeIx 108800 (wb1 L + (x 0).val))
  refine congrArg (m (iiLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k2_off1 L) 0 + 1 * (x 0).val = (108800 + (wb1 L + (x 0).val)) % 320000
  rw [k2_off1_eq L]
  show 6800 * (L 1).val + 3400 * (L 0).val + 108800 + 1 * (x 0).val = (108800 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3400.Idx, (iiS).view.read (Elt F) fI x = m (iiLoc d) (edgeIx 108800 (wb1 L + (x 0).val)))
    (R : Rect S3400) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `108800 + wb1 L + x`. -/
theorem fetchJ_read (f0 : Buf (Elt F) ((jjS).view.loc 𝓽)) (x : S3400.Idx) :
    (jjS).view.read (Elt F)
        ((jjS).view.write (Elt F) f0
          (ReadAs.same.apply ((Memref.slice jjW (Rect.unit (k2_off1 L) S3400.size (k2_off1_inb L)) (fun _ => rfl)).view.read (Elt F) (m (jjLoc d))))
          Finset.univ) x
      = m (jjLoc d) (edgeIx 108800 (wb1 L + (x 0).val)) := by
  rw [View.read_write_univ]
  show m (jjLoc d) ((Memref.slice jjW (Rect.unit (k2_off1 L) S3400.size (k2_off1_inb L)) (fun _ => rfl)).view.emb x)
      = m (jjLoc d) (edgeIx 108800 (wb1 L + (x 0).val))
  refine congrArg (m (jjLoc d)) ?_
  refine funext fun (a : Fin 1) => ?_
  obtain rfl : a = 0 := Subsingleton.elim _ _
  refine Fin.ext ?_
  have hx : (x 0).val < 3400 := (x 0).isLt
  have h0 : (L 0).val < 2 := (L 0).isLt
  have h1 : (L 1).val < 16 := (L 1).isLt
  show (k2_off1 L) 0 + 1 * (x 0).val = (108800 + (wb1 L + (x 0).val)) % 320000
  rw [k2_off1_eq L]
  show 6800 * (L 1).val + 3400 * (L 0).val + 108800 + 1 * (x 0).val = (108800 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3400.Idx, (jjS).view.read (Elt F) fJ x = m (jjLoc d) (edgeIx 108800 (wb1 L + (x 0).val)))
    (R : Rect S3400) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3400.size a)
    (hR : ∀ a, (Rect.unit (s := S3400) off S200.size inb).stride a = 1) (c : ℕ) (hc : c ≤ 16) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3400) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((iiS).slice (Rect.unit (s := S3400) ![200 * c] S200.size inb) hR).view.read (Elt F) fI) hn hin
        (y gathers_S10000x128_S200x128.axis')).val
      = ((iiS).view.read (Elt F) fI (ix1 (Fin.ofNat 3400 (200 * c + (y 0).val)))).toNat := by
    show (((iiS).slice (Rect.unit (s := S3400) ![200 * c] S200.size inb) hR).view.read (Elt F) fI
        (S200.rowMajor.symm ((y gathers_S10000x128_S200x128.axis').cast hn.symm))).toNat = _
    rw [show ((iiS).slice (Rect.unit (s := S3400) ![200 * c] S200.size inb) hR).view.read (Elt F) fI
          (S200.rowMajor.symm ((y gathers_S10000x128_S200x128.axis').cast hn.symm))
        = (iiS).view.read (Elt F) fI ((Rect.unit (s := S3400) ![200 * c] S200.size inb).emb
          (S200.rowMajor.symm ((y gathers_S10000x128_S200x128.axis').cast hn.symm))) from rfl, hemb]
  have hlt : ((iiS).view.read (Elt F) fI (ix1 (Fin.ofNat 3400 (200 * c + (y 0).val)))).toNat < 10000 := by
    rw [← hrow]; exact (SparseCore.rows _ hn hin _).isLt
  show GI d ((giSl).view.emb (gathers_S10000x128_S200x128.idx
        (SparseCore.rows (((iiS).slice (Rect.unit (s := S3400) ![200 * c] S200.size inb) hR).view.read (Elt F) fI) hn hin) y))
      = GI d (ix2 (rowOf 10000 ((iiS).view.read (Elt F) fI (ix1 (Fin.ofNat 3400 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3400) ![200 * c] S200.size inb) hR).view.read (Elt F) fI) hn hin) y
          gathers_S10000x128_S200x128.axis).val
      = ((iiS).view.read (Elt F) fI (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3400) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3400.size a)
    (hR : ∀ a, (Rect.unit (s := S3400) off S200.size inb).stride a = 1) (c : ℕ) (hc : c ≤ 16) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3400) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3400) ![200 * c] S200.size inb).emb (S200.rowMajor.symm ((y gathers_S10000x128_S200x128.axis').cast hn.symm))
      = (ix1 (Fin.ofNat 3400 (200 * c + (y 0).val)) : S3400.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3400
    rw [hz0, Nat.mod_eq_of_lt (by omega)]
    omega
  have hrow : (SparseCore.rows (((jjS).slice (Rect.unit (s := S3400) ![200 * c] S200.size inb) hR).view.read (Elt F) fJ) hn hin
        (y gathers_S10000x128_S200x128.axis')).val
      = ((jjS).view.read (Elt F) fJ (ix1 (Fin.ofNat 3400 (200 * c + (y 0).val)))).toNat := by
    show (((jjS).slice (Rect.unit (s := S3400) ![200 * c] S200.size inb) hR).view.read (Elt F) fJ
        (S200.rowMajor.symm ((y gathers_S10000x128_S200x128.axis').cast hn.symm))).toNat = _
    rw [show ((jjS).slice (Rect.unit (s := S3400) ![200 * c] S200.size inb) hR).view.read (Elt F) fJ
          (S200.rowMajor.symm ((y gathers_S10000x128_S200x128.axis').cast hn.symm))
        = (jjS).view.read (Elt F) fJ ((Rect.unit (s := S3400) ![200 * c] S200.size inb).emb
          (S200.rowMajor.symm ((y gathers_S10000x128_S200x128.axis').cast hn.symm))) from rfl, hemb]
  have hlt : ((jjS).view.read (Elt F) fJ (ix1 (Fin.ofNat 3400 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3400) ![200 * c] S200.size inb) hR).view.read (Elt F) fJ) hn hin) y))
      = GJ d (ix2 (rowOf 10000 ((jjS).view.read (Elt F) fJ (ix1 (Fin.ofNat 3400 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3400) ![200 * c] S200.size inb) hR).view.read (Elt F) fJ) hn hin) y
          gathers_S10000x128_S200x128.axis).val
      = ((jjS).view.read (Elt F) fJ (ix1 (Fin.ofNat 3400 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3400) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KB.T2

end
-- ==== Proof.KTile2.lean ====
/-
  The body of the second gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.KTilePure2
import Idealize.ShloMosaic.Lib.Writes

noncomputable section

namespace Cert.Proof.KB.T2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v6_scv : Memref Cert.Kernel.sig Kind.scVector Space.hbm Cert.Kernel.S108800x128 EltTy.f32)
local notation "iiS" => (Memref.whole Cert.Kernel.cc2_scratch0 : Memref Cert.Kernel.sig Kind.scVector Space.vmem Cert.Kernel.S3400 EltTy.i32)
local notation "jjS" => (Memref.whole Cert.Kernel.cc2_scratch1 : Memref Cert.Kernel.sig Kind.scVector Space.vmem Cert.Kernel.S3400 EltTy.i32)
local notation "ri0" => (Memref.whole Cert.Kernel.cc2_scratch2 : Memref Cert.Kernel.sig Kind.scVector Space.vmem Cert.Kernel.S200x128 EltTy.f32)
local notation "ri1" => (Memref.whole Cert.Kernel.cc2_scratch3 : Memref Cert.Kernel.sig Kind.scVector Space.vmem Cert.Kernel.S200x128 EltTy.f32)
local notation "rj0" => (Memref.whole Cert.Kernel.cc2_scratch4 : Memref Cert.Kernel.sig Kind.scVector Space.vmem Cert.Kernel.S200x128 EltTy.f32)
local notation "rj1" => (Memref.whole Cert.Kernel.cc2_scratch5 : Memref Cert.Kernel.sig Kind.scVector Space.vmem Cert.Kernel.S200x128 EltTy.f32)

section Tile

variable (d : Dev nD) (L : grid2.Coords)

omit [FloatOps F] in
theorem ownSems0_V1 :
    (ownSems0 (V d (cV L) (jV L)) : sProp 𝕄)
      = iprop(semVal ((V d (cV L) (jV L), SemLoc.dma cc2_scratch6.sem) : GSem nD τ sig) 0 ∗ semVal ((V d (cV L) (jV L), SemLoc.dma cc2_scratch7.sem) : GSem nD τ sig) 0 ∗ semVal ((V d (cV L) (jV L), SemLoc.dma cc2_scratch8.sem) : GSem nD τ sig) 0 ∗ semVal ((V d (cV L) (jV L), SemLoc.dma cc2_scratch9.sem) : GSem nD τ sig) 0 ∗ semVal ((V d (cV L) (jV L), SemLoc.dma cc2_scoped0.sem) : GSem nD τ sig) 0 ∗ semVal ((V d (cV L) (jV L), SemLoc.dma cc2_scoped1.sem) : GSem nD τ sig) 0 ∗ semVal ((V d (cV L) (jV L), SemLoc.dma cc2_scoped2.sem) : GSem nD τ sig) 0 ∗ semVal ((V d (cV L) (jV L), SemLoc.dma cc2_scoped3.sem) : GSem nD τ sig) 0 ∗ semVal ((V d (cV L) (jV L), SemLoc.dma cc2_scoped4.sem) : GSem nD τ sig) 0
          ∗ bigSep ((((((((((ownCells (V d (cV L) (jV L))).erase ((V d (cV L) (jV L), SemLoc.dma cc2_scratch6.sem) : GSem nD τ sig)).erase ((V d (cV L) (jV L), SemLoc.dma cc2_scratch7.sem) : GSem nD τ sig)).erase ((V d (cV L) (jV L), SemLoc.dma cc2_scratch8.sem) : GSem nD τ sig)).erase ((V d (cV L) (jV L), SemLoc.dma cc2_scratch9.sem) : GSem nD τ sig)).erase ((V d (cV L) (jV L), SemLoc.dma cc2_scoped0.sem) : GSem nD τ sig)).erase ((V d (cV L) (jV L), SemLoc.dma cc2_scoped1.sem) : GSem nD τ sig)).erase ((V d (cV L) (jV L), SemLoc.dma cc2_scoped2.sem) : GSem nD τ sig)).erase ((V d (cV L) (jV L), SemLoc.dma cc2_scoped3.sem) : GSem nD τ sig)).erase ((V d (cV L) (jV L), SemLoc.dma cc2_scoped4.sem) : GSem nD τ sig)) fun g => semVal g 0) := by
  unfold SparseCore.Cfg.ownSems0
  rw [SparseCore.bigSep_erase' ((mem_ownCells (g := ((V d (cV L) (jV L), SemLoc.dma cc2_scratch6.sem) : GSem nD τ sig))).mpr ⟨rfl, by show (SemLoc.dma cc2_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc2_scratch7.sem) : GSem nD τ sig))).mpr ⟨rfl, by show (SemLoc.dma cc2_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scratch8.sem) : GSem nD τ sig))).mpr ⟨rfl, by show (SemLoc.dma cc2_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scratch9.sem) : GSem nD τ sig))).mpr ⟨rfl, by show (SemLoc.dma cc2_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped0.sem) : GSem nD τ sig))).mpr ⟨rfl, by show (SemLoc.dma cc2_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped1.sem) : GSem nD τ sig))).mpr ⟨rfl, by show (SemLoc.dma cc2_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped2.sem) : GSem nD τ sig))).mpr ⟨rfl, by show (SemLoc.dma cc2_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped3.sem) : GSem nD τ sig))).mpr ⟨rfl, by show (SemLoc.dma cc2_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc2_scoped4.sem) : GSem nD τ sig))).mpr ⟨rfl, by show (SemLoc.dma cc2_scoped4.sem : SemLoc sig).isScoped .scVector = true; decide⟩⟩⟩⟩⟩⟩⟩⟩⟩)]

omit [FloatOps F] in
theorem ownBufs_V1 :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f) ∗ (∃ f, (V d (cV L) (jV L)).loc cc2_scratch2 ↦{fullShare} f) ∗ (∃ f, (V d (cV L) (jV L)).loc cc2_scratch3 ↦{fullShare} f) ∗ (∃ f, (V d (cV L) (jV L)).loc cc2_scratch4 ↦{fullShare} f) ∗ (∃ f, (V d (cV L) (jV L)).loc cc2_scratch5 ↦{fullShare} f)
          ∗ bigSep (((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc2_scratch0)) rfl)).trans ?_
  rw [SparseCore.bigSep_erase' (Finset.mem_erase.mpr ⟨(fun e => absurd (Proc.devRef_injective _ e) (show (cc2_scratch1 : Ref sig .scVector) ≠ cc2_scratch0 by decide)), SparseCore.Cfg.mem_ownRefs_of_owner (p := Proc.scVector (cV L) (jV L)) (b := ((Proc.scVector (cV L) (jV L)).devRef cc2_scratch1)) rfl⟩),
    SparseCore.bigSep_erase' (Finset.mem_erase.mpr ⟨(fun e => absurd (Proc.devRef_injective _ e) (show (cc2_scratch2 : Ref sig .scVector) ≠ cc2_scratch1 by decide)), Finset.mem_erase.mpr ⟨(fun e => absurd (Proc.devRef_injective _ e) (show (cc2_scratch2 : Ref sig .scVector) ≠ cc2_scratch0 by decide)), SparseCore.Cfg.mem_ownRefs_of_owner (p := Proc.scVector (cV L) (jV L)) (b := ((Proc.scVector (cV L) (jV L)).devRef cc2_scratch2)) rfl⟩⟩),
    SparseCore.bigSep_erase' (Finset.mem_erase.mpr ⟨(fun e => absurd (Proc.devRef_injective _ e) (show (cc2_scratch3 : Ref sig .scVector) ≠ cc2_scratch2 by decide)), Finset.mem_erase.mpr ⟨(fun e => absurd (Proc.devRef_injective _ e) (show (cc2_scratch3 : Ref sig .scVector) ≠ cc2_scratch1 by decide)), Finset.mem_erase.mpr ⟨(fun e => absurd (Proc.devRef_injective _ e) (show (cc2_scratch3 : Ref sig .scVector) ≠ cc2_scratch0 by decide)), SparseCore.Cfg.mem_ownRefs_of_owner (p := Proc.scVector (cV L) (jV L)) (b := ((Proc.scVector (cV L) (jV L)).devRef cc2_scratch3)) rfl⟩⟩⟩),
    SparseCore.bigSep_erase' (Finset.mem_erase.mpr ⟨(fun e => absurd (Proc.devRef_injective _ e) (show (cc2_scratch4 : Ref sig .scVector) ≠ cc2_scratch3 by decide)), Finset.mem_erase.mpr ⟨(fun e => absurd (Proc.devRef_injective _ e) (show (cc2_scratch4 : Ref sig .scVector) ≠ cc2_scratch2 by decide)), Finset.mem_erase.mpr ⟨(fun e => absurd (Proc.devRef_injective _ e) (show (cc2_scratch4 : Ref sig .scVector) ≠ cc2_scratch1 by decide)), Finset.mem_erase.mpr ⟨(fun e => absurd (Proc.devRef_injective _ e) (show (cc2_scratch4 : Ref sig .scVector) ≠ cc2_scratch0 by decide)), SparseCore.Cfg.mem_ownRefs_of_owner (p := Proc.scVector (cV L) (jV L)) (b := ((Proc.scVector (cV L) (jV L)).devRef cc2_scratch4)) rfl⟩⟩⟩⟩),
    SparseCore.bigSep_erase' (Finset.mem_erase.mpr ⟨(fun e => absurd (Proc.devRef_injective _ e) (show (cc2_scratch5 : Ref sig .scVector) ≠ cc2_scratch4 by decide)), Finset.mem_erase.mpr ⟨(fun e => absurd (Proc.devRef_injective _ e) (show (cc2_scratch5 : Ref sig .scVector) ≠ cc2_scratch3 by decide)), Finset.mem_erase.mpr ⟨(fun e => absurd (Proc.devRef_injective _ e) (show (cc2_scratch5 : Ref sig .scVector) ≠ cc2_scratch2 by decide)), Finset.mem_erase.mpr ⟨(fun e => absurd (Proc.devRef_injective _ e) (show (cc2_scratch5 : Ref sig .scVector) ≠ cc2_scratch1 by decide)), Finset.mem_erase.mpr ⟨(fun e => absurd (Proc.devRef_injective _ e) (show (cc2_scratch5 : Ref sig .scVector) ≠ cc2_scratch0 by decide)), SparseCore.Cfg.mem_ownRefs_of_owner (p := Proc.scVector (cV L) (jV L)) (b := ((Proc.scVector (cV L) (jV L)).devRef cc2_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s2Loc d))) (f : Buf (Elt F) (s2Loc d)) :
    ((outW).view.loc (V d (cV L) (jV L)) ↦[I]{fullShare} f : sProp 𝕄) = s2Loc d ↦[I]{fullShare} f := by
  simp only [Memref.view_whole, View.set_whole]
omit [FloatOps F] in
theorem pts_b0 (f : Buf (Elt F) ((V d (cV L) (jV L)).loc cc2_scratch0)) :
    ((iiS).view.loc (V d (cV L) (jV L)) ↦{fullShare} f : sProp 𝕄) = (V d (cV L) (jV L)).loc cc2_scratch0 ↦{fullShare} f := rfl
omit [FloatOps F] in
theorem pts_b1 (f : Buf (Elt F) ((V d (cV L) (jV L)).loc cc2_scratch1)) :
    ((jjS).view.loc (V d (cV L) (jV L)) ↦{fullShare} f : sProp 𝕄) = (V d (cV L) (jV L)).loc cc2_scratch1 ↦{fullShare} f := rfl
omit [FloatOps F] in
theorem pts_b2 (f : Buf (Elt F) ((V d (cV L) (jV L)).loc cc2_scratch2)) :
    ((ri0).view.loc (V d (cV L) (jV L)) ↦{fullShare} f : sProp 𝕄) = (V d (cV L) (jV L)).loc cc2_scratch2 ↦{fullShare} f := rfl
omit [FloatOps F] in
theorem pts_b3 (f : Buf (Elt F) ((V d (cV L) (jV L)).loc cc2_scratch3)) :
    ((ri1).view.loc (V d (cV L) (jV L)) ↦{fullShare} f : sProp 𝕄) = (V d (cV L) (jV L)).loc cc2_scratch3 ↦{fullShare} f := rfl
omit [FloatOps F] in
theorem pts_b4 (f : Buf (Elt F) ((V d (cV L) (jV L)).loc cc2_scratch4)) :
    ((rj0).view.loc (V d (cV L) (jV L)) ↦{fullShare} f : sProp 𝕄) = (V d (cV L) (jV L)).loc cc2_scratch4 ↦{fullShare} f := rfl
omit [FloatOps F] in
theorem pts_b5 (f : Buf (Elt F) ((V d (cV L) (jV L)).loc cc2_scratch5)) :
    ((rj1).view.loc (V d (cV L) (jV L)) ↦{fullShare} f : sProp 𝕄) = (V d (cV L) (jV L)).loc cc2_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s2Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc2_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc2_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc2_scratch7)) 0
    ∗ semVal (𝓽, SemLoc.dma (SemArray.sem cc2_scratch9)) 0
    ∗ semVal (𝓽, SemLoc.dma (SemArray.sem cc2_scoped2)) 0
    ∗ semVal (𝓽, SemLoc.dma (SemArray.sem cc2_scoped3)) 0
    ∗ ((outW).view.loc 𝓽 ↦[doneSet d L (400 * t)]{fullShare} S2v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body2 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s2Loc d ↦[rows2 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc2_scratch6 cc2_scratch7 cc2_scratch8 cc2_scratch9
            cc2_scoped0 cc2_scoped1 cc2_scoped2 cc2_scoped3 cc2_scoped4)
          fun _ => iprop((reads m GI GJ d (tileShare (cL L) (iL L)) ∗ s2Loc d ↦[rows2 (cL L) (iL L) d]{fullShare} S2v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2__edge_gather_eq_skeleton]; unfold cc2__edge_gather_skel
  simp only [k2_part8_eq_skeleton]; unfold k2_part8_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body2.sl.dma0 m d L) Finset.univ = fI
  generalize hfJ : View.write (Elt F) (jjS).view f1 (tile_body2.sl.dma0_1 m d L) Finset.univ = fJ
  have hvI : ∀ x : S3400.Idx, (iiS).view.read (Elt F) fI x = m (iiLoc d) (edgeIx 108800 (wb1 L + (x 0).val)) := by
    intro x; subst hfI; exact fetchI_read m d L f0 x
  have hvJ : ∀ x : S3400.Idx, (jjS).view.read (Elt F) fJ x = m (jjLoc d) (edgeIx 108800 (wb1 L + (x 0).val)) := by
    intro x; subst hfJ; exact fetchJ_read m d L f1 x
  have hinI : ∀ (R : Rect S3400) (hR : ∀ a, R.stride a = 1) (x : R.shape.Idx), (((iiS).slice R hR).view.read (Elt F) fI x).toNat < 10000 :=
    fetchI_lt m d L hpre fI hvI
  have hinJ : ∀ (R : Rect S3400) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k2_off3_eq, k2_off4_eq, k2_off5_eq, k2_off6_eq, k2_off7_eq, k2_off8_eq, k2_off9_eq, k2_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k2_t2_loop.lb k2_t2_loop.ub k2_t2_loop.st = 200 := by decide
    have ht3 : Scf.trips k2_t3_loop.lb k2_t3_loop.ub k2_t3_loop.st = 200 := by decide
    have hk8 : k.val < 8 := lt_of_lt_of_le k.isLt k2_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k2_off11 L k) (k2_off11_inb L k) (fun _ => rfl) (400 * k.val) (by rw [k2_off11_eq, wb1]) fo).symm) $$ Hch
    sl_exec
    ihave Hch2 := (Entails.of_eq (pts_chunk (F := F) d L (k2_off11 L k) (k2_off11_inb L k) (fun _ => rfl) (400 * k.val) (by rw [k2_off11_eq, wb1]) _)) $$ Hch'
    ihave Hch2' := (pts_exists (F := F) _ fullShare _) $$ Hch2
    icases Hch2' with ⟨%C, %hC, Hch2⟩
    have hCv : ∀ i ∈ chunkSet d L (400 * k.val), C i = S2v m GI GJ d i := by
      subst hC
      have hset : chunkSet d L (400 * k.val) = chunkSet d L (200 * (2 * k.val)) := by congr 1 <;> omega
      rw [hset]
      exact out_val m GI GJ d L (k2_off11 L k) (k2_off11_inb L k) (fun _ => rfl) (2 * k.val) (by omega) (by rw [k2_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S2v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k2_off12_eq, k2_off13_eq, k2_off14_eq, k2_off15_eq, k2_off16_eq, k2_off17_eq, k2_off18_eq, k2_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k2_off2 k 1#32 = ![200 * (2 * k.val + 1)] := by
      rw [show (1#32 : BitVec 32) = BitVec.ofNat 32 (1 + (0 : Fin 2).val) from rfl, k2_off2_eq k 0]
      show ![400 * k.val + 200 * 0 + 200] = _
      congr 1; omega
    have hoff2 : k2_off2 k 2#32 = ![200 * min (ch0 (k.val + 1)) 16] := by
      rw [show (2#32 : BitVec 32) = BitVec.ofNat 32 (1 + (1 : Fin 2).val) from rfl, k2_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k2_off2 k 1#32) (k2_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k2_off2 k 1#32) (k2_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k2_off20 L k) (k2_off20_inb L k) (fun _ => rfl) (400 * k.val + 200) (by rw [k2_off20_eq, wb1, Nat.add_assoc]) fo).symm) $$ Hch
    sl_exec
    ihave Hch2 := (Entails.of_eq (pts_chunk (F := F) d L (k2_off20 L k) (k2_off20_inb L k) (fun _ => rfl) (400 * k.val + 200) (by rw [k2_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S2v m GI GJ d i := by
      subst hC
      have hset : chunkSet d L (400 * k.val + 200) = chunkSet d L (200 * (2 * k.val + 1)) := by congr 1 <;> omega
      rw [hset]
      exact out_val m GI GJ d L (k2_off20 L k) (k2_off20_inb L k) (fun _ => rfl) (2 * k.val + 1) (by omega) (by rw [k2_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S2v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k2_off2 k 2#32) S200.size (k2_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k2_off2 k 2#32) S200.size (k2_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k2_off2 k 2#32) (k2_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k2_off2 k 2#32) (k2_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3400_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3400_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3400_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3400_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k2_t1_loop.lb k2_t1_loop.ub k2_t1_loop.st = 8 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k2_off21_eq, k2_off22_eq, k2_off23_eq, k2_off24_eq, k2_off25_eq, k2_off26_eq, k2_off27_eq, k2_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k2_t4_loop.lb k2_t4_loop.ub k2_t4_loop.st = 200 := by decide
  have hch8 : ch0 8 = 16 := by decide
  have hsum16 : ∀ y, (ri0).view.read (Elt F) gS y = FloatOps.addf (VI GI d L fI 16 y) (VJ GJ d L fJ 16 y) := by
    intro y; rw [hgS y, ht4, if_pos (show (y 0).val < 200 from (y 0).isLt), hgA y, hgB y, hch8]
  ihave Hrem2 := (Entails.of_eq (congrArg (fun S => ((outW).view.loc 𝓽 ↦[S]{fullShare} fo : sProp 𝕄)) (remSet_split d L (400 * 8) (by omega)))) $$ Hrem
  ihave Hrem3 := ((pointsTo_union (chunk_rem_disj d L (400 * 8))).1) $$ Hrem2
  icases Hrem3 with ⟨Hch, Hrem⟩
  ihave Hch' := (Entails.of_eq (pts_chunk (F := F) d L (k2_off29 L) (k2_off29_inb L) (fun _ => rfl) (400 * 8) (by rw [k2_off29_eq, wb1]) fo).symm) $$ Hch
  sl_exec
  ihave Hch2 := (Entails.of_eq (pts_chunk (F := F) d L (k2_off29 L) (k2_off29_inb L) (fun _ => rfl) (400 * 8) (by rw [k2_off29_eq, wb1]) _)) $$ Hch'
  ihave Hch2' := (pts_exists (F := F) _ fullShare _) $$ Hch2
  icases Hch2' with ⟨%C, %hC, Hch2⟩
  have hCv : ∀ i ∈ chunkSet d L (400 * 8), C i = S2v m GI GJ d i := by
    subst hC
    have hset : chunkSet d L (400 * 8) = chunkSet d L (200 * (16)) := by congr 1 <;> omega
    rw [hset]
    exact out_val m GI GJ d L (k2_off29 L) (k2_off29_inb L) (fun _ => rfl) (16) (by omega) (by (rw [k2_off29_eq, wb1]) <;> (first | rfl | (congr 2; omega))) fI fJ hvI hvJ _ hsum16 _
  ihave Hch3 := (Entails.of_eq (pointsTo_congr hCv)) $$ Hch2
  ihave Hdone2 := ((pointsTo_union (done_chunk_disj d L (400 * 8))).2) $$ [Hdone Hch3]
  · isplitl [Hdone]; · iexact Hdone
    iexact Hch3
  ihave Hdone := (Entails.of_eq (congrArg (fun S => ((outW).view.loc 𝓽 ↦[S]{fullShare} S2v m GI GJ d : sProp 𝕄)) (doneSet_step d L (400 * 8)).symm)) $$ Hdone2
  sl_step
  ihave Hd := (Entails.of_eq (congrArg (fun S => ((outW).view.loc 𝓽 ↦[S]{fullShare} S2v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hb3 Hrj Hb5 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hb3]; · iexists _; iapply (Entails.of_eq (pts_b3 (F := F) d L _)); iexact Hb3
    isplitl [Hrj]; · iexists _; iapply (Entails.of_eq (pts_b4 (F := F) d L _)); iexact Hrj
    isplitl [Hb5]; · iexists _; iapply (Entails.of_eq (pts_b5 (F := F) d L _)); iexact Hb5
    iexact Hbufs
  isplitl [Hfl6 Hs7 Hfl8 Hs9 Hc0 Hc1 Hc2 Hc3 Hc4 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    iexact Hsems
  iexists _; isplitr
  swap
  · iexact HO
  · ipureintro
    repeat (first | exact hW' | apply W_insert)

end Tile

/-! ## The launch theorem's obligation -/

def coordsV1 (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc2_scratch6 cc2_scratch7 cc2_scratch8 cc2_scratch9
          cc2_scoped0 cc2_scoped1 cc2_scoped2 cc2_scoped3 cc2_scoped4) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_1 (hpre : IdxOK m) : (K (F := F)).TileObl (D (F := F)) 𝒱 (P m GI GJ) v₀ 1 := by
  intro d c i O W hO _ _
  simp only [show (P m GI GJ).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector1]; simp only [SparseCore.onTile, hc, and_self, ↓reduceDIte]
  exact (tile_body2 m GI GJ d (coordsV1 ⟨_, hc.1⟩ ⟨_, hc.2⟩) hpre O W hO).trans (wp_mono frame _ _ fun _ => obl_post)

end Cert.Proof.KB.T2

end
-- ==== Proof.KTilePure3.lean ====
/-
  The arithmetic of one worker of the third gather-and-add call, with no program in it. The worker's rows of the
  call's output array, cut into chunks of two hundred; what the worker's slices of the two index arrays hold once
  fetched; what a gather of two hundred table rows named by a chunk's index words leaves in a row buffer; and that a
  chunk's rows, written with the entry-by-entry sum of the two gathered buffers, hold the call's whole-array value:
  row r of the output is row idx_i[217600 + r] of the first table plus row idx_j[217600 + r] of the second.
-/
import proofs.«206539_g3985729650836_cont_8to1_b_247_13_alg».proof.Proof.KPay
import Idealize.ShloMosaic.Lib.Writes

noncomputable section

namespace Cert.Proof.KB.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v7_scv : Memref Cert.Kernel.sig Kind.scVector Space.hbm Cert.Kernel.S102400x128 EltTy.f32)
local notation "iiS" => (Memref.whole Cert.Kernel.cc3_scratch0 : Memref Cert.Kernel.sig Kind.scVector Space.vmem Cert.Kernel.S3200 EltTy.i32)
local notation "jjS" => (Memref.whole Cert.Kernel.cc3_scratch1 : Memref Cert.Kernel.sig Kind.scVector Space.vmem Cert.Kernel.S3200 EltTy.i32)
local notation "ri0" => (Memref.whole Cert.Kernel.cc3_scratch2 : Memref Cert.Kernel.sig Kind.scVector Space.vmem Cert.Kernel.S200x128 EltTy.f32)
local notation "ri1" => (Memref.whole Cert.Kernel.cc3_scratch3 : Memref Cert.Kernel.sig Kind.scVector Space.vmem Cert.Kernel.S200x128 EltTy.f32)
local notation "rj0" => (Memref.whole Cert.Kernel.cc3_scratch4 : Memref Cert.Kernel.sig Kind.scVector Space.vmem Cert.Kernel.S200x128 EltTy.f32)
local notation "rj1" => (Memref.whole Cert.Kernel.cc3_scratch5 : Memref Cert.Kernel.sig Kind.scVector Space.vmem Cert.Kernel.S200x128 EltTy.f32)

section Tile

variable (d : Dev nD) (L : grid3.Coords)

abbrev cV (L : grid3.Coords) : Fin τ.nSC := (L 0).castLE hcore3
abbrev jV (L : grid3.Coords) : Fin τ.nSub := (L 1).castLE hsub3
omit [FloatOps F] in
theorem bound1_zero : grid3.bound 0 = 2 := rfl
omit [FloatOps F] in
theorem bound1_one : grid3.bound 1 = 16 := rfl
abbrev cL (L : grid3.Coords) : Fin 2 := Fin.cast bound1_zero (L 0)
abbrev iL (L : grid3.Coords) : Fin 16 := Fin.cast bound1_one (L 1)

/-- The first row of the output array written by worker `(L 0, L 1)`: `3200 · (2 · L 1 + L 0)`. -/
def wb1 (L : grid3.Coords) : ℕ := 6400 * (L 1).val + 3200 * (L 0).val

/-- The chunk whose rows travel to the first pair of row buffers before trip `t` of the main loop. -/
def ch0 (t : ℕ) : ℕ := min (2 * t) 14

omit [FloatOps F] in
theorem lr_inb (c : ℕ) : ∀ a, (![200 * min c 15] : Fin 1 → ℕ) a + S200.size a ≤ S3200.size a := by
  intro a; obtain rfl : a = 0 := Subsingleton.elim _ _
  show 200 * min c 15 + 200 ≤ 3200; omega

/-- The two hundred positions of chunk `c` in a worker's index slice. -/
abbrev LR (c : ℕ) : Rect S3200 := Rect.unit ![200 * min c 15] S200.size (lr_inb c)

/-- The rows of the output array below row `a` of the worker's, and from row `a` on. -/
def doneSet (a : ℕ) : Finset (Idx (s3Loc d)) := Finset.univ.filter fun y => wb1 L ≤ (y 0).val ∧ (y 0).val < wb1 L + a
def remSet (a : ℕ) : Finset (Idx (s3Loc d)) := Finset.univ.filter fun y => wb1 L + a ≤ (y 0).val ∧ (y 0).val < wb1 L + 3200

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Entry `y` of chunk `c` as gathered from the first table: the table's row named by index word `200 c + y 0` of the
    worker's slice of the first index array; and the same for the second. -/
def VI (fI : Buf (Elt F) ((iiS).view.loc 𝓽)) (c : ℕ) (y : S200x128.Idx) : Elt F .f32 :=
  (giW).view.read (Elt F) (GI d) (ix2 (rowOf 10000 ((iiS).view.read (Elt F) fI (ix1 (Fin.ofNat 3200 (200 * c + (y 0).val))))) (y 1))
def VJ (fJ : Buf (Elt F) ((jjS).view.loc 𝓽)) (c : ℕ) (y : S200x128.Idx) : Elt F .f32 :=
  (gjW).view.read (Elt F) (GJ d) (ix2 (rowOf 10000 ((jjS).view.read (Elt F) fJ (ix1 (Fin.ofNat 3200 (200 * c + (y 0).val))))) (y 1))

/-- The two hundred rows of the chunk that starts at row `a` of the worker's. -/
def chunkSet (a : ℕ) : Finset (Idx (s3Loc d)) := Finset.univ.filter fun y => wb1 L + a ≤ (y 0).val ∧ (y 0).val < wb1 L + a + 200

omit [FloatOps F] in
theorem doneSet_zero : doneSet d L 0 = ∅ := by
  ext y; simp only [doneSet, Finset.mem_filter, Finset.mem_univ, true_and, Finset.notMem_empty, iff_false]; omega
omit [FloatOps F] in
theorem remSet_zero : remSet d L 0 = rows3 (cL L) (iL L) d := by
  unfold remSet rows3
  refine Finset.filter_congr fun y _ => ?_
  show wb1 L + 0 ≤ (y 0).val ∧ (y 0).val < wb1 L + 3200 ↔ (y 0).val / 3200 = (L 1).val * 2 + (L 0).val
  unfold wb1
  omega
omit [FloatOps F] in
theorem remSet_end : remSet d L 3200 = ∅ := by
  ext y; simp only [remSet, Finset.mem_filter, Finset.mem_univ, true_and, Finset.notMem_empty, iff_false]; omega
omit [FloatOps F] in
theorem doneSet_end : doneSet d L 3200 = rows3 (cL L) (iL L) d := by
  unfold doneSet rows3
  refine Finset.filter_congr fun y _ => ?_
  show wb1 L ≤ (y 0).val ∧ (y 0).val < wb1 L + 3200 ↔ (y 0).val / 3200 = (L 1).val * 2 + (L 0).val
  unfold wb1
  omega
omit [FloatOps F] in
theorem remSet_split (a : ℕ) (ha : a + 200 ≤ 3200) : remSet d L a = chunkSet d L a ∪ remSet d L (a + 200) := by
  ext y; simp only [remSet, chunkSet, Finset.mem_union, Finset.mem_filter, Finset.mem_univ, true_and]; omega
omit [FloatOps F] in
theorem chunk_rem_disj (a : ℕ) : Disjoint (chunkSet d L a) (remSet d L (a + 200)) :=
  Finset.disjoint_filter.mpr fun y _ h1 h2 => by omega
omit [FloatOps F] in
theorem doneSet_step (a : ℕ) : doneSet d L (a + 200) = doneSet d L a ∪ chunkSet d L a := by
  ext y; simp only [doneSet, chunkSet, Finset.mem_union, Finset.mem_filter, Finset.mem_univ, true_and]; omega
omit [FloatOps F] in
theorem done_chunk_disj (a : ℕ) : Disjoint (doneSet d L a) (chunkSet d L a) :=
  Finset.disjoint_filter.mpr fun y _ h1 h2 => by omega

omit [FloatOps F] in
/-- A two-hundred-row slice of the output array at row `wb1 L + a` is the chunk's rows. -/
theorem outSl_set (off : Fin 2 → ℕ) (inb : ∀ a, off a + S200x128.size a ≤ S102400x128.size a)
    (hs : ∀ a, (Rect.unit (s := S102400x128) off S200x128.size inb).stride a = 1) (a : ℕ) (h : off = ![wb1 L + a, 0]) :
    (Memref.slice outW (Rect.unit off S200x128.size inb) hs).view.set = chunkSet d L a := by
  subst h
  show ((View.whole (main_v7_scv : Ref sig .scVector)).slice (Rect.unit _ _ _)).set = _
  rw [View.set_slice_whole]
  ext y
  have h1 : (y 1).val < 128 := (y 1).isLt
  refine Rect.mem_set_unit.trans ?_
  simp only [chunkSet, Finset.mem_filter, Finset.mem_univ, true_and]
  constructor
  · intro h; have h0 := h (0 : Fin 2); exact ⟨h0.1, h0.2⟩
  · intro h; exact fun a' => (Fin.forall_fin_two (p := fun a' : Fin 2 => (![wb1 L + a, 0] : Fin 2 → ℕ) a' ≤ (y a').val ∧ (y a').val < (![wb1 L + a, 0] : Fin 2 → ℕ) a' + S200x128.size a')).mpr
      ⟨⟨h.1, h.2⟩, ⟨Nat.zero_le _, h1⟩⟩ a'

omit [FloatOps F] in
theorem pts_chunk (off : Fin 2 → ℕ) (inb : ∀ a, off a + S200x128.size a ≤ S102400x128.size a)
    (hs : ∀ a, (Rect.unit (s := S102400x128) off S200x128.size inb).stride a = 1) (a : ℕ) (h : off = ![wb1 L + a, 0]) (f : Buf (Elt F) (s3Loc d)) :
    ((Memref.slice outW (Rect.unit off S200x128.size inb) hs).view.loc 𝓽
        ↦[(Memref.slice outW (Rect.unit off S200x128.size inb) hs).view.set]{fullShare} f : sProp 𝕄)
      = (outW).view.loc 𝓽 ↦[chunkSet d L a]{fullShare} f := by
  rw [outSl_set d L off inb hs a h]

omit [FloatOps F] in
/-- Slices of one buffer at equal offsets have the same elements. -/
theorem slice_set_congr {κ : Kind} {sp : Space} {s : Shape} {e : EltTy} (M : Memref sig κ sp s e) {off off' : Fin s.rank → ℕ} (sz : Fin s.rank → ℕ)
    (h : ∀ a, off a + sz a ≤ s.size a) (h' : ∀ a, off' a + sz a ≤ s.size a) (hs : ∀ a, (Rect.unit (s := s) off sz h).stride a = 1)
    (hs' : ∀ a, (Rect.unit (s := s) off' sz h').stride a = 1) (e : off = off') :
    (M.slice (Rect.unit off sz h) hs).view.set = (M.slice (Rect.unit off' sz h') hs').view.set := by
  subst e; rfl

/-- What a copy of a summed pair of row buffers leaves in a chunk's rows is the call's value there. -/
theorem out_val (off : Fin 2 → ℕ) (inb : ∀ a, off a + S200x128.size a ≤ S102400x128.size a)
    (hs : ∀ a, (Rect.unit (s := S102400x128) off S200x128.size inb).stride a = 1) (c : ℕ) (hc : c ≤ 15) (h : off = ![wb1 L + 200 * c, 0])
    (fI : Buf (Elt F) ((iiS).view.loc 𝓽)) (fJ : Buf (Elt F) ((jjS).view.loc 𝓽))
    (hfI : ∀ x : S3200.Idx, (iiS).view.read (Elt F) fI x = m (iiLoc d) (edgeIx 217600 (wb1 L + (x 0).val)))
    (hfJ : ∀ x : S3200.Idx, (jjS).view.read (Elt F) fJ x = m (jjLoc d) (edgeIx 217600 (wb1 L + (x 0).val)))
    (w : S200x128.Idx → Elt F .f32) (hw : ∀ y, w y = FloatOps.addf (VI GI d L fI c y) (VJ GJ d L fJ c y))
    (jnk : Buf (Elt F) (s3Loc d)) :
    ∀ i ∈ chunkSet d L (200 * c),
      ((Memref.slice outW (Rect.unit off S200x128.size inb) hs).view.writes (Elt F) jnk [⟨Rect.whole _, w⟩]) i = S3v m GI GJ d i := by
  intro i hi
  rw [← outSl_set d L off inb hs (200 * c) h] at hi
  obtain ⟨x, -, rfl⟩ := Finset.mem_map.mp hi
  subst h
  -- it is enough to compare the two contents as read through the slice
  refine (cast_bijective (congrArg (Elt F) (Memref.slice outW (Rect.unit _ S200x128.size inb) hs).view.elt_eq)).injective ?_
  show (Memref.slice outW (Rect.unit _ S200x128.size inb) hs).view.read (Elt F)
        ((Memref.slice outW (Rect.unit _ S200x128.size inb) hs).view.writes (Elt F) jnk [⟨Rect.whole _, w⟩]) x
      = (Memref.slice outW (Rect.unit _ S200x128.size inb) hs).view.read (Elt F) (S3v m GI GJ d) x
  have hr := View.read_writes_cons_emb (Memref.slice outW (Rect.unit _ S200x128.size inb) hs).view jnk (Rect.whole S200x128) w [] x
  have hx : (Rect.whole S200x128).emb x = x := Rect.emb_whole_apply S200x128 x
  rw [hx] at hr
  refine hr.trans ?_
  rw [hw]
  show FloatOps.addf (VI GI d L fI c x) (VJ GJ d L fJ c x)
      = S3v m GI GJ d ((Memref.slice outW (Rect.unit _ S200x128.size inb) hs).view.emb x)
  unfold S3v scOut VI VJ
  rw [hfI, hfJ]
  have hx0 : (x 0).val < 200 := (x 0).isLt
  have hmod : ((ix1 (Fin.ofNat 3200 (200 * c + (x 0).val)) : S3200.Idx) 0).val = 200 * c + (x 0).val :=
    Nat.mod_eq_of_lt (by omega)
  have e0 : (((Memref.slice outW (Rect.unit ![wb1 L + 200 * c, 0] S200x128.size inb) hs).view.emb x) 0).val
      = wb1 L + (200 * c + (x 0).val) := by
    show (wb1 L + 200 * c) + 1 * (x 0).val = _; omega
  have e1 : ((Memref.slice outW (Rect.unit ![wb1 L + 200 * c, 0] S200x128.size inb) hs).view.emb x) 1 = x 1 :=
    Fin.ext (by show 0 + 1 * (x 1).val = _; omega)
  rw [hmod, e0, e1]
  rfl

/-- The worker's slice of the first index array, once fetched whole into its index scratch, holds at position x the
    index word of edge `217600 + wb1 L + x`. -/
theorem fetchI_read (f0 : Buf (Elt F) ((iiS).view.loc 𝓽)) (x : S3200.Idx) :
    (iiS).view.read (Elt F)
        ((iiS).view.write (Elt F) f0
          (ReadAs.same.apply ((Memref.slice iiW (Rect.unit (k3_off1 L) S3200.size (k3_off1_inb L)) (fun _ => rfl)).view.read (Elt F) (m (iiLoc d))))
          Finset.univ) x
      = m (iiLoc d) (edgeIx 217600 (wb1 L + (x 0).val)) := by
  rw [View.read_write_univ]
  show m (iiLoc d) ((Memref.slice iiW (Rect.unit (k3_off1 L) S3200.size (k3_off1_inb L)) (fun _ => rfl)).view.emb x)
      = m (iiLoc d) (edgeIx 217600 (wb1 L + (x 0).val))
  refine congrArg (m (iiLoc d)) ?_
  refine funext fun (a : Fin 1) => ?_
  obtain rfl : a = 0 := Subsingleton.elim _ _
  refine Fin.ext ?_
  have hx : (x 0).val < 3200 := (x 0).isLt
  have h0 : (L 0).val < 2 := (L 0).isLt
  have h1 : (L 1).val < 16 := (L 1).isLt
  show (k3_off1 L) 0 + 1 * (x 0).val = (217600 + (wb1 L + (x 0).val)) % 320000
  rw [k3_off1_eq L]
  show 6400 * (L 1).val + 3200 * (L 0).val + 217600 + 1 * (x 0).val = (217600 + (wb1 L + (x 0).val)) % 320000
  unfold wb1
  omega

/-- So, every index word naming a table row, every word of any unit-stride part of the scratch does. -/
theorem fetchI_lt (hpre : IdxOK m) (fI : Buf (Elt F) ((iiS).view.loc 𝓽))
    (hfI : ∀ x : S3200.Idx, (iiS).view.read (Elt F) fI x = m (iiLoc d) (edgeIx 217600 (wb1 L + (x 0).val)))
    (R : Rect S3200) (hR : ∀ a, R.stride a = 1) (x : R.shape.Idx) :
    (((iiS).slice R hR).view.read (Elt F) fI x).toNat < 10000 := by
  have e : ((iiS).slice R hR).view.read (Elt F) fI x = (iiS).view.read (Elt F) fI (R.emb x) := rfl
  rw [e, hfI]
  exact (hpre d).1 _

/-- The worker's slice of the second index array, once fetched whole into its index scratch, holds at position x the
    index word of edge `217600 + wb1 L + x`. -/
theorem fetchJ_read (f0 : Buf (Elt F) ((jjS).view.loc 𝓽)) (x : S3200.Idx) :
    (jjS).view.read (Elt F)
        ((jjS).view.write (Elt F) f0
          (ReadAs.same.apply ((Memref.slice jjW (Rect.unit (k3_off1 L) S3200.size (k3_off1_inb L)) (fun _ => rfl)).view.read (Elt F) (m (jjLoc d))))
          Finset.univ) x
      = m (jjLoc d) (edgeIx 217600 (wb1 L + (x 0).val)) := by
  rw [View.read_write_univ]
  show m (jjLoc d) ((Memref.slice jjW (Rect.unit (k3_off1 L) S3200.size (k3_off1_inb L)) (fun _ => rfl)).view.emb x)
      = m (jjLoc d) (edgeIx 217600 (wb1 L + (x 0).val))
  refine congrArg (m (jjLoc d)) ?_
  refine funext fun (a : Fin 1) => ?_
  obtain rfl : a = 0 := Subsingleton.elim _ _
  refine Fin.ext ?_
  have hx : (x 0).val < 3200 := (x 0).isLt
  have h0 : (L 0).val < 2 := (L 0).isLt
  have h1 : (L 1).val < 16 := (L 1).isLt
  show (k3_off1 L) 0 + 1 * (x 0).val = (217600 + (wb1 L + (x 0).val)) % 320000
  rw [k3_off1_eq L]
  show 6400 * (L 1).val + 3200 * (L 0).val + 217600 + 1 * (x 0).val = (217600 + (wb1 L + (x 0).val)) % 320000
  unfold wb1
  omega

/-- So, every index word naming a table row, every word of any unit-stride part of the scratch does. -/
theorem fetchJ_lt (hpre : IdxOK m) (fJ : Buf (Elt F) ((jjS).view.loc 𝓽))
    (hfJ : ∀ x : S3200.Idx, (jjS).view.read (Elt F) fJ x = m (jjLoc d) (edgeIx 217600 (wb1 L + (x 0).val)))
    (R : Rect S3200) (hR : ∀ a, R.stride a = 1) (x : R.shape.Idx) :
    (((jjS).slice R hR).view.read (Elt F) fJ x).toNat < 10000 := by
  have e : ((jjS).slice R hR).view.read (Elt F) fJ x = (jjS).view.read (Elt F) fJ (R.emb x) := rfl
  rw [e, hfJ]
  exact (hpre d).2 _

/-- A gather of the two hundred rows of the first table named by chunk c's index words, written whole into a row
    buffer, leaves there the entries the chunk's gathered value names. -/
theorem gath_valI (off : Fin 1 → ℕ) (inb : ∀ a, off a + S200.size a ≤ S3200.size a)
    (hR : ∀ a, (Rect.unit (s := S3200) off S200.size inb).stride a = 1) (c : ℕ) (hc : c ≤ 15) (hoff : off = ![200 * c])
    (fI : Buf (Elt F) ((iiS).view.loc 𝓽))
    (hin : ∀ x, (((iiS).slice (Rect.unit off S200.size inb) hR).view.read (Elt F) fI x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((giSl).view.read (Elt F) (GI d))
          (SparseCore.rows (((iiS).slice (Rect.unit off S200.size inb) hR).view.read (Elt F) fI) hn hin)⟩]) y
      = VI GI d L fI c y := by
  intro y
  subst hoff
  have hr := View.read_writes_cons_emb v g0 (Rect.whole S200x128)
    (SparseCore.gatherPayload gathers_S10000x128_S200x128 ((giSl).view.read (Elt F) (GI d))
      (SparseCore.rows (((iiS).slice (Rect.unit (s := S3200) ![200 * c] S200.size inb) hR).view.read (Elt F) fI) hn hin)) [] y
  have hy : (Rect.whole S200x128).emb y = y := Rect.emb_whole_apply S200x128 y
  rw [hy] at hr
  rw [hr]
  unfold SparseCore.gatherPayload VI
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3200) ![200 * c] S200.size inb).emb (S200.rowMajor.symm ((y gathers_S10000x128_S200x128.axis').cast hn.symm))
      = (ix1 (Fin.ofNat 3200 (200 * c + (y 0).val)) : S3200.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3200
    rw [hz0, Nat.mod_eq_of_lt (by omega)]
    omega
  have hrow : (SparseCore.rows (((iiS).slice (Rect.unit (s := S3200) ![200 * c] S200.size inb) hR).view.read (Elt F) fI) hn hin
        (y gathers_S10000x128_S200x128.axis')).val
      = ((iiS).view.read (Elt F) fI (ix1 (Fin.ofNat 3200 (200 * c + (y 0).val)))).toNat := by
    show (((iiS).slice (Rect.unit (s := S3200) ![200 * c] S200.size inb) hR).view.read (Elt F) fI
        (S200.rowMajor.symm ((y gathers_S10000x128_S200x128.axis').cast hn.symm))).toNat = _
    rw [show ((iiS).slice (Rect.unit (s := S3200) ![200 * c] S200.size inb) hR).view.read (Elt F) fI
          (S200.rowMajor.symm ((y gathers_S10000x128_S200x128.axis').cast hn.symm))
        = (iiS).view.read (Elt F) fI ((Rect.unit (s := S3200) ![200 * c] S200.size inb).emb
          (S200.rowMajor.symm ((y gathers_S10000x128_S200x128.axis').cast hn.symm))) from rfl, hemb]
  have hlt : ((iiS).view.read (Elt F) fI (ix1 (Fin.ofNat 3200 (200 * c + (y 0).val)))).toNat < 10000 := by
    rw [← hrow]; exact (SparseCore.rows _ hn hin _).isLt
  show GI d ((giSl).view.emb (gathers_S10000x128_S200x128.idx
        (SparseCore.rows (((iiS).slice (Rect.unit (s := S3200) ![200 * c] S200.size inb) hR).view.read (Elt F) fI) hn hin) y))
      = GI d (ix2 (rowOf 10000 ((iiS).view.read (Elt F) fI (ix1 (Fin.ofNat 3200 (200 * c + (y 0).val))))) (y 1))
  refine congrArg (GI d) ?_
  refine funext fun (b : Fin 2) => ?_
  refine Fin.ext ?_
  match b with
  | ⟨0, _⟩ =>
    show 0 + 1 * (gathers_S10000x128_S200x128.idx
        (SparseCore.rows (((iiS).slice (Rect.unit (s := S3200) ![200 * c] S200.size inb) hR).view.read (Elt F) fI) hn hin) y
          gathers_S10000x128_S200x128.axis).val
      = ((iiS).view.read (Elt F) fI (ix1 (Fin.ofNat 3200 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((iiS).slice (Rect.unit (s := S3200) ![200 * c] S200.size inb) hR).view.read (Elt F) fI) hn hin) y
          (1 : Fin 2)).val = (y 1).val
    rw [Shape.Gathers.idx_of_ne gathers_S10000x128_S200x128 _ y (1 : Fin 2) (by decide)]
    show 0 + 1 * (y 1).val = (y 1).val
    omega

/-- A gather of the two hundred rows of the second table named by chunk c's index words, written whole into a row
    buffer, leaves there the entries the chunk's gathered value names. -/
theorem gath_valJ (off : Fin 1 → ℕ) (inb : ∀ a, off a + S200.size a ≤ S3200.size a)
    (hR : ∀ a, (Rect.unit (s := S3200) off S200.size inb).stride a = 1) (c : ℕ) (hc : c ≤ 15) (hoff : off = ![200 * c])
    (fJ : Buf (Elt F) ((jjS).view.loc 𝓽))
    (hin : ∀ x, (((jjS).slice (Rect.unit off S200.size inb) hR).view.read (Elt F) fJ x).toNat < 10000)
    (hn : S200.numel = S200x128.size gathers_S10000x128_S200x128.axis')
    {κ : Kind} {sp : Space} (v : View sig κ sp S200x128 .f32) (g0 : v.ty.Contents (Elt F)) :
    ∀ y, v.read (Elt F) (v.writes (Elt F) g0 [⟨Rect.whole S200x128,
        SparseCore.gatherPayload gathers_S10000x128_S200x128 ((gjSl).view.read (Elt F) (GJ d))
          (SparseCore.rows (((jjS).slice (Rect.unit off S200.size inb) hR).view.read (Elt F) fJ) hn hin)⟩]) y
      = VJ GJ d L fJ c y := by
  intro y
  subst hoff
  have hr := View.read_writes_cons_emb v g0 (Rect.whole S200x128)
    (SparseCore.gatherPayload gathers_S10000x128_S200x128 ((gjSl).view.read (Elt F) (GJ d))
      (SparseCore.rows (((jjS).slice (Rect.unit (s := S3200) ![200 * c] S200.size inb) hR).view.read (Elt F) fJ) hn hin)) [] y
  have hy : (Rect.whole S200x128).emb y = y := Rect.emb_whole_apply S200x128 y
  rw [hy] at hr
  rw [hr]
  unfold SparseCore.gatherPayload VJ
  have hy0 : (y 0).val < 200 := (y 0).isLt
  -- the position in the chunk's index list of the row the entry sits in
  have hz0 : ((S200.rowMajor.symm ((y gathers_S10000x128_S200x128.axis').cast hn.symm)) 0).val = (y 0).val := by
    have h := Shape.rowMajor_val_one (S200.rowMajor.symm ((y gathers_S10000x128_S200x128.axis').cast hn.symm))
    rw [Equiv.apply_symm_apply] at h
    exact h.symm
  have hemb : (Rect.unit (s := S3200) ![200 * c] S200.size inb).emb (S200.rowMajor.symm ((y gathers_S10000x128_S200x128.axis').cast hn.symm))
      = (ix1 (Fin.ofNat 3200 (200 * c + (y 0).val)) : S3200.Idx) := by
    refine funext fun (a : Fin 1) => ?_
    obtain rfl : a = 0 := Subsingleton.elim _ _
    refine Fin.ext ?_
    show 200 * c + 1 * ((S200.rowMajor.symm ((y gathers_S10000x128_S200x128.axis').cast hn.symm)) 0).val = (200 * c + (y 0).val) % 3200
    rw [hz0, Nat.mod_eq_of_lt (by omega)]
    omega
  have hrow : (SparseCore.rows (((jjS).slice (Rect.unit (s := S3200) ![200 * c] S200.size inb) hR).view.read (Elt F) fJ) hn hin
        (y gathers_S10000x128_S200x128.axis')).val
      = ((jjS).view.read (Elt F) fJ (ix1 (Fin.ofNat 3200 (200 * c + (y 0).val)))).toNat := by
    show (((jjS).slice (Rect.unit (s := S3200) ![200 * c] S200.size inb) hR).view.read (Elt F) fJ
        (S200.rowMajor.symm ((y gathers_S10000x128_S200x128.axis').cast hn.symm))).toNat = _
    rw [show ((jjS).slice (Rect.unit (s := S3200) ![200 * c] S200.size inb) hR).view.read (Elt F) fJ
          (S200.rowMajor.symm ((y gathers_S10000x128_S200x128.axis').cast hn.symm))
        = (jjS).view.read (Elt F) fJ ((Rect.unit (s := S3200) ![200 * c] S200.size inb).emb
          (S200.rowMajor.symm ((y gathers_S10000x128_S200x128.axis').cast hn.symm))) from rfl, hemb]
  have hlt : ((jjS).view.read (Elt F) fJ (ix1 (Fin.ofNat 3200 (200 * c + (y 0).val)))).toNat < 10000 := by
    rw [← hrow]; exact (SparseCore.rows _ hn hin _).isLt
  show GJ d ((gjSl).view.emb (gathers_S10000x128_S200x128.idx
        (SparseCore.rows (((jjS).slice (Rect.unit (s := S3200) ![200 * c] S200.size inb) hR).view.read (Elt F) fJ) hn hin) y))
      = GJ d (ix2 (rowOf 10000 ((jjS).view.read (Elt F) fJ (ix1 (Fin.ofNat 3200 (200 * c + (y 0).val))))) (y 1))
  refine congrArg (GJ d) ?_
  refine funext fun (b : Fin 2) => ?_
  refine Fin.ext ?_
  match b with
  | ⟨0, _⟩ =>
    show 0 + 1 * (gathers_S10000x128_S200x128.idx
        (SparseCore.rows (((jjS).slice (Rect.unit (s := S3200) ![200 * c] S200.size inb) hR).view.read (Elt F) fJ) hn hin) y
          gathers_S10000x128_S200x128.axis).val
      = ((jjS).view.read (Elt F) fJ (ix1 (Fin.ofNat 3200 (200 * c + (y 0).val)))).toNat % 10000
    rw [Shape.Gathers.idx_axis]
    exact (Nat.zero_add _).trans ((Nat.one_mul _).trans (hrow.trans (Nat.mod_eq_of_lt hlt).symm))
  | ⟨1, _⟩ =>
    show 0 + 1 * (gathers_S10000x128_S200x128.idx
        (SparseCore.rows (((jjS).slice (Rect.unit (s := S3200) ![200 * c] S200.size inb) hR).view.read (Elt F) fJ) hn hin) y
          (1 : Fin 2)).val = (y 1).val
    rw [Shape.Gathers.idx_of_ne gathers_S10000x128_S200x128 _ y (1 : Fin 2) (by decide)]
    show 0 + 1 * (y 1).val = (y 1).val
    omega

end Tile

end Cert.Proof.KB.T3

end
-- ==== Proof.KTile3.lean ====
/-
  The body of the third gather-and-add call at one worker: the worker fetches its slice of the two index arrays,
  gathers the rows they name from the two node tables two hundred at a time into two pairs of row buffers, adds the
  second buffer of a pair into the first row by row, and copies the sum out to its rows of the call's output array.
  The invariants carry the value: before trip t of the main loop the worker's rows below 400 t hold the call's
  whole-array function, chunk 2 t travels to the first pair of buffers, and the second pair is free.
-/
import proofs.«206539_g3985729650836_cont_8to1_b_247_13_alg».proof.Proof.KTilePure3
import Idealize.ShloMosaic.Lib.Writes

noncomputable section

namespace Cert.Proof.KB.T3

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic Idealize.ShloMosaic.ValueIdx

variable {F : FTy → Type} [FloatOps F]

local notation "𝕄" => MT nD τ sig (HIx 3) (Elt F) ℕ UU ℕ

variable (m : (ℓ : Loc nD τ sig) → Buf (Elt F) ℓ)
variable (GI : (d : Dev nD) → Buf (Elt F) (giLoc d)) (GJ : (d : Dev nD) → Buf (Elt F) (gjLoc d))

-- the kernel's memrefs, spelt as the body table passes them
local notation "giW" => (Memref.whole Cert.Kernel.main_v2_1_scv : Memref Cert.Kernel.sig Kind.scVector Space.hbm Cert.Kernel.S10000x128 EltTy.f32)
local notation "gjW" => (Memref.whole Cert.Kernel.main_v2_2_scv : Memref Cert.Kernel.sig Kind.scVector Space.hbm Cert.Kernel.S10000x128 EltTy.f32)
local notation "iiW" => (Memref.whole Cert.Kernel.main_arg2_scv : Memref Cert.Kernel.sig Kind.scVector Space.hbm Cert.Kernel.S320000 EltTy.i32)
local notation "jjW" => (Memref.whole Cert.Kernel.main_arg3_scv : Memref Cert.Kernel.sig Kind.scVector Space.hbm Cert.Kernel.S320000 EltTy.i32)
local notation "outW" => (Memref.whole Cert.Kernel.main_v7_scv : Memref Cert.Kernel.sig Kind.scVector Space.hbm Cert.Kernel.S102400x128 EltTy.f32)
local notation "iiS" => (Memref.whole Cert.Kernel.cc3_scratch0 : Memref Cert.Kernel.sig Kind.scVector Space.vmem Cert.Kernel.S3200 EltTy.i32)
local notation "jjS" => (Memref.whole Cert.Kernel.cc3_scratch1 : Memref Cert.Kernel.sig Kind.scVector Space.vmem Cert.Kernel.S3200 EltTy.i32)
local notation "ri0" => (Memref.whole Cert.Kernel.cc3_scratch2 : Memref Cert.Kernel.sig Kind.scVector Space.vmem Cert.Kernel.S200x128 EltTy.f32)
local notation "ri1" => (Memref.whole Cert.Kernel.cc3_scratch3 : Memref Cert.Kernel.sig Kind.scVector Space.vmem Cert.Kernel.S200x128 EltTy.f32)
local notation "rj0" => (Memref.whole Cert.Kernel.cc3_scratch4 : Memref Cert.Kernel.sig Kind.scVector Space.vmem Cert.Kernel.S200x128 EltTy.f32)
local notation "rj1" => (Memref.whole Cert.Kernel.cc3_scratch5 : Memref Cert.Kernel.sig Kind.scVector Space.vmem Cert.Kernel.S200x128 EltTy.f32)

section Tile

variable (d : Dev nD) (L : grid3.Coords)

omit [FloatOps F] in
theorem ownSems0_V1 :
    (ownSems0 (V d (cV L) (jV L)) : sProp 𝕄)
      = iprop(semVal ((V d (cV L) (jV L), SemLoc.dma cc3_scratch6.sem) : GSem nD τ sig) 0 ∗ semVal ((V d (cV L) (jV L), SemLoc.dma cc3_scratch7.sem) : GSem nD τ sig) 0 ∗ semVal ((V d (cV L) (jV L), SemLoc.dma cc3_scratch8.sem) : GSem nD τ sig) 0 ∗ semVal ((V d (cV L) (jV L), SemLoc.dma cc3_scratch9.sem) : GSem nD τ sig) 0 ∗ semVal ((V d (cV L) (jV L), SemLoc.dma cc3_scoped0.sem) : GSem nD τ sig) 0 ∗ semVal ((V d (cV L) (jV L), SemLoc.dma cc3_scoped1.sem) : GSem nD τ sig) 0 ∗ semVal ((V d (cV L) (jV L), SemLoc.dma cc3_scoped2.sem) : GSem nD τ sig) 0 ∗ semVal ((V d (cV L) (jV L), SemLoc.dma cc3_scoped3.sem) : GSem nD τ sig) 0 ∗ semVal ((V d (cV L) (jV L), SemLoc.dma cc3_scoped4.sem) : GSem nD τ sig) 0 ∗ semVal ((V d (cV L) (jV L), SemLoc.dma cc3_scoped5.sem) : GSem nD τ sig) 0
          ∗ bigSep (((((((((((ownCells (V d (cV L) (jV L))).erase ((V d (cV L) (jV L), SemLoc.dma cc3_scratch6.sem) : GSem nD τ sig)).erase ((V d (cV L) (jV L), SemLoc.dma cc3_scratch7.sem) : GSem nD τ sig)).erase ((V d (cV L) (jV L), SemLoc.dma cc3_scratch8.sem) : GSem nD τ sig)).erase ((V d (cV L) (jV L), SemLoc.dma cc3_scratch9.sem) : GSem nD τ sig)).erase ((V d (cV L) (jV L), SemLoc.dma cc3_scoped0.sem) : GSem nD τ sig)).erase ((V d (cV L) (jV L), SemLoc.dma cc3_scoped1.sem) : GSem nD τ sig)).erase ((V d (cV L) (jV L), SemLoc.dma cc3_scoped2.sem) : GSem nD τ sig)).erase ((V d (cV L) (jV L), SemLoc.dma cc3_scoped3.sem) : GSem nD τ sig)).erase ((V d (cV L) (jV L), SemLoc.dma cc3_scoped4.sem) : GSem nD τ sig)).erase ((V d (cV L) (jV L), SemLoc.dma cc3_scoped5.sem) : GSem nD τ sig)) fun g => semVal g 0) := by
  unfold SparseCore.Cfg.ownSems0
  rw [SparseCore.bigSep_erase' ((mem_ownCells (g := ((V d (cV L) (jV L), SemLoc.dma cc3_scratch6.sem) : GSem nD τ sig))).mpr ⟨rfl, by show (SemLoc.dma cc3_scratch6.sem : SemLoc sig).isScoped .scVector = true; decide⟩),
    SparseCore.bigSep_erase' (Finset.mem_erase.mpr ⟨(fun e => absurd (Prod.mk.inj e).2 (by decide)), (mem_ownCells (g := ((V d (cV L) (jV L), SemLoc.dma cc3_scratch7.sem) : GSem nD τ sig))).mpr ⟨rfl, by show (SemLoc.dma cc3_scratch7.sem : SemLoc sig).isScoped .scVector = true; decide⟩⟩),
    SparseCore.bigSep_erase' (Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scratch8.sem) : GSem nD τ sig))).mpr ⟨rfl, by show (SemLoc.dma cc3_scratch8.sem : SemLoc sig).isScoped .scVector = true; decide⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scratch9.sem) : GSem nD τ sig))).mpr ⟨rfl, by show (SemLoc.dma cc3_scratch9.sem : SemLoc sig).isScoped .scVector = true; decide⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped0.sem) : GSem nD τ sig))).mpr ⟨rfl, by show (SemLoc.dma cc3_scoped0.sem : SemLoc sig).isScoped .scVector = true; decide⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped1.sem) : GSem nD τ sig))).mpr ⟨rfl, by show (SemLoc.dma cc3_scoped1.sem : SemLoc sig).isScoped .scVector = true; decide⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped2.sem) : GSem nD τ sig))).mpr ⟨rfl, by show (SemLoc.dma cc3_scoped2.sem : SemLoc sig).isScoped .scVector = true; decide⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped3.sem) : GSem nD τ sig))).mpr ⟨rfl, by show (SemLoc.dma cc3_scoped3.sem : SemLoc sig).isScoped .scVector = true; decide⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped4.sem) : GSem nD τ sig))).mpr ⟨rfl, by show (SemLoc.dma cc3_scoped4.sem : SemLoc sig).isScoped .scVector = true; decide⟩⟩⟩⟩⟩⟩⟩⟩⟩),
    SparseCore.bigSep_erase' (Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), Finset.mem_erase.mpr ⟨(fun e => absurd (Prod.mk.inj e).2 (by decide)), (mem_ownCells (g := ((V d (cV L) (jV L), SemLoc.dma cc3_scoped5.sem) : GSem nD τ sig))).mpr ⟨rfl, by show (SemLoc.dma cc3_scoped5.sem : SemLoc sig).isScoped .scVector = true; decide⟩⟩⟩⟩⟩⟩⟩⟩⟩⟩)]

omit [FloatOps F] in
theorem ownBufs_V1 :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f) ∗ (∃ f, (V d (cV L) (jV L)).loc cc3_scratch2 ↦{fullShare} f) ∗ (∃ f, (V d (cV L) (jV L)).loc cc3_scratch3 ↦{fullShare} f) ∗ (∃ f, (V d (cV L) (jV L)).loc cc3_scratch4 ↦{fullShare} f) ∗ (∃ f, (V d (cV L) (jV L)).loc cc3_scratch5 ↦{fullShare} f)
          ∗ bigSep (((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc3_scratch0)) rfl)).trans ?_
  rw [SparseCore.bigSep_erase' (Finset.mem_erase.mpr ⟨(fun e => absurd (Proc.devRef_injective _ e) (show (cc3_scratch1 : Ref sig .scVector) ≠ cc3_scratch0 by decide)), SparseCore.Cfg.mem_ownRefs_of_owner (p := Proc.scVector (cV L) (jV L)) (b := ((Proc.scVector (cV L) (jV L)).devRef cc3_scratch1)) rfl⟩),
    SparseCore.bigSep_erase' (Finset.mem_erase.mpr ⟨(fun e => absurd (Proc.devRef_injective _ e) (show (cc3_scratch2 : Ref sig .scVector) ≠ cc3_scratch1 by decide)), Finset.mem_erase.mpr ⟨(fun e => absurd (Proc.devRef_injective _ e) (show (cc3_scratch2 : Ref sig .scVector) ≠ cc3_scratch0 by decide)), SparseCore.Cfg.mem_ownRefs_of_owner (p := Proc.scVector (cV L) (jV L)) (b := ((Proc.scVector (cV L) (jV L)).devRef cc3_scratch2)) rfl⟩⟩),
    SparseCore.bigSep_erase' (Finset.mem_erase.mpr ⟨(fun e => absurd (Proc.devRef_injective _ e) (show (cc3_scratch3 : Ref sig .scVector) ≠ cc3_scratch2 by decide)), Finset.mem_erase.mpr ⟨(fun e => absurd (Proc.devRef_injective _ e) (show (cc3_scratch3 : Ref sig .scVector) ≠ cc3_scratch1 by decide)), Finset.mem_erase.mpr ⟨(fun e => absurd (Proc.devRef_injective _ e) (show (cc3_scratch3 : Ref sig .scVector) ≠ cc3_scratch0 by decide)), SparseCore.Cfg.mem_ownRefs_of_owner (p := Proc.scVector (cV L) (jV L)) (b := ((Proc.scVector (cV L) (jV L)).devRef cc3_scratch3)) rfl⟩⟩⟩),
    SparseCore.bigSep_erase' (Finset.mem_erase.mpr ⟨(fun e => absurd (Proc.devRef_injective _ e) (show (cc3_scratch4 : Ref sig .scVector) ≠ cc3_scratch3 by decide)), Finset.mem_erase.mpr ⟨(fun e => absurd (Proc.devRef_injective _ e) (show (cc3_scratch4 : Ref sig .scVector) ≠ cc3_scratch2 by decide)), Finset.mem_erase.mpr ⟨(fun e => absurd (Proc.devRef_injective _ e) (show (cc3_scratch4 : Ref sig .scVector) ≠ cc3_scratch1 by decide)), Finset.mem_erase.mpr ⟨(fun e => absurd (Proc.devRef_injective _ e) (show (cc3_scratch4 : Ref sig .scVector) ≠ cc3_scratch0 by decide)), SparseCore.Cfg.mem_ownRefs_of_owner (p := Proc.scVector (cV L) (jV L)) (b := ((Proc.scVector (cV L) (jV L)).devRef cc3_scratch4)) rfl⟩⟩⟩⟩),
    SparseCore.bigSep_erase' (Finset.mem_erase.mpr ⟨(fun e => absurd (Proc.devRef_injective _ e) (show (cc3_scratch5 : Ref sig .scVector) ≠ cc3_scratch4 by decide)), Finset.mem_erase.mpr ⟨(fun e => absurd (Proc.devRef_injective _ e) (show (cc3_scratch5 : Ref sig .scVector) ≠ cc3_scratch3 by decide)), Finset.mem_erase.mpr ⟨(fun e => absurd (Proc.devRef_injective _ e) (show (cc3_scratch5 : Ref sig .scVector) ≠ cc3_scratch2 by decide)), Finset.mem_erase.mpr ⟨(fun e => absurd (Proc.devRef_injective _ e) (show (cc3_scratch5 : Ref sig .scVector) ≠ cc3_scratch1 by decide)), Finset.mem_erase.mpr ⟨(fun e => absurd (Proc.devRef_injective _ e) (show (cc3_scratch5 : Ref sig .scVector) ≠ cc3_scratch0 by decide)), SparseCore.Cfg.mem_ownRefs_of_owner (p := Proc.scVector (cV L) (jV L)) (b := ((Proc.scVector (cV L) (jV L)).devRef cc3_scratch5)) rfl⟩⟩⟩⟩⟩)]

omit [FloatOps F] in
theorem pts_gi (q : PosShare TreeShare) (f : Buf (Elt F) (giLoc d)) :
    ((giW).view.loc (V d (cV L) (jV L)) ↦{q} f : sProp 𝕄) = giLoc d ↦{q} f := by
  simp only [Memref.view_whole, View.set_whole]
omit [FloatOps F] in
theorem pts_gj (q : PosShare TreeShare) (f : Buf (Elt F) (gjLoc d)) :
    ((gjW).view.loc (V d (cV L) (jV L)) ↦{q} f : sProp 𝕄) = gjLoc d ↦{q} f := by
  simp only [Memref.view_whole, View.set_whole]
omit [FloatOps F] in
theorem pts_ii (q : PosShare TreeShare) (f : Buf (Elt F) (iiLoc d)) :
    ((iiW).view.loc (V d (cV L) (jV L)) ↦{q} f : sProp 𝕄) = iiLoc d ↦{q} f := by
  simp only [Memref.view_whole, View.set_whole]
omit [FloatOps F] in
theorem pts_jj (q : PosShare TreeShare) (f : Buf (Elt F) (jjLoc d)) :
    ((jjW).view.loc (V d (cV L) (jV L)) ↦{q} f : sProp 𝕄) = jjLoc d ↦{q} f := by
  simp only [Memref.view_whole, View.set_whole]
omit [FloatOps F] in
theorem pts_out (I : Finset (Idx (s3Loc d))) (f : Buf (Elt F) (s3Loc d)) :
    ((outW).view.loc (V d (cV L) (jV L)) ↦[I]{fullShare} f : sProp 𝕄) = s3Loc d ↦[I]{fullShare} f := by
  simp only [Memref.view_whole, View.set_whole]
omit [FloatOps F] in
theorem pts_b0 (f : Buf (Elt F) ((V d (cV L) (jV L)).loc cc3_scratch0)) :
    ((iiS).view.loc (V d (cV L) (jV L)) ↦{fullShare} f : sProp 𝕄) = (V d (cV L) (jV L)).loc cc3_scratch0 ↦{fullShare} f := rfl
omit [FloatOps F] in
theorem pts_b1 (f : Buf (Elt F) ((V d (cV L) (jV L)).loc cc3_scratch1)) :
    ((jjS).view.loc (V d (cV L) (jV L)) ↦{fullShare} f : sProp 𝕄) = (V d (cV L) (jV L)).loc cc3_scratch1 ↦{fullShare} f := rfl
omit [FloatOps F] in
theorem pts_b2 (f : Buf (Elt F) ((V d (cV L) (jV L)).loc cc3_scratch2)) :
    ((ri0).view.loc (V d (cV L) (jV L)) ↦{fullShare} f : sProp 𝕄) = (V d (cV L) (jV L)).loc cc3_scratch2 ↦{fullShare} f := rfl
omit [FloatOps F] in
theorem pts_b3 (f : Buf (Elt F) ((V d (cV L) (jV L)).loc cc3_scratch3)) :
    ((ri1).view.loc (V d (cV L) (jV L)) ↦{fullShare} f : sProp 𝕄) = (V d (cV L) (jV L)).loc cc3_scratch3 ↦{fullShare} f := rfl
omit [FloatOps F] in
theorem pts_b4 (f : Buf (Elt F) ((V d (cV L) (jV L)).loc cc3_scratch4)) :
    ((rj0).view.loc (V d (cV L) (jV L)) ↦{fullShare} f : sProp 𝕄) = (V d (cV L) (jV L)).loc cc3_scratch4 ↦{fullShare} f := rfl
omit [FloatOps F] in
theorem pts_b5 (f : Buf (Elt F) ((V d (cV L) (jV L)).loc cc3_scratch5)) :
    ((rj1).view.loc (V d (cV L) (jV L)) ↦{fullShare} f : sProp 𝕄) = (V d (cV L) (jV L)).loc cc3_scratch5 ↦{fullShare} f := rfl

/-- A sixteen-lane sum, recast to a row piece and back, is the lane-by-lane sum. -/
theorem pay_eq (v w : Vec F S1x16 .f32) (h1 : S1x16.ShapeCasts S16) (h2 : S16.ShapeCasts S1x16) :
    shapeCast S1x16 (addf (shapeCast S16 v h1) (shapeCast S16 w h1)) h2 = fun x => FloatOps.addf (v x) (w x) := by
  show shapeCast S1x16 (shapeCast S16 (fun x => FloatOps.addf (v x) (w x)) h1) h2 = _
  funext i
  show (fun x => FloatOps.addf (v x) (w x)) (Shape.reshapeEquiv _ (Shape.reshapeEquiv _ i)) = _
  rw [Shape.reshapeEquiv_reshapeEquiv, Shape.reshapeEquiv_self]

/-- One row of the row-by-row sum: pieces that cover exactly row `r` and carry the lane sums of what the first buffer
    held there and the second buffer's move the invariant from `r` to `r + 1`. -/
theorem rowadd_step {κ : Kind} {sp : Space} (v : View sig κ sp S200x128 .f32) (g : v.ty.Contents (Elt F)) (A Bv : S200x128.Idx → Elt F .f32) (r : ℕ)
    (hg : ∀ y, v.read (Elt F) g y = if (y 0).val < r then FloatOps.addf (A y) (Bv y) else A y)
    (Lst : List (View.Piece (Elt F) S200x128 .f32))
    (hcov : ∀ y : S200x128.Idx, (∃ p ∈ Lst, y ∈ p.1.set) ↔ (y 0).val = r)
    (hpay : ∀ p ∈ Lst, ∀ x : p.1.shape.Idx, p.2 x = FloatOps.addf (v.read (Elt F) g (p.1.emb x)) (Bv (p.1.emb x))) :
    ∀ y, v.read (Elt F) (v.writes (Elt F) g Lst) y = if (y 0).val < r + 1 then FloatOps.addf (A y) (Bv y) else A y := by
  intro y
  by_cases hy : (y 0).val = r
  · rw [View.read_writes_apply_of_pieces v g (fun y => FloatOps.addf (v.read (Elt F) g y) (Bv y)) Lst hpay y ((hcov y).mpr hy), hg y,
      if_neg (by omega), if_pos (by omega)]
  · rw [View.read_writes_apply_of_forall_not_mem v g y Lst (fun p hp hm => hy ((hcov y).mp ⟨p, hp, hm⟩)), hg y]
    by_cases h : (y 0).val < r
    · rw [if_pos h, if_pos (by omega)]
    · rw [if_neg h, if_neg (by omega)]

local notation "𝓽" => (V d (cV L) (jV L))
local notation "giSl" => (Memref.slice giW (Rect.unit ![0, 0] S10000x128.size inb_S10000x128_S10000x128_0_0) (fun _ => rfl))
local notation "gjSl" => (Memref.slice gjW (Rect.unit ![0, 0] S10000x128.size inb_S10000x128_S10000x128_0_0) (fun _ => rfl))

/-- Before trip `t` of the main loop: chunk `2 t` travels to the first pair of row buffers, the second pair is free,
    the worker's rows below `400 t` hold the call's value and the others are untouched. -/
def inv1 (O : CellTallies nD τ sig (HIx 3)) (W : Waits sig (HIx 3)) (fo : Buf (Elt F) (s3Loc d))
    (fI : Buf (Elt F) ((iiS).view.loc 𝓽)) (fJ : Buf (Elt F) ((jjS).view.loc 𝓽)) (t : ℕ) (_ : PUnit) : sProp 𝕄 :=
  iprop(MayWaits 𝓽 (none : HIx 3) O
    ∗ (∃ gA : Buf (Elt F) ((ri0).view.loc 𝓽), ⌜∀ y, (ri0).view.read (Elt F) gA y = VI GI d L fI (ch0 t) y⌝
        ∗ Flight countersEmb 𝓽 (SemLoc.dma (SemArray.sem cc3_scratch6)) default 819200
            iprop((((ri0).view.loc 𝓽 ↦[(ri0).view.set]{fullShare} gA)
                ∗ (iiS).view.loc 𝓽 ↦[((iiS).slice (LR (ch0 t)) (fun _ => rfl)).view.set]{fullShare.left} fI)
              ∗ (giW).view.loc 𝓽 ↦[(giSl).view.set]{(tileShare (cL L) (iL L)).left} GI d)
        ∗ ((ri0).view.loc 𝓽 ↦[Finset.univ \ (ri0).view.set]{fullShare} gA))
    ∗ ((giW).view.loc 𝓽 ↦[Finset.univ \ (giSl).view.set]{(tileShare (cL L) (iL L)).left} GI d)
    ∗ ((iiS).view.loc 𝓽 ↦[Finset.univ \ ((iiS).slice (LR (ch0 t)) (fun _ => rfl)).view.set]{fullShare.left} fI)
    ∗ (∃ gB : Buf (Elt F) ((rj0).view.loc 𝓽), ⌜∀ y, (rj0).view.read (Elt F) gB y = VJ GJ d L fJ (ch0 t) y⌝
        ∗ Flight countersEmb 𝓽 (SemLoc.dma (SemArray.sem cc3_scratch8)) default 819200
            iprop((((rj0).view.loc 𝓽 ↦[(rj0).view.set]{fullShare} gB)
                ∗ (jjS).view.loc 𝓽 ↦[((jjS).slice (LR (ch0 t)) (fun _ => rfl)).view.set]{fullShare.left} fJ)
              ∗ (gjW).view.loc 𝓽 ↦[(gjSl).view.set]{(tileShare (cL L) (iL L)).left} GJ d)
        ∗ ((rj0).view.loc 𝓽 ↦[Finset.univ \ (rj0).view.set]{fullShare} gB))
    ∗ ((gjW).view.loc 𝓽 ↦[Finset.univ \ (gjSl).view.set]{(tileShare (cL L) (iL L)).left} GJ d)
    ∗ ((jjS).view.loc 𝓽 ↦[Finset.univ \ ((jjS).slice (LR (ch0 t)) (fun _ => rfl)).view.set]{fullShare.left} fJ)
    ∗ ((giW).view.loc 𝓽 ↦{(tileShare (cL L) (iL L)).right} GI d)
    ∗ ((gjW).view.loc 𝓽 ↦{(tileShare (cL L) (iL L)).right} GJ d)
    ∗ ((iiS).view.loc 𝓽 ↦{fullShare.right} fI)
    ∗ ((jjS).view.loc 𝓽 ↦{fullShare.right} fJ)
    ∗ (∃ f, (ri1).view.loc 𝓽 ↦{fullShare} f)
    ∗ (∃ f, (rj1).view.loc 𝓽 ↦{fullShare} f)
    ∗ semVal (𝓽, SemLoc.dma (SemArray.sem cc3_scratch7)) 0
    ∗ semVal (𝓽, SemLoc.dma (SemArray.sem cc3_scratch9)) 0
    ∗ semVal (𝓽, SemLoc.dma (SemArray.sem cc3_scoped2)) 0
    ∗ semVal (𝓽, SemLoc.dma (SemArray.sem cc3_scoped3)) 0
    ∗ ((outW).view.loc 𝓽 ↦[doneSet d L (400 * t)]{fullShare} S3v m GI GJ d)
    ∗ ((outW).view.loc 𝓽 ↦[remSet d L (400 * t)]{fullShare} fo)
    ∗ ∃ W', ⌜∀ p ∈ W', p ∈ W ∨ p.2 = none⌝ ∗ owes 𝓽 O W')

/-- Before row `r` of a pair's row-by-row sum: the first buffer's rows below `r` hold the sums, the others and the
    second buffer are as they were. -/
def invRow (M N : Memref sig .scVector .vmem S200x128 .f32) (A : Buf (Elt F) (M.view.loc 𝓽)) (B : Buf (Elt F) (N.view.loc 𝓽))
    (r : ℕ) (_ : PUnit) : sProp 𝕄 :=
  iprop((∃ g : Buf (Elt F) (M.view.loc 𝓽), ⌜∀ y, M.view.read (Elt F) g y
            = if (y 0).val < r then FloatOps.addf (M.view.read (Elt F) A y) (N.view.read (Elt F) B y) else M.view.read (Elt F) A y⌝
        ∗ M.view.loc 𝓽 ↦{fullShare} g)
      ∗ N.view.loc 𝓽 ↦{fullShare} B)

omit [FloatOps F] in
theorem pts_exists {ℓ : Loc nD τ sig} (I : Finset (Idx ℓ)) (q : PosShare TreeShare) (a : Buf (Elt F) ℓ) :
    (ℓ ↦[I]{q} a : sProp 𝕄) ⊢ iprop(∃ g, ⌜g = a⌝ ∗ ℓ ↦[I]{q} g) := by
  iintro H
  iexists a
  isplitr
  · ipureintro; rfl
  · iexact H

omit [FloatOps F] in
theorem pts_set_congr {ℓ : Loc nD τ sig} {I J : Finset (Idx ℓ)} (h : I = J) (q : PosShare TreeShare) (f : Buf (Elt F) ℓ) :
    (ℓ ↦[I]{q} f : sProp 𝕄) = ℓ ↦[J]{q} f := by subst h; rfl

omit [FloatOps F] in
theorem W_insert {W W' : Waits sig (HIx 3)} (h : ∀ p ∈ W', p ∈ W ∨ p.2 = none) (sm : SemLoc sig) :
    ∀ p ∈ insert (sm, (default : HIx 3)) W', p ∈ W ∨ p.2 = none := by
  intro p hp
  rcases Finset.mem_insert.mp hp with rfl | hp
  · exact .inr rfl
  · exact h p hp

set_option maxHeartbeats 4000000 in
/-- The task of worker `(L 0, L 1)` of device `d`. -/
theorem tile_body3 (hpre : IdxOK m) (O : CellTallies nD τ sig (HIx 3)) (W : Waits sig (HIx 3)) (hO : ∀ g, O g none = 0) :
    iprop(levAts (K (F := F)).L (K (F := F)).lev ∗ emp
        ∗ (reads m GI GJ d (tileShare (cL L) (iL L)) ∗ ∃ f, s3Loc d ↦[rows3 (cL L) (iL L) d]{fullShare} f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__edge_gather L giW (Memref.isWhole_whole _) gjW (Memref.isWhole_whole _) iiW (Memref.isWhole_whole _) jjW (Memref.isWhole_whole _)
            outW (Memref.isWhole_whole _) iiS (Memref.isWhole_whole _) jjS (Memref.isWhole_whole _) ri0 (Memref.isWhole_whole _) ri1 (Memref.isWhole_whole _)
            rj0 (Memref.isWhole_whole _) rj1 (Memref.isWhole_whole _) cc3_scratch6 cc3_scratch7 cc3_scratch8 cc3_scratch9
            cc3_scoped0 cc3_scoped1 cc3_scoped2 cc3_scoped3 cc3_scoped4 cc3_scoped5)
          fun _ => iprop((reads m GI GJ d (tileShare (cL L) (iL L)) ∗ s3Loc d ↦[rows3 (cL L) (iL L) d]{fullShare} S3v m GI GJ d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__edge_gather_eq_skeleton]; unfold cc3__edge_gather_skel
  simp only [k3_part10_eq_skeleton]; unfold k3_part10_skel
  simp only [bind_assoc]
  rw [(K (F := F)).scopedBufs_V facts d (cV L) (jV L), SparseCore.Cfg.scopedSems0_V (Val := Elt F) d (cV L) (jV L), ownSems0_V1, ownBufs_V1]
  unfold reads
  iintro ⟨#Hlv, -, ⟨⟨Hgi, Hgj, Hii, Hjj⟩, %fo, Hout⟩, ⟨⟨%f0, Hb0⟩, ⟨%f1, Hb1⟩, ⟨%f2, Hb2⟩, ⟨%f3, Hb3⟩, ⟨%f4, Hb4⟩, ⟨%f5, Hb5⟩, Hbufs⟩,
    ⟨Hs6, Hs7, Hs8, Hs9, Hc0, Hc1, Hc2, Hc3, Hc4, Hc5, Hsems⟩, HO⟩
  ihave Hmw := ((K (F := F)).mayWaits_none (thr := V d (cV L) (jV L)) hO) $$ Hlv
  ihave Hgi' := (Entails.of_eq (pts_gi (F := F) d L _ _).symm) $$ Hgi
  ihave Hgj' := (Entails.of_eq (pts_gj (F := F) d L _ _).symm) $$ Hgj
  ihave Hii' := (Entails.of_eq (pts_ii (F := F) d L _ _).symm) $$ Hii
  ihave Hjj' := (Entails.of_eq (pts_jj (F := F) d L _ _).symm) $$ Hjj
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  ihave Hb4' := (Entails.of_eq (pts_b4 (F := F) d L _).symm) $$ Hb4
  ihave Hb5' := (Entails.of_eq (pts_b5 (F := F) d L _).symm) $$ Hb5
  sl_exec
  generalize hfI : View.write (Elt F) (iiS).view f0 (tile_body3.sl.dma0 m d L) Finset.univ = fI
  generalize hfJ : View.write (Elt F) (jjS).view f1 (tile_body3.sl.dma0_1 m d L) Finset.univ = fJ
  have hvI : ∀ x : S3200.Idx, (iiS).view.read (Elt F) fI x = m (iiLoc d) (edgeIx 217600 (wb1 L + (x 0).val)) := by
    intro x; subst hfI; exact fetchI_read m d L f0 x
  have hvJ : ∀ x : S3200.Idx, (jjS).view.read (Elt F) fJ x = m (jjLoc d) (edgeIx 217600 (wb1 L + (x 0).val)) := by
    intro x; subst hfJ; exact fetchJ_read m d L f1 x
  have hinI : ∀ (R : Rect S3200) (hR : ∀ a, R.stride a = 1) (x : R.shape.Idx), (((iiS).slice R hR).view.read (Elt F) fI x).toNat < 10000 :=
    fetchI_lt m d L hpre fI hvI
  have hinJ : ∀ (R : Rect S3200) (hR : ∀ a, R.stride a = 1) (x : R.shape.Idx), (((jjS).slice R hR).view.read (Elt F) fJ x).toNat < 10000 :=
    fetchJ_lt m d L hpre fJ hvJ
  ihave Hgi2 := ((pointsTo_share (RA.PosShare.mem_left_op_right (tileShare (cL L) (iL L)))).1) $$ Hgi'
  icases Hgi2 with ⟨HgiA, HgiB⟩
  ihave Hgj2 := ((pointsTo_share (RA.PosShare.mem_left_op_right (tileShare (cL L) (iL L)))).1) $$ Hgj'
  icases Hgj2 with ⟨HgjA, HgjB⟩
  ihave HI2 := ((pointsTo_share (RA.PosShare.mem_left_op_right fullShare)).1) $$ Hb0'
  icases HI2 with ⟨HIA, HIB⟩
  ihave HJ2 := ((pointsTo_share (RA.PosShare.mem_left_op_right fullShare)).1) $$ Hb1'
  icases HJ2 with ⟨HJA, HJB⟩
  sl_exec
  sl_for (inv1 m GI GJ d L O W fo fI fJ) $$ [Hmw Hs6 Hb2' HgiA HIA Hs8 Hb4' HgjA HJA HgiB HgjB HIB HJB Hb3' Hb5' Hs7 Hs9 Hc2 Hc3 Hout HO]
  case region =>
    intro k _
    unfold inv1
    iintro ⟨#Hmw, ⟨%gA, %hgA, Hfl6, Hr2⟩, HgiA, HIA, ⟨%gB, %hgB, Hfl8, Hr4⟩, HgjA, HJA, HgiB, HgjB, HIB, HJB, ⟨%f3', Hb3⟩, ⟨%f5', Hb5⟩,
      Hs7, Hs9, Hc2, Hc3, Hdone, Hrem, %W', %hW', HO⟩
    sl_exec
    sl_for (invRow d L (ri0) (rj0) gA gB) $$ [Hr2 Hr4]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri0).view g (fun y => (ri0).view.read (Elt F) gA y) (fun y => (rj0).view.read (Elt F) gB y) r.val hg _ ?hcov ?hpay
          case hcov =>
            intro y
            simp only [List.mem_cons, List.not_mem_nil, _root_.or_false, exists_eq_or_imp, exists_eq_left, Rect.mem_set_unit,
              k3_off3_eq, k3_off4_eq, k3_off5_eq, k3_off6_eq, k3_off7_eq, k3_off8_eq, k3_off9_eq, k3_off10_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hr2]
      · iexists _
        isplitr
        swap
        · iexact Hr2
        · ipureintro; intro y; rw [if_neg (Nat.not_lt_zero _)]
      · iexact Hr4
    iintro %_ HI
    unfold invRow
    icases HI with ⟨⟨%gS, %hgS, Hri⟩, Hrj⟩
    have ht2 : Scf.trips k3_t2_loop.lb k3_t2_loop.ub k3_t2_loop.st = 200 := by decide
    have ht3 : Scf.trips k3_t3_loop.lb k3_t3_loop.ub k3_t3_loop.st = 200 := by decide
    have hk8 : k.val < 7 := lt_of_lt_of_le k.isLt k3_t1_abs.2.1
    have hch0 : ch0 k.val = 2 * k.val := by unfold ch0; omega
    have hsum0 : ∀ y, (ri0).view.read (Elt F) gS y = FloatOps.addf (VI GI d L fI (2 * k.val) y) (VJ GJ d L fJ (2 * k.val) y) := by
      intro y; rw [hgS y, ht2, if_pos (show (y 0).val < 200 from (y 0).isLt), hgA y, hgB y, hch0]
    ihave Hrem2 := (Entails.of_eq (congrArg (fun S => ((outW).view.loc 𝓽 ↦[S]{fullShare} fo : sProp 𝕄)) (remSet_split d L (400 * k.val) (by omega)))) $$ Hrem
    ihave Hrem3 := ((pointsTo_union (chunk_rem_disj d L (400 * k.val))).1) $$ Hrem2
    icases Hrem3 with ⟨Hch, Hrem⟩
    ihave Hch' := (Entails.of_eq (pts_chunk (F := F) d L (k3_off11 L k) (k3_off11_inb L k) (fun _ => rfl) (400 * k.val) (by rw [k3_off11_eq, wb1]) fo).symm) $$ Hch
    sl_exec
    ihave Hch2 := (Entails.of_eq (pts_chunk (F := F) d L (k3_off11 L k) (k3_off11_inb L k) (fun _ => rfl) (400 * k.val) (by rw [k3_off11_eq, wb1]) _)) $$ Hch'
    ihave Hch2' := (pts_exists (F := F) _ fullShare _) $$ Hch2
    icases Hch2' with ⟨%C, %hC, Hch2⟩
    have hCv : ∀ i ∈ chunkSet d L (400 * k.val), C i = S3v m GI GJ d i := by
      subst hC
      have hset : chunkSet d L (400 * k.val) = chunkSet d L (200 * (2 * k.val)) := by congr 1 <;> omega
      rw [hset]
      exact out_val m GI GJ d L (k3_off11 L k) (k3_off11_inb L k) (fun _ => rfl) (2 * k.val) (by omega) (by rw [k3_off11_eq, wb1]; congr 2; omega) fI fJ hvI hvJ _ hsum0 _
    ihave Hch3 := (Entails.of_eq (pointsTo_congr hCv)) $$ Hch2
    ihave Hdone2 := ((pointsTo_union (done_chunk_disj d L (400 * k.val))).2) $$ [Hdone Hch3]
    · isplitl [Hdone]; · iexact Hdone
      iexact Hch3
    ihave Hdone := (Entails.of_eq (congrArg (fun S => ((outW).view.loc 𝓽 ↦[S]{fullShare} S3v m GI GJ d : sProp 𝕄)) (doneSet_step d L (400 * k.val)).symm)) $$ Hdone2
    ihave HA1 := (pts_exists (F := F) _ fullShare _) $$ Hb3
    icases HA1 with ⟨%gA1, %hA1, Hb3⟩
    ihave HB1 := (pts_exists (F := F) _ fullShare _) $$ Hb5
    icases HB1 with ⟨%gB1, %hB1, Hb5⟩
    sl_for (invRow d L (ri1) (rj1) gA1 gB1) $$ [Hb3 Hb5]
    case region =>
      intro r _
      unfold invRow
      iintro ⟨⟨%g, %hg, Hri⟩, Hrj⟩
      sl_exec
      sl_step
      isplitl [Hri]
      · iexists _
        isplitr
        swap
        · iexact Hri
        · ipureintro
          refine rowadd_step (ri1).view g (fun y => (ri1).view.read (Elt F) gA1 y) (fun y => (rj1).view.read (Elt F) gB1 y) r.val hg _ ?hcov ?hpay
          case hcov =>
            intro y
            simp only [List.mem_cons, List.not_mem_nil, _root_.or_false, exists_eq_or_imp, exists_eq_left, Rect.mem_set_unit,
              k3_off12_eq, k3_off13_eq, k3_off14_eq, k3_off15_eq, k3_off16_eq, k3_off17_eq, k3_off18_eq, k3_off19_eq, Fin.forall_fin_two]
            have h1 : (y 1).val < 128 := (y 1).isLt
            simp only [Matrix.cons_val_zero, Matrix.cons_val_one, Matrix.head_cons, Matrix.cons_val_fin_one]
            omega
          case hpay =>
            intro p hp
            simp only [List.mem_cons, List.not_mem_nil, _root_.or_false] at hp
            rcases hp with rfl | rfl | rfl | rfl | rfl | rfl | rfl | rfl <;> intro x
            all_goals exact congrFun (pay_eq _ _ _ _) x
      · iexact Hrj
    · unfold invRow
      isplitl [Hb3]
      · iexists _
        isplitr
        swap
        · iexact Hb3
        · ipureintro; intro y; rw [if_neg (Nat.not_lt_zero _)]
      · iexact Hb5
    iintro %_ HI
    unfold invRow
    icases HI with ⟨⟨%gS1, %hgS1, Hri1⟩, Hrj1⟩
    have hoff1 : k3_off2 k 1#32 = ![200 * (2 * k.val + 1)] := by
      rw [show (1#32 : BitVec 32) = BitVec.ofNat 32 (1 + (0 : Fin 2).val) from rfl, k3_off2_eq k 0]
      show ![400 * k.val + 200 * 0 + 200] = _
      congr 1; omega
    have hoff2 : k3_off2 k 2#32 = ![200 * min (ch0 (k.val + 1)) 15] := by
      rw [show (2#32 : BitVec 32) = BitVec.ofNat 32 (1 + (1 : Fin 2).val) from rfl, k3_off2_eq k 1]
      show ![400 * k.val + 200 * 1 + 200] = _
      unfold ch0; congr 1; omega
    have hgA1 : ∀ y, (ri1).view.read (Elt F) gA1 y = VI GI d L fI (2 * k.val + 1) y := by
      subst hA1
      intro y
      exact gath_valI GI d L (k3_off2 k 1#32) (k3_off2_inb k 0) (fun _ => rfl) (2 * k.val + 1) (by omega) hoff1 fI (hinI _ _) rfl (ri1).view _ y
    have hgB1 : ∀ y, (rj1).view.read (Elt F) gB1 y = VJ GJ d L fJ (2 * k.val + 1) y := by
      subst hB1
      intro y
      exact gath_valJ GJ d L (k3_off2 k 1#32) (k3_off2_inb k 0) (fun _ => rfl) (2 * k.val + 1) (by omega) hoff1 fJ (hinJ _ _) rfl (rj1).view _ y
    have hsum1 : ∀ y, (ri1).view.read (Elt F) gS1 y = FloatOps.addf (VI GI d L fI (2 * k.val + 1) y) (VJ GJ d L fJ (2 * k.val + 1) y) := by
      intro y; rw [hgS1 y, ht3, if_pos (show (y 0).val < 200 from (y 0).isLt), hgA1 y, hgB1 y]
    ihave Hrem2 := (Entails.of_eq (congrArg (fun S => ((outW).view.loc 𝓽 ↦[S]{fullShare} fo : sProp 𝕄)) (remSet_split d L (400 * k.val + 200) (by omega)))) $$ Hrem
    ihave Hrem3 := ((pointsTo_union (chunk_rem_disj d L (400 * k.val + 200))).1) $$ Hrem2
    icases Hrem3 with ⟨Hch, Hrem⟩
    ihave Hch' := (Entails.of_eq (pts_chunk (F := F) d L (k3_off20 L k) (k3_off20_inb L k) (fun _ => rfl) (400 * k.val + 200) (by rw [k3_off20_eq, wb1, Nat.add_assoc]) fo).symm) $$ Hch
    sl_exec
    ihave Hch2 := (Entails.of_eq (pts_chunk (F := F) d L (k3_off20 L k) (k3_off20_inb L k) (fun _ => rfl) (400 * k.val + 200) (by rw [k3_off20_eq, wb1, Nat.add_assoc]) _)) $$ Hch'
    ihave Hch2' := (pts_exists (F := F) _ fullShare _) $$ Hch2
    icases Hch2' with ⟨%C, %hC, Hch2⟩
    have hCv : ∀ i ∈ chunkSet d L (400 * k.val + 200), C i = S3v m GI GJ d i := by
      subst hC
      have hset : chunkSet d L (400 * k.val + 200) = chunkSet d L (200 * (2 * k.val + 1)) := by congr 1 <;> omega
      rw [hset]
      exact out_val m GI GJ d L (k3_off20 L k) (k3_off20_inb L k) (fun _ => rfl) (2 * k.val + 1) (by omega) (by rw [k3_off20_eq, wb1, Nat.add_assoc]; congr 2; omega) fI fJ hvI hvJ _ hsum1 _
    ihave Hch3 := (Entails.of_eq (pointsTo_congr hCv)) $$ Hch2
    ihave Hdone2 := ((pointsTo_union (done_chunk_disj d L (400 * k.val + 200))).2) $$ [Hdone Hch3]
    · isplitl [Hdone]; · iexact Hdone
      iexact Hch3
    ihave Hdone := (Entails.of_eq (congrArg (fun S => ((outW).view.loc 𝓽 ↦[S]{fullShare} S3v m GI GJ d : sProp 𝕄)) (doneSet_step d L (400 * k.val + 200)).symm)) $$ Hdone2
    sl_step
    have hsetI : ((iiS).slice (LR (ch0 (k.val + 1))) (fun _ => rfl)).view.set
        = ((iiS).slice (Rect.unit (k3_off2 k 2#32) S200.size (k3_off2_inb k 1)) (fun _ => rfl)).view.set :=
      slice_set_congr (iiS) S200.size _ _ _ _ hoff2.symm
    have hsetJ : ((jjS).slice (LR (ch0 (k.val + 1))) (fun _ => rfl)).view.set
        = ((jjS).slice (Rect.unit (k3_off2 k 2#32) S200.size (k3_off2_inb k 1)) (fun _ => rfl)).view.set :=
      slice_set_congr (jjS) S200.size _ _ _ _ hoff2.symm
    irw [hsetI, hsetJ, show 400 * (k.val + 1) = 400 * k.val + 200 + 200 by omega]
    isplitr; · iexact Hmw
    isplitl [Hfl6 Hri]
    · iexists _
      isplitr
      swap
      · isplitl [Hfl6]; · iexact Hfl6
        iexact Hri
      · ipureintro
        intro y
        exact gath_valI GI d L (k3_off2 k 2#32) (k3_off2_inb k 1) (fun _ => rfl) (ch0 (k.val + 1)) (by unfold ch0; omega) (by rw [hoff2]; unfold ch0; congr 1; omega) fI (hinI _ _) rfl (ri0).view _ y
    isplitl [HgiA]; · iexact HgiA
    isplitl [HIA]; · iexact HIA
    isplitl [Hfl8 Hrj]
    · iexists _
      isplitr
      swap
      · isplitl [Hfl8]; · iexact Hfl8
        iexact Hrj
      · ipureintro
        intro y
        exact gath_valJ GJ d L (k3_off2 k 2#32) (k3_off2_inb k 1) (fun _ => rfl) (ch0 (k.val + 1)) (by unfold ch0; omega) (by rw [hoff2]; unfold ch0; congr 1; omega) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hri1]; · iexists _; iexact Hri1
    isplitl [Hrj1]; · iexists _; iexact Hrj1
    isplitl [Hs7]; · iexact Hs7
    isplitl [Hs9]; · iexact Hs9
    isplitl [Hc2]; · iexact Hc2
    isplitl [Hc3]; · iexact Hc3
    isplitl [Hdone]; · iexact Hdone
    isplitl [Hrem]; · iexact Hrem
    iexists _; isplitr
    swap
    · iexact HO
    · ipureintro
      repeat (first | exact hW' | apply W_insert)
  · unfold inv1
    have hset0I : ((iiS).slice (LR (ch0 0)) (fun _ => rfl)).view.set
        = ((iiS).slice (Rect.unit ![0] S200.size inb_S3200_S200_0) (fun _ => rfl)).view.set :=
      slice_set_congr (iiS) S200.size _ _ _ _ (by simp [ch0])
    have hset0J : ((jjS).slice (LR (ch0 0)) (fun _ => rfl)).view.set
        = ((jjS).slice (Rect.unit ![0] S200.size inb_S3200_S200_0) (fun _ => rfl)).view.set :=
      slice_set_congr (jjS) S200.size _ _ _ _ (by simp [ch0])
    irw [hset0I, hset0J, Nat.mul_zero, doneSet_zero, remSet_zero, pointsTo_empty]
    isplitr; · iexact Hmw
    isplitl [Hs6 Hb2']
    · iexists _
      isplitr
      swap
      · isplitl [Hs6]; · iexact Hs6
        iexact Hb2'
      · ipureintro
        intro y
        exact gath_valI GI d L (![0]) (inb_S3200_S200_0) (fun _ => rfl) (ch0 0) (by unfold ch0; omega) (by simp [ch0]) fI (hinI _ _) rfl (ri0).view _ y
    isplitl [HgiA]; · iexact HgiA
    isplitl [HIA]; · iexact HIA
    isplitl [Hs8 Hb4']
    · iexists _
      isplitr
      swap
      · isplitl [Hs8]; · iexact Hs8
        iexact Hb4'
      · ipureintro
        intro y
        exact gath_valJ GJ d L (![0]) (inb_S3200_S200_0) (fun _ => rfl) (ch0 0) (by unfold ch0; omega) (by simp [ch0]) fJ (hinJ _ _) rfl (rj0).view _ y
    isplitl [HgjA]; · iexact HgjA
    isplitl [HJA]; · iexact HJA
    isplitl [HgiB]; · iexact HgiB
    isplitl [HgjB]; · iexact HgjB
    isplitl [HIB]; · iexact HIB
    isplitl [HJB]; · iexact HJB
    isplitl [Hb3']; · iexists _; iexact Hb3'
    isplitl [Hb5']; · iexists _; iexact Hb5'
    isplitl [Hs7]; · iexact Hs7
    isplitl [Hs9]; · iexact Hs9
    isplitl [Hc2]; · iexact Hc2
    isplitl [Hc3]; · iexact Hc3
    isplitl []; · iempintro
    isplitl [Hout]; · iexact Hout
    iexists _; isplitr
    swap
    · iexact HO
    · ipureintro
      repeat (first | exact (fun p hp => Or.inl hp) | apply W_insert)
  have ht1 : Scf.trips k3_t1_loop.lb k3_t1_loop.ub k3_t1_loop.st = 7 := by decide
  rw [ht1]
  iintro %_ HI
  unfold inv1
  icases HI with ⟨-, ⟨%gA, %hgA, Hfl6, Hr2⟩, HgiA, HIA, ⟨%gB, %hgB, Hfl8, Hr4⟩, HgjA, HJA, HgiB, HgjB, HIB, HJB, ⟨%f3', Hb3⟩, ⟨%f5', Hb5⟩,
    Hs7, Hs9, Hc2, Hc3, Hdone, Hrem, %W', %hW', HO⟩
  sl_exec
  sl_for (invRow d L (ri0) (rj0) gA gB) $$ [Hr2 Hr4]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri0).view g (fun y => (ri0).view.read (Elt F) gA y) (fun y => (rj0).view.read (Elt F) gB y) r.val hg _ ?hcov ?hpay
        case hcov =>
          intro y
          simp only [List.mem_cons, List.not_mem_nil, _root_.or_false, exists_eq_or_imp, exists_eq_left, Rect.mem_set_unit,
            k3_off21_eq, k3_off22_eq, k3_off23_eq, k3_off24_eq, k3_off25_eq, k3_off26_eq, k3_off27_eq, k3_off28_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hr2]
    · iexists _
      isplitr
      swap
      · iexact Hr2
      · ipureintro; intro y; rw [if_neg (Nat.not_lt_zero _)]
    · iexact Hr4
  iintro %_ HI
  unfold invRow
  icases HI with ⟨⟨%gS, %hgS, Hri⟩, Hrj⟩
  have ht4 : Scf.trips k3_t4_loop.lb k3_t4_loop.ub k3_t4_loop.st = 200 := by decide
  have ht5 : Scf.trips k3_t5_loop.lb k3_t5_loop.ub k3_t5_loop.st = 200 := by decide
  have hch7 : ch0 7 = 14 := by decide
  have hsum14 : ∀ y, (ri0).view.read (Elt F) gS y = FloatOps.addf (VI GI d L fI 14 y) (VJ GJ d L fJ 14 y) := by
    intro y; rw [hgS y, ht4, if_pos (show (y 0).val < 200 from (y 0).isLt), hgA y, hgB y, hch7]
  ihave Hrem2 := (Entails.of_eq (congrArg (fun S => ((outW).view.loc 𝓽 ↦[S]{fullShare} fo : sProp 𝕄)) (remSet_split d L (400 * 7) (by omega)))) $$ Hrem
  ihave Hrem3 := ((pointsTo_union (chunk_rem_disj d L (400 * 7))).1) $$ Hrem2
  icases Hrem3 with ⟨Hch, Hrem⟩
  ihave Hch' := (Entails.of_eq (pts_chunk (F := F) d L (k3_off29 L 2800#32) (k3_off29_inb L 0) (fun _ => rfl) (400 * 7) (by rw [show (2800#32 : BitVec 32) = BitVec.ofNat 32 (2800 + 200 * (0 : Fin 2).val) from rfl, k3_off29_eq L 0, wb1]; first | rfl | (congr 1; try simp only [Fin.val_one, Fin.val_zero]; omega)) fo).symm) $$ Hch
  sl_exec
  ihave Hch2 := (Entails.of_eq (pts_chunk (F := F) d L (k3_off29 L 2800#32) (k3_off29_inb L 0) (fun _ => rfl) (400 * 7) (by rw [show (2800#32 : BitVec 32) = BitVec.ofNat 32 (2800 + 200 * (0 : Fin 2).val) from rfl, k3_off29_eq L 0, wb1]; first | rfl | (congr 1; try simp only [Fin.val_one, Fin.val_zero]; omega)) _)) $$ Hch'
  ihave Hch2' := (pts_exists (F := F) _ fullShare _) $$ Hch2
  icases Hch2' with ⟨%C, %hC, Hch2⟩
  have hCv : ∀ i ∈ chunkSet d L (400 * 7), C i = S3v m GI GJ d i := by
    subst hC
    have hset : chunkSet d L (400 * 7) = chunkSet d L (200 * (14)) := by congr 1 <;> omega
    rw [hset]
    exact out_val m GI GJ d L (k3_off29 L 2800#32) (k3_off29_inb L 0) (fun _ => rfl) (14) (by omega) (by (rw [show (2800#32 : BitVec 32) = BitVec.ofNat 32 (2800 + 200 * (0 : Fin 2).val) from rfl, k3_off29_eq L 0, wb1]; first | rfl | (congr 1; try simp only [Fin.val_one, Fin.val_zero]; omega)) <;> (first | rfl | (congr 2; omega))) fI fJ hvI hvJ _ hsum14 _
  ihave Hch3 := (Entails.of_eq (pointsTo_congr hCv)) $$ Hch2
  ihave Hdone2 := ((pointsTo_union (done_chunk_disj d L (400 * 7))).2) $$ [Hdone Hch3]
  · isplitl [Hdone]; · iexact Hdone
    iexact Hch3
  ihave Hdone := (Entails.of_eq (congrArg (fun S => ((outW).view.loc 𝓽 ↦[S]{fullShare} S3v m GI GJ d : sProp 𝕄)) (doneSet_step d L (400 * 7)).symm)) $$ Hdone2
  ihave HA1 := (pts_exists (F := F) _ fullShare _) $$ Hb3
  icases HA1 with ⟨%gA1, %hA1, Hb3⟩
  ihave HB1 := (pts_exists (F := F) _ fullShare _) $$ Hb5
  icases HB1 with ⟨%gB1, %hB1, Hb5⟩
  sl_for (invRow d L (ri1) (rj1) gA1 gB1) $$ [Hb3 Hb5]
  case region =>
    intro r _
    unfold invRow
    iintro ⟨⟨%g, %hg, Hri⟩, Hrj⟩
    sl_exec
    sl_step
    isplitl [Hri]
    · iexists _
      isplitr
      swap
      · iexact Hri
      · ipureintro
        refine rowadd_step (ri1).view g (fun y => (ri1).view.read (Elt F) gA1 y) (fun y => (rj1).view.read (Elt F) gB1 y) r.val hg _ ?hcov ?hpay
        case hcov =>
          intro y
          simp only [List.mem_cons, List.not_mem_nil, _root_.or_false, exists_eq_or_imp, exists_eq_left, Rect.mem_set_unit,
            k3_off30_eq, k3_off31_eq, k3_off32_eq, k3_off33_eq, k3_off34_eq, k3_off35_eq, k3_off36_eq, k3_off37_eq, Fin.forall_fin_two]
          have h1 : (y 1).val < 128 := (y 1).isLt
          simp only [Matrix.cons_val_zero, Matrix.cons_val_one, Matrix.head_cons, Matrix.cons_val_fin_one]
          omega
        case hpay =>
          intro p hp
          simp only [List.mem_cons, List.not_mem_nil, _root_.or_false] at hp
          rcases hp with rfl | rfl | rfl | rfl | rfl | rfl | rfl | rfl <;> intro x
          all_goals exact congrFun (pay_eq _ _ _ _) x
    · iexact Hrj
  · unfold invRow
    isplitl [Hb3]
    · iexists _
      isplitr
      swap
      · iexact Hb3
      · ipureintro; intro y; rw [if_neg (Nat.not_lt_zero _)]
    · iexact Hb5
  iintro %_ HI
  unfold invRow
  icases HI with ⟨⟨%gS1, %hgS1, Hri1⟩, Hrj1⟩
  have hgA1 : ∀ y, (ri1).view.read (Elt F) gA1 y = VI GI d L fI 15 y := by
    subst hA1
    intro y
    exact gath_valI GI d L (![3000]) inb_S3200_S200_3000 (fun _ => rfl) 15 (by omega) rfl fI (hinI _ _) rfl (ri1).view _ y
  have hgB1 : ∀ y, (rj1).view.read (Elt F) gB1 y = VJ GJ d L fJ 15 y := by
    subst hB1
    intro y
    exact gath_valJ GJ d L (![3000]) inb_S3200_S200_3000 (fun _ => rfl) 15 (by omega) rfl fJ (hinJ _ _) rfl (rj1).view _ y
  have hsum15 : ∀ y, (ri1).view.read (Elt F) gS1 y = FloatOps.addf (VI GI d L fI 15 y) (VJ GJ d L fJ 15 y) := by
    intro y; rw [hgS1 y, ht5, if_pos (show (y 0).val < 200 from (y 0).isLt), hgA1 y, hgB1 y]
  ihave Hrem2 := (Entails.of_eq (congrArg (fun S => ((outW).view.loc 𝓽 ↦[S]{fullShare} fo : sProp 𝕄)) (remSet_split d L (400 * 7 + 200) (by omega)))) $$ Hrem
  ihave Hrem3 := ((pointsTo_union (chunk_rem_disj d L (400 * 7 + 200))).1) $$ Hrem2
  icases Hrem3 with ⟨Hch, Hrem⟩
  ihave Hch' := (Entails.of_eq (pts_chunk (F := F) d L (k3_off29 L 3000#32) (k3_off29_inb L 1) (fun _ => rfl) (400 * 7 + 200) (by rw [show (3000#32 : BitVec 32) = BitVec.ofNat 32 (2800 + 200 * (1 : Fin 2).val) from rfl, k3_off29_eq L 1, wb1]; first | rfl | (congr 1; try simp only [Fin.val_one, Fin.val_zero]; omega)) fo).symm) $$ Hch
  sl_exec
  ihave Hch2 := (Entails.of_eq (pts_chunk (F := F) d L (k3_off29 L 3000#32) (k3_off29_inb L 1) (fun _ => rfl) (400 * 7 + 200) (by rw [show (3000#32 : BitVec 32) = BitVec.ofNat 32 (2800 + 200 * (1 : Fin 2).val) from rfl, k3_off29_eq L 1, wb1]; first | rfl | (congr 1; try simp only [Fin.val_one, Fin.val_zero]; omega)) _)) $$ Hch'
  ihave Hch2' := (pts_exists (F := F) _ fullShare _) $$ Hch2
  icases Hch2' with ⟨%C, %hC, Hch2⟩
  have hCv : ∀ i ∈ chunkSet d L (400 * 7 + 200), C i = S3v m GI GJ d i := by
    subst hC
    have hset : chunkSet d L (400 * 7 + 200) = chunkSet d L (200 * (15)) := by congr 1 <;> omega
    rw [hset]
    exact out_val m GI GJ d L (k3_off29 L 3000#32) (k3_off29_inb L 1) (fun _ => rfl) (15) (by omega) (by (rw [show (3000#32 : BitVec 32) = BitVec.ofNat 32 (2800 + 200 * (1 : Fin 2).val) from rfl, k3_off29_eq L 1, wb1]; first | rfl | (congr 1; try simp only [Fin.val_one, Fin.val_zero]; omega)) <;> (first | rfl | (congr 2; omega))) fI fJ hvI hvJ _ hsum15 _
  ihave Hch3 := (Entails.of_eq (pointsTo_congr hCv)) $$ Hch2
  ihave Hdone2 := ((pointsTo_union (done_chunk_disj d L (400 * 7 + 200))).2) $$ [Hdone Hch3]
  · isplitl [Hdone]; · iexact Hdone
    iexact Hch3
  ihave Hdone := (Entails.of_eq (congrArg (fun S => ((outW).view.loc 𝓽 ↦[S]{fullShare} S3v m GI GJ d : sProp 𝕄)) (doneSet_step d L (400 * 7 + 200)).symm)) $$ Hdone2
  sl_step
  ihave Hd := (Entails.of_eq (congrArg (fun S => ((outW).view.loc 𝓽 ↦[S]{fullShare} S3v m GI GJ d : sProp 𝕄)) (doneSet_end d L))) $$ Hdone
  ihave He := (Entails.of_eq ((congrArg (fun S => ((outW).view.loc 𝓽 ↦[S]{fullShare} fo : sProp 𝕄)) (remSet_end d L)).trans pointsTo_empty)) $$ Hrem
  ihave Hgi := ((pointsTo_share (RA.PosShare.mem_left_op_right (tileShare (cL L) (iL L)))).2) $$ [HgiA HgiB]
  · isplitl [HgiA]; · iexact HgiA
    iexact HgiB
  ihave Hgj := ((pointsTo_share (RA.PosShare.mem_left_op_right (tileShare (cL L) (iL L)))).2) $$ [HgjA HgjB]
  · isplitl [HgjA]; · iexact HgjA
    iexact HgjB
  ihave HI := ((pointsTo_share (RA.PosShare.mem_left_op_right fullShare)).2) $$ [HIA HIB]
  · isplitl [HIA]; · iexact HIA
    iexact HIB
  ihave HJ := ((pointsTo_share (RA.PosShare.mem_left_op_right fullShare)).2) $$ [HJA HJB]
  · isplitl [HJA]; · iexact HJA
    iexact HJB
  isplitl [Hgi Hgj Hii' Hjj' Hd]
  · isplitl [Hgi Hgj Hii' Hjj']
    · isplitl [Hgi]; · iapply (Entails.of_eq (pts_gi (F := F) d L _ _)); iexact Hgi
      isplitl [Hgj]; · iapply (Entails.of_eq (pts_gj (F := F) d L _ _)); iexact Hgj
      isplitl [Hii']; · iapply (Entails.of_eq (pts_ii (F := F) d L _ _)); iexact Hii'
      iapply (Entails.of_eq (pts_jj (F := F) d L _ _)); iexact Hjj'
    · iapply (Entails.of_eq (pts_out (F := F) d L _ _)); iexact Hd
  isplitl [HI HJ Hri Hri1 Hrj Hrj1 Hbufs]
  · isplitl [HI]; · iexists _; iapply (Entails.of_eq (pts_b0 (F := F) d L _)); iexact HI
    isplitl [HJ]; · iexists _; iapply (Entails.of_eq (pts_b1 (F := F) d L _)); iexact HJ
    isplitl [Hri]; · iexists _; iapply (Entails.of_eq (pts_b2 (F := F) d L _)); iexact Hri
    isplitl [Hri1]; · iexists _; iapply (Entails.of_eq (pts_b3 (F := F) d L _)); iexact Hri1
    isplitl [Hrj]; · iexists _; iapply (Entails.of_eq (pts_b4 (F := F) d L _)); iexact Hrj
    isplitl [Hrj1]; · iexists _; iapply (Entails.of_eq (pts_b5 (F := F) d L _)); iexact Hrj1
    iexact Hbufs
  isplitl [Hfl6 Hs7 Hfl8 Hs9 Hc0 Hc1 Hc2 Hc3 Hc4 Hc5 Hsems]
  · isplitl [Hfl6]; · iexact Hfl6
    isplitl [Hs7]; · iexact Hs7
    isplitl [Hfl8]; · iexact Hfl8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap
  · iexact HO
  · ipureintro
    repeat (first | exact hW' | apply W_insert)

end Tile

/-! ## The launch theorem's obligation -/

def coordsV1 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 3 ()
      = SparseCore.onTile hcore3 hsub3 (fun c s => cc3__edge_gather (coordsV1 c s)
          giW (Memref.isWhole_whole _) gjW (Memref.isWhole_whole _) iiW (Memref.isWhole_whole _) jjW (Memref.isWhole_whole _)
          outW (Memref.isWhole_whole _) iiS (Memref.isWhole_whole _) jjS (Memref.isWhole_whole _) ri0 (Memref.isWhole_whole _) ri1 (Memref.isWhole_whole _)
          rj0 (Memref.isWhole_whole _) rj1 (Memref.isWhole_whole _) cc3_scratch6 cc3_scratch7 cc3_scratch8 cc3_scratch9
          cc3_scoped0 cc3_scoped1 cc3_scoped2 cc3_scoped3 cc3_scoped4 cc3_scoped5) ⟨⟩ c s := rfl

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_2 (hpre : IdxOK m) : (K (F := F)).TileObl (D (F := F)) 𝒱 (P m GI GJ) v₀ 2 := by
  intro d c i O W hO _ _
  simp only [show (P m GI GJ).ox = fun _ _ => 0 from rfl, add_zero]
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  have hc : ((K (F := F)).core 2 c).val < grid3.bound 0 ∧ ((K (F := F)).sub 2 i).val < grid3.bound 1 := ⟨c.isLt, i.isLt⟩
  rw [defs₀_vector1]; simp only [SparseCore.onTile, hc, and_self, ↓reduceDIte]
  exact (tile_body3 m GI GJ d (coordsV1 ⟨_, hc.1⟩ ⟨_, hc.2⟩) hpre O W hO).trans (wp_mono frame _ _ fun _ => obl_post)

end Cert.Proof.KB.T3

end
-- ==== Proof.ValueChain.lean ====
/-
  What the two result arrays hold when @main ends, traced back through the valuations: the embeddings' array is written
  by the first stage only; the messages' array is the last stage's, whose rows outside its own band are the copy of the
  second stage's, whose rows outside its band are the copy of the first's. And what each stage finds in the arrays it
  reads: the host operations' results on the launch memory and the gather-and-add calls' values.
-/
import proofs.«206539_g3985729650836_cont_8to1_b_247_13_alg».proof.Proof.RegionGlue

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

variable {F : FTy → Type} [FloatOps F]

local notation "𝕄" => MT nD τ sig (HIx 3) (Elt F) ℕ UU ℕ

variable (m : (ℓ : Loc nD τ sig) → Buf (Elt F) ℓ) (ρ : Dev nD → PrngReg)

/-! ## A stage's output arrays after it -/

theorem Rg0_h (d : Dev nD) (W : Valuation τ sig (Elt F)) : Rg0 (F := F) d W h' = H0 (toV W) d :=
  Pipeline.withArrays_arr spec0 launch0.win.arr_inj d W _ 3
theorem Rg0_gi (d : Dev nD) (W : Valuation τ sig (Elt F)) : Rg0 (F := F) d W gi' = GI0 (toV W) d :=
  Pipeline.withArrays_arr spec0 launch0.win.arr_inj d W _ 4
theorem Rg0_gj (d : Dev nD) (W : Valuation τ sig (Elt F)) : Rg0 (F := F) d W gj' = GJ0 (toV W) d :=
  Pipeline.withArrays_arr spec0 launch0.win.arr_inj d W _ 5
theorem Rg1_m1 (d : Dev nD) (W : Valuation τ sig (Elt F)) : Rg1 (F := F) d W m1' = M1 (toV W) d :=
  Pipeline.withArrays_arr spec4 launch4.win.arr_inj d W _ 4
theorem Rg2_m2 (d : Dev nD) (W : Valuation τ sig (Elt F)) : Rg2 (F := F) d W m2' = M2 (toV W) d :=
  Pipeline.withArrays_arr spec5 launch5.win.arr_inj d W _ 4
theorem Rg3_out (d : Dev nD) (W : Valuation τ sig (Elt F)) : Rg3 (F := F) d W out' = M3 (toV W) d :=
  Pipeline.withArrays_arr spec6 launch6.win.arr_inj d W _ 4

/-! ## The valuations of @main at the four stages -/

abbrev V4 (d : Dev nD) : Valuation τ sig (Elt F) := W4 m d
abbrev V10 (d : Dev nD) : Valuation τ sig (Elt F) := W10 m (Rg0 (F := F)) d
abbrev V12 (d : Dev nD) : Valuation τ sig (Elt F) := W12 m (Rg0 (F := F)) (Rg1 (F := F)) d
abbrev V14 (d : Dev nD) : Valuation τ sig (Elt F) := W14 m (Rg0 (F := F)) (Rg1 (F := F)) (Rg2 (F := F)) d
abbrev V15 (d : Dev nD) : Valuation τ sig (Elt F) := W15 m (Rg0 (F := F)) (Rg1 (F := F)) (Rg2 (F := F)) (Rg3 (F := F)) d

/-- The embeddings' array at the end is what the first stage left. -/
theorem V15_h (d : Dev nD) : V15 m d h' = H0 (toV (V4 m d)) d := by
  unfold V15 W15 W14 W13 W12 W11 W10 W9 W8 W7 W5
  rw [regionFrame3 d _ h' (by decide),
    (opCp2 (F := F)).result_of_not_mem _ (b := h') (show h' ∉ ({out'} : Finset (DevRef τ sig)) by decide),
    regionFrame2 d _ h' (by decide),
    (opCp1 (F := F)).result_of_not_mem _ (b := h') (show h' ∉ ({m2'} : Finset (DevRef τ sig)) by decide),
    regionFrame1 d _ h' (by decide),
    Function.update_of_ne (show h' ≠ s3' by decide), Function.update_of_ne (show h' ≠ s2' by decide), Function.update_of_ne (show h' ≠ s1' by decide),
    (opReshB (F := F)).result_of_not_mem _ (b := h') (show h' ∉ ({v4'} : Finset (DevRef τ sig)) by decide),
    (opSlice (F := F)).result_of_not_mem _ (b := h') (show h' ∉ ({v3'} : Finset (DevRef τ sig)) by decide),
    Rg0_h]

/-- The messages' array at the end is what the last stage left. -/
theorem V15_out (d : Dev nD) : V15 m d out' = M3 (toV (V14 m d)) d := Rg3_out d _

/-- The last stage finds, in its output array, the copy of what the second left; -/
theorem V14_out (d : Dev nD) : V14 m d out' = M2 (toV (V12 m d)) d := by
  unfold V14 W14 W13
  rw [show (opCp2 (F := F)).result (Rg2 d (W12 m Rg0 Rg1 d)) out' = Rg2 d (W12 m Rg0 Rg1 d) m2' from StableHlo.unary_result main_v9 main_v10 id _ _ _]
  exact Rg2_m2 d _
/-- the second, the copy of what the first left. -/
theorem V12_m2 (d : Dev nD) : V12 m d m2' = M1 (toV (V10 m d)) d := by
  unfold V12 W12 W11
  rw [show (opCp1 (F := F)).result (Rg1 d (W10 m Rg0 d)) m2' = Rg1 d (W10 m Rg0 d) m1' from StableHlo.unary_result main_v8 main_v9 id _ _ _]
  exact Rg1_m1 d _

/-! ## What the stages read -/

/-- An array no step after the first stage writes holds, at each later stage, what it held after the bias reshape. -/
theorem kept_after7 (d : Dev nD) (b : DevRef τ sig)
    (hb : b ≠ s1' ∧ b ≠ s2' ∧ b ≠ s3' ∧ b ≠ m1' ∧ b ≠ m2' ∧ b ≠ out') :
    V10 m d b = W7 m (Rg0 (F := F)) d b ∧ V12 m d b = W7 m (Rg0 (F := F)) d b ∧ V14 m d b = W7 m (Rg0 (F := F)) d b := by
  obtain ⟨n1, n2, n3, n4, n5, n6⟩ := hb
  have e10 : V10 m d b = W7 m (Rg0 (F := F)) d b := by
    unfold V10 W10 W9 W8
    rw [Function.update_of_ne n3, Function.update_of_ne n2, Function.update_of_ne n1]
  have e12 : V12 m d b = W7 m (Rg0 (F := F)) d b := by
    unfold V12 W12 W11
    rw [(opCp1 (F := F)).result_of_not_mem _ (b := b) (show b ∉ ({m2'} : Finset (DevRef τ sig)) from Finset.notMem_singleton.mpr n5),
      regionFrame1 d _ b (Finset.notMem_singleton.mpr n4)]
    exact e10
  refine ⟨e10, e12, ?_⟩
  unfold V14 W14 W13
  rw [(opCp2 (F := F)).result_of_not_mem _ (b := b) (show b ∉ ({out'} : Finset (DevRef τ sig)) from Finset.notMem_singleton.mpr n6),
    regionFrame2 d _ b (Finset.notMem_singleton.mpr n5)]
  exact e12

/-- The first stage's inputs: `z` as a column, -/
theorem V4_v0 (d : Dev nD) : V4 m d v0' = shapeCast S10000x1 (m (zLoc d)) shapeCasts_S10000_S10000x1 := by
  unfold V4 W4
  rw [(opPad (F := F)).result_of_not_mem _ (b := v0') (show v0' ∉ ({v1'} : Finset (DevRef τ sig)) by decide),
    (opCvt (F := F)).result_of_not_mem _ (b := v0') (show v0' ∉ ({cv0'} : Finset (DevRef τ sig)) by decide),
    (opC (F := F)).result_of_not_mem _ (b := v0') (show v0' ∉ ({c'} : Finset (DevRef τ sig)) by decide)]
  exact StableHlo.reshape_result main_arg0 main_v0 rfl shapeCasts_S10000_S10000x1 _ _ (W0 m d)
/-- the embedding table padded with the converted zero to 128 rows, -/
theorem V4_v1 (d : Dev nD) : V4 m d v1'
    = pad S128x128 ![0, 0] ![35, 0] ![0, 0] (m (embLoc d)) (sitofp (F := F) .f32 (constantI S_ 32 0#32)) pads_S93x128_S128x128_0350_000 h_S_ := by
  unfold V4 W4
  have e1 : (opCvt (F := F)).result ((opC (F := F)).result ((opReshZ (F := F)).result (W0 m d))) emb' = m (embLoc d) := by
    rw [(opCvt (F := F)).result_of_not_mem _ (b := emb') (show emb' ∉ ({cv0'} : Finset (DevRef τ sig)) by decide),
      (opC (F := F)).result_of_not_mem _ (b := emb') (show emb' ∉ ({c'} : Finset (DevRef τ sig)) by decide),
      (opReshZ (F := F)).result_of_not_mem _ (b := emb') (show emb' ∉ ({v0'} : Finset (DevRef τ sig)) by decide)]
    rfl
  have e0 : (opC (F := F)).result ((opReshZ (F := F)).result (W0 m d)) c' = (constantI S_ 32 0#32 : IVec S_ 32) :=
    ((opC (F := F)).result_of_mem _ (b := c') (Finset.mem_singleton_self _)).trans rfl
  have e2 : (opCvt (F := F)).result ((opC (F := F)).result ((opReshZ (F := F)).result (W0 m d))) cv0'
      = sitofp (F := F) .f32 ((opC (F := F)).result ((opReshZ (F := F)).result (W0 m d)) c') :=
    ((opCvt (F := F)).result_of_mem _ (b := cv0') (Finset.mem_singleton_self _)).trans rfl
  have e3 : (opPad (F := F)).result ((opCvt (F := F)).result ((opC (F := F)).result ((opReshZ (F := F)).result (W0 m d)))) v1'
      = pad S128x128 ![0, 0] ![35, 0] ![0, 0]
          (((opCvt (F := F)).result ((opC (F := F)).result ((opReshZ (F := F)).result (W0 m d))) emb' : (⟨S93x128, .f32⟩ : BufTy).Contents (Elt F)))
          (((opCvt (F := F)).result ((opC (F := F)).result ((opReshZ (F := F)).result (W0 m d))) cv0' : (⟨S_, .f32⟩ : BufTy).Contents (Elt F)))
          pads_S93x128_S128x128_0350_000 h_S_ :=
    ((opPad (F := F)).result_of_mem _ (b := v1') (Finset.mem_singleton_self _)).trans rfl
  rw [e3, e1, e2, e0]
/-- the weights. -/
theorem V4_w (d : Dev nD) : V4 m d w' = m (wLoc d) := by
  unfold V4 W4
  rw [(opPad (F := F)).result_of_not_mem _ (b := w') (show w' ∉ ({v1'} : Finset (DevRef τ sig)) by decide),
    (opCvt (F := F)).result_of_not_mem _ (b := w') (show w' ∉ ({cv0'} : Finset (DevRef τ sig)) by decide),
    (opC (F := F)).result_of_not_mem _ (b := w') (show w' ∉ ({c'} : Finset (DevRef τ sig)) by decide),
    (opReshZ (F := F)).result_of_not_mem _ (b := w') (show w' ∉ ({v0'} : Finset (DevRef τ sig)) by decide)]
  rfl

/-- After the bias reshape: the radial features, the last band of the weights, the bias as a row. -/
theorem W7_rbf (d : Dev nD) : W7 m (Rg0 (F := F)) d rbf' = m (rbfLoc d) := W7_arg m regionFrame0 d (by decide)
theorem W7_v3 (d : Dev nD) : W7 m (Rg0 (F := F)) d v3' = extractStridedSlice S128x16 ![0, 256] (m (wLoc d)) slices_S128x272_S128x16_0_256 := by
  unfold W7 W5
  rw [(opReshB (F := F)).result_of_not_mem _ (b := v3') (show v3' ∉ ({v4'} : Finset (DevRef τ sig)) by decide)]
  refine (StableHlo.unary_result main_arg5 main_v3 _ _ _ _).trans ?_
  rw [regionFrame0 d _ w' (by decide), show W4 m d w' = m (wLoc d) from V4_w m d]
theorem W7_v4 (d : Dev nD) : W7 m (Rg0 (F := F)) d v4' = shapeCast S1x128 (m (bLoc d)) shapeCasts_S128_S1x128 := by
  unfold W7 W5
  refine (StableHlo.reshape_result main_arg6 main_v4 rfl shapeCasts_S128_S1x128 _ _ _).trans ?_
  rw [(opSlice (F := F)).result_of_not_mem _ (b := b') (show b' ∉ ({v3'} : Finset (DevRef τ sig)) by decide), regionFrame0 d _ b' (by decide)]
  have := W7_arg m (R0 := Rg0 (F := F)) regionFrame0 d (b := b') (by decide)
  unfold W7 W5 at this
  rw [(opReshB (F := F)).result_of_not_mem _ (b := b') (show b' ∉ ({v4'} : Finset (DevRef τ sig)) by decide),
    (opSlice (F := F)).result_of_not_mem _ (b := b') (show b' ∉ ({v3'} : Finset (DevRef τ sig)) by decide), regionFrame0 d _ b' (by decide)] at this
  rw [this]
  rfl

/-- The node tables the calls read are what the first stage left. -/
theorem GIv_eq (d : Dev nD) : GIv m (Rg0 (F := F)) d = GI0 (toV (V4 m d)) d := by
  unfold GIv W7 W5
  rw [(opReshB (F := F)).result_of_not_mem _ (b := gi') (show gi' ∉ ({v4'} : Finset (DevRef τ sig)) by decide),
    (opSlice (F := F)).result_of_not_mem _ (b := gi') (show gi' ∉ ({v3'} : Finset (DevRef τ sig)) by decide)]
  exact Rg0_gi d _
theorem GJv_eq (d : Dev nD) : GJv m (Rg0 (F := F)) d = GJ0 (toV (V4 m d)) d := by
  unfold GJv W7 W5
  rw [(opReshB (F := F)).result_of_not_mem _ (b := gj') (show gj' ∉ ({v4'} : Finset (DevRef τ sig)) by decide),
    (opSlice (F := F)).result_of_not_mem _ (b := gj') (show gj' ∉ ({v3'} : Finset (DevRef τ sig)) by decide)]
  exact Rg0_gj d _

/-- The gathered sums each output stage reads. -/
theorem V10_s1 (d : Dev nD) : V10 m d s1' = S1v m (GIv m (Rg0 (F := F))) (GJv m (Rg0 (F := F))) d := by
  unfold V10 W10 W9 W8
  rw [Function.update_of_ne (show s1' ≠ s3' by decide), Function.update_of_ne (show s1' ≠ s2' by decide), Function.update_self]
theorem V12_s2 (d : Dev nD) : V12 m d s2' = S2v m (GIv m (Rg0 (F := F))) (GJv m (Rg0 (F := F))) d := by
  unfold V12 W12 W11 W10 W9
  rw [(opCp1 (F := F)).result_of_not_mem _ (b := s2') (show s2' ∉ ({m2'} : Finset (DevRef τ sig)) by decide),
    regionFrame1 d _ s2' (by decide), Function.update_of_ne (show s2' ≠ s3' by decide), Function.update_self]
theorem V14_s3 (d : Dev nD) : V14 m d s3' = S3v m (GIv m (Rg0 (F := F))) (GJv m (Rg0 (F := F))) d := by
  unfold V14 W14 W13 W12 W11 W10
  rw [(opCp2 (F := F)).result_of_not_mem _ (b := s3') (show s3' ∉ ({out'} : Finset (DevRef τ sig)) by decide),
    regionFrame2 d _ s3' (by decide),
    (opCp1 (F := F)).result_of_not_mem _ (b := s3') (show s3' ∉ ({m2'} : Finset (DevRef τ sig)) by decide),
    regionFrame1 d _ s3' (by decide), Function.update_self]

end Cert.Proof.KI

end
-- ==== Proof.Spec.lean ====
import Idealize.ShloMosaic.PureOps.Ideal
import Idealize.ShloMosaic.Lib.ValueIdx

/-!
The two results as whole-array functions of the seven argument arrays, at the ideal instance (a float is an extended
real, every operation exact), index by index.

* atoms n < 10000 carry an atomic number z n; the embedding row of atom n is row z n - 1 of the table emb
  (93 rows of 128 features): Gh z emb [n, c] = emb [z n - 1, c];
* edges e < 320000 join atom ii e to atom jj e and carry 16 radial features rbf [e, ·]; the edge's input row is
  the concatenation cat e = (h [ii e, ·], h [jj e, ·], rbf [e, ·]) of 272 entries, h = Gh z emb; the message is the
  dense layer W (128 × 272) with bias b, followed by silu x = x · (1 / (1 + exp (-x))):
  Gm … [e, o] = silu ((Σ k < 272, cat e k · W [o, k]) + b [o]).

Indices read out of the integer arrays are taken signed and brought into range (min … 92, min … 9999), so that both
functions are total; on the inputs the certificate speaks of (1 ≤ z ≤ 92, 0 ≤ ii, jj ≤ 9999) nothing is cut.
-/

noncomputable section

open scoped BigOperators

namespace Cert.Proof.Spec

open Idealize.ShloMosaic Idealize.ShloMosaic.ValueIdx

/-- The table row of atom n: its atomic number less one, read signed, brought into [0, 92]. -/
def zrow (z : IVec ⟨1, ![10000]⟩ 32) (n : Fin 10000) : Fin 93 :=
  ⟨min ((z (ix1 n)).toInt - 1).toNat 92, by omega⟩

/-- An endpoint of edge e: the atom index, read signed, brought into [0, 9999]. -/
def src (ix : IVec ⟨1, ![320000]⟩ 32) (e : Fin 320000) : Fin 10000 :=
  ⟨min (ix (ix1 e)).toInt.toNat 9999, by omega⟩

/-- FIRST RESULT: the atoms' embeddings, Gh z emb [n, c] = emb [z n - 1, c]. -/
def Gh (z : IVec ⟨1, ![10000]⟩ 32) (emb : FVec Ideal ⟨2, ![93, 128]⟩ .f32) : FVec Ideal ⟨2, ![10000, 128]⟩ .f32 :=
  fun i => emb (ix2 (zrow z (i 0)) (i 1))

/-- Entry k < 272 of edge e's input row: the first endpoint's embedding, then the second's, then the radial features. -/
def cat (z : IVec ⟨1, ![10000]⟩ 32) (rbf : FVec Ideal ⟨2, ![320000, 16]⟩ .f32) (ii jj : IVec ⟨1, ![320000]⟩ 32)
    (emb : FVec Ideal ⟨2, ![93, 128]⟩ .f32) (e : Fin 320000) (k : Fin 272) : EReal :=
  if h : k.val < 128 then Gh z emb (ix2 (src ii e) ⟨k.val, h⟩)
  else if h' : k.val < 256 then Gh z emb (ix2 (src jj e) ⟨k.val - 128, by omega⟩)
  else rbf (ix2 e ⟨k.val - 256, by omega⟩)

/-- The dense layer before the activation: (Σ k < 272, cat e k · W [o, k]) + b [o]. -/
def pre (z : IVec ⟨1, ![10000]⟩ 32) (rbf : FVec Ideal ⟨2, ![320000, 16]⟩ .f32) (ii jj : IVec ⟨1, ![320000]⟩ 32)
    (emb : FVec Ideal ⟨2, ![93, 128]⟩ .f32) (W : FVec Ideal ⟨2, ![128, 272]⟩ .f32) (b : FVec Ideal ⟨1, ![128]⟩ .f32)
    (e : Fin 320000) (o : Fin 128) : EReal :=
  (∑ k : Fin 272, cat z rbf ii jj emb e k * W (ix2 o k)) + b (ix1 o)

/-- silu x = x · (1 / (1 + exp (-x))) on the extended reals, the quotient and the exponential the ideal instance's. -/
def silu (x : EReal) : EReal := x * Ideal.div 1 (1 + Ideal.exp (-x))

/-- SECOND RESULT: the edges' messages, Gm … [e, o] = silu ((Σ k < 272, cat e k · W [o, k]) + b [o]). -/
def Gm (z : IVec ⟨1, ![10000]⟩ 32) (rbf : FVec Ideal ⟨2, ![320000, 16]⟩ .f32) (ii jj : IVec ⟨1, ![320000]⟩ 32)
    (emb : FVec Ideal ⟨2, ![93, 128]⟩ .f32) (W : FVec Ideal ⟨2, ![128, 272]⟩ .f32) (b : FVec Ideal ⟨1, ![128]⟩ .f32) :
    FVec Ideal ⟨2, ![320000, 128]⟩ .f32 :=
  fun i => silu (pre z rbf ii jj emb W b (i 0) (i 1))

end Cert.Proof.Spec

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.LibMatRowsT.lean ====
/-
  A matrix product against a transposed right operand, read at one entry.

  For operands of shapes [M, K] and [N, K] contracted over the columns of both, entry (p, c) of the product is the sum
  over k of left (p, k) times right (c, k): the left times the right's transpose. At the ideal instance this holds for a
  kernel's product accumulated into a zero array, whatever precision is named: neither rounding nor summation order is
  left. Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRowsT

open Idealize.ShloMosaic Idealize.ShloMosaic.ValueIdx

variable {M K N : Nat}

/-- The contraction index set of such a product is its one coordinate, ranging over the shared extent. -/
abbrev contrFin (M K N : Nat) : (DotDims.transposedRhs M K N).contr.Idx ≃ Fin K :=
  contrEquiv1 (DotDims.transposedRhs M K N) K rfl rfl

/-- At result entry (p, c) and contraction position k the left operand is read at (p, k). -/
theorem trhs_lhsIdx (p : Fin M) (c : Fin N) (k : Fin K) :
    (DotDims.transposedRhs M K N).lhsIdx (ix2 p c) ((contrFin M K N).symm k) = ix2 p k := by
  funext a
  refine Fin.ext ?_
  match a with
  | ⟨0, _⟩ => rfl
  | ⟨1, _⟩ =>
    exact ((DotDims.transposedRhs M K N).lhsIdx_val_of_single (cl := (1 : Fin 2)) rfl (ix2 p c) _).trans
      (contrEquiv1_symm_val (DotDims.transposedRhs M K N) K rfl rfl k)

/-- At result entry (p, c) and contraction position k the right operand is read at (c, k). -/
theorem trhs_rhsIdx (p : Fin M) (c : Fin N) (k : Fin K) :
    (DotDims.transposedRhs M K N).rhsIdx (ix2 p c) ((contrFin M K N).symm k) = ix2 c k := by
  funext a
  refine Fin.ext ?_
  match a with
  | ⟨0, _⟩ => rfl
  | ⟨1, _⟩ =>
    exact ((DotDims.transposedRhs M K N).rhsIdx_val_of_single (cr := (1 : Fin 2)) rfl (ix2 p c) _).trans
      (contrEquiv1_symm_val (DotDims.transposedRhs M K N) K rfl rfl k)

/-- The contraction sum, re-indexed by the shared extent. -/
theorem trhs_sum (l : (⟨2, ![M, K]⟩ : Shape).Idx → EReal) (r : (⟨2, ![N, K]⟩ : Shape).Idx → EReal) (p : Fin M) (c : Fin N) :
    ∑ k : (DotDims.transposedRhs M K N).contr.Idx,
        l ((DotDims.transposedRhs M K N).lhsIdx (ix2 p c) k) * r ((DotDims.transposedRhs M K N).rhsIdx (ix2 p c) k)
      = ∑ k : Fin K, l (ix2 p k) * r (ix2 c k) := by
  rw [← Equiv.sum_comp (contrFin M K N).symm]
  exact Finset.sum_congr rfl fun k _ => by rw [trhs_lhsIdx, trhs_rhsIdx]

/-- A kernel's product into the zero array, at entry (p, c). -/
theorem matmul_trhs_apply {φ₁ φ₂ : FTy} (prec : Option ContractPrecision)
    (l : FVec Ideal ⟨2, ![M, K]⟩ φ₁) (r : FVec Ideal ⟨2, ![N, K]⟩ φ₂) (p : Fin M) (c : Fin N) :
    matmul (DotDims.transposedRhs M K N) prec l r (constant (F := Ideal) ⟨2, ![M, N]⟩ .f32 0x00000000#32) (ix2 p c)
      = ∑ k : Fin K, l (ix2 p k) * r (ix2 c k) :=
  (Ideal.matmul_constant_zero_apply (DotDims.transposedRhs M K N) prec l r (ix2 p c)).trans (trhs_sum l r p c)

end Idealize.ShloMosaic.MatRowsT

end
-- ==== Proof.KPay0.lean ====
import proofs.«206539_g3985729650836_cont_8to1_b_247_13_alg».proof.Proof.Gen.KernelIdeal.Skeleton
import proofs.«206539_g3985729650836_cont_8to1_b_247_13_alg».proof.Proof.LibMatRows
import proofs.«206539_g3985729650836_cont_8to1_b_247_13_alg».proof.Proof.LibMatRowsT
import Idealize.ShloMosaic.Lib.Pipeline.Value
import Idealize.ShloMosaic.PureOps.Ideal.Laws
import Idealize.ShloMosaic.Lib.ValueIdx

/-!
The first dense stage's three payloads read at one entry, at the ideal instance.

A block of 1000 atoms: row p of the one-hot matrix has a 1 in column (z p - 1) and 0 elsewhere, so its product with the
128-row table is row (z p - 1) of the table: no entry of the table need be finite, since 0 · x = 0 for every extended
real x and the sum has one other term. The two images are products of those rows with a 128-column band of the weights,
contracted over the band's columns.
-/

noncomputable section

open scoped BigOperators

namespace Cert.Proof.KPay0

open Idealize.ShloMosaic Idealize.ShloMosaic.ValueIdx Cert.KernelIdeal Cert.KernelIdeal.Gen

/-- The entry (p, k) of the one-hot matrix, as an extended real: 1 where word v less one is k, 0 elsewhere. -/
def hot (v : BitVec 32) (k : Fin 128) : EReal :=
  (((IntOp.cmpi .eq (v - 1#32) (BitVec.ofNat 32 k.val)).setWidth 32).toInt : ℝ)

theorem hot_self (v : BitVec 32) (k : Fin 128) (h : (v - 1#32).toNat = k.val) : hot v k = 1 := by
  have e : v - 1#32 = BitVec.ofNat 32 k.val := by rw [← h, BitVec.ofNat_toNat, BitVec.setWidth_eq]
  have c : IntOp.cmpi .eq (v - 1#32) (BitVec.ofNat 32 k.val) = 1#1 := IntOp.cmpi_eq.2 e
  unfold hot
  rw [c]
  have : ((1#1 : BitVec 1).setWidth 32).toInt = 1 := by decide
  rw [this]
  norm_num

theorem hot_other (v : BitVec 32) (k : Fin 128) (h : (v - 1#32).toNat ≠ k.val) : hot v k = 0 := by
  have hk : k.val < 2 ^ 32 := by have := k.isLt; omega
  have c : IntOp.cmpi .eq (v - 1#32) (BitVec.ofNat 32 k.val) = 0#1 := eq_zero_of_ne_one fun e => by
    have e' := IntOp.cmpi_eq.1 e
    apply h
    rw [e', BitVec.toNat_ofNat, Nat.mod_eq_of_lt hk]
  unfold hot
  rw [c]
  have : ((0#1 : BitVec 1).setWidth 32).toInt = 0 := by decide
  rw [this]
  norm_num

/-- The one-hot row times a column: the column's entry at the hot position. -/
theorem hot_sum (v : BitVec 32) (k0 : Fin 128) (h : (v - 1#32).toNat = k0.val) (x : Fin 128 → EReal) :
    ∑ k : Fin 128, hot v k * x k = x k0 := by
  rw [Finset.sum_eq_single k0]
  · rw [hot_self v k0 h, one_mul]
  · intro k _ hk
    rw [hot_other v k (fun e => hk (Fin.ext (by rw [← e, h]))), zero_mul]
  · intro hn
    exact absurd (Finset.mem_univ k0) hn

/-- FIRST PAYLOAD at entry (p, q): the table's entry (z p - 1, q). -/
theorem pay1_apply (z0 : Vec Ideal S1000x1 .i32) (e : Vec Ideal S128x128 .f32) (p : Fin 1000) (q : Fin 128) (k0 : Fin 128)
    (hk : (z0 (ix2 p (0 : Fin 1)) - 1#32).toNat = k0.val) : k0_pay1 z0 e (ix2 p q) = e (ix2 k0 q) := by
  unfold k0_pay1
  rw [shapeCast_self, shapeCast_self]
  show matmul (DotDims.plain 1000 128 128) none _ e (constant (F := Ideal) ⟨2, ![1000, 128]⟩ .f32 0x00000000#32) (ix2 p q) = _
  rw [MatRows.matmul_plain_apply]
  rw [← hot_sum (z0 (ix2 p (0 : Fin 1))) k0 hk (fun k => e (ix2 k q))]
  refine Finset.sum_congr rfl fun k _ => congrArg (· * e (ix2 k q)) ?_
  show ((((IntOp.cmpi .eq
      (broadcastTo S1000x128 (subi z0 (broadcast S1000x1 1#32)) broadcasts_S1000x1_S1000x128 (ix2 p k))
      (iota .tc S1000x128 32 [1] iota_S1000x128_d1_w32 (ix2 p k))).setWidth 32).toInt : ℝ) : EReal) = hot _ k
  rw [iota_single_apply, broadcastTo_apply _ _ (ix2 p k) (ix2 p (0 : Fin 1)) (fun a => by
    match a with
    | ⟨0, _⟩ => rfl
    | ⟨1, _⟩ => rfl)]
  rfl

/-- SECOND AND THIRD PAYLOADS at entry (p, o): row p of the first payload against row o of the weight band. -/
theorem pay2_apply (z0 : Vec Ideal S1000x1 .i32) (e : Vec Ideal S128x128 .f32) (w : Vec Ideal S128x128 .f32) (p : Fin 1000) (o : Fin 128) :
    k0_pay2 z0 e w (ix2 p o) = ∑ k : Fin 128, k0_pay1 z0 e (ix2 p k) * w (ix2 o k) := by
  unfold k0_pay2
  show matmul (DotDims.transposedRhs 1000 128 128) none (k0_pay1 z0 e) w
      (constant (F := Ideal) ⟨2, ![1000, 128]⟩ .f32 0x00000000#32) (ix2 p o) = _
  rw [MatRowsT.matmul_trhs_apply]

theorem pay3_apply (z0 : Vec Ideal S1000x1 .i32) (e : Vec Ideal S128x128 .f32) (w : Vec Ideal S128x128 .f32) (p : Fin 1000) (o : Fin 128) :
    k0_pay3 z0 e w (ix2 p o) = ∑ k : Fin 128, k0_pay1 z0 e (ix2 p k) * w (ix2 o k) := by
  unfold k0_pay3
  show matmul (DotDims.transposedRhs 1000 128 128) none (k0_pay1 z0 e) w
      (constant (F := Ideal) ⟨2, ![1000, 128]⟩ .f32 0x00000000#32) (ix2 p o) = _
  rw [MatRowsT.matmul_trhs_apply]

end Cert.Proof.KPay0

end
-- ==== Proof.KVal0.lean ====
import proofs.«206539_g3985729650836_cont_8to1_b_247_13_alg».proof.Proof.TcData
import proofs.«206539_g3985729650836_cont_8to1_b_247_13_alg».proof.Proof.Spec
import proofs.«206539_g3985729650836_cont_8to1_b_247_13_alg».proof.Proof.KPay0
import Idealize.ShloMosaic.Lib.KernelVsHost

/-!
What the first dense stage leaves in its three output arrays, as whole-array functions of the atoms' numbers, the
embedding table and the weights, at the ideal instance.

The stage runs over ten blocks of 1000 atoms. Block t of the embeddings array is the first payload on rows
[1000 t, 1000 t + 1000) of the numbers' column and on the whole padded table: entry (p, q) of the block is the table's
entry (z (1000 t + p) - 1, q), which is the specification's embedding of atom 1000 t + p. The ten blocks tile the array,
so the array ends holding the specification's embeddings. The two images are, block by block, the products of those rows
with the first and the second band of 128 columns of the weights.
-/

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.SparseCore.Cfg (HIx Pay)
open Idealize.SL Idealize.SL.Sem
open Idealize.ShloMosaic.Pipeline (Dat Cfg Window)
open Cert.Proof

/-! ## Words -/

/-- A word that reads, signed, between 1 and 92: one less, read as a natural, is that number less one. -/
theorem sub_one_toNat (v : BitVec 32) (h1 : 1 ≤ v.toInt) (h2 : v.toInt ≤ 92) :
    (v - 1#32).toNat = (v.toInt - 1).toNat ∧ (v - 1#32).toNat ≤ 91 := by
  have hl : v.toNat < 4294967296 := v.isLt
  have hx := BitVec.toInt_eq_toNat_cond v
  have hxn : (v.toNat : Int) = v.toInt := by
    split at hx <;> omega
  have hs : (v - 1#32).toNat = v.toNat - 1 := by
    rw [BitVec.toNat_sub]
    simp only [BitVec.toNat_ofNat]
    omega
  omega

theorem zero2 : (![0, 0] : Fin 2 → Nat) = fun _ => 0 := funext fun a => by fin_cases a <;> rfl

/-! ## One point of the grid, over plain vectors -/

/-- Entry (p, q) of the first payload on rows [r0, r0 + 1000) of the numbers and on the padded table is the
    specification's embedding of atom r0 + p. -/
theorem ptH (z : IVec ⟨1, ![10000]⟩ 32) (emb : FVec Ideal ⟨2, ![93, 128]⟩ .f32)
    (hzr : ∀ n, 1 ≤ (z n).toInt ∧ (z n).toInt ≤ 92)
    (zb : Vec Ideal S1000x1 .i32) (eb : Vec Ideal S128x128 .f32) (p : Fin 1000) (q : Fin 128) (n : Fin 10000)
    (hzb : zb (ix2 p (0 : Fin 1)) = z (ix1 n))
    (heb : ∀ (k : Fin 128) (q : Fin 128), eb (ix2 k q) = if h : k.val < 93 then emb (ix2 ⟨k.val, h⟩ q) else 0) :
    k0_pay1 zb eb (ix2 p q) = Spec.Gh z emb (ix2 n q) := by
  obtain ⟨h1, h2⟩ := sub_one_toNat (z (ix1 n)) (hzr _).1 (hzr _).2
  rw [KPay0.pay1_apply zb eb p q ⟨(z (ix1 n) - 1#32).toNat, by omega⟩ (by rw [hzb]), heb, dif_pos (by show (z (ix1 n) - 1#32).toNat < 93; omega)]
  show emb (ix2 _ q) = emb (ix2 (Spec.zrow z n) q)
  refine congrArg (fun r => emb (ix2 r q)) (Fin.ext ?_)
  show (z (ix1 n) - 1#32).toNat = min ((z (ix1 n)).toInt - 1).toNat 92
  omega

/-- Entry (p, o) of the second payload: row n of the specification's embeddings against row o of the weight band. -/
theorem ptG2 (z : IVec ⟨1, ![10000]⟩ 32) (emb : FVec Ideal ⟨2, ![93, 128]⟩ .f32)
    (hzr : ∀ n, 1 ≤ (z n).toInt ∧ (z n).toInt ≤ 92)
    (zb : Vec Ideal S1000x1 .i32) (eb : Vec Ideal S128x128 .f32) (wb : Vec Ideal S128x128 .f32) (p : Fin 1000) (o : Fin 128) (n : Fin 10000)
    (hzb : zb (ix2 p (0 : Fin 1)) = z (ix1 n))
    (heb : ∀ (k : Fin 128) (q : Fin 128), eb (ix2 k q) = if h : k.val < 93 then emb (ix2 ⟨k.val, h⟩ q) else 0) :
    k0_pay2 zb eb wb (ix2 p o) = ∑ k : Fin 128, Spec.Gh z emb (ix2 n k) * wb (ix2 o k) := by
  rw [KPay0.pay2_apply]
  exact Finset.sum_congr rfl fun k _ => congrArg (· * wb (ix2 o k)) (ptH z emb hzr zb eb p k n hzb heb)

/-- The same for the third payload. -/
theorem ptG3 (z : IVec ⟨1, ![10000]⟩ 32) (emb : FVec Ideal ⟨2, ![93, 128]⟩ .f32)
    (hzr : ∀ n, 1 ≤ (z n).toInt ∧ (z n).toInt ≤ 92)
    (zb : Vec Ideal S1000x1 .i32) (eb : Vec Ideal S128x128 .f32) (wb : Vec Ideal S128x128 .f32) (p : Fin 1000) (o : Fin 128) (n : Fin 10000)
    (hzb : zb (ix2 p (0 : Fin 1)) = z (ix1 n))
    (heb : ∀ (k : Fin 128) (q : Fin 128), eb (ix2 k q) = if h : k.val < 93 then emb (ix2 ⟨k.val, h⟩ q) else 0) :
    k0_pay3 zb eb wb (ix2 p o) = ∑ k : Fin 128, Spec.Gh z emb (ix2 n k) * wb (ix2 o k) := by
  rw [KPay0.pay3_apply]
  exact Finset.sum_congr rfl fun k _ => congrArg (· * wb (ix2 o k)) (ptH z emb hzr zb eb p k n hzb heb)

/-! ## The printed index maps, decided over the ten points -/

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

section Stage0

variable (V : (d : Dev nD) → (b : Ref sig .tc) → Buf (Elt Ideal) ((d.tc : Thread nD τ).loc b)) (d : Dev nD)
  (z : IVec ⟨1, ![10000]⟩ 32) (emb : FVec Ideal ⟨2, ![93, 128]⟩ .f32) (W : FVec Ideal ⟨2, ![128, 272]⟩ .f32)

set_option maxHeartbeats 1000000 in
/-- WHAT POINT t WRITES BACK to the embeddings array is block t of the specification's embeddings. -/
theorem flushedH_eq
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hzr : ∀ n, 1 ≤ (z n).toInt ∧ (z n).toInt ≤ 92) (t : Fin cfg0.N) :
    (dat0 V (fun _ => 0) Set.univ d).flushed 3 t = ((cfg0.win 3).blk t).view.read (Elt Ideal) (Spec.Gh z emb) := by
  have hafter : (dat0 V (fun _ => 0) Set.univ d).after 3 t = outH (iblk0 V d 0 t) (iblk0 V d 1 t) := by dsimp only [dat0]
  show (cfg0.win 3).cut (grid0.coords t) ((dat0 V (fun _ => 0) Set.univ d).after 3 t) = _
  rw [hafter]
  unfold outH
  rw [View.canon_unit_zero zero2]
  simp only [View.ld_unit_zero (S := S1000x1) zero2, View.ld_unit_zero (S := S128x128) zero2]
  obtain ⟨e00, e01, e10, e11, e20, e21, e30, e31, e40, e41, e50, e51⟩ := idx0 t
  have ht : t.val < 10 := t.isLt
  funext j
  obtain ⟨p, q, rfl⟩ : ∃ (p : Fin 1000) (q : Fin 128), j = ix2 p q := ⟨j 0, j 1, eq_ix2 (n0 := 1000) (n1 := 128) j⟩
  show k0_pay1 (iblk0 V d 0 t) (iblk0 V d 1 t) (ix2 p q) = Spec.Gh z emb (((cfg0.win 3).blk t).view.emb (ix2 p q))
  have hemb3 : ((cfg0.win 3).blk t).view.emb (ix2 p q) = ix2 (⟨t.val * 1000 + p.val, by omega⟩ : Fin 10000) q := by
    funext a; apply Fin.ext
    match a with
    | ⟨0, _⟩ => show win0_3.index t (0 : Fin 2) * 1000 + 1 * p.val = t.val * 1000 + p.val; omega
    | ⟨1, _⟩ => show win0_3.index t (1 : Fin 2) * 128 + 1 * q.val = q.val; omega
  rw [hemb3]
  refine ptH z emb hzr _ _ p q _ ?_ ?_
  · show V d main_v0 (((cfg0.win 0).blk t).view.emb (ix2 p (0 : Fin 1))) = z (ix1 _)
    rw [hz]
    refine congrArg (fun r => z (ix1 r)) (Fin.ext ?_)
    show win0_0.index t (0 : Fin 2) * 1000 + 1 * p.val = t.val * 1000 + p.val
    omega
  · intro k q
    show V d main_v1 (((cfg0.win 1).blk t).view.emb (ix2 k q)) = _
    have hemb1 : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [hemb1, he]

/-- An index of the array is in point t's block of window 3 iff each coordinate is in the block's range on its axis. -/
theorem mem_blk0_3 (t : Fin cfg0.N) (i : S10000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v2_0).slice (win0_3.rect t)).set ↔ _
  rw [View.set_slice_whole, Rect.mem_set_unit]
  exact Iff.rfl

/-- The ten blocks of window 3 tile the array: row r is in block r / 1000. -/
theorem cover0_3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have ht : (i 0).val / 1000 < 10 := by omega
  refine ⟨⟨(i 0).val / 1000, ht⟩, flush0_3 _, ?_⟩
  rw [mem_blk0_3]
  obtain ⟨e00, e01, e10, e11, e20, e21, e30, e31, e40, e41, e50, e51⟩ := idx0 ⟨(i 0).val / 1000, ht⟩
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e30]
    show (i 0).val / 1000 * 1000 ≤ (i 0).val ∧ (i 0).val < (i 0).val / 1000 * 1000 + 1000
    omega
  | ⟨1, _⟩ =>
    show win0_3.index ⟨(i 0).val / 1000, ht⟩ (1 : Fin 2) * 128 ≤ (i 1).val
      ∧ (i 1).val < win0_3.index ⟨(i 0).val / 1000, ht⟩ (1 : Fin 2) * 128 + 128
    rw [e31]
    omega

/-- THE EMBEDDINGS ARRAY when the first stage ends is the specification's. -/
theorem H0_eq_fn
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hzr : ∀ n, 1 ≤ (z n).toInt ∧ (z n).toInt ≤ 92) : H0 V d = Spec.Gh z emb :=
  (dat0 V (fun _ => 0) Set.univ d).arrAt_eq_of_cover 3 (Spec.Gh z emb) (fun t _ => flushedH_eq V d z emb hz he hzr t) cover0_3

/-- The i image as one function of the arguments: the embeddings against columns [0, 0 + 128) of the weights. -/
def Gi (z : IVec ⟨1, ![10000]⟩ 32) (emb : FVec Ideal ⟨2, ![93, 128]⟩ .f32) (W : FVec Ideal ⟨2, ![128, 272]⟩ .f32) :
    FVec Ideal ⟨2, ![10000, 128]⟩ .f32 :=
  fun y => ∑ k : Fin 128, Spec.Gh z emb (ix2 (y 0) k) * W (ix2 (y 1) ⟨k.val, by omega⟩)

set_option maxHeartbeats 1000000 in
/-- WHAT POINT t WRITES BACK to the i image's array is block t of that function. -/
theorem flushedi_eq
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hw : V d main_arg5 = (W : S128x272.Idx → EReal))
    (hzr : ∀ n, 1 ≤ (z n).toInt ∧ (z n).toInt ≤ 92) (t : Fin cfg0.N) :
    (dat0 V (fun _ => 0) Set.univ d).flushed 4 t = ((cfg0.win 4).blk t).view.read (Elt Ideal) (Gi z emb W) := by
  have hafter : (dat0 V (fun _ => 0) Set.univ d).after 4 t = outGi (iblk0 V d 0 t) (iblk0 V d 1 t) (iblk0 V d 2 t) := by
    dsimp only [dat0]
  show (cfg0.win 4).cut (grid0.coords t) ((dat0 V (fun _ => 0) Set.univ d).after 4 t) = _
  rw [hafter]
  unfold outGi
  rw [View.canon_unit_zero zero2]
  simp only [View.ld_unit_zero (S := S1000x1) zero2, View.ld_unit_zero (S := S128x128) zero2]
  obtain ⟨e00, e01, e10, e11, e20, e21, e30, e31, e40, e41, e50, e51⟩ := idx0 t
  have ht : t.val < 10 := t.isLt
  funext j
  obtain ⟨p, o, rfl⟩ : ∃ (p : Fin 1000) (o : Fin 128), j = ix2 p o := ⟨j 0, j 1, eq_ix2 (n0 := 1000) (n1 := 128) j⟩
  show k0_pay2 (iblk0 V d 0 t) (iblk0 V d 1 t) (View.ld (iblk0 V d 2 t) rWi) (ix2 p o)
    = Gi z emb W (((cfg0.win 4).blk t).view.emb (ix2 p o))
  have hembw : ((cfg0.win 4).blk t).view.emb (ix2 p o) = ix2 (⟨t.val * 1000 + p.val, by omega⟩ : Fin 10000) o := by
    funext a; apply Fin.ext
    match a with
    | ⟨0, _⟩ => show win0_4.index t (0 : Fin 2) * 1000 + 1 * p.val = t.val * 1000 + p.val; omega
    | ⟨1, _⟩ => show win0_4.index t (1 : Fin 2) * 128 + 1 * o.val = o.val; omega
  rw [hembw, ptG2 z emb hzr _ _ _ p o ⟨t.val * 1000 + p.val, by omega⟩ ?hzb ?heb]
  case hzb =>
    show V d main_v0 (((cfg0.win 0).blk t).view.emb (ix2 p (0 : Fin 1))) = z (ix1 _)
    rw [hz]
    refine congrArg (fun r => z (ix1 r)) (Fin.ext ?_)
    show win0_0.index t (0 : Fin 2) * 1000 + 1 * p.val = t.val * 1000 + p.val
    omega
  case heb =>
    intro k q
    show V d main_v1 (((cfg0.win 1).blk t).view.emb (ix2 k q)) = _
    have hemb1 : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [hemb1, he]
  show _ = ∑ k : Fin 128, Spec.Gh z emb (ix2 (⟨t.val * 1000 + p.val, by omega⟩ : Fin 10000) k) * W (ix2 o ⟨k.val, by omega⟩)
  refine Finset.sum_congr rfl fun k _ => congrArg (_ * ·) ?_
  show V d main_arg5 (((cfg0.win 2).blk t).view.emb (rWi.idx (ix2 o k))) = _
  rw [hw]
  refine congrArg W (funext fun a => Fin.ext ?_)
  match a with
  | ⟨0, _⟩ => show win0_2.index t (0 : Fin 2) * 128 + 1 * (0 + 1 * o.val) = o.val; omega
  | ⟨1, _⟩ => show win0_2.index t (1 : Fin 2) * 272 + 1 * (0 + 1 * k.val) = k.val; omega

/-- An index of the array is in point t's block of window 4 iff each coordinate is in the block's range on its axis. -/
theorem mem_blk0_4 (t : Fin cfg0.N) (i : S10000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v2_1).slice (win0_4.rect t)).set ↔ _
  rw [View.set_slice_whole, Rect.mem_set_unit]
  exact Iff.rfl

/-- The ten blocks of window 4 tile the array: row r is in block r / 1000. -/
theorem cover0_4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have ht : (i 0).val / 1000 < 10 := by omega
  refine ⟨⟨(i 0).val / 1000, ht⟩, flush0_4 _, ?_⟩
  rw [mem_blk0_4]
  obtain ⟨e00, e01, e10, e11, e20, e21, e30, e31, e40, e41, e50, e51⟩ := idx0 ⟨(i 0).val / 1000, ht⟩
  intro a
  match a with
  | ⟨0, _⟩ =>
    show win0_4.index ⟨(i 0).val / 1000, ht⟩ (0 : Fin 2) * 1000 ≤ (i 0).val
      ∧ (i 0).val < win0_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win0_4.index ⟨(i 0).val / 1000, ht⟩ (1 : Fin 2) * 128 ≤ (i 1).val
      ∧ (i 1).val < win0_4.index ⟨(i 0).val / 1000, ht⟩ (1 : Fin 2) * 128 + 128
    rw [e41]
    omega

/-- THE FIRST IMAGE'S ARRAY when the first stage ends. -/
theorem GI0_eq_fn
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hw : V d main_arg5 = (W : S128x272.Idx → EReal))
    (hzr : ∀ n, 1 ≤ (z n).toInt ∧ (z n).toInt ≤ 92) : GI0 V d = Gi z emb W :=
  (dat0 V (fun _ => 0) Set.univ d).arrAt_eq_of_cover 4 (Gi z emb W) (fun t _ => flushedi_eq V d z emb W hz he hw hzr t) cover0_4

/-- The j image as one function of the arguments: the embeddings against columns [128, 128 + 128) of the weights. -/
def Gj (z : IVec ⟨1, ![10000]⟩ 32) (emb : FVec Ideal ⟨2, ![93, 128]⟩ .f32) (W : FVec Ideal ⟨2, ![128, 272]⟩ .f32) :
    FVec Ideal ⟨2, ![10000, 128]⟩ .f32 :=
  fun y => ∑ k : Fin 128, Spec.Gh z emb (ix2 (y 0) k) * W (ix2 (y 1) ⟨128 + k.val, by omega⟩)

set_option maxHeartbeats 1000000 in
/-- WHAT POINT t WRITES BACK to the j image's array is block t of that function. -/
theorem flushedj_eq
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hw : V d main_arg5 = (W : S128x272.Idx → EReal))
    (hzr : ∀ n, 1 ≤ (z n).toInt ∧ (z n).toInt ≤ 92) (t : Fin cfg0.N) :
    (dat0 V (fun _ => 0) Set.univ d).flushed 5 t = ((cfg0.win 5).blk t).view.read (Elt Ideal) (Gj z emb W) := by
  have hafter : (dat0 V (fun _ => 0) Set.univ d).after 5 t = outGj (iblk0 V d 0 t) (iblk0 V d 1 t) (iblk0 V d 2 t) := by
    dsimp only [dat0]
  show (cfg0.win 5).cut (grid0.coords t) ((dat0 V (fun _ => 0) Set.univ d).after 5 t) = _
  rw [hafter]
  unfold outGj
  rw [View.canon_unit_zero zero2]
  simp only [View.ld_unit_zero (S := S1000x1) zero2, View.ld_unit_zero (S := S128x128) zero2]
  obtain ⟨e00, e01, e10, e11, e20, e21, e30, e31, e40, e41, e50, e51⟩ := idx0 t
  have ht : t.val < 10 := t.isLt
  funext j
  obtain ⟨p, o, rfl⟩ : ∃ (p : Fin 1000) (o : Fin 128), j = ix2 p o := ⟨j 0, j 1, eq_ix2 (n0 := 1000) (n1 := 128) j⟩
  show k0_pay3 (iblk0 V d 0 t) (iblk0 V d 1 t) (View.ld (iblk0 V d 2 t) rWj) (ix2 p o)
    = Gj z emb W (((cfg0.win 5).blk t).view.emb (ix2 p o))
  have hembw : ((cfg0.win 5).blk t).view.emb (ix2 p o) = ix2 (⟨t.val * 1000 + p.val, by omega⟩ : Fin 10000) o := by
    funext a; apply Fin.ext
    match a with
    | ⟨0, _⟩ => show win0_5.index t (0 : Fin 2) * 1000 + 1 * p.val = t.val * 1000 + p.val; omega
    | ⟨1, _⟩ => show win0_5.index t (1 : Fin 2) * 128 + 1 * o.val = o.val; omega
  rw [hembw, ptG3 z emb hzr _ _ _ p o ⟨t.val * 1000 + p.val, by omega⟩ ?hzb ?heb]
  case hzb =>
    show V d main_v0 (((cfg0.win 0).blk t).view.emb (ix2 p (0 : Fin 1))) = z (ix1 _)
    rw [hz]
    refine congrArg (fun r => z (ix1 r)) (Fin.ext ?_)
    show win0_0.index t (0 : Fin 2) * 1000 + 1 * p.val = t.val * 1000 + p.val
    omega
  case heb =>
    intro k q
    show V d main_v1 (((cfg0.win 1).blk t).view.emb (ix2 k q)) = _
    have hemb1 : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [hemb1, he]
  show _ = ∑ k : Fin 128, Spec.Gh z emb (ix2 (⟨t.val * 1000 + p.val, by omega⟩ : Fin 10000) k) * W (ix2 o ⟨128 + k.val, by omega⟩)
  refine Finset.sum_congr rfl fun k _ => congrArg (_ * ·) ?_
  show V d main_arg5 (((cfg0.win 2).blk t).view.emb (rWj.idx (ix2 o k))) = _
  rw [hw]
  refine congrArg W (funext fun a => Fin.ext ?_)
  match a with
  | ⟨0, _⟩ => show win0_2.index t (0 : Fin 2) * 128 + 1 * (0 + 1 * o.val) = o.val; omega
  | ⟨1, _⟩ => show win0_2.index t (1 : Fin 2) * 272 + 1 * (128 + 1 * k.val) = 128 + k.val; omega

/-- An index of the array is in point t's block of window 5 iff each coordinate is in the block's range on its axis. -/
theorem mem_blk0_5 (t : Fin cfg0.N) (i : S10000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v2_2).slice (win0_5.rect t)).set ↔ _
  rw [View.set_slice_whole, Rect.mem_set_unit]
  exact Iff.rfl

/-- The ten blocks of window 5 tile the array: row r is in block r / 1000. -/
theorem cover0_5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 1000 < 10 := by omega
  refine ⟨⟨(i 0).val / 1000, ht⟩, flush0_5 _, ?_⟩
  rw [mem_blk0_5]
  obtain ⟨e00, e01, e10, e11, e20, e21, e30, e31, e40, e41, e50, e51⟩ := idx0 ⟨(i 0).val / 1000, ht⟩
  intro a
  match a with
  | ⟨0, _⟩ =>
    show win0_5.index ⟨(i 0).val / 1000, ht⟩ (0 : Fin 2) * 1000 ≤ (i 0).val
      ∧ (i 0).val < win0_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win0_5.index ⟨(i 0).val / 1000, ht⟩ (1 : Fin 2) * 128 ≤ (i 1).val
      ∧ (i 1).val < win0_5.index ⟨(i 0).val / 1000, ht⟩ (1 : Fin 2) * 128 + 128
    rw [e51]
    omega

/-- THE SECOND IMAGE'S ARRAY when the first stage ends. -/
theorem GJ0_eq_fn
    (hz : V d main_v0 = (fun y => z (ix1 (y 0)) : S10000x1.Idx → BitVec 32))
    (he : V d main_v1 = (fun y => if h : (y 0).val < 93 then emb (ix2 ⟨(y 0).val, h⟩ (y 1)) else 0 : S128x128.Idx → EReal))
    (hw : V d main_arg5 = (W : S128x272.Idx → EReal))
    (hzr : ∀ n, 1 ≤ (z n).toInt ∧ (z n).toInt ≤ 92) : GJ0 V d = Gj z emb W :=
  (dat0 V (fun _ => 0) Set.univ d).arrAt_eq_of_cover 5 (Gj z emb W) (fun t _ => flushedj_eq V d z emb W hz he hw hzr t) cover0_5

/-! ## The same, from what the host operations before the stage leave in its input arrays -/

/-- The atoms' numbers reshaped to a column: entry (n, 0) is the number of atom n. -/
theorem hostZ (z : IVec ⟨1, ![10000]⟩ 32) :
    (shapeCast S10000x1 z shapeCasts_S10000_S10000x1 : S10000x1.Idx → BitVec 32) = fun y => z (ix1 (y 0)) := by
  funext y
  obtain ⟨n, c, rfl⟩ : ∃ (n : Fin 10000) (c : Fin 1), y = ix2 n c := ⟨y 0, y 1, eq_ix2 y⟩
  refine shapeCast_apply z shapeCasts_S10000_S10000x1 (ix2 n c) (ix1 n) ?_
  rw [Shape.rowMajor_val_one, Shape.rowMajor_val_two]
  show n.val = n.val * 1 + c.val
  have := c.isLt
  omega

/-- The table padded below with 35 rows of the converted integer zero: the table on its 93 rows, 0 on the others. -/
theorem hostE (emb : FVec Ideal ⟨2, ![93, 128]⟩ .f32) :
    (pad S128x128 ![0, 0] ![35, 0] ![0, 0] emb (sitofp (F := Ideal) .f32 (constantI S_ 32 0#32)) pads_S93x128_S128x128_0350_000 h_S_ : S128x128.Idx → EReal)
      = fun y => if h : (y 0).val < 93 then emb (ix2 ⟨(y 0).val, h⟩ (y 1)) else 0 := by
  funext y
  by_cases h : (y 0).val < 93
  · rw [dif_pos h]
    refine pad_apply_of_inside _ _ _ emb _ pads_S93x128_S128x128_0350_000 h_S_ y (ix2 ⟨(y 0).val, h⟩ (y 1)) (fun a => ?_)
    match a with
    | ⟨0, _⟩ => show (y 0).val = 0 + (y 0).val * (0 + 1); omega
    | ⟨1, _⟩ => show (y 1).val = 0 + (y 1).val * (0 + 1); omega
  · rw [dif_neg h, pad_apply_of_not_inside _ _ _ emb _ pads_S93x128_S128x128_0350_000 h_S_ y (0 : Fin 2) (fun hc => h (by
      have h3 : ((y 0).val - 0) / (0 + 1) < 93 := hc.2.2
      simpa using h3))]
    show (((0#32 : BitVec 32).toInt : ℝ) : EReal) = 0
    simp

/-- THE EMBEDDINGS ARRAY when the first stage ends is the specification's Gh. -/
theorem H0_eq
    (hz : V d main_v0 = shapeCast S10000x1 z shapeCasts_S10000_S10000x1)
    (he : V d main_v1 = pad S128x128 ![0, 0] ![35, 0] ![0, 0] emb (sitofp (F := Ideal) .f32 (constantI S_ 32 0#32)) pads_S93x128_S128x128_0350_000 h_S_)
    (hzr : ∀ n, 1 ≤ (z n).toInt ∧ (z n).toInt ≤ 92) : H0 V d = Spec.Gh z emb :=
  H0_eq_fn V d z emb (hz.trans (hostZ z)) (he.trans (hostE emb)) hzr

/-- THE FIRST IMAGE'S ARRAY when the first stage ends: the embeddings against columns [0, 128) of the weights. -/
theorem GI0_eq
    (hz : V d main_v0 = shapeCast S10000x1 z shapeCasts_S10000_S10000x1)
    (he : V d main_v1 = pad S128x128 ![0, 0] ![35, 0] ![0, 0] emb (sitofp (F := Ideal) .f32 (constantI S_ 32 0#32)) pads_S93x128_S128x128_0350_000 h_S_)
    (hw : V d main_arg5 = (W : S128x272.Idx → EReal))
    (hzr : ∀ n, 1 ≤ (z n).toInt ∧ (z n).toInt ≤ 92) : GI0 V d = Gi z emb W :=
  GI0_eq_fn V d z emb W (hz.trans (hostZ z)) (he.trans (hostE emb)) hw hzr

/-- THE SECOND IMAGE'S ARRAY when the first stage ends: the embeddings against columns [128, 256) of the weights. -/
theorem GJ0_eq
    (hz : V d main_v0 = shapeCast S10000x1 z shapeCasts_S10000_S10000x1)
    (he : V d main_v1 = pad S128x128 ![0, 0] ![35, 0] ![0, 0] emb (sitofp (F := Ideal) .f32 (constantI S_ 32 0#32)) pads_S93x128_S128x128_0350_000 h_S_)
    (hw : V d main_arg5 = (W : S128x272.Idx → EReal))
    (hzr : ∀ n, 1 ≤ (z n).toInt ∧ (z n).toInt ≤ 92) : GJ0 V d = Gj z emb W :=
  GJ0_eq_fn V d z emb W (hz.trans (hostZ z)) (he.trans (hostE emb)) hw hzr

end Stage0

end Cert.Proof.KI

end
-- ==== Proof.Algebra.lean ====
import proofs.«206539_g3985729650836_cont_8to1_b_247_13_alg».proof.Proof.Spec
import Idealize.ShloMosaic.Lib.IdealHost

/-!
The kernel's arrangement of the edge messages is the specification's.

The kernel never forms the concatenated row of an edge: it multiplies the atoms' embeddings once by the first and by the
second band of 128 columns of the weights, adds the two products' rows at the edge's endpoints, adds the product of the
edge's 16 radial features with the last band of 16 columns, then the bias, and divides by 1 + exp (0 - x) where the
specification multiplies by 1 / (1 + exp (-x)). On the extended reals addition is commutative and associative without
any finiteness, so the sum over the 272 columns splits into those three; and x · (1 / y) = x / y whenever y ≠ 0, which
1 + exp (-x) never is.
-/

noncomputable section

open scoped BigOperators

namespace Cert.Proof.Algebra

open Idealize.ShloMosaic Idealize.ShloMosaic.ValueIdx Cert.Proof

theorem add_congr' {a a' b b' : EReal} (h1 : a = a') (h2 : b = b') : a + b = a' + b' := by rw [h1, h2]
theorem mul_congr' {a a' b b' : EReal} (h1 : a = a') (h2 : b = b') : a * b = a' * b' := by rw [h1, h2]

/-- The kernel's activation: x / (1 + exp (0 - x)). -/
def act (x : EReal) : EReal := Ideal.div x (1 + Ideal.exp (0 - x))

/-- 1 + exp (-x) is never zero. -/
theorem one_add_exp_ne_zero (x : EReal) : 1 + Ideal.exp (-x) ≠ 0 := by
  induction x using EReal.rec with
  | bot =>
    show (1 : EReal) + Ideal.exp (-⊥) ≠ 0
    rw [EReal.neg_bot, Ideal.exp_top, EReal.add_top_of_ne_bot (by decide)]
    exact EReal.top_ne_zero
  | coe r =>
    show (1 : EReal) + Ideal.exp (-(r : EReal)) ≠ 0
    rw [← EReal.coe_neg, Ideal.exp_coe]
    have : (0 : ℝ) < 1 + Real.exp (-r) := by positivity
    intro h
    have h' : ((1 + Real.exp (-r) : ℝ) : EReal) = 0 := by rw [EReal.coe_add]; exact h
    exact absurd (by exact_mod_cast h') (ne_of_gt this)
  | top =>
    show (1 : EReal) + Ideal.exp (-⊤) ≠ 0
    rw [EReal.neg_top, Ideal.exp_bot, add_zero]
    exact one_ne_zero

/-- silu as the kernel computes it. -/
theorem silu_eq_act (x : EReal) : Spec.silu x = act x := by
  unfold Spec.silu act
  rw [Ideal.mul_one_div (one_add_exp_ne_zero x), sub_eq_add_neg, zero_add]

section Split

variable (z : IVec ⟨1, ![10000]⟩ 32) (rbf : FVec Ideal ⟨2, ![320000, 16]⟩ .f32) (ii jj : IVec ⟨1, ![320000]⟩ 32)
  (emb : FVec Ideal ⟨2, ![93, 128]⟩ .f32) (W : FVec Ideal ⟨2, ![128, 272]⟩ .f32) (b : FVec Ideal ⟨1, ![128]⟩ .f32)

/-- The embeddings of atom n against columns [0, 128) of row o of the weights. -/
def gi (n : Fin 10000) (o : Fin 128) : EReal := ∑ k : Fin 128, Spec.Gh z emb (ix2 n k) * W (ix2 o ⟨k.val, by omega⟩)
/-- The embeddings of atom n against columns [128, 256) of row o of the weights. -/
def gj (n : Fin 10000) (o : Fin 128) : EReal := ∑ k : Fin 128, Spec.Gh z emb (ix2 n k) * W (ix2 o ⟨128 + k.val, by omega⟩)
/-- The radial features of edge e against columns [256, 272) of row o of the weights. -/
def tt (e : Fin 320000) (o : Fin 128) : EReal := ∑ k : Fin 16, rbf (ix2 e k) * W (ix2 o ⟨256 + k.val, by omega⟩)

/-- THE SPLIT. The dense layer's sum over the 272 columns is the three partial sums. -/
theorem pre_split (e : Fin 320000) (o : Fin 128) :
    Spec.pre z rbf ii jj emb W b e o
      = (gi z emb W (Spec.src ii e) o + gj z emb W (Spec.src jj e) o + tt rbf W e o) + b (ix1 o) := by
  unfold Spec.pre
  refine congrArg (· + b (ix1 o)) ?_
  show ∑ k : Fin (256 + 16), Spec.cat z rbf ii jj emb e k * W (ix2 o k) = _
  rw [Fin.sum_univ_add]
  refine add_congr' ?_ ?_
  · show ∑ k : Fin (128 + 128), Spec.cat z rbf ii jj emb e (Fin.castAdd 16 k) * W (ix2 o (Fin.castAdd 16 k)) = _
    rw [Fin.sum_univ_add]
    refine add_congr' ?_ ?_
    · refine Finset.sum_congr rfl fun k _ => ?_
      have hk := k.isLt
      unfold Spec.cat
      rw [dif_pos (show (Fin.castAdd 16 (Fin.castAdd 128 k) : Fin (256 + 16)).val < 128 from hk)]
      rfl
    · refine Finset.sum_congr rfl fun k _ => ?_
      have hk := k.isLt
      unfold Spec.cat
      have h1 : ¬ (Fin.castAdd 16 (Fin.natAdd 128 k) : Fin (256 + 16)).val < 128 := by
        show ¬ 128 + k.val < 128
        omega
      have h2 : (Fin.castAdd 16 (Fin.natAdd 128 k) : Fin (256 + 16)).val < 256 := by
        show 128 + k.val < 256
        omega
      rw [dif_neg h1, dif_pos h2]
      refine mul_congr' (congrArg (fun c => Spec.Gh z emb (ix2 (Spec.src jj e) c)) (Fin.ext ?_)) rfl
      show 128 + k.val - 128 = k.val
      omega
  · refine Finset.sum_congr rfl fun k _ => ?_
    have hk := k.isLt
    unfold Spec.cat
    have h1 : ¬ (Fin.natAdd 256 k : Fin (256 + 16)).val < 128 := by
      show ¬ 256 + k.val < 128
      omega
    have h2 : ¬ (Fin.natAdd 256 k : Fin (256 + 16)).val < 256 := by
      show ¬ 256 + k.val < 256
      omega
    rw [dif_neg h1, dif_neg h2]
    refine mul_congr' (congrArg (fun c => rbf (ix2 e c)) (Fin.ext ?_)) rfl
    show 256 + k.val - 256 = k.val
    omega

/-- THE SPECIFICATION'S MESSAGE in the kernel's arrangement. -/
theorem Gm_entry (e : Fin 320000) (o : Fin 128) :
    Spec.Gm z rbf ii jj emb W b (ix2 e o)
      = act ((gi z emb W (Spec.src ii e) o + gj z emb W (Spec.src jj e) o + tt rbf W e o) + b (ix1 o)) := by
  show Spec.silu (Spec.pre z rbf ii jj emb W b e o) = _
  rw [silu_eq_act, pre_split]

end Split

end Cert.Proof.Algebra

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.EdgeEq.lean ====
import proofs.«206539_g3985729650836_cont_8to1_b_247_13_alg».proof.Proof.Algebra
import proofs.«206539_g3985729650836_cont_8to1_b_247_13_alg».proof.Proof.ScValue
import proofs.«206539_g3985729650836_cont_8to1_b_247_13_alg».proof.Proof.KVal0
import proofs.«206539_g3985729650836_cont_8to1_b_247_13_alg».proof.Proof.PreFacts
import proofs.«206539_g3985729650836_cont_8to1_b_247_13_alg».proof.Proof.LibHostLayout
import Idealize.ShloMosaic.Lib.Pipeline.Value

/-!
An entry of the kernel's messages array is the specification's.

Row e of a gather-and-add call's output, e inside the call's band, is the first image's row at the edge's first endpoint
plus the second image's row at its second endpoint; the last band of the weights is columns [256, 272) of W; the bias
row is b. With the endpoints in range the words' readings agree with the specification's, and the kernel's arrangement
of the message is the specification's by the split of the dense layer's sum.
-/

noncomputable section

open scoped BigOperators

namespace Cert.Proof.KI

open Cert.KernelIdeal Cert.KernelIdeal.Gen
open Idealize.ShloMosaic Idealize.ShloMosaic.ValueIdx
open Cert.Proof Cert.HostLayout

/-- An index word in [0, 9999], read as a natural and reduced into the table's extent, is the specification's row. -/
theorem rowOf_eq_src (ix : IVec ⟨1, ![320000]⟩ 32) (e : Fin 320000)
    (h : 0 ≤ (ix (ix1 e)).toInt ∧ (ix (ix1 e)).toInt ≤ 9999) : rowOf 10000 (ix (ix1 e)) = Spec.src ix e := by
  have hl : (ix (ix1 e)).toNat < 4294967296 := (ix (ix1 e)).isLt
  have hx := BitVec.toInt_eq_toNat_cond (ix (ix1 e))
  have hxn : ((ix (ix1 e)).toNat : Int) = (ix (ix1 e)).toInt := by
    split at hx <;> omega
  apply Fin.ext
  show (ix (ix1 e)).toNat % 10000 = min (ix (ix1 e)).toInt.toNat 9999
  omega

/-- Row e - ebase of a call that starts at edge ebase is edge e. -/
theorem edgeIx_sub (ebase : ℕ) (e : Fin 320000) (h : ebase ≤ e.val) : edgeIx ebase (e.val - ebase) = ix1 e := by
  unfold edgeIx
  refine congrArg ix1 (Fin.ext ?_)
  have he := e.isLt
  show (ebase + (e.val - ebase)) % 320000 = e.val
  rw [Nat.add_sub_cancel' h, Nat.mod_eq_of_lt he]

/-- THE JOIN. For an edge e in the band [ebase, ebase + R) of a gather-and-add call, the kernel's value at (e, o) — the
    activation of the call's entry plus the radial term plus the bias — is the specification's message. -/
theorem edge_eq (R ebase : ℕ) (z : IVec ⟨1, ![10000]⟩ 32) (rbf : FVec Ideal ⟨2, ![320000, 16]⟩ .f32) (ii jj : IVec ⟨1, ![320000]⟩ 32)
    (emb : FVec Ideal ⟨2, ![93, 128]⟩ .f32) (W : FVec Ideal ⟨2, ![128, 272]⟩ .f32) (b : FVec Ideal ⟨1, ![128]⟩ .f32)
    (hi : ∀ e, 0 ≤ (ii e).toInt ∧ (ii e).toInt ≤ 9999) (hj : ∀ e, 0 ≤ (jj e).toInt ∧ (jj e).toInt ≤ 9999)
    (e : Fin 320000) (he : ebase ≤ e.val ∧ e.val < ebase + R) (o : Fin 128) :
    Algebra.act ((scOut (F := Ideal) R ebase (Gi z emb W) (Gj z emb W) ii jj (ix2 ⟨e.val - ebase, by omega⟩ o)
          + ∑ k : Fin 16, rbf (ix2 e k) * (extractStridedSlice S128x16 ![0, 256] W slices_S128x272_S128x16_0_256) (ix2 o k))
        + (shapeCast S1x128 b shapeCasts_S128_S1x128) (ix2 (0 : Fin 1) o))
      = Spec.Gm z rbf ii jj emb W b (ix2 e o) := by
  rw [Algebra.Gm_entry]
  refine congrArg Algebra.act ?_
  have hs : scOut (F := Ideal) R ebase (Gi z emb W) (Gj z emb W) ii jj (ix2 ⟨e.val - ebase, by omega⟩ o)
      = Algebra.gi z emb W (Spec.src ii e) o + Algebra.gj z emb W (Spec.src jj e) o := by
    show Gi z emb W (ix2 (rowOf 10000 (ii (edgeIx ebase (e.val - ebase)))) o)
        + Gj z emb W (ix2 (rowOf 10000 (jj (edgeIx ebase (e.val - ebase)))) o) = _
    rw [edgeIx_sub ebase e he.1, rowOf_eq_src ii e (hi _), rowOf_eq_src jj e (hj _)]
    rfl
  have ht : ∀ k : Fin 16, (extractStridedSlice S128x16 ![0, 256] W slices_S128x272_S128x16_0_256) (ix2 o k)
      = W (ix2 o ⟨256 + k.val, by omega⟩) := fun k => by
    refine extractStridedSlice_apply ![0, 256] W slices_S128x272_S128x16_0_256 (ix2 o k) (ix2 o ⟨256 + k.val, by omega⟩) ?_
    intro a
    match a with
    | ⟨0, _⟩ => exact (Nat.zero_add _).symm
    | ⟨1, _⟩ => rfl
  have hb : (shapeCast S1x128 b shapeCasts_S128_S1x128) (ix2 (0 : Fin 1) o) = b (ix1 o) :=
    reshape_rowvec_apply shapeCasts_S128_S1x128 b 0 o
  rw [hs, hb]
  refine congrArg (· + b (ix1 o)) (congrArg (Algebra.gi z emb W (Spec.src ii e) o + Algebra.gj z emb W (Spec.src jj e) o + ·) ?_)
  exact Finset.sum_congr rfl fun k _ => by rw [ht k]

/-- The same from the precondition itself. -/
theorem edge_eq_of_pre (R ebase : ℕ) (z : IVec ⟨1, ![10000]⟩ 32) (rbf : FVec Ideal ⟨2, ![320000, 16]⟩ .f32) (ii jj : IVec ⟨1, ![320000]⟩ 32)
    (emb : FVec Ideal ⟨2, ![93, 128]⟩ .f32) (W : FVec Ideal ⟨2, ![128, 272]⟩ .f32) (b : FVec Ideal ⟨1, ![128]⟩ .f32)
    (hpre : Cert.Pre_input_domain.fn (F := Ideal) z rbf ii jj emb W b = fun _ => 1#1)
    (e : Fin 320000) (he : ebase ≤ e.val ∧ e.val < ebase + R) (o : Fin 128) :
    Algebra.act ((scOut (F := Ideal) R ebase (Gi z emb W) (Gj z emb W) ii jj (ix2 ⟨e.val - ebase, by omega⟩ o)
          + ∑ k : Fin 16, rbf (ix2 e k) * (extractStridedSlice S128x16 ![0, 256] W slices_S128x272_S128x16_0_256) (ix2 o k))
        + (shapeCast S1x128 b shapeCasts_S128_S1x128) (ix2 (0 : Fin 1) o))
      = Spec.Gm z rbf ii jj emb W b (ix2 e o) :=
  edge_eq R ebase z rbf ii jj emb W b (PreFacts.ii_range z rbf ii jj emb W b hpre) (PreFacts.jj_range z rbf ii jj emb W b hpre) e he o

end Cert.Proof.KI

end
-- ==== Proof.KPayE.lean ====
import proofs.«206539_g3985729650836_cont_8to1_b_247_13_alg».proof.Proof.Gen.KernelIdeal.Skeleton
import proofs.«206539_g3985729650836_cont_8to1_b_247_13_alg».proof.Proof.Algebra
import proofs.«206539_g3985729650836_cont_8to1_b_247_13_alg».proof.Proof.LibMatRowsT
import Idealize.ShloMosaic.Lib.Pipeline.Value
import Idealize.ShloMosaic.Lib.IdealHost
import Idealize.ShloMosaic.PureOps.Ideal.Laws
import Idealize.ShloMosaic.Lib.ValueIdx

/-!
The three output stages' payload read at one entry, at the ideal instance.

A block of 1600 edges: entry (p, o) is x / (1 + exp (0 - x)) with x the gathered sum's entry, plus row p of the radial
features against row o of the last band of the weights (a product against a transposed right operand, accumulated into
zero), plus entry o of the bias row. The two float literals of the text, 0.0 and 1.0, denote 0 and 1.
-/

noncomputable section

open scoped BigOperators

namespace Cert.Proof.KPayE

open Idealize.ShloMosaic Idealize.ShloMosaic.ValueIdx Cert.KernelIdeal Cert.KernelIdeal.Gen Cert.Proof

/-- The exponential of a vector at an index is the ideal exponential of the entry. -/
theorem exp_apply {s : Shape} {φ : FTy} (a : FVec Ideal s φ) (i : s.Idx) : exp a i = Ideal.exp (a i) := rfl

/-- The radial term at entry (p, o). -/
theorem radial_apply (r0 : FVec Ideal S1600x16 .f32) (w : FVec Ideal S128x16 .f32) (p : Fin 1600) (o : Fin 128) :
    matmul (F := Ideal) dot_S1600x16_S128x16_S1600x128_1_1_0_0_n_n none r0 w (constant (F := Ideal) S1600x128 .f32 0x00000000#32) (ix2 p o)
      = ∑ k : Fin 16, r0 (ix2 p k) * w (ix2 o k) := by
  show matmul (DotDims.transposedRhs 1600 16 128) none r0 w (constant (F := Ideal) ⟨2, ![1600, 128]⟩ .f32 0x00000000#32) (ix2 p o) = _
  rw [MatRowsT.matmul_trhs_apply]

/-- The bias row repeated down the block, at entry (p, o). -/
theorem biasrow_apply (b : Vec Ideal S1x128 .f32) (p : Fin 1600) (o : Fin 128) :
    broadcastTo S1600x128 b broadcasts_S1x128_S1600x128 (ix2 p o) = b (ix2 (0 : Fin 1) o) :=
  broadcastTo_apply b broadcasts_S1x128_S1600x128 (ix2 p o) (ix2 (0 : Fin 1) o) (fun a => by
    match a with
    | ⟨0, _⟩ => rfl
    | ⟨1, _⟩ => rfl)

/-- The payload of output stage 1 at entry (p, o): the activation of the gathered sum plus the radial term plus the bias. -/
theorem pay4_apply (r0 : Vec Ideal S1600x16 .f32) (w : Vec Ideal S128x16 .f32) (s : Vec Ideal S1600x128 .f32) (b : Vec Ideal S1x128 .f32)
    (p : Fin 1600) (o : Fin 128) :
    k4_pay1 r0 w s b (ix2 p o)
      = Algebra.act ((s (ix2 p o) + ∑ k : Fin 16, r0 (ix2 p k) * w (ix2 o k)) + b (ix2 (0 : Fin 1) o)) := by
  unfold k4_pay1
  rw [shapeCast_self, shapeCast_self, shapeCast_self]
  simp only [divf_apply, addf_apply, subf_apply, broadcast_apply, exp_apply, radial_apply, Ideal.ofBits_def,
    Ideal.ofBits_one_f32, Ideal.ofBits_zero_f32, Algebra.act]
  rw [biasrow_apply]

/-- The payload of output stage 2 at entry (p, o): the activation of the gathered sum plus the radial term plus the bias. -/
theorem pay5_apply (r0 : Vec Ideal S1600x16 .f32) (w : Vec Ideal S128x16 .f32) (s : Vec Ideal S1600x128 .f32) (b : Vec Ideal S1x128 .f32)
    (p : Fin 1600) (o : Fin 128) :
    k5_pay1 r0 w s b (ix2 p o)
      = Algebra.act ((s (ix2 p o) + ∑ k : Fin 16, r0 (ix2 p k) * w (ix2 o k)) + b (ix2 (0 : Fin 1) o)) := by
  unfold k5_pay1
  rw [shapeCast_self, shapeCast_self, shapeCast_self]
  simp only [divf_apply, addf_apply, subf_apply, broadcast_apply, exp_apply, radial_apply, Ideal.ofBits_def,
    Ideal.ofBits_one_f32, Ideal.ofBits_zero_f32, Algebra.act]
  rw [biasrow_apply]

/-- The payload of output stage 3 at entry (p, o): the activation of the gathered sum plus the radial term plus the bias. -/
theorem pay6_apply (r0 : Vec Ideal S1600x16 .f32) (w : Vec Ideal S128x16 .f32) (s : Vec Ideal S1600x128 .f32) (b : Vec Ideal S1x128 .f32)
    (p : Fin 1600) (o : Fin 128) :
    k6_pay1 r0 w s b (ix2 p o)
      = Algebra.act ((s (ix2 p o) + ∑ k : Fin 16, r0 (ix2 p k) * w (ix2 o k)) + b (ix2 (0 : Fin 1) o)) := by
  unfold k6_pay1
  rw [shapeCast_self, shapeCast_self, shapeCast_self]
  simp only [divf_apply, addf_apply, subf_apply, broadcast_apply, exp_apply, radial_apply, Ideal.ofBits_def,
    Ideal.ofBits_one_f32, Ideal.ofBits_zero_f32, Algebra.act]
  rw [biasrow_apply]

end Cert.Proof.KPayE

end
-- ==== Proof.KValE.lean ====
import proofs.«206539_g3985729650836_cont_8to1_b_247_13_alg».proof.Proof.TcData
import proofs.«206539_g3985729650836_cont_8to1_b_247_13_alg».proof.Proof.Algebra
import proofs.«206539_g3985729650836_cont_8to1_b_247_13_alg».proof.Proof.KPayE

/-!
What each of the three output stages leaves in its output array, entry by entry, at the ideal instance.

Stage K runs over blocks of 1600 edges: its block t is block t + 0, t + 68 or t + 136 of the 200 blocks of the messages'
array, the same block of the radial features, and block t of the stage's own gathered sums. On a row of the stage's band
the array ends holding x / (1 + exp (0 - x)) with x the gathered sum's entry plus the radial term plus the bias; a row
outside the band keeps what the array held when the stage was entered.
-/

noncomputable section

open scoped BigOperators

namespace Cert.Proof.KI

open Cert.KernelIdeal Cert.KernelIdeal.Gen

open Idealize.ShloMosaic Idealize.ShloMosaic.TcCoe Idealize.ShloMosaic.ValueIdx
open Idealize.ShloMosaic.SparseCore.Cfg (HIx Pay)
open Idealize.SL Idealize.SL.Sem
open Idealize.ShloMosaic.Pipeline (Dat Cfg Window)
open Cert.Proof

theorem zero2E : (![0, 0] : Fin 2 → Nat) = fun _ => 0 := funext fun a => by fin_cases a <;> rfl

section Stages

variable (V : (d : Dev nD) → (b : Ref sig .tc) → Buf (Elt Ideal) ((d.tc : Thread nD τ).loc b)) (d : Dev nD)

/-! ## Output stage 1: rows [0, 108800) -/

theorem idx4 : ∀ t : Fin cfg4.N, win4_0.index t (0 : Fin 2) = t.val ∧ win4_0.index t (1 : Fin 2) = 0
    ∧ win4_1.index t (0 : Fin 2) = t.val + 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val + 0 ∧ win4_4.index t (1 : Fin 2) = 0 :=
  (by decide +kernel : ∀ t : Fin grid4.N, _)

/-- What the stage's output array holds on the stage's rows, as one function of the arrays the stage reads. -/
def GE4 (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32) : FVec Ideal ⟨2, ![320000, 128]⟩ .f32 := fun y =>
  Algebra.act ((s (ix2 ⟨((y 0).val - 0) % 108800, Nat.mod_lt _ (by decide)⟩ (y 1))
      + ∑ k : Fin 16, rbf (ix2 (y 0) k) * w3 (ix2 (y 1) k))
    + b4 (ix2 (0 : Fin 1) (y 1)))

set_option maxHeartbeats 1000000 in
/-- WHAT POINT t WRITES BACK is block t + 0 of that function. -/
theorem flushedE4_eq (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32)
    (hs : V d main_v5 = s) (hr : V d main_arg1 = rbf) (h3 : V d main_v3 = w3) (h4 : V d main_v4 = b4) (t : Fin cfg4.N) :
    (dat4 V (fun _ => 0) Set.univ d).flushed 4 t = ((cfg4.win 4).blk t).view.read (Elt Ideal) (GE4 s rbf w3 b4) := by
  have hafter : (dat4 V (fun _ => 0) Set.univ d).after 4 t
      = outM4 (iblk4 V d 0 t) (iblk4 V d 1 t) (iblk4 V d 2 t) (iblk4 V d 3 t) := by dsimp only [dat4]
  show (cfg4.win 4).cut (grid4.coords t) ((dat4 V (fun _ => 0) Set.univ d).after 4 t) = _
  rw [hafter]
  unfold outM4
  rw [View.canon_unit_zero zero2E]
  simp only [View.ld_unit_zero (S := S1600x16) zero2E, View.ld_unit_zero (S := S128x16) zero2E,
    View.ld_unit_zero (S := S1600x128) zero2E, View.ld_unit_zero (S := S1x128) zero2E]
  obtain ⟨e00, e01, e10, e11, e20, e21, e30, e31, e40, e41⟩ := idx4 t
  have ht : t.val < 68 := t.isLt
  funext j
  obtain ⟨p, o, rfl⟩ : ∃ (p : Fin 1600) (o : Fin 128), j = ix2 p o := ⟨j 0, j 1, eq_ix2 (n0 := 1600) (n1 := 128) j⟩
  show k4_pay1 (iblk4 V d 1 t) (iblk4 V d 2 t) (iblk4 V d 0 t) (iblk4 V d 3 t) (ix2 p o)
    = GE4 s rbf w3 b4 (((cfg4.win 4).blk t).view.emb (ix2 p o))
  have hemb4 : ((cfg4.win 4).blk t).view.emb (ix2 p o) = ix2 (⟨(t.val) * 1600 + p.val, by omega⟩ : Fin 320000) o := by
    funext a; apply Fin.ext
    match a with
    | ⟨0, _⟩ => show win4_4.index t (0 : Fin 2) * 1600 + 1 * p.val = (t.val) * 1600 + p.val; omega
    | ⟨1, _⟩ => show win4_4.index t (1 : Fin 2) * 128 + 1 * o.val = o.val; omega
  have h0 : iblk4 V d 0 t (ix2 p o) = s (ix2 (⟨t.val * 1600 + p.val, by omega⟩ : Fin 108800) o) := by
    show V d main_v5 (((cfg4.win 0).blk t).view.emb (ix2 p o)) = _
    rw [hs]
    refine congrArg s (funext fun a => Fin.ext ?_)
    match a with
    | ⟨0, _⟩ => show win4_0.index t (0 : Fin 2) * 1600 + 1 * p.val = t.val * 1600 + p.val; omega
    | ⟨1, _⟩ => show win4_0.index t (1 : Fin 2) * 128 + 1 * o.val = o.val; omega
  have h1 : ∀ k : Fin 16, iblk4 V d 1 t (ix2 p k) = rbf (ix2 (⟨(t.val) * 1600 + p.val, by omega⟩ : Fin 320000) k) := fun k => by
    show V d main_arg1 (((cfg4.win 1).blk t).view.emb (ix2 p k)) = _
    rw [hr]
    refine congrArg rbf (funext fun a => Fin.ext ?_)
    match a with
    | ⟨0, _⟩ => show win4_1.index t (0 : Fin 2) * 1600 + 1 * p.val = (t.val) * 1600 + p.val; omega
    | ⟨1, _⟩ => show win4_1.index t (1 : Fin 2) * 16 + 1 * k.val = k.val; omega
  have h2 : ∀ k : Fin 16, iblk4 V d 2 t (ix2 o k) = w3 (ix2 o k) := fun k => by
    show V d main_v3 (((cfg4.win 2).blk t).view.emb (ix2 o k)) = _
    rw [h3]
    refine congrArg w3 (funext fun a => Fin.ext ?_)
    match a with
    | ⟨0, _⟩ => show win4_2.index t (0 : Fin 2) * 128 + 1 * o.val = o.val; omega
    | ⟨1, _⟩ => show win4_2.index t (1 : Fin 2) * 16 + 1 * k.val = k.val; omega
  have h3' : iblk4 V d 3 t (ix2 (0 : Fin 1) o) = b4 (ix2 (0 : Fin 1) o) := by
    show V d main_v4 (((cfg4.win 3).blk t).view.emb (ix2 (0 : Fin 1) o)) = _
    rw [h4]
    refine congrArg b4 (funext fun a => Fin.ext ?_)
    match a with
    | ⟨0, _⟩ => show win4_3.index t (0 : Fin 2) * 1 + 1 * 0 = 0; omega
    | ⟨1, _⟩ => show win4_3.index t (1 : Fin 2) * 128 + 1 * o.val = o.val; omega
  rw [KPayE.pay4_apply, hemb4, h0, h3']
  simp only [h1, h2]
  show _ = Algebra.act ((s (ix2 ⟨((t.val) * 1600 + p.val - 0) % 108800, Nat.mod_lt _ (by decide)⟩ o)
        + ∑ k : Fin 16, rbf (ix2 (⟨(t.val) * 1600 + p.val, by omega⟩ : Fin 320000) k) * w3 (ix2 o k))
      + b4 (ix2 (0 : Fin 1) o))
  have hrow : (⟨t.val * 1600 + p.val, by omega⟩ : Fin 108800) = ⟨((t.val) * 1600 + p.val - 0) % 108800, Nat.mod_lt _ (by decide)⟩ := by
    apply Fin.ext
    show t.val * 1600 + p.val = ((t.val) * 1600 + p.val - 0) % 108800
    omega
  rw [hrow]

/-- An index of the output array is in point t's block iff each coordinate is in the block's range on its axis. -/
theorem mem_blk4 (t : Fin cfg4.N) (i : S320000x128.Idx) :
    i ∈ ((cfg4.win 4).blk t).view.set ↔ ∀ a : Fin 2, win4_4.index t a * S1600x128.size a ≤ (i a).val
      ∧ (i a).val < win4_4.index t a * S1600x128.size a + S1600x128.size a := by
  show i ∈ ((View.whole main_v8).slice (win4_4.rect t)).set ↔ _
  rw [View.set_slice_whole, Rect.mem_set_unit]
  exact Iff.rfl

/-- The rows some point of the stage writes: exactly the stage's band. -/
theorem covered4 (i : S320000x128.Idx) :
    (∃ t : Fin cfg4.N, (cfg4.win 4).flush t = true ∧ i ∈ ((cfg4.win 4).blk t).view.set)
      ↔ 0 ≤ (i 0).val ∧ (i 0).val < 108800 := by
  have hi1 : (i 1).val < 128 := (i 1).isLt
  constructor
  · rintro ⟨t, -, hi⟩
    rw [mem_blk4] at hi
    have b0 : win4_4.index t (0 : Fin 2) * 1600 ≤ (i 0).val ∧ (i 0).val < win4_4.index t (0 : Fin 2) * 1600 + 1600 := hi 0
    obtain ⟨e00, e01, e10, e11, e20, e21, e30, e31, e40, e41⟩ := idx4 t
    have ht : t.val < 68 := t.isLt
    omega
  · intro h
    have ht : (i 0).val / 1600 - 0 < 68 := by omega
    refine ⟨⟨(i 0).val / 1600 - 0, ht⟩, flush4_4 _, ?_⟩
    rw [mem_blk4]
    obtain ⟨e00, e01, e10, e11, e20, e21, e30, e31, e40, e41⟩ := idx4 ⟨(i 0).val / 1600 - 0, ht⟩
    intro a
    match a with
    | ⟨0, _⟩ =>
      show win4_4.index ⟨(i 0).val / 1600 - 0, ht⟩ (0 : Fin 2) * 1600 ≤ (i 0).val
        ∧ (i 0).val < win4_4.index ⟨(i 0).val / 1600 - 0, ht⟩ (0 : Fin 2) * 1600 + 1600
      rw [e40]
      show ((i 0).val / 1600 - 0 + 0) * 1600 ≤ (i 0).val ∧ (i 0).val < ((i 0).val / 1600 - 0 + 0) * 1600 + 1600
      omega
    | ⟨1, _⟩ =>
      show win4_4.index ⟨(i 0).val / 1600 - 0, ht⟩ (1 : Fin 2) * 128 ≤ (i 1).val
        ∧ (i 1).val < win4_4.index ⟨(i 0).val / 1600 - 0, ht⟩ (1 : Fin 2) * 128 + 128
      rw [e41]
      omega

/-- THE STAGE'S OUTPUT ARRAY on a row of its band: the activation of the gathered sum plus the radial term plus the bias. -/
theorem M1_in (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32)
    (hs : V d main_v5 = s) (hr : V d main_arg1 = rbf) (h3 : V d main_v3 = w3) (h4 : V d main_v4 = b4) (e : Fin 320000) (he : e.val < 108800) (o : Fin 128) :
    M1 V d (ix2 e o)
      = Algebra.act ((s (ix2 ⟨e.val, he⟩ o) + ∑ k : Fin 16, rbf (ix2 e k) * w3 (ix2 o k)) + b4 (ix2 (0 : Fin 1) o)) := by
  have hel := e.isLt
  show (dat4 V (fun _ => 0) Set.univ d).arrAt 4 cfg4.N (ix2 e o) = _
  rw [(dat4 V (fun _ => 0) Set.univ d).arrAt_eq_piecewise 4 (GE4 s rbf w3 b4)
    (fun t _ => flushedE4_eq V d s rbf w3 b4 hs hr h3 h4 t) (ix2 e o),
    if_pos ((covered4 (ix2 e o)).2 (by show 0 ≤ e.val ∧ e.val < 108800; omega))]
  show Algebra.act ((s (ix2 ⟨(e.val - 0) % 108800, Nat.mod_lt _ (by decide)⟩ o)
        + ∑ k : Fin 16, rbf (ix2 e k) * w3 (ix2 o k)) + b4 (ix2 (0 : Fin 1) o)) = _
  have hrow : (⟨(e.val - 0) % 108800, Nat.mod_lt _ (by decide)⟩ : Fin 108800) = ⟨e.val, he⟩ := by
    apply Fin.ext
    show (e.val - 0) % 108800 = e.val - 0
    omega
  rw [hrow]

/-- THE STAGE'S OUTPUT ARRAY on a row outside its band: what the array held when the stage was entered. -/
theorem M1_out (e : Fin 320000) (he : 108800 ≤ e.val) (o : Fin 128) : M1 V d (ix2 e o) = V d main_v8 (ix2 e o) := by
  have hel := e.isLt
  show (dat4 V (fun _ => 0) Set.univ d).arrAt 4 cfg4.N (ix2 e o) = _
  rw [(dat4 V (fun _ => 0) Set.univ d).arrAt_eq_piecewise 4 (GE4 (V d main_v5) (V d main_arg1) (V d main_v3) (V d main_v4))
    (fun t _ => flushedE4_eq V d _ _ _ _ rfl rfl rfl rfl t) (ix2 e o),
    if_neg (fun hc => by
      have := (covered4 (ix2 e o)).1 hc
      have h' : 0 ≤ e.val ∧ e.val < 108800 := this
      omega)]
  rfl

/-! ## Output stage 2: rows [108800, 217600) -/

theorem idx5 : ∀ t : Fin cfg5.N, win5_0.index t (0 : Fin 2) = t.val ∧ win5_0.index t (1 : Fin 2) = 0
    ∧ win5_1.index t (0 : Fin 2) = t.val + 68 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val + 68 ∧ win5_4.index t (1 : Fin 2) = 0 :=
  (by decide +kernel : ∀ t : Fin grid5.N, _)

/-- What the stage's output array holds on the stage's rows, as one function of the arrays the stage reads. -/
def GE5 (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32) : FVec Ideal ⟨2, ![320000, 128]⟩ .f32 := fun y =>
  Algebra.act ((s (ix2 ⟨((y 0).val - 108800) % 108800, Nat.mod_lt _ (by decide)⟩ (y 1))
      + ∑ k : Fin 16, rbf (ix2 (y 0) k) * w3 (ix2 (y 1) k))
    + b4 (ix2 (0 : Fin 1) (y 1)))

set_option maxHeartbeats 1000000 in
/-- WHAT POINT t WRITES BACK is block t + 68 of that function. -/
theorem flushedE5_eq (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32)
    (hs : V d main_v6 = s) (hr : V d main_arg1 = rbf) (h3 : V d main_v3 = w3) (h4 : V d main_v4 = b4) (t : Fin cfg5.N) :
    (dat5 V (fun _ => 0) Set.univ d).flushed 4 t = ((cfg5.win 4).blk t).view.read (Elt Ideal) (GE5 s rbf w3 b4) := by
  have hafter : (dat5 V (fun _ => 0) Set.univ d).after 4 t
      = outM5 (iblk5 V d 0 t) (iblk5 V d 1 t) (iblk5 V d 2 t) (iblk5 V d 3 t) := by dsimp only [dat5]
  show (cfg5.win 4).cut (grid5.coords t) ((dat5 V (fun _ => 0) Set.univ d).after 4 t) = _
  rw [hafter]
  unfold outM5
  rw [View.canon_unit_zero zero2E]
  simp only [View.ld_unit_zero (S := S1600x16) zero2E, View.ld_unit_zero (S := S128x16) zero2E,
    View.ld_unit_zero (S := S1600x128) zero2E, View.ld_unit_zero (S := S1x128) zero2E]
  obtain ⟨e00, e01, e10, e11, e20, e21, e30, e31, e40, e41⟩ := idx5 t
  have ht : t.val < 68 := t.isLt
  funext j
  obtain ⟨p, o, rfl⟩ : ∃ (p : Fin 1600) (o : Fin 128), j = ix2 p o := ⟨j 0, j 1, eq_ix2 (n0 := 1600) (n1 := 128) j⟩
  show k5_pay1 (iblk5 V d 1 t) (iblk5 V d 2 t) (iblk5 V d 0 t) (iblk5 V d 3 t) (ix2 p o)
    = GE5 s rbf w3 b4 (((cfg5.win 4).blk t).view.emb (ix2 p o))
  have hemb4 : ((cfg5.win 4).blk t).view.emb (ix2 p o) = ix2 (⟨(t.val + 68) * 1600 + p.val, by omega⟩ : Fin 320000) o := by
    funext a; apply Fin.ext
    match a with
    | ⟨0, _⟩ => show win5_4.index t (0 : Fin 2) * 1600 + 1 * p.val = (t.val + 68) * 1600 + p.val; omega
    | ⟨1, _⟩ => show win5_4.index t (1 : Fin 2) * 128 + 1 * o.val = o.val; omega
  have h0 : iblk5 V d 0 t (ix2 p o) = s (ix2 (⟨t.val * 1600 + p.val, by omega⟩ : Fin 108800) o) := by
    show V d main_v6 (((cfg5.win 0).blk t).view.emb (ix2 p o)) = _
    rw [hs]
    refine congrArg s (funext fun a => Fin.ext ?_)
    match a with
    | ⟨0, _⟩ => show win5_0.index t (0 : Fin 2) * 1600 + 1 * p.val = t.val * 1600 + p.val; omega
    | ⟨1, _⟩ => show win5_0.index t (1 : Fin 2) * 128 + 1 * o.val = o.val; omega
  have h1 : ∀ k : Fin 16, iblk5 V d 1 t (ix2 p k) = rbf (ix2 (⟨(t.val + 68) * 1600 + p.val, by omega⟩ : Fin 320000) k) := fun k => by
    show V d main_arg1 (((cfg5.win 1).blk t).view.emb (ix2 p k)) = _
    rw [hr]
    refine congrArg rbf (funext fun a => Fin.ext ?_)
    match a with
    | ⟨0, _⟩ => show win5_1.index t (0 : Fin 2) * 1600 + 1 * p.val = (t.val + 68) * 1600 + p.val; omega
    | ⟨1, _⟩ => show win5_1.index t (1 : Fin 2) * 16 + 1 * k.val = k.val; omega
  have h2 : ∀ k : Fin 16, iblk5 V d 2 t (ix2 o k) = w3 (ix2 o k) := fun k => by
    show V d main_v3 (((cfg5.win 2).blk t).view.emb (ix2 o k)) = _
    rw [h3]
    refine congrArg w3 (funext fun a => Fin.ext ?_)
    match a with
    | ⟨0, _⟩ => show win5_2.index t (0 : Fin 2) * 128 + 1 * o.val = o.val; omega
    | ⟨1, _⟩ => show win5_2.index t (1 : Fin 2) * 16 + 1 * k.val = k.val; omega
  have h3' : iblk5 V d 3 t (ix2 (0 : Fin 1) o) = b4 (ix2 (0 : Fin 1) o) := by
    show V d main_v4 (((cfg5.win 3).blk t).view.emb (ix2 (0 : Fin 1) o)) = _
    rw [h4]
    refine congrArg b4 (funext fun a => Fin.ext ?_)
    match a with
    | ⟨0, _⟩ => show win5_3.index t (0 : Fin 2) * 1 + 1 * 0 = 0; omega
    | ⟨1, _⟩ => show win5_3.index t (1 : Fin 2) * 128 + 1 * o.val = o.val; omega
  rw [KPayE.pay5_apply, hemb4, h0, h3']
  simp only [h1, h2]
  show _ = Algebra.act ((s (ix2 ⟨((t.val + 68) * 1600 + p.val - 108800) % 108800, Nat.mod_lt _ (by decide)⟩ o)
        + ∑ k : Fin 16, rbf (ix2 (⟨(t.val + 68) * 1600 + p.val, by omega⟩ : Fin 320000) k) * w3 (ix2 o k))
      + b4 (ix2 (0 : Fin 1) o))
  have hrow : (⟨t.val * 1600 + p.val, by omega⟩ : Fin 108800) = ⟨((t.val + 68) * 1600 + p.val - 108800) % 108800, Nat.mod_lt _ (by decide)⟩ := by
    apply Fin.ext
    show t.val * 1600 + p.val = ((t.val + 68) * 1600 + p.val - 108800) % 108800
    omega
  rw [hrow]

/-- An index of the output array is in point t's block iff each coordinate is in the block's range on its axis. -/
theorem mem_blk5 (t : Fin cfg5.N) (i : S320000x128.Idx) :
    i ∈ ((cfg5.win 4).blk t).view.set ↔ ∀ a : Fin 2, win5_4.index t a * S1600x128.size a ≤ (i a).val
      ∧ (i a).val < win5_4.index t a * S1600x128.size a + S1600x128.size a := by
  show i ∈ ((View.whole main_v9).slice (win5_4.rect t)).set ↔ _
  rw [View.set_slice_whole, Rect.mem_set_unit]
  exact Iff.rfl

/-- The rows some point of the stage writes: exactly the stage's band. -/
theorem covered5 (i : S320000x128.Idx) :
    (∃ t : Fin cfg5.N, (cfg5.win 4).flush t = true ∧ i ∈ ((cfg5.win 4).blk t).view.set)
      ↔ 108800 ≤ (i 0).val ∧ (i 0).val < 217600 := by
  have hi1 : (i 1).val < 128 := (i 1).isLt
  constructor
  · rintro ⟨t, -, hi⟩
    rw [mem_blk5] at hi
    have b0 : win5_4.index t (0 : Fin 2) * 1600 ≤ (i 0).val ∧ (i 0).val < win5_4.index t (0 : Fin 2) * 1600 + 1600 := hi 0
    obtain ⟨e00, e01, e10, e11, e20, e21, e30, e31, e40, e41⟩ := idx5 t
    have ht : t.val < 68 := t.isLt
    omega
  · intro h
    have ht : (i 0).val / 1600 - 68 < 68 := by omega
    refine ⟨⟨(i 0).val / 1600 - 68, ht⟩, flush5_4 _, ?_⟩
    rw [mem_blk5]
    obtain ⟨e00, e01, e10, e11, e20, e21, e30, e31, e40, e41⟩ := idx5 ⟨(i 0).val / 1600 - 68, ht⟩
    intro a
    match a with
    | ⟨0, _⟩ =>
      show win5_4.index ⟨(i 0).val / 1600 - 68, ht⟩ (0 : Fin 2) * 1600 ≤ (i 0).val
        ∧ (i 0).val < win5_4.index ⟨(i 0).val / 1600 - 68, ht⟩ (0 : Fin 2) * 1600 + 1600
      rw [e40]
      show ((i 0).val / 1600 - 68 + 68) * 1600 ≤ (i 0).val ∧ (i 0).val < ((i 0).val / 1600 - 68 + 68) * 1600 + 1600
      omega
    | ⟨1, _⟩ =>
      show win5_4.index ⟨(i 0).val / 1600 - 68, ht⟩ (1 : Fin 2) * 128 ≤ (i 1).val
        ∧ (i 1).val < win5_4.index ⟨(i 0).val / 1600 - 68, ht⟩ (1 : Fin 2) * 128 + 128
      rw [e41]
      omega

/-- THE STAGE'S OUTPUT ARRAY on a row of its band: the activation of the gathered sum plus the radial term plus the bias. -/
theorem M2_in (s : FVec Ideal ⟨2, ![108800, 128]⟩ .f32) (rbf : FVec Ideal ⟨2, ![320000, 16]⟩ .f32) (w3 : FVec Ideal ⟨2, ![128, 16]⟩ .f32) (b4 : FVec Ideal ⟨2, ![1, 128]⟩ .f32)
    (hs : V d main_v6 = s) (hr : V d main_arg1 = rbf) (h3 : V d main_v3 = w3) (h4 : V d main_v4 = b4) (e : Fin 320000) (he : 108800 ≤ e.val ∧ e.val < 217600) (o : Fin 128) :
    M2 V d (ix2 e o)
      = Algebra.act ((s (ix2 ⟨e.val - 108800, by omega⟩ o) + ∑ k : Fin 16, rbf (ix2 e k) * w3 (ix2 o k)) + b4 (ix2 (0 : Fin 1) o)) := by
  have hel := e.isLt
  show (dat5 V (fun _ => 0) Set.univ d).arrAt 4 cfg5.N (ix2 e o) = _
  rw [(dat5 V (fun _ => 0) Set.univ d).arrAt_eq_piecewise 4 (GE5 s rbf w3 b4)
    (fun t _ => flushedE5_eq V d s rbf w3 b4 hs hr h3 h4 t) (ix2 e o),
    if_pos ((covered5 (ix2 e o)).2 (by show 108800 ≤ e.val ∧ e.val < 217600; omega))]
  show Algebra.act ((s (ix2 ⟨(e.val - 108800) % 108800, Nat.mod_lt _ (by decide)⟩ o)
        + ∑ k : Fin 16, rbf (ix2 e k) * w3 (ix2 o k)) + b4 (ix2 (0 : Fin 1) o)) = _
  have hrow : (⟨(e.val - 108800) % 108800, Nat.mod_lt _ (by decide)⟩ : Fin 108800) = ⟨e.val - 108800, by omega⟩ := by
    apply Fin.ext
    show (e.val - 108800) % 108800 = e.val - 108800
    omega
  rw [hrow]

/-- THE STAGE'S OUTPUT ARRAY on a row outside its band: what the array held when the stage was entered. -/
theorem M2_out (e : Fin 320000) (he : ¬ (108800 ≤ e.val ∧ e.val < 217600)) (o : Fin 128) : M2 V d (ix2 e o) = V d main_v9 (ix2 e o) := by
  have hel := e.isLt
  show (dat5 V (fun _ => 0) Set.univ d).arrAt 4 cfg5.N (ix2 e o) = _
  rw [(dat5 V (fun _ => 0) Set.univ d).arrAt_eq_piecewise 4 (GE5 (V d main_v6) (V d main_arg1) (V d main_v3) (V d main_v4))
    (fun t _ => flushedE5_eq V d _ _ _ _ rfl rfl rfl rfl t) (ix2 e o),
    if_neg (fun hc => by
      have := (covered5 (ix2 e o)).1 hc
      have h' : 108800 ≤ e.val ∧ e.val < 217600 := this
      omega)]
  rfl

/-! ## Output stage 3: rows [217600, 320000) -/

theorem idx6 : ∀ t : Fin cfg6.N, win6_0.index t (0 : Fin 2) = t.val ∧ win6_0.index t (1 : Fin 2) = 0
    ∧ win6_1.index t (0 : Fin 2) = t.val + 136 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val + 136 ∧ win6_4.index t (1 : Fin 2) = 0 :=
  (by decide +kernel : ∀ t : Fin grid6.N, _)

/-- What the stage's output array holds on the stage's rows, as one function of the arrays the stage reads. -/
def GE6 (s : FVec Ideal ⟨2, ![102400, 128]⟩ .f32) (rbf : FVec Ideal ⟨2, ![320000, 16]⟩ .f32) (w3 : FVec Ideal ⟨2, ![128, 16]⟩ .f32) (b4 : FVec Ideal ⟨2, ![1, 128]⟩ .f32) : FVec Ideal ⟨2, ![320000, 128]⟩ .f32 := fun y =>
  Algebra.act ((s (ix2 ⟨((y 0).val - 217600) % 102400, Nat.mod_lt _ (by decide)⟩ (y 1))
      + ∑ k : Fin 16, rbf (ix2 (y 0) k) * w3 (ix2 (y 1) k))
    + b4 (ix2 (0 : Fin 1) (y 1)))

set_option maxHeartbeats 1000000 in
/-- WHAT POINT t WRITES BACK is block t + 136 of that function. -/
theorem flushedE6_eq (s : FVec Ideal ⟨2, ![102400, 128]⟩ .f32) (rbf : FVec Ideal ⟨2, ![320000, 16]⟩ .f32) (w3 : FVec Ideal ⟨2, ![128, 16]⟩ .f32) (b4 : FVec Ideal ⟨2, ![1, 128]⟩ .f32)
    (hs : V d main_v7 = s) (hr : V d main_arg1 = rbf) (h3 : V d main_v3 = w3) (h4 : V d main_v4 = b4) (t : Fin cfg6.N) :
    (dat6 V (fun _ => 0) Set.univ d).flushed 4 t = ((cfg6.win 4).blk t).view.read (Elt Ideal) (GE6 s rbf w3 b4) := by
  have hafter : (dat6 V (fun _ => 0) Set.univ d).after 4 t
      = outM6 (iblk6 V d 0 t) (iblk6 V d 1 t) (iblk6 V d 2 t) (iblk6 V d 3 t) := by dsimp only [dat6]
  show (cfg6.win 4).cut (grid6.coords t) ((dat6 V (fun _ => 0) Set.univ d).after 4 t) = _
  rw [hafter]
  unfold outM6
  rw [View.canon_unit_zero zero2E]
  simp only [View.ld_unit_zero (S := S1600x16) zero2E, View.ld_unit_zero (S := S128x16) zero2E,
    View.ld_unit_zero (S := S1600x128) zero2E, View.ld_unit_zero (S := S1x128) zero2E]
  obtain ⟨e00, e01, e10, e11, e20, e21, e30, e31, e40, e41⟩ := idx6 t
  have ht : t.val < 64 := t.isLt
  funext j
  obtain ⟨p, o, rfl⟩ : ∃ (p : Fin 1600) (o : Fin 128), j = ix2 p o := ⟨j 0, j 1, eq_ix2 (n0 := 1600) (n1 := 128) j⟩
  show k6_pay1 (iblk6 V d 1 t) (iblk6 V d 2 t) (iblk6 V d 0 t) (iblk6 V d 3 t) (ix2 p o)
    = GE6 s rbf w3 b4 (((cfg6.win 4).blk t).view.emb (ix2 p o))
  have hemb4 : ((cfg6.win 4).blk t).view.emb (ix2 p o) = ix2 (⟨(t.val + 136) * 1600 + p.val, by omega⟩ : Fin 320000) o := by
    funext a; apply Fin.ext
    match a with
    | ⟨0, _⟩ => show win6_4.index t (0 : Fin 2) * 1600 + 1 * p.val = (t.val + 136) * 1600 + p.val; omega
    | ⟨1, _⟩ => show win6_4.index t (1 : Fin 2) * 128 + 1 * o.val = o.val; omega
  have h0 : iblk6 V d 0 t (ix2 p o) = s (ix2 (⟨t.val * 1600 + p.val, by omega⟩ : Fin 102400) o) := by
    show V d main_v7 (((cfg6.win 0).blk t).view.emb (ix2 p o)) = _
    rw [hs]
    refine congrArg s (funext fun a => Fin.ext ?_)
    match a with
    | ⟨0, _⟩ => show win6_0.index t (0 : Fin 2) * 1600 + 1 * p.val = t.val * 1600 + p.val; omega
    | ⟨1, _⟩ => show win6_0.index t (1 : Fin 2) * 128 + 1 * o.val = o.val; omega
  have h1 : ∀ k : Fin 16, iblk6 V d 1 t (ix2 p k) = rbf (ix2 (⟨(t.val + 136) * 1600 + p.val, by omega⟩ : Fin 320000) k) := fun k => by
    show V d main_arg1 (((cfg6.win 1).blk t).view.emb (ix2 p k)) = _
    rw [hr]
    refine congrArg rbf (funext fun a => Fin.ext ?_)
    match a with
    | ⟨0, _⟩ => show win6_1.index t (0 : Fin 2) * 1600 + 1 * p.val = (t.val + 136) * 1600 + p.val; omega
    | ⟨1, _⟩ => show win6_1.index t (1 : Fin 2) * 16 + 1 * k.val = k.val; omega
  have h2 : ∀ k : Fin 16, iblk6 V d 2 t (ix2 o k) = w3 (ix2 o k) := fun k => by
    show V d main_v3 (((cfg6.win 2).blk t).view.emb (ix2 o k)) = _
    rw [h3]
    refine congrArg w3 (funext fun a => Fin.ext ?_)
    match a with
    | ⟨0, _⟩ => show win6_2.index t (0 : Fin 2) * 128 + 1 * o.val = o.val; omega
    | ⟨1, _⟩ => show win6_2.index t (1 : Fin 2) * 16 + 1 * k.val = k.val; omega
  have h3' : iblk6 V d 3 t (ix2 (0 : Fin 1) o) = b4 (ix2 (0 : Fin 1) o) := by
    show V d main_v4 (((cfg6.win 3).blk t).view.emb (ix2 (0 : Fin 1) o)) = _
    rw [h4]
    refine congrArg b4 (funext fun a => Fin.ext ?_)
    match a with
    | ⟨0, _⟩ => show win6_3.index t (0 : Fin 2) * 1 + 1 * 0 = 0; omega
    | ⟨1, _⟩ => show win6_3.index t (1 : Fin 2) * 128 + 1 * o.val = o.val; omega
  rw [KPayE.pay6_apply, hemb4, h0, h3']
  simp only [h1, h2]
  show _ = Algebra.act ((s (ix2 ⟨((t.val + 136) * 1600 + p.val - 217600) % 102400, Nat.mod_lt _ (by decide)⟩ o)
        + ∑ k : Fin 16, rbf (ix2 (⟨(t.val + 136) * 1600 + p.val, by omega⟩ : Fin 320000) k) * w3 (ix2 o k))
      + b4 (ix2 (0 : Fin 1) o))
  have hrow : (⟨t.val * 1600 + p.val, by omega⟩ : Fin 102400) = ⟨((t.val + 136) * 1600 + p.val - 217600) % 102400, Nat.mod_lt _ (by decide)⟩ := by
    apply Fin.ext
    show t.val * 1600 + p.val = ((t.val + 136) * 1600 + p.val - 217600) % 102400
    omega
  rw [hrow]

/-- An index of the output array is in point t's block iff each coordinate is in the block's range on its axis. -/
theorem mem_blk6 (t : Fin cfg6.N) (i : S320000x128.Idx) :
    i ∈ ((cfg6.win 4).blk t).view.set ↔ ∀ a : Fin 2, win6_4.index t a * S1600x128.size a ≤ (i a).val
      ∧ (i a).val < win6_4.index t a * S1600x128.size a + S1600x128.size a := by
  show i ∈ ((View.whole main_v10).slice (win6_4.rect t)).set ↔ _
  rw [View.set_slice_whole, Rect.mem_set_unit]
  exact Iff.rfl

/-- The rows some point of the stage writes: exactly the stage's band. -/
theorem covered6 (i : S320000x128.Idx) :
    (∃ t : Fin cfg6.N, (cfg6.win 4).flush t = true ∧ i ∈ ((cfg6.win 4).blk t).view.set)
      ↔ 217600 ≤ (i 0).val ∧ (i 0).val < 320000 := by
  have hi1 : (i 1).val < 128 := (i 1).isLt
  constructor
  · rintro ⟨t, -, hi⟩
    rw [mem_blk6] at hi
    have b0 : win6_4.index t (0 : Fin 2) * 1600 ≤ (i 0).val ∧ (i 0).val < win6_4.index t (0 : Fin 2) * 1600 + 1600 := hi 0
    obtain ⟨e00, e01, e10, e11, e20, e21, e30, e31, e40, e41⟩ := idx6 t
    have ht : t.val < 64 := t.isLt
    omega
  · intro h
    have ht : (i 0).val / 1600 - 136 < 64 := by omega
    refine ⟨⟨(i 0).val / 1600 - 136, ht⟩, flush6_4 _, ?_⟩
    rw [mem_blk6]
    obtain ⟨e00, e01, e10, e11, e20, e21, e30, e31, e40, e41⟩ := idx6 ⟨(i 0).val / 1600 - 136, ht⟩
    intro a
    match a with
    | ⟨0, _⟩ =>
      show win6_4.index ⟨(i 0).val / 1600 - 136, ht⟩ (0 : Fin 2) * 1600 ≤ (i 0).val
        ∧ (i 0).val < win6_4.index ⟨(i 0).val / 1600 - 136, ht⟩ (0 : Fin 2) * 1600 + 1600
      rw [e40]
      show ((i 0).val / 1600 - 136 + 136) * 1600 ≤ (i 0).val ∧ (i 0).val < ((i 0).val / 1600 - 136 + 136) * 1600 + 1600
      omega
    | ⟨1, _⟩ =>
      show win6_4.index ⟨(i 0).val / 1600 - 136, ht⟩ (1 : Fin 2) * 128 ≤ (i 1).val
        ∧ (i 1).val < win6_4.index ⟨(i 0).val / 1600 - 136, ht⟩ (1 : Fin 2) * 128 + 128
      rw [e41]
      omega

/-- THE STAGE'S OUTPUT ARRAY on a row of its band: the activation of the gathered sum plus the radial term plus the bias. -/
theorem M3_in (s : FVec Ideal ⟨2, ![102400, 128]⟩ .f32) (rbf : FVec Ideal ⟨2, ![320000, 16]⟩ .f32) (w3 : FVec Ideal ⟨2, ![128, 16]⟩ .f32) (b4 : FVec Ideal ⟨2, ![1, 128]⟩ .f32)
    (hs : V d main_v7 = s) (hr : V d main_arg1 = rbf) (h3 : V d main_v3 = w3) (h4 : V d main_v4 = b4) (e : Fin 320000) (he : 217600 ≤ e.val) (o : Fin 128) :
    M3 V d (ix2 e o)
      = Algebra.act ((s (ix2 ⟨e.val - 217600, by have := e.isLt; omega⟩ o) + ∑ k : Fin 16, rbf (ix2 e k) * w3 (ix2 o k)) + b4 (ix2 (0 : Fin 1) o)) := by
  have hel := e.isLt
  show (dat6 V (fun _ => 0) Set.univ d).arrAt 4 cfg6.N (ix2 e o) = _
  rw [(dat6 V (fun _ => 0) Set.univ d).arrAt_eq_piecewise 4 (GE6 s rbf w3 b4)
    (fun t _ => flushedE6_eq V d s rbf w3 b4 hs hr h3 h4 t) (ix2 e o),
    if_pos ((covered6 (ix2 e o)).2 (by show 217600 ≤ e.val ∧ e.val < 320000; omega))]
  show Algebra.act ((s (ix2 ⟨(e.val - 217600) % 102400, Nat.mod_lt _ (by decide)⟩ o)
        + ∑ k : Fin 16, rbf (ix2 e k) * w3 (ix2 o k)) + b4 (ix2 (0 : Fin 1) o)) = _
  have hrow : (⟨(e.val - 217600) % 102400, Nat.mod_lt _ (by decide)⟩ : Fin 102400) = ⟨e.val - 217600, by have := e.isLt; omega⟩ := by
    apply Fin.ext
    show (e.val - 217600) % 102400 = e.val - 217600
    omega
  rw [hrow]

/-- THE STAGE'S OUTPUT ARRAY on a row outside its band: what the array held when the stage was entered. -/
theorem M3_out (e : Fin 320000) (he : e.val < 217600) (o : Fin 128) : M3 V d (ix2 e o) = V d main_v10 (ix2 e o) := by
  have hel := e.isLt
  show (dat6 V (fun _ => 0) Set.univ d).arrAt 4 cfg6.N (ix2 e o) = _
  rw [(dat6 V (fun _ => 0) Set.univ d).arrAt_eq_piecewise 4 (GE6 (V d main_v7) (V d main_arg1) (V d main_v3) (V d main_v4))
    (fun t _ => flushedE6_eq V d _ _ _ _ rfl rfl rfl rfl t) (ix2 e o),
    if_neg (fun hc => by
      have := (covered6 (ix2 e o)).1 hc
      have h' : 217600 ≤ e.val ∧ e.val < 320000 := this
      omega)]
  rfl

end Stages

end Cert.Proof.KI

end
-- ==== Proof.KernelValues.lean ====
/-
  At the exact instance: the kernel program's two result arrays are the specification's. The embeddings' array is what
  the first stage left, whose entry contents are `z` as a column and the zero-padded table; on those the stage's value
  is row `z n - 1` of the table at every atom `n`.
-/
import proofs.«206539_g3985729650836_cont_8to1_b_247_13_alg».proof.Proof.ValueChain
import proofs.«206539_g3985729650836_cont_8to1_b_247_13_alg».proof.Proof.KVal0
import proofs.«206539_g3985729650836_cont_8to1_b_247_13_alg».proof.Proof.PreFacts
import proofs.«206539_g3985729650836_cont_8to1_b_247_13_alg».proof.Proof.EdgeEq
import proofs.«206539_g3985729650836_cont_8to1_b_247_13_alg».proof.Proof.KValE

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.StableHlo (held held_split held_sub_split held_sdiff_result wp_hlo_within)
open Idealize.ShloMosaic.Pipeline (ucRefs unscopedBufs_held)

-- everything here is at the exact instance
open Idealize.ShloMosaic.ValueIdx

local notation "𝕄" => MT nD τ sig (HIx 3) (Elt Ideal) ℕ UU ℕ

variable (m : (ℓ : Loc nD τ sig) → Buf (Elt Ideal) ℓ) (ρ : Dev nD → PrngReg)

theorem kernel_h (d : Dev nD) (hz : ∀ n, 1 ≤ (m (zLoc d) n).toInt ∧ (m (zLoc d) n).toInt ≤ 92) :
    V15 m d h' = Spec.Gh (m (zLoc d)) (m (embLoc d)) :=
  (V15_h m d).trans (H0_eq (toV (V4 m d)) d (m (zLoc d)) (m (embLoc d)) (V4_v0 m d) (V4_v1 m d) hz)

/-- The kernel program's second result array is the specification's. Row `e` of the messages' array is written by the
    output stage whose band holds it — rows below 108800 by the first, up to 217600 by the second, the rest by the
    third — and carried unchanged through the later copies and stages; there it is the activation of the gathered sum
    of the two node tables' rows, the radial features against the last band of the weights, and the bias, which is the
    specification's entry. -/
theorem kernel_out (d : Dev nD) (hz : ∀ n, 1 ≤ (m (zLoc d) n).toInt ∧ (m (zLoc d) n).toInt ≤ 92)
    (hi : ∀ e, 0 ≤ (m (iiLoc d) e).toInt ∧ (m (iiLoc d) e).toInt ≤ 9999) (hj : ∀ e, 0 ≤ (m (jjLoc d) e).toInt ∧ (m (jjLoc d) e).toInt ≤ 9999) :
    V15 m d out' = Spec.Gm (m (zLoc d)) (m (rbfLoc d)) (m (iiLoc d)) (m (jjLoc d)) (m (embLoc d)) (m (wLoc d)) (m (bLoc d)) := by
  have eGI : GIv m (Rg0 (F := Ideal)) d = Gi (m (zLoc d)) (m (embLoc d)) (m (wLoc d)) :=
    (GIv_eq m d).trans (GI0_eq (toV (V4 m d)) d (m (zLoc d)) (m (embLoc d)) (m (wLoc d)) (V4_v0 m d) (V4_v1 m d) (V4_w m d) hz)
  have eGJ : GJv m (Rg0 (F := Ideal)) d = Gj (m (zLoc d)) (m (embLoc d)) (m (wLoc d)) :=
    (GJv_eq m d).trans (GJ0_eq (toV (V4 m d)) d (m (zLoc d)) (m (embLoc d)) (m (wLoc d)) (V4_v0 m d) (V4_v1 m d) (V4_w m d) hz)
  have k_rbf := kept_after7 m d rbf' (by decide)
  have k_v3 := kept_after7 m d v3' (by decide)
  have k_v4 := kept_after7 m d v4' (by decide)
  funext y
  obtain ⟨e, o, rfl⟩ : ∃ (e : Fin 320000) (o : Fin 128), y = ix2 e o := ⟨y 0, y 1, eq_ix2 y⟩
  rw [V15_out]
  by_cases h3 : 217600 ≤ e.val
  · refine ?_
    have es : toV (V14 m d) d main_v7 = scOut 102400 217600 (Gi (m (zLoc d)) (m (embLoc d)) (m (wLoc d))) (Gj (m (zLoc d)) (m (embLoc d)) (m (wLoc d))) (m (iiLoc d)) (m (jjLoc d)) := by
      refine (V14_s3 m d).trans ?_; unfold S3v; rw [eGI, eGJ]
    have er : toV (V14 m d) d main_arg1 = m (rbfLoc d) := k_rbf.2.2.trans (W7_rbf m d)
    have e3 : toV (V14 m d) d main_v3 = extractStridedSlice S128x16 ![0, 256] (m (wLoc d)) slices_S128x272_S128x16_0_256 := k_v3.2.2.trans (W7_v3 m d)
    have e4 : toV (V14 m d) d main_v4 = shapeCast S1x128 (m (bLoc d)) shapeCasts_S128_S1x128 := k_v4.2.2.trans (W7_v4 m d)
    rw [M3_in (toV (V14 m d)) d _ _ _ _ es er e3 e4 e h3 o]
    exact edge_eq 102400 217600 _ _ _ _ _ _ _ hi hj e ⟨h3, by have := e.isLt; omega⟩ o
  · rw [M3_out (toV (V14 m d)) d e (by omega) o]
    show V14 m d out' (ix2 e o) = _
    rw [V14_out]
    by_cases h2 : 108800 ≤ e.val
    · refine ?_
      have es : toV (V12 m d) d main_v6 = scOut 108800 108800 (Gi (m (zLoc d)) (m (embLoc d)) (m (wLoc d))) (Gj (m (zLoc d)) (m (embLoc d)) (m (wLoc d))) (m (iiLoc d)) (m (jjLoc d)) := by
        refine (V12_s2 m d).trans ?_; unfold S2v; rw [eGI, eGJ]
      have er : toV (V12 m d) d main_arg1 = m (rbfLoc d) := k_rbf.2.1.trans (W7_rbf m d)
      have e3 : toV (V12 m d) d main_v3 = extractStridedSlice S128x16 ![0, 256] (m (wLoc d)) slices_S128x272_S128x16_0_256 := k_v3.2.1.trans (W7_v3 m d)
      have e4 : toV (V12 m d) d main_v4 = shapeCast S1x128 (m (bLoc d)) shapeCasts_S128_S1x128 := k_v4.2.1.trans (W7_v4 m d)
      rw [M2_in (toV (V12 m d)) d _ _ _ _ es er e3 e4 e ⟨h2, by omega⟩ o]
      exact edge_eq 108800 108800 _ _ _ _ _ _ _ hi hj e ⟨h2, by omega⟩ o
    · rw [M2_out (toV (V12 m d)) d e (by omega) o]
      show V12 m d m2' (ix2 e o) = _
      rw [V12_m2]
      have es : toV (V10 m d) d main_v5 = scOut 108800 0 (Gi (m (zLoc d)) (m (embLoc d)) (m (wLoc d))) (Gj (m (zLoc d)) (m (embLoc d)) (m (wLoc d))) (m (iiLoc d)) (m (jjLoc d)) := by
        refine (V10_s1 m d).trans ?_; unfold S1v; rw [eGI, eGJ]
      have er : toV (V10 m d) d main_arg1 = m (rbfLoc d) := k_rbf.1.trans (W7_rbf m d)
      have e3 : toV (V10 m d) d main_v3 = extractStridedSlice S128x16 ![0, 256] (m (wLoc d)) slices_S128x272_S128x16_0_256 := k_v3.1.trans (W7_v3 m d)
      have e4 : toV (V10 m d) d main_v4 = shapeCast S1x128 (m (bLoc d)) shapeCasts_S128_S1x128 := k_v4.1.trans (W7_v4 m d)
      rw [M1_in (toV (V10 m d)) d _ _ _ _ es er e3 e4 e (by omega) o]
      exact edge_eq 108800 0 _ _ _ _ _ _ _ hi hj e ⟨Nat.zero_le _, by omega⟩ o

end Cert.Proof.KI

end
-- ==== Proof.RefOps.lean ====
import proofs.«206539_g3985729650836_cont_8to1_b_247_13_alg».proof.Proof.Gen.ReferenceIdeal
import Idealize.ShloMosaic.Lib.StableHlo.Run

/-!
The reference program as a straight line. Its @main is 87 host operations once the outlined functions (two forms of
jnp.take, each calling a select, and silu) are unfolded at their calls; every weakly fair execution terminates with
each buffer at the fold of the operations over the launch contents. The line is listed whole and as four stretches:
the atoms' embeddings h = take(emb, z - 1); the two edge gathers take(h, ii) and take(h, jj); the dense layer with
its activation.
-/

noncomputable section

namespace Cert.Proof.RefOps

open Cert.ReferenceIdeal Cert.ReferenceIdeal.Gen Idealize.ShloMosaic Idealize.ShloMosaic.TcCoe Idealize.SL.Sem Idealize.ShloMosaic.StableHlo

variable {F : FTy → Type} [FloatOps F]

/-- First stretch, 26 operations: z - 1, then take(emb, z - 1) into main_v2. -/
abbrev opsA : List (HloOp τ sig (Elt F)) :=
  [ nullary main_c (constantI S_ 32 1#32),
    unary main_c main_v0 (broadcastInDim S10000 ![] bcast_S_S10000 : (⟨S_, .i32⟩ : BufTy).Contents (Elt F) → (⟨S10000, .i32⟩ : BufTy).Contents (Elt F)),
    binary main_arg0 main_v0 main_v1 (subi : (⟨S10000, .i32⟩ : BufTy).Contents (Elt F) → (⟨S10000, .i32⟩ : BufTy).Contents (Elt F) → (⟨S10000, .i32⟩ : BufTy).Contents (Elt F)),
    TRef.nullary main_call0.c (constantI S_ 32 0#32),
    TRef.unary main_call0.c main_call0.v0 (broadcastInDim S10000 ![] bcast_S_S10000),
    TRef.binary (.of main_v1) main_call0.v0 main_call0.v1 (cmpi .slt),
    TRef.nullary main_call0.c_0 (constantI S_ 32 93#32),
    TRef.unary main_call0.c_0 main_call0.v2 (broadcastInDim S10000 ![] bcast_S_S10000),
    TRef.binary (.of main_v1) main_call0.v2 main_call0.v3 addi,
    TRef.ternary main_call0.v1 main_call0.v3 (.of main_v1) main_call0.call0.v0 select,
    TRef.unary main_call0.call0.v0 main_call0.v5 (broadcastInDim S10000x1 ![0] bcast_S10000_S10000x1_0),
    TRef.nullary main_call0.c_1 (constantI S1 32 92#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg4) main_call0.v5 main_call0.v13 (fun x i => Host.gather gather_S93x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select ]

/-- Second stretch, 23 operations: take(h, ii) into main_v3. -/
abbrev opsB : List (HloOp τ sig (Elt F)) :=
  [ TRef.nullary main_call1.c (constantI S_ 32 0#32),
    TRef.unary main_call1.c main_call1.v0 (broadcastInDim S320000 ![] bcast_S_S320000),
    TRef.binary (.of main_arg2) main_call1.v0 main_call1.v1 (cmpi .slt),
    TRef.nullary main_call1.c_0 (constantI S_ 32 10000#32),
    TRef.unary main_call1.c_0 main_call1.v2 (broadcastInDim S320000 ![] bcast_S_S320000),
    TRef.binary (.of main_arg2) main_call1.v2 main_call1.v3 addi,
    TRef.ternary main_call1.v1 main_call1.v3 (.of main_arg2) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_v2) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select ]

/-- Third stretch, 23 operations: take(h, jj) into main_v4. -/
abbrev opsC : List (HloOp τ sig (Elt F)) :=
  [ TRef.nullary main_call2.c (constantI S_ 32 0#32),
    TRef.unary main_call2.c main_call2.v0 (broadcastInDim S320000 ![] bcast_S_S320000),
    TRef.binary (.of main_arg3) main_call2.v0 main_call2.v1 (cmpi .slt),
    TRef.nullary main_call2.c_0 (constantI S_ 32 10000#32),
    TRef.unary main_call2.c_0 main_call2.v2 (broadcastInDim S320000 ![] bcast_S_S320000),
    TRef.binary (.of main_arg3) main_call2.v2 main_call2.v3 addi,
    TRef.ternary main_call2.v1 main_call2.v3 (.of main_arg3) main_call2.call0.v0 select,
    TRef.unary main_call2.call0.v0 main_call2.v5 (broadcastInDim S320000x1 ![0] bcast_S320000_S320000x1_0),
    TRef.nullary main_call2.c_1 (constantI S1 32 9999#32),
    TRef.nullary main_call2.c_2 (constantI S_ 32 0#32),
    TRef.unary main_call2.c_2 main_call2.v6 (broadcastInDim S320000x1 ![] bcast_S_S320000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S320000x1 ![0, 1] bcast_S1x1_S320000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S320000x1_S320000_d1 h_S_),
    TRef.binary (.of main_v2) main_call2.v5 main_call2.v13 (fun x i => Host.gather gather_S10000x128_S320000x1_S320000x128_1_0_n_n_0_1_1128 x i),
    TRef.unary main_call2.v12 main_call2.v14 (broadcastInDim S320000x128 ![0] bcast_S320000_S320000x128_0),
    TRef.nullary main_call2.cst (constant S_ .f32 0x7FC00000#32),
    TRef.unary main_call2.cst main_call2.v15 (broadcastInDim S320000x128 ![] bcast_S_S320000x128),
    TRef.ternary main_call2.v14 main_call2.v13 main_call2.v15 main_call2.v16 select ]

/-- Fourth stretch, 15 operations: the concatenation, the dense layer, silu into main_v11. -/
abbrev opsD : List (HloOp τ sig (Elt F)) :=
  [ nary ![main_v3, main_v4, main_arg1] main_v5 (fun u => concatenate S320000x272 1 [⟨S320000x128, u 0⟩, ⟨S320000x128, u 1⟩, ⟨S320000x16, u 2⟩] concatenates_S320000x128_S320000x128_S320000x16_S320000x272_d1),
    unary main_arg5 main_v6 ((transpose S272x128 [1, 0] · transposes_S128x272_S272x128_1_0) : (⟨S128x272, .f32⟩ : BufTy).Contents (Elt F) → (⟨S272x128, .f32⟩ : BufTy).Contents (Elt F)),
    binary main_v5 main_v6 main_v7 ((fun l r => Host.dotGeneral dot_S320000x272_S272x128_S320000x128_1_0_0_1_n_n none l r) : (⟨S320000x272, .f32⟩ : BufTy).Contents (Elt F) → (⟨S272x128, .f32⟩ : BufTy).Contents (Elt F) → (⟨S320000x128, .f32⟩ : BufTy).Contents (Elt F)),
    unary main_arg6 main_v8 (broadcastInDim S1x128 ![1] bcast_S128_S1x128_1 : (⟨S128, .f32⟩ : BufTy).Contents (Elt F) → (⟨S1x128, .f32⟩ : BufTy).Contents (Elt F)),
    unary main_v8 main_v9 (broadcastInDim S320000x128 ![0, 1] bcast_S1x128_S320000x128_0_1 : (⟨S1x128, .f32⟩ : BufTy).Contents (Elt F) → (⟨S320000x128, .f32⟩ : BufTy).Contents (Elt F)),
    binary main_v7 main_v9 main_v10 (addf : (⟨S320000x128, .f32⟩ : BufTy).Contents (Elt F) → (⟨S320000x128, .f32⟩ : BufTy).Contents (Elt F) → (⟨S320000x128, .f32⟩ : BufTy).Contents (Elt F)),
    TRef.unary (.of main_v10) main_call3.v0 Host.negf,
    TRef.unary main_call3.v0 main_call3.v1 Host.exp,
    TRef.nullary main_call3.cst (constant S_ .f32 0x3F800000#32),
    TRef.unary main_call3.cst main_call3.v2 (broadcastInDim S320000x128 ![] bcast_S_S320000x128),
    TRef.binary main_call3.v2 main_call3.v1 main_call3.v3 addf,
    TRef.nullary main_call3.cst_0 (constant S_ .f32 0x3F800000#32),
    TRef.unary main_call3.cst_0 main_call3.v4 (broadcastInDim S320000x128 ![] bcast_S_S320000x128),
    TRef.binary main_call3.v4 main_call3.v3 main_call3.v5 Host.divf,
    TRef.binary (.of main_v10) main_call3.v5 main_call3.v6 mulf ]

/-- @main's 87 operations, in order. -/
abbrev ops : List (HloOp τ sig (Elt F)) :=
  [ nullary main_c (constantI S_ 32 1#32),
    unary main_c main_v0 (broadcastInDim S10000 ![] bcast_S_S10000 : (⟨S_, .i32⟩ : BufTy).Contents (Elt F) → (⟨S10000, .i32⟩ : BufTy).Contents (Elt F)),
    binary main_arg0 main_v0 main_v1 (subi : (⟨S10000, .i32⟩ : BufTy).Contents (Elt F) → (⟨S10000, .i32⟩ : BufTy).Contents (Elt F) → (⟨S10000, .i32⟩ : BufTy).Contents (Elt F)),
    TRef.nullary main_call0.c (constantI S_ 32 0#32),
    TRef.unary main_call0.c main_call0.v0 (broadcastInDim S10000 ![] bcast_S_S10000),
    TRef.binary (.of main_v1) main_call0.v0 main_call0.v1 (cmpi .slt),
    TRef.nullary main_call0.c_0 (constantI S_ 32 93#32),
    TRef.unary main_call0.c_0 main_call0.v2 (broadcastInDim S10000 ![] bcast_S_S10000),
    TRef.binary (.of main_v1) main_call0.v2 main_call0.v3 addi,
    TRef.ternary main_call0.v1 main_call0.v3 (.of main_v1) main_call0.call0.v0 select,
    TRef.unary main_call0.call0.v0 main_call0.v5 (broadcastInDim S10000x1 ![0] bcast_S10000_S10000x1_0),
    TRef.nullary main_call0.c_1 (constantI S1 32 92#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg4) main_call0.v5 main_call0.v13 (fun x i => Host.gather gather_S93x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_arg2) main_call1.v0 main_call1.v1 (cmpi .slt),
    TRef.nullary main_call1.c_0 (constantI S_ 32 10000#32),
    TRef.unary main_call1.c_0 main_call1.v2 (broadcastInDim S320000 ![] bcast_S_S320000),
    TRef.binary (.of main_arg2) main_call1.v2 main_call1.v3 addi,
    TRef.ternary main_call1.v1 main_call1.v3 (.of main_arg2) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_v2) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    TRef.nullary main_call2.c (constantI S_ 32 0#32),
    TRef.unary main_call2.c main_call2.v0 (broadcastInDim S320000 ![] bcast_S_S320000),
    TRef.binary (.of main_arg3) main_call2.v0 main_call2.v1 (cmpi .slt),
    TRef.nullary main_call2.c_0 (constantI S_ 32 10000#32),
    TRef.unary main_call2.c_0 main_call2.v2 (broadcastInDim S320000 ![] bcast_S_S320000),
    TRef.binary (.of main_arg3) main_call2.v2 main_call2.v3 addi,
    TRef.ternary main_call2.v1 main_call2.v3 (.of main_arg3) main_call2.call0.v0 select,
    TRef.unary main_call2.call0.v0 main_call2.v5 (broadcastInDim S320000x1 ![0] bcast_S320000_S320000x1_0),
    TRef.nullary main_call2.c_1 (constantI S1 32 9999#32),
    TRef.nullary main_call2.c_2 (constantI S_ 32 0#32),
    TRef.unary main_call2.c_2 main_call2.v6 (broadcastInDim S320000x1 ![] bcast_S_S320000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S320000x1 ![0, 1] bcast_S1x1_S320000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S320000x1_S320000_d1 h_S_),
    TRef.binary (.of main_v2) main_call2.v5 main_call2.v13 (fun x i => Host.gather gather_S10000x128_S320000x1_S320000x128_1_0_n_n_0_1_1128 x i),
    TRef.unary main_call2.v12 main_call2.v14 (broadcastInDim S320000x128 ![0] bcast_S320000_S320000x128_0),
    TRef.nullary main_call2.cst (constant S_ .f32 0x7FC00000#32),
    TRef.unary main_call2.cst main_call2.v15 (broadcastInDim S320000x128 ![] bcast_S_S320000x128),
    TRef.ternary main_call2.v14 main_call2.v13 main_call2.v15 main_call2.v16 select,
    nary ![main_v3, main_v4, main_arg1] main_v5 (fun u => concatenate S320000x272 1 [⟨S320000x128, u 0⟩, ⟨S320000x128, u 1⟩, ⟨S320000x16, u 2⟩] concatenates_S320000x128_S320000x128_S320000x16_S320000x272_d1),
    unary main_arg5 main_v6 ((transpose S272x128 [1, 0] · transposes_S128x272_S272x128_1_0) : (⟨S128x272, .f32⟩ : BufTy).Contents (Elt F) → (⟨S272x128, .f32⟩ : BufTy).Contents (Elt F)),
    binary main_v5 main_v6 main_v7 ((fun l r => Host.dotGeneral dot_S320000x272_S272x128_S320000x128_1_0_0_1_n_n none l r) : (⟨S320000x272, .f32⟩ : BufTy).Contents (Elt F) → (⟨S272x128, .f32⟩ : BufTy).Contents (Elt F) → (⟨S320000x128, .f32⟩ : BufTy).Contents (Elt F)),
    unary main_arg6 main_v8 (broadcastInDim S1x128 ![1] bcast_S128_S1x128_1 : (⟨S128, .f32⟩ : BufTy).Contents (Elt F) → (⟨S1x128, .f32⟩ : BufTy).Contents (Elt F)),
    unary main_v8 main_v9 (broadcastInDim S320000x128 ![0, 1] bcast_S1x128_S320000x128_0_1 : (⟨S1x128, .f32⟩ : BufTy).Contents (Elt F) → (⟨S320000x128, .f32⟩ : BufTy).Contents (Elt F)),
    binary main_v7 main_v9 main_v10 (addf : (⟨S320000x128, .f32⟩ : BufTy).Contents (Elt F) → (⟨S320000x128, .f32⟩ : BufTy).Contents (Elt F) → (⟨S320000x128, .f32⟩ : BufTy).Contents (Elt F)),
    TRef.unary (.of main_v10) main_call3.v0 Host.negf,
    TRef.unary main_call3.v0 main_call3.v1 Host.exp,
    TRef.nullary main_call3.cst (constant S_ .f32 0x3F800000#32),
    TRef.unary main_call3.cst main_call3.v2 (broadcastInDim S320000x128 ![] bcast_S_S320000x128),
    TRef.binary main_call3.v2 main_call3.v1 main_call3.v3 addf,
    TRef.nullary main_call3.cst_0 (constant S_ .f32 0x3F800000#32),
    TRef.unary main_call3.cst_0 main_call3.v4 (broadcastInDim S320000x128 ![] bcast_S_S320000x128),
    TRef.binary main_call3.v4 main_call3.v3 main_call3.v5 Host.divf,
    TRef.binary (.of main_v10) main_call3.v5 main_call3.v6 mulf ]

/-- The line is the four stretches one after the other. -/
theorem ops_eq : (ops : List (HloOp τ sig (Elt F))) = opsA ++ (opsB ++ (opsC ++ opsD)) := rfl

-- 87 binds re-associated: the rewrite under the chain recurses once per statement
set_option maxRecDepth 4096 in
set_option maxHeartbeats 2000000 in
/-- @main is that straight line: the outlined functions unfolded at their calls, sequencing reassociated. -/
theorem main_eq (c : Dev nD) : main (F := F) c = seq ops := by
  simp only [main, fn_take.body, fn_take_0.body, fn_where.body, fn_where_1.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-- Every weakly fair execution of @main terminates with every buffer at the fold of the 87 operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefOps

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.RefRun.lean ====
import proofs.«206539_g3985729650836_cont_8to1_b_247_13_alg».proof.Proof.RefOps
import proofs.«206539_g3985729650836_cont_8to1_b_247_13_alg».proof.Proof.LibTypedRef

/-!
The reference program's run, with its two results as pure terms of the seven arguments. Each of the four stretches of
the straight line is read back as a pure term of the buffers it starts from (what jnp.take computes from a table and
an index array; the dense layer and silu from the gathered rows), what each stretch leaves untouched is recorded,
and the composition gives Rh and Rm.
-/

noncomputable section

namespace Cert.Proof.RefRun

open Cert.ReferenceIdeal Cert.ReferenceIdeal.Gen Idealize.ShloMosaic Idealize.ShloMosaic.TcCoe Idealize.SL.Sem Idealize.ShloMosaic.StableHlo
open Cert.Proof.RefOps

variable {F : FTy → Type} [FloatOps F]

/-! ## The pure terms -/

/-- jnp.take's index into a table of 93 rows, as a column: a negative index wrapped once by 93. -/
def ixA (i : IVec S10000 32) : IVec S10000x1 32 :=
  broadcastInDim S10000x1 ![0] bcast_S10000_S10000x1_0
    (select (cmpi .slt i (broadcastInDim S10000 ![] bcast_S_S10000 (constantI S_ 32 0#32)))
      (addi i (broadcastInDim S10000 ![] bcast_S_S10000 (constantI S_ 32 93#32))) i)

/-- Which wrapped indices are inside [0, 92], one bit per result entry. -/
def okA (j : IVec S10000x1 32) : IVec S10000x128 1 :=
  broadcastInDim S10000x128 ![0] bcast_S10000_S10000x128_0
    (Host.reduce IntOp.andi
      (andi (cmpi .sge j (broadcastInDim S10000x1 ![] bcast_S_S10000x1 (constantI S_ 32 0#32)))
        (cmpi .sle j (broadcastInDim S10000x1 ![0, 1] bcast_S1x1_S10000x1_0_1
          (broadcastInDim S1x1 ![1] bcast_S1_S1x1_1 (constantI S1 32 92#32)))))
      (constantI S_ 1 1#1) reducesTo_S10000x1_S10000_d1 h_S_)

/-- jnp.take(x, i, axis 0) of a table of 93 rows at 10000 indices: the gathered row where the index is inside the table,
    the fill value elsewhere. -/
def takeA (x : FVec F S93x128 .f32) (i : IVec S10000 32) : FVec F S10000x128 .f32 :=
  select (okA (ixA i)) (Host.gather gather_S93x128_S10000x1_S10000x128_1_0_n_n_0_1_1128 x (ixA i))
    (broadcastInDim S10000x128 ![] bcast_S_S10000x128 (constant S_ .f32 0x7FC00000#32))

/-- jnp.take's index into a table of 10000 rows, as a column: a negative index wrapped once by 10000. -/
def ixB (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- Which wrapped indices are inside [0, 9999], one bit per result entry. -/
def okB (j : IVec S320000x1 32) : IVec S320000x128 1 :=
  broadcastInDim S320000x128 ![0] bcast_S320000_S320000x128_0
    (Host.reduce IntOp.andi
      (andi (cmpi .sge j (broadcastInDim S320000x1 ![] bcast_S_S320000x1 (constantI S_ 32 0#32)))
        (cmpi .sle j (broadcastInDim S320000x1 ![0, 1] bcast_S1x1_S320000x1_0_1
          (broadcastInDim S1x1 ![1] bcast_S1_S1x1_1 (constantI S1 32 9999#32)))))
      (constantI S_ 1 1#1) reducesTo_S320000x1_S320000_d1 h_S_)

/-- jnp.take(x, i, axis 0) of a table of 10000 rows at 320000 indices. -/
def takeB (x : FVec F S10000x128 .f32) (i : IVec S320000 32) : FVec F S320000x128 .f32 :=
  select (okB (ixB i)) (Host.gather gather_S10000x128_S320000x1_S320000x128_1_0_n_n_0_1_1128 x (ixB i))
    (broadcastInDim S320000x128 ![] bcast_S_S320000x128 (constant S_ .f32 0x7FC00000#32))

/-- The dense layer: the three pieces side by side, times the transposed weights, plus the bias on every row. -/
def dense (hi hj : FVec F S320000x128 .f32) (rbf : FVec F S320000x16 .f32) (W : FVec F S128x272 .f32) (b : FVec F S128 .f32) :
    FVec F S320000x128 .f32 :=
  addf
    (Host.dotGeneral dot_S320000x272_S272x128_S320000x128_1_0_0_1_n_n none
      (concatenate S320000x272 1 [⟨S320000x128, hi⟩, ⟨S320000x128, hj⟩, ⟨S320000x16, rbf⟩]
        concatenates_S320000x128_S320000x128_S320000x16_S320000x272_d1)
      (transpose S272x128 [1, 0] W transposes_S128x272_S272x128_1_0))
    (broadcastInDim S320000x128 ![0, 1] bcast_S1x128_S320000x128_0_1 (broadcastInDim S1x128 ![1] bcast_S128_S1x128_1 b))

/-- silu, elementwise: x · (1 / (1 + exp (-x))). -/
def siluV (x : FVec F S320000x128 .f32) : FVec F S320000x128 .f32 :=
  mulf x (Host.divf (broadcastInDim S320000x128 ![] bcast_S_S320000x128 (constant S_ .f32 0x3F800000#32))
    (addf (broadcastInDim S320000x128 ![] bcast_S_S320000x128 (constant S_ .f32 0x3F800000#32)) (Host.exp (Host.negf x))))

/-- FIRST RESULT as the operations' composed term: take(emb, z - 1). -/
def Rh (z : IVec S10000 32) (emb : FVec F S93x128 .f32) : FVec F S10000x128 .f32 :=
  takeA emb (subi z (broadcastInDim S10000 ![] bcast_S_S10000 (constantI S_ 32 1#32)))

/-- SECOND RESULT as the operations' composed term. -/
def Rm (z : IVec S10000 32) (rbf : FVec F S320000x16 .f32) (ii jj : IVec S320000 32) (emb : FVec F S93x128 .f32)
    (W : FVec F S128x272 .f32) (b : FVec F S128 .f32) : FVec F S320000x128 .f32 :=
  siluV (dense (takeB (Rh z emb) ii) (takeB (Rh z emb) jj) rbf W b)

/-! ## Each stretch read back, from any contents V -/

theorem A_v2 (V : Valuation τ sig (Elt F)) :
    after opsA V (main_v2 : DevRef τ sig) = Rh (V (main_arg0 : DevRef τ sig)) (V (main_arg4 : DevRef τ sig)) := by
  after_results_simp
  simp only [TRef.ofBuf_toBuf, TRef.ofBuf, TRef.toBuf, cast_eq]
  rfl

theorem B_v3 (V : Valuation τ sig (Elt F)) :
    after opsB V (main_v3 : DevRef τ sig) = takeB (V (main_v2 : DevRef τ sig)) (V (main_arg2 : DevRef τ sig)) := by
  after_results_simp
  simp only [TRef.ofBuf_toBuf, TRef.ofBuf, TRef.toBuf, cast_eq]
  rfl

theorem C_v4 (V : Valuation τ sig (Elt F)) :
    after opsC V (main_v4 : DevRef τ sig) = takeB (V (main_v2 : DevRef τ sig)) (V (main_arg3 : DevRef τ sig)) := by
  after_results_simp
  simp only [TRef.ofBuf_toBuf, TRef.ofBuf, TRef.toBuf, cast_eq]
  rfl

theorem D_v11 (V : Valuation τ sig (Elt F)) :
    after opsD V (main_v11 : DevRef τ sig)
      = siluV (dense (V (main_v3 : DevRef τ sig)) (V (main_v4 : DevRef τ sig)) (V (main_arg1 : DevRef τ sig))
          (V (main_arg5 : DevRef τ sig)) (V (main_arg6 : DevRef τ sig))) := by
  after_results_simp
  simp only [TRef.ofBuf_toBuf, TRef.ofBuf, TRef.toBuf, cast_eq]
  rfl

/-! What each stretch leaves as it was: the arguments, and the earlier stretches' results still to be read. -/

theorem A_arg0 (V : Valuation τ sig (Elt F)) : after opsA V (main_arg0 : DevRef τ sig) = V (main_arg0 : DevRef τ sig) := by after_results_simp
theorem A_arg1 (V : Valuation τ sig (Elt F)) : after opsA V (main_arg1 : DevRef τ sig) = V (main_arg1 : DevRef τ sig) := by after_results_simp
theorem A_arg2 (V : Valuation τ sig (Elt F)) : after opsA V (main_arg2 : DevRef τ sig) = V (main_arg2 : DevRef τ sig) := by after_results_simp
theorem A_arg3 (V : Valuation τ sig (Elt F)) : after opsA V (main_arg3 : DevRef τ sig) = V (main_arg3 : DevRef τ sig) := by after_results_simp
theorem A_arg4 (V : Valuation τ sig (Elt F)) : after opsA V (main_arg4 : DevRef τ sig) = V (main_arg4 : DevRef τ sig) := by after_results_simp
theorem A_arg5 (V : Valuation τ sig (Elt F)) : after opsA V (main_arg5 : DevRef τ sig) = V (main_arg5 : DevRef τ sig) := by after_results_simp
theorem A_arg6 (V : Valuation τ sig (Elt F)) : after opsA V (main_arg6 : DevRef τ sig) = V (main_arg6 : DevRef τ sig) := by after_results_simp
theorem B_v2 (V : Valuation τ sig (Elt F)) : after opsB V (main_v2 : DevRef τ sig) = V (main_v2 : DevRef τ sig) := by after_results_simp
theorem B_arg0 (V : Valuation τ sig (Elt F)) : after opsB V (main_arg0 : DevRef τ sig) = V (main_arg0 : DevRef τ sig) := by after_results_simp
theorem B_arg1 (V : Valuation τ sig (Elt F)) : after opsB V (main_arg1 : DevRef τ sig) = V (main_arg1 : DevRef τ sig) := by after_results_simp
theorem B_arg2 (V : Valuation τ sig (Elt F)) : after opsB V (main_arg2 : DevRef τ sig) = V (main_arg2 : DevRef τ sig) := by after_results_simp
theorem B_arg3 (V : Valuation τ sig (Elt F)) : after opsB V (main_arg3 : DevRef τ sig) = V (main_arg3 : DevRef τ sig) := by after_results_simp
theorem B_arg4 (V : Valuation τ sig (Elt F)) : after opsB V (main_arg4 : DevRef τ sig) = V (main_arg4 : DevRef τ sig) := by after_results_simp
theorem B_arg5 (V : Valuation τ sig (Elt F)) : after opsB V (main_arg5 : DevRef τ sig) = V (main_arg5 : DevRef τ sig) := by after_results_simp
theorem B_arg6 (V : Valuation τ sig (Elt F)) : after opsB V (main_arg6 : DevRef τ sig) = V (main_arg6 : DevRef τ sig) := by after_results_simp
theorem C_v2 (V : Valuation τ sig (Elt F)) : after opsC V (main_v2 : DevRef τ sig) = V (main_v2 : DevRef τ sig) := by after_results_simp
theorem C_v3 (V : Valuation τ sig (Elt F)) : after opsC V (main_v3 : DevRef τ sig) = V (main_v3 : DevRef τ sig) := by after_results_simp
theorem C_arg0 (V : Valuation τ sig (Elt F)) : after opsC V (main_arg0 : DevRef τ sig) = V (main_arg0 : DevRef τ sig) := by after_results_simp
theorem C_arg1 (V : Valuation τ sig (Elt F)) : after opsC V (main_arg1 : DevRef τ sig) = V (main_arg1 : DevRef τ sig) := by after_results_simp
theorem C_arg2 (V : Valuation τ sig (Elt F)) : after opsC V (main_arg2 : DevRef τ sig) = V (main_arg2 : DevRef τ sig) := by after_results_simp
theorem C_arg3 (V : Valuation τ sig (Elt F)) : after opsC V (main_arg3 : DevRef τ sig) = V (main_arg3 : DevRef τ sig) := by after_results_simp
theorem C_arg4 (V : Valuation τ sig (Elt F)) : after opsC V (main_arg4 : DevRef τ sig) = V (main_arg4 : DevRef τ sig) := by after_results_simp
theorem C_arg5 (V : Valuation τ sig (Elt F)) : after opsC V (main_arg5 : DevRef τ sig) = V (main_arg5 : DevRef τ sig) := by after_results_simp
theorem C_arg6 (V : Valuation τ sig (Elt F)) : after opsC V (main_arg6 : DevRef τ sig) = V (main_arg6 : DevRef τ sig) := by after_results_simp
theorem D_v2 (V : Valuation τ sig (Elt F)) : after opsD V (main_v2 : DevRef τ sig) = V (main_v2 : DevRef τ sig) := by after_results_simp
theorem D_arg0 (V : Valuation τ sig (Elt F)) : after opsD V (main_arg0 : DevRef τ sig) = V (main_arg0 : DevRef τ sig) := by after_results_simp
theorem D_arg1 (V : Valuation τ sig (Elt F)) : after opsD V (main_arg1 : DevRef τ sig) = V (main_arg1 : DevRef τ sig) := by after_results_simp
theorem D_arg2 (V : Valuation τ sig (Elt F)) : after opsD V (main_arg2 : DevRef τ sig) = V (main_arg2 : DevRef τ sig) := by after_results_simp
theorem D_arg3 (V : Valuation τ sig (Elt F)) : after opsD V (main_arg3 : DevRef τ sig) = V (main_arg3 : DevRef τ sig) := by after_results_simp
theorem D_arg4 (V : Valuation τ sig (Elt F)) : after opsD V (main_arg4 : DevRef τ sig) = V (main_arg4 : DevRef τ sig) := by after_results_simp
theorem D_arg5 (V : Valuation τ sig (Elt F)) : after opsD V (main_arg5 : DevRef τ sig) = V (main_arg5 : DevRef τ sig) := by after_results_simp
theorem D_arg6 (V : Valuation τ sig (Elt F)) : after opsD V (main_arg6 : DevRef τ sig) = V (main_arg6 : DevRef τ sig) := by after_results_simp

/-- A fold over a concatenation is the fold over the second list from the fold over the first. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The whole line's fold, stretch by stretch. -/
theorem after_ops (V : Valuation τ sig (Elt F)) : after ops V = after opsD (after opsC (after opsB (after opsA V))) := by
  rw [ops_eq, after_append', after_append', after_append']

/-! ## The results of the whole line -/

theorem ops_v2 (V : Valuation τ sig (Elt F)) :
    after ops V (main_v2 : DevRef τ sig) = Rh (V (main_arg0 : DevRef τ sig)) (V (main_arg4 : DevRef τ sig)) := by
  rw [after_ops, D_v2, C_v2, B_v2, A_v2]

theorem ops_v11 (V : Valuation τ sig (Elt F)) :
    after ops V (main_v11 : DevRef τ sig)
      = Rm (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) := by
  rw [after_ops, D_v11, C_v3, C_v4, C_arg1, C_arg5, C_arg6, B_v3, B_v2, B_arg3, B_arg1, B_arg5, B_arg6,
    A_v2, A_arg1, A_arg2, A_arg3, A_arg5, A_arg6]
  rfl

theorem ops_arg0 (V : Valuation τ sig (Elt F)) : after ops V (main_arg0 : DevRef τ sig) = V (main_arg0 : DevRef τ sig) := by
  rw [after_ops, D_arg0, C_arg0, B_arg0, A_arg0]
theorem ops_arg1 (V : Valuation τ sig (Elt F)) : after ops V (main_arg1 : DevRef τ sig) = V (main_arg1 : DevRef τ sig) := by
  rw [after_ops, D_arg1, C_arg1, B_arg1, A_arg1]
theorem ops_arg2 (V : Valuation τ sig (Elt F)) : after ops V (main_arg2 : DevRef τ sig) = V (main_arg2 : DevRef τ sig) := by
  rw [after_ops, D_arg2, C_arg2, B_arg2, A_arg2]
theorem ops_arg3 (V : Valuation τ sig (Elt F)) : after ops V (main_arg3 : DevRef τ sig) = V (main_arg3 : DevRef τ sig) := by
  rw [after_ops, D_arg3, C_arg3, B_arg3, A_arg3]
theorem ops_arg4 (V : Valuation τ sig (Elt F)) : after ops V (main_arg4 : DevRef τ sig) = V (main_arg4 : DevRef τ sig) := by
  rw [after_ops, D_arg4, C_arg4, B_arg4, A_arg4]
theorem ops_arg5 (V : Valuation τ sig (Elt F)) : after ops V (main_arg5 : DevRef τ sig) = V (main_arg5 : DevRef τ sig) := by
  rw [after_ops, D_arg5, C_arg5, B_arg5, A_arg5]
theorem ops_arg6 (V : Valuation τ sig (Elt F)) : after ops V (main_arg6 : DevRef τ sig) = V (main_arg6 : DevRef τ sig) := by
  rw [after_ops, D_arg6, C_arg6, B_arg6, A_arg6]

/-- THE REFERENCE'S RUN. On the device, for any float values, from any memory with zero counters: every weakly fair
    execution of @main terminates with the two results at the operations' composed terms Rh and Rm of the arguments'
    launch contents, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = Rh (m ((c.tc : Thread nD τ).loc main_arg0)) (m ((c.tc : Thread nD τ).loc main_arg4))
      ∧ r.2.mem ((c.tc : Thread nD τ).loc main_v11)
          = Rm (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v2).trans (ops_v2 _), (h c main_v11).trans (ops_v11 _),
      (h c main_arg0).trans (ops_arg0 _), (h c main_arg1).trans (ops_arg1 _), (h c main_arg2).trans (ops_arg2 _),
      (h c main_arg3).trans (ops_arg3 _), (h c main_arg4).trans (ops_arg4 _), (h c main_arg5).trans (ops_arg5 _),
      (h c main_arg6).trans (ops_arg6 _)⟩)
    (run_main m ρ)

end Cert.Proof.RefRun

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.RefValue.lean ====
import proofs.«206539_g3985729650836_cont_8to1_b_247_13_alg».proof.Proof.Spec
import proofs.«206539_g3985729650836_cont_8to1_b_247_13_alg».proof.Proof.RefRun
import proofs.«206539_g3985729650836_cont_8to1_b_247_13_alg».proof.Proof.LibFiniteAll
import proofs.«206539_g3985729650836_cont_8to1_b_247_13_alg».proof.Proof.LibGatherScatter
import proofs.«206539_g3985729650836_cont_8to1_b_247_13_alg».proof.Proof.LibHostLayout
import proofs.«206539_g3985729650836_cont_8to1_b_247_13_alg».proof.Proof.LibMatRows
import Idealize.ShloMosaic.Lib.ReduceAll
import Idealize.ShloMosaic.Lib.Pipeline.Value
import Idealize.ShloMosaic.PureOps.Ideal.Laws
import Idealize.ShloMosaic.Lib.IdealHost
import proofs.«206539_g3985729650836_cont_8to1_b_247_13_alg».proof.Proof.PreFacts

/-!
The reference's two composed terms are the specification's functions, on inputs in range.

jnp.take(x, i) wraps a negative index once by the number of rows, gathers the row at the wrapped index clamped into the
table, and replaces the row by a fill value when the wrapped index is outside the table. For an index already inside
[0, rows - 1] nothing is wrapped, the clamp is the identity, the test passes: the result row is row i of x. So
h = take(emb, z - 1) is the table row z - 1 of every atom, take(h, ii) and take(h, jj) are the rows of h at the edges'
endpoints, and the dense layer reads, at entry (e, o), the sum over the 272 columns of the concatenated row times row o
of the weights, plus the bias; silu is applied entry by entry.
-/

noncomputable section

open scoped BigOperators

namespace Cert.Proof.RefValue

open Idealize.ShloMosaic Idealize.ShloMosaic.ValueIdx Idealize.ShloMosaic.RowIdx Cert.HostLayout Cert.LibFiniteAll
open Cert.ReferenceIdeal Cert.ReferenceIdeal.Gen Cert.Proof.RefRun

/-! ## General facts -/

/-- A left fold by "and" over bits that are all 1, started at 1, is 1. -/
theorem foldl_andi_one {ι : Type} (g : ι → BitVec 1) (hg : ∀ n, g n = 1#1) :
    ∀ l : List ι, l.foldl (fun r n => IntOp.andi r (g n)) 1#1 = 1#1
  | [] => rfl
  | a :: l => by
    have h11 : IntOp.andi 1#1 1#1 = 1#1 := by decide
    rw [List.foldl_cons, hg a, h11]
    exact foldl_andi_one g hg l

/-- A reduction by "and", from an initial 1, of an array whose entries are all 1 is 1 at every result index. -/
theorem reduce_andi_of_all {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  unfold Host.reduce
  rw [hinit]
  exact foldl_andi_one (fun n => x (s.rowMajor.symm n)) (fun n => hx _) _

/-- A vector of M entries repeated along C columns: entry (n, q) is entry n. -/
theorem bcast_vec_cols_apply {α : Type} {M C : Nat} (h : (⟨1, ![M]⟩ : Shape).BroadcastsInDim ⟨2, ![M, C]⟩ (![0] : Fin 1 → Fin 2))
    (x : (⟨1, ![M]⟩ : Shape).Idx → α) (n : Fin M) (q : Fin C) :
    broadcastInDim ⟨2, ![M, C]⟩ ![0] h x (ix2 n q) = x (ix1 n) := by
  refine broadcastInDim_apply ![0] h x (ix2 n q) (ix1 n) ?_
  intro a
  match a with
  | ⟨0, _⟩ => exact val_eq_ite n

/-- A non-negative index is not wrapped: the select on "index below 0" keeps it. -/
theorem wrap_nonneg (v w : BitVec 32) (h : 0 ≤ v.toInt) :
    Scalar.select (IntOp.cmpi .slt v 0#32) w v = v := by
  have h0 : (0#32 : BitVec 32).toInt = 0 := by decide
  have e : IntOp.cmpi .slt v 0#32 = 0#1 := eq_zero_of_ne_one fun e => by
    have := IntOp.cmpi_slt.1 e
    omega
  rw [e, select_zero]

/-- take of a table of 93 rows at 10000 indices that lie in [0, 92], read at entry (e, q): row i e of the table. -/
theorem takeA_apply (x : FVec Ideal S93x128 .f32) (i : IVec S10000 32)
    (hi : ∀ n, 0 ≤ (i n).toInt ∧ (i n).toInt ≤ 92) (e : Fin 10000) (q : Fin 128) :
    takeA x i (ix2 e q) = x (ix2 (clampRow 93 (by decide) (i (ix1 e))) q) := by
  have h0 : (0#32 : BitVec 32).toInt = 0 := by decide
  have hmax : (92#32 : BitVec 32).toInt = 92 := by decide
  have hcol : ∀ (n : Fin 10000) (z : Fin 1), ixA i (ix2 n z) = i (ix1 n) := fun n z => by
    unfold ixA
    rw [bcast_col_apply]
    exact wrap_nonneg _ _ (hi _).1
  have hok : okA (ixA i) (ix2 e q) = 1#1 := by
    unfold okA
    rw [bcast_vec_cols_apply]
    refine reduce_andi_of_all _ _ _ _ (fun _ => rfl) (fun j => ?_) _
    obtain ⟨n, z, rfl⟩ : ∃ (n : Fin 10000) (z : Fin 1), j = ix2 n z := ⟨j 0, j 1, eq_ix2 j⟩
    refine (andi_apply_eq_one _ _ _).2 ⟨?_, ?_⟩
    · show IntOp.cmpi .sge (ixA i (ix2 n z)) 0#32 = 1#1
      rw [hcol]
      exact IntOp.cmpi_sge.2 (by rw [h0]; exact (hi _).1)
    · show IntOp.cmpi .sle (ixA i (ix2 n z)) 92#32 = 1#1
      rw [hcol]
      exact IntOp.cmpi_sle.2 (by rw [hmax]; exact (hi _).2)
  unfold takeA
  rw [select_apply, hok, select_one]
  show Host.gather (rowGatherDims 93 10000 128 gather_S93x128_S10000x1_S10000x128_1_0_n_n_0_1_1128_wf) x (ixA i) (ix2 e q) = _
  rw [rowGather_apply (by decide : 0 < 93), hcol]

/-- take of a table of 10000 rows at 320000 indices that lie in [0, 9999], read at entry (e, q): row i e of the table. -/
theorem takeB_apply (x : FVec Ideal S10000x128 .f32) (i : IVec S320000 32)
    (hi : ∀ n, 0 ≤ (i n).toInt ∧ (i n).toInt ≤ 9999) (e : Fin 320000) (q : Fin 128) :
    takeB x i (ix2 e q) = x (ix2 (clampRow 10000 (by decide) (i (ix1 e))) q) := by
  have h0 : (0#32 : BitVec 32).toInt = 0 := by decide
  have hmax : (9999#32 : BitVec 32).toInt = 9999 := by decide
  have hcol : ∀ (n : Fin 320000) (z : Fin 1), ixB i (ix2 n z) = i (ix1 n) := fun n z => by
    unfold ixB
    rw [bcast_col_apply]
    exact wrap_nonneg _ _ (hi _).1
  have hok : okB (ixB i) (ix2 e q) = 1#1 := by
    unfold okB
    rw [bcast_vec_cols_apply]
    refine reduce_andi_of_all _ _ _ _ (fun _ => rfl) (fun j => ?_) _
    obtain ⟨n, z, rfl⟩ : ∃ (n : Fin 320000) (z : Fin 1), j = ix2 n z := ⟨j 0, j 1, eq_ix2 j⟩
    refine (andi_apply_eq_one _ _ _).2 ⟨?_, ?_⟩
    · show IntOp.cmpi .sge (ixB i (ix2 n z)) 0#32 = 1#1
      rw [hcol]
      exact IntOp.cmpi_sge.2 (by rw [h0]; exact (hi _).1)
    · show IntOp.cmpi .sle (ixB i (ix2 n z)) 9999#32 = 1#1
      rw [hcol]
      exact IntOp.cmpi_sle.2 (by rw [hmax]; exact (hi _).2)
  unfold takeB
  rw [select_apply, hok, select_one]
  show Host.gather (rowGatherDims 10000 320000 128 gather_S10000x128_S320000x1_S320000x128_1_0_n_n_0_1_1128_wf) x (ixB i) (ix2 e q) = _
  rw [rowGather_apply (by decide : 0 < 10000), hcol]

/-! ## The first result -/

/-- Subtracting one from a word that reads, signed, between 1 and 92 does not wrap. -/
theorem toInt_sub_one (x : BitVec 32) (h1 : 1 ≤ x.toInt) (h2 : x.toInt ≤ 92) : (x - 1#32).toInt = x.toInt - 1 := by
  have hl : x.toNat < 4294967296 := x.isLt
  have hx := BitVec.toInt_eq_toNat_cond x
  have hxn : (x.toNat : Int) = x.toInt := by
    split at hx <;> omega
  have hs : (x - 1#32).toNat = x.toNat - 1 := by
    rw [BitVec.toNat_sub]
    simp only [BitVec.toNat_ofNat]
    omega
  have hy := BitVec.toInt_eq_toNat_cond (x - 1#32)
  rw [hs] at hy
  split at hy <;> omega

/-- FIRST RESULT. With every atomic number in [1, 92] the reference's take(emb, z - 1) is the specification's Gh. -/
theorem Rh_eq (z : IVec S10000 32) (emb : FVec Ideal S93x128 .f32) (hz : ∀ n, 1 ≤ (z n).toInt ∧ (z n).toInt ≤ 92) :
    Rh z emb = Spec.Gh z emb := by
  funext j
  obtain ⟨n, c, rfl⟩ : ∃ (n : Fin 10000) (c : Fin 128), j = ix2 n c := ⟨j 0, j 1, eq_ix2 j⟩
  have hm : ∀ n : S10000.Idx,
      (subi z (broadcastInDim S10000 ![] bcast_S_S10000 (constantI S_ 32 1#32)) n).toInt = (z n).toInt - 1 :=
    fun n => toInt_sub_one (z n) (hz n).1 (hz n).2
  unfold Rh
  rw [takeA_apply _ _ (fun n => by rw [hm]; have := hz n; omega)]
  show emb (ix2 _ c) = emb (ix2 (Spec.zrow z n) c)
  refine congrArg (fun r => emb (ix2 r c)) (Fin.ext ?_)
  show min (subi z (broadcastInDim S10000 ![] bcast_S_S10000 (constantI S_ 32 1#32)) (ix1 n)).toInt.toNat (93 - 1)
    = min ((z (ix1 n)).toInt - 1).toNat 92
  rw [hm]

/-! ## The second result -/

/-- silu read at an entry. -/
theorem siluV_apply (x : FVec Ideal S320000x128 .f32) (j : S320000x128.Idx) : siluV x j = Spec.silu (x j) := by
  unfold siluV Spec.silu
  show x j * Ideal.div (Ideal.ofBits .f32 0x3F800000#32) (Ideal.ofBits .f32 0x3F800000#32 + Ideal.exp (-(x j))) = _
  rw [Ideal.ofBits_one_f32]

/-- The dense layer read at entry (e, o): the sum over the 272 columns of the concatenated row times row o of the
    weights, plus the bias. -/
theorem dense_apply (hi hj : FVec Ideal S320000x128 .f32) (rbf : FVec Ideal S320000x16 .f32) (W : FVec Ideal S128x272 .f32)
    (b : FVec Ideal S128 .f32) (e : Fin 320000) (o : Fin 128) :
    dense hi hj rbf W b (ix2 e o)
      = (∑ k : Fin 272, concatenate S320000x272 1 [⟨S320000x128, hi⟩, ⟨S320000x128, hj⟩, ⟨S320000x16, rbf⟩] concatenates_S320000x128_S320000x128_S320000x16_S320000x272_d1 (ix2 e k)
            * W (ix2 o k)) + b (ix1 o) := by
  unfold dense
  rw [addf_apply]
  have hb : broadcastInDim S320000x128 ![0, 1] bcast_S1x128_S320000x128_0_1 (broadcastInDim S1x128 ![1] bcast_S128_S1x128_1 b) (ix2 e o)
      = b (ix1 o) := by
    rw [bcast_cols_apply, bcast_rowvec_apply]
  rw [hb]
  refine congrArg (· + b (ix1 o)) ?_
  · show (Host.dotGeneral (F := Ideal) (DotDims.plain 320000 272 128) none
        (concatenate S320000x272 1 [⟨S320000x128, hi⟩, ⟨S320000x128, hj⟩, ⟨S320000x16, rbf⟩] concatenates_S320000x128_S320000x128_S320000x16_S320000x272_d1)
        (transpose S272x128 [1, 0] W transposes_S128x272_S272x128_1_0) : FVec Ideal ⟨2, ![320000, 128]⟩ .f32) (ix2 e o) = _
    rw [MatRows.dotGeneral_plain_apply]
    refine Finset.sum_congr rfl fun k _ => congrArg (_ * ·) ?_
    exact transpose_apply [1, 0] W transposes_S128x272_S272x128_1_0 (ix2 k o) (ix2 o k) (fun a => by
      match a with
      | ⟨0, _⟩ => rfl
      | ⟨1, _⟩ => rfl)

/-- An endpoint index in [0, 9999] is its own clamp: the gather's row is the specification's. -/
theorem clamp_src (ix : IVec S320000 32) (e : Fin 320000) : clampRow 10000 (by decide) (ix (ix1 e)) = Spec.src ix e := rfl

/-- The concatenated row of edge e at column k is the specification's cat. -/
theorem cat_apply (z : IVec S10000 32) (rbf : FVec Ideal S320000x16 .f32) (ii jj : IVec S320000 32) (emb : FVec Ideal S93x128 .f32)
    (hz : ∀ n, 1 ≤ (z n).toInt ∧ (z n).toInt ≤ 92) (hi : ∀ e, 0 ≤ (ii e).toInt ∧ (ii e).toInt ≤ 9999)
    (hj : ∀ e, 0 ≤ (jj e).toInt ∧ (jj e).toInt ≤ 9999) (e : Fin 320000) (k : Fin 272) :
    concatenate S320000x272 1 [⟨S320000x128, takeB (Rh z emb) ii⟩, ⟨S320000x128, takeB (Rh z emb) jj⟩, ⟨S320000x16, rbf⟩]
        concatenates_S320000x128_S320000x128_S320000x16_S320000x272_d1 (ix2 e k)
      = Spec.cat z rbf ii jj emb e k := by
  unfold Spec.cat
  by_cases h1 : k.val < 128
  · rw [dif_pos h1]
    refine (concatenate_apply_piece (t := S320000x272) (1 : Fin 2) [⟨S320000x128, takeB (Rh z emb) ii⟩, ⟨S320000x128, takeB (Rh z emb) jj⟩, ⟨S320000x16, rbf⟩] concatenates_S320000x128_S320000x128_S320000x16_S320000x272_d1 (ix2 e k) 0 (by show 0 < 3; omega) S320000x128
      (takeB (Rh z emb) ii) rfl rfl 0 rfl (ix2 e ⟨k.val, h1⟩) ?_ ?_).trans ?_
    · intro b hb
      match b, hb with
      | ⟨0, _⟩, _ => rfl
      | ⟨1, _⟩, hb => exact absurd rfl hb
    · show 0 + k.val = k.val
      omega
    · rw [takeB_apply _ _ hi, Rh_eq z emb hz, clamp_src]
  · rw [dif_neg h1]
    by_cases h2 : k.val < 256
    · rw [dif_pos h2]
      refine (concatenate_apply_piece (t := S320000x272) (1 : Fin 2) [⟨S320000x128, takeB (Rh z emb) ii⟩, ⟨S320000x128, takeB (Rh z emb) jj⟩, ⟨S320000x16, rbf⟩] concatenates_S320000x128_S320000x128_S320000x16_S320000x272_d1 (ix2 e k) 1 (by show 1 < 3; omega) S320000x128
        (takeB (Rh z emb) jj) rfl rfl 128 rfl (ix2 e ⟨k.val - 128, by omega⟩) ?_ ?_).trans ?_
      · intro b hb
        match b, hb with
        | ⟨0, _⟩, _ => rfl
        | ⟨1, _⟩, hb => exact absurd rfl hb
      · show 128 + (k.val - 128) = k.val
        omega
      · rw [takeB_apply _ _ hj, Rh_eq z emb hz, clamp_src]
    · rw [dif_neg h2]
      have hk := k.isLt
      refine concatenate_apply_piece (t := S320000x272) (1 : Fin 2) [⟨S320000x128, takeB (Rh z emb) ii⟩, ⟨S320000x128, takeB (Rh z emb) jj⟩, ⟨S320000x16, rbf⟩] concatenates_S320000x128_S320000x128_S320000x16_S320000x272_d1 (ix2 e k) 2 (by show 2 < 3; omega) S320000x16
        rbf rfl rfl 256 rfl (ix2 e ⟨k.val - 256, by omega⟩) ?_ ?_
      · intro b hb
        match b, hb with
        | ⟨0, _⟩, _ => rfl
        | ⟨1, _⟩, hb => exact absurd rfl hb
      · show 256 + (k.val - 256) = k.val
        omega

/-- SECOND RESULT. With the atomic numbers in [1, 92] and the endpoints in [0, 9999] the reference's composed term is the
    specification's Gm. -/
theorem Rm_eq (z : IVec S10000 32) (rbf : FVec Ideal S320000x16 .f32) (ii jj : IVec S320000 32) (emb : FVec Ideal S93x128 .f32)
    (W : FVec Ideal S128x272 .f32) (b : FVec Ideal S128 .f32)
    (hz : ∀ n, 1 ≤ (z n).toInt ∧ (z n).toInt ≤ 92) (hi : ∀ e, 0 ≤ (ii e).toInt ∧ (ii e).toInt ≤ 9999)
    (hj : ∀ e, 0 ≤ (jj e).toInt ∧ (jj e).toInt ≤ 9999) :
    Rm z rbf ii jj emb W b = Spec.Gm z rbf ii jj emb W b := by
  funext j
  obtain ⟨e, o, rfl⟩ : ∃ (e : Fin 320000) (o : Fin 128), j = ix2 e o := ⟨j 0, j 1, eq_ix2 j⟩
  unfold Rm
  rw [siluV_apply, dense_apply]
  show Spec.silu _ = Spec.silu (Spec.pre z rbf ii jj emb W b e o)
  unfold Spec.pre
  refine congrArg Spec.silu (congrArg (· + b (ix1 o)) (Finset.sum_congr rfl fun k _ => congrArg (· * W (ix2 o k)) ?_))
  exact cat_apply z rbf ii jj emb hz hi hj e k

/-! ## From the precondition itself -/

/-- FIRST RESULT, from the precondition: the predicate all ones puts the atomic numbers in range. -/
theorem Rh_eq_of_pre (z : IVec S10000 32) (rbf : FVec Ideal S320000x16 .f32) (ii jj : IVec S320000 32) (emb : FVec Ideal S93x128 .f32)
    (W : FVec Ideal S128x272 .f32) (b : FVec Ideal S128 .f32)
    (h : Cert.Pre_input_domain.fn (F := Ideal) z rbf ii jj emb W b = fun _ => 1#1) : Rh z emb = Spec.Gh z emb :=
  Rh_eq z emb (PreFacts.z_range z rbf ii jj emb W b h)

/-- SECOND RESULT, from the precondition. -/
theorem Rm_eq_of_pre (z : IVec S10000 32) (rbf : FVec Ideal S320000x16 .f32) (ii jj : IVec S320000 32) (emb : FVec Ideal S93x128 .f32)
    (W : FVec Ideal S128x272 .f32) (b : FVec Ideal S128 .f32)
    (h : Cert.Pre_input_domain.fn (F := Ideal) z rbf ii jj emb W b = fun _ => 1#1) :
    Rm z rbf ii jj emb W b = Spec.Gm z rbf ii jj emb W b :=
  Rm_eq z rbf ii jj emb W b (PreFacts.z_range z rbf ii jj emb W b h) (PreFacts.ii_range z rbf ii jj emb W b h)
    (PreFacts.jj_range z rbf ii jj emb W b h)

end Cert.Proof.RefValue

end
-- ==== Proof.lean ====
/-
  The five claims. Both kernel programs run under one launch theorem — three gather-and-add calls on the vector
  subcores between four dense stages on the main processor — and their frames are that run with the argument arrays
  read off the last valuation, which no step of the main program writes. The reference is a straight host program,
  whose run names both results as composed terms of the arguments. At the exact instance the kernel's embeddings
  array is row z n - 1 of the table; its messages array is, band by band of rows, the activation
  x / (1 + exp (0 - x)) of x = g_i[idx_i e] + g_j[idx_j e] + rbf_e · W[:, 256:272]ᵀ + b, with g_i, g_j the embeddings'
  images under the first two column bands of W: the reference's silu of the whole 272-long product plus b, since a
  finite sum splits at the bands and x · (1 / (1 + exp (-x))) is that quotient.
-/
import proofs.«206539_g3985729650836_cont_8to1_b_247_13_alg».proof.Defs
import proofs.«206539_g3985729650836_cont_8to1_b_247_13_alg».proof.Proof.Gen.Kernel
import proofs.«206539_g3985729650836_cont_8to1_b_247_13_alg».proof.Proof.Gen.KernelIdeal
import proofs.«206539_g3985729650836_cont_8to1_b_247_13_alg».proof.Proof.Gen.ReferenceIdeal
import proofs.«206539_g3985729650836_cont_8to1_b_247_13_alg».proof.Proof.Gen.Pre_input_domain
import proofs.«206539_g3985729650836_cont_8to1_b_247_13_alg».proof.Proof.Claims
import proofs.«206539_g3985729650836_cont_8to1_b_247_13_alg».proof.Proof.KClaims
import proofs.«206539_g3985729650836_cont_8to1_b_247_13_alg».proof.Proof.Tile1
import proofs.«206539_g3985729650836_cont_8to1_b_247_13_alg».proof.Proof.Tile2
import proofs.«206539_g3985729650836_cont_8to1_b_247_13_alg».proof.Proof.Tile3
import proofs.«206539_g3985729650836_cont_8to1_b_247_13_alg».proof.Proof.KTile1
import proofs.«206539_g3985729650836_cont_8to1_b_247_13_alg».proof.Proof.KTile2
import proofs.«206539_g3985729650836_cont_8to1_b_247_13_alg».proof.Proof.KTile3
import proofs.«206539_g3985729650836_cont_8to1_b_247_13_alg».proof.Proof.KernelValues
import proofs.«206539_g3985729650836_cont_8to1_b_247_13_alg».proof.Proof.RefRun
import proofs.«206539_g3985729650836_cont_8to1_b_247_13_alg».proof.Proof.RefValue

noncomputable section

namespace Cert.Proof

open Idealize.ShloMosaic Idealize.SL.Sem

theorem tilesKI (m : (ℓ : Loc Cert.KernelIdeal.nD Cert.KernelIdeal.τ Cert.KernelIdeal.sig) → Buf (Elt Ideal) ℓ) : KI.Tiles (F := Ideal) m :=
  fun GI GJ h => ⟨KI.tileObl_0 m GI GJ h, KI.T2.tileObl_1 m GI GJ h, KI.T3.tileObl_2 m GI GJ h⟩
theorem tilesKB (m : (ℓ : Loc Cert.Kernel.nD Cert.Kernel.τ Cert.Kernel.sig) → Buf (Elt Bits) ℓ) : KB.Tiles (F := Bits) m :=
  fun GI GJ h => ⟨KB.tileObl_0 m GI GJ h, KB.T2.tileObl_1 m GI GJ h, KB.T3.tileObl_2 m GI GJ h⟩

theorem frame_k : Cert.frame_Kernel := fun m g hpre => KB.frame_of_tiles (F := Bits) m g hpre (tilesKB m)
theorem frame_ki : Cert.frame_KernelIdeal := fun m g hpre => KI.frame_of_tiles (F := Ideal) m g hpre (tilesKI m)
theorem frame_ri : Cert.frame_ReferenceIdeal := fun m g _ =>
  (θ_run (Cert.ReferenceIdeal.defs (F := Ideal)) _ _).mono (fun _ h c => (h c).2.2) (Cert.Proof.RefRun.run (F := Ideal) m g)

theorem algebraic : Cert.algebraic_KernelIdeal_ReferenceIdeal := by
  intro m g m' g' hpre hagree
  have hz := fun c => Cert.Proof.PreFacts.z_range _ _ _ _ _ _ _ (hpre c)
  have hi := fun c => Cert.Proof.PreFacts.ii_range _ _ _ _ _ _ _ (hpre c)
  have hj := fun c => Cert.Proof.PreFacts.jj_range _ _ _ _ _ _ _ (hpre c)
  refine ⟨fun c => Cert.Proof.Spec.Gh (m (KI.zLoc c)) (m (KI.embLoc c)),
    fun c => Cert.Proof.Spec.Gm (m (KI.zLoc c)) (m (KI.rbfLoc c)) (m (KI.iiLoc c)) (m (KI.jjLoc c)) (m (KI.embLoc c)) (m (KI.wLoc c)) (m (KI.bLoc c)), ?_, ?_⟩
  · refine (θ_run (Cert.KernelIdeal.defs (F := Ideal)) _ _).mono (fun r h c => ?_) (KI.run_values (F := Ideal) m g hpre (tilesKI m))
    exact ⟨(h c).1.trans (KI.kernel_h m c (hz c)), (h c).2.1.trans (KI.kernel_out m c (hz c) (hi c) (hj c)), (h c).2.2⟩
  · refine (θ_run (Cert.ReferenceIdeal.defs (F := Ideal)) _ _).mono (fun r h c => ?_) (Cert.Proof.RefRun.run (F := Ideal) m' g')
    have hpre' : Cert.Pre_input_domain.fn (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = fun _ => 1#1 := by
      rw [(hagree c).1, (hagree c).2.1, (hagree c).2.2.1, (hagree c).2.2.2.1, (hagree c).2.2.2.2.1, (hagree c).2.2.2.2.2.1, (hagree c).2.2.2.2.2.2]
      exact hpre c
    refine ⟨(h c).1.trans ?_, (h c).2.1.trans ?_, (h c).2.2⟩
    · rw [Cert.Proof.RefValue.Rh_eq_of_pre _ _ _ _ _ _ _ hpre', (hagree c).1, (hagree c).2.2.2.2.1]
    · rw [Cert.Proof.RefValue.Rm_eq_of_pre _ _ _ _ _ _ _ hpre', (hagree c).1, (hagree c).2.1, (hagree c).2.2.1, (hagree c).2.2.2.1, (hagree c).2.2.2.2.1,
        (hagree c).2.2.2.2.2.1, (hagree c).2.2.2.2.2.2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
